-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v164) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S64x64 : Shape := ⟨2, ![64, 64]⟩
abbrev S100000 : Shape := ⟨1, ![100000]⟩
abbrev S50000 : Shape := ⟨1, ![50000]⟩
abbrev S1000000 : Shape := ⟨1, ![1000000]⟩
abbrev S500000 : Shape := ⟨1, ![500000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64x64 .f32) (main_arg8 : FVec F S64x64 .f32) (main_arg9 : FVec F S64x64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  main_v48

def fn_part1 {F : FTy → Type} [FloatOps F] (main_arg4 : FVec F S64x64 .f32) (main_arg5 : FVec F S64x64 .f32) (main_arg6 : FVec F S64x64 .f32) (main_arg7 : FVec F S64x64 .f32) (main_arg8 : FVec F S64x64 .f32) (main_arg9 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x64 .f32) (main_arg1 : FVec F S50000x64 .f32) (main_arg2 : FVec F S64x64 .f32) (main_arg3 : FVec F S64x64 .f32) (main_arg4 : FVec F S64x64 .f32) (main_arg5 : FVec F S64x64 .f32) (main_arg6 : FVec F S64x64 .f32) (main_arg7 : FVec F S64x64 .f32) (main_arg8 : FVec F S64x64 .f32) (main_arg9 : FVec F S64x64 .f32) (main_arg10 : IVec S100000 32) (main_arg11 : IVec S50000 32) (main_arg12 : IVec S1000000 32) (main_arg13 : IVec S1000000 32) (main_arg14 : IVec S500000 32) (main_arg15 : IVec S500000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_v13 main_v16
-- ==== Kernel.lean ====
abbrev S100000x64 : Shape := ⟨2, ![100000, 64]⟩
abbrev S50000x64 : Shape := ⟨2, ![50000, 64]⟩
abbrev S64x64 : Shape := ⟨2, ![64, 64]⟩
abbrev S100000 : Shape := ⟨1, ![100000]⟩
abbrev S50000 : Shape := ⟨1, ![50000]⟩
abbrev S1000000 : Shape := ⟨1, ![1000000]⟩
abbrev S500000 : Shape := ⟨1, ![500000]⟩
abbrev S_ : Shape := ⟨0, ![]⟩
abbrev S100000x1 : Shape := ⟨2, ![100000, 1]⟩
abbrev S50000x1 : Shape := ⟨2, ![50000, 1]⟩
abbrev S1000000x1 : Shape := ⟨2, ![1000000, 1]⟩
abbrev S5000x64 : Shape := ⟨2, ![5000, 64]⟩
abbrev S1000000x64 : Shape := ⟨2, ![1000000, 64]⟩
abbrev S8000x64 : Shape := ⟨2, ![8000, 64]⟩
abbrev S8000x1 : Shape := ⟨2, ![8000, 1]⟩
abbrev S100000x192 : Shape := ⟨2, ![100000, 192]⟩
abbrev S50000x192 : Shape := ⟨2, ![50000, 192]⟩
abbrev S500000x1 : Shape := ⟨2, ![500000, 1]⟩
abbrev S500000x192 : Shape := ⟨2, ![500000, 192]⟩
abbrev S5000x192 : Shape := ⟨2, ![5000, 192]⟩
abbrev S5000x1 : Shape := ⟨2, ![5000, 1]⟩
abbrev S5000 : Shape := ⟨1, ![5000]⟩

abbrev nBuf : Space → Nat
  | .hbm => 225
  | .vmem => 98
  | .smem => 0
  | _ => 0

abbrev hbmTy0_0 (i : Nat) : BufTy := match i % 128 with
  | 0 => ⟨S100000x64, .f32⟩
  | 1 => ⟨S50000x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S64x64, .f32⟩
  | 10 => ⟨S100000, .i32⟩
  | 11 => ⟨S50000, .i32⟩
  | 12 => ⟨S1000000, .i32⟩
  | 13 => ⟨S1000000, .i32⟩
  | 14 => ⟨S500000, .i32⟩
  | 15 => ⟨S500000, .i32⟩
  | 16 => ⟨S_, .i32⟩
  | 17 => ⟨S100000, .i32⟩
  | 18 => ⟨S100000, .i1⟩
  | 19 => ⟨S_, .i32⟩
  | 20 => ⟨S100000, .i32⟩
  | 21 => ⟨S100000, .i32⟩
  | 22 => ⟨S100000, .i32⟩
  | 23 => ⟨S100000x1, .i32⟩
  | 24 => ⟨S100000x64, .f32⟩
  | 25 => ⟨S_, .i32⟩
  | 26 => ⟨S50000, .i32⟩
  | 27 => ⟨S50000, .i1⟩
  | 28 => ⟨S_, .i32⟩
  | 29 => ⟨S50000, .i32⟩
  | 30 => ⟨S50000, .i32⟩
  | 31 => ⟨S50000, .i32⟩
  | 32 => ⟨S50000x1, .i32⟩
  | 33 => ⟨S50000x64, .f32⟩
  | 34 => ⟨S_, .f32⟩
  | 35 => ⟨S1000000, .f32⟩
  | 36 => ⟨S_, .f32⟩
  | 37 => ⟨S100000, .f32⟩
  | 38 => ⟨S1000000x1, .i32⟩
  | 39 => ⟨S100000, .f32⟩
  | 40 => ⟨S_, .f32⟩
  | 41 => ⟨S1000000, .f32⟩
  | 42 => ⟨S_, .f32⟩
  | 43 => ⟨S50000, .f32⟩
  | 44 => ⟨S1000000x1, .i32⟩
  | 45 => ⟨S50000, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S1000000, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000, .f32⟩
  | 64 => ⟨S1000000, .f32⟩
  | 65 => ⟨S1000000, .f32⟩
  | 66 => ⟨S1000000x1, .f32⟩
  | 67 => ⟨S100000x64, .f32⟩
  | 68 => ⟨S_, .i32⟩
  | 69 => ⟨S1000000, .i32⟩
  | 70 => ⟨S1000000, .i1⟩
  | 71 => ⟨S_, .i32⟩
  | 72 => ⟨S1000000, .i32⟩
  | 73 => ⟨S1000000, .i32⟩
  | 74 => ⟨S1000000, .i32⟩
  | 75 => ⟨S1000000x1, .i32⟩
  | 76 => ⟨S1000000x64, .f32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S1000000x1, .i32⟩
  | 85 => ⟨S1000000x64, .f32⟩
  | 86 => ⟨S_, .i32⟩
  | 87 => ⟨S1000000, .i32⟩
  | 88 => ⟨S1000000, .i1⟩
  | 89 => ⟨S_, .i32⟩
  | 90 => ⟨S1000000, .i32⟩
  | 91 => ⟨S1000000, .i32⟩
  | 92 => ⟨S1000000, .i32⟩
  | 93 => ⟨S1000000x1, .i32⟩
  | 94 => ⟨S1000000x64, .f32⟩
  | 95 => ⟨S1000000x64, .f32⟩
  | 96 => ⟨S_, .f32⟩
  | 97 => ⟨S50000x64, .f32⟩
  | 98 => ⟨S1000000x1, .i32⟩
  | 99 => ⟨S50000x64, .f32⟩
  | 100 => ⟨S50000x64, .f32⟩
  | 101 => ⟨S50000x64, .f32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S1000000x1, .i32⟩
  | 110 => ⟨S1000000x64, .f32⟩
  | 111 => ⟨S_, .i32⟩
  | 112 => ⟨S1000000, .i32⟩
  | 113 => ⟨S1000000, .i1⟩
  | 114 => ⟨S_, .i32⟩
  | 115 => ⟨S1000000, .i32⟩
  | 116 => ⟨S1000000, .i32⟩
  | 117 => ⟨S1000000, .i32⟩
  | 118 => ⟨S1000000x1, .i32⟩
  | 119 => ⟨S1000000x64, .f32⟩
  | 120 => ⟨S_, .i32⟩
  | 121 => ⟨S1000000, .i32⟩
  | 122 => ⟨S1000000, .i1⟩
  | 123 => ⟨S_, .i32⟩
  | 124 => ⟨S1000000, .i32⟩
  | 125 => ⟨S1000000, .i32⟩
  | 126 => ⟨S1000000, .i32⟩
  | 127 => ⟨S1000000x1, .i32⟩
  | _ => ⟨S100000x64, .f32⟩

abbrev hbmTy0_1 (i : Nat) : BufTy := match i % 128 with
  | 0 => ⟨S1000000x64, .f32⟩
  | 1 => ⟨S1000000x64, .f32⟩
  | 2 => ⟨S_, .f32⟩
  | 3 => ⟨S100000x64, .f32⟩
  | 4 => ⟨S1000000x1, .i32⟩
  | 5 => ⟨S100000x64, .f32⟩
  | 6 => ⟨S100000x64, .f32⟩
  | 7 => ⟨S100000x64, .f32⟩
  | 8 => ⟨S_, .i32⟩
  | 9 => ⟨S1000000, .i32⟩
  | 10 => ⟨S1000000, .i1⟩
  | 11 => ⟨S_, .i32⟩
  | 12 => ⟨S1000000, .i32⟩
  | 13 => ⟨S1000000, .i32⟩
  | 14 => ⟨S1000000, .i32⟩
  | 15 => ⟨S1000000x1, .i32⟩
  | 16 => ⟨S1000000x64, .f32⟩
  | 17 => ⟨S_, .i32⟩
  | 18 => ⟨S1000000, .i32⟩
  | 19 => ⟨S1000000, .i1⟩
  | 20 => ⟨S_, .i32⟩
  | 21 => ⟨S1000000, .i32⟩
  | 22 => ⟨S1000000, .i32⟩
  | 23 => ⟨S1000000, .i32⟩
  | 24 => ⟨S1000000x1, .i32⟩
  | 25 => ⟨S1000000x64, .f32⟩
  | 26 => ⟨S_, .i32⟩
  | 27 => ⟨S1000000, .i32⟩
  | 28 => ⟨S1000000, .i1⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1000000x64, .f32⟩
  | 35 => ⟨S1000000x64, .f32⟩
  | 36 => ⟨S_, .f32⟩
  | 37 => ⟨S50000x64, .f32⟩
  | 38 => ⟨S1000000x1, .i32⟩
  | 39 => ⟨S50000x64, .f32⟩
  | 40 => ⟨S50000x64, .f32⟩
  | 41 => ⟨S50000x64, .f32⟩
  | 42 => ⟨S_, .i32⟩
  | 43 => ⟨S1000000, .i32⟩
  | 44 => ⟨S1000000, .i1⟩
  | 45 => ⟨S_, .i32⟩
  | 46 => ⟨S1000000, .i32⟩
  | 47 => ⟨S1000000, .i32⟩
  | 48 => ⟨S1000000, .i32⟩
  | 49 => ⟨S1000000x1, .i32⟩
  | 50 => ⟨S1000000x64, .f32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S1000000x1, .i32⟩
  | 59 => ⟨S1000000x64, .f32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000x64, .f32⟩
  | 69 => ⟨S1000000x64, .f32⟩
  | 70 => ⟨S_, .f32⟩
  | 71 => ⟨S100000x64, .f32⟩
  | 72 => ⟨S1000000x1, .i32⟩
  | 73 => ⟨S100000x64, .f32⟩
  | 74 => ⟨S100000x64, .f32⟩
  | 75 => ⟨S100000x192, .f32⟩
  | 76 => ⟨S50000x192, .f32⟩
  | 77 => ⟨S_, .i32⟩
  | 78 => ⟨S500000, .i32⟩
  | 79 => ⟨S500000, .i1⟩
  | 80 => ⟨S_, .i32⟩
  | 81 => ⟨S500000, .i32⟩
  | 82 => ⟨S500000, .i32⟩
  | 83 => ⟨S500000, .i32⟩
  | 84 => ⟨S500000x1, .i32⟩
  | 85 => ⟨S500000x192, .f32⟩
  | 86 => ⟨S_, .i32⟩
  | 87 => ⟨S500000, .i32⟩
  | 88 => ⟨S500000, .i1⟩
  | 89 => ⟨S_, .i32⟩
  | 90 => ⟨S500000, .i32⟩
  | 91 => ⟨S500000, .i32⟩
  | 92 => ⟨S500000, .i32⟩
  | 93 => ⟨S500000x1, .i32⟩
  | 94 => ⟨S500000x192, .f32⟩
  | 95 => ⟨S500000x1, .f32⟩
  | 96 => ⟨S500000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S8000x64, .f32⟩
  | .local _ .vmem, ⟨6, _⟩ => ⟨S8000x64, .f32⟩
  | .local _ .vmem, ⟨7, _⟩ => ⟨S8000x64, .f32⟩
  | .local _ .vmem, ⟨8, _⟩ => ⟨S8000x64, .f32⟩
  | .local _ .vmem, ⟨9, _⟩ => ⟨S8000x64, .f32⟩
  | .local _ .vmem, ⟨10, _⟩ => ⟨S8000x64, .f32⟩
  | .local _ .vmem, ⟨11, _⟩ => ⟨S8000x1, .f32⟩
  | .local _ .vmem, ⟨12, _⟩ => ⟨S8000x1, .f32⟩
  | .local _ .vmem, ⟨13, _⟩ => ⟨S64x64, .f32⟩
  | .local _ .vmem, ⟨14, _⟩ => ⟨S8000x64, .f32⟩
  | .local _ .vmem, ⟨15, _⟩ => ⟨S8000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S64x64, .f32⟩
  | .local _ .vmem, ⟨26, _⟩ => ⟨S5000x64, .f32⟩
  | .local _ .vmem, ⟨27, _⟩ => ⟨S5000x64, .f32⟩
  | .local _ .vmem, ⟨28, _⟩ => ⟨S8000x64, .f32⟩
  | .local _ .vmem, ⟨29, _⟩ => ⟨S8000x64, .f32⟩
  | .local _ .vmem, ⟨30, _⟩ => ⟨S8000x64, .f32⟩
  | .local _ .vmem, ⟨31, _⟩ => ⟨S8000x64, .f32⟩
  | .local _ .vmem, ⟨32, _⟩ => ⟨S8000x64, .f32⟩
  | .local _ .vmem, ⟨33, _⟩ => ⟨S8000x64, .f32⟩
  | .local _ .vmem, ⟨34, _⟩ => ⟨S8000x1, .f32⟩
  | .local _ .vmem, ⟨35, _⟩ => ⟨S8000x1, .f32⟩
  | .local _ .vmem, ⟨36, _⟩ => ⟨S64x64, .f32⟩
  | .local _ .vmem, ⟨37, _⟩ => ⟨S8000x64, .f32⟩
  | .local _ .vmem, ⟨38, _⟩ => ⟨S8000x64, .f32⟩
  | .local _ .vmem, ⟨39, _⟩ => ⟨S5000x64, .f32⟩
  | .local _ .vmem, ⟨40, _⟩ => ⟨S5000x64, .f32⟩
  | .local _ .vmem, ⟨41, _⟩ => ⟨S64x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S64x64, .f32⟩
  | .local _ .vmem, ⟨49, _⟩ => ⟨S5000x64, .f32⟩
  | .local _ .vmem, ⟨50, _⟩ => ⟨S5000x64, .f32⟩
  | .local _ .vmem, ⟨51, _⟩ => ⟨S8000x64, .f32⟩
  | .local _ .vmem, ⟨52, _⟩ => ⟨S8000x64, .f32⟩
  | .local _ .vmem, ⟨53, _⟩ => ⟨S8000x64, .f32⟩
  | .local _ .vmem, ⟨54, _⟩ => ⟨S8000x64, .f32⟩
  | .local _ .vmem, ⟨55, _⟩ => ⟨S8000x64, .f32⟩
  | .local _ .vmem, ⟨56, _⟩ => ⟨S8000x64, .f32⟩
  | .local _ .vmem, ⟨57, _⟩ => ⟨S8000x1, .f32⟩
  | .local _ .vmem, ⟨58, _⟩ => ⟨S8000x1, .f32⟩
  | .local _ .vmem, ⟨59, _⟩ => ⟨S64x64, .f32⟩
  | .local _ .vmem, ⟨60, _⟩ => ⟨S8000x64, .f32⟩
  | .local _ .vmem, ⟨61, _⟩ => ⟨S8000x64, .f32⟩
  | .local _ .vmem, ⟨62, _⟩ => ⟨S5000x64, .f32⟩
  | .local _ .vmem, ⟨63, _⟩ => ⟨S5000x64, .f32⟩
  | .local _ .vmem, ⟨64, _⟩ => ⟨S64x64, .f32⟩
  | .local _ .vmem, ⟨65, _⟩ => ⟨S5000x64, .f32⟩
  | .local _ .vmem, ⟨66, _⟩ => ⟨S5000x64, .f32⟩
  | .local _ .vmem, ⟨67, _⟩ => ⟨S5000x64, .f32⟩
  | .local _ .vmem, ⟨68, _⟩ => ⟨S5000x64, .f32⟩
  | .local _ .vmem, ⟨69, _⟩ => ⟨S5000x64, .f32⟩
  | .local _ .vmem, ⟨70, _⟩ => ⟨S5000x64, .f32⟩
  | .local _ .vmem, ⟨71, _⟩ => ⟨S64x64, .f32⟩
  | .local _ .vmem, ⟨72, _⟩ => ⟨S5000x64, .f32⟩
  | .local _ .vmem, ⟨73, _⟩ => ⟨S5000x64, .f32⟩
  | .local _ .vmem, ⟨74, _⟩ => ⟨S8000x64, .f32⟩
  | .local _ .vmem, ⟨75, _⟩ => ⟨S8000x64, .f32⟩
  | .local _ .vmem, ⟨76, _⟩ => ⟨S8000x64, .f32⟩
  | .local _ .vmem, ⟨77, _⟩ => ⟨S8000x64, .f32⟩
  | .local _ .vmem, ⟨78, _⟩ => ⟨S8000x64, .f32⟩
  | .local _ .vmem, ⟨79, _⟩ => ⟨S8000x64, .f32⟩
  | .local _ .vmem, ⟨80, _⟩ => ⟨S8000x1, .f32⟩
  | .local _ .vmem, ⟨81, _⟩ => ⟨S8000x1, .f32⟩
  | .local _ .vmem, ⟨82, _⟩ => ⟨S64x64, .f32⟩
  | .local _ .vmem, ⟨83, _⟩ => ⟨S8000x64, .f32⟩
  | .local _ .vmem, ⟨84, _⟩ => ⟨S8000x64, .f32⟩
  | .local _ .vmem, ⟨85, _⟩ => ⟨S5000x64, .f32⟩
  | .local _ .vmem, ⟨86, _⟩ => ⟨S5000x64, .f32⟩
  | .local _ .vmem, ⟨87, _⟩ => ⟨S64x64, .f32⟩
  | .local _ .vmem, ⟨88, _⟩ => ⟨S5000x64, .f32⟩
  | .local _ .vmem, ⟨89, _⟩ => ⟨S5000x64, .f32⟩
  | .local _ .vmem, ⟨90, _⟩ => ⟨S5000x64, .f32⟩
  | .local _ .vmem, ⟨91, _⟩ => ⟨S5000x64, .f32⟩
  | .local _ .vmem, ⟨92, _⟩ => ⟨S5000x192, .f32⟩
  | .local _ .vmem, ⟨93, _⟩ => ⟨S5000x192, .f32⟩
  | .local _ .vmem, ⟨94, _⟩ => ⟨S5000x192, .f32⟩
  | .local _ .vmem, ⟨95, _⟩ => ⟨S5000x192, .f32⟩
  | .local _ .vmem, ⟨96, _⟩ => ⟨S5000x1, .f32⟩
  | .local _ .vmem, ⟨97, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | _, _ => false

abbrev semScoped : Fin 0 → Bool
  | ⟨_, h⟩ => absurd h (Nat.not_lt_zero _)

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  ofTc nBuf bufTy 0 98 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_v18 : Ref sig .tc := ⟨.hbm, 41, rfl⟩
abbrev main_cst_5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_6 : Ref sig .tc := ⟨.hbm, 46, rfl⟩
abbrev main_v22 : Ref sig .tc := ⟨.hbm, 47, rfl⟩
abbrev main_v23 : Ref sig .tc := ⟨.hbm, 48, rfl⟩
abbrev main_c_7 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_8 : Ref sig .tc := ⟨.hbm, 55, rfl⟩
abbrev main_v29 : Ref sig .tc := ⟨.hbm, 56, rfl⟩
abbrev main_v30 : Ref sig .tc := ⟨.hbm, 57, rfl⟩
abbrev main_c_9 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_10 : Ref sig .tc := ⟨.hbm, 68, rfl⟩
abbrev main_v40 : Ref sig .tc := ⟨.hbm, 69, rfl⟩
abbrev main_v41 : Ref sig .tc := ⟨.hbm, 70, rfl⟩
abbrev main_c_11 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_c_12 : Ref sig .tc := ⟨.hbm, 77, rfl⟩
abbrev main_v47 : Ref sig .tc := ⟨.hbm, 78, rfl⟩
abbrev main_v48 : Ref sig .tc := ⟨.hbm, 79, rfl⟩
abbrev main_c_13 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_14 : Ref sig .tc := ⟨.hbm, 86, rfl⟩
abbrev main_v54 : Ref sig .tc := ⟨.hbm, 87, rfl⟩
abbrev main_v55 : Ref sig .tc := ⟨.hbm, 88, rfl⟩
abbrev main_c_15 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_16 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c_17 : Ref sig .tc := ⟨.hbm, 102, rfl⟩
abbrev main_v67 : Ref sig .tc := ⟨.hbm, 103, rfl⟩
abbrev main_v68 : Ref sig .tc := ⟨.hbm, 104, rfl⟩
abbrev main_c_18 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_19 : Ref sig .tc := ⟨.hbm, 111, rfl⟩
abbrev main_v74 : Ref sig .tc := ⟨.hbm, 112, rfl⟩
abbrev main_v75 : Ref sig .tc := ⟨.hbm, 113, rfl⟩
abbrev main_c_20 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_21 : Ref sig .tc := ⟨.hbm, 120, rfl⟩
abbrev main_v81 : Ref sig .tc := ⟨.hbm, 121, rfl⟩
abbrev main_v82 : Ref sig .tc := ⟨.hbm, 122, rfl⟩
abbrev main_c_22 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_23 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_c_24 : Ref sig .tc := ⟨.hbm, 136, rfl⟩
abbrev main_v94 : Ref sig .tc := ⟨.hbm, 137, rfl⟩
abbrev main_v95 : Ref sig .tc := ⟨.hbm, 138, rfl⟩
abbrev main_c_25 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_c_26 : Ref sig .tc := ⟨.hbm, 145, rfl⟩
abbrev main_v101 : Ref sig .tc := ⟨.hbm, 146, rfl⟩
abbrev main_v102 : Ref sig .tc := ⟨.hbm, 147, rfl⟩
abbrev main_c_27 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_c_28 : Ref sig .tc := ⟨.hbm, 154, rfl⟩
abbrev main_v108 : Ref sig .tc := ⟨.hbm, 155, rfl⟩
abbrev main_v109 : Ref sig .tc := ⟨.hbm, 156, rfl⟩
abbrev main_c_29 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_30 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_c_31 : Ref sig .tc := ⟨.hbm, 170, rfl⟩
abbrev main_v121 : Ref sig .tc := ⟨.hbm, 171, rfl⟩
abbrev main_v122 : Ref sig .tc := ⟨.hbm, 172, rfl⟩
abbrev main_c_32 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_c_33 : Ref sig .tc := ⟨.hbm, 179, rfl⟩
abbrev main_v128 : Ref sig .tc := ⟨.hbm, 180, rfl⟩
abbrev main_v129 : Ref sig .tc := ⟨.hbm, 181, rfl⟩
abbrev main_c_34 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_c_35 : Ref sig .tc := ⟨.hbm, 188, rfl⟩
abbrev main_v135 : Ref sig .tc := ⟨.hbm, 189, rfl⟩
abbrev main_v136 : Ref sig .tc := ⟨.hbm, 190, rfl⟩
abbrev main_c_36 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_cst_37 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_c_38 : Ref sig .tc := ⟨.hbm, 205, rfl⟩
abbrev main_v149 : Ref sig .tc := ⟨.hbm, 206, rfl⟩
abbrev main_v150 : Ref sig .tc := ⟨.hbm, 207, rfl⟩
abbrev main_c_39 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_c_40 : Ref sig .tc := ⟨.hbm, 214, rfl⟩
abbrev main_v156 : Ref sig .tc := ⟨.hbm, 215, rfl⟩
abbrev main_v157 : Ref sig .tc := ⟨.hbm, 216, rfl⟩
abbrev main_c_41 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg5_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg3_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg2_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg1_1 : Ref sig .tc := ⟨.vmem, 54, rfl⟩
abbrev cc7_stg2_0 : Ref sig .tc := ⟨.vmem, 55, rfl⟩
abbrev cc7_stg2_1 : Ref sig .tc := ⟨.vmem, 56, rfl⟩
abbrev cc7_stg3_0 : Ref sig .tc := ⟨.vmem, 57, rfl⟩
abbrev cc7_stg3_1 : Ref sig .tc := ⟨.vmem, 58, rfl⟩
abbrev cc7_stg4_0 : Ref sig .tc := ⟨.vmem, 59, rfl⟩
abbrev cc7_stg5_0 : Ref sig .tc := ⟨.vmem, 60, rfl⟩
abbrev cc7_stg5_1 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg2_0 : Ref sig .tc := ⟨.vmem, 65, rfl⟩
abbrev cc8_stg2_1 : Ref sig .tc := ⟨.vmem, 66, rfl⟩
abbrev cc8_stg3_0 : Ref sig .tc := ⟨.vmem, 67, rfl⟩
abbrev cc8_stg3_1 : Ref sig .tc := ⟨.vmem, 68, rfl⟩
abbrev cc9_stg0_0 : Ref sig .tc := ⟨.vmem, 69, rfl⟩
abbrev cc9_stg0_1 : Ref sig .tc := ⟨.vmem, 70, rfl⟩
abbrev cc9_stg1_0 : Ref sig .tc := ⟨.vmem, 71, rfl⟩
abbrev cc9_stg2_0 : Ref sig .tc := ⟨.vmem, 72, rfl⟩
abbrev cc9_stg2_1 : Ref sig .tc := ⟨.vmem, 73, rfl⟩
abbrev cc10_stg0_0 : Ref sig .tc := ⟨.vmem, 74, rfl⟩
abbrev cc10_stg0_1 : Ref sig .tc := ⟨.vmem, 75, rfl⟩
abbrev cc10_stg1_0 : Ref sig .tc := ⟨.vmem, 76, rfl⟩
abbrev cc10_stg1_1 : Ref sig .tc := ⟨.vmem, 77, rfl⟩
abbrev cc10_stg2_0 : Ref sig .tc := ⟨.vmem, 78, rfl⟩
abbrev cc10_stg2_1 : Ref sig .tc := ⟨.vmem, 79, rfl⟩
abbrev cc10_stg3_0 : Ref sig .tc := ⟨.vmem, 80, rfl⟩
abbrev cc10_stg3_1 : Ref sig .tc := ⟨.vmem, 81, rfl⟩
abbrev cc10_stg4_0 : Ref sig .tc := ⟨.vmem, 82, rfl⟩
abbrev cc10_stg5_0 : Ref sig .tc := ⟨.vmem, 83, rfl⟩
abbrev cc10_stg5_1 : Ref sig .tc := ⟨.vmem, 84, rfl⟩
abbrev cc11_stg0_0 : Ref sig .tc := ⟨.vmem, 85, rfl⟩
abbrev cc11_stg0_1 : Ref sig .tc := ⟨.vmem, 86, rfl⟩
abbrev cc11_stg1_0 : Ref sig .tc := ⟨.vmem, 87, rfl⟩
abbrev cc11_stg2_0 : Ref sig .tc := ⟨.vmem, 88, rfl⟩
abbrev cc11_stg2_1 : Ref sig .tc := ⟨.vmem, 89, rfl⟩
abbrev cc11_stg3_0 : Ref sig .tc := ⟨.vmem, 90, rfl⟩
abbrev cc11_stg3_1 : Ref sig .tc := ⟨.vmem, 91, rfl⟩
abbrev cc12_stg0_0 : Ref sig .tc := ⟨.vmem, 92, rfl⟩
abbrev cc12_stg0_1 : Ref sig .tc := ⟨.vmem, 93, rfl⟩
abbrev cc12_stg1_0 : Ref sig .tc := ⟨.vmem, 94, rfl⟩
abbrev cc12_stg1_1 : Ref sig .tc := ⟨.vmem, 95, rfl⟩
abbrev cc12_stg2_0 : Ref sig .tc := ⟨.vmem, 96, rfl⟩
abbrev cc12_stg2_1 : Ref sig .tc := ⟨.vmem, 97, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc4_sem4_0 : DmaSem sig := 36
abbrev cc4_sem5_0 : DmaSem sig := 37
abbrev cc4_sem5_1 : DmaSem sig := 38
abbrev cc5_sem0_0 : DmaSem sig := 39
abbrev cc5_sem0_1 : DmaSem sig := 40
abbrev cc5_sem1_0 : DmaSem sig := 41
abbrev cc5_sem2_0 : DmaSem sig := 42
abbrev cc5_sem2_1 : DmaSem sig := 43
abbrev cc5_sem3_0 : DmaSem sig := 44
abbrev cc5_sem3_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem2_1 : DmaSem sig := 50
abbrev cc7_sem0_0 : DmaSem sig := 51
abbrev cc7_sem0_1 : DmaSem sig := 52
abbrev cc7_sem1_0 : DmaSem sig := 53
abbrev cc7_sem1_1 : DmaSem sig := 54
abbrev cc7_sem2_0 : DmaSem sig := 55
abbrev cc7_sem2_1 : DmaSem sig := 56
abbrev cc7_sem3_0 : DmaSem sig := 57
abbrev cc7_sem3_1 : DmaSem sig := 58
abbrev cc7_sem4_0 : DmaSem sig := 59
abbrev cc7_sem5_0 : DmaSem sig := 60
abbrev cc7_sem5_1 : DmaSem sig := 61
abbrev cc8_sem0_0 : DmaSem sig := 62
abbrev cc8_sem0_1 : DmaSem sig := 63
abbrev cc8_sem1_0 : DmaSem sig := 64
abbrev cc8_sem2_0 : DmaSem sig := 65
abbrev cc8_sem2_1 : DmaSem sig := 66
abbrev cc8_sem3_0 : DmaSem sig := 67
abbrev cc8_sem3_1 : DmaSem sig := 68
abbrev cc9_sem0_0 : DmaSem sig := 69
abbrev cc9_sem0_1 : DmaSem sig := 70
abbrev cc9_sem1_0 : DmaSem sig := 71
abbrev cc9_sem2_0 : DmaSem sig := 72
abbrev cc9_sem2_1 : DmaSem sig := 73
abbrev cc10_sem0_0 : DmaSem sig := 74
abbrev cc10_sem0_1 : DmaSem sig := 75
abbrev cc10_sem1_0 : DmaSem sig := 76
abbrev cc10_sem1_1 : DmaSem sig := 77
abbrev cc10_sem2_0 : DmaSem sig := 78
abbrev cc10_sem2_1 : DmaSem sig := 79
abbrev cc10_sem3_0 : DmaSem sig := 80
abbrev cc10_sem3_1 : DmaSem sig := 81
abbrev cc10_sem4_0 : DmaSem sig := 82
abbrev cc10_sem5_0 : DmaSem sig := 83
abbrev cc10_sem5_1 : DmaSem sig := 84
abbrev cc11_sem0_0 : DmaSem sig := 85
abbrev cc11_sem0_1 : DmaSem sig := 86
abbrev cc11_sem1_0 : DmaSem sig := 87
abbrev cc11_sem2_0 : DmaSem sig := 88
abbrev cc11_sem2_1 : DmaSem sig := 89
abbrev cc11_sem3_0 : DmaSem sig := 90
abbrev cc11_sem3_1 : DmaSem sig := 91
abbrev cc12_sem0_0 : DmaSem sig := 92
abbrev cc12_sem0_1 : DmaSem sig := 93
abbrev cc12_sem1_0 : DmaSem sig := 94
abbrev cc12_sem1_1 : DmaSem sig := 95
abbrev cc12_sem2_0 : DmaSem sig := 96
abbrev cc12_sem2_1 : DmaSem sig := 97

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S8000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S8000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![125], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S8000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S8000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S64x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S8000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S5000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![125], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S8000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S8000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S8000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S8000x1 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 1 → Memref sig .tc .vmem S64x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S8000x64 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S64x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S5000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S5000x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![100], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x192 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x192 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S5000x1 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S1000000_S1000000x1 : S1000000.ShapeCasts S1000000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S50000x64 : S_.BroadcastsInDim S50000x64 (![] : Fin 0 → Fin S50000x64.rank)
  bcast_S_S100000x64 : S_.BroadcastsInDim S100000x64 (![] : Fin 0 → Fin S100000x64.rank)
  concatenates_S100000x64_S100000x64_S100000x64_S100000x192_d1 : Shape.Concatenates [S100000x64, S100000x64, S100000x64] S100000x192 1
  concatenates_S50000x64_S50000x64_S50000x64_S50000x192_d1 : Shape.Concatenates [S50000x64, S50000x64, S50000x64] S50000x192 1
  bcast_S_S500000 : S_.BroadcastsInDim S500000 (![] : Fin 0 → Fin S500000.rank)
  bcast_S500000_S500000x1_0 : S500000.BroadcastsInDim S500000x1 (![0] : Fin 1 → Fin S500000x1.rank)
  inb_S5000x192_S5000x192_0_0 : ∀ a, (![0, 0] : Fin 2 → Nat) a + S5000x192.size a ≤ S5000x192.size a
  h_S5000x192 : 0 < S5000x192.numel
  shapeCasts_S5000x192_S5000x192 : S5000x192.ShapeCasts S5000x192
  reduces_S5000x192_S5000 : S5000x192.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S500000x1_S500000 : S500000x1.ShapeCasts S500000
  gather_S100000x64_S100000x1_S100000x64_1_0_n_n_0_1_164_wf : GatherDims.WF S100000x64 S100000x1 S100000x64 [1] [0] [] [0] [] 1 ![1, 64]
  gather_S50000x64_S50000x1_S50000x64_1_0_n_n_0_1_164_wf : GatherDims.WF S50000x64 S50000x1 S50000x64 [1] [0] [] [0] [] 1 ![1, 64]
  scatter_S100000_S1000000x1_S1000000_n_0_0_1_wf : ScatterDims.WF S100000 S1000000x1 S1000000 [] [0] [0] 1
  scatter_S50000_S1000000x1_S1000000_n_0_0_1_wf : ScatterDims.WF S50000 S1000000x1 S1000000 [] [0] [0] 1
  gather_S100000_S1000000x1_S1000000_n_0_n_n_0_1_1_wf : GatherDims.WF S100000 S1000000x1 S1000000 [] [0] [] [0] [] 1 ![1]
  gather_S50000_S1000000x1_S1000000_n_0_n_n_0_1_1_wf : GatherDims.WF S50000 S1000000x1 S1000000 [] [0] [] [0] [] 1 ![1]
  dot_S5000x64_S64x64_S5000x64_1_0_0_1_n_n_wf : DotDims.WF S5000x64 S64x64 S5000x64 [1] [0] [0] [1] [] []
  gather_S100000x64_S1000000x1_S1000000x64_1_0_n_n_0_1_164_wf : GatherDims.WF S100000x64 S1000000x1 S1000000x64 [1] [0] [] [0] [] 1 ![1, 64]
  gather_S50000x64_S1000000x1_S1000000x64_1_0_n_n_0_1_164_wf : GatherDims.WF S50000x64 S1000000x1 S1000000x64 [1] [0] [] [0] [] 1 ![1, 64]
  dot_S8000x64_S64x64_S8000x64_1_0_0_1_n_n_wf : DotDims.WF S8000x64 S64x64 S8000x64 [1] [0] [0] [1] [] []
  scatter_S50000x64_S1000000x1_S1000000x64_1_0_0_1_wf : ScatterDims.WF S50000x64 S1000000x1 S1000000x64 [1] [0] [0] 1
  scatter_S100000x64_S1000000x1_S1000000x64_1_0_0_1_wf : ScatterDims.WF S100000x64 S1000000x1 S1000000x64 [1] [0] [0] 1
  gather_S100000x192_S500000x1_S500000x192_1_0_n_n_0_1_1192_wf : GatherDims.WF S100000x192 S500000x1 S500000x192 [1] [0] [] [0] [] 1 ![1, 192]
  gather_S50000x192_S500000x1_S500000x192_1_0_n_n_0_1_1192_wf : GatherDims.WF S50000x192 S500000x1 S500000x192 [1] [0] [] [0] [] 1 ![1, 192]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1000000x64.size a
  hwx1_0 : ∀ i : grid1.Coords, EltTy.bits .f32 = 32 ∨ (Rect.block (s := S1000000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S1000000x64.size a
  hwx1_1 : ∀ i : grid1.Coords, EltTy.bits .f32 = 32 ∨ (Rect.block (s := S1000000x64) S8000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S1000000x64.size a
  hwx1_2 : ∀ i : grid1.Coords, EltTy.bits .f32 = 32 ∨ (Rect.block (s := S1000000x64) S8000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x1.size a ≤ S1000000x1.size a
  hwx1_3 : ∀ i : grid1.Coords, EltTy.bits .f32 = 32 ∨ (Rect.block (s := S1000000x1) S8000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x64.size a ≤ S1000000x64.size a
  hwx1_5 : ∀ i : grid1.Coords, EltTy.bits .f32 = 32 ∨ (Rect.block (s := S1000000x64) S8000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S1000000x64.size a
  hwx4_0 : ∀ i : grid4.Coords, EltTy.bits .f32 = 32 ∨ (Rect.block (s := S1000000x64) S8000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x64.size a ≤ S1000000x64.size a
  hwx4_1 : ∀ i : grid4.Coords, EltTy.bits .f32 = 32 ∨ (Rect.block (s := S1000000x64) S8000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x64.size a ≤ S1000000x64.size a
  hwx4_2 : ∀ i : grid4.Coords, EltTy.bits .f32 = 32 ∨ (Rect.block (s := S1000000x64) S8000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x1.size a ≤ S1000000x1.size a
  hwx4_3 : ∀ i : grid4.Coords, EltTy.bits .f32 = 32 ∨ (Rect.block (s := S1000000x1) S8000x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8000x64.size a ≤ S1000000x64.size a
  hwx4_5 : ∀ i : grid4.Coords, EltTy.bits .f32 = 32 ∨ (Rect.block (s := S1000000x64) S8000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x64.size a ≤ S1000000x64.size a
  hwx7_0 : ∀ i : grid7.Coords, EltTy.bits .f32 = 32 ∨ (Rect.block (s := S1000000x64) S8000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x64.size a ≤ S1000000x64.size a
  hwx7_1 : ∀ i : grid7.Coords, EltTy.bits .f32 = 32 ∨ (Rect.block (s := S1000000x64) S8000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8000x64.size a ≤ S1000000x64.size a
  hwx7_2 : ∀ i : grid7.Coords, EltTy.bits .f32 = 32 ∨ (Rect.block (s := S1000000x64) S8000x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S8000x1.size a ≤ S1000000x1.size a
  hwx7_3 : ∀ i : grid7.Coords, EltTy.bits .f32 = 32 ∨ (Rect.block (s := S1000000x1) S8000x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64x64.size a ≤ S64x64.size a
  hwx7_4 : ∀ i : grid7.Coords, EltTy.bits .f32 = 32 ∨ (Rect.block (s := S64x64) S64x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S8000x64.size a ≤ S1000000x64.size a
  hwx7_5 : ∀ i : grid7.Coords, EltTy.bits .f32 = 32 ∨ (Rect.block (s := S1000000x64) S8000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x64.size a ≤ S50000x64.size a
  hwx8_2 : ∀ i : grid8.Coords, EltTy.bits .f32 = 32 ∨ (Rect.block (s := S50000x64) S5000x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x64.size a ≤ S50000x64.size a
  hwx8_3 : ∀ i : grid8.Coords, EltTy.bits .f32 = 32 ∨ (Rect.block (s := S50000x64) S5000x64.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x64.size a ≤ S50000x64.size a
  hwx9_2 : ∀ i : grid9.Coords, EltTy.bits .f32 = 32 ∨ (Rect.block (s := S50000x64) S5000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S8000x64.size a ≤ S1000000x64.size a
  hwx10_0 : ∀ i : grid10.Coords, EltTy.bits .f32 = 32 ∨ (Rect.block (s := S1000000x64) S8000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S8000x64.size a ≤ S1000000x64.size a
  hwx10_1 : ∀ i : grid10.Coords, EltTy.bits .f32 = 32 ∨ (Rect.block (s := S1000000x64) S8000x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S8000x64.size a ≤ S1000000x64.size a
  hwx10_2 : ∀ i : grid10.Coords, EltTy.bits .f32 = 32 ∨ (Rect.block (s := S1000000x64) S8000x64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S8000x1.size a ≤ S1000000x1.size a
  hwx10_3 : ∀ i : grid10.Coords, EltTy.bits .f32 = 32 ∨ (Rect.block (s := S1000000x1) S8000x1.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S64x64.size a ≤ S64x64.size a
  hwx10_4 : ∀ i : grid10.Coords, EltTy.bits .f32 = 32 ∨ (Rect.block (s := S64x64) S64x64.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S8000x64.size a ≤ S1000000x64.size a
  hwx10_5 : ∀ i : grid10.Coords, EltTy.bits .f32 = 32 ∨ (Rect.block (s := S1000000x64) S8000x64.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S100000x64.size a
  hwx11_0 : ∀ i : grid11.Coords, EltTy.bits .f32 = 32 ∨ (Rect.block (s := S100000x64) S5000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S64x64.size a ≤ S64x64.size a
  hwx11_1 : ∀ i : grid11.Coords, EltTy.bits .f32 = 32 ∨ (Rect.block (s := S64x64) S64x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x64.size a ≤ S100000x64.size a
  hwx11_2 : ∀ i : grid11.Coords, EltTy.bits .f32 = 32 ∨ (Rect.block (s := S100000x64) S5000x64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x64.size a ≤ S100000x64.size a
  hwx11_3 : ∀ i : grid11.Coords, EltTy.bits .f32 = 32 ∨ (Rect.block (s := S100000x64) S5000x64.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x192.size a ≤ S500000x192.size a
  hwx12_0 : ∀ i : grid12.Coords, EltTy.bits .f32 = 32 ∨ (Rect.block (s := S500000x192) S5000x192.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x192.size a ≤ S500000x192.size a
  hwx12_1 : ∀ i : grid12.Coords, EltTy.bits .f32 = 32 ∨ (Rect.block (s := S500000x192) S5000x192.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x1.size a ≤ S500000x1.size a
  hwx12_2 : ∀ i : grid12.Coords, EltTy.bits .f32 = 32 ∨ (Rect.block (s := S500000x1) S5000x1.size (cc12_transform_2 i) (hinb12_2 i)).WholeWords (EltTy.packing .f32)

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S100000x192_S500000x1_S500000x192_1_0_n_n_0_1_1192 : GatherDims S100000x192 S500000x1 S500000x192 where
  offsetDims := [1]
  collapsedSliceDims := [0]
  operandBatchingDims := []
  startIndicesBatchingDims := []
  startIndexMap := [0]
  indexVectorDim := 1
  sliceSizes := ![1, 192]
  wf := gather_S100000x192_S500000x1_S500000x192_1_0_n_n_0_1_1192_wf
def gather_S50000x192_S500000x1_S500000x192_1_0_n_n_0_1_1192 : GatherDims S50000x192 S500000x1 S500000x192 where
  offsetDims := [1]
  collapsedSliceDims := [0]
  operandBatchingDims := []
  startIndicesBatchingDims := []
  startIndexMap := [0]
  indexVectorDim := 1
  sliceSizes := ![1, 192]
  wf := gather_S50000x192_S500000x1_S500000x192_1_0_n_n_0_1_1192_wf

abbrev win0_0 : Pipeline.Window sig grid0 :=
  Pipeline.Window.ofSpec (Memref.whole main_v6) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v60) S8000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S8000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v61) S8000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v13) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v65) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v13) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S8000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v87) S8000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v38) S8000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg5) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88) S8000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v6) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg4) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v91) S5000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v92) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v92) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v93) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v100) S8000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v107) S8000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v114) S8000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v38) S8000x1.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_arg7) S64x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v115) S8000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v65) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg6) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v118) S5000x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v119) S5000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v65) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg8) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v120) S5000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v127) S8000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v134) S8000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v141) S8000x64.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v38) S8000x1.size cc10_transform_3 reads10_3 false false 2 stage10_3 sem10_3
    hrank10 hreads10_3 hinb10_3 nbuf10_3 (Memref.isWhole_whole _) hwx10_3 hstage10_3

abbrev win10_4 : Pipeline.Window sig grid10 :=
  Pipeline.Window.ofSpec (Memref.whole main_arg9) S64x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v142) S8000x64.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v92) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg8) S64x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v145) S5000x64.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v146) S5000x64.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v155) S5000x192.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v162) S5000x192.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v163) S5000x1.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S64x64 : Shape := ⟨2, ![64, 64]⟩
abbrev S100000 : Shape := ⟨1, ![100000]⟩
abbrev S50000 : Shape := ⟨1, ![50000]⟩
abbrev S1000000 : Shape := ⟨1, ![1000000]⟩
abbrev S500000 : Shape := ⟨1, ![500000]⟩
abbrev S_ : Shape := ⟨0, ![]⟩
abbrev S100000x1 : Shape := ⟨2, ![100000, 1]⟩
abbrev S50000x1 : Shape := ⟨2, ![50000, 1]⟩
abbrev S1000000x1 : Shape := ⟨2, ![1000000, 1]⟩
abbrev S1000000x64 : Shape := ⟨2, ![1000000, 64]⟩
abbrev S100000x192 : Shape := ⟨2, ![100000, 192]⟩
abbrev S50000x192 : Shape := ⟨2, ![50000, 192]⟩
abbrev S500000x1 : Shape := ⟨2, ![500000, 1]⟩
abbrev S500000x192 : Shape := ⟨2, ![500000, 192]⟩

abbrev nBuf : Space → Nat
  | .hbm => 277
  | .vmem => 0
  | .smem => 0
  | _ => 0

abbrev hbmTy0_0 (i : Nat) : BufTy := match i % 128 with
  | 0 => ⟨S100000x64, .f32⟩
  | 1 => ⟨S50000x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S64x64, .f32⟩
  | 10 => ⟨S100000, .i32⟩
  | 11 => ⟨S50000, .i32⟩
  | 12 => ⟨S1000000, .i32⟩
  | 13 => ⟨S1000000, .i32⟩
  | 14 => ⟨S500000, .i32⟩
  | 15 => ⟨S500000, .i32⟩
  | 16 => ⟨S_, .i32⟩
  | 17 => ⟨S100000, .i32⟩
  | 18 => ⟨S100000, .i1⟩
  | 19 => ⟨S_, .i32⟩
  | 20 => ⟨S100000, .i32⟩
  | 21 => ⟨S100000, .i32⟩
  | 22 => ⟨S100000, .i32⟩
  | 23 => ⟨S100000x1, .i32⟩
  | 24 => ⟨S100000x64, .f32⟩
  | 25 => ⟨S_, .i32⟩
  | 26 => ⟨S50000, .i32⟩
  | 27 => ⟨S50000, .i1⟩
  | 28 => ⟨S_, .i32⟩
  | 29 => ⟨S50000, .i32⟩
  | 30 => ⟨S50000, .i32⟩
  | 31 => ⟨S50000, .i32⟩
  | 32 => ⟨S50000x1, .i32⟩
  | 33 => ⟨S50000x64, .f32⟩
  | 34 => ⟨S_, .f32⟩
  | 35 => ⟨S1000000, .f32⟩
  | 36 => ⟨S_, .f32⟩
  | 37 => ⟨S100000, .f32⟩
  | 38 => ⟨S1000000x1, .i32⟩
  | 39 => ⟨S100000, .f32⟩
  | 40 => ⟨S_, .f32⟩
  | 41 => ⟨S1000000, .f32⟩
  | 42 => ⟨S_, .f32⟩
  | 43 => ⟨S50000, .f32⟩
  | 44 => ⟨S1000000x1, .i32⟩
  | 45 => ⟨S50000, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S1000000, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000, .f32⟩
  | 64 => ⟨S1000000, .f32⟩
  | 65 => ⟨S1000000, .f32⟩
  | 66 => ⟨S100000x64, .f32⟩
  | 67 => ⟨S_, .i32⟩
  | 68 => ⟨S1000000, .i32⟩
  | 69 => ⟨S1000000, .i1⟩
  | 70 => ⟨S_, .i32⟩
  | 71 => ⟨S1000000, .i32⟩
  | 72 => ⟨S1000000, .i32⟩
  | 73 => ⟨S1000000, .i32⟩
  | 74 => ⟨S1000000x1, .i32⟩
  | 75 => ⟨S1000000x64, .f32⟩
  | 76 => ⟨S_, .i32⟩
  | 77 => ⟨S1000000, .i32⟩
  | 78 => ⟨S1000000, .i1⟩
  | 79 => ⟨S_, .i32⟩
  | 80 => ⟨S1000000, .i32⟩
  | 81 => ⟨S1000000, .i32⟩
  | 82 => ⟨S1000000, .i32⟩
  | 83 => ⟨S1000000x1, .i32⟩
  | 84 => ⟨S1000000x64, .f32⟩
  | 85 => ⟨S_, .i32⟩
  | 86 => ⟨S1000000, .i32⟩
  | 87 => ⟨S1000000, .i1⟩
  | 88 => ⟨S_, .i32⟩
  | 89 => ⟨S1000000, .i32⟩
  | 90 => ⟨S1000000, .i32⟩
  | 91 => ⟨S1000000, .i32⟩
  | 92 => ⟨S1000000x1, .i32⟩
  | 93 => ⟨S1000000x64, .f32⟩
  | 94 => ⟨S1000000x64, .f32⟩
  | 95 => ⟨S1000000x64, .f32⟩
  | 96 => ⟨S1000000x1, .f32⟩
  | 97 => ⟨S1000000x64, .f32⟩
  | 98 => ⟨S1000000x64, .f32⟩
  | 99 => ⟨S1000000x64, .f32⟩
  | 100 => ⟨S_, .f32⟩
  | 101 => ⟨S50000x64, .f32⟩
  | 102 => ⟨S1000000x1, .i32⟩
  | 103 => ⟨S50000x64, .f32⟩
  | 104 => ⟨S50000x64, .f32⟩
  | 105 => ⟨S50000x64, .f32⟩
  | 106 => ⟨S_, .f32⟩
  | 107 => ⟨S50000x64, .f32⟩
  | 108 => ⟨S50000x64, .i1⟩
  | 109 => ⟨S_, .f32⟩
  | 110 => ⟨S50000x64, .f32⟩
  | 111 => ⟨S50000x64, .f32⟩
  | 112 => ⟨S50000x64, .f32⟩
  | 113 => ⟨S50000x64, .f32⟩
  | 114 => ⟨S_, .i32⟩
  | 115 => ⟨S1000000, .i32⟩
  | 116 => ⟨S1000000, .i1⟩
  | 117 => ⟨S_, .i32⟩
  | 118 => ⟨S1000000, .i32⟩
  | 119 => ⟨S1000000, .i32⟩
  | 120 => ⟨S1000000, .i32⟩
  | 121 => ⟨S1000000x1, .i32⟩
  | 122 => ⟨S1000000x64, .f32⟩
  | 123 => ⟨S_, .i32⟩
  | 124 => ⟨S1000000, .i32⟩
  | 125 => ⟨S1000000, .i1⟩
  | 126 => ⟨S_, .i32⟩
  | 127 => ⟨S1000000, .i32⟩
  | _ => ⟨S100000x64, .f32⟩

abbrev hbmTy0_1 (i : Nat) : BufTy := match i % 128 with
  | 0 => ⟨S1000000, .i32⟩
  | 1 => ⟨S1000000, .i32⟩
  | 2 => ⟨S1000000x1, .i32⟩
  | 3 => ⟨S1000000x64, .f32⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S1000000x1, .i32⟩
  | 12 => ⟨S1000000x64, .f32⟩
  | 13 => ⟨S1000000x64, .f32⟩
  | 14 => ⟨S1000000x64, .f32⟩
  | 15 => ⟨S1000000x1, .f32⟩
  | 16 => ⟨S1000000x64, .f32⟩
  | 17 => ⟨S1000000x64, .f32⟩
  | 18 => ⟨S1000000x64, .f32⟩
  | 19 => ⟨S_, .f32⟩
  | 20 => ⟨S100000x64, .f32⟩
  | 21 => ⟨S1000000x1, .i32⟩
  | 22 => ⟨S100000x64, .f32⟩
  | 23 => ⟨S100000x64, .f32⟩
  | 24 => ⟨S100000x64, .f32⟩
  | 25 => ⟨S_, .f32⟩
  | 26 => ⟨S100000x64, .f32⟩
  | 27 => ⟨S100000x64, .i1⟩
  | 28 => ⟨S_, .f32⟩
  | 29 => ⟨S100000x64, .f32⟩
  | 30 => ⟨S100000x64, .f32⟩
  | 31 => ⟨S100000x64, .f32⟩
  | 32 => ⟨S100000x64, .f32⟩
  | 33 => ⟨S_, .i32⟩
  | 34 => ⟨S1000000, .i32⟩
  | 35 => ⟨S1000000, .i1⟩
  | 36 => ⟨S_, .i32⟩
  | 37 => ⟨S1000000, .i32⟩
  | 38 => ⟨S1000000, .i32⟩
  | 39 => ⟨S1000000, .i32⟩
  | 40 => ⟨S1000000x1, .i32⟩
  | 41 => ⟨S1000000x64, .f32⟩
  | 42 => ⟨S_, .i32⟩
  | 43 => ⟨S1000000, .i32⟩
  | 44 => ⟨S1000000, .i1⟩
  | 45 => ⟨S_, .i32⟩
  | 46 => ⟨S1000000, .i32⟩
  | 47 => ⟨S1000000, .i32⟩
  | 48 => ⟨S1000000, .i32⟩
  | 49 => ⟨S1000000x1, .i32⟩
  | 50 => ⟨S1000000x64, .f32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S1000000x1, .i32⟩
  | 59 => ⟨S1000000x64, .f32⟩
  | 60 => ⟨S1000000x64, .f32⟩
  | 61 => ⟨S1000000x64, .f32⟩
  | 62 => ⟨S1000000x1, .f32⟩
  | 63 => ⟨S1000000x64, .f32⟩
  | 64 => ⟨S1000000x64, .f32⟩
  | 65 => ⟨S1000000x64, .f32⟩
  | 66 => ⟨S_, .f32⟩
  | 67 => ⟨S50000x64, .f32⟩
  | 68 => ⟨S1000000x1, .i32⟩
  | 69 => ⟨S50000x64, .f32⟩
  | 70 => ⟨S50000x64, .f32⟩
  | 71 => ⟨S50000x64, .f32⟩
  | 72 => ⟨S_, .f32⟩
  | 73 => ⟨S50000x64, .f32⟩
  | 74 => ⟨S50000x64, .i1⟩
  | 75 => ⟨S_, .f32⟩
  | 76 => ⟨S50000x64, .f32⟩
  | 77 => ⟨S50000x64, .f32⟩
  | 78 => ⟨S50000x64, .f32⟩
  | 79 => ⟨S50000x64, .f32⟩
  | 80 => ⟨S_, .i32⟩
  | 81 => ⟨S1000000, .i32⟩
  | 82 => ⟨S1000000, .i1⟩
  | 83 => ⟨S_, .i32⟩
  | 84 => ⟨S1000000, .i32⟩
  | 85 => ⟨S1000000, .i32⟩
  | 86 => ⟨S1000000, .i32⟩
  | 87 => ⟨S1000000x1, .i32⟩
  | 88 => ⟨S1000000x64, .f32⟩
  | 89 => ⟨S_, .i32⟩
  | 90 => ⟨S1000000, .i32⟩
  | 91 => ⟨S1000000, .i1⟩
  | 92 => ⟨S_, .i32⟩
  | 93 => ⟨S1000000, .i32⟩
  | 94 => ⟨S1000000, .i32⟩
  | 95 => ⟨S1000000, .i32⟩
  | 96 => ⟨S1000000x1, .i32⟩
  | 97 => ⟨S1000000x64, .f32⟩
  | 98 => ⟨S_, .i32⟩
  | 99 => ⟨S1000000, .i32⟩
  | 100 => ⟨S1000000, .i1⟩
  | 101 => ⟨S_, .i32⟩
  | 102 => ⟨S1000000, .i32⟩
  | 103 => ⟨S1000000, .i32⟩
  | 104 => ⟨S1000000, .i32⟩
  | 105 => ⟨S1000000x1, .i32⟩
  | 106 => ⟨S1000000x64, .f32⟩
  | 107 => ⟨S1000000x64, .f32⟩
  | 108 => ⟨S1000000x64, .f32⟩
  | 109 => ⟨S1000000x1, .f32⟩
  | 110 => ⟨S1000000x64, .f32⟩
  | 111 => ⟨S1000000x64, .f32⟩
  | 112 => ⟨S1000000x64, .f32⟩
  | 113 => ⟨S_, .f32⟩
  | 114 => ⟨S100000x64, .f32⟩
  | 115 => ⟨S1000000x1, .i32⟩
  | 116 => ⟨S100000x64, .f32⟩
  | 117 => ⟨S100000x64, .f32⟩
  | 118 => ⟨S100000x64, .f32⟩
  | 119 => ⟨S_, .f32⟩
  | 120 => ⟨S100000x64, .f32⟩
  | 121 => ⟨S100000x64, .i1⟩
  | 122 => ⟨S_, .f32⟩
  | 123 => ⟨S100000x64, .f32⟩
  | 124 => ⟨S100000x64, .f32⟩
  | 125 => ⟨S100000x64, .f32⟩
  | 126 => ⟨S100000x192, .f32⟩
  | 127 => ⟨S50000x192, .f32⟩
  | _ => ⟨S100000x64, .f32⟩

abbrev hbmTy0_2 (i : Nat) : BufTy := match i % 128 with
  | 0 => ⟨S_, .i32⟩
  | 1 => ⟨S500000, .i32⟩
  | 2 => ⟨S500000, .i1⟩
  | 3 => ⟨S_, .i32⟩
  | 4 => ⟨S500000, .i32⟩
  | 5 => ⟨S500000, .i32⟩
  | 6 => ⟨S500000, .i32⟩
  | 7 => ⟨S500000x1, .i32⟩
  | 8 => ⟨S500000x192, .f32⟩
  | 9 => ⟨S_, .i32⟩
  | 10 => ⟨S500000, .i32⟩
  | 11 => ⟨S500000, .i1⟩
  | 12 => ⟨S_, .i32⟩
  | 13 => ⟨S500000, .i32⟩
  | 14 => ⟨S500000, .i32⟩
  | 15 => ⟨S500000, .i32⟩
  | 16 => ⟨S500000x1, .i32⟩
  | 17 => ⟨S500000x192, .f32⟩
  | 18 => ⟨S500000x192, .f32⟩
  | 19 => ⟨S_, .f32⟩
  | 20 => ⟨S500000, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_v18 : Ref sig .tc := ⟨.hbm, 41, rfl⟩
abbrev main_cst_5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_6 : Ref sig .tc := ⟨.hbm, 46, rfl⟩
abbrev main_v22 : Ref sig .tc := ⟨.hbm, 47, rfl⟩
abbrev main_v23 : Ref sig .tc := ⟨.hbm, 48, rfl⟩
abbrev main_c_7 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_8 : Ref sig .tc := ⟨.hbm, 55, rfl⟩
abbrev main_v29 : Ref sig .tc := ⟨.hbm, 56, rfl⟩
abbrev main_v30 : Ref sig .tc := ⟨.hbm, 57, rfl⟩
abbrev main_c_9 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_10 : Ref sig .tc := ⟨.hbm, 67, rfl⟩
abbrev main_v39 : Ref sig .tc := ⟨.hbm, 68, rfl⟩
abbrev main_v40 : Ref sig .tc := ⟨.hbm, 69, rfl⟩
abbrev main_c_11 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_12 : Ref sig .tc := ⟨.hbm, 76, rfl⟩
abbrev main_v46 : Ref sig .tc := ⟨.hbm, 77, rfl⟩
abbrev main_v47 : Ref sig .tc := ⟨.hbm, 78, rfl⟩
abbrev main_c_13 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_14 : Ref sig .tc := ⟨.hbm, 85, rfl⟩
abbrev main_v53 : Ref sig .tc := ⟨.hbm, 86, rfl⟩
abbrev main_v54 : Ref sig .tc := ⟨.hbm, 87, rfl⟩
abbrev main_c_15 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_16 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_call0_cst : Ref sig .tc := ⟨.hbm, 106, rfl⟩
abbrev main_call0_v0 : Ref sig .tc := ⟨.hbm, 107, rfl⟩
abbrev main_call0_v1 : Ref sig .tc := ⟨.hbm, 108, rfl⟩
abbrev main_call0_cst_0 : Ref sig .tc := ⟨.hbm, 109, rfl⟩
abbrev main_call0_v2 : Ref sig .tc := ⟨.hbm, 110, rfl⟩
abbrev main_call0_v3 : Ref sig .tc := ⟨.hbm, 111, rfl⟩
abbrev main_v71 : Ref sig .tc := ⟨.hbm, 112, rfl⟩
abbrev main_v72 : Ref sig .tc := ⟨.hbm, 113, rfl⟩
abbrev main_c_17 : Ref sig .tc := ⟨.hbm, 114, rfl⟩
abbrev main_v73 : Ref sig .tc := ⟨.hbm, 115, rfl⟩
abbrev main_v74 : Ref sig .tc := ⟨.hbm, 116, rfl⟩
abbrev main_c_18 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_c_19 : Ref sig .tc := ⟨.hbm, 123, rfl⟩
abbrev main_v80 : Ref sig .tc := ⟨.hbm, 124, rfl⟩
abbrev main_v81 : Ref sig .tc := ⟨.hbm, 125, rfl⟩
abbrev main_c_20 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_c_21 : Ref sig .tc := ⟨.hbm, 132, rfl⟩
abbrev main_v87 : Ref sig .tc := ⟨.hbm, 133, rfl⟩
abbrev main_v88 : Ref sig .tc := ⟨.hbm, 134, rfl⟩
abbrev main_c_22 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_23 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_call1_cst : Ref sig .tc := ⟨.hbm, 153, rfl⟩
abbrev main_call1_v0 : Ref sig .tc := ⟨.hbm, 154, rfl⟩
abbrev main_call1_v1 : Ref sig .tc := ⟨.hbm, 155, rfl⟩
abbrev main_call1_cst_0 : Ref sig .tc := ⟨.hbm, 156, rfl⟩
abbrev main_call1_v2 : Ref sig .tc := ⟨.hbm, 157, rfl⟩
abbrev main_call1_v3 : Ref sig .tc := ⟨.hbm, 158, rfl⟩
abbrev main_v105 : Ref sig .tc := ⟨.hbm, 159, rfl⟩
abbrev main_v106 : Ref sig .tc := ⟨.hbm, 160, rfl⟩
abbrev main_c_24 : Ref sig .tc := ⟨.hbm, 161, rfl⟩
abbrev main_v107 : Ref sig .tc := ⟨.hbm, 162, rfl⟩
abbrev main_v108 : Ref sig .tc := ⟨.hbm, 163, rfl⟩
abbrev main_c_25 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_c_26 : Ref sig .tc := ⟨.hbm, 170, rfl⟩
abbrev main_v114 : Ref sig .tc := ⟨.hbm, 171, rfl⟩
abbrev main_v115 : Ref sig .tc := ⟨.hbm, 172, rfl⟩
abbrev main_c_27 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_c_28 : Ref sig .tc := ⟨.hbm, 179, rfl⟩
abbrev main_v121 : Ref sig .tc := ⟨.hbm, 180, rfl⟩
abbrev main_v122 : Ref sig .tc := ⟨.hbm, 181, rfl⟩
abbrev main_c_29 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_cst_30 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_call2_cst : Ref sig .tc := ⟨.hbm, 200, rfl⟩
abbrev main_call2_v0 : Ref sig .tc := ⟨.hbm, 201, rfl⟩
abbrev main_call2_v1 : Ref sig .tc := ⟨.hbm, 202, rfl⟩
abbrev main_call2_cst_0 : Ref sig .tc := ⟨.hbm, 203, rfl⟩
abbrev main_call2_v2 : Ref sig .tc := ⟨.hbm, 204, rfl⟩
abbrev main_call2_v3 : Ref sig .tc := ⟨.hbm, 205, rfl⟩
abbrev main_v139 : Ref sig .tc := ⟨.hbm, 206, rfl⟩
abbrev main_v140 : Ref sig .tc := ⟨.hbm, 207, rfl⟩
abbrev main_c_31 : Ref sig .tc := ⟨.hbm, 208, rfl⟩
abbrev main_v141 : Ref sig .tc := ⟨.hbm, 209, rfl⟩
abbrev main_v142 : Ref sig .tc := ⟨.hbm, 210, rfl⟩
abbrev main_c_32 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_c_33 : Ref sig .tc := ⟨.hbm, 217, rfl⟩
abbrev main_v148 : Ref sig .tc := ⟨.hbm, 218, rfl⟩
abbrev main_v149 : Ref sig .tc := ⟨.hbm, 219, rfl⟩
abbrev main_c_34 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_c_35 : Ref sig .tc := ⟨.hbm, 226, rfl⟩
abbrev main_v155 : Ref sig .tc := ⟨.hbm, 227, rfl⟩
abbrev main_v156 : Ref sig .tc := ⟨.hbm, 228, rfl⟩
abbrev main_c_36 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_cst_37 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_call3_cst : Ref sig .tc := ⟨.hbm, 247, rfl⟩
abbrev main_call3_v0 : Ref sig .tc := ⟨.hbm, 248, rfl⟩
abbrev main_call3_v1 : Ref sig .tc := ⟨.hbm, 249, rfl⟩
abbrev main_call3_cst_0 : Ref sig .tc := ⟨.hbm, 250, rfl⟩
abbrev main_call3_v2 : Ref sig .tc := ⟨.hbm, 251, rfl⟩
abbrev main_call3_v3 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_c_38 : Ref sig .tc := ⟨.hbm, 256, rfl⟩
abbrev main_v176 : Ref sig .tc := ⟨.hbm, 257, rfl⟩
abbrev main_v177 : Ref sig .tc := ⟨.hbm, 258, rfl⟩
abbrev main_c_39 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_c_40 : Ref sig .tc := ⟨.hbm, 265, rfl⟩
abbrev main_v183 : Ref sig .tc := ⟨.hbm, 266, rfl⟩
abbrev main_v184 : Ref sig .tc := ⟨.hbm, 267, rfl⟩
abbrev main_c_41 : Ref sig .tc := ⟨.hbm, 268, rfl⟩
abbrev main_v185 : Ref sig .tc := ⟨.hbm, 269, rfl⟩
abbrev main_v186 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_cst_42 : Ref sig .tc := ⟨.hbm, 275, rfl⟩
abbrev main_v191 : Ref sig .tc := ⟨.hbm, 276, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S50000x64 : S_.BroadcastsInDim S50000x64 (![] : Fin 0 → Fin S50000x64.rank)
  bcast_S_S100000x64 : S_.BroadcastsInDim S100000x64 (![] : Fin 0 → Fin S100000x64.rank)
  concatenates_S100000x64_S100000x64_S100000x64_S100000x192_d1 : Shape.Concatenates [S100000x64, S100000x64, S100000x64] S100000x192 1
  concatenates_S50000x64_S50000x64_S50000x64_S50000x192_d1 : Shape.Concatenates [S50000x64, S50000x64, S50000x64] S50000x192 1
  bcast_S_S500000 : S_.BroadcastsInDim S500000 (![] : Fin 0 → Fin S500000.rank)
  bcast_S500000_S500000x1_0 : S500000.BroadcastsInDim S500000x1 (![0] : Fin 1 → Fin S500000x1.rank)
  reducesTo_S500000x192_S500000_d1 : S500000x192.ReducesTo [1] S500000
  h_S_ : 0 < S_.numel
  gather_S100000x64_S100000x1_S100000x64_1_0_n_n_0_1_164_wf : GatherDims.WF S100000x64 S100000x1 S100000x64 [1] [0] [] [0] [] 1 ![1, 64]
  gather_S50000x64_S50000x1_S50000x64_1_0_n_n_0_1_164_wf : GatherDims.WF S50000x64 S50000x1 S50000x64 [1] [0] [] [0] [] 1 ![1, 64]
  scatter_S100000_S1000000x1_S1000000_n_0_0_1_wf : ScatterDims.WF S100000 S1000000x1 S1000000 [] [0] [0] 1
  scatter_S50000_S1000000x1_S1000000_n_0_0_1_wf : ScatterDims.WF S50000 S1000000x1 S1000000 [] [0] [0] 1
  gather_S100000_S1000000x1_S1000000_n_0_n_n_0_1_1_wf : GatherDims.WF S100000 S1000000x1 S1000000 [] [0] [] [0] [] 1 ![1]
  gather_S50000_S1000000x1_S1000000_n_0_n_n_0_1_1_wf : GatherDims.WF S50000 S1000000x1 S1000000 [] [0] [] [0] [] 1 ![1]
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  gather_S50000x64_S1000000x1_S1000000x64_1_0_n_n_0_1_164_wf : GatherDims.WF S50000x64 S1000000x1 S1000000x64 [1] [0] [] [0] [] 1 ![1, 64]
  dot_S1000000x64_S64x64_S1000000x64_1_0_0_1_n_n_wf : DotDims.WF S1000000x64 S64x64 S1000000x64 [1] [0] [0] [1] [] []
  scatter_S50000x64_S1000000x1_S1000000x64_1_0_0_1_wf : ScatterDims.WF S50000x64 S1000000x1 S1000000x64 [1] [0] [0] 1
  dot_S50000x64_S64x64_S50000x64_1_0_0_1_n_n_wf : DotDims.WF S50000x64 S64x64 S50000x64 [1] [0] [0] [1] [] []
  scatter_S100000x64_S1000000x1_S1000000x64_1_0_0_1_wf : ScatterDims.WF S100000x64 S1000000x1 S1000000x64 [1] [0] [0] 1
  gather_S100000x192_S500000x1_S500000x192_1_0_n_n_0_1_1192_wf : GatherDims.WF S100000x192 S500000x1 S500000x192 [1] [0] [] [0] [] 1 ![1, 192]
  gather_S50000x192_S500000x1_S500000x192_1_0_n_n_0_1_1192_wf : GatherDims.WF S50000x192 S500000x1 S500000x192 [1] [0] [] [0] [] 1 ![1, 192]

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S100000x192_S500000x1_S500000x192_1_0_n_n_0_1_1192 : GatherDims S100000x192 S500000x1 S500000x192 where
  offsetDims := [1]
  collapsedSliceDims := [0]
  operandBatchingDims := []
  startIndicesBatchingDims := []
  startIndexMap := [0]
  indexVectorDim := 1
  sliceSizes := ![1, 192]
  wf := gather_S100000x192_S500000x1_S500000x192_1_0_n_n_0_1_1192_wf
def gather_S50000x192_S500000x1_S500000x192_1_0_n_n_0_1_1192 : GatherDims S50000x192 S500000x1 S500000x192 where
  offsetDims := [1]
  collapsedSliceDims := [0]
  operandBatchingDims := []
  startIndicesBatchingDims := []
  startIndexMap := [0]
  indexVectorDim := 1
  sliceSizes := ![1, 192]
  wf := gather_S50000x192_S500000x1_S500000x192_1_0_n_n_0_1_1192_wf

class Facts : Prop extends Facts₀ where

variable [Facts]
-- ==== Proof.K.R0.lean ====
/- Region 0 of the program's thirteen kernel launches, as one half of a frame run: what each window's staging buffer holds
   before and after the body at every grid point, the body's run on those buffers, and the body obligation of the
   pipeline library. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: `cc0__linear_kernel` at the entry contents `V`

    Window `w`'s block at grid point `t` is the rectangle of rows the point's index map selects, read off the array as
    the region finds it; the body stores ONE whole block, the payload of the loaded input blocks. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not fetched the
    block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: where it is not fetched the
    block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The output window's staging buffer after the body: its one store, of the payload of the loaded input blocks. -/
def out0_2 (x0 : Vec F S5000x64 .f32) (x1 : Vec F S64x64 .f32) : Vec F S5000x64 .f32 :=
  View.canon [⟨(Rect.unit (s := S5000x64) ![0, 0] S5000x64.size inb_S5000x64_S5000x64_0_0), k0_pay1 (View.ld x0 (Rect.unit (s := S5000x64) ![0, 0] S5000x64.size inb_S5000x64_S5000x64_0_0)) (View.ld x1 (Rect.unit (s := S64x64) ![0, 0] S64x64.size inb_S64x64_S64x64_0_0))⟩]

/-- The one store's rectangle is the whole block, so it covers it. -/
theorem cover0_2 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging memrefs — the inputs' at contents `xW`, the output's at anything — runs to the continuation
    with the inputs' as they were and the output's at `out0_2` of them. -/
theorem sound_kernel0 (c : Dev nD) (E : Set ℕ) (i : grid0.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each input's
    buffer at its block and the output's at `out0_2` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/- Region 1 of the program's thirteen kernel launches, as one half of a frame run: what each window's staging buffer holds
   before and after the body at every grid point, the body's run on those buffers, and the body obligation of the
   pipeline library. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: `cc1__edge_kernel` at the entry contents `V`

    Window `w`'s block at grid point `t` is the rectangle of rows the point's index map selects, read off the array as
    the region finds it; the body stores ONE whole block, the payload of the loaded input blocks. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not fetched the
    block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: where it is not fetched the
    block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: where it is not fetched the
    block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not: where it is not fetched the
    block index has not moved since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not: where it is not fetched the
    block index has not moved since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer after the body: its one store, of the payload of the loaded input blocks. -/
def out1_5 (x0 : Vec F S8000x64 .f32) (x1 : Vec F S8000x64 .f32) (x2 : Vec F S8000x64 .f32) (x3 : Vec F S8000x1 .f32) (x4 : Vec F S64x64 .f32) : Vec F S8000x64 .f32 :=
  View.canon [⟨(Rect.unit (s := S8000x64) ![0, 0] S8000x64.size inb_S8000x64_S8000x64_0_0), k1_pay1 (View.ld x0 (Rect.unit (s := S8000x64) ![0, 0] S8000x64.size inb_S8000x64_S8000x64_0_0)) (View.ld x1 (Rect.unit (s := S8000x64) ![0, 0] S8000x64.size inb_S8000x64_S8000x64_0_0)) (View.ld x2 (Rect.unit (s := S8000x64) ![0, 0] S8000x64.size inb_S8000x64_S8000x64_0_0)) (View.ld x4 (Rect.unit (s := S64x64) ![0, 0] S64x64.size inb_S64x64_S64x64_0_0)) (View.ld x3 (Rect.unit (s := S8000x1) ![0, 0] S8000x1.size inb_S8000x1_S8000x1_0_0))⟩]

/-- The one store's rectangle is the whole block, so it covers it. -/
theorem cover1_5 (p0 : Vec F S8000x64 .f32) (y : S8000x64.Idx) :
    ∃ pc ∈ ([⟨(Rect.unit (s := S8000x64) ![0, 0] S8000x64.size inb_S8000x64_S8000x64_0_0), p0⟩] : List (View.Piece (Elt F) S8000x64 .f32)), y ∈ pc.1.set :=
  View.cover_of_tiled [⟨(Rect.unit (s := S8000x64) ![0, 0] S8000x64.size inb_S8000x64_S8000x64_0_0), p0⟩] S8000x64.size (by rfl) y

set_option maxHeartbeats 1000000 in
/-- The body on whole staging memrefs — the inputs' at contents `xW`, the output's at anything — runs to the continuation
    with the inputs' as they were and the output's at `out1_5` of them. -/
theorem sound_kernel1 (c : Dev nD) (E : Set ℕ) (i : grid1.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole) (arg4 : Memref sig .tc .vmem S8000x1 .f32) (harg4 : arg4.IsWhole) (arg5 : Memref sig .tc .vmem S64x64 .f32) (harg5 : arg5.IsWhole) (arg6 : Memref sig .tc .vmem S8000x64 .f32) (harg6 : arg6.IsWhole)
    (x0 : Vec F S8000x64 .f32) (x1 : Vec F S8000x64 .f32) (x2 : Vec F S8000x64 .f32) (x3 : Vec F S8000x1 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__edge_kernel i arg1 harg1 arg2 harg2 arg3 harg3 arg4 harg4 arg5 harg5 arg6 harg6) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The pipeline's proof data on core `c`: the arrays as the region finds them; after the body at point `t` each input's
    buffer at its block and the output's at `out1_5` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/- Region 2 of the program's thirteen kernel launches, as one half of a frame run: what each window's staging buffer holds
   before and after the body at every grid point, the body's run on those buffers, and the body obligation of the
   pipeline library. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: `cc2__self_loop_kernel` at the entry contents `V`

    Window `w`'s block at grid point `t` is the rectangle of rows the point's index map selects, read off the array as
    the region finds it; the body stores ONE whole block, the payload of the loaded input blocks. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: where it is not fetched the
    block index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not: where it is not fetched the
    block index has not moved since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not: where it is not fetched the
    block index has not moved since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The output window's staging buffer after the body: its one store, of the payload of the loaded input blocks. -/
def out2_3 (x0 : Vec F S5000x64 .f32) (x1 : Vec F S64x64 .f32) (x2 : Vec F S5000x64 .f32) : Vec F S5000x64 .f32 :=
  View.canon [⟨(Rect.unit (s := S5000x64) ![0, 0] S5000x64.size inb_S5000x64_S5000x64_0_0), k2_pay1 (View.ld x0 (Rect.unit (s := S5000x64) ![0, 0] S5000x64.size inb_S5000x64_S5000x64_0_0)) (View.ld x1 (Rect.unit (s := S64x64) ![0, 0] S64x64.size inb_S64x64_S64x64_0_0)) (View.ld x2 (Rect.unit (s := S5000x64) ![0, 0] S5000x64.size inb_S5000x64_S5000x64_0_0))⟩]

/-- The one store's rectangle is the whole block, so it covers it. -/
theorem cover2_3 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging memrefs — the inputs' at contents `xW`, the output's at anything — runs to the continuation
    with the inputs' as they were and the output's at `out2_3` of them. -/
theorem sound_kernel2 (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole) (arg4 : Memref sig .tc .vmem S5000x64 .f32) (harg4 : arg4.IsWhole)
    (x0 : Vec F S5000x64 .f32) (x1 : Vec F S64x64 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__self_loop_kernel i arg1 harg1 arg2 harg2 arg3 harg3 arg4 harg4) K := by
  simp only [cc2__self_loop_kernel_eq_skeleton]; unfold cc2__self_loop_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each input's
    buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
/- Region 3 of the program's thirteen kernel launches, as one half of a frame run: what each window's staging buffer holds
   before and after the body at every grid point, the body's run on those buffers, and the body obligation of the
   pipeline library. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: `cc3__linear_kernel` at the entry contents `V`

    Window `w`'s block at grid point `t` is the rectangle of rows the point's index map selects, read off the array as
    the region finds it; the body stores ONE whole block, the payload of the loaded input blocks. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not: where it is not fetched the
    block index has not moved since the last fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not: where it is not fetched the
    block index has not moved since the last fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The output window's staging buffer after the body: its one store, of the payload of the loaded input blocks. -/
def out3_2 (x0 : Vec F S5000x64 .f32) (x1 : Vec F S64x64 .f32) : Vec F S5000x64 .f32 :=
  View.canon [⟨(Rect.unit (s := S5000x64) ![0, 0] S5000x64.size inb_S5000x64_S5000x64_0_0), k3_pay1 (View.ld x0 (Rect.unit (s := S5000x64) ![0, 0] S5000x64.size inb_S5000x64_S5000x64_0_0)) (View.ld x1 (Rect.unit (s := S64x64) ![0, 0] S64x64.size inb_S64x64_S64x64_0_0))⟩]

/-- The one store's rectangle is the whole block, so it covers it. -/
theorem cover3_2 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging memrefs — the inputs' at contents `xW`, the output's at anything — runs to the continuation
    with the inputs' as they were and the output's at `out3_2` of them. -/
theorem sound_kernel3 (c : Dev nD) (E : Set ℕ) (i : grid3.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__linear_kernel i arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the region finds them; after the body at point `t` each input's
    buffer at its block and the output's at `out3_2` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
/- Region 4 of the program's thirteen kernel launches, as one half of a frame run: what each window's staging buffer holds
   before and after the body at every grid point, the body's run on those buffers, and the body obligation of the
   pipeline library. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: `cc4__edge_kernel` at the entry contents `V`

    Window `w`'s block at grid point `t` is the rectangle of rows the point's index map selects, read off the array as
    the region finds it; the body stores ONE whole block, the payload of the loaded input blocks. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not: where it is not fetched the
    block index has not moved since the last fetch. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not: where it is not fetched the
    block index has not moved since the last fetch. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not: where it is not fetched the
    block index has not moved since the last fetch. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not: where it is not fetched the
    block index has not moved since the last fetch. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, fetched there or not: where it is not fetched the
    block index has not moved since the last fetch. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The output window's staging buffer after the body: its one store, of the payload of the loaded input blocks. -/
def out4_5 (x0 : Vec F S8000x64 .f32) (x1 : Vec F S8000x64 .f32) (x2 : Vec F S8000x64 .f32) (x3 : Vec F S8000x1 .f32) (x4 : Vec F S64x64 .f32) : Vec F S8000x64 .f32 :=
  View.canon [⟨(Rect.unit (s := S8000x64) ![0, 0] S8000x64.size inb_S8000x64_S8000x64_0_0), k4_pay1 (View.ld x0 (Rect.unit (s := S8000x64) ![0, 0] S8000x64.size inb_S8000x64_S8000x64_0_0)) (View.ld x1 (Rect.unit (s := S8000x64) ![0, 0] S8000x64.size inb_S8000x64_S8000x64_0_0)) (View.ld x2 (Rect.unit (s := S8000x64) ![0, 0] S8000x64.size inb_S8000x64_S8000x64_0_0)) (View.ld x4 (Rect.unit (s := S64x64) ![0, 0] S64x64.size inb_S64x64_S64x64_0_0)) (View.ld x3 (Rect.unit (s := S8000x1) ![0, 0] S8000x1.size inb_S8000x1_S8000x1_0_0))⟩]

/-- The one store's rectangle is the whole block, so it covers it. -/
theorem cover4_5 (p0 : Vec F S8000x64 .f32) (y : S8000x64.Idx) :
    ∃ pc ∈ ([⟨(Rect.unit (s := S8000x64) ![0, 0] S8000x64.size inb_S8000x64_S8000x64_0_0), p0⟩] : List (View.Piece (Elt F) S8000x64 .f32)), y ∈ pc.1.set :=
  View.cover_of_tiled [⟨(Rect.unit (s := S8000x64) ![0, 0] S8000x64.size inb_S8000x64_S8000x64_0_0), p0⟩] S8000x64.size (by rfl) y

set_option maxHeartbeats 1000000 in
/-- The body on whole staging memrefs — the inputs' at contents `xW`, the output's at anything — runs to the continuation
    with the inputs' as they were and the output's at `out4_5` of them. -/
theorem sound_kernel4 (c : Dev nD) (E : Set ℕ) (i : grid4.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole) (arg4 : Memref sig .tc .vmem S8000x1 .f32) (harg4 : arg4.IsWhole) (arg5 : Memref sig .tc .vmem S64x64 .f32) (harg5 : arg5.IsWhole) (arg6 : Memref sig .tc .vmem S8000x64 .f32) (harg6 : arg6.IsWhole)
    (x0 : Vec F S8000x64 .f32) (x1 : Vec F S8000x64 .f32) (x2 : Vec F S8000x64 .f32) (x3 : Vec F S8000x1 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__edge_kernel i arg1 harg1 arg2 harg2 arg3 harg3 arg4 harg4 arg5 harg5 arg6 harg6) K := by
  simp only [cc4__edge_kernel_eq_skeleton]; unfold cc4__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The pipeline's proof data on core `c`: the arrays as the region finds them; after the body at point `t` each input's
    buffer at its block and the output's at `out4_5` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5.lean ====
/- Region 5 of the program's thirteen kernel launches, as one half of a frame run: what each window's staging buffer holds
   before and after the body at every grid point, the body's run on those buffers, and the body obligation of the
   pipeline library. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: `cc5__self_loop_kernel` at the entry contents `V`

    Window `w`'s block at grid point `t` is the rectangle of rows the point's index map selects, read off the array as
    the region finds it; the body stores ONE whole block, the payload of the loaded input blocks. -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not: where it is not fetched the
    block index has not moved since the last fetch. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not: where it is not fetched the
    block index has not moved since the last fetch. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not: where it is not fetched the
    block index has not moved since the last fetch. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The output window's staging buffer after the body: its one store, of the payload of the loaded input blocks. -/
def out5_3 (x0 : Vec F S5000x64 .f32) (x1 : Vec F S64x64 .f32) (x2 : Vec F S5000x64 .f32) : Vec F S5000x64 .f32 :=
  View.canon [⟨(Rect.unit (s := S5000x64) ![0, 0] S5000x64.size inb_S5000x64_S5000x64_0_0), k5_pay1 (View.ld x0 (Rect.unit (s := S5000x64) ![0, 0] S5000x64.size inb_S5000x64_S5000x64_0_0)) (View.ld x1 (Rect.unit (s := S64x64) ![0, 0] S64x64.size inb_S64x64_S64x64_0_0)) (View.ld x2 (Rect.unit (s := S5000x64) ![0, 0] S5000x64.size inb_S5000x64_S5000x64_0_0))⟩]

/-- The one store's rectangle is the whole block, so it covers it. -/
theorem cover5_3 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging memrefs — the inputs' at contents `xW`, the output's at anything — runs to the continuation
    with the inputs' as they were and the output's at `out5_3` of them. -/
theorem sound_kernel5 (c : Dev nD) (E : Set ℕ) (i : grid5.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole) (arg4 : Memref sig .tc .vmem S5000x64 .f32) (harg4 : arg4.IsWhole)
    (x0 : Vec F S5000x64 .f32) (x1 : Vec F S64x64 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__self_loop_kernel i arg1 harg1 arg2 harg2 arg3 harg3 arg4 harg4) K := by
  simp only [cc5__self_loop_kernel_eq_skeleton]; unfold cc5__self_loop_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The pipeline's proof data on core `c`: the arrays as the region finds them; after the body at point `t` each input's
    buffer at its block and the output's at `out5_3` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.R6.lean ====
/- Region 6 of the program's thirteen kernel launches, as one half of a frame run: what each window's staging buffer holds
   before and after the body at every grid point, the body's run on those buffers, and the body obligation of the
   pipeline library. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 6: `cc6__linear_kernel` at the entry contents `V`

    Window `w`'s block at grid point `t` is the rectangle of rows the point's index map selects, read off the array as
    the region finds it; the body stores ONE whole block, the payload of the loaded input blocks. -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or not: where it is not fetched the
    block index has not moved since the last fetch. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, fetched there or not: where it is not fetched the
    block index has not moved since the last fetch. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The output window's staging buffer after the body: its one store, of the payload of the loaded input blocks. -/
def out6_2 (x0 : Vec F S5000x64 .f32) (x1 : Vec F S64x64 .f32) : Vec F S5000x64 .f32 :=
  View.canon [⟨(Rect.unit (s := S5000x64) ![0, 0] S5000x64.size inb_S5000x64_S5000x64_0_0), k6_pay1 (View.ld x0 (Rect.unit (s := S5000x64) ![0, 0] S5000x64.size inb_S5000x64_S5000x64_0_0)) (View.ld x1 (Rect.unit (s := S64x64) ![0, 0] S64x64.size inb_S64x64_S64x64_0_0))⟩]

/-- The one store's rectangle is the whole block, so it covers it. -/
theorem cover6_2 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging memrefs — the inputs' at contents `xW`, the output's at anything — runs to the continuation
    with the inputs' as they were and the output's at `out6_2` of them. -/
theorem sound_kernel6 (c : Dev nD) (E : Set ℕ) (i : grid6.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__linear_kernel i arg1 harg1 arg2 harg2 arg3 harg3) K := by
  simp only [cc6__linear_kernel_eq_skeleton]; unfold cc6__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-- The pipeline's proof data on core `c`: the arrays as the region finds them; after the body at point `t` each input's
    buffer at its block and the output's at `out6_2` of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.R7.lean ====
/- Region 7 of the program's thirteen kernel launches, as one half of a frame run: what each window's staging buffer holds
   before and after the body at every grid point, the body's run on those buffers, and the body obligation of the
   pipeline library. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: `cc7__edge_kernel` at the entry contents `V`

    Window `w`'s block at grid point `t` is the rectangle of rows the point's index map selects, read off the array as
    the region finds it; the body stores ONE whole block, the payload of the loaded input blocks. -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or not: where it is not fetched the
    block index has not moved since the last fetch. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, fetched there or not: where it is not fetched the
    block index has not moved since the last fetch. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, fetched there or not: where it is not fetched the
    block index has not moved since the last fetch. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, fetched there or not: where it is not fetched the
    block index has not moved since the last fetch. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every point, fetched there or not: where it is not fetched the
    block index has not moved since the last fetch. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- The output window's staging buffer after the body: its one store, of the payload of the loaded input blocks. -/
def out7_5 (x0 : Vec F S8000x64 .f32) (x1 : Vec F S8000x64 .f32) (x2 : Vec F S8000x64 .f32) (x3 : Vec F S8000x1 .f32) (x4 : Vec F S64x64 .f32) : Vec F S8000x64 .f32 :=
  View.canon [⟨(Rect.unit (s := S8000x64) ![0, 0] S8000x64.size inb_S8000x64_S8000x64_0_0), k7_pay1 (View.ld x0 (Rect.unit (s := S8000x64) ![0, 0] S8000x64.size inb_S8000x64_S8000x64_0_0)) (View.ld x1 (Rect.unit (s := S8000x64) ![0, 0] S8000x64.size inb_S8000x64_S8000x64_0_0)) (View.ld x2 (Rect.unit (s := S8000x64) ![0, 0] S8000x64.size inb_S8000x64_S8000x64_0_0)) (View.ld x4 (Rect.unit (s := S64x64) ![0, 0] S64x64.size inb_S64x64_S64x64_0_0)) (View.ld x3 (Rect.unit (s := S8000x1) ![0, 0] S8000x1.size inb_S8000x1_S8000x1_0_0))⟩]

/-- The one store's rectangle is the whole block, so it covers it. -/
theorem cover7_5 (p0 : Vec F S8000x64 .f32) (y : S8000x64.Idx) :
    ∃ pc ∈ ([⟨(Rect.unit (s := S8000x64) ![0, 0] S8000x64.size inb_S8000x64_S8000x64_0_0), p0⟩] : List (View.Piece (Elt F) S8000x64 .f32)), y ∈ pc.1.set :=
  View.cover_of_tiled [⟨(Rect.unit (s := S8000x64) ![0, 0] S8000x64.size inb_S8000x64_S8000x64_0_0), p0⟩] S8000x64.size (by rfl) y

set_option maxHeartbeats 1000000 in
/-- The body on whole staging memrefs — the inputs' at contents `xW`, the output's at anything — runs to the continuation
    with the inputs' as they were and the output's at `out7_5` of them. -/
theorem sound_kernel7 (c : Dev nD) (E : Set ℕ) (i : grid7.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole) (arg4 : Memref sig .tc .vmem S8000x1 .f32) (harg4 : arg4.IsWhole) (arg5 : Memref sig .tc .vmem S64x64 .f32) (harg5 : arg5.IsWhole) (arg6 : Memref sig .tc .vmem S8000x64 .f32) (harg6 : arg6.IsWhole)
    (x0 : Vec F S8000x64 .f32) (x1 : Vec F S8000x64 .f32) (x2 : Vec F S8000x64 .f32) (x3 : Vec F S8000x1 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7__edge_kernel i arg1 harg1 arg2 harg2 arg3 harg3 arg4 harg4 arg5 harg5 arg6 harg6) K := by
  simp only [cc7__edge_kernel_eq_skeleton]; unfold cc7__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-- The pipeline's proof data on core `c`: the arrays as the region finds them; after the body at point `t` each input's
    buffer at its block and the output's at `out7_5` of the input blocks; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so `sound_kernel7` applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.R8.lean ====
/- Region 8 of the program's thirteen kernel launches, as one half of a frame run: what each window's staging buffer holds
   before and after the body at every grid point, the body's run on those buffers, and the body obligation of the
   pipeline library. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 8: `cc8__self_loop_kernel` at the entry contents `V`

    Window `w`'s block at grid point `t` is the rectangle of rows the point's index map selects, read off the array as
    the region finds it; the body stores ONE whole block, the payload of the loaded input blocks. -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or not: where it is not fetched the
    block index has not moved since the last fetch. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every point, fetched there or not: where it is not fetched the
    block index has not moved since the last fetch. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every point, fetched there or not: where it is not fetched the
    block index has not moved since the last fetch. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- The output window's staging buffer after the body: its one store, of the payload of the loaded input blocks. -/
def out8_3 (x0 : Vec F S5000x64 .f32) (x1 : Vec F S64x64 .f32) (x2 : Vec F S5000x64 .f32) : Vec F S5000x64 .f32 :=
  View.canon [⟨(Rect.unit (s := S5000x64) ![0, 0] S5000x64.size inb_S5000x64_S5000x64_0_0), k8_pay1 (View.ld x0 (Rect.unit (s := S5000x64) ![0, 0] S5000x64.size inb_S5000x64_S5000x64_0_0)) (View.ld x1 (Rect.unit (s := S64x64) ![0, 0] S64x64.size inb_S64x64_S64x64_0_0)) (View.ld x2 (Rect.unit (s := S5000x64) ![0, 0] S5000x64.size inb_S5000x64_S5000x64_0_0))⟩]

/-- The one store's rectangle is the whole block, so it covers it. -/
theorem cover8_3 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging memrefs — the inputs' at contents `xW`, the output's at anything — runs to the continuation
    with the inputs' as they were and the output's at `out8_3` of them. -/
theorem sound_kernel8 (c : Dev nD) (E : Set ℕ) (i : grid8.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole) (arg4 : Memref sig .tc .vmem S5000x64 .f32) (harg4 : arg4.IsWhole)
    (x0 : Vec F S5000x64 .f32) (x1 : Vec F S64x64 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__self_loop_kernel i arg1 harg1 arg2 harg2 arg3 harg3 arg4 harg4) K := by
  simp only [cc8__self_loop_kernel_eq_skeleton]; unfold cc8__self_loop_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-- The pipeline's proof data on core `c`: the arrays as the region finds them; after the body at point `t` each input's
    buffer at its block and the output's at `out8_3` of the input blocks; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so `sound_kernel8` applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.R9.lean ====
/- Region 9 of the program's thirteen kernel launches, as one half of a frame run: what each window's staging buffer holds
   before and after the body at every grid point, the body's run on those buffers, and the body obligation of the
   pipeline library. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 9: `cc9__linear_kernel` at the entry contents `V`

    Window `w`'s block at grid point `t` is the rectangle of rows the point's index map selects, read off the array as
    the region finds it; the body stores ONE whole block, the payload of the loaded input blocks. -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every point, fetched there or not: where it is not fetched the
    block index has not moved since the last fetch. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds its block at every point, fetched there or not: where it is not fetched the
    block index has not moved since the last fetch. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The output window's staging buffer after the body: its one store, of the payload of the loaded input blocks. -/
def out9_2 (x0 : Vec F S5000x64 .f32) (x1 : Vec F S64x64 .f32) : Vec F S5000x64 .f32 :=
  View.canon [⟨(Rect.unit (s := S5000x64) ![0, 0] S5000x64.size inb_S5000x64_S5000x64_0_0), k9_pay1 (View.ld x0 (Rect.unit (s := S5000x64) ![0, 0] S5000x64.size inb_S5000x64_S5000x64_0_0)) (View.ld x1 (Rect.unit (s := S64x64) ![0, 0] S64x64.size inb_S64x64_S64x64_0_0))⟩]

/-- The one store's rectangle is the whole block, so it covers it. -/
theorem cover9_2 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging memrefs — the inputs' at contents `xW`, the output's at anything — runs to the continuation
    with the inputs' as they were and the output's at `out9_2` of them. -/
theorem sound_kernel9 (c : Dev nD) (E : Set ℕ) (i : grid9.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__linear_kernel i arg1 harg1 arg2 harg2 arg3 harg3) K := by
  simp only [cc9__linear_kernel_eq_skeleton]; unfold cc9__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-- The pipeline's proof data on core `c`: the arrays as the region finds them; after the body at point `t` each input's
    buffer at its block and the output's at `out9_2` of the input blocks; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks, so `sound_kernel9` applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.R10.lean ====
/- Region 10 of the program's thirteen kernel launches, as one half of a frame run: what each window's staging buffer holds
   before and after the body at every grid point, the body's run on those buffers, and the body obligation of the
   pipeline library. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 10: `cc10__edge_kernel` at the entry contents `V`

    Window `w`'s block at grid point `t` is the rectangle of rows the point's index map selects, read off the array as
    the region finds it; the body stores ONE whole block, the payload of the loaded input blocks. -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's staging buffer holds its block at every point, fetched there or not: where it is not fetched the
    block index has not moved since the last fetch. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's staging buffer holds its block at every point, fetched there or not: where it is not fetched the
    block index has not moved since the last fetch. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's staging buffer holds its block at every point, fetched there or not: where it is not fetched the
    block index has not moved since the last fetch. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's staging buffer holds its block at every point, fetched there or not: where it is not fetched the
    block index has not moved since the last fetch. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's staging buffer holds its block at every point, fetched there or not: where it is not fetched the
    block index has not moved since the last fetch. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- The output window's staging buffer after the body: its one store, of the payload of the loaded input blocks. -/
def out10_5 (x0 : Vec F S8000x64 .f32) (x1 : Vec F S8000x64 .f32) (x2 : Vec F S8000x64 .f32) (x3 : Vec F S8000x1 .f32) (x4 : Vec F S64x64 .f32) : Vec F S8000x64 .f32 :=
  View.canon [⟨(Rect.unit (s := S8000x64) ![0, 0] S8000x64.size inb_S8000x64_S8000x64_0_0), k10_pay1 (View.ld x0 (Rect.unit (s := S8000x64) ![0, 0] S8000x64.size inb_S8000x64_S8000x64_0_0)) (View.ld x1 (Rect.unit (s := S8000x64) ![0, 0] S8000x64.size inb_S8000x64_S8000x64_0_0)) (View.ld x2 (Rect.unit (s := S8000x64) ![0, 0] S8000x64.size inb_S8000x64_S8000x64_0_0)) (View.ld x4 (Rect.unit (s := S64x64) ![0, 0] S64x64.size inb_S64x64_S64x64_0_0)) (View.ld x3 (Rect.unit (s := S8000x1) ![0, 0] S8000x1.size inb_S8000x1_S8000x1_0_0))⟩]

/-- The one store's rectangle is the whole block, so it covers it. -/
theorem cover10_5 (p0 : Vec F S8000x64 .f32) (y : S8000x64.Idx) :
    ∃ pc ∈ ([⟨(Rect.unit (s := S8000x64) ![0, 0] S8000x64.size inb_S8000x64_S8000x64_0_0), p0⟩] : List (View.Piece (Elt F) S8000x64 .f32)), y ∈ pc.1.set :=
  View.cover_of_tiled [⟨(Rect.unit (s := S8000x64) ![0, 0] S8000x64.size inb_S8000x64_S8000x64_0_0), p0⟩] S8000x64.size (by rfl) y

set_option maxHeartbeats 1000000 in
/-- The body on whole staging memrefs — the inputs' at contents `xW`, the output's at anything — runs to the continuation
    with the inputs' as they were and the output's at `out10_5` of them. -/
theorem sound_kernel10 (c : Dev nD) (E : Set ℕ) (i : grid10.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole) (arg4 : Memref sig .tc .vmem S8000x1 .f32) (harg4 : arg4.IsWhole) (arg5 : Memref sig .tc .vmem S64x64 .f32) (harg5 : arg5.IsWhole) (arg6 : Memref sig .tc .vmem S8000x64 .f32) (harg6 : arg6.IsWhole)
    (x0 : Vec F S8000x64 .f32) (x1 : Vec F S8000x64 .f32) (x2 : Vec F S8000x64 .f32) (x3 : Vec F S8000x1 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out10_5 x0 x1 x2 x3 x4)) -∗ K ⟨⟩))
      ⊢ wp frame (wpE (defs₀ (F := F)) Variants.none c none) E (cc10__edge_kernel i arg1 harg1 arg2 harg2 arg3 harg3 arg4 harg4 arg5 harg5 arg6 harg6) K := by
  simp only [cc10__edge_kernel_eq_skeleton]; unfold cc10__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover10_5 _)

/-- The pipeline's proof data on core `c`: the arrays as the region finds them; after the body at point `t` each input's
    buffer at its block and the output's at `out10_5` of the input blocks; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = out10_5 (iblk10 V c 0 t) (iblk10 V c 1 t) (iblk10 V c 2 t) (iblk10 V c 3 t) (iblk10 V c 4 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

/-- The body at any point: the inputs' memrefs hold their blocks, so `sound_kernel10` applies; the invariant and the
    core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ _ _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.R11.lean ====
/- Region 11 of the program's thirteen kernel launches, as one half of a frame run: what each window's staging buffer holds
   before and after the body at every grid point, the body's run on those buffers, and the body obligation of the
   pipeline library. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 11: `cc11__self_loop_kernel` at the entry contents `V`

    Window `w`'s block at grid point `t` is the rectangle of rows the point's index map selects, read off the array as
    the region finds it; the body stores ONE whole block, the payload of the loaded input blocks. -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's staging buffer holds its block at every point, fetched there or not: where it is not fetched the
    block index has not moved since the last fetch. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's staging buffer holds its block at every point, fetched there or not: where it is not fetched the
    block index has not moved since the last fetch. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's staging buffer holds its block at every point, fetched there or not: where it is not fetched the
    block index has not moved since the last fetch. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- The output window's staging buffer after the body: its one store, of the payload of the loaded input blocks. -/
def out11_3 (x0 : Vec F S5000x64 .f32) (x1 : Vec F S64x64 .f32) (x2 : Vec F S5000x64 .f32) : Vec F S5000x64 .f32 :=
  View.canon [⟨(Rect.unit (s := S5000x64) ![0, 0] S5000x64.size inb_S5000x64_S5000x64_0_0), k11_pay1 (View.ld x0 (Rect.unit (s := S5000x64) ![0, 0] S5000x64.size inb_S5000x64_S5000x64_0_0)) (View.ld x1 (Rect.unit (s := S64x64) ![0, 0] S64x64.size inb_S64x64_S64x64_0_0)) (View.ld x2 (Rect.unit (s := S5000x64) ![0, 0] S5000x64.size inb_S5000x64_S5000x64_0_0))⟩]

/-- The one store's rectangle is the whole block, so it covers it. -/
theorem cover11_3 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging memrefs — the inputs' at contents `xW`, the output's at anything — runs to the continuation
    with the inputs' as they were and the output's at `out11_3` of them. -/
theorem sound_kernel11 (c : Dev nD) (E : Set ℕ) (i : grid11.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole) (arg4 : Memref sig .tc .vmem S5000x64 .f32) (harg4 : arg4.IsWhole)
    (x0 : Vec F S5000x64 .f32) (x1 : Vec F S64x64 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out11_3 x0 x1 x2)) -∗ K ⟨⟩))
      ⊢ wp frame (wpE (defs₀ (F := F)) Variants.none c none) E (cc11__self_loop_kernel i arg1 harg1 arg2 harg2 arg3 harg3 arg4 harg4) K := by
  simp only [cc11__self_loop_kernel_eq_skeleton]; unfold cc11__self_loop_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-- The pipeline's proof data on core `c`: the arrays as the region finds them; after the body at point `t` each input's
    buffer at its block and the output's at `out11_3` of the input blocks; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11_3 (iblk11 V c 0 t) (iblk11 V c 1 t) (iblk11 V c 2 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' memrefs hold their blocks, so `sound_kernel11` applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.K.R12.lean ====
/- Region 12 of the program's thirteen kernel launches, as one half of a frame run: what each window's staging buffer holds
   before and after the body at every grid point, the body's run on those buffers, and the body obligation of the
   pipeline library. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 12: `cc12__dot_kernel` at the entry contents `V`

    Window `w`'s block at grid point `t` is the rectangle of rows the point's index map selects, read off the array as
    the region finds it; the body stores ONE whole block, the payload of the loaded input blocks. -/

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's staging buffer holds its block at every point, fetched there or not: where it is not fetched the
    block index has not moved since the last fetch. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's staging buffer holds its block at every point, fetched there or not: where it is not fetched the
    block index has not moved since the last fetch. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- The output window's staging buffer after the body: its one store, of the payload of the loaded input blocks. -/
def out12_2 (x0 : Vec F S5000x192 .f32) (x1 : Vec F S5000x192 .f32) : Vec F S5000x1 .f32 :=
  View.canon [⟨(Rect.unit (s := S5000x1) ![0, 0] S5000x1.size inb_S5000x1_S5000x1_0_0), k12_pay1 (View.ld x0 (Rect.unit (s := S5000x192) ![0, 0] S5000x192.size inb_S5000x192_S5000x192_0_0)) (View.ld x1 (Rect.unit (s := S5000x192) ![0, 0] S5000x192.size inb_S5000x192_S5000x192_0_0))⟩]

/-- The one store's rectangle is the whole block, so it covers it. -/
theorem cover12_2 (p0 : Vec F S5000x1 .f32) (y : S5000x1.Idx) :
    ∃ pc ∈ ([⟨(Rect.unit (s := S5000x1) ![0, 0] S5000x1.size inb_S5000x1_S5000x1_0_0), p0⟩] : List (View.Piece (Elt F) S5000x1 .f32)), y ∈ pc.1.set :=
  View.cover_of_tiled [⟨(Rect.unit (s := S5000x1) ![0, 0] S5000x1.size inb_S5000x1_S5000x1_0_0), p0⟩] S5000x1.size (by rfl) y

set_option maxHeartbeats 1000000 in
/-- The body on whole staging memrefs — the inputs' at contents `xW`, the output's at anything — runs to the continuation
    with the inputs' as they were and the output's at `out12_2` of them. -/
theorem sound_kernel12 (c : Dev nD) (E : Set ℕ) (i : grid12.Coords) (arg1 : Memref sig .tc .vmem S5000x192 .f32) (harg1 : arg1.IsWhole) (arg2 : Memref sig .tc .vmem S5000x192 .f32) (harg2 : arg2.IsWhole) (arg3 : Memref sig .tc .vmem S5000x1 .f32) (harg3 : arg3.IsWhole)
    (x0 : Vec F S5000x192 .f32) (x1 : Vec F S5000x192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12__dot_kernel i arg1 harg1 arg2 harg2 arg3 harg3) K := by
  simp only [cc12__dot_kernel_eq_skeleton]; unfold cc12__dot_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-- The pipeline's proof data on core `c`: the arrays as the region finds them; after the body at point `t` each input's
    buffer at its block and the output's at `out12_2` of the input blocks; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- What the body is called with at point `t`, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the inputs' memrefs hold their blocks, so `sound_kernel12` applies; the invariant and the
    core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Hand

end
-- ==== Proof.K.Fold.lean ====
/- The buffer contents at each boundary between two items of @main — a stretch of host operations, or a kernel launch —
   as a fold from the launch memory: a stretch applies its operations' functions; a launch leaves each of its windows' arrays at what
   the pipeline's write-backs leave and every other buffer as it found it. Then: every buffer that is no launch's output
   array and that no stretch writes holds its launch contents at the end. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import proofs.«126583_j73280732004963_1_alg».proof.Proof.K.R0
import proofs.«126583_j73280732004963_1_alg».proof.Proof.K.R1
import proofs.«126583_j73280732004963_1_alg».proof.Proof.K.R2
import proofs.«126583_j73280732004963_1_alg».proof.Proof.K.R3
import proofs.«126583_j73280732004963_1_alg».proof.Proof.K.R4
import proofs.«126583_j73280732004963_1_alg».proof.Proof.K.R5
import proofs.«126583_j73280732004963_1_alg».proof.Proof.K.R6
import proofs.«126583_j73280732004963_1_alg».proof.Proof.K.R7
import proofs.«126583_j73280732004963_1_alg».proof.Proof.K.R8
import proofs.«126583_j73280732004963_1_alg».proof.Proof.K.R9
import proofs.«126583_j73280732004963_1_alg».proof.Proof.K.R10
import proofs.«126583_j73280732004963_1_alg».proof.Proof.K.R11
import proofs.«126583_j73280732004963_1_alg».proof.Proof.K.R12
import proofs.«126583_j73280732004963_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_keep (c : Dev nD) (b : Ref sig .tc) (h : b ∉ hostOps0_W) : W1 m ρ c (Proc.devRef .tc b) = W0 m ρ c (Proc.devRef .tc b) :=
  StableHlo.after_of_writes_sub hostOps0 _ hostOps0_writes h

/-- At launch 0's exit: its windows' arrays at what the pipeline leaves (an input's as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Launch 0 changes no buffer but its output window's array: an input window's array is never written back. -/
theorem W2_keep (c : Dev nD) (b : Ref sig .tc) (h : b ≠ main_v39) : W2 m ρ c (Proc.devRef .tc b) = W1 m ρ c (Proc.devRef .tc b) := by
  by_cases hb : ∃ w, Pipeline.arrRef spec0 w = b
  · obtain ⟨w, rfl⟩ := hb
    rw [W2_arr]
    match w with
    | ⟨0, _⟩ => exact ((dat0 (V1 m ρ) c).arrAt_in 0 rfl _).trans (A_eq0 (V1 m ρ) c 0)
    | ⟨1, _⟩ => exact ((dat0 (V1 m ρ) c).arrAt_in 1 rfl _).trans (A_eq0 (V1 m ρ) c 1)
    | ⟨2, _⟩ => exact absurd rfl h
  · exact W2_of_ne m ρ c b fun w e => hb ⟨w, e⟩

/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_keep (c : Dev nD) (b : Ref sig .tc) (h : b ∉ hostOps1_W) : W3 m ρ c (Proc.devRef .tc b) = W2 m ρ c (Proc.devRef .tc b) :=
  StableHlo.after_of_writes_sub hostOps1 _ hostOps1_writes h

/-- At launch 1's exit: its windows' arrays at what the pipeline leaves (an input's as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Launch 1 changes no buffer but its output window's array: an input window's array is never written back. -/
theorem W4_keep (c : Dev nD) (b : Ref sig .tc) (h : b ≠ main_v61) : W4 m ρ c (Proc.devRef .tc b) = W3 m ρ c (Proc.devRef .tc b) := by
  by_cases hb : ∃ w, Pipeline.arrRef spec1 w = b
  · obtain ⟨w, rfl⟩ := hb
    rw [W4_arr]
    match w with
    | ⟨0, _⟩ => exact ((dat1 (V3 m ρ) c).arrAt_in 0 rfl _).trans (A_eq1 (V3 m ρ) c 0)
    | ⟨1, _⟩ => exact ((dat1 (V3 m ρ) c).arrAt_in 1 rfl _).trans (A_eq1 (V3 m ρ) c 1)
    | ⟨2, _⟩ => exact ((dat1 (V3 m ρ) c).arrAt_in 2 rfl _).trans (A_eq1 (V3 m ρ) c 2)
    | ⟨3, _⟩ => exact ((dat1 (V3 m ρ) c).arrAt_in 3 rfl _).trans (A_eq1 (V3 m ρ) c 3)
    | ⟨4, _⟩ => exact ((dat1 (V3 m ρ) c).arrAt_in 4 rfl _).trans (A_eq1 (V3 m ρ) c 4)
    | ⟨5, _⟩ => exact absurd rfl h
  · exact W4_of_ne m ρ c b fun w e => hb ⟨w, e⟩

/-- After the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
theorem W5_keep (c : Dev nD) (b : Ref sig .tc) (h : b ∉ hostOps2_W) : W5 m ρ c (Proc.devRef .tc b) = W4 m ρ c (Proc.devRef .tc b) :=
  StableHlo.after_of_writes_sub hostOps2 _ hostOps2_writes h

/-- At launch 2's exit: its windows' arrays at what the pipeline leaves (an input's as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Launch 2 changes no buffer but its output window's array: an input window's array is never written back. -/
theorem W6_keep (c : Dev nD) (b : Ref sig .tc) (h : b ≠ main_v65) : W6 m ρ c (Proc.devRef .tc b) = W5 m ρ c (Proc.devRef .tc b) := by
  by_cases hb : ∃ w, Pipeline.arrRef spec2 w = b
  · obtain ⟨w, rfl⟩ := hb
    rw [W6_arr]
    match w with
    | ⟨0, _⟩ => exact ((dat2 (V5 m ρ) c).arrAt_in 0 rfl _).trans (A_eq2 (V5 m ρ) c 0)
    | ⟨1, _⟩ => exact ((dat2 (V5 m ρ) c).arrAt_in 1 rfl _).trans (A_eq2 (V5 m ρ) c 1)
    | ⟨2, _⟩ => exact ((dat2 (V5 m ρ) c).arrAt_in 2 rfl _).trans (A_eq2 (V5 m ρ) c 2)
    | ⟨3, _⟩ => exact absurd rfl h
  · exact W6_of_ne m ρ c b fun w e => hb ⟨w, e⟩

/-- At launch 3's exit: its windows' arrays at what the pipeline leaves (an input's as entered, the output's write-backs
    folded), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- Launch 3 changes no buffer but its output window's array: an input window's array is never written back. -/
theorem W7_keep (c : Dev nD) (b : Ref sig .tc) (h : b ≠ main_v66) : W7 m ρ c (Proc.devRef .tc b) = W6 m ρ c (Proc.devRef .tc b) := by
  by_cases hb : ∃ w, Pipeline.arrRef spec3 w = b
  · obtain ⟨w, rfl⟩ := hb
    rw [W7_arr]
    match w with
    | ⟨0, _⟩ => exact ((dat3 (V6 m ρ) c).arrAt_in 0 rfl _).trans (A_eq3 (V6 m ρ) c 0)
    | ⟨1, _⟩ => exact ((dat3 (V6 m ρ) c).arrAt_in 1 rfl _).trans (A_eq3 (V6 m ρ) c 1)
    | ⟨2, _⟩ => exact absurd rfl h
  · exact W7_of_ne m ρ c b fun w e => hb ⟨w, e⟩

/-- After the host stretch `hostOps4`. -/
abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b
theorem W8_keep (c : Dev nD) (b : Ref sig .tc) (h : b ∉ hostOps4_W) : W8 m ρ c (Proc.devRef .tc b) = W7 m ρ c (Proc.devRef .tc b) :=
  StableHlo.after_of_writes_sub hostOps4 _ hostOps4_writes h

/-- At launch 4's exit: its windows' arrays at what the pipeline leaves (an input's as entered, the output's write-backs
    folded), every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)
/-- Launch 4 changes no buffer but its output window's array: an input window's array is never written back. -/
theorem W9_keep (c : Dev nD) (b : Ref sig .tc) (h : b ≠ main_v88) : W9 m ρ c (Proc.devRef .tc b) = W8 m ρ c (Proc.devRef .tc b) := by
  by_cases hb : ∃ w, Pipeline.arrRef spec4 w = b
  · obtain ⟨w, rfl⟩ := hb
    rw [W9_arr]
    match w with
    | ⟨0, _⟩ => exact ((dat4 (V8 m ρ) c).arrAt_in 0 rfl _).trans (A_eq4 (V8 m ρ) c 0)
    | ⟨1, _⟩ => exact ((dat4 (V8 m ρ) c).arrAt_in 1 rfl _).trans (A_eq4 (V8 m ρ) c 1)
    | ⟨2, _⟩ => exact ((dat4 (V8 m ρ) c).arrAt_in 2 rfl _).trans (A_eq4 (V8 m ρ) c 2)
    | ⟨3, _⟩ => exact ((dat4 (V8 m ρ) c).arrAt_in 3 rfl _).trans (A_eq4 (V8 m ρ) c 3)
    | ⟨4, _⟩ => exact ((dat4 (V8 m ρ) c).arrAt_in 4 rfl _).trans (A_eq4 (V8 m ρ) c 4)
    | ⟨5, _⟩ => exact absurd rfl h
  · exact W9_of_ne m ρ c b fun w e => hb ⟨w, e⟩

/-- After the host stretch `hostOps5`. -/
abbrev W10 : Dev nD → Valuation τ sig (Elt F) := fun c => StableHlo.after hostOps5 (W9 m ρ c)
abbrev V10 : (c : Dev nD) → (b : Ref sig .tc) → Buf (Elt F) ((c : Thread nD τ).loc b) := fun c b => W10 m ρ c b
theorem W10_keep (c : Dev nD) (b : Ref sig .tc) (h : b ∉ hostOps5_W) : W10 m ρ c (Proc.devRef .tc b) = W9 m ρ c (Proc.devRef .tc b) :=
  StableHlo.after_of_writes_sub hostOps5 _ hostOps5_writes h

/-- At launch 5's exit: its windows' arrays at what the pipeline leaves (an input's as entered, the output's write-backs
    folded), every other buffer as entered. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
abbrev V11 : (c : Dev nD) → (b : Ref sig .tc) → Buf (Elt F) ((c : Thread nD τ).loc b) := fun c b => W11 m ρ c b
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)
/-- Launch 5 changes no buffer but its output window's array: an input window's array is never written back. -/
theorem W11_keep (c : Dev nD) (b : Ref sig .tc) (h : b ≠ main_v92) : W11 m ρ c (Proc.devRef .tc b) = W10 m ρ c (Proc.devRef .tc b) := by
  by_cases hb : ∃ w, Pipeline.arrRef spec5 w = b
  · obtain ⟨w, rfl⟩ := hb
    rw [W11_arr]
    match w with
    | ⟨0, _⟩ => exact ((dat5 (V10 m ρ) c).arrAt_in 0 rfl _).trans (A_eq5 (V10 m ρ) c 0)
    | ⟨1, _⟩ => exact ((dat5 (V10 m ρ) c).arrAt_in 1 rfl _).trans (A_eq5 (V10 m ρ) c 1)
    | ⟨2, _⟩ => exact ((dat5 (V10 m ρ) c).arrAt_in 2 rfl _).trans (A_eq5 (V10 m ρ) c 2)
    | ⟨3, _⟩ => exact absurd rfl h
  · exact W11_of_ne m ρ c b fun w e => hb ⟨w, e⟩

/-- At launch 6's exit: its windows' arrays at what the pipeline leaves (an input's as entered, the output's write-backs
    folded), every other buffer as entered. -/
def W12 (c : Dev nD) : Valuation τ sig (Elt F) :=
  Pipeline.withArrays spec6 c (W11 m ρ c) fun w => (dat6 (V11 m ρ) c).arrAt w cfg6.N
theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
abbrev V12 : (c : Dev nD) → (b : Ref sig .tc) → Buf (Elt F) ((c : Thread nD τ).loc b) := fun c b => W12 m ρ c b
theorem hF6 (c : Dev nD) (w : Fin cfg6.W) : (dat6 (V11 m ρ) c).arrAt w cfg6.N = V12 m ρ c (Pipeline.arrRef spec6 w) :=
  (W12_arr m ρ c w).symm
theorem hrest6 (c : Dev nD) : ∀ b, b ∉ Finset.univ.image (Pipeline.arrRef spec6) → V12 m ρ c b = V11 m ρ c b :=
  fun b hb => W12_of_ne m ρ c b fun w e => hb (Finset.mem_image.mpr ⟨w, Finset.mem_univ _, e⟩)
/-- Launch 6 changes no buffer but its output window's array: an input window's array is never written back. -/
theorem W12_keep (c : Dev nD) (b : Ref sig .tc) (h : b ≠ main_v93) : W12 m ρ c (Proc.devRef .tc b) = W11 m ρ c (Proc.devRef .tc b) := by
  by_cases hb : ∃ w, Pipeline.arrRef spec6 w = b
  · obtain ⟨w, rfl⟩ := hb
    rw [W12_arr]
    match w with
    | ⟨0, _⟩ => exact ((dat6 (V11 m ρ) c).arrAt_in 0 rfl _).trans (A_eq6 (V11 m ρ) c 0)
    | ⟨1, _⟩ => exact ((dat6 (V11 m ρ) c).arrAt_in 1 rfl _).trans (A_eq6 (V11 m ρ) c 1)
    | ⟨2, _⟩ => exact absurd rfl h
  · exact W12_of_ne m ρ c b fun w e => hb ⟨w, e⟩

/-- After the host stretch `hostOps7`. -/
abbrev W13 : Dev nD → Valuation τ sig (Elt F) := fun c => StableHlo.after hostOps7 (W12 m ρ c)
abbrev V13 : (c : Dev nD) → (b : Ref sig .tc) → Buf (Elt F) ((c : Thread nD τ).loc b) := fun c b => W13 m ρ c b
theorem W13_keep (c : Dev nD) (b : Ref sig .tc) (h : b ∉ hostOps7_W) : W13 m ρ c (Proc.devRef .tc b) = W12 m ρ c (Proc.devRef .tc b) :=
  StableHlo.after_of_writes_sub hostOps7 _ hostOps7_writes h

/-- At launch 7's exit: its windows' arrays at what the pipeline leaves (an input's as entered, the output's write-backs
    folded), every other buffer as entered. -/
def W14 (c : Dev nD) : Valuation τ sig (Elt F) :=
  Pipeline.withArrays spec7 c (W13 m ρ c) fun w => (dat7 (V13 m ρ) c).arrAt w cfg7.N
theorem W14_arr (c : Dev nD) (w : Fin cfg7.W) :
    W14 m ρ c (Proc.devRef .tc (Pipeline.arrRef spec7 w)) = (dat7 (V13 m ρ) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 m ρ c (Proc.devRef .tc b) = W13 m ρ c (Proc.devRef .tc b) := by
  unfold W14; exact Pipeline.withArrays_of_ne spec7 c _ _ b hb
abbrev V14 : (c : Dev nD) → (b : Ref sig .tc) → Buf (Elt F) ((c : Thread nD τ).loc b) := fun c b => W14 m ρ c b
theorem hF7 (c : Dev nD) (w : Fin cfg7.W) : (dat7 (V13 m ρ) c).arrAt w cfg7.N = V14 m ρ c (Pipeline.arrRef spec7 w) :=
  (W14_arr m ρ c w).symm
theorem hrest7 (c : Dev nD) : ∀ b, b ∉ Finset.univ.image (Pipeline.arrRef spec7) → V14 m ρ c b = V13 m ρ c b :=
  fun b hb => W14_of_ne m ρ c b fun w e => hb (Finset.mem_image.mpr ⟨w, Finset.mem_univ _, e⟩)
/-- Launch 7 changes no buffer but its output window's array: an input window's array is never written back. -/
theorem W14_keep (c : Dev nD) (b : Ref sig .tc) (h : b ≠ main_v115) : W14 m ρ c (Proc.devRef .tc b) = W13 m ρ c (Proc.devRef .tc b) := by
  by_cases hb : ∃ w, Pipeline.arrRef spec7 w = b
  · obtain ⟨w, rfl⟩ := hb
    rw [W14_arr]
    match w with
    | ⟨0, _⟩ => exact ((dat7 (V13 m ρ) c).arrAt_in 0 rfl _).trans (A_eq7 (V13 m ρ) c 0)
    | ⟨1, _⟩ => exact ((dat7 (V13 m ρ) c).arrAt_in 1 rfl _).trans (A_eq7 (V13 m ρ) c 1)
    | ⟨2, _⟩ => exact ((dat7 (V13 m ρ) c).arrAt_in 2 rfl _).trans (A_eq7 (V13 m ρ) c 2)
    | ⟨3, _⟩ => exact ((dat7 (V13 m ρ) c).arrAt_in 3 rfl _).trans (A_eq7 (V13 m ρ) c 3)
    | ⟨4, _⟩ => exact ((dat7 (V13 m ρ) c).arrAt_in 4 rfl _).trans (A_eq7 (V13 m ρ) c 4)
    | ⟨5, _⟩ => exact absurd rfl h
  · exact W14_of_ne m ρ c b fun w e => hb ⟨w, e⟩

/-- After the host stretch `hostOps8`. -/
abbrev W15 : Dev nD → Valuation τ sig (Elt F) := fun c => StableHlo.after hostOps8 (W14 m ρ c)
abbrev V15 : (c : Dev nD) → (b : Ref sig .tc) → Buf (Elt F) ((c : Thread nD τ).loc b) := fun c b => W15 m ρ c b
theorem W15_keep (c : Dev nD) (b : Ref sig .tc) (h : b ∉ hostOps8_W) : W15 m ρ c (Proc.devRef .tc b) = W14 m ρ c (Proc.devRef .tc b) :=
  StableHlo.after_of_writes_sub hostOps8 _ hostOps8_writes h

/-- At launch 8's exit: its windows' arrays at what the pipeline leaves (an input's as entered, the output's write-backs
    folded), every other buffer as entered. -/
def W16 (c : Dev nD) : Valuation τ sig (Elt F) :=
  Pipeline.withArrays spec8 c (W15 m ρ c) fun w => (dat8 (V15 m ρ) c).arrAt w cfg8.N
theorem W16_arr (c : Dev nD) (w : Fin cfg8.W) :
    W16 m ρ c (Proc.devRef .tc (Pipeline.arrRef spec8 w)) = (dat8 (V15 m ρ) c).arrAt w cfg8.N := by
  unfold W16; exact Pipeline.withArrays_arr spec8 launch8.win.arr_inj c _ _ w
theorem W16_of_ne (c : Dev nD) (b : Ref sig .tc) (hb : ∀ w, Pipeline.arrRef spec8 w ≠ b) :
    W16 m ρ c (Proc.devRef .tc b) = W15 m ρ c (Proc.devRef .tc b) := by
  unfold W16; exact Pipeline.withArrays_of_ne spec8 c _ _ b hb
abbrev V16 : (c : Dev nD) → (b : Ref sig .tc) → Buf (Elt F) ((c : Thread nD τ).loc b) := fun c b => W16 m ρ c b
theorem hF8 (c : Dev nD) (w : Fin cfg8.W) : (dat8 (V15 m ρ) c).arrAt w cfg8.N = V16 m ρ c (Pipeline.arrRef spec8 w) :=
  (W16_arr m ρ c w).symm
theorem hrest8 (c : Dev nD) : ∀ b, b ∉ Finset.univ.image (Pipeline.arrRef spec8) → V16 m ρ c b = V15 m ρ c b :=
  fun b hb => W16_of_ne m ρ c b fun w e => hb (Finset.mem_image.mpr ⟨w, Finset.mem_univ _, e⟩)
/-- Launch 8 changes no buffer but its output window's array: an input window's array is never written back. -/
theorem W16_keep (c : Dev nD) (b : Ref sig .tc) (h : b ≠ main_v119) : W16 m ρ c (Proc.devRef .tc b) = W15 m ρ c (Proc.devRef .tc b) := by
  by_cases hb : ∃ w, Pipeline.arrRef spec8 w = b
  · obtain ⟨w, rfl⟩ := hb
    rw [W16_arr]
    match w with
    | ⟨0, _⟩ => exact ((dat8 (V15 m ρ) c).arrAt_in 0 rfl _).trans (A_eq8 (V15 m ρ) c 0)
    | ⟨1, _⟩ => exact ((dat8 (V15 m ρ) c).arrAt_in 1 rfl _).trans (A_eq8 (V15 m ρ) c 1)
    | ⟨2, _⟩ => exact ((dat8 (V15 m ρ) c).arrAt_in 2 rfl _).trans (A_eq8 (V15 m ρ) c 2)
    | ⟨3, _⟩ => exact absurd rfl h
  · exact W16_of_ne m ρ c b fun w e => hb ⟨w, e⟩

/-- At launch 9's exit: its windows' arrays at what the pipeline leaves (an input's as entered, the output's write-backs
    folded), every other buffer as entered. -/
def W17 (c : Dev nD) : Valuation τ sig (Elt F) :=
  Pipeline.withArrays spec9 c (W16 m ρ c) fun w => (dat9 (V16 m ρ) c).arrAt w cfg9.N
theorem W17_arr (c : Dev nD) (w : Fin cfg9.W) :
    W17 m ρ c (Proc.devRef .tc (Pipeline.arrRef spec9 w)) = (dat9 (V16 m ρ) c).arrAt w cfg9.N := by
  unfold W17; exact Pipeline.withArrays_arr spec9 launch9.win.arr_inj c _ _ w
theorem W17_of_ne (c : Dev nD) (b : Ref sig .tc) (hb : ∀ w, Pipeline.arrRef spec9 w ≠ b) :
    W17 m ρ c (Proc.devRef .tc b) = W16 m ρ c (Proc.devRef .tc b) := by
  unfold W17; exact Pipeline.withArrays_of_ne spec9 c _ _ b hb
abbrev V17 : (c : Dev nD) → (b : Ref sig .tc) → Buf (Elt F) ((c : Thread nD τ).loc b) := fun c b => W17 m ρ c b
theorem hF9 (c : Dev nD) (w : Fin cfg9.W) : (dat9 (V16 m ρ) c).arrAt w cfg9.N = V17 m ρ c (Pipeline.arrRef spec9 w) :=
  (W17_arr m ρ c w).symm
theorem hrest9 (c : Dev nD) : ∀ b, b ∉ Finset.univ.image (Pipeline.arrRef spec9) → V17 m ρ c b = V16 m ρ c b :=
  fun b hb => W17_of_ne m ρ c b fun w e => hb (Finset.mem_image.mpr ⟨w, Finset.mem_univ _, e⟩)
/-- Launch 9 changes no buffer but its output window's array: an input window's array is never written back. -/
theorem W17_keep (c : Dev nD) (b : Ref sig .tc) (h : b ≠ main_v120) : W17 m ρ c (Proc.devRef .tc b) = W16 m ρ c (Proc.devRef .tc b) := by
  by_cases hb : ∃ w, Pipeline.arrRef spec9 w = b
  · obtain ⟨w, rfl⟩ := hb
    rw [W17_arr]
    match w with
    | ⟨0, _⟩ => exact ((dat9 (V16 m ρ) c).arrAt_in 0 rfl _).trans (A_eq9 (V16 m ρ) c 0)
    | ⟨1, _⟩ => exact ((dat9 (V16 m ρ) c).arrAt_in 1 rfl _).trans (A_eq9 (V16 m ρ) c 1)
    | ⟨2, _⟩ => exact absurd rfl h
  · exact W17_of_ne m ρ c b fun w e => hb ⟨w, e⟩

/-- After the host stretch `hostOps10`. -/
abbrev W18 : Dev nD → Valuation τ sig (Elt F) := fun c => StableHlo.after hostOps10 (W17 m ρ c)
abbrev V18 : (c : Dev nD) → (b : Ref sig .tc) → Buf (Elt F) ((c : Thread nD τ).loc b) := fun c b => W18 m ρ c b
theorem W18_keep (c : Dev nD) (b : Ref sig .tc) (h : b ∉ hostOps10_W) : W18 m ρ c (Proc.devRef .tc b) = W17 m ρ c (Proc.devRef .tc b) :=
  StableHlo.after_of_writes_sub hostOps10 _ hostOps10_writes h

/-- At launch 10's exit: its windows' arrays at what the pipeline leaves (an input's as entered, the output's write-backs
    folded), every other buffer as entered. -/
def W19 (c : Dev nD) : Valuation τ sig (Elt F) :=
  Pipeline.withArrays spec10 c (W18 m ρ c) fun w => (dat10 (V18 m ρ) c).arrAt w cfg10.N
theorem W19_arr (c : Dev nD) (w : Fin cfg10.W) :
    W19 m ρ c (Proc.devRef .tc (Pipeline.arrRef spec10 w)) = (dat10 (V18 m ρ) c).arrAt w cfg10.N := by
  unfold W19; exact Pipeline.withArrays_arr spec10 launch10.win.arr_inj c _ _ w
theorem W19_of_ne (c : Dev nD) (b : Ref sig .tc) (hb : ∀ w, Pipeline.arrRef spec10 w ≠ b) :
    W19 m ρ c (Proc.devRef .tc b) = W18 m ρ c (Proc.devRef .tc b) := by
  unfold W19; exact Pipeline.withArrays_of_ne spec10 c _ _ b hb
abbrev V19 : (c : Dev nD) → (b : Ref sig .tc) → Buf (Elt F) ((c : Thread nD τ).loc b) := fun c b => W19 m ρ c b
theorem hF10 (c : Dev nD) (w : Fin cfg10.W) : (dat10 (V18 m ρ) c).arrAt w cfg10.N = V19 m ρ c (Pipeline.arrRef spec10 w) :=
  (W19_arr m ρ c w).symm
theorem hrest10 (c : Dev nD) : ∀ b, b ∉ Finset.univ.image (Pipeline.arrRef spec10) → V19 m ρ c b = V18 m ρ c b :=
  fun b hb => W19_of_ne m ρ c b fun w e => hb (Finset.mem_image.mpr ⟨w, Finset.mem_univ _, e⟩)
/-- Launch 10 changes no buffer but its output window's array: an input window's array is never written back. -/
theorem W19_keep (c : Dev nD) (b : Ref sig .tc) (h : b ≠ main_v142) : W19 m ρ c (Proc.devRef .tc b) = W18 m ρ c (Proc.devRef .tc b) := by
  by_cases hb : ∃ w, Pipeline.arrRef spec10 w = b
  · obtain ⟨w, rfl⟩ := hb
    rw [W19_arr]
    match w with
    | ⟨0, _⟩ => exact ((dat10 (V18 m ρ) c).arrAt_in 0 rfl _).trans (A_eq10 (V18 m ρ) c 0)
    | ⟨1, _⟩ => exact ((dat10 (V18 m ρ) c).arrAt_in 1 rfl _).trans (A_eq10 (V18 m ρ) c 1)
    | ⟨2, _⟩ => exact ((dat10 (V18 m ρ) c).arrAt_in 2 rfl _).trans (A_eq10 (V18 m ρ) c 2)
    | ⟨3, _⟩ => exact ((dat10 (V18 m ρ) c).arrAt_in 3 rfl _).trans (A_eq10 (V18 m ρ) c 3)
    | ⟨4, _⟩ => exact ((dat10 (V18 m ρ) c).arrAt_in 4 rfl _).trans (A_eq10 (V18 m ρ) c 4)
    | ⟨5, _⟩ => exact absurd rfl h
  · exact W19_of_ne m ρ c b fun w e => hb ⟨w, e⟩

/-- After the host stretch `hostOps11`. -/
abbrev W20 : Dev nD → Valuation τ sig (Elt F) := fun c => StableHlo.after hostOps11 (W19 m ρ c)
abbrev V20 : (c : Dev nD) → (b : Ref sig .tc) → Buf (Elt F) ((c : Thread nD τ).loc b) := fun c b => W20 m ρ c b
theorem W20_keep (c : Dev nD) (b : Ref sig .tc) (h : b ∉ hostOps11_W) : W20 m ρ c (Proc.devRef .tc b) = W19 m ρ c (Proc.devRef .tc b) :=
  StableHlo.after_of_writes_sub hostOps11 _ hostOps11_writes h

/-- At launch 11's exit: its windows' arrays at what the pipeline leaves (an input's as entered, the output's write-backs
    folded), every other buffer as entered. -/
def W21 (c : Dev nD) : Valuation τ sig (Elt F) :=
  Pipeline.withArrays spec11 c (W20 m ρ c) fun w => (dat11 (V20 m ρ) c).arrAt w cfg11.N
theorem W21_arr (c : Dev nD) (w : Fin cfg11.W) :
    W21 m ρ c (Proc.devRef .tc (Pipeline.arrRef spec11 w)) = (dat11 (V20 m ρ) c).arrAt w cfg11.N := by
  unfold W21; exact Pipeline.withArrays_arr spec11 launch11.win.arr_inj c _ _ w
theorem W21_of_ne (c : Dev nD) (b : Ref sig .tc) (hb : ∀ w, Pipeline.arrRef spec11 w ≠ b) :
    W21 m ρ c (Proc.devRef .tc b) = W20 m ρ c (Proc.devRef .tc b) := by
  unfold W21; exact Pipeline.withArrays_of_ne spec11 c _ _ b hb
abbrev V21 : (c : Dev nD) → (b : Ref sig .tc) → Buf (Elt F) ((c : Thread nD τ).loc b) := fun c b => W21 m ρ c b
theorem hF11 (c : Dev nD) (w : Fin cfg11.W) : (dat11 (V20 m ρ) c).arrAt w cfg11.N = V21 m ρ c (Pipeline.arrRef spec11 w) :=
  (W21_arr m ρ c w).symm
theorem hrest11 (c : Dev nD) : ∀ b, b ∉ Finset.univ.image (Pipeline.arrRef spec11) → V21 m ρ c b = V20 m ρ c b :=
  fun b hb => W21_of_ne m ρ c b fun w e => hb (Finset.mem_image.mpr ⟨w, Finset.mem_univ _, e⟩)
/-- Launch 11 changes no buffer but its output window's array: an input window's array is never written back. -/
theorem W21_keep (c : Dev nD) (b : Ref sig .tc) (h : b ≠ main_v146) : W21 m ρ c (Proc.devRef .tc b) = W20 m ρ c (Proc.devRef .tc b) := by
  by_cases hb : ∃ w, Pipeline.arrRef spec11 w = b
  · obtain ⟨w, rfl⟩ := hb
    rw [W21_arr]
    match w with
    | ⟨0, _⟩ => exact ((dat11 (V20 m ρ) c).arrAt_in 0 rfl _).trans (A_eq11 (V20 m ρ) c 0)
    | ⟨1, _⟩ => exact ((dat11 (V20 m ρ) c).arrAt_in 1 rfl _).trans (A_eq11 (V20 m ρ) c 1)
    | ⟨2, _⟩ => exact ((dat11 (V20 m ρ) c).arrAt_in 2 rfl _).trans (A_eq11 (V20 m ρ) c 2)
    | ⟨3, _⟩ => exact absurd rfl h
  · exact W21_of_ne m ρ c b fun w e => hb ⟨w, e⟩

/-- After the host stretch `hostOps12`. -/
abbrev W22 : Dev nD → Valuation τ sig (Elt F) := fun c => StableHlo.after hostOps12 (W21 m ρ c)
abbrev V22 : (c : Dev nD) → (b : Ref sig .tc) → Buf (Elt F) ((c : Thread nD τ).loc b) := fun c b => W22 m ρ c b
theorem W22_keep (c : Dev nD) (b : Ref sig .tc) (h : b ∉ hostOps12_W) : W22 m ρ c (Proc.devRef .tc b) = W21 m ρ c (Proc.devRef .tc b) :=
  StableHlo.after_of_writes_sub hostOps12 _ hostOps12_writes h

/-- At launch 12's exit: its windows' arrays at what the pipeline leaves (an input's as entered, the output's write-backs
    folded), every other buffer as entered. -/
def W23 (c : Dev nD) : Valuation τ sig (Elt F) :=
  Pipeline.withArrays spec12 c (W22 m ρ c) fun w => (dat12 (V22 m ρ) c).arrAt w cfg12.N
theorem W23_arr (c : Dev nD) (w : Fin cfg12.W) :
    W23 m ρ c (Proc.devRef .tc (Pipeline.arrRef spec12 w)) = (dat12 (V22 m ρ) c).arrAt w cfg12.N := by
  unfold W23; exact Pipeline.withArrays_arr spec12 launch12.win.arr_inj c _ _ w
theorem W23_of_ne (c : Dev nD) (b : Ref sig .tc) (hb : ∀ w, Pipeline.arrRef spec12 w ≠ b) :
    W23 m ρ c (Proc.devRef .tc b) = W22 m ρ c (Proc.devRef .tc b) := by
  unfold W23; exact Pipeline.withArrays_of_ne spec12 c _ _ b hb
abbrev V23 : (c : Dev nD) → (b : Ref sig .tc) → Buf (Elt F) ((c : Thread nD τ).loc b) := fun c b => W23 m ρ c b
theorem hF12 (c : Dev nD) (w : Fin cfg12.W) : (dat12 (V22 m ρ) c).arrAt w cfg12.N = V23 m ρ c (Pipeline.arrRef spec12 w) :=
  (W23_arr m ρ c w).symm
theorem hrest12 (c : Dev nD) : ∀ b, b ∉ Finset.univ.image (Pipeline.arrRef spec12) → V23 m ρ c b = V22 m ρ c b :=
  fun b hb => W23_of_ne m ρ c b fun w e => hb (Finset.mem_image.mpr ⟨w, Finset.mem_univ _, e⟩)
/-- Launch 12 changes no buffer but its output window's array: an input window's array is never written back. -/
theorem W23_keep (c : Dev nD) (b : Ref sig .tc) (h : b ≠ main_v163) : W23 m ρ c (Proc.devRef .tc b) = W22 m ρ c (Proc.devRef .tc b) := by
  by_cases hb : ∃ w, Pipeline.arrRef spec12 w = b
  · obtain ⟨w, rfl⟩ := hb
    rw [W23_arr]
    match w with
    | ⟨0, _⟩ => exact ((dat12 (V22 m ρ) c).arrAt_in 0 rfl _).trans (A_eq12 (V22 m ρ) c 0)
    | ⟨1, _⟩ => exact ((dat12 (V22 m ρ) c).arrAt_in 1 rfl _).trans (A_eq12 (V22 m ρ) c 1)
    | ⟨2, _⟩ => exact absurd rfl h
  · exact W23_of_ne m ρ c b fun w e => hb ⟨w, e⟩

/-- After the host stretch `hostOps13`. -/
abbrev W24 : Dev nD → Valuation τ sig (Elt F) := fun c => StableHlo.after hostOps13 (W23 m ρ c)
abbrev V24 : (c : Dev nD) → (b : Ref sig .tc) → Buf (Elt F) ((c : Thread nD τ).loc b) := fun c b => W24 m ρ c b
theorem W24_keep (c : Dev nD) (b : Ref sig .tc) (h : b ∉ hostOps13_W) : W24 m ρ c (Proc.devRef .tc b) = W23 m ρ c (Proc.devRef .tc b) :=
  StableHlo.after_of_writes_sub hostOps13 _ hostOps13_writes h

/-- A buffer that no stretch writes and that is no launch's output array ends as launched. -/
theorem W24_as_launched (c : Dev nD) (b : Ref sig .tc)
    (h0 : b ∉ hostOps0_W)
    (h1 : b ≠ main_v39)
    (h2 : b ∉ hostOps1_W)
    (h3 : b ≠ main_v61)
    (h4 : b ∉ hostOps2_W)
    (h5 : b ≠ main_v65)
    (h6 : b ≠ main_v66)
    (h7 : b ∉ hostOps4_W)
    (h8 : b ≠ main_v88)
    (h9 : b ∉ hostOps5_W)
    (h10 : b ≠ main_v92)
    (h11 : b ≠ main_v93)
    (h12 : b ∉ hostOps7_W)
    (h13 : b ≠ main_v115)
    (h14 : b ∉ hostOps8_W)
    (h15 : b ≠ main_v119)
    (h16 : b ≠ main_v120)
    (h17 : b ∉ hostOps10_W)
    (h18 : b ≠ main_v142)
    (h19 : b ∉ hostOps11_W)
    (h20 : b ≠ main_v146)
    (h21 : b ∉ hostOps12_W)
    (h22 : b ≠ main_v163)
    (h23 : b ∉ hostOps13_W)
    : W24 m ρ c (Proc.devRef .tc b) = m ((c : Thread nD τ).loc b) :=
  (W24_keep m ρ c b h23).trans <|
  (W23_keep m ρ c b h22).trans <|
  (W22_keep m ρ c b h21).trans <|
  (W21_keep m ρ c b h20).trans <|
  (W20_keep m ρ c b h19).trans <|
  (W19_keep m ρ c b h18).trans <|
  (W18_keep m ρ c b h17).trans <|
  (W17_keep m ρ c b h16).trans <|
  (W16_keep m ρ c b h15).trans <|
  (W15_keep m ρ c b h14).trans <|
  (W14_keep m ρ c b h13).trans <|
  (W13_keep m ρ c b h12).trans <|
  (W12_keep m ρ c b h11).trans <|
  (W11_keep m ρ c b h10).trans <|
  (W10_keep m ρ c b h9).trans <|
  (W9_keep m ρ c b h8).trans <|
  (W8_keep m ρ c b h7).trans <|
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  (W1_keep m ρ c b h0).trans <|
  rfl

/-! ## The proof data family -/

abbrev adm : (p : Fin 13) → (pcfgs (F := F) p).Adm := fun p => (cfgs p).toPCfg_adm
/-- Every pipeline's proof data, each at its launch's entry contents. -/
def pdats : (p : Fin 13) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
  | ⟨5, _⟩ => fun c => dat5 (V10 m ρ) c
  | ⟨6, _⟩ => fun c => dat6 (V11 m ρ) c
  | ⟨7, _⟩ => fun c => dat7 (V13 m ρ) c
  | ⟨8, _⟩ => fun c => dat8 (V15 m ρ) c
  | ⟨9, _⟩ => fun c => dat9 (V16 m ρ) c
  | ⟨10, _⟩ => fun c => dat10 (V18 m ρ) c
  | ⟨11, _⟩ => fun c => dat11 (V20 m ρ) c
  | ⟨12, _⟩ => fun c => dat12 (V22 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Reg0.lean ====
/- Kernel launch 0 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import proofs.«126583_j73280732004963_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg1.lean ====
/- Kernel launch 1 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import proofs.«126583_j73280732004963_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg2.lean ====
/- Kernel launch 2 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import proofs.«126583_j73280732004963_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg3.lean ====
/- Kernel launch 3 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import proofs.«126583_j73280732004963_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg4.lean ====
/- Kernel launch 4 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import proofs.«126583_j73280732004963_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg5.lean ====
/- Kernel launch 5 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import proofs.«126583_j73280732004963_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg6.lean ====
/- Kernel launch 6 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import proofs.«126583_j73280732004963_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V11 m ρ) c).loose
  hwaits := Pipeline.hwaits_of_owed_zero _ _ _ _ L lv 6 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec6 c (V11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V11 m ρ c) (V12 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg7.lean ====
/- Kernel launch 7 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import proofs.«126583_j73280732004963_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V13 m ρ) c).loose
  hwaits := Pipeline.hwaits_of_owed_zero _ _ _ _ L lv 7 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec7 c (V13 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V13 m ρ c) (V14 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg8.lean ====
/- Kernel launch 8 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import proofs.«126583_j73280732004963_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V15 m ρ) c).loose
  hwaits := Pipeline.hwaits_of_owed_zero _ _ _ _ L lv 8 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec8 c (V15 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V15 m ρ c) (V16 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg9.lean ====
/- Kernel launch 9 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import proofs.«126583_j73280732004963_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V16 m ρ) c).loose
  hwaits := Pipeline.hwaits_of_owed_zero _ _ _ _ L lv 9 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec9 c (V16 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V16 m ρ c) (V17 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg10.lean ====
/- Kernel launch 10 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import proofs.«126583_j73280732004963_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V18 m ρ) c).loose
  hwaits := Pipeline.hwaits_of_owed_zero _ _ _ _ L lv 10 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec10 c (V18 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V18 m ρ c) (V19 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg11.lean ====
/- Kernel launch 11 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import proofs.«126583_j73280732004963_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V20 m ρ) c).loose
  hwaits := Pipeline.hwaits_of_owed_zero _ _ _ _ L lv 11 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec11 c (V20 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V20 m ρ c) (V21 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg12.lean ====
/- Kernel launch 12 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import proofs.«126583_j73280732004963_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V22 m ρ) c).loose
  hwaits := Pipeline.hwaits_of_owed_zero _ _ _ _ L lv 12 fun _ _ => rfl
  pre c := iprop(StableHlo.held (c : Thread nD τ) (Pipeline.ucRefs τ sig) (W22 m ρ c) ∗ R c)
  post c := iprop(StableHlo.held (c : Thread nD τ) (Pipeline.ucRefs τ sig) (W23 m ρ c) ∗ R c)
  X c := iprop(∃ r, prngReg c r)
  Y c := iprop(∃ r, prngReg c r)
  Z c := Pipeline.unscopedRest (Ix := Unit) (Name := ℕ) (U := UR sig nD τ) (Lvl := ℕ) spec12 c (V22 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V22 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V22 m ρ c) (V23 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/- @main's run: its items — stretches of host operations and kernel launches, in order — as segments chained from the launch
   memory to the return; every weakly fair execution terminates, and at the end every unscoped buffer holds the last
   boundary's contents. Read off that: the argument arrays end as launched. -/
import proofs.«126583_j73280732004963_1_alg».proof.Proof.Gen.Kernel.Launch
import proofs.«126583_j73280732004963_1_alg».proof.Proof.Gen.Kernel.Skeleton
import proofs.«126583_j73280732004963_1_alg».proof.Proof.Gen.Kernel.Points
import proofs.«126583_j73280732004963_1_alg».proof.Proof.K.Reg0
import proofs.«126583_j73280732004963_1_alg».proof.Proof.K.Reg1
import proofs.«126583_j73280732004963_1_alg».proof.Proof.K.Reg2
import proofs.«126583_j73280732004963_1_alg».proof.Proof.K.Reg3
import proofs.«126583_j73280732004963_1_alg».proof.Proof.K.Reg4
import proofs.«126583_j73280732004963_1_alg».proof.Proof.K.Reg5
import proofs.«126583_j73280732004963_1_alg».proof.Proof.K.Reg6
import proofs.«126583_j73280732004963_1_alg».proof.Proof.K.Reg7
import proofs.«126583_j73280732004963_1_alg».proof.Proof.K.Reg8
import proofs.«126583_j73280732004963_1_alg».proof.Proof.K.Reg9
import proofs.«126583_j73280732004963_1_alg».proof.Proof.K.Reg10
import proofs.«126583_j73280732004963_1_alg».proof.Proof.K.Reg11
import proofs.«126583_j73280732004963_1_alg».proof.Proof.K.Reg12
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last thread state without the dues: every unscoped buffer at the last boundary's contents, the generator register at some state. -/
abbrev Tₙ (c : Dev nD) : sProp 𝕄 := iprop(StableHlo.held (c : Thread nD τ) (Pipeline.ucRefs τ sig) (W24 m ρ c) ∗ ∃ r, prngReg c r)

/-- @main's 24 items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .region (reg6 m ρ),
    .host (hseg hostOps7 hostOps7_sub hostOps7_fresh (W12 m ρ)),
    .region (reg7 m ρ),
    .host (hseg hostOps8 hostOps8_sub hostOps8_fresh (W14 m ρ)),
    .region (reg8 m ρ),
    .region (reg9 m ρ),
    .host (hseg hostOps10 hostOps10_sub hostOps10_fresh (W17 m ρ)),
    .region (reg10 m ρ),
    .host (hseg hostOps11 hostOps11_sub hostOps11_fresh (W19 m ρ)),
    .region (reg11 m ρ),
    .host (hseg hostOps12 hostOps12_sub hostOps12_fresh (W21 m ρ)),
    .region (reg12 m ρ),
    .host (hseg hostOps13 hostOps13_sub hostOps13_fresh (W23 m ρ)) ]

set_option backward.isDefEq.respectTransparency.types false in
/-- Every weakly fair execution of @main from memory `m` with zero counters terminates, nothing faulting, and every final memory
    holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W24 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          StableHlo.seq hostOps8,
          Prog.lift (.customCall (Pipeline.entry 8) ()),
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W24 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h => h)

/-- An argument array is written by no stretch and is no launch's output: it ends as launched. -/
theorem W24_main_arg0 (c : Dev nD) : W24 m ρ c (Proc.devRef .tc main_arg0) = m ((c : Thread nD τ).loc main_arg0) :=
  W24_as_launched m ρ c main_arg0 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg1 (c : Dev nD) : W24 m ρ c (Proc.devRef .tc main_arg1) = m ((c : Thread nD τ).loc main_arg1) :=
  W24_as_launched m ρ c main_arg1 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg2 (c : Dev nD) : W24 m ρ c (Proc.devRef .tc main_arg2) = m ((c : Thread nD τ).loc main_arg2) :=
  W24_as_launched m ρ c main_arg2 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg3 (c : Dev nD) : W24 m ρ c (Proc.devRef .tc main_arg3) = m ((c : Thread nD τ).loc main_arg3) :=
  W24_as_launched m ρ c main_arg3 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg4 (c : Dev nD) : W24 m ρ c (Proc.devRef .tc main_arg4) = m ((c : Thread nD τ).loc main_arg4) :=
  W24_as_launched m ρ c main_arg4 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg5 (c : Dev nD) : W24 m ρ c (Proc.devRef .tc main_arg5) = m ((c : Thread nD τ).loc main_arg5) :=
  W24_as_launched m ρ c main_arg5 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg6 (c : Dev nD) : W24 m ρ c (Proc.devRef .tc main_arg6) = m ((c : Thread nD τ).loc main_arg6) :=
  W24_as_launched m ρ c main_arg6 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg7 (c : Dev nD) : W24 m ρ c (Proc.devRef .tc main_arg7) = m ((c : Thread nD τ).loc main_arg7) :=
  W24_as_launched m ρ c main_arg7 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg8 (c : Dev nD) : W24 m ρ c (Proc.devRef .tc main_arg8) = m ((c : Thread nD τ).loc main_arg8) :=
  W24_as_launched m ρ c main_arg8 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg9 (c : Dev nD) : W24 m ρ c (Proc.devRef .tc main_arg9) = m ((c : Thread nD τ).loc main_arg9) :=
  W24_as_launched m ρ c main_arg9 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg10 (c : Dev nD) : W24 m ρ c (Proc.devRef .tc main_arg10) = m ((c : Thread nD τ).loc main_arg10) :=
  W24_as_launched m ρ c main_arg10 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg11 (c : Dev nD) : W24 m ρ c (Proc.devRef .tc main_arg11) = m ((c : Thread nD τ).loc main_arg11) :=
  W24_as_launched m ρ c main_arg11 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg12 (c : Dev nD) : W24 m ρ c (Proc.devRef .tc main_arg12) = m ((c : Thread nD τ).loc main_arg12) :=
  W24_as_launched m ρ c main_arg12 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg13 (c : Dev nD) : W24 m ρ c (Proc.devRef .tc main_arg13) = m ((c : Thread nD τ).loc main_arg13) :=
  W24_as_launched m ρ c main_arg13 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg14 (c : Dev nD) : W24 m ρ c (Proc.devRef .tc main_arg14) = m ((c : Thread nD τ).loc main_arg14) :=
  W24_as_launched m ρ c main_arg14 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg15 (c : Dev nD) : W24 m ρ c (Proc.devRef .tc main_arg15) = m ((c : Thread nD τ).loc main_arg15) :=
  W24_as_launched m ρ c main_arg15 (by decide) (by decide) (by decide) (by decide) (by decide) (by decide) (by decide) (by decide) (by decide) (by decide) (by decide) (by decide) (by decide) (by decide) (by decide) (by decide) (by decide) (by decide) (by decide) (by decide) (by decide) (by decide) (by decide) (by decide)

/-- The frame: every weakly fair execution of @main terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)) :=
  (θ_run defs _ _).mono (fun r h c => ⟨(h c _ (mem_uc main_arg0 (by decide))).trans (W24_main_arg0 m ρ c),
    (h c _ (mem_uc main_arg1 (by decide))).trans (W24_main_arg1 m ρ c),
    (h c _ (mem_uc main_arg2 (by decide))).trans (W24_main_arg2 m ρ c),
    (h c _ (mem_uc main_arg3 (by decide))).trans (W24_main_arg3 m ρ c),
    (h c _ (mem_uc main_arg4 (by decide))).trans (W24_main_arg4 m ρ c),
    (h c _ (mem_uc main_arg5 (by decide))).trans (W24_main_arg5 m ρ c),
    (h c _ (mem_uc main_arg6 (by decide))).trans (W24_main_arg6 m ρ c),
    (h c _ (mem_uc main_arg7 (by decide))).trans (W24_main_arg7 m ρ c),
    (h c _ (mem_uc main_arg8 (by decide))).trans (W24_main_arg8 m ρ c),
    (h c _ (mem_uc main_arg9 (by decide))).trans (W24_main_arg9 m ρ c),
    (h c _ (mem_uc main_arg10 (by decide))).trans (W24_main_arg10 m ρ c),
    (h c _ (mem_uc main_arg11 (by decide))).trans (W24_main_arg11 m ρ c),
    (h c _ (mem_uc main_arg12 (by decide))).trans (W24_main_arg12 m ρ c),
    (h c _ (mem_uc main_arg13 (by decide))).trans (W24_main_arg13 m ρ c),
    (h c _ (mem_uc main_arg14 (by decide))).trans (W24_main_arg14 m ρ c),
    (h c _ (mem_uc main_arg15 (by decide))).trans (W24_main_arg15 m ρ c)⟩) (run_all m ρ)

end Cert.Kernel.Hand

end
-- ==== Proof.KI.R0.lean ====
/- Region 0 of the program's thirteen kernel launches, as one half of a frame run: what each window's staging buffer holds
   before and after the body at every grid point, the body's run on those buffers, and the body obligation of the
   pipeline library. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: `cc0__linear_kernel` at the entry contents `V`

    Window `w`'s block at grid point `t` is the rectangle of rows the point's index map selects, read off the array as
    the region finds it; the body stores ONE whole block, the payload of the loaded input blocks. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not fetched the
    block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: where it is not fetched the
    block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The output window's staging buffer after the body: its one store, of the payload of the loaded input blocks. -/
def out0_2 (x0 : Vec F S5000x64 .f32) (x1 : Vec F S64x64 .f32) : Vec F S5000x64 .f32 :=
  View.canon [⟨(Rect.unit (s := S5000x64) ![0, 0] S5000x64.size inb_S5000x64_S5000x64_0_0), k0_pay1 (View.ld x0 (Rect.unit (s := S5000x64) ![0, 0] S5000x64.size inb_S5000x64_S5000x64_0_0)) (View.ld x1 (Rect.unit (s := S64x64) ![0, 0] S64x64.size inb_S64x64_S64x64_0_0))⟩]

/-- The one store's rectangle is the whole block, so it covers it. -/
theorem cover0_2 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging memrefs — the inputs' at contents `xW`, the output's at anything — runs to the continuation
    with the inputs' as they were and the output's at `out0_2` of them. -/
theorem sound_kernel0 (c : Dev nD) (E : Set ℕ) (i : grid0.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each input's
    buffer at its block and the output's at `out0_2` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/- Region 1 of the program's thirteen kernel launches, as one half of a frame run: what each window's staging buffer holds
   before and after the body at every grid point, the body's run on those buffers, and the body obligation of the
   pipeline library. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: `cc1__edge_kernel` at the entry contents `V`

    Window `w`'s block at grid point `t` is the rectangle of rows the point's index map selects, read off the array as
    the region finds it; the body stores ONE whole block, the payload of the loaded input blocks. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not fetched the
    block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: where it is not fetched the
    block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: where it is not fetched the
    block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not: where it is not fetched the
    block index has not moved since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not: where it is not fetched the
    block index has not moved since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer after the body: its one store, of the payload of the loaded input blocks. -/
def out1_5 (x0 : Vec F S8000x64 .f32) (x1 : Vec F S8000x64 .f32) (x2 : Vec F S8000x64 .f32) (x3 : Vec F S8000x1 .f32) (x4 : Vec F S64x64 .f32) : Vec F S8000x64 .f32 :=
  View.canon [⟨(Rect.unit (s := S8000x64) ![0, 0] S8000x64.size inb_S8000x64_S8000x64_0_0), k1_pay1 (View.ld x0 (Rect.unit (s := S8000x64) ![0, 0] S8000x64.size inb_S8000x64_S8000x64_0_0)) (View.ld x1 (Rect.unit (s := S8000x64) ![0, 0] S8000x64.size inb_S8000x64_S8000x64_0_0)) (View.ld x2 (Rect.unit (s := S8000x64) ![0, 0] S8000x64.size inb_S8000x64_S8000x64_0_0)) (View.ld x4 (Rect.unit (s := S64x64) ![0, 0] S64x64.size inb_S64x64_S64x64_0_0)) (View.ld x3 (Rect.unit (s := S8000x1) ![0, 0] S8000x1.size inb_S8000x1_S8000x1_0_0))⟩]

/-- The one store's rectangle is the whole block, so it covers it. -/
theorem cover1_5 (p0 : Vec F S8000x64 .f32) (y : S8000x64.Idx) :
    ∃ pc ∈ ([⟨(Rect.unit (s := S8000x64) ![0, 0] S8000x64.size inb_S8000x64_S8000x64_0_0), p0⟩] : List (View.Piece (Elt F) S8000x64 .f32)), y ∈ pc.1.set :=
  View.cover_of_tiled [⟨(Rect.unit (s := S8000x64) ![0, 0] S8000x64.size inb_S8000x64_S8000x64_0_0), p0⟩] S8000x64.size (by rfl) y

set_option maxHeartbeats 1000000 in
/-- The body on whole staging memrefs — the inputs' at contents `xW`, the output's at anything — runs to the continuation
    with the inputs' as they were and the output's at `out1_5` of them. -/
theorem sound_kernel1 (c : Dev nD) (E : Set ℕ) (i : grid1.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole) (arg4 : Memref sig .tc .vmem S8000x1 .f32) (harg4 : arg4.IsWhole) (arg5 : Memref sig .tc .vmem S64x64 .f32) (harg5 : arg5.IsWhole) (arg6 : Memref sig .tc .vmem S8000x64 .f32) (harg6 : arg6.IsWhole)
    (x0 : Vec F S8000x64 .f32) (x1 : Vec F S8000x64 .f32) (x2 : Vec F S8000x64 .f32) (x3 : Vec F S8000x1 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__edge_kernel i arg1 harg1 arg2 harg2 arg3 harg3 arg4 harg4 arg5 harg5 arg6 harg6) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The pipeline's proof data on core `c`: the arrays as the region finds them; after the body at point `t` each input's
    buffer at its block and the output's at `out1_5` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/- Region 2 of the program's thirteen kernel launches, as one half of a frame run: what each window's staging buffer holds
   before and after the body at every grid point, the body's run on those buffers, and the body obligation of the
   pipeline library. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: `cc2__self_loop_kernel` at the entry contents `V`

    Window `w`'s block at grid point `t` is the rectangle of rows the point's index map selects, read off the array as
    the region finds it; the body stores ONE whole block, the payload of the loaded input blocks. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: where it is not fetched the
    block index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not: where it is not fetched the
    block index has not moved since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not: where it is not fetched the
    block index has not moved since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The output window's staging buffer after the body: its one store, of the payload of the loaded input blocks. -/
def out2_3 (x0 : Vec F S5000x64 .f32) (x1 : Vec F S64x64 .f32) (x2 : Vec F S5000x64 .f32) : Vec F S5000x64 .f32 :=
  View.canon [⟨(Rect.unit (s := S5000x64) ![0, 0] S5000x64.size inb_S5000x64_S5000x64_0_0), k2_pay1 (View.ld x0 (Rect.unit (s := S5000x64) ![0, 0] S5000x64.size inb_S5000x64_S5000x64_0_0)) (View.ld x1 (Rect.unit (s := S64x64) ![0, 0] S64x64.size inb_S64x64_S64x64_0_0)) (View.ld x2 (Rect.unit (s := S5000x64) ![0, 0] S5000x64.size inb_S5000x64_S5000x64_0_0))⟩]

/-- The one store's rectangle is the whole block, so it covers it. -/
theorem cover2_3 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging memrefs — the inputs' at contents `xW`, the output's at anything — runs to the continuation
    with the inputs' as they were and the output's at `out2_3` of them. -/
theorem sound_kernel2 (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole) (arg4 : Memref sig .tc .vmem S5000x64 .f32) (harg4 : arg4.IsWhole)
    (x0 : Vec F S5000x64 .f32) (x1 : Vec F S64x64 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__self_loop_kernel i arg1 harg1 arg2 harg2 arg3 harg3 arg4 harg4) K := by
  simp only [cc2__self_loop_kernel_eq_skeleton]; unfold cc2__self_loop_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each input's
    buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
/- Region 3 of the program's thirteen kernel launches, as one half of a frame run: what each window's staging buffer holds
   before and after the body at every grid point, the body's run on those buffers, and the body obligation of the
   pipeline library. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: `cc3__linear_kernel` at the entry contents `V`

    Window `w`'s block at grid point `t` is the rectangle of rows the point's index map selects, read off the array as
    the region finds it; the body stores ONE whole block, the payload of the loaded input blocks. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not: where it is not fetched the
    block index has not moved since the last fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not: where it is not fetched the
    block index has not moved since the last fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The output window's staging buffer after the body: its one store, of the payload of the loaded input blocks. -/
def out3_2 (x0 : Vec F S5000x64 .f32) (x1 : Vec F S64x64 .f32) : Vec F S5000x64 .f32 :=
  View.canon [⟨(Rect.unit (s := S5000x64) ![0, 0] S5000x64.size inb_S5000x64_S5000x64_0_0), k3_pay1 (View.ld x0 (Rect.unit (s := S5000x64) ![0, 0] S5000x64.size inb_S5000x64_S5000x64_0_0)) (View.ld x1 (Rect.unit (s := S64x64) ![0, 0] S64x64.size inb_S64x64_S64x64_0_0))⟩]

/-- The one store's rectangle is the whole block, so it covers it. -/
theorem cover3_2 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging memrefs — the inputs' at contents `xW`, the output's at anything — runs to the continuation
    with the inputs' as they were and the output's at `out3_2` of them. -/
theorem sound_kernel3 (c : Dev nD) (E : Set ℕ) (i : grid3.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__linear_kernel i arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the region finds them; after the body at point `t` each input's
    buffer at its block and the output's at `out3_2` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
/- Region 4 of the program's thirteen kernel launches, as one half of a frame run: what each window's staging buffer holds
   before and after the body at every grid point, the body's run on those buffers, and the body obligation of the
   pipeline library. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: `cc4__edge_kernel` at the entry contents `V`

    Window `w`'s block at grid point `t` is the rectangle of rows the point's index map selects, read off the array as
    the region finds it; the body stores ONE whole block, the payload of the loaded input blocks. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not: where it is not fetched the
    block index has not moved since the last fetch. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not: where it is not fetched the
    block index has not moved since the last fetch. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not: where it is not fetched the
    block index has not moved since the last fetch. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not: where it is not fetched the
    block index has not moved since the last fetch. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, fetched there or not: where it is not fetched the
    block index has not moved since the last fetch. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The output window's staging buffer after the body: its one store, of the payload of the loaded input blocks. -/
def out4_5 (x0 : Vec F S8000x64 .f32) (x1 : Vec F S8000x64 .f32) (x2 : Vec F S8000x64 .f32) (x3 : Vec F S8000x1 .f32) (x4 : Vec F S64x64 .f32) : Vec F S8000x64 .f32 :=
  View.canon [⟨(Rect.unit (s := S8000x64) ![0, 0] S8000x64.size inb_S8000x64_S8000x64_0_0), k4_pay1 (View.ld x0 (Rect.unit (s := S8000x64) ![0, 0] S8000x64.size inb_S8000x64_S8000x64_0_0)) (View.ld x1 (Rect.unit (s := S8000x64) ![0, 0] S8000x64.size inb_S8000x64_S8000x64_0_0)) (View.ld x2 (Rect.unit (s := S8000x64) ![0, 0] S8000x64.size inb_S8000x64_S8000x64_0_0)) (View.ld x4 (Rect.unit (s := S64x64) ![0, 0] S64x64.size inb_S64x64_S64x64_0_0)) (View.ld x3 (Rect.unit (s := S8000x1) ![0, 0] S8000x1.size inb_S8000x1_S8000x1_0_0))⟩]

/-- The one store's rectangle is the whole block, so it covers it. -/
theorem cover4_5 (p0 : Vec F S8000x64 .f32) (y : S8000x64.Idx) :
    ∃ pc ∈ ([⟨(Rect.unit (s := S8000x64) ![0, 0] S8000x64.size inb_S8000x64_S8000x64_0_0), p0⟩] : List (View.Piece (Elt F) S8000x64 .f32)), y ∈ pc.1.set :=
  View.cover_of_tiled [⟨(Rect.unit (s := S8000x64) ![0, 0] S8000x64.size inb_S8000x64_S8000x64_0_0), p0⟩] S8000x64.size (by rfl) y

set_option maxHeartbeats 1000000 in
/-- The body on whole staging memrefs — the inputs' at contents `xW`, the output's at anything — runs to the continuation
    with the inputs' as they were and the output's at `out4_5` of them. -/
theorem sound_kernel4 (c : Dev nD) (E : Set ℕ) (i : grid4.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole) (arg4 : Memref sig .tc .vmem S8000x1 .f32) (harg4 : arg4.IsWhole) (arg5 : Memref sig .tc .vmem S64x64 .f32) (harg5 : arg5.IsWhole) (arg6 : Memref sig .tc .vmem S8000x64 .f32) (harg6 : arg6.IsWhole)
    (x0 : Vec F S8000x64 .f32) (x1 : Vec F S8000x64 .f32) (x2 : Vec F S8000x64 .f32) (x3 : Vec F S8000x1 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__edge_kernel i arg1 harg1 arg2 harg2 arg3 harg3 arg4 harg4 arg5 harg5 arg6 harg6) K := by
  simp only [cc4__edge_kernel_eq_skeleton]; unfold cc4__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The pipeline's proof data on core `c`: the arrays as the region finds them; after the body at point `t` each input's
    buffer at its block and the output's at `out4_5` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
/- Region 5 of the program's thirteen kernel launches, as one half of a frame run: what each window's staging buffer holds
   before and after the body at every grid point, the body's run on those buffers, and the body obligation of the
   pipeline library. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: `cc5__self_loop_kernel` at the entry contents `V`

    Window `w`'s block at grid point `t` is the rectangle of rows the point's index map selects, read off the array as
    the region finds it; the body stores ONE whole block, the payload of the loaded input blocks. -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not: where it is not fetched the
    block index has not moved since the last fetch. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not: where it is not fetched the
    block index has not moved since the last fetch. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not: where it is not fetched the
    block index has not moved since the last fetch. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The output window's staging buffer after the body: its one store, of the payload of the loaded input blocks. -/
def out5_3 (x0 : Vec F S5000x64 .f32) (x1 : Vec F S64x64 .f32) (x2 : Vec F S5000x64 .f32) : Vec F S5000x64 .f32 :=
  View.canon [⟨(Rect.unit (s := S5000x64) ![0, 0] S5000x64.size inb_S5000x64_S5000x64_0_0), k5_pay1 (View.ld x0 (Rect.unit (s := S5000x64) ![0, 0] S5000x64.size inb_S5000x64_S5000x64_0_0)) (View.ld x1 (Rect.unit (s := S64x64) ![0, 0] S64x64.size inb_S64x64_S64x64_0_0)) (View.ld x2 (Rect.unit (s := S5000x64) ![0, 0] S5000x64.size inb_S5000x64_S5000x64_0_0))⟩]

/-- The one store's rectangle is the whole block, so it covers it. -/
theorem cover5_3 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging memrefs — the inputs' at contents `xW`, the output's at anything — runs to the continuation
    with the inputs' as they were and the output's at `out5_3` of them. -/
theorem sound_kernel5 (c : Dev nD) (E : Set ℕ) (i : grid5.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole) (arg4 : Memref sig .tc .vmem S5000x64 .f32) (harg4 : arg4.IsWhole)
    (x0 : Vec F S5000x64 .f32) (x1 : Vec F S64x64 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__self_loop_kernel i arg1 harg1 arg2 harg2 arg3 harg3 arg4 harg4) K := by
  simp only [cc5__self_loop_kernel_eq_skeleton]; unfold cc5__self_loop_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The pipeline's proof data on core `c`: the arrays as the region finds them; after the body at point `t` each input's
    buffer at its block and the output's at `out5_3` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R6.lean ====
/- Region 6 of the program's thirteen kernel launches, as one half of a frame run: what each window's staging buffer holds
   before and after the body at every grid point, the body's run on those buffers, and the body obligation of the
   pipeline library. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 6: `cc6__linear_kernel` at the entry contents `V`

    Window `w`'s block at grid point `t` is the rectangle of rows the point's index map selects, read off the array as
    the region finds it; the body stores ONE whole block, the payload of the loaded input blocks. -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or not: where it is not fetched the
    block index has not moved since the last fetch. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, fetched there or not: where it is not fetched the
    block index has not moved since the last fetch. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The output window's staging buffer after the body: its one store, of the payload of the loaded input blocks. -/
def out6_2 (x0 : Vec F S5000x64 .f32) (x1 : Vec F S64x64 .f32) : Vec F S5000x64 .f32 :=
  View.canon [⟨(Rect.unit (s := S5000x64) ![0, 0] S5000x64.size inb_S5000x64_S5000x64_0_0), k6_pay1 (View.ld x0 (Rect.unit (s := S5000x64) ![0, 0] S5000x64.size inb_S5000x64_S5000x64_0_0)) (View.ld x1 (Rect.unit (s := S64x64) ![0, 0] S64x64.size inb_S64x64_S64x64_0_0))⟩]

/-- The one store's rectangle is the whole block, so it covers it. -/
theorem cover6_2 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging memrefs — the inputs' at contents `xW`, the output's at anything — runs to the continuation
    with the inputs' as they were and the output's at `out6_2` of them. -/
theorem sound_kernel6 (c : Dev nD) (E : Set ℕ) (i : grid6.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__linear_kernel i arg1 harg1 arg2 harg2 arg3 harg3) K := by
  simp only [cc6__linear_kernel_eq_skeleton]; unfold cc6__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-- The pipeline's proof data on core `c`: the arrays as the region finds them; after the body at point `t` each input's
    buffer at its block and the output's at `out6_2` of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.R7.lean ====
/- Region 7 of the program's thirteen kernel launches, as one half of a frame run: what each window's staging buffer holds
   before and after the body at every grid point, the body's run on those buffers, and the body obligation of the
   pipeline library. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: `cc7__edge_kernel` at the entry contents `V`

    Window `w`'s block at grid point `t` is the rectangle of rows the point's index map selects, read off the array as
    the region finds it; the body stores ONE whole block, the payload of the loaded input blocks. -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or not: where it is not fetched the
    block index has not moved since the last fetch. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, fetched there or not: where it is not fetched the
    block index has not moved since the last fetch. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, fetched there or not: where it is not fetched the
    block index has not moved since the last fetch. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, fetched there or not: where it is not fetched the
    block index has not moved since the last fetch. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every point, fetched there or not: where it is not fetched the
    block index has not moved since the last fetch. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- The output window's staging buffer after the body: its one store, of the payload of the loaded input blocks. -/
def out7_5 (x0 : Vec F S8000x64 .f32) (x1 : Vec F S8000x64 .f32) (x2 : Vec F S8000x64 .f32) (x3 : Vec F S8000x1 .f32) (x4 : Vec F S64x64 .f32) : Vec F S8000x64 .f32 :=
  View.canon [⟨(Rect.unit (s := S8000x64) ![0, 0] S8000x64.size inb_S8000x64_S8000x64_0_0), k7_pay1 (View.ld x0 (Rect.unit (s := S8000x64) ![0, 0] S8000x64.size inb_S8000x64_S8000x64_0_0)) (View.ld x1 (Rect.unit (s := S8000x64) ![0, 0] S8000x64.size inb_S8000x64_S8000x64_0_0)) (View.ld x2 (Rect.unit (s := S8000x64) ![0, 0] S8000x64.size inb_S8000x64_S8000x64_0_0)) (View.ld x4 (Rect.unit (s := S64x64) ![0, 0] S64x64.size inb_S64x64_S64x64_0_0)) (View.ld x3 (Rect.unit (s := S8000x1) ![0, 0] S8000x1.size inb_S8000x1_S8000x1_0_0))⟩]

/-- The one store's rectangle is the whole block, so it covers it. -/
theorem cover7_5 (p0 : Vec F S8000x64 .f32) (y : S8000x64.Idx) :
    ∃ pc ∈ ([⟨(Rect.unit (s := S8000x64) ![0, 0] S8000x64.size inb_S8000x64_S8000x64_0_0), p0⟩] : List (View.Piece (Elt F) S8000x64 .f32)), y ∈ pc.1.set :=
  View.cover_of_tiled [⟨(Rect.unit (s := S8000x64) ![0, 0] S8000x64.size inb_S8000x64_S8000x64_0_0), p0⟩] S8000x64.size (by rfl) y

set_option maxHeartbeats 1000000 in
/-- The body on whole staging memrefs — the inputs' at contents `xW`, the output's at anything — runs to the continuation
    with the inputs' as they were and the output's at `out7_5` of them. -/
theorem sound_kernel7 (c : Dev nD) (E : Set ℕ) (i : grid7.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole) (arg4 : Memref sig .tc .vmem S8000x1 .f32) (harg4 : arg4.IsWhole) (arg5 : Memref sig .tc .vmem S64x64 .f32) (harg5 : arg5.IsWhole) (arg6 : Memref sig .tc .vmem S8000x64 .f32) (harg6 : arg6.IsWhole)
    (x0 : Vec F S8000x64 .f32) (x1 : Vec F S8000x64 .f32) (x2 : Vec F S8000x64 .f32) (x3 : Vec F S8000x1 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7__edge_kernel i arg1 harg1 arg2 harg2 arg3 harg3 arg4 harg4 arg5 harg5 arg6 harg6) K := by
  simp only [cc7__edge_kernel_eq_skeleton]; unfold cc7__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-- The pipeline's proof data on core `c`: the arrays as the region finds them; after the body at point `t` each input's
    buffer at its block and the output's at `out7_5` of the input blocks; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so `sound_kernel7` applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.R8.lean ====
/- Region 8 of the program's thirteen kernel launches, as one half of a frame run: what each window's staging buffer holds
   before and after the body at every grid point, the body's run on those buffers, and the body obligation of the
   pipeline library. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 8: `cc8__self_loop_kernel` at the entry contents `V`

    Window `w`'s block at grid point `t` is the rectangle of rows the point's index map selects, read off the array as
    the region finds it; the body stores ONE whole block, the payload of the loaded input blocks. -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or not: where it is not fetched the
    block index has not moved since the last fetch. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every point, fetched there or not: where it is not fetched the
    block index has not moved since the last fetch. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every point, fetched there or not: where it is not fetched the
    block index has not moved since the last fetch. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- The output window's staging buffer after the body: its one store, of the payload of the loaded input blocks. -/
def out8_3 (x0 : Vec F S5000x64 .f32) (x1 : Vec F S64x64 .f32) (x2 : Vec F S5000x64 .f32) : Vec F S5000x64 .f32 :=
  View.canon [⟨(Rect.unit (s := S5000x64) ![0, 0] S5000x64.size inb_S5000x64_S5000x64_0_0), k8_pay1 (View.ld x0 (Rect.unit (s := S5000x64) ![0, 0] S5000x64.size inb_S5000x64_S5000x64_0_0)) (View.ld x1 (Rect.unit (s := S64x64) ![0, 0] S64x64.size inb_S64x64_S64x64_0_0)) (View.ld x2 (Rect.unit (s := S5000x64) ![0, 0] S5000x64.size inb_S5000x64_S5000x64_0_0))⟩]

/-- The one store's rectangle is the whole block, so it covers it. -/
theorem cover8_3 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging memrefs — the inputs' at contents `xW`, the output's at anything — runs to the continuation
    with the inputs' as they were and the output's at `out8_3` of them. -/
theorem sound_kernel8 (c : Dev nD) (E : Set ℕ) (i : grid8.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole) (arg4 : Memref sig .tc .vmem S5000x64 .f32) (harg4 : arg4.IsWhole)
    (x0 : Vec F S5000x64 .f32) (x1 : Vec F S64x64 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__self_loop_kernel i arg1 harg1 arg2 harg2 arg3 harg3 arg4 harg4) K := by
  simp only [cc8__self_loop_kernel_eq_skeleton]; unfold cc8__self_loop_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-- The pipeline's proof data on core `c`: the arrays as the region finds them; after the body at point `t` each input's
    buffer at its block and the output's at `out8_3` of the input blocks; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so `sound_kernel8` applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.R9.lean ====
/- Region 9 of the program's thirteen kernel launches, as one half of a frame run: what each window's staging buffer holds
   before and after the body at every grid point, the body's run on those buffers, and the body obligation of the
   pipeline library. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 9: `cc9__linear_kernel` at the entry contents `V`

    Window `w`'s block at grid point `t` is the rectangle of rows the point's index map selects, read off the array as
    the region finds it; the body stores ONE whole block, the payload of the loaded input blocks. -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every point, fetched there or not: where it is not fetched the
    block index has not moved since the last fetch. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds its block at every point, fetched there or not: where it is not fetched the
    block index has not moved since the last fetch. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The output window's staging buffer after the body: its one store, of the payload of the loaded input blocks. -/
def out9_2 (x0 : Vec F S5000x64 .f32) (x1 : Vec F S64x64 .f32) : Vec F S5000x64 .f32 :=
  View.canon [⟨(Rect.unit (s := S5000x64) ![0, 0] S5000x64.size inb_S5000x64_S5000x64_0_0), k9_pay1 (View.ld x0 (Rect.unit (s := S5000x64) ![0, 0] S5000x64.size inb_S5000x64_S5000x64_0_0)) (View.ld x1 (Rect.unit (s := S64x64) ![0, 0] S64x64.size inb_S64x64_S64x64_0_0))⟩]

/-- The one store's rectangle is the whole block, so it covers it. -/
theorem cover9_2 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging memrefs — the inputs' at contents `xW`, the output's at anything — runs to the continuation
    with the inputs' as they were and the output's at `out9_2` of them. -/
theorem sound_kernel9 (c : Dev nD) (E : Set ℕ) (i : grid9.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__linear_kernel i arg1 harg1 arg2 harg2 arg3 harg3) K := by
  simp only [cc9__linear_kernel_eq_skeleton]; unfold cc9__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-- The pipeline's proof data on core `c`: the arrays as the region finds them; after the body at point `t` each input's
    buffer at its block and the output's at `out9_2` of the input blocks; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks, so `sound_kernel9` applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.R10.lean ====
/- Region 10 of the program's thirteen kernel launches, as one half of a frame run: what each window's staging buffer holds
   before and after the body at every grid point, the body's run on those buffers, and the body obligation of the
   pipeline library. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 10: `cc10__edge_kernel` at the entry contents `V`

    Window `w`'s block at grid point `t` is the rectangle of rows the point's index map selects, read off the array as
    the region finds it; the body stores ONE whole block, the payload of the loaded input blocks. -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's staging buffer holds its block at every point, fetched there or not: where it is not fetched the
    block index has not moved since the last fetch. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's staging buffer holds its block at every point, fetched there or not: where it is not fetched the
    block index has not moved since the last fetch. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's staging buffer holds its block at every point, fetched there or not: where it is not fetched the
    block index has not moved since the last fetch. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's staging buffer holds its block at every point, fetched there or not: where it is not fetched the
    block index has not moved since the last fetch. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's staging buffer holds its block at every point, fetched there or not: where it is not fetched the
    block index has not moved since the last fetch. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- The output window's staging buffer after the body: its one store, of the payload of the loaded input blocks. -/
def out10_5 (x0 : Vec F S8000x64 .f32) (x1 : Vec F S8000x64 .f32) (x2 : Vec F S8000x64 .f32) (x3 : Vec F S8000x1 .f32) (x4 : Vec F S64x64 .f32) : Vec F S8000x64 .f32 :=
  View.canon [⟨(Rect.unit (s := S8000x64) ![0, 0] S8000x64.size inb_S8000x64_S8000x64_0_0), k10_pay1 (View.ld x0 (Rect.unit (s := S8000x64) ![0, 0] S8000x64.size inb_S8000x64_S8000x64_0_0)) (View.ld x1 (Rect.unit (s := S8000x64) ![0, 0] S8000x64.size inb_S8000x64_S8000x64_0_0)) (View.ld x2 (Rect.unit (s := S8000x64) ![0, 0] S8000x64.size inb_S8000x64_S8000x64_0_0)) (View.ld x4 (Rect.unit (s := S64x64) ![0, 0] S64x64.size inb_S64x64_S64x64_0_0)) (View.ld x3 (Rect.unit (s := S8000x1) ![0, 0] S8000x1.size inb_S8000x1_S8000x1_0_0))⟩]

/-- The one store's rectangle is the whole block, so it covers it. -/
theorem cover10_5 (p0 : Vec F S8000x64 .f32) (y : S8000x64.Idx) :
    ∃ pc ∈ ([⟨(Rect.unit (s := S8000x64) ![0, 0] S8000x64.size inb_S8000x64_S8000x64_0_0), p0⟩] : List (View.Piece (Elt F) S8000x64 .f32)), y ∈ pc.1.set :=
  View.cover_of_tiled [⟨(Rect.unit (s := S8000x64) ![0, 0] S8000x64.size inb_S8000x64_S8000x64_0_0), p0⟩] S8000x64.size (by rfl) y

set_option maxHeartbeats 1000000 in
/-- The body on whole staging memrefs — the inputs' at contents `xW`, the output's at anything — runs to the continuation
    with the inputs' as they were and the output's at `out10_5` of them. -/
theorem sound_kernel10 (c : Dev nD) (E : Set ℕ) (i : grid10.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole) (arg4 : Memref sig .tc .vmem S8000x1 .f32) (harg4 : arg4.IsWhole) (arg5 : Memref sig .tc .vmem S64x64 .f32) (harg5 : arg5.IsWhole) (arg6 : Memref sig .tc .vmem S8000x64 .f32) (harg6 : arg6.IsWhole)
    (x0 : Vec F S8000x64 .f32) (x1 : Vec F S8000x64 .f32) (x2 : Vec F S8000x64 .f32) (x3 : Vec F S8000x1 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out10_5 x0 x1 x2 x3 x4)) -∗ K ⟨⟩))
      ⊢ wp frame (wpE (defs₀ (F := F)) Variants.none c none) E (cc10__edge_kernel i arg1 harg1 arg2 harg2 arg3 harg3 arg4 harg4 arg5 harg5 arg6 harg6) K := by
  simp only [cc10__edge_kernel_eq_skeleton]; unfold cc10__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover10_5 _)

/-- The pipeline's proof data on core `c`: the arrays as the region finds them; after the body at point `t` each input's
    buffer at its block and the output's at `out10_5` of the input blocks; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = out10_5 (iblk10 V c 0 t) (iblk10 V c 1 t) (iblk10 V c 2 t) (iblk10 V c 3 t) (iblk10 V c 4 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

/-- The body at any point: the inputs' memrefs hold their blocks, so `sound_kernel10` applies; the invariant and the
    core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ _ _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.R11.lean ====
/- Region 11 of the program's thirteen kernel launches, as one half of a frame run: what each window's staging buffer holds
   before and after the body at every grid point, the body's run on those buffers, and the body obligation of the
   pipeline library. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 11: `cc11__self_loop_kernel` at the entry contents `V`

    Window `w`'s block at grid point `t` is the rectangle of rows the point's index map selects, read off the array as
    the region finds it; the body stores ONE whole block, the payload of the loaded input blocks. -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's staging buffer holds its block at every point, fetched there or not: where it is not fetched the
    block index has not moved since the last fetch. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's staging buffer holds its block at every point, fetched there or not: where it is not fetched the
    block index has not moved since the last fetch. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's staging buffer holds its block at every point, fetched there or not: where it is not fetched the
    block index has not moved since the last fetch. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- The output window's staging buffer after the body: its one store, of the payload of the loaded input blocks. -/
def out11_3 (x0 : Vec F S5000x64 .f32) (x1 : Vec F S64x64 .f32) (x2 : Vec F S5000x64 .f32) : Vec F S5000x64 .f32 :=
  View.canon [⟨(Rect.unit (s := S5000x64) ![0, 0] S5000x64.size inb_S5000x64_S5000x64_0_0), k11_pay1 (View.ld x0 (Rect.unit (s := S5000x64) ![0, 0] S5000x64.size inb_S5000x64_S5000x64_0_0)) (View.ld x1 (Rect.unit (s := S64x64) ![0, 0] S64x64.size inb_S64x64_S64x64_0_0)) (View.ld x2 (Rect.unit (s := S5000x64) ![0, 0] S5000x64.size inb_S5000x64_S5000x64_0_0))⟩]

/-- The one store's rectangle is the whole block, so it covers it. -/
theorem cover11_3 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging memrefs — the inputs' at contents `xW`, the output's at anything — runs to the continuation
    with the inputs' as they were and the output's at `out11_3` of them. -/
theorem sound_kernel11 (c : Dev nD) (E : Set ℕ) (i : grid11.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole) (arg4 : Memref sig .tc .vmem S5000x64 .f32) (harg4 : arg4.IsWhole)
    (x0 : Vec F S5000x64 .f32) (x1 : Vec F S64x64 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out11_3 x0 x1 x2)) -∗ K ⟨⟩))
      ⊢ wp frame (wpE (defs₀ (F := F)) Variants.none c none) E (cc11__self_loop_kernel i arg1 harg1 arg2 harg2 arg3 harg3 arg4 harg4) K := by
  simp only [cc11__self_loop_kernel_eq_skeleton]; unfold cc11__self_loop_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-- The pipeline's proof data on core `c`: the arrays as the region finds them; after the body at point `t` each input's
    buffer at its block and the output's at `out11_3` of the input blocks; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11_3 (iblk11 V c 0 t) (iblk11 V c 1 t) (iblk11 V c 2 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' memrefs hold their blocks, so `sound_kernel11` applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KI.R12.lean ====
/- Region 12 of the program's thirteen kernel launches, as one half of a frame run: what each window's staging buffer holds
   before and after the body at every grid point, the body's run on those buffers, and the body obligation of the
   pipeline library. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 12: `cc12__dot_kernel` at the entry contents `V`

    Window `w`'s block at grid point `t` is the rectangle of rows the point's index map selects, read off the array as
    the region finds it; the body stores ONE whole block, the payload of the loaded input blocks. -/

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's staging buffer holds its block at every point, fetched there or not: where it is not fetched the
    block index has not moved since the last fetch. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's staging buffer holds its block at every point, fetched there or not: where it is not fetched the
    block index has not moved since the last fetch. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- The output window's staging buffer after the body: its one store, of the payload of the loaded input blocks. -/
def out12_2 (x0 : Vec F S5000x192 .f32) (x1 : Vec F S5000x192 .f32) : Vec F S5000x1 .f32 :=
  View.canon [⟨(Rect.unit (s := S5000x1) ![0, 0] S5000x1.size inb_S5000x1_S5000x1_0_0), k12_pay1 (View.ld x0 (Rect.unit (s := S5000x192) ![0, 0] S5000x192.size inb_S5000x192_S5000x192_0_0)) (View.ld x1 (Rect.unit (s := S5000x192) ![0, 0] S5000x192.size inb_S5000x192_S5000x192_0_0))⟩]

/-- The one store's rectangle is the whole block, so it covers it. -/
theorem cover12_2 (p0 : Vec F S5000x1 .f32) (y : S5000x1.Idx) :
    ∃ pc ∈ ([⟨(Rect.unit (s := S5000x1) ![0, 0] S5000x1.size inb_S5000x1_S5000x1_0_0), p0⟩] : List (View.Piece (Elt F) S5000x1 .f32)), y ∈ pc.1.set :=
  View.cover_of_tiled [⟨(Rect.unit (s := S5000x1) ![0, 0] S5000x1.size inb_S5000x1_S5000x1_0_0), p0⟩] S5000x1.size (by rfl) y

set_option maxHeartbeats 1000000 in
/-- The body on whole staging memrefs — the inputs' at contents `xW`, the output's at anything — runs to the continuation
    with the inputs' as they were and the output's at `out12_2` of them. -/
theorem sound_kernel12 (c : Dev nD) (E : Set ℕ) (i : grid12.Coords) (arg1 : Memref sig .tc .vmem S5000x192 .f32) (harg1 : arg1.IsWhole) (arg2 : Memref sig .tc .vmem S5000x192 .f32) (harg2 : arg2.IsWhole) (arg3 : Memref sig .tc .vmem S5000x1 .f32) (harg3 : arg3.IsWhole)
    (x0 : Vec F S5000x192 .f32) (x1 : Vec F S5000x192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12__dot_kernel i arg1 harg1 arg2 harg2 arg3 harg3) K := by
  simp only [cc12__dot_kernel_eq_skeleton]; unfold cc12__dot_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-- The pipeline's proof data on core `c`: the arrays as the region finds them; after the body at point `t` each input's
    buffer at its block and the output's at `out12_2` of the input blocks; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- What the body is called with at point `t`, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the inputs' memrefs hold their blocks, so `sound_kernel12` applies; the invariant and the
    core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand

end
-- ==== Proof.KI.Fold.lean ====
/- The buffer contents at each boundary between two items of @main — a stretch of host operations, or a kernel launch —
   as a fold from the launch memory: a stretch applies its operations' functions; a launch leaves each of its windows' arrays at what
   the pipeline's write-backs leave and every other buffer as it found it. Then: every buffer that is no launch's output
   array and that no stretch writes holds its launch contents at the end. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import proofs.«126583_j73280732004963_1_alg».proof.Proof.KI.R0
import proofs.«126583_j73280732004963_1_alg».proof.Proof.KI.R1
import proofs.«126583_j73280732004963_1_alg».proof.Proof.KI.R2
import proofs.«126583_j73280732004963_1_alg».proof.Proof.KI.R3
import proofs.«126583_j73280732004963_1_alg».proof.Proof.KI.R4
import proofs.«126583_j73280732004963_1_alg».proof.Proof.KI.R5
import proofs.«126583_j73280732004963_1_alg».proof.Proof.KI.R6
import proofs.«126583_j73280732004963_1_alg».proof.Proof.KI.R7
import proofs.«126583_j73280732004963_1_alg».proof.Proof.KI.R8
import proofs.«126583_j73280732004963_1_alg».proof.Proof.KI.R9
import proofs.«126583_j73280732004963_1_alg».proof.Proof.KI.R10
import proofs.«126583_j73280732004963_1_alg».proof.Proof.KI.R11
import proofs.«126583_j73280732004963_1_alg».proof.Proof.KI.R12
import proofs.«126583_j73280732004963_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_keep (c : Dev nD) (b : Ref sig .tc) (h : b ∉ hostOps0_W) : W1 m ρ c (Proc.devRef .tc b) = W0 m ρ c (Proc.devRef .tc b) :=
  StableHlo.after_of_writes_sub hostOps0 _ hostOps0_writes h

/-- At launch 0's exit: its windows' arrays at what the pipeline leaves (an input's as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Launch 0 changes no buffer but its output window's array: an input window's array is never written back. -/
theorem W2_keep (c : Dev nD) (b : Ref sig .tc) (h : b ≠ main_v39) : W2 m ρ c (Proc.devRef .tc b) = W1 m ρ c (Proc.devRef .tc b) := by
  by_cases hb : ∃ w, Pipeline.arrRef spec0 w = b
  · obtain ⟨w, rfl⟩ := hb
    rw [W2_arr]
    match w with
    | ⟨0, _⟩ => exact ((dat0 (V1 m ρ) c).arrAt_in 0 rfl _).trans (A_eq0 (V1 m ρ) c 0)
    | ⟨1, _⟩ => exact ((dat0 (V1 m ρ) c).arrAt_in 1 rfl _).trans (A_eq0 (V1 m ρ) c 1)
    | ⟨2, _⟩ => exact absurd rfl h
  · exact W2_of_ne m ρ c b fun w e => hb ⟨w, e⟩

/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_keep (c : Dev nD) (b : Ref sig .tc) (h : b ∉ hostOps1_W) : W3 m ρ c (Proc.devRef .tc b) = W2 m ρ c (Proc.devRef .tc b) :=
  StableHlo.after_of_writes_sub hostOps1 _ hostOps1_writes h

/-- At launch 1's exit: its windows' arrays at what the pipeline leaves (an input's as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Launch 1 changes no buffer but its output window's array: an input window's array is never written back. -/
theorem W4_keep (c : Dev nD) (b : Ref sig .tc) (h : b ≠ main_v61) : W4 m ρ c (Proc.devRef .tc b) = W3 m ρ c (Proc.devRef .tc b) := by
  by_cases hb : ∃ w, Pipeline.arrRef spec1 w = b
  · obtain ⟨w, rfl⟩ := hb
    rw [W4_arr]
    match w with
    | ⟨0, _⟩ => exact ((dat1 (V3 m ρ) c).arrAt_in 0 rfl _).trans (A_eq1 (V3 m ρ) c 0)
    | ⟨1, _⟩ => exact ((dat1 (V3 m ρ) c).arrAt_in 1 rfl _).trans (A_eq1 (V3 m ρ) c 1)
    | ⟨2, _⟩ => exact ((dat1 (V3 m ρ) c).arrAt_in 2 rfl _).trans (A_eq1 (V3 m ρ) c 2)
    | ⟨3, _⟩ => exact ((dat1 (V3 m ρ) c).arrAt_in 3 rfl _).trans (A_eq1 (V3 m ρ) c 3)
    | ⟨4, _⟩ => exact ((dat1 (V3 m ρ) c).arrAt_in 4 rfl _).trans (A_eq1 (V3 m ρ) c 4)
    | ⟨5, _⟩ => exact absurd rfl h
  · exact W4_of_ne m ρ c b fun w e => hb ⟨w, e⟩

/-- After the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
theorem W5_keep (c : Dev nD) (b : Ref sig .tc) (h : b ∉ hostOps2_W) : W5 m ρ c (Proc.devRef .tc b) = W4 m ρ c (Proc.devRef .tc b) :=
  StableHlo.after_of_writes_sub hostOps2 _ hostOps2_writes h

/-- At launch 2's exit: its windows' arrays at what the pipeline leaves (an input's as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Launch 2 changes no buffer but its output window's array: an input window's array is never written back. -/
theorem W6_keep (c : Dev nD) (b : Ref sig .tc) (h : b ≠ main_v65) : W6 m ρ c (Proc.devRef .tc b) = W5 m ρ c (Proc.devRef .tc b) := by
  by_cases hb : ∃ w, Pipeline.arrRef spec2 w = b
  · obtain ⟨w, rfl⟩ := hb
    rw [W6_arr]
    match w with
    | ⟨0, _⟩ => exact ((dat2 (V5 m ρ) c).arrAt_in 0 rfl _).trans (A_eq2 (V5 m ρ) c 0)
    | ⟨1, _⟩ => exact ((dat2 (V5 m ρ) c).arrAt_in 1 rfl _).trans (A_eq2 (V5 m ρ) c 1)
    | ⟨2, _⟩ => exact ((dat2 (V5 m ρ) c).arrAt_in 2 rfl _).trans (A_eq2 (V5 m ρ) c 2)
    | ⟨3, _⟩ => exact absurd rfl h
  · exact W6_of_ne m ρ c b fun w e => hb ⟨w, e⟩

/-- At launch 3's exit: its windows' arrays at what the pipeline leaves (an input's as entered, the output's write-backs
    folded), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- Launch 3 changes no buffer but its output window's array: an input window's array is never written back. -/
theorem W7_keep (c : Dev nD) (b : Ref sig .tc) (h : b ≠ main_v66) : W7 m ρ c (Proc.devRef .tc b) = W6 m ρ c (Proc.devRef .tc b) := by
  by_cases hb : ∃ w, Pipeline.arrRef spec3 w = b
  · obtain ⟨w, rfl⟩ := hb
    rw [W7_arr]
    match w with
    | ⟨0, _⟩ => exact ((dat3 (V6 m ρ) c).arrAt_in 0 rfl _).trans (A_eq3 (V6 m ρ) c 0)
    | ⟨1, _⟩ => exact ((dat3 (V6 m ρ) c).arrAt_in 1 rfl _).trans (A_eq3 (V6 m ρ) c 1)
    | ⟨2, _⟩ => exact absurd rfl h
  · exact W7_of_ne m ρ c b fun w e => hb ⟨w, e⟩

/-- After the host stretch `hostOps4`. -/
abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b
theorem W8_keep (c : Dev nD) (b : Ref sig .tc) (h : b ∉ hostOps4_W) : W8 m ρ c (Proc.devRef .tc b) = W7 m ρ c (Proc.devRef .tc b) :=
  StableHlo.after_of_writes_sub hostOps4 _ hostOps4_writes h

/-- At launch 4's exit: its windows' arrays at what the pipeline leaves (an input's as entered, the output's write-backs
    folded), every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)
/-- Launch 4 changes no buffer but its output window's array: an input window's array is never written back. -/
theorem W9_keep (c : Dev nD) (b : Ref sig .tc) (h : b ≠ main_v88) : W9 m ρ c (Proc.devRef .tc b) = W8 m ρ c (Proc.devRef .tc b) := by
  by_cases hb : ∃ w, Pipeline.arrRef spec4 w = b
  · obtain ⟨w, rfl⟩ := hb
    rw [W9_arr]
    match w with
    | ⟨0, _⟩ => exact ((dat4 (V8 m ρ) c).arrAt_in 0 rfl _).trans (A_eq4 (V8 m ρ) c 0)
    | ⟨1, _⟩ => exact ((dat4 (V8 m ρ) c).arrAt_in 1 rfl _).trans (A_eq4 (V8 m ρ) c 1)
    | ⟨2, _⟩ => exact ((dat4 (V8 m ρ) c).arrAt_in 2 rfl _).trans (A_eq4 (V8 m ρ) c 2)
    | ⟨3, _⟩ => exact ((dat4 (V8 m ρ) c).arrAt_in 3 rfl _).trans (A_eq4 (V8 m ρ) c 3)
    | ⟨4, _⟩ => exact ((dat4 (V8 m ρ) c).arrAt_in 4 rfl _).trans (A_eq4 (V8 m ρ) c 4)
    | ⟨5, _⟩ => exact absurd rfl h
  · exact W9_of_ne m ρ c b fun w e => hb ⟨w, e⟩

/-- After the host stretch `hostOps5`. -/
abbrev W10 : Dev nD → Valuation τ sig (Elt F) := fun c => StableHlo.after hostOps5 (W9 m ρ c)
abbrev V10 : (c : Dev nD) → (b : Ref sig .tc) → Buf (Elt F) ((c : Thread nD τ).loc b) := fun c b => W10 m ρ c b
theorem W10_keep (c : Dev nD) (b : Ref sig .tc) (h : b ∉ hostOps5_W) : W10 m ρ c (Proc.devRef .tc b) = W9 m ρ c (Proc.devRef .tc b) :=
  StableHlo.after_of_writes_sub hostOps5 _ hostOps5_writes h

/-- At launch 5's exit: its windows' arrays at what the pipeline leaves (an input's as entered, the output's write-backs
    folded), every other buffer as entered. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
abbrev V11 : (c : Dev nD) → (b : Ref sig .tc) → Buf (Elt F) ((c : Thread nD τ).loc b) := fun c b => W11 m ρ c b
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)
/-- Launch 5 changes no buffer but its output window's array: an input window's array is never written back. -/
theorem W11_keep (c : Dev nD) (b : Ref sig .tc) (h : b ≠ main_v92) : W11 m ρ c (Proc.devRef .tc b) = W10 m ρ c (Proc.devRef .tc b) := by
  by_cases hb : ∃ w, Pipeline.arrRef spec5 w = b
  · obtain ⟨w, rfl⟩ := hb
    rw [W11_arr]
    match w with
    | ⟨0, _⟩ => exact ((dat5 (V10 m ρ) c).arrAt_in 0 rfl _).trans (A_eq5 (V10 m ρ) c 0)
    | ⟨1, _⟩ => exact ((dat5 (V10 m ρ) c).arrAt_in 1 rfl _).trans (A_eq5 (V10 m ρ) c 1)
    | ⟨2, _⟩ => exact ((dat5 (V10 m ρ) c).arrAt_in 2 rfl _).trans (A_eq5 (V10 m ρ) c 2)
    | ⟨3, _⟩ => exact absurd rfl h
  · exact W11_of_ne m ρ c b fun w e => hb ⟨w, e⟩

/-- At launch 6's exit: its windows' arrays at what the pipeline leaves (an input's as entered, the output's write-backs
    folded), every other buffer as entered. -/
def W12 (c : Dev nD) : Valuation τ sig (Elt F) :=
  Pipeline.withArrays spec6 c (W11 m ρ c) fun w => (dat6 (V11 m ρ) c).arrAt w cfg6.N
theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
abbrev V12 : (c : Dev nD) → (b : Ref sig .tc) → Buf (Elt F) ((c : Thread nD τ).loc b) := fun c b => W12 m ρ c b
theorem hF6 (c : Dev nD) (w : Fin cfg6.W) : (dat6 (V11 m ρ) c).arrAt w cfg6.N = V12 m ρ c (Pipeline.arrRef spec6 w) :=
  (W12_arr m ρ c w).symm
theorem hrest6 (c : Dev nD) : ∀ b, b ∉ Finset.univ.image (Pipeline.arrRef spec6) → V12 m ρ c b = V11 m ρ c b :=
  fun b hb => W12_of_ne m ρ c b fun w e => hb (Finset.mem_image.mpr ⟨w, Finset.mem_univ _, e⟩)
/-- Launch 6 changes no buffer but its output window's array: an input window's array is never written back. -/
theorem W12_keep (c : Dev nD) (b : Ref sig .tc) (h : b ≠ main_v93) : W12 m ρ c (Proc.devRef .tc b) = W11 m ρ c (Proc.devRef .tc b) := by
  by_cases hb : ∃ w, Pipeline.arrRef spec6 w = b
  · obtain ⟨w, rfl⟩ := hb
    rw [W12_arr]
    match w with
    | ⟨0, _⟩ => exact ((dat6 (V11 m ρ) c).arrAt_in 0 rfl _).trans (A_eq6 (V11 m ρ) c 0)
    | ⟨1, _⟩ => exact ((dat6 (V11 m ρ) c).arrAt_in 1 rfl _).trans (A_eq6 (V11 m ρ) c 1)
    | ⟨2, _⟩ => exact absurd rfl h
  · exact W12_of_ne m ρ c b fun w e => hb ⟨w, e⟩

/-- After the host stretch `hostOps7`. -/
abbrev W13 : Dev nD → Valuation τ sig (Elt F) := fun c => StableHlo.after hostOps7 (W12 m ρ c)
abbrev V13 : (c : Dev nD) → (b : Ref sig .tc) → Buf (Elt F) ((c : Thread nD τ).loc b) := fun c b => W13 m ρ c b
theorem W13_keep (c : Dev nD) (b : Ref sig .tc) (h : b ∉ hostOps7_W) : W13 m ρ c (Proc.devRef .tc b) = W12 m ρ c (Proc.devRef .tc b) :=
  StableHlo.after_of_writes_sub hostOps7 _ hostOps7_writes h

/-- At launch 7's exit: its windows' arrays at what the pipeline leaves (an input's as entered, the output's write-backs
    folded), every other buffer as entered. -/
def W14 (c : Dev nD) : Valuation τ sig (Elt F) :=
  Pipeline.withArrays spec7 c (W13 m ρ c) fun w => (dat7 (V13 m ρ) c).arrAt w cfg7.N
theorem W14_arr (c : Dev nD) (w : Fin cfg7.W) :
    W14 m ρ c (Proc.devRef .tc (Pipeline.arrRef spec7 w)) = (dat7 (V13 m ρ) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 m ρ c (Proc.devRef .tc b) = W13 m ρ c (Proc.devRef .tc b) := by
  unfold W14; exact Pipeline.withArrays_of_ne spec7 c _ _ b hb
abbrev V14 : (c : Dev nD) → (b : Ref sig .tc) → Buf (Elt F) ((c : Thread nD τ).loc b) := fun c b => W14 m ρ c b
theorem hF7 (c : Dev nD) (w : Fin cfg7.W) : (dat7 (V13 m ρ) c).arrAt w cfg7.N = V14 m ρ c (Pipeline.arrRef spec7 w) :=
  (W14_arr m ρ c w).symm
theorem hrest7 (c : Dev nD) : ∀ b, b ∉ Finset.univ.image (Pipeline.arrRef spec7) → V14 m ρ c b = V13 m ρ c b :=
  fun b hb => W14_of_ne m ρ c b fun w e => hb (Finset.mem_image.mpr ⟨w, Finset.mem_univ _, e⟩)
/-- Launch 7 changes no buffer but its output window's array: an input window's array is never written back. -/
theorem W14_keep (c : Dev nD) (b : Ref sig .tc) (h : b ≠ main_v115) : W14 m ρ c (Proc.devRef .tc b) = W13 m ρ c (Proc.devRef .tc b) := by
  by_cases hb : ∃ w, Pipeline.arrRef spec7 w = b
  · obtain ⟨w, rfl⟩ := hb
    rw [W14_arr]
    match w with
    | ⟨0, _⟩ => exact ((dat7 (V13 m ρ) c).arrAt_in 0 rfl _).trans (A_eq7 (V13 m ρ) c 0)
    | ⟨1, _⟩ => exact ((dat7 (V13 m ρ) c).arrAt_in 1 rfl _).trans (A_eq7 (V13 m ρ) c 1)
    | ⟨2, _⟩ => exact ((dat7 (V13 m ρ) c).arrAt_in 2 rfl _).trans (A_eq7 (V13 m ρ) c 2)
    | ⟨3, _⟩ => exact ((dat7 (V13 m ρ) c).arrAt_in 3 rfl _).trans (A_eq7 (V13 m ρ) c 3)
    | ⟨4, _⟩ => exact ((dat7 (V13 m ρ) c).arrAt_in 4 rfl _).trans (A_eq7 (V13 m ρ) c 4)
    | ⟨5, _⟩ => exact absurd rfl h
  · exact W14_of_ne m ρ c b fun w e => hb ⟨w, e⟩

/-- After the host stretch `hostOps8`. -/
abbrev W15 : Dev nD → Valuation τ sig (Elt F) := fun c => StableHlo.after hostOps8 (W14 m ρ c)
abbrev V15 : (c : Dev nD) → (b : Ref sig .tc) → Buf (Elt F) ((c : Thread nD τ).loc b) := fun c b => W15 m ρ c b
theorem W15_keep (c : Dev nD) (b : Ref sig .tc) (h : b ∉ hostOps8_W) : W15 m ρ c (Proc.devRef .tc b) = W14 m ρ c (Proc.devRef .tc b) :=
  StableHlo.after_of_writes_sub hostOps8 _ hostOps8_writes h

/-- At launch 8's exit: its windows' arrays at what the pipeline leaves (an input's as entered, the output's write-backs
    folded), every other buffer as entered. -/
def W16 (c : Dev nD) : Valuation τ sig (Elt F) :=
  Pipeline.withArrays spec8 c (W15 m ρ c) fun w => (dat8 (V15 m ρ) c).arrAt w cfg8.N
theorem W16_arr (c : Dev nD) (w : Fin cfg8.W) :
    W16 m ρ c (Proc.devRef .tc (Pipeline.arrRef spec8 w)) = (dat8 (V15 m ρ) c).arrAt w cfg8.N := by
  unfold W16; exact Pipeline.withArrays_arr spec8 launch8.win.arr_inj c _ _ w
theorem W16_of_ne (c : Dev nD) (b : Ref sig .tc) (hb : ∀ w, Pipeline.arrRef spec8 w ≠ b) :
    W16 m ρ c (Proc.devRef .tc b) = W15 m ρ c (Proc.devRef .tc b) := by
  unfold W16; exact Pipeline.withArrays_of_ne spec8 c _ _ b hb
abbrev V16 : (c : Dev nD) → (b : Ref sig .tc) → Buf (Elt F) ((c : Thread nD τ).loc b) := fun c b => W16 m ρ c b
theorem hF8 (c : Dev nD) (w : Fin cfg8.W) : (dat8 (V15 m ρ) c).arrAt w cfg8.N = V16 m ρ c (Pipeline.arrRef spec8 w) :=
  (W16_arr m ρ c w).symm
theorem hrest8 (c : Dev nD) : ∀ b, b ∉ Finset.univ.image (Pipeline.arrRef spec8) → V16 m ρ c b = V15 m ρ c b :=
  fun b hb => W16_of_ne m ρ c b fun w e => hb (Finset.mem_image.mpr ⟨w, Finset.mem_univ _, e⟩)
/-- Launch 8 changes no buffer but its output window's array: an input window's array is never written back. -/
theorem W16_keep (c : Dev nD) (b : Ref sig .tc) (h : b ≠ main_v119) : W16 m ρ c (Proc.devRef .tc b) = W15 m ρ c (Proc.devRef .tc b) := by
  by_cases hb : ∃ w, Pipeline.arrRef spec8 w = b
  · obtain ⟨w, rfl⟩ := hb
    rw [W16_arr]
    match w with
    | ⟨0, _⟩ => exact ((dat8 (V15 m ρ) c).arrAt_in 0 rfl _).trans (A_eq8 (V15 m ρ) c 0)
    | ⟨1, _⟩ => exact ((dat8 (V15 m ρ) c).arrAt_in 1 rfl _).trans (A_eq8 (V15 m ρ) c 1)
    | ⟨2, _⟩ => exact ((dat8 (V15 m ρ) c).arrAt_in 2 rfl _).trans (A_eq8 (V15 m ρ) c 2)
    | ⟨3, _⟩ => exact absurd rfl h
  · exact W16_of_ne m ρ c b fun w e => hb ⟨w, e⟩

/-- At launch 9's exit: its windows' arrays at what the pipeline leaves (an input's as entered, the output's write-backs
    folded), every other buffer as entered. -/
def W17 (c : Dev nD) : Valuation τ sig (Elt F) :=
  Pipeline.withArrays spec9 c (W16 m ρ c) fun w => (dat9 (V16 m ρ) c).arrAt w cfg9.N
theorem W17_arr (c : Dev nD) (w : Fin cfg9.W) :
    W17 m ρ c (Proc.devRef .tc (Pipeline.arrRef spec9 w)) = (dat9 (V16 m ρ) c).arrAt w cfg9.N := by
  unfold W17; exact Pipeline.withArrays_arr spec9 launch9.win.arr_inj c _ _ w
theorem W17_of_ne (c : Dev nD) (b : Ref sig .tc) (hb : ∀ w, Pipeline.arrRef spec9 w ≠ b) :
    W17 m ρ c (Proc.devRef .tc b) = W16 m ρ c (Proc.devRef .tc b) := by
  unfold W17; exact Pipeline.withArrays_of_ne spec9 c _ _ b hb
abbrev V17 : (c : Dev nD) → (b : Ref sig .tc) → Buf (Elt F) ((c : Thread nD τ).loc b) := fun c b => W17 m ρ c b
theorem hF9 (c : Dev nD) (w : Fin cfg9.W) : (dat9 (V16 m ρ) c).arrAt w cfg9.N = V17 m ρ c (Pipeline.arrRef spec9 w) :=
  (W17_arr m ρ c w).symm
theorem hrest9 (c : Dev nD) : ∀ b, b ∉ Finset.univ.image (Pipeline.arrRef spec9) → V17 m ρ c b = V16 m ρ c b :=
  fun b hb => W17_of_ne m ρ c b fun w e => hb (Finset.mem_image.mpr ⟨w, Finset.mem_univ _, e⟩)
/-- Launch 9 changes no buffer but its output window's array: an input window's array is never written back. -/
theorem W17_keep (c : Dev nD) (b : Ref sig .tc) (h : b ≠ main_v120) : W17 m ρ c (Proc.devRef .tc b) = W16 m ρ c (Proc.devRef .tc b) := by
  by_cases hb : ∃ w, Pipeline.arrRef spec9 w = b
  · obtain ⟨w, rfl⟩ := hb
    rw [W17_arr]
    match w with
    | ⟨0, _⟩ => exact ((dat9 (V16 m ρ) c).arrAt_in 0 rfl _).trans (A_eq9 (V16 m ρ) c 0)
    | ⟨1, _⟩ => exact ((dat9 (V16 m ρ) c).arrAt_in 1 rfl _).trans (A_eq9 (V16 m ρ) c 1)
    | ⟨2, _⟩ => exact absurd rfl h
  · exact W17_of_ne m ρ c b fun w e => hb ⟨w, e⟩

/-- After the host stretch `hostOps10`. -/
abbrev W18 : Dev nD → Valuation τ sig (Elt F) := fun c => StableHlo.after hostOps10 (W17 m ρ c)
abbrev V18 : (c : Dev nD) → (b : Ref sig .tc) → Buf (Elt F) ((c : Thread nD τ).loc b) := fun c b => W18 m ρ c b
theorem W18_keep (c : Dev nD) (b : Ref sig .tc) (h : b ∉ hostOps10_W) : W18 m ρ c (Proc.devRef .tc b) = W17 m ρ c (Proc.devRef .tc b) :=
  StableHlo.after_of_writes_sub hostOps10 _ hostOps10_writes h

/-- At launch 10's exit: its windows' arrays at what the pipeline leaves (an input's as entered, the output's write-backs
    folded), every other buffer as entered. -/
def W19 (c : Dev nD) : Valuation τ sig (Elt F) :=
  Pipeline.withArrays spec10 c (W18 m ρ c) fun w => (dat10 (V18 m ρ) c).arrAt w cfg10.N
theorem W19_arr (c : Dev nD) (w : Fin cfg10.W) :
    W19 m ρ c (Proc.devRef .tc (Pipeline.arrRef spec10 w)) = (dat10 (V18 m ρ) c).arrAt w cfg10.N := by
  unfold W19; exact Pipeline.withArrays_arr spec10 launch10.win.arr_inj c _ _ w
theorem W19_of_ne (c : Dev nD) (b : Ref sig .tc) (hb : ∀ w, Pipeline.arrRef spec10 w ≠ b) :
    W19 m ρ c (Proc.devRef .tc b) = W18 m ρ c (Proc.devRef .tc b) := by
  unfold W19; exact Pipeline.withArrays_of_ne spec10 c _ _ b hb
abbrev V19 : (c : Dev nD) → (b : Ref sig .tc) → Buf (Elt F) ((c : Thread nD τ).loc b) := fun c b => W19 m ρ c b
theorem hF10 (c : Dev nD) (w : Fin cfg10.W) : (dat10 (V18 m ρ) c).arrAt w cfg10.N = V19 m ρ c (Pipeline.arrRef spec10 w) :=
  (W19_arr m ρ c w).symm
theorem hrest10 (c : Dev nD) : ∀ b, b ∉ Finset.univ.image (Pipeline.arrRef spec10) → V19 m ρ c b = V18 m ρ c b :=
  fun b hb => W19_of_ne m ρ c b fun w e => hb (Finset.mem_image.mpr ⟨w, Finset.mem_univ _, e⟩)
/-- Launch 10 changes no buffer but its output window's array: an input window's array is never written back. -/
theorem W19_keep (c : Dev nD) (b : Ref sig .tc) (h : b ≠ main_v142) : W19 m ρ c (Proc.devRef .tc b) = W18 m ρ c (Proc.devRef .tc b) := by
  by_cases hb : ∃ w, Pipeline.arrRef spec10 w = b
  · obtain ⟨w, rfl⟩ := hb
    rw [W19_arr]
    match w with
    | ⟨0, _⟩ => exact ((dat10 (V18 m ρ) c).arrAt_in 0 rfl _).trans (A_eq10 (V18 m ρ) c 0)
    | ⟨1, _⟩ => exact ((dat10 (V18 m ρ) c).arrAt_in 1 rfl _).trans (A_eq10 (V18 m ρ) c 1)
    | ⟨2, _⟩ => exact ((dat10 (V18 m ρ) c).arrAt_in 2 rfl _).trans (A_eq10 (V18 m ρ) c 2)
    | ⟨3, _⟩ => exact ((dat10 (V18 m ρ) c).arrAt_in 3 rfl _).trans (A_eq10 (V18 m ρ) c 3)
    | ⟨4, _⟩ => exact ((dat10 (V18 m ρ) c).arrAt_in 4 rfl _).trans (A_eq10 (V18 m ρ) c 4)
    | ⟨5, _⟩ => exact absurd rfl h
  · exact W19_of_ne m ρ c b fun w e => hb ⟨w, e⟩

/-- After the host stretch `hostOps11`. -/
abbrev W20 : Dev nD → Valuation τ sig (Elt F) := fun c => StableHlo.after hostOps11 (W19 m ρ c)
abbrev V20 : (c : Dev nD) → (b : Ref sig .tc) → Buf (Elt F) ((c : Thread nD τ).loc b) := fun c b => W20 m ρ c b
theorem W20_keep (c : Dev nD) (b : Ref sig .tc) (h : b ∉ hostOps11_W) : W20 m ρ c (Proc.devRef .tc b) = W19 m ρ c (Proc.devRef .tc b) :=
  StableHlo.after_of_writes_sub hostOps11 _ hostOps11_writes h

/-- At launch 11's exit: its windows' arrays at what the pipeline leaves (an input's as entered, the output's write-backs
    folded), every other buffer as entered. -/
def W21 (c : Dev nD) : Valuation τ sig (Elt F) :=
  Pipeline.withArrays spec11 c (W20 m ρ c) fun w => (dat11 (V20 m ρ) c).arrAt w cfg11.N
theorem W21_arr (c : Dev nD) (w : Fin cfg11.W) :
    W21 m ρ c (Proc.devRef .tc (Pipeline.arrRef spec11 w)) = (dat11 (V20 m ρ) c).arrAt w cfg11.N := by
  unfold W21; exact Pipeline.withArrays_arr spec11 launch11.win.arr_inj c _ _ w
theorem W21_of_ne (c : Dev nD) (b : Ref sig .tc) (hb : ∀ w, Pipeline.arrRef spec11 w ≠ b) :
    W21 m ρ c (Proc.devRef .tc b) = W20 m ρ c (Proc.devRef .tc b) := by
  unfold W21; exact Pipeline.withArrays_of_ne spec11 c _ _ b hb
abbrev V21 : (c : Dev nD) → (b : Ref sig .tc) → Buf (Elt F) ((c : Thread nD τ).loc b) := fun c b => W21 m ρ c b
theorem hF11 (c : Dev nD) (w : Fin cfg11.W) : (dat11 (V20 m ρ) c).arrAt w cfg11.N = V21 m ρ c (Pipeline.arrRef spec11 w) :=
  (W21_arr m ρ c w).symm
theorem hrest11 (c : Dev nD) : ∀ b, b ∉ Finset.univ.image (Pipeline.arrRef spec11) → V21 m ρ c b = V20 m ρ c b :=
  fun b hb => W21_of_ne m ρ c b fun w e => hb (Finset.mem_image.mpr ⟨w, Finset.mem_univ _, e⟩)
/-- Launch 11 changes no buffer but its output window's array: an input window's array is never written back. -/
theorem W21_keep (c : Dev nD) (b : Ref sig .tc) (h : b ≠ main_v146) : W21 m ρ c (Proc.devRef .tc b) = W20 m ρ c (Proc.devRef .tc b) := by
  by_cases hb : ∃ w, Pipeline.arrRef spec11 w = b
  · obtain ⟨w, rfl⟩ := hb
    rw [W21_arr]
    match w with
    | ⟨0, _⟩ => exact ((dat11 (V20 m ρ) c).arrAt_in 0 rfl _).trans (A_eq11 (V20 m ρ) c 0)
    | ⟨1, _⟩ => exact ((dat11 (V20 m ρ) c).arrAt_in 1 rfl _).trans (A_eq11 (V20 m ρ) c 1)
    | ⟨2, _⟩ => exact ((dat11 (V20 m ρ) c).arrAt_in 2 rfl _).trans (A_eq11 (V20 m ρ) c 2)
    | ⟨3, _⟩ => exact absurd rfl h
  · exact W21_of_ne m ρ c b fun w e => hb ⟨w, e⟩

/-- After the host stretch `hostOps12`. -/
abbrev W22 : Dev nD → Valuation τ sig (Elt F) := fun c => StableHlo.after hostOps12 (W21 m ρ c)
abbrev V22 : (c : Dev nD) → (b : Ref sig .tc) → Buf (Elt F) ((c : Thread nD τ).loc b) := fun c b => W22 m ρ c b
theorem W22_keep (c : Dev nD) (b : Ref sig .tc) (h : b ∉ hostOps12_W) : W22 m ρ c (Proc.devRef .tc b) = W21 m ρ c (Proc.devRef .tc b) :=
  StableHlo.after_of_writes_sub hostOps12 _ hostOps12_writes h

/-- At launch 12's exit: its windows' arrays at what the pipeline leaves (an input's as entered, the output's write-backs
    folded), every other buffer as entered. -/
def W23 (c : Dev nD) : Valuation τ sig (Elt F) :=
  Pipeline.withArrays spec12 c (W22 m ρ c) fun w => (dat12 (V22 m ρ) c).arrAt w cfg12.N
theorem W23_arr (c : Dev nD) (w : Fin cfg12.W) :
    W23 m ρ c (Proc.devRef .tc (Pipeline.arrRef spec12 w)) = (dat12 (V22 m ρ) c).arrAt w cfg12.N := by
  unfold W23; exact Pipeline.withArrays_arr spec12 launch12.win.arr_inj c _ _ w
theorem W23_of_ne (c : Dev nD) (b : Ref sig .tc) (hb : ∀ w, Pipeline.arrRef spec12 w ≠ b) :
    W23 m ρ c (Proc.devRef .tc b) = W22 m ρ c (Proc.devRef .tc b) := by
  unfold W23; exact Pipeline.withArrays_of_ne spec12 c _ _ b hb
abbrev V23 : (c : Dev nD) → (b : Ref sig .tc) → Buf (Elt F) ((c : Thread nD τ).loc b) := fun c b => W23 m ρ c b
theorem hF12 (c : Dev nD) (w : Fin cfg12.W) : (dat12 (V22 m ρ) c).arrAt w cfg12.N = V23 m ρ c (Pipeline.arrRef spec12 w) :=
  (W23_arr m ρ c w).symm
theorem hrest12 (c : Dev nD) : ∀ b, b ∉ Finset.univ.image (Pipeline.arrRef spec12) → V23 m ρ c b = V22 m ρ c b :=
  fun b hb => W23_of_ne m ρ c b fun w e => hb (Finset.mem_image.mpr ⟨w, Finset.mem_univ _, e⟩)
/-- Launch 12 changes no buffer but its output window's array: an input window's array is never written back. -/
theorem W23_keep (c : Dev nD) (b : Ref sig .tc) (h : b ≠ main_v163) : W23 m ρ c (Proc.devRef .tc b) = W22 m ρ c (Proc.devRef .tc b) := by
  by_cases hb : ∃ w, Pipeline.arrRef spec12 w = b
  · obtain ⟨w, rfl⟩ := hb
    rw [W23_arr]
    match w with
    | ⟨0, _⟩ => exact ((dat12 (V22 m ρ) c).arrAt_in 0 rfl _).trans (A_eq12 (V22 m ρ) c 0)
    | ⟨1, _⟩ => exact ((dat12 (V22 m ρ) c).arrAt_in 1 rfl _).trans (A_eq12 (V22 m ρ) c 1)
    | ⟨2, _⟩ => exact absurd rfl h
  · exact W23_of_ne m ρ c b fun w e => hb ⟨w, e⟩

/-- After the host stretch `hostOps13`. -/
abbrev W24 : Dev nD → Valuation τ sig (Elt F) := fun c => StableHlo.after hostOps13 (W23 m ρ c)
abbrev V24 : (c : Dev nD) → (b : Ref sig .tc) → Buf (Elt F) ((c : Thread nD τ).loc b) := fun c b => W24 m ρ c b
theorem W24_keep (c : Dev nD) (b : Ref sig .tc) (h : b ∉ hostOps13_W) : W24 m ρ c (Proc.devRef .tc b) = W23 m ρ c (Proc.devRef .tc b) :=
  StableHlo.after_of_writes_sub hostOps13 _ hostOps13_writes h

/-- A buffer that no stretch writes and that is no launch's output array ends as launched. -/
theorem W24_as_launched (c : Dev nD) (b : Ref sig .tc)
    (h0 : b ∉ hostOps0_W)
    (h1 : b ≠ main_v39)
    (h2 : b ∉ hostOps1_W)
    (h3 : b ≠ main_v61)
    (h4 : b ∉ hostOps2_W)
    (h5 : b ≠ main_v65)
    (h6 : b ≠ main_v66)
    (h7 : b ∉ hostOps4_W)
    (h8 : b ≠ main_v88)
    (h9 : b ∉ hostOps5_W)
    (h10 : b ≠ main_v92)
    (h11 : b ≠ main_v93)
    (h12 : b ∉ hostOps7_W)
    (h13 : b ≠ main_v115)
    (h14 : b ∉ hostOps8_W)
    (h15 : b ≠ main_v119)
    (h16 : b ≠ main_v120)
    (h17 : b ∉ hostOps10_W)
    (h18 : b ≠ main_v142)
    (h19 : b ∉ hostOps11_W)
    (h20 : b ≠ main_v146)
    (h21 : b ∉ hostOps12_W)
    (h22 : b ≠ main_v163)
    (h23 : b ∉ hostOps13_W)
    : W24 m ρ c (Proc.devRef .tc b) = m ((c : Thread nD τ).loc b) :=
  (W24_keep m ρ c b h23).trans <|
  (W23_keep m ρ c b h22).trans <|
  (W22_keep m ρ c b h21).trans <|
  (W21_keep m ρ c b h20).trans <|
  (W20_keep m ρ c b h19).trans <|
  (W19_keep m ρ c b h18).trans <|
  (W18_keep m ρ c b h17).trans <|
  (W17_keep m ρ c b h16).trans <|
  (W16_keep m ρ c b h15).trans <|
  (W15_keep m ρ c b h14).trans <|
  (W14_keep m ρ c b h13).trans <|
  (W13_keep m ρ c b h12).trans <|
  (W12_keep m ρ c b h11).trans <|
  (W11_keep m ρ c b h10).trans <|
  (W10_keep m ρ c b h9).trans <|
  (W9_keep m ρ c b h8).trans <|
  (W8_keep m ρ c b h7).trans <|
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  (W1_keep m ρ c b h0).trans <|
  rfl

/-! ## The proof data family -/

abbrev adm : (p : Fin 13) → (pcfgs (F := F) p).Adm := fun p => (cfgs p).toPCfg_adm
/-- Every pipeline's proof data, each at its launch's entry contents. -/
def pdats : (p : Fin 13) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
  | ⟨5, _⟩ => fun c => dat5 (V10 m ρ) c
  | ⟨6, _⟩ => fun c => dat6 (V11 m ρ) c
  | ⟨7, _⟩ => fun c => dat7 (V13 m ρ) c
  | ⟨8, _⟩ => fun c => dat8 (V15 m ρ) c
  | ⟨9, _⟩ => fun c => dat9 (V16 m ρ) c
  | ⟨10, _⟩ => fun c => dat10 (V18 m ρ) c
  | ⟨11, _⟩ => fun c => dat11 (V20 m ρ) c
  | ⟨12, _⟩ => fun c => dat12 (V22 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Reg0.lean ====
/- Kernel launch 0 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import proofs.«126583_j73280732004963_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
/- Kernel launch 1 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import proofs.«126583_j73280732004963_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2.lean ====
/- Kernel launch 2 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import proofs.«126583_j73280732004963_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg3.lean ====
/- Kernel launch 3 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import proofs.«126583_j73280732004963_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg4.lean ====
/- Kernel launch 4 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import proofs.«126583_j73280732004963_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg5.lean ====
/- Kernel launch 5 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import proofs.«126583_j73280732004963_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg6.lean ====
/- Kernel launch 6 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import proofs.«126583_j73280732004963_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V11 m ρ) c).loose
  hwaits := Pipeline.hwaits_of_owed_zero _ _ _ _ L lv 6 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec6 c (V11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V11 m ρ c) (V12 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg7.lean ====
/- Kernel launch 7 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import proofs.«126583_j73280732004963_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V13 m ρ) c).loose
  hwaits := Pipeline.hwaits_of_owed_zero _ _ _ _ L lv 7 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec7 c (V13 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V13 m ρ c) (V14 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg8.lean ====
/- Kernel launch 8 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import proofs.«126583_j73280732004963_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V15 m ρ) c).loose
  hwaits := Pipeline.hwaits_of_owed_zero _ _ _ _ L lv 8 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec8 c (V15 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V15 m ρ c) (V16 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg9.lean ====
/- Kernel launch 9 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import proofs.«126583_j73280732004963_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V16 m ρ) c).loose
  hwaits := Pipeline.hwaits_of_owed_zero _ _ _ _ L lv 9 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec9 c (V16 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V16 m ρ c) (V17 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg10.lean ====
/- Kernel launch 10 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import proofs.«126583_j73280732004963_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V18 m ρ) c).loose
  hwaits := Pipeline.hwaits_of_owed_zero _ _ _ _ L lv 10 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec10 c (V18 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V18 m ρ c) (V19 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg11.lean ====
/- Kernel launch 11 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import proofs.«126583_j73280732004963_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V20 m ρ) c).loose
  hwaits := Pipeline.hwaits_of_owed_zero _ _ _ _ L lv 11 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec11 c (V20 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V20 m ρ c) (V21 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg12.lean ====
/- Kernel launch 12 as a segment of @main's run: entered with every unscoped buffer at the boundary's contents, its windows'
   arrays split out for the pipeline and put back at what the pipeline leaves; the generator register rides through the
   pipeline's invariant; nothing is owed; the kernel has no semaphore of its own. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import proofs.«126583_j73280732004963_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V22 m ρ) c).loose
  hwaits := Pipeline.hwaits_of_owed_zero _ _ _ _ L lv 12 fun _ _ => rfl
  pre c := iprop(StableHlo.held (c : Thread nD τ) (Pipeline.ucRefs τ sig) (W22 m ρ c) ∗ R c)
  post c := iprop(StableHlo.held (c : Thread nD τ) (Pipeline.ucRefs τ sig) (W23 m ρ c) ∗ R c)
  X c := iprop(∃ r, prngReg c r)
  Y c := iprop(∃ r, prngReg c r)
  Z c := Pipeline.unscopedRest (Ix := Unit) (Name := ℕ) (U := UR sig nD τ) (Lvl := ℕ) spec12 c (V22 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V22 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V22 m ρ c) (V23 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/- @main's run: its items — stretches of host operations and kernel launches, in order — as segments chained from the launch
   memory to the return; every weakly fair execution terminates, and at the end every unscoped buffer holds the last
   boundary's contents. Read off that: the argument arrays end as launched. -/
import proofs.«126583_j73280732004963_1_alg».proof.Proof.Gen.KernelIdeal.Launch
import proofs.«126583_j73280732004963_1_alg».proof.Proof.Gen.KernelIdeal.Skeleton
import proofs.«126583_j73280732004963_1_alg».proof.Proof.Gen.KernelIdeal.Points
import proofs.«126583_j73280732004963_1_alg».proof.Proof.KI.Reg0
import proofs.«126583_j73280732004963_1_alg».proof.Proof.KI.Reg1
import proofs.«126583_j73280732004963_1_alg».proof.Proof.KI.Reg2
import proofs.«126583_j73280732004963_1_alg».proof.Proof.KI.Reg3
import proofs.«126583_j73280732004963_1_alg».proof.Proof.KI.Reg4
import proofs.«126583_j73280732004963_1_alg».proof.Proof.KI.Reg5
import proofs.«126583_j73280732004963_1_alg».proof.Proof.KI.Reg6
import proofs.«126583_j73280732004963_1_alg».proof.Proof.KI.Reg7
import proofs.«126583_j73280732004963_1_alg».proof.Proof.KI.Reg8
import proofs.«126583_j73280732004963_1_alg».proof.Proof.KI.Reg9
import proofs.«126583_j73280732004963_1_alg».proof.Proof.KI.Reg10
import proofs.«126583_j73280732004963_1_alg».proof.Proof.KI.Reg11
import proofs.«126583_j73280732004963_1_alg».proof.Proof.KI.Reg12
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last thread state without the dues: every unscoped buffer at the last boundary's contents, the generator register at some state. -/
abbrev Tₙ (c : Dev nD) : sProp 𝕄 := iprop(StableHlo.held (c : Thread nD τ) (Pipeline.ucRefs τ sig) (W24 m ρ c) ∗ ∃ r, prngReg c r)

/-- @main's 24 items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .region (reg6 m ρ),
    .host (hseg hostOps7 hostOps7_sub hostOps7_fresh (W12 m ρ)),
    .region (reg7 m ρ),
    .host (hseg hostOps8 hostOps8_sub hostOps8_fresh (W14 m ρ)),
    .region (reg8 m ρ),
    .region (reg9 m ρ),
    .host (hseg hostOps10 hostOps10_sub hostOps10_fresh (W17 m ρ)),
    .region (reg10 m ρ),
    .host (hseg hostOps11 hostOps11_sub hostOps11_fresh (W19 m ρ)),
    .region (reg11 m ρ),
    .host (hseg hostOps12 hostOps12_sub hostOps12_fresh (W21 m ρ)),
    .region (reg12 m ρ),
    .host (hseg hostOps13 hostOps13_sub hostOps13_fresh (W23 m ρ)) ]

set_option backward.isDefEq.respectTransparency.types false in
/-- Every weakly fair execution of @main from memory `m` with zero counters terminates, nothing faulting, and every final memory
    holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W24 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          StableHlo.seq hostOps8,
          Prog.lift (.customCall (Pipeline.entry 8) ()),
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W24 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h => h)

/-- An argument array is written by no stretch and is no launch's output: it ends as launched. -/
theorem W24_main_arg0 (c : Dev nD) : W24 m ρ c (Proc.devRef .tc main_arg0) = m ((c : Thread nD τ).loc main_arg0) :=
  W24_as_launched m ρ c main_arg0 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg1 (c : Dev nD) : W24 m ρ c (Proc.devRef .tc main_arg1) = m ((c : Thread nD τ).loc main_arg1) :=
  W24_as_launched m ρ c main_arg1 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg2 (c : Dev nD) : W24 m ρ c (Proc.devRef .tc main_arg2) = m ((c : Thread nD τ).loc main_arg2) :=
  W24_as_launched m ρ c main_arg2 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg3 (c : Dev nD) : W24 m ρ c (Proc.devRef .tc main_arg3) = m ((c : Thread nD τ).loc main_arg3) :=
  W24_as_launched m ρ c main_arg3 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg4 (c : Dev nD) : W24 m ρ c (Proc.devRef .tc main_arg4) = m ((c : Thread nD τ).loc main_arg4) :=
  W24_as_launched m ρ c main_arg4 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg5 (c : Dev nD) : W24 m ρ c (Proc.devRef .tc main_arg5) = m ((c : Thread nD τ).loc main_arg5) :=
  W24_as_launched m ρ c main_arg5 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg6 (c : Dev nD) : W24 m ρ c (Proc.devRef .tc main_arg6) = m ((c : Thread nD τ).loc main_arg6) :=
  W24_as_launched m ρ c main_arg6 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg7 (c : Dev nD) : W24 m ρ c (Proc.devRef .tc main_arg7) = m ((c : Thread nD τ).loc main_arg7) :=
  W24_as_launched m ρ c main_arg7 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg8 (c : Dev nD) : W24 m ρ c (Proc.devRef .tc main_arg8) = m ((c : Thread nD τ).loc main_arg8) :=
  W24_as_launched m ρ c main_arg8 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg9 (c : Dev nD) : W24 m ρ c (Proc.devRef .tc main_arg9) = m ((c : Thread nD τ).loc main_arg9) :=
  W24_as_launched m ρ c main_arg9 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg10 (c : Dev nD) : W24 m ρ c (Proc.devRef .tc main_arg10) = m ((c : Thread nD τ).loc main_arg10) :=
  W24_as_launched m ρ c main_arg10 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg11 (c : Dev nD) : W24 m ρ c (Proc.devRef .tc main_arg11) = m ((c : Thread nD τ).loc main_arg11) :=
  W24_as_launched m ρ c main_arg11 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg12 (c : Dev nD) : W24 m ρ c (Proc.devRef .tc main_arg12) = m ((c : Thread nD τ).loc main_arg12) :=
  W24_as_launched m ρ c main_arg12 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg13 (c : Dev nD) : W24 m ρ c (Proc.devRef .tc main_arg13) = m ((c : Thread nD τ).loc main_arg13) :=
  W24_as_launched m ρ c main_arg13 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg14 (c : Dev nD) : W24 m ρ c (Proc.devRef .tc main_arg14) = m ((c : Thread nD τ).loc main_arg14) :=
  W24_as_launched m ρ c main_arg14 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg15 (c : Dev nD) : W24 m ρ c (Proc.devRef .tc main_arg15) = m ((c : Thread nD τ).loc main_arg15) :=
  W24_as_launched m ρ c main_arg15 (by decide) (by decide) (by decide) (by decide) (by decide) (by decide) (by decide) (by decide) (by decide) (by decide) (by decide) (by decide) (by decide) (by decide) (by decide) (by decide) (by decide) (by decide) (by decide) (by decide) (by decide) (by decide) (by decide) (by decide)

/-- The frame: every weakly fair execution of @main terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)) :=
  (θ_run defs _ _).mono (fun r h c => ⟨(h c _ (mem_uc main_arg0 (by decide))).trans (W24_main_arg0 m ρ c),
    (h c _ (mem_uc main_arg1 (by decide))).trans (W24_main_arg1 m ρ c),
    (h c _ (mem_uc main_arg2 (by decide))).trans (W24_main_arg2 m ρ c),
    (h c _ (mem_uc main_arg3 (by decide))).trans (W24_main_arg3 m ρ c),
    (h c _ (mem_uc main_arg4 (by decide))).trans (W24_main_arg4 m ρ c),
    (h c _ (mem_uc main_arg5 (by decide))).trans (W24_main_arg5 m ρ c),
    (h c _ (mem_uc main_arg6 (by decide))).trans (W24_main_arg6 m ρ c),
    (h c _ (mem_uc main_arg7 (by decide))).trans (W24_main_arg7 m ρ c),
    (h c _ (mem_uc main_arg8 (by decide))).trans (W24_main_arg8 m ρ c),
    (h c _ (mem_uc main_arg9 (by decide))).trans (W24_main_arg9 m ρ c),
    (h c _ (mem_uc main_arg10 (by decide))).trans (W24_main_arg10 m ρ c),
    (h c _ (mem_uc main_arg11 (by decide))).trans (W24_main_arg11 m ρ c),
    (h c _ (mem_uc main_arg12 (by decide))).trans (W24_main_arg12 m ρ c),
    (h c _ (mem_uc main_arg13 (by decide))).trans (W24_main_arg13 m ρ c),
    (h c _ (mem_uc main_arg14 (by decide))).trans (W24_main_arg14 m ρ c),
    (h c _ (mem_uc main_arg15 (by decide))).trans (W24_main_arg15 m ρ c)⟩) (run_all m ρ)

end Cert.KernelIdeal.Hand

end
-- ==== Proof.Ref.Ops0.lean ====
/- The reference program's host operations 1 … 60 of 261, as a list: the window `main_part0` of @main with each call of an outlined function replaced by the callee's operations over that call's buffers. The window is the straight line of that list; every operation touches TensorCore references only, determines its result, and writes one listed buffer. -/
import proofs.«126583_j73280732004963_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part0`, in order. -/
abbrev ops0 : List (HloOp τ sig (Elt F)) :=
  [ StableHlo.nullary main_c (constantI S_ 32 0#32),
    StableHlo.unary main_c main_v0 (broadcastInDim S100000 ![] bcast_S_S100000 : (⟨S_, .i32⟩ : BufTy).Contents (Elt F) → (⟨S100000, .i32⟩ : BufTy).Contents (Elt F)),
    StableHlo.binary main_arg10 main_v0 main_v1 (cmpi .slt : (⟨S100000, .i32⟩ : BufTy).Contents (Elt F) → (⟨S100000, .i32⟩ : BufTy).Contents (Elt F) → (⟨S100000, .i1⟩ : BufTy).Contents (Elt F)),
    StableHlo.nullary main_c_0 (constantI S_ 32 100000#32),
    StableHlo.unary main_c_0 main_v2 (broadcastInDim S100000 ![] bcast_S_S100000 : (⟨S_, .i32⟩ : BufTy).Contents (Elt F) → (⟨S100000, .i32⟩ : BufTy).Contents (Elt F)),
    StableHlo.binary main_arg10 main_v2 main_v3 (addi : (⟨S100000, .i32⟩ : BufTy).Contents (Elt F) → (⟨S100000, .i32⟩ : BufTy).Contents (Elt F) → (⟨S100000, .i32⟩ : BufTy).Contents (Elt F)),
    StableHlo.ternary main_v1 main_v3 main_arg10 main_v4 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v4 main_v5 (broadcastInDim S100000x1 ![0] bcast_S100000_S100000x1_0 : (⟨S100000, .i32⟩ : BufTy).Contents (Elt F) → (⟨S100000x1, .i32⟩ : BufTy).Contents (Elt F)),
    StableHlo.binary main_arg0 main_v5 main_v6 ((fun x i => Host.gather gather_S100000x64_S100000x1_S100000x64_1_0_n_n_0_1_164 x i) : (⟨S100000x64, .f32⟩ : BufTy).Contents (Elt F) → (⟨S100000x1, .i32⟩ : BufTy).Contents (Elt F) → (⟨S100000x64, .f32⟩ : BufTy).Contents (Elt F)),
    StableHlo.nullary main_c_1 (constantI S_ 32 0#32),
    StableHlo.unary main_c_1 main_v7 (broadcastInDim S50000 ![] bcast_S_S50000 : (⟨S_, .i32⟩ : BufTy).Contents (Elt F) → (⟨S50000, .i32⟩ : BufTy).Contents (Elt F)),
    StableHlo.binary main_arg11 main_v7 main_v8 (cmpi .slt : (⟨S50000, .i32⟩ : BufTy).Contents (Elt F) → (⟨S50000, .i32⟩ : BufTy).Contents (Elt F) → (⟨S50000, .i1⟩ : BufTy).Contents (Elt F)),
    StableHlo.nullary main_c_2 (constantI S_ 32 50000#32),
    StableHlo.unary main_c_2 main_v9 (broadcastInDim S50000 ![] bcast_S_S50000 : (⟨S_, .i32⟩ : BufTy).Contents (Elt F) → (⟨S50000, .i32⟩ : BufTy).Contents (Elt F)),
    StableHlo.binary main_arg11 main_v9 main_v10 (addi : (⟨S50000, .i32⟩ : BufTy).Contents (Elt F) → (⟨S50000, .i32⟩ : BufTy).Contents (Elt F) → (⟨S50000, .i32⟩ : BufTy).Contents (Elt F)),
    StableHlo.ternary main_v8 main_v10 main_arg11 main_v11 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v11 main_v12 (broadcastInDim S50000x1 ![0] bcast_S50000_S50000x1_0 : (⟨S50000, .i32⟩ : BufTy).Contents (Elt F) → (⟨S50000x1, .i32⟩ : BufTy).Contents (Elt F)),
    StableHlo.binary main_arg1 main_v12 main_v13 ((fun x i => Host.gather gather_S50000x64_S50000x1_S50000x64_1_0_n_n_0_1_164 x i) : (⟨S50000x64, .f32⟩ : BufTy).Contents (Elt F) → (⟨S50000x1, .i32⟩ : BufTy).Contents (Elt F) → (⟨S50000x64, .f32⟩ : BufTy).Contents (Elt F)),
    StableHlo.nullary main_cst (constant S_ .f32 0x3F800000#32),
    StableHlo.unary main_cst main_v14 (broadcastInDim S1000000 ![] bcast_S_S1000000 : (⟨S_, .f32⟩ : BufTy).Contents (Elt F) → (⟨S1000000, .f32⟩ : BufTy).Contents (Elt F)),
    StableHlo.nullary main_cst_3 (constant S_ .f32 0x00000000#32),
    StableHlo.unary main_cst_3 main_v15 (broadcastInDim S100000 ![] bcast_S_S100000 : (⟨S_, .f32⟩ : BufTy).Contents (Elt F) → (⟨S100000, .f32⟩ : BufTy).Contents (Elt F)),
    StableHlo.unary main_arg12 main_v16 (broadcastInDim S1000000x1 ![0] bcast_S1000000_S1000000x1_0 : (⟨S1000000, .i32⟩ : BufTy).Contents (Elt F) → (⟨S1000000x1, .i32⟩ : BufTy).Contents (Elt F)),
    StableHlo.ternary main_v15 main_v16 main_v14 main_v17 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_4 (constant S_ .f32 0x3F800000#32),
    StableHlo.unary main_cst_4 main_v18 (broadcastInDim S1000000 ![] bcast_S_S1000000 : (⟨S_, .f32⟩ : BufTy).Contents (Elt F) → (⟨S1000000, .f32⟩ : BufTy).Contents (Elt F)),
    StableHlo.nullary main_cst_5 (constant S_ .f32 0x00000000#32),
    StableHlo.unary main_cst_5 main_v19 (broadcastInDim S50000 ![] bcast_S_S50000 : (⟨S_, .f32⟩ : BufTy).Contents (Elt F) → (⟨S50000, .f32⟩ : BufTy).Contents (Elt F)),
    StableHlo.unary main_arg13 main_v20 (broadcastInDim S1000000x1 ![0] bcast_S1000000_S1000000x1_0 : (⟨S1000000, .i32⟩ : BufTy).Contents (Elt F) → (⟨S1000000x1, .i32⟩ : BufTy).Contents (Elt F)),
    StableHlo.ternary main_v19 main_v20 main_v18 main_v21 ((fun x i u => Host.scatterAdd scatter_S50000_S1000000x1_S1000000_n_0_0_1 x i u) : (⟨S50000, .f32⟩ : BufTy).Contents (Elt F) → (⟨S1000000x1, .i32⟩ : BufTy).Contents (Elt F) → (⟨S1000000, .f32⟩ : BufTy).Contents (Elt F) → (⟨S50000, .f32⟩ : BufTy).Contents (Elt F)),
    StableHlo.nullary main_c_6 (constantI S_ 32 0#32),
    StableHlo.unary main_c_6 main_v22 (broadcastInDim S1000000 ![] bcast_S_S1000000 : (⟨S_, .i32⟩ : BufTy).Contents (Elt F) → (⟨S1000000, .i32⟩ : BufTy).Contents (Elt F)),
    StableHlo.binary main_arg12 main_v22 main_v23 (cmpi .slt : (⟨S1000000, .i32⟩ : BufTy).Contents (Elt F) → (⟨S1000000, .i32⟩ : BufTy).Contents (Elt F) → (⟨S1000000, .i1⟩ : BufTy).Contents (Elt F)),
    StableHlo.nullary main_c_7 (constantI S_ 32 100000#32),
    StableHlo.unary main_c_7 main_v24 (broadcastInDim S1000000 ![] bcast_S_S1000000 : (⟨S_, .i32⟩ : BufTy).Contents (Elt F) → (⟨S1000000, .i32⟩ : BufTy).Contents (Elt F)),
    StableHlo.binary main_arg12 main_v24 main_v25 (addi : (⟨S1000000, .i32⟩ : BufTy).Contents (Elt F) → (⟨S1000000, .i32⟩ : BufTy).Contents (Elt F) → (⟨S1000000, .i32⟩ : BufTy).Contents (Elt F)),
    StableHlo.ternary main_v23 main_v25 main_arg12 main_v26 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v26 main_v27 (broadcastInDim S1000000x1 ![0] bcast_S1000000_S1000000x1_0 : (⟨S1000000, .i32⟩ : BufTy).Contents (Elt F) → (⟨S1000000x1, .i32⟩ : BufTy).Contents (Elt F)),
    StableHlo.binary main_v17 main_v27 main_v28 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    StableHlo.nullary main_c_8 (constantI S_ 32 0#32),
    StableHlo.unary main_c_8 main_v29 (broadcastInDim S1000000 ![] bcast_S_S1000000 : (⟨S_, .i32⟩ : BufTy).Contents (Elt F) → (⟨S1000000, .i32⟩ : BufTy).Contents (Elt F)),
    StableHlo.binary main_arg13 main_v29 main_v30 (cmpi .slt : (⟨S1000000, .i32⟩ : BufTy).Contents (Elt F) → (⟨S1000000, .i32⟩ : BufTy).Contents (Elt F) → (⟨S1000000, .i1⟩ : BufTy).Contents (Elt F)),
    StableHlo.nullary main_c_9 (constantI S_ 32 50000#32),
    StableHlo.unary main_c_9 main_v31 (broadcastInDim S1000000 ![] bcast_S_S1000000 : (⟨S_, .i32⟩ : BufTy).Contents (Elt F) → (⟨S1000000, .i32⟩ : BufTy).Contents (Elt F)),
    StableHlo.binary main_arg13 main_v31 main_v32 (addi : (⟨S1000000, .i32⟩ : BufTy).Contents (Elt F) → (⟨S1000000, .i32⟩ : BufTy).Contents (Elt F) → (⟨S1000000, .i32⟩ : BufTy).Contents (Elt F)),
    StableHlo.ternary main_v30 main_v32 main_arg13 main_v33 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v33 main_v34 (broadcastInDim S1000000x1 ![0] bcast_S1000000_S1000000x1_0 : (⟨S1000000, .i32⟩ : BufTy).Contents (Elt F) → (⟨S1000000x1, .i32⟩ : BufTy).Contents (Elt F)),
    StableHlo.binary main_v21 main_v34 main_v35 ((fun x i => Host.gather gather_S50000_S1000000x1_S1000000_n_0_n_n_0_1_1 x i) : (⟨S50000, .f32⟩ : BufTy).Contents (Elt F) → (⟨S1000000x1, .i32⟩ : BufTy).Contents (Elt F) → (⟨S1000000, .f32⟩ : BufTy).Contents (Elt F)),
    StableHlo.binary main_v28 main_v35 main_v36 (mulf : (⟨S1000000, .f32⟩ : BufTy).Contents (Elt F) → (⟨S1000000, .f32⟩ : BufTy).Contents (Elt F) → (⟨S1000000, .f32⟩ : BufTy).Contents (Elt F)),
    StableHlo.unary main_v36 main_v37 (Host.rsqrt : (⟨S1000000, .f32⟩ : BufTy).Contents (Elt F) → (⟨S1000000, .f32⟩ : BufTy).Contents (Elt F)),
    StableHlo.binary main_v6 main_arg2 main_v38 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_10 (constantI S_ 32 0#32),
    StableHlo.unary main_c_10 main_v39 (broadcastInDim S1000000 ![] bcast_S_S1000000 : (⟨S_, .i32⟩ : BufTy).Contents (Elt F) → (⟨S1000000, .i32⟩ : BufTy).Contents (Elt F)),
    StableHlo.binary main_arg12 main_v39 main_v40 (cmpi .slt : (⟨S1000000, .i32⟩ : BufTy).Contents (Elt F) → (⟨S1000000, .i32⟩ : BufTy).Contents (Elt F) → (⟨S1000000, .i1⟩ : BufTy).Contents (Elt F)),
    StableHlo.nullary main_c_11 (constantI S_ 32 100000#32),
    StableHlo.unary main_c_11 main_v41 (broadcastInDim S1000000 ![] bcast_S_S1000000 : (⟨S_, .i32⟩ : BufTy).Contents (Elt F) → (⟨S1000000, .i32⟩ : BufTy).Contents (Elt F)),
    StableHlo.binary main_arg12 main_v41 main_v42 (addi : (⟨S1000000, .i32⟩ : BufTy).Contents (Elt F) → (⟨S1000000, .i32⟩ : BufTy).Contents (Elt F) → (⟨S1000000, .i32⟩ : BufTy).Contents (Elt F)),
    StableHlo.ternary main_v40 main_v42 main_arg12 main_v43 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v43 main_v44 (broadcastInDim S1000000x1 ![0] bcast_S1000000_S1000000x1_0 : (⟨S1000000, .i32⟩ : BufTy).Contents (Elt F) → (⟨S1000000x1, .i32⟩ : BufTy).Contents (Elt F)),
    StableHlo.binary main_v38 main_v44 main_v45 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) ]

set_option maxRecDepth 8192 in
/-- The window is that straight line. -/
theorem main_part0_eq (c : Dev nD) : main_part0 (F := F) c = seq ops0 := rfl

set_option maxRecDepth 8192 in
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

set_option maxRecDepth 8192 in
theorem ops0_fresh : (ops0 : List (HloOp τ sig (Elt F))).Forall fun op => op.fresh = ∅ := by
  simp only [List.Forall]; repeat' constructor

/-- The buffers the window's operations write. -/
abbrev ops0_W : List (Ref sig .tc) := [main_c, main_v0, main_v1, main_c_0, main_v2, main_v3, main_v4, main_v5, main_v6, main_c_1, main_v7, main_v8, main_c_2, main_v9, main_v10, main_v11, main_v12, main_v13, main_cst, main_v14, main_cst_3, main_v15, main_v16, main_v17, main_cst_4, main_v18, main_cst_5, main_v19, main_v20, main_v21, main_c_6, main_v22, main_v23, main_c_7, main_v24, main_v25, main_v26, main_v27, main_v28, main_c_8, main_v29, main_v30, main_c_9, main_v31, main_v32, main_v33, main_v34, main_v35, main_v36, main_v37, main_v38, main_c_10, main_v39, main_v40, main_c_11, main_v41, main_v42, main_v43, main_v44, main_v45]

set_option maxRecDepth 8192 in
theorem ops0_writes : (ops0 : List (HloOp τ sig (Elt F))).Forall fun op => op.writes ⊆ (ops0_W.map (Proc.devRef (τ := τ) .tc)).toFinset := by
  simp only [List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩

/-- A buffer the window does not write keeps its contents through it. -/
theorem ops0_keep (V : Valuation τ sig (Elt F)) (r : Ref sig .tc) (h : r ∉ ops0_W) :
    after ops0 V (Proc.devRef .tc r) = V (Proc.devRef .tc r) :=
  after_of_writes_sub ops0 V ops0_writes h

end Cert.ReferenceIdeal.RefRun

end
-- ==== Proof.Ref.Ops1.lean ====
/- The reference program's host operations 61 … 126 of 261, as a list: the window `main_part1` of @main with each call of an outlined function replaced by the callee's operations over that call's buffers. The window is the straight line of that list; every operation touches TensorCore references only, determines its result, and writes one listed buffer. -/
import proofs.«126583_j73280732004963_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part1`, in order, the outlined functions' operations listed at their call sites. -/
abbrev ops1 : List (HloOp τ sig (Elt F)) :=
  [ StableHlo.nullary main_c_12 (constantI S_ 32 0#32),
    StableHlo.unary main_c_12 main_v46 (broadcastInDim S1000000 ![] bcast_S_S1000000 : (⟨S_, .i32⟩ : BufTy).Contents (Elt F) → (⟨S1000000, .i32⟩ : BufTy).Contents (Elt F)),
    StableHlo.binary main_arg12 main_v46 main_v47 (cmpi .slt : (⟨S1000000, .i32⟩ : BufTy).Contents (Elt F) → (⟨S1000000, .i32⟩ : BufTy).Contents (Elt F) → (⟨S1000000, .i1⟩ : BufTy).Contents (Elt F)),
    StableHlo.nullary main_c_13 (constantI S_ 32 100000#32),
    StableHlo.unary main_c_13 main_v48 (broadcastInDim S1000000 ![] bcast_S_S1000000 : (⟨S_, .i32⟩ : BufTy).Contents (Elt F) → (⟨S1000000, .i32⟩ : BufTy).Contents (Elt F)),
    StableHlo.binary main_arg12 main_v48 main_v49 (addi : (⟨S1000000, .i32⟩ : BufTy).Contents (Elt F) → (⟨S1000000, .i32⟩ : BufTy).Contents (Elt F) → (⟨S1000000, .i32⟩ : BufTy).Contents (Elt F)),
    StableHlo.ternary main_v47 main_v49 main_arg12 main_v50 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v50 main_v51 (broadcastInDim S1000000x1 ![0] bcast_S1000000_S1000000x1_0 : (⟨S1000000, .i32⟩ : BufTy).Contents (Elt F) → (⟨S1000000x1, .i32⟩ : BufTy).Contents (Elt F)),
    StableHlo.binary main_v6 main_v51 main_v52 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.nullary main_c_14 (constantI S_ 32 0#32),
    StableHlo.unary main_c_14 main_v53 (broadcastInDim S1000000 ![] bcast_S_S1000000 : (⟨S_, .i32⟩ : BufTy).Contents (Elt F) → (⟨S1000000, .i32⟩ : BufTy).Contents (Elt F)),
    StableHlo.binary main_arg13 main_v53 main_v54 (cmpi .slt : (⟨S1000000, .i32⟩ : BufTy).Contents (Elt F) → (⟨S1000000, .i32⟩ : BufTy).Contents (Elt F) → (⟨S1000000, .i1⟩ : BufTy).Contents (Elt F)),
    StableHlo.nullary main_c_15 (constantI S_ 32 50000#32),
    StableHlo.unary main_c_15 main_v55 (broadcastInDim S1000000 ![] bcast_S_S1000000 : (⟨S_, .i32⟩ : BufTy).Contents (Elt F) → (⟨S1000000, .i32⟩ : BufTy).Contents (Elt F)),
    StableHlo.binary main_arg13 main_v55 main_v56 (addi : (⟨S1000000, .i32⟩ : BufTy).Contents (Elt F) → (⟨S1000000, .i32⟩ : BufTy).Contents (Elt F) → (⟨S1000000, .i32⟩ : BufTy).Contents (Elt F)),
    StableHlo.ternary main_v54 main_v56 main_arg13 main_v57 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v57 main_v58 (broadcastInDim S1000000x1 ![0] bcast_S1000000_S1000000x1_0 : (⟨S1000000, .i32⟩ : BufTy).Contents (Elt F) → (⟨S1000000x1, .i32⟩ : BufTy).Contents (Elt F)),
    StableHlo.binary main_v13 main_v58 main_v59 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    StableHlo.binary main_v52 main_v59 main_v60 (mulf : (⟨S1000000x64, .f32⟩ : BufTy).Contents (Elt F) → (⟨S1000000x64, .f32⟩ : BufTy).Contents (Elt F) → (⟨S1000000x64, .f32⟩ : BufTy).Contents (Elt F)),
    StableHlo.binary main_v60 main_arg3 main_v61 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_v37 main_v62 (broadcastInDim S1000000x1 ![0] bcast_S1000000_S1000000x1_0 : (⟨S1000000, .f32⟩ : BufTy).Contents (Elt F) → (⟨S1000000x1, .f32⟩ : BufTy).Contents (Elt F)),
    StableHlo.binary main_v45 main_v61 main_v63 (addf : (⟨S1000000x64, .f32⟩ : BufTy).Contents (Elt F) → (⟨S1000000x64, .f32⟩ : BufTy).Contents (Elt F) → (⟨S1000000x64, .f32⟩ : BufTy).Contents (Elt F)),
    StableHlo.unary main_v62 main_v64 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v64 main_v63 main_v65 (mulf : (⟨S1000000x64, .f32⟩ : BufTy).Contents (Elt F) → (⟨S1000000x64, .f32⟩ : BufTy).Contents (Elt F) → (⟨S1000000x64, .f32⟩ : BufTy).Contents (Elt F)),
    StableHlo.nullary main_cst_16 (constant S_ .f32 0x00000000#32),
    StableHlo.unary main_cst_16 main_v66 (broadcastInDim S50000x64 ![] bcast_S_S50000x64 : (⟨S_, .f32⟩ : BufTy).Contents (Elt F) → (⟨S50000x64, .f32⟩ : BufTy).Contents (Elt F)),
    StableHlo.unary main_arg13 main_v67 (broadcastInDim S1000000x1 ![0] bcast_S1000000_S1000000x1_0 : (⟨S1000000, .i32⟩ : BufTy).Contents (Elt F) → (⟨S1000000x1, .i32⟩ : BufTy).Contents (Elt F)),
    StableHlo.ternary main_v66 main_v67 main_v65 main_v68 ((fun x i u => Host.scatterAdd scatter_S50000x64_S1000000x1_S1000000x64_1_0_0_1 x i u) : (⟨S50000x64, .f32⟩ : BufTy).Contents (Elt F) → (⟨S1000000x1, .i32⟩ : BufTy).Contents (Elt F) → (⟨S1000000x64, .f32⟩ : BufTy).Contents (Elt F) → (⟨S50000x64, .f32⟩ : BufTy).Contents (Elt F)),
    StableHlo.binary main_v13 main_arg2 main_v69 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.binary main_v69 main_v68 main_v70 (addf : (⟨S50000x64, .f32⟩ : BufTy).Contents (Elt F) → (⟨S50000x64, .f32⟩ : BufTy).Contents (Elt F) → (⟨S50000x64, .f32⟩ : BufTy).Contents (Elt F)),
    StableHlo.TRef.nullary main_call0.cst (constant S_ .f32 0x00000000#32),
    StableHlo.TRef.unary main_call0.cst main_call0.v0 (broadcastInDim S50000x64 ![] bcast_S_S50000x64),
    StableHlo.TRef.binary (.of main_v70) main_call0.v0 main_call0.v1 (cmpf .oge),
    StableHlo.TRef.nullary main_call0.cst_0 (constant S_ .f32 0x3C23D70A#32),
    StableHlo.TRef.unary main_call0.cst_0 main_call0.v2 (broadcastInDim S50000x64 ![] bcast_S_S50000x64),
    StableHlo.TRef.binary main_call0.v2 (.of main_v70) main_call0.v3 mulf,
    StableHlo.TRef.ternary main_call0.v1 (.of main_v70) main_call0.v3 main_call0.call0.v0 select,
    StableHlo.binary main_v13 main_arg4 main_v72 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_c_17 (constantI S_ 32 0#32),
    StableHlo.unary main_c_17 main_v73 (broadcastInDim S1000000 ![] bcast_S_S1000000 : (⟨S_, .i32⟩ : BufTy).Contents (Elt F) → (⟨S1000000, .i32⟩ : BufTy).Contents (Elt F)),
    StableHlo.binary main_arg13 main_v73 main_v74 (cmpi .slt : (⟨S1000000, .i32⟩ : BufTy).Contents (Elt F) → (⟨S1000000, .i32⟩ : BufTy).Contents (Elt F) → (⟨S1000000, .i1⟩ : BufTy).Contents (Elt F)),
    StableHlo.nullary main_c_18 (constantI S_ 32 50000#32),
    StableHlo.unary main_c_18 main_v75 (broadcastInDim S1000000 ![] bcast_S_S1000000 : (⟨S_, .i32⟩ : BufTy).Contents (Elt F) → (⟨S1000000, .i32⟩ : BufTy).Contents (Elt F)),
    StableHlo.binary main_arg13 main_v75 main_v76 (addi : (⟨S1000000, .i32⟩ : BufTy).Contents (Elt F) → (⟨S1000000, .i32⟩ : BufTy).Contents (Elt F) → (⟨S1000000, .i32⟩ : BufTy).Contents (Elt F)),
    StableHlo.ternary main_v74 main_v76 main_arg13 main_v77 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v77 main_v78 (broadcastInDim S1000000x1 ![0] bcast_S1000000_S1000000x1_0 : (⟨S1000000, .i32⟩ : BufTy).Contents (Elt F) → (⟨S1000000x1, .i32⟩ : BufTy).Contents (Elt F)),
    StableHlo.binary main_v72 main_v78 main_v79 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    StableHlo.nullary main_c_19 (constantI S_ 32 0#32),
    StableHlo.unary main_c_19 main_v80 (broadcastInDim S1000000 ![] bcast_S_S1000000 : (⟨S_, .i32⟩ : BufTy).Contents (Elt F) → (⟨S1000000, .i32⟩ : BufTy).Contents (Elt F)),
    StableHlo.binary main_arg13 main_v80 main_v81 (cmpi .slt : (⟨S1000000, .i32⟩ : BufTy).Contents (Elt F) → (⟨S1000000, .i32⟩ : BufTy).Contents (Elt F) → (⟨S1000000, .i1⟩ : BufTy).Contents (Elt F)),
    StableHlo.nullary main_c_20 (constantI S_ 32 50000#32),
    StableHlo.unary main_c_20 main_v82 (broadcastInDim S1000000 ![] bcast_S_S1000000 : (⟨S_, .i32⟩ : BufTy).Contents (Elt F) → (⟨S1000000, .i32⟩ : BufTy).Contents (Elt F)),
    StableHlo.binary main_arg13 main_v82 main_v83 (addi : (⟨S1000000, .i32⟩ : BufTy).Contents (Elt F) → (⟨S1000000, .i32⟩ : BufTy).Contents (Elt F) → (⟨S1000000, .i32⟩ : BufTy).Contents (Elt F)),
    StableHlo.ternary main_v81 main_v83 main_arg13 main_v84 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v84 main_v85 (broadcastInDim S1000000x1 ![0] bcast_S1000000_S1000000x1_0 : (⟨S1000000, .i32⟩ : BufTy).Contents (Elt F) → (⟨S1000000x1, .i32⟩ : BufTy).Contents (Elt F)),
    StableHlo.binary main_v13 main_v85 main_v86 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    StableHlo.nullary main_c_21 (constantI S_ 32 0#32),
    StableHlo.unary main_c_21 main_v87 (broadcastInDim S1000000 ![] bcast_S_S1000000 : (⟨S_, .i32⟩ : BufTy).Contents (Elt F) → (⟨S1000000, .i32⟩ : BufTy).Contents (Elt F)),
    StableHlo.binary main_arg12 main_v87 main_v88 (cmpi .slt : (⟨S1000000, .i32⟩ : BufTy).Contents (Elt F) → (⟨S1000000, .i32⟩ : BufTy).Contents (Elt F) → (⟨S1000000, .i1⟩ : BufTy).Contents (Elt F)),
    StableHlo.nullary main_c_22 (constantI S_ 32 100000#32),
    StableHlo.unary main_c_22 main_v89 (broadcastInDim S1000000 ![] bcast_S_S1000000 : (⟨S_, .i32⟩ : BufTy).Contents (Elt F) → (⟨S1000000, .i32⟩ : BufTy).Contents (Elt F)),
    StableHlo.binary main_arg12 main_v89 main_v90 (addi : (⟨S1000000, .i32⟩ : BufTy).Contents (Elt F) → (⟨S1000000, .i32⟩ : BufTy).Contents (Elt F) → (⟨S1000000, .i32⟩ : BufTy).Contents (Elt F)),
    StableHlo.ternary main_v88 main_v90 main_arg12 main_v91 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v91 main_v92 (broadcastInDim S1000000x1 ![0] bcast_S1000000_S1000000x1_0 : (⟨S1000000, .i32⟩ : BufTy).Contents (Elt F) → (⟨S1000000x1, .i32⟩ : BufTy).Contents (Elt F)),
    StableHlo.binary main_v6 main_v92 main_v93 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.binary main_v86 main_v93 main_v94 (mulf : (⟨S1000000x64, .f32⟩ : BufTy).Contents (Elt F) → (⟨S1000000x64, .f32⟩ : BufTy).Contents (Elt F) → (⟨S1000000x64, .f32⟩ : BufTy).Contents (Elt F)) ]

set_option maxRecDepth 8192 in
/-- The window is that straight line: the callees' definitions unfolded at the calls, sequencing reassociated. -/
theorem main_part1_eq (c : Dev nD) : main_part1 (F := F) c = seq ops1 := by
  simp only [main_part1, fn_leaky_relu.body, fn_leaky_relu_0.body, fn_where.body, fn_where_1.body, seq, bind_assoc, pure_bind]
  rfl

set_option maxRecDepth 8192 in
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., binary_bufs_sub .., unary_bufs_sub .., binary_bufs_sub .., nullary_bufs_sub .., unary_bufs_sub .., unary_bufs_sub .., ternary_bufs_sub .., binary_bufs_sub .., binary_bufs_sub .., nullary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

set_option maxRecDepth 8192 in
theorem ops1_fresh : (ops1 : List (HloOp τ sig (Elt F))).Forall fun op => op.fresh = ∅ := by
  simp only [List.Forall]; repeat' constructor

/-- The buffers the window's operations write. -/
abbrev ops1_W : List (Ref sig .tc) := [main_c_12, main_v46, main_v47, main_c_13, main_v48, main_v49, main_v50, main_v51, main_v52, main_c_14, main_v53, main_v54, main_c_15, main_v55, main_v56, main_v57, main_v58, main_v59, main_v60, main_v61, main_v62, main_v63, main_v64, main_v65, main_cst_16, main_v66, main_v67, main_v68, main_v69, main_v70, main_call0_cst, main_call0_v0, main_call0_v1, main_call0_cst_0, main_call0_v2, main_call0_v3, main_v71, main_v72, main_c_17, main_v73, main_v74, main_c_18, main_v75, main_v76, main_v77, main_v78, main_v79, main_c_19, main_v80, main_v81, main_c_20, main_v82, main_v83, main_v84, main_v85, main_v86, main_c_21, main_v87, main_v88, main_c_22, main_v89, main_v90, main_v91, main_v92, main_v93, main_v94]

set_option maxRecDepth 8192 in
theorem ops1_writes : (ops1 : List (HloOp τ sig (Elt F))).Forall fun op => op.writes ⊆ (ops1_W.map (Proc.devRef (τ := τ) .tc)).toFinset := by
  simp only [List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩

/-- A buffer the window does not write keeps its contents through it. -/
theorem ops1_keep (V : Valuation τ sig (Elt F)) (r : Ref sig .tc) (h : r ∉ ops1_W) :
    after ops1 V (Proc.devRef .tc r) = V (Proc.devRef .tc r) :=
  after_of_writes_sub ops1 V ops1_writes h

end Cert.ReferenceIdeal.RefRun

end
-- ==== Proof.Ref.Ops2.lean ====
/- The reference program's host operations 127 … 198 of 261, as a list: the window `main_part2` of @main with each call of an outlined function replaced by the callee's operations over that call's buffers. The window is the straight line of that list; every operation touches TensorCore references only, determines its result, and writes one listed buffer. -/
import proofs.«126583_j73280732004963_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part2`, in order, the outlined functions' operations listed at their call sites. -/
abbrev ops2 : List (HloOp τ sig (Elt F)) :=
  [ StableHlo.binary main_v94 main_arg5 main_v95 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_v37 main_v96 (broadcastInDim S1000000x1 ![0] bcast_S1000000_S1000000x1_0 : (⟨S1000000, .f32⟩ : BufTy).Contents (Elt F) → (⟨S1000000x1, .f32⟩ : BufTy).Contents (Elt F)),
    StableHlo.binary main_v79 main_v95 main_v97 (addf : (⟨S1000000x64, .f32⟩ : BufTy).Contents (Elt F) → (⟨S1000000x64, .f32⟩ : BufTy).Contents (Elt F) → (⟨S1000000x64, .f32⟩ : BufTy).Contents (Elt F)),
    StableHlo.unary main_v96 main_v98 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v98 main_v97 main_v99 (mulf : (⟨S1000000x64, .f32⟩ : BufTy).Contents (Elt F) → (⟨S1000000x64, .f32⟩ : BufTy).Contents (Elt F) → (⟨S1000000x64, .f32⟩ : BufTy).Contents (Elt F)),
    StableHlo.nullary main_cst_23 (constant S_ .f32 0x00000000#32),
    StableHlo.unary main_cst_23 main_v100 (broadcastInDim S100000x64 ![] bcast_S_S100000x64 : (⟨S_, .f32⟩ : BufTy).Contents (Elt F) → (⟨S100000x64, .f32⟩ : BufTy).Contents (Elt F)),
    StableHlo.unary main_arg12 main_v101 (broadcastInDim S1000000x1 ![0] bcast_S1000000_S1000000x1_0 : (⟨S1000000, .i32⟩ : BufTy).Contents (Elt F) → (⟨S1000000x1, .i32⟩ : BufTy).Contents (Elt F)),
    StableHlo.ternary main_v100 main_v101 main_v99 main_v102 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.binary main_v6 main_arg4 main_v103 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v103 main_v102 main_v104 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v104) main_call1.v0 main_call1.v1 (cmpf .oge),
    StableHlo.TRef.nullary main_call1.cst_0 (constant S_ .f32 0x3C23D70A#32),
    StableHlo.TRef.unary main_call1.cst_0 main_call1.v2 (broadcastInDim S100000x64 ![] bcast_S_S100000x64),
    StableHlo.TRef.binary main_call1.v2 (.of main_v104) main_call1.v3 mulf,
    StableHlo.TRef.ternary main_call1.v1 (.of main_v104) main_call1.v3 main_call1.call0.v0 select,
    StableHlo.binary main_v105 main_arg6 main_v106 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_24 (constantI S_ 32 0#32),
    StableHlo.unary main_c_24 main_v107 (broadcastInDim S1000000 ![] bcast_S_S1000000 : (⟨S_, .i32⟩ : BufTy).Contents (Elt F) → (⟨S1000000, .i32⟩ : BufTy).Contents (Elt F)),
    StableHlo.binary main_arg12 main_v107 main_v108 (cmpi .slt : (⟨S1000000, .i32⟩ : BufTy).Contents (Elt F) → (⟨S1000000, .i32⟩ : BufTy).Contents (Elt F) → (⟨S1000000, .i1⟩ : BufTy).Contents (Elt F)),
    StableHlo.nullary main_c_25 (constantI S_ 32 100000#32),
    StableHlo.unary main_c_25 main_v109 (broadcastInDim S1000000 ![] bcast_S_S1000000 : (⟨S_, .i32⟩ : BufTy).Contents (Elt F) → (⟨S1000000, .i32⟩ : BufTy).Contents (Elt F)),
    StableHlo.binary main_arg12 main_v109 main_v110 (addi : (⟨S1000000, .i32⟩ : BufTy).Contents (Elt F) → (⟨S1000000, .i32⟩ : BufTy).Contents (Elt F) → (⟨S1000000, .i32⟩ : BufTy).Contents (Elt F)),
    StableHlo.ternary main_v108 main_v110 main_arg12 main_v111 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v111 main_v112 (broadcastInDim S1000000x1 ![0] bcast_S1000000_S1000000x1_0 : (⟨S1000000, .i32⟩ : BufTy).Contents (Elt F) → (⟨S1000000x1, .i32⟩ : BufTy).Contents (Elt F)),
    StableHlo.binary main_v106 main_v112 main_v113 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.nullary main_c_26 (constantI S_ 32 0#32),
    StableHlo.unary main_c_26 main_v114 (broadcastInDim S1000000 ![] bcast_S_S1000000 : (⟨S_, .i32⟩ : BufTy).Contents (Elt F) → (⟨S1000000, .i32⟩ : BufTy).Contents (Elt F)),
    StableHlo.binary main_arg12 main_v114 main_v115 (cmpi .slt : (⟨S1000000, .i32⟩ : BufTy).Contents (Elt F) → (⟨S1000000, .i32⟩ : BufTy).Contents (Elt F) → (⟨S1000000, .i1⟩ : BufTy).Contents (Elt F)),
    StableHlo.nullary main_c_27 (constantI S_ 32 100000#32),
    StableHlo.unary main_c_27 main_v116 (broadcastInDim S1000000 ![] bcast_S_S1000000 : (⟨S_, .i32⟩ : BufTy).Contents (Elt F) → (⟨S1000000, .i32⟩ : BufTy).Contents (Elt F)),
    StableHlo.binary main_arg12 main_v116 main_v117 (addi : (⟨S1000000, .i32⟩ : BufTy).Contents (Elt F) → (⟨S1000000, .i32⟩ : BufTy).Contents (Elt F) → (⟨S1000000, .i32⟩ : BufTy).Contents (Elt F)),
    StableHlo.ternary main_v115 main_v117 main_arg12 main_v118 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v118 main_v119 (broadcastInDim S1000000x1 ![0] bcast_S1000000_S1000000x1_0 : (⟨S1000000, .i32⟩ : BufTy).Contents (Elt F) → (⟨S1000000x1, .i32⟩ : BufTy).Contents (Elt F)),
    StableHlo.binary main_v105 main_v119 main_v120 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.nullary main_c_28 (constantI S_ 32 0#32),
    StableHlo.unary main_c_28 main_v121 (broadcastInDim S1000000 ![] bcast_S_S1000000 : (⟨S_, .i32⟩ : BufTy).Contents (Elt F) → (⟨S1000000, .i32⟩ : BufTy).Contents (Elt F)),
    StableHlo.binary main_arg13 main_v121 main_v122 (cmpi .slt : (⟨S1000000, .i32⟩ : BufTy).Contents (Elt F) → (⟨S1000000, .i32⟩ : BufTy).Contents (Elt F) → (⟨S1000000, .i1⟩ : BufTy).Contents (Elt F)),
    StableHlo.nullary main_c_29 (constantI S_ 32 50000#32),
    StableHlo.unary main_c_29 main_v123 (broadcastInDim S1000000 ![] bcast_S_S1000000 : (⟨S_, .i32⟩ : BufTy).Contents (Elt F) → (⟨S1000000, .i32⟩ : BufTy).Contents (Elt F)),
    StableHlo.binary main_arg13 main_v123 main_v124 (addi : (⟨S1000000, .i32⟩ : BufTy).Contents (Elt F) → (⟨S1000000, .i32⟩ : BufTy).Contents (Elt F) → (⟨S1000000, .i32⟩ : BufTy).Contents (Elt F)),
    StableHlo.ternary main_v122 main_v124 main_arg13 main_v125 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v125 main_v126 (broadcastInDim S1000000x1 ![0] bcast_S1000000_S1000000x1_0 : (⟨S1000000, .i32⟩ : BufTy).Contents (Elt F) → (⟨S1000000x1, .i32⟩ : BufTy).Contents (Elt F)),
    StableHlo.binary main_v71 main_v126 main_v127 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    StableHlo.binary main_v120 main_v127 main_v128 (mulf : (⟨S1000000x64, .f32⟩ : BufTy).Contents (Elt F) → (⟨S1000000x64, .f32⟩ : BufTy).Contents (Elt F) → (⟨S1000000x64, .f32⟩ : BufTy).Contents (Elt F)),
    StableHlo.binary main_v128 main_arg7 main_v129 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_v37 main_v130 (broadcastInDim S1000000x1 ![0] bcast_S1000000_S1000000x1_0 : (⟨S1000000, .f32⟩ : BufTy).Contents (Elt F) → (⟨S1000000x1, .f32⟩ : BufTy).Contents (Elt F)),
    StableHlo.binary main_v113 main_v129 main_v131 (addf : (⟨S1000000x64, .f32⟩ : BufTy).Contents (Elt F) → (⟨S1000000x64, .f32⟩ : BufTy).Contents (Elt F) → (⟨S1000000x64, .f32⟩ : BufTy).Contents (Elt F)),
    StableHlo.unary main_v130 main_v132 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v132 main_v131 main_v133 (mulf : (⟨S1000000x64, .f32⟩ : BufTy).Contents (Elt F) → (⟨S1000000x64, .f32⟩ : BufTy).Contents (Elt F) → (⟨S1000000x64, .f32⟩ : BufTy).Contents (Elt F)),
    StableHlo.nullary main_cst_30 (constant S_ .f32 0x00000000#32),
    StableHlo.unary main_cst_30 main_v134 (broadcastInDim S50000x64 ![] bcast_S_S50000x64 : (⟨S_, .f32⟩ : BufTy).Contents (Elt F) → (⟨S50000x64, .f32⟩ : BufTy).Contents (Elt F)),
    StableHlo.unary main_arg13 main_v135 (broadcastInDim S1000000x1 ![0] bcast_S1000000_S1000000x1_0 : (⟨S1000000, .i32⟩ : BufTy).Contents (Elt F) → (⟨S1000000x1, .i32⟩ : BufTy).Contents (Elt F)),
    StableHlo.ternary main_v134 main_v135 main_v133 main_v136 ((fun x i u => Host.scatterAdd scatter_S50000x64_S1000000x1_S1000000x64_1_0_0_1 x i u) : (⟨S50000x64, .f32⟩ : BufTy).Contents (Elt F) → (⟨S1000000x1, .i32⟩ : BufTy).Contents (Elt F) → (⟨S1000000x64, .f32⟩ : BufTy).Contents (Elt F) → (⟨S50000x64, .f32⟩ : BufTy).Contents (Elt F)),
    StableHlo.binary main_v71 main_arg6 main_v137 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.binary main_v137 main_v136 main_v138 (addf : (⟨S50000x64, .f32⟩ : BufTy).Contents (Elt F) → (⟨S50000x64, .f32⟩ : BufTy).Contents (Elt F) → (⟨S50000x64, .f32⟩ : BufTy).Contents (Elt F)),
    StableHlo.TRef.nullary main_call2.cst (constant S_ .f32 0x00000000#32),
    StableHlo.TRef.unary main_call2.cst main_call2.v0 (broadcastInDim S50000x64 ![] bcast_S_S50000x64),
    StableHlo.TRef.binary (.of main_v138) main_call2.v0 main_call2.v1 (cmpf .oge),
    StableHlo.TRef.nullary main_call2.cst_0 (constant S_ .f32 0x3C23D70A#32),
    StableHlo.TRef.unary main_call2.cst_0 main_call2.v2 (broadcastInDim S50000x64 ![] bcast_S_S50000x64),
    StableHlo.TRef.binary main_call2.v2 (.of main_v138) main_call2.v3 mulf,
    StableHlo.TRef.ternary main_call2.v1 (.of main_v138) main_call2.v3 main_call2.call0.v0 select,
    StableHlo.binary main_v71 main_arg8 main_v140 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_c_31 (constantI S_ 32 0#32),
    StableHlo.unary main_c_31 main_v141 (broadcastInDim S1000000 ![] bcast_S_S1000000 : (⟨S_, .i32⟩ : BufTy).Contents (Elt F) → (⟨S1000000, .i32⟩ : BufTy).Contents (Elt F)),
    StableHlo.binary main_arg13 main_v141 main_v142 (cmpi .slt : (⟨S1000000, .i32⟩ : BufTy).Contents (Elt F) → (⟨S1000000, .i32⟩ : BufTy).Contents (Elt F) → (⟨S1000000, .i1⟩ : BufTy).Contents (Elt F)),
    StableHlo.nullary main_c_32 (constantI S_ 32 50000#32),
    StableHlo.unary main_c_32 main_v143 (broadcastInDim S1000000 ![] bcast_S_S1000000 : (⟨S_, .i32⟩ : BufTy).Contents (Elt F) → (⟨S1000000, .i32⟩ : BufTy).Contents (Elt F)),
    StableHlo.binary main_arg13 main_v143 main_v144 (addi : (⟨S1000000, .i32⟩ : BufTy).Contents (Elt F) → (⟨S1000000, .i32⟩ : BufTy).Contents (Elt F) → (⟨S1000000, .i32⟩ : BufTy).Contents (Elt F)) ]

set_option maxRecDepth 8192 in
/-- The window is that straight line: the callees' definitions unfolded at the calls, sequencing reassociated. -/
theorem main_part2_eq (c : Dev nD) : main_part2 (F := F) c = seq ops2 := by
  simp only [main_part2, fn_leaky_relu.body, fn_leaky_relu_0.body, fn_where.body, fn_where_1.body, seq, bind_assoc, pure_bind]
  rfl

set_option maxRecDepth 8192 in
theorem ops2_sub : (ops2 : List (HloOp τ sig (Elt F))).Forall fun op => op.bufs ⊆ tcRefs τ sig :=
  ⟨binary_bufs_sub .., unary_bufs_sub .., binary_bufs_sub .., unary_bufs_sub .., binary_bufs_sub .., nullary_bufs_sub .., unary_bufs_sub .., unary_bufs_sub .., ternary_bufs_sub .., binary_bufs_sub .., binary_bufs_sub .., nullary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., binary_bufs_sub .., unary_bufs_sub .., binary_bufs_sub .., nullary_bufs_sub .., unary_bufs_sub .., unary_bufs_sub .., ternary_bufs_sub .., binary_bufs_sub .., binary_bufs_sub .., nullary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub ..⟩

set_option maxRecDepth 8192 in
theorem ops2_fresh : (ops2 : List (HloOp τ sig (Elt F))).Forall fun op => op.fresh = ∅ := by
  simp only [List.Forall]; repeat' constructor

/-- The buffers the window's operations write. -/
abbrev ops2_W : List (Ref sig .tc) := [main_v95, main_v96, main_v97, main_v98, main_v99, main_cst_23, main_v100, main_v101, main_v102, main_v103, main_v104, main_call1_cst, main_call1_v0, main_call1_v1, main_call1_cst_0, main_call1_v2, main_call1_v3, main_v105, main_v106, main_c_24, main_v107, main_v108, main_c_25, main_v109, main_v110, main_v111, main_v112, main_v113, main_c_26, main_v114, main_v115, main_c_27, main_v116, main_v117, main_v118, main_v119, main_v120, main_c_28, main_v121, main_v122, main_c_29, main_v123, main_v124, main_v125, main_v126, main_v127, main_v128, main_v129, main_v130, main_v131, main_v132, main_v133, main_cst_30, main_v134, main_v135, main_v136, main_v137, main_v138, main_call2_cst, main_call2_v0, main_call2_v1, main_call2_cst_0, main_call2_v2, main_call2_v3, main_v139, main_v140, main_c_31, main_v141, main_v142, main_c_32, main_v143, main_v144]

set_option maxRecDepth 8192 in
theorem ops2_writes : (ops2 : List (HloOp τ sig (Elt F))).Forall fun op => op.writes ⊆ (ops2_W.map (Proc.devRef (τ := τ) .tc)).toFinset := by
  simp only [List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩

/-- A buffer the window does not write keeps its contents through it. -/
theorem ops2_keep (V : Valuation τ sig (Elt F)) (r : Ref sig .tc) (h : r ∉ ops2_W) :
    after ops2 V (Proc.devRef .tc r) = V (Proc.devRef .tc r) :=
  after_of_writes_sub ops2 V ops2_writes h

end Cert.ReferenceIdeal.RefRun

end
-- ==== Proof.Ref.Ops3.lean ====
/- The reference program's host operations 199 … 261 of 261, as a list: the window `main_part3` of @main with each call of an outlined function replaced by the callee's operations over that call's buffers. The window is the straight line of that list; every operation touches TensorCore references only, determines its result, and writes one listed buffer. -/
import proofs.«126583_j73280732004963_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part3`, in order, the outlined functions' operations listed at their call sites. -/
abbrev ops3 : List (HloOp τ sig (Elt F)) :=
  [ StableHlo.ternary main_v142 main_v144 main_arg13 main_v145 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v145 main_v146 (broadcastInDim S1000000x1 ![0] bcast_S1000000_S1000000x1_0 : (⟨S1000000, .i32⟩ : BufTy).Contents (Elt F) → (⟨S1000000x1, .i32⟩ : BufTy).Contents (Elt F)),
    StableHlo.binary main_v140 main_v146 main_v147 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    StableHlo.nullary main_c_33 (constantI S_ 32 0#32),
    StableHlo.unary main_c_33 main_v148 (broadcastInDim S1000000 ![] bcast_S_S1000000 : (⟨S_, .i32⟩ : BufTy).Contents (Elt F) → (⟨S1000000, .i32⟩ : BufTy).Contents (Elt F)),
    StableHlo.binary main_arg13 main_v148 main_v149 (cmpi .slt : (⟨S1000000, .i32⟩ : BufTy).Contents (Elt F) → (⟨S1000000, .i32⟩ : BufTy).Contents (Elt F) → (⟨S1000000, .i1⟩ : BufTy).Contents (Elt F)),
    StableHlo.nullary main_c_34 (constantI S_ 32 50000#32),
    StableHlo.unary main_c_34 main_v150 (broadcastInDim S1000000 ![] bcast_S_S1000000 : (⟨S_, .i32⟩ : BufTy).Contents (Elt F) → (⟨S1000000, .i32⟩ : BufTy).Contents (Elt F)),
    StableHlo.binary main_arg13 main_v150 main_v151 (addi : (⟨S1000000, .i32⟩ : BufTy).Contents (Elt F) → (⟨S1000000, .i32⟩ : BufTy).Contents (Elt F) → (⟨S1000000, .i32⟩ : BufTy).Contents (Elt F)),
    StableHlo.ternary main_v149 main_v151 main_arg13 main_v152 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v152 main_v153 (broadcastInDim S1000000x1 ![0] bcast_S1000000_S1000000x1_0 : (⟨S1000000, .i32⟩ : BufTy).Contents (Elt F) → (⟨S1000000x1, .i32⟩ : BufTy).Contents (Elt F)),
    StableHlo.binary main_v71 main_v153 main_v154 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    StableHlo.nullary main_c_35 (constantI S_ 32 0#32),
    StableHlo.unary main_c_35 main_v155 (broadcastInDim S1000000 ![] bcast_S_S1000000 : (⟨S_, .i32⟩ : BufTy).Contents (Elt F) → (⟨S1000000, .i32⟩ : BufTy).Contents (Elt F)),
    StableHlo.binary main_arg12 main_v155 main_v156 (cmpi .slt : (⟨S1000000, .i32⟩ : BufTy).Contents (Elt F) → (⟨S1000000, .i32⟩ : BufTy).Contents (Elt F) → (⟨S1000000, .i1⟩ : BufTy).Contents (Elt F)),
    StableHlo.nullary main_c_36 (constantI S_ 32 100000#32),
    StableHlo.unary main_c_36 main_v157 (broadcastInDim S1000000 ![] bcast_S_S1000000 : (⟨S_, .i32⟩ : BufTy).Contents (Elt F) → (⟨S1000000, .i32⟩ : BufTy).Contents (Elt F)),
    StableHlo.binary main_arg12 main_v157 main_v158 (addi : (⟨S1000000, .i32⟩ : BufTy).Contents (Elt F) → (⟨S1000000, .i32⟩ : BufTy).Contents (Elt F) → (⟨S1000000, .i32⟩ : BufTy).Contents (Elt F)),
    StableHlo.ternary main_v156 main_v158 main_arg12 main_v159 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v159 main_v160 (broadcastInDim S1000000x1 ![0] bcast_S1000000_S1000000x1_0 : (⟨S1000000, .i32⟩ : BufTy).Contents (Elt F) → (⟨S1000000x1, .i32⟩ : BufTy).Contents (Elt F)),
    StableHlo.binary main_v105 main_v160 main_v161 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.binary main_v154 main_v161 main_v162 (mulf : (⟨S1000000x64, .f32⟩ : BufTy).Contents (Elt F) → (⟨S1000000x64, .f32⟩ : BufTy).Contents (Elt F) → (⟨S1000000x64, .f32⟩ : BufTy).Contents (Elt F)),
    StableHlo.binary main_v162 main_arg9 main_v163 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_v37 main_v164 (broadcastInDim S1000000x1 ![0] bcast_S1000000_S1000000x1_0 : (⟨S1000000, .f32⟩ : BufTy).Contents (Elt F) → (⟨S1000000x1, .f32⟩ : BufTy).Contents (Elt F)),
    StableHlo.binary main_v147 main_v163 main_v165 (addf : (⟨S1000000x64, .f32⟩ : BufTy).Contents (Elt F) → (⟨S1000000x64, .f32⟩ : BufTy).Contents (Elt F) → (⟨S1000000x64, .f32⟩ : BufTy).Contents (Elt F)),
    StableHlo.unary main_v164 main_v166 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v166 main_v165 main_v167 (mulf : (⟨S1000000x64, .f32⟩ : BufTy).Contents (Elt F) → (⟨S1000000x64, .f32⟩ : BufTy).Contents (Elt F) → (⟨S1000000x64, .f32⟩ : BufTy).Contents (Elt F)),
    StableHlo.nullary main_cst_37 (constant S_ .f32 0x00000000#32),
    StableHlo.unary main_cst_37 main_v168 (broadcastInDim S100000x64 ![] bcast_S_S100000x64 : (⟨S_, .f32⟩ : BufTy).Contents (Elt F) → (⟨S100000x64, .f32⟩ : BufTy).Contents (Elt F)),
    StableHlo.unary main_arg12 main_v169 (broadcastInDim S1000000x1 ![0] bcast_S1000000_S1000000x1_0 : (⟨S1000000, .i32⟩ : BufTy).Contents (Elt F) → (⟨S1000000x1, .i32⟩ : BufTy).Contents (Elt F)),
    StableHlo.ternary main_v168 main_v169 main_v167 main_v170 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.binary main_v105 main_arg8 main_v171 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v171 main_v170 main_v172 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v172) main_call3.v0 main_call3.v1 (cmpf .oge),
    StableHlo.TRef.nullary main_call3.cst_0 (constant S_ .f32 0x3C23D70A#32),
    StableHlo.TRef.unary main_call3.cst_0 main_call3.v2 (broadcastInDim S100000x64 ![] bcast_S_S100000x64),
    StableHlo.TRef.binary main_call3.v2 (.of main_v172) main_call3.v3 mulf,
    StableHlo.TRef.ternary main_call3.v1 (.of main_v172) main_call3.v3 main_call3.call0.v0 select,
    StableHlo.nary ![main_v6, main_v105, main_v173] main_v174 (fun u => concatenate S100000x192 1 [⟨S100000x64, u 0⟩, ⟨S100000x64, u 1⟩, ⟨S100000x64, u 2⟩] concatenates_S100000x64_S100000x64_S100000x64_S100000x192_d1),
    StableHlo.nary ![main_v13, main_v71, main_v139] main_v175 (fun u => concatenate S50000x192 1 [⟨S50000x64, u 0⟩, ⟨S50000x64, u 1⟩, ⟨S50000x64, u 2⟩] concatenates_S50000x64_S50000x64_S50000x64_S50000x192_d1),
    StableHlo.nullary main_c_38 (constantI S_ 32 0#32),
    StableHlo.unary main_c_38 main_v176 (broadcastInDim S500000 ![] bcast_S_S500000 : (⟨S_, .i32⟩ : BufTy).Contents (Elt F) → (⟨S500000, .i32⟩ : BufTy).Contents (Elt F)),
    StableHlo.binary main_arg14 main_v176 main_v177 (cmpi .slt : (⟨S500000, .i32⟩ : BufTy).Contents (Elt F) → (⟨S500000, .i32⟩ : BufTy).Contents (Elt F) → (⟨S500000, .i1⟩ : BufTy).Contents (Elt F)),
    StableHlo.nullary main_c_39 (constantI S_ 32 100000#32),
    StableHlo.unary main_c_39 main_v178 (broadcastInDim S500000 ![] bcast_S_S500000 : (⟨S_, .i32⟩ : BufTy).Contents (Elt F) → (⟨S500000, .i32⟩ : BufTy).Contents (Elt F)),
    StableHlo.binary main_arg14 main_v178 main_v179 (addi : (⟨S500000, .i32⟩ : BufTy).Contents (Elt F) → (⟨S500000, .i32⟩ : BufTy).Contents (Elt F) → (⟨S500000, .i32⟩ : BufTy).Contents (Elt F)),
    StableHlo.ternary main_v177 main_v179 main_arg14 main_v180 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v180 main_v181 (broadcastInDim S500000x1 ![0] bcast_S500000_S500000x1_0 : (⟨S500000, .i32⟩ : BufTy).Contents (Elt F) → (⟨S500000x1, .i32⟩ : BufTy).Contents (Elt F)),
    StableHlo.binary main_v174 main_v181 main_v182 ((fun x i => Host.gather gather_S100000x192_S500000x1_S500000x192_1_0_n_n_0_1_1192 x i) : (⟨S100000x192, .f32⟩ : BufTy).Contents (Elt F) → (⟨S500000x1, .i32⟩ : BufTy).Contents (Elt F) → (⟨S500000x192, .f32⟩ : BufTy).Contents (Elt F)),
    StableHlo.nullary main_c_40 (constantI S_ 32 0#32),
    StableHlo.unary main_c_40 main_v183 (broadcastInDim S500000 ![] bcast_S_S500000 : (⟨S_, .i32⟩ : BufTy).Contents (Elt F) → (⟨S500000, .i32⟩ : BufTy).Contents (Elt F)),
    StableHlo.binary main_arg15 main_v183 main_v184 (cmpi .slt : (⟨S500000, .i32⟩ : BufTy).Contents (Elt F) → (⟨S500000, .i32⟩ : BufTy).Contents (Elt F) → (⟨S500000, .i1⟩ : BufTy).Contents (Elt F)),
    StableHlo.nullary main_c_41 (constantI S_ 32 50000#32),
    StableHlo.unary main_c_41 main_v185 (broadcastInDim S500000 ![] bcast_S_S500000 : (⟨S_, .i32⟩ : BufTy).Contents (Elt F) → (⟨S500000, .i32⟩ : BufTy).Contents (Elt F)),
    StableHlo.binary main_arg15 main_v185 main_v186 (addi : (⟨S500000, .i32⟩ : BufTy).Contents (Elt F) → (⟨S500000, .i32⟩ : BufTy).Contents (Elt F) → (⟨S500000, .i32⟩ : BufTy).Contents (Elt F)),
    StableHlo.ternary main_v184 main_v186 main_arg15 main_v187 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v187 main_v188 (broadcastInDim S500000x1 ![0] bcast_S500000_S500000x1_0 : (⟨S500000, .i32⟩ : BufTy).Contents (Elt F) → (⟨S500000x1, .i32⟩ : BufTy).Contents (Elt F)),
    StableHlo.binary main_v175 main_v188 main_v189 ((fun x i => Host.gather gather_S50000x192_S500000x1_S500000x192_1_0_n_n_0_1_1192 x i) : (⟨S50000x192, .f32⟩ : BufTy).Contents (Elt F) → (⟨S500000x1, .i32⟩ : BufTy).Contents (Elt F) → (⟨S500000x192, .f32⟩ : BufTy).Contents (Elt F)),
    StableHlo.binary main_v182 main_v189 main_v190 (mulf : (⟨S500000x192, .f32⟩ : BufTy).Contents (Elt F) → (⟨S500000x192, .f32⟩ : BufTy).Contents (Elt F) → (⟨S500000x192, .f32⟩ : BufTy).Contents (Elt F)),
    StableHlo.nullary main_cst_42 (constant S_ .f32 0x00000000#32),
    StableHlo.binary main_v190 main_cst_42 main_v191 ((fun x v => Host.reduceAdd x v reducesTo_S500000x192_S500000_d1 h_S_) : (⟨S500000x192, .f32⟩ : BufTy).Contents (Elt F) → (⟨S_, .f32⟩ : BufTy).Contents (Elt F) → (⟨S500000, .f32⟩ : BufTy).Contents (Elt F)) ]

set_option maxRecDepth 8192 in
/-- The window is that straight line: the callees' definitions unfolded at the calls, sequencing reassociated. -/
theorem main_part3_eq (c : Dev nD) : main_part3 (F := F) c = seq ops3 := by
  simp only [main_part3, fn_leaky_relu.body, fn_leaky_relu_0.body, fn_where.body, fn_where_1.body, seq, bind_assoc, pure_bind]

set_option maxRecDepth 8192 in
theorem ops3_sub : (ops3 : List (HloOp τ sig (Elt F))).Forall fun op => op.bufs ⊆ tcRefs τ sig :=
  ⟨ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., binary_bufs_sub .., unary_bufs_sub .., binary_bufs_sub .., nullary_bufs_sub .., unary_bufs_sub .., unary_bufs_sub .., ternary_bufs_sub .., binary_bufs_sub .., binary_bufs_sub .., nullary_bufs_sub .., unary_bufs_sub .., binary_bufs_sub .., nullary_bufs_sub .., unary_bufs_sub .., binary_bufs_sub .., ternary_bufs_sub .., nary_bufs_sub .., nary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub ..⟩

set_option maxRecDepth 8192 in
theorem ops3_fresh : (ops3 : List (HloOp τ sig (Elt F))).Forall fun op => op.fresh = ∅ := by
  simp only [List.Forall]; repeat' constructor

/-- The buffers the window's operations write. -/
abbrev ops3_W : List (Ref sig .tc) := [main_v145, main_v146, main_v147, main_c_33, main_v148, main_v149, main_c_34, main_v150, main_v151, main_v152, main_v153, main_v154, main_c_35, main_v155, main_v156, main_c_36, main_v157, main_v158, main_v159, main_v160, main_v161, main_v162, main_v163, main_v164, main_v165, main_v166, main_v167, main_cst_37, main_v168, main_v169, main_v170, main_v171, main_v172, main_call3_cst, main_call3_v0, main_call3_v1, main_call3_cst_0, main_call3_v2, main_call3_v3, main_v173, main_v174, main_v175, main_c_38, main_v176, main_v177, main_c_39, main_v178, main_v179, main_v180, main_v181, main_v182, main_c_40, main_v183, main_v184, main_c_41, main_v185, main_v186, main_v187, main_v188, main_v189, main_v190, main_cst_42, main_v191]

set_option maxRecDepth 8192 in
theorem ops3_writes : (ops3 : List (HloOp τ sig (Elt F))).Forall fun op => op.writes ⊆ (ops3_W.map (Proc.devRef (τ := τ) .tc)).toFinset := by
  simp only [List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩

/-- A buffer the window does not write keeps its contents through it. -/
theorem ops3_keep (V : Valuation τ sig (Elt F)) (r : Ref sig .tc) (h : r ∉ ops3_W) :
    after ops3 V (Proc.devRef .tc r) = V (Proc.devRef .tc r) :=
  after_of_writes_sub ops3 V ops3_writes h

end Cert.ReferenceIdeal.RefRun

end
-- ==== Proof.Ref.Run.lean ====
/- The reference program's @main as the list of its 261 host operations (the four windows' lists in order), and its run: every weakly fair execution terminates with each TensorCore buffer at the operations' fold over the launch contents; no operation writes an argument, so the sixteen arguments end as launched. -/
import proofs.«126583_j73280732004963_1_alg».proof.Proof.Ref.Ops0
import proofs.«126583_j73280732004963_1_alg».proof.Proof.Ref.Ops1
import proofs.«126583_j73280732004963_1_alg».proof.Proof.Ref.Ops2
import proofs.«126583_j73280732004963_1_alg».proof.Proof.Ref.Ops3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 261 operations, in order, the outlined functions' operations listed at their call sites. -/
abbrev ops : List (HloOp τ sig (Elt F)) := ops0 ++ (ops1 ++ (ops2 ++ ops3))

set_option maxRecDepth 8192 in
/-- @main runs its four windows in order; each is the straight line of its list. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h, List.forall_iff_forall_mem.mp ops2_sub op h, List.forall_iff_forall_mem.mp ops3_sub op h]

theorem ops_fresh : ∀ op ∈ (ops : List (HloOp τ sig (Elt F))), op.fresh = ∅ := fun op h => by
  simp only [ops, List.mem_append] at h
  rcases h with h | h | h | h
  exacts [List.forall_iff_forall_mem.mp ops0_fresh op h, List.forall_iff_forall_mem.mp ops1_fresh op h, List.forall_iff_forall_mem.mp ops2_fresh op h, List.forall_iff_forall_mem.mp ops3_fresh op h]

/-- The fold over a concatenation is the folds in turn. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The fold over @main's operations, window by window. -/
theorem after_ops (V : Valuation τ sig (Elt F)) : after ops V = after ops3 (after ops2 (after ops1 (after ops0 V))) := by
  simp only [ops, after_app]

/-- On every device, for any float values, from any memory with zero counters: every weakly fair execution of @main
    terminates, and every final state has each TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-- A buffer no window writes keeps its contents through the whole line. -/
theorem ops_keep (V : Valuation τ sig (Elt F)) (r : Ref sig .tc) (h0 : r ∉ ops0_W) (h1 : r ∉ ops1_W) (h2 : r ∉ ops2_W) (h3 : r ∉ ops3_W) :
    after ops V (Proc.devRef .tc r) = V (Proc.devRef .tc r) := by
  rw [after_ops, ops3_keep _ r h3, ops2_keep _ r h2, ops1_keep _ r h1, ops0_keep _ r h0]

theorem ops_arg0 (V : Valuation τ sig (Elt F)) : after ops V (Proc.devRef .tc main_arg0) = V (Proc.devRef .tc main_arg0) :=
  ops_keep V main_arg0 (by decide) (by decide) (by decide) (by decide)
theorem ops_arg1 (V : Valuation τ sig (Elt F)) : after ops V (Proc.devRef .tc main_arg1) = V (Proc.devRef .tc main_arg1) :=
  ops_keep V main_arg1 (by decide) (by decide) (by decide) (by decide)
theorem ops_arg2 (V : Valuation τ sig (Elt F)) : after ops V (Proc.devRef .tc main_arg2) = V (Proc.devRef .tc main_arg2) :=
  ops_keep V main_arg2 (by decide) (by decide) (by decide) (by decide)
theorem ops_arg3 (V : Valuation τ sig (Elt F)) : after ops V (Proc.devRef .tc main_arg3) = V (Proc.devRef .tc main_arg3) :=
  ops_keep V main_arg3 (by decide) (by decide) (by decide) (by decide)
theorem ops_arg4 (V : Valuation τ sig (Elt F)) : after ops V (Proc.devRef .tc main_arg4) = V (Proc.devRef .tc main_arg4) :=
  ops_keep V main_arg4 (by decide) (by decide) (by decide) (by decide)
theorem ops_arg5 (V : Valuation τ sig (Elt F)) : after ops V (Proc.devRef .tc main_arg5) = V (Proc.devRef .tc main_arg5) :=
  ops_keep V main_arg5 (by decide) (by decide) (by decide) (by decide)
theorem ops_arg6 (V : Valuation τ sig (Elt F)) : after ops V (Proc.devRef .tc main_arg6) = V (Proc.devRef .tc main_arg6) :=
  ops_keep V main_arg6 (by decide) (by decide) (by decide) (by decide)
theorem ops_arg7 (V : Valuation τ sig (Elt F)) : after ops V (Proc.devRef .tc main_arg7) = V (Proc.devRef .tc main_arg7) :=
  ops_keep V main_arg7 (by decide) (by decide) (by decide) (by decide)
theorem ops_arg8 (V : Valuation τ sig (Elt F)) : after ops V (Proc.devRef .tc main_arg8) = V (Proc.devRef .tc main_arg8) :=
  ops_keep V main_arg8 (by decide) (by decide) (by decide) (by decide)
theorem ops_arg9 (V : Valuation τ sig (Elt F)) : after ops V (Proc.devRef .tc main_arg9) = V (Proc.devRef .tc main_arg9) :=
  ops_keep V main_arg9 (by decide) (by decide) (by decide) (by decide)
theorem ops_arg10 (V : Valuation τ sig (Elt F)) : after ops V (Proc.devRef .tc main_arg10) = V (Proc.devRef .tc main_arg10) :=
  ops_keep V main_arg10 (by decide) (by decide) (by decide) (by decide)
theorem ops_arg11 (V : Valuation τ sig (Elt F)) : after ops V (Proc.devRef .tc main_arg11) = V (Proc.devRef .tc main_arg11) :=
  ops_keep V main_arg11 (by decide) (by decide) (by decide) (by decide)
theorem ops_arg12 (V : Valuation τ sig (Elt F)) : after ops V (Proc.devRef .tc main_arg12) = V (Proc.devRef .tc main_arg12) :=
  ops_keep V main_arg12 (by decide) (by decide) (by decide) (by decide)
theorem ops_arg13 (V : Valuation τ sig (Elt F)) : after ops V (Proc.devRef .tc main_arg13) = V (Proc.devRef .tc main_arg13) :=
  ops_keep V main_arg13 (by decide) (by decide) (by decide) (by decide)
theorem ops_arg14 (V : Valuation τ sig (Elt F)) : after ops V (Proc.devRef .tc main_arg14) = V (Proc.devRef .tc main_arg14) :=
  ops_keep V main_arg14 (by decide) (by decide) (by decide) (by decide)
theorem ops_arg15 (V : Valuation τ sig (Elt F)) : after ops V (Proc.devRef .tc main_arg15) = V (Proc.devRef .tc main_arg15) :=
  ops_keep V main_arg15 (by decide) (by decide) (by decide) (by decide)

/-- The arguments are unchanged by the run. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c main_arg0).trans (ops_arg0 _),
      (h c main_arg1).trans (ops_arg1 _),
      (h c main_arg2).trans (ops_arg2 _),
      (h c main_arg3).trans (ops_arg3 _),
      (h c main_arg4).trans (ops_arg4 _),
      (h c main_arg5).trans (ops_arg5 _),
      (h c main_arg6).trans (ops_arg6 _),
      (h c main_arg7).trans (ops_arg7 _),
      (h c main_arg8).trans (ops_arg8 _),
      (h c main_arg9).trans (ops_arg9 _),
      (h c main_arg10).trans (ops_arg10 _),
      (h c main_arg11).trans (ops_arg11 _),
      (h c main_arg12).trans (ops_arg12 _),
      (h c main_arg13).trans (ops_arg13 _),
      (h c main_arg14).trans (ops_arg14 _),
      (h c main_arg15).trans (ops_arg15 _)⟩)
    (run_all m ρ)

end Cert.ReferenceIdeal.RefRun

end
-- ==== Proof.Val.Spec.lean ====
/- The kernels' results as whole-array functions over the extended reals, index by index. Every kernel of the program is
   ROW-LOCAL: row `r` of its result depends on row `r` of its row-blocked operands and on the whole of a small weight matrix,
   so one function of the whole arrays describes every block. -/
import Idealize.ShloMosaic.PureOps.Ideal
import Idealize.ShloMosaic.Lib.ValueIdx

noncomputable section

namespace Cert.Val

open Idealize.ShloMosaic ValueIdx

/-- A rank-2 shape of literal extents. -/
abbrev Sh (a b : ℕ) : Shape := ⟨2, ![a, b]⟩

/-- The product of an [a,64] array with a [64,64] matrix: entry (r, q) is the sum over k of x[r,k] · w[k,q]. -/
def Glin {a : ℕ} (x : (Sh a 64).Idx → Elt Ideal .f32) (w : (Sh 64 64).Idx → Elt Ideal .f32) : (Sh a 64).Idx → Elt Ideal .f32 :=
  fun i => ∑ k : Fin 64, x (ix2 (n0 := a) (i 0) k) * w (ix2 (n1 := 64) k (i 1))

/-- The per-edge message: the edge's weight times (the projected source row + the product of the two gathered rows, projected). -/
def Gedge {a : ℕ} (z xs xd : (Sh a 64).Idx → Elt Ideal .f32) (wc : (Sh a 1).Idx → Elt Ideal .f32) (W : (Sh 64 64).Idx → Elt Ideal .f32) :
    (Sh a 64).Idx → Elt Ideal .f32 :=
  fun i => wc (ix2 (n0 := a) (i 0) (0 : Fin 1)) * (z i + ∑ k : Fin 64, (xs (ix2 (n0 := a) (i 0) k) * xd (ix2 (n0 := a) (i 0) k)) * W (ix2 (n1 := 64) k (i 1)))

/-- The leaky rectifier with the kernel's strict comparison: `s` where `s > 0`, else the slope literal times `s`. -/
def leaky (s : Elt Ideal .f32) : Elt Ideal .f32 :=
  if (0 : EReal) < (s : EReal) then s else (Ideal.ofBits .f32 0x3C23D70A#32 : Elt Ideal .f32) * s

/-- The self-loop update: the leaky rectifier of (the projected row + the aggregated messages). -/
def Gself {a : ℕ} (x : (Sh a 64).Idx → Elt Ideal .f32) (W : (Sh 64 64).Idx → Elt Ideal .f32) (zs : (Sh a 64).Idx → Elt Ideal .f32) :
    (Sh a 64).Idx → Elt Ideal .f32 :=
  fun i => leaky ((∑ k : Fin 64, x (ix2 (n0 := a) (i 0) k) * W (ix2 (n1 := 64) k (i 1))) + zs i)

/-- The pairwise score as a column: entry (r, 0) is the sum over the 192 features of hu[r,k] · hi[r,k]. -/
def Gdot {a : ℕ} (hu hi : (Sh a 192).Idx → Elt Ideal .f32) : (Sh a 1).Idx → Elt Ideal .f32 :=
  fun i => ∑ k : Fin 192, hu (ix2 (n0 := a) (i 0) k) * hi (ix2 (n0 := a) (i 0) k)

end Cert.Val

end
-- ==== Proof.KI.Val0.lean ====
/- Launch 0's result as ONE function of the arrays it is entered with: the product of the row-blocked operand with the [64,64] matrix. Each grid point writes back rows
   5000·t … 5000·t + 4999 of it, and the 20 blocks cover the array. -/
import proofs.«126583_j73280732004963_1_alg».proof.Proof.KI.R0
import proofs.«126583_j73280732004963_1_alg».proof.Proof.Val.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem ValueIdx
open Idealize.ShloMosaic.Pipeline (Dat)
open Cert.KernelIdeal Cert.KernelIdeal.Gen Cert.Val

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: a row-blocked window sits at block row `t`, the matrix at block (0, 0). -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- A block's payload at (p, q) is the whole-array function at the array index `i` whose row the block's row `p` is. -/
theorem blk_pay0 (hpay : ∀ (xb : Vec Ideal S5000x64 .f32) (w : Vec Ideal S64x64 .f32) (p : Fin 5000) (q : Fin 64),
      k0_pay1 (F := Ideal) xb w (ix2 p q) = ∑ k : Fin 64, xb (ix2 p k) * w (ix2 k q))
    (X0 : (Sh 100000 64).Idx → Elt Ideal .f32) (X1 : (Sh 64 64).Idx → Elt Ideal .f32)
    (xb0 : Vec Ideal S5000x64 .f32) (xb1 : Vec Ideal S64x64 .f32) (p : Fin 5000) (q : Fin 64) (i : (Sh 100000 64).Idx)
    (h0 : ∀ k : Fin 64, xb0 (ix2 p k) = X0 (ix2 (n0 := 100000) (i 0) k))
    (h1 : ∀ k : Fin 64, xb1 (ix2 k q) = X1 (ix2 (n1 := 64) k (i 1))) :
    k0_pay1 (F := Ideal) xb0 xb1 (ix2 p q) = Glin X0 X1 i := by
  rw [hpay]; unfold Glin
  simp only [h0, h1]

/-- What point `t` writes back is block `t` of that function of the arrays the launch is entered with. -/
theorem flushed0_eq (hpay : ∀ (xb : Vec Ideal S5000x64 .f32) (w : Vec Ideal S64x64 .f32) (p : Fin 5000) (q : Fin 64),
      k0_pay1 (F := Ideal) xb w (ix2 p q) = ∑ k : Fin 64, xb (ix2 p k) * w (ix2 k q)) (c : Dev nD) (t : Fin cfg0.N) :
    (dat0 V c).flushed 2 t = ((cfg0.win 2).blk t).view.read (Elt Ideal) (Glin (a := 100000) (V c main_v6) (V c main_arg2)) := by
  show (cfg0.win 2).cut (grid0.coords t) ((dat0 V c).after 2 t) = _
  rw [after0_2]
  unfold out0_2
  rw [View.canon_unit_zero hz0]
  simp only [View.ld_unit_zero (S := S5000x64) hz0, View.ld_unit_zero (S := S64x64) hz0]
  obtain ⟨e0_0, e0_1, e1_0, e1_1, e2_0, e2_1⟩ := idx_facts0 t
  funext j
  refine (congrArg (k0_pay1 (F := Ideal) (iblk0 V c 0 t) (iblk0 V c 1 t)) (eq_ix2 (n0 := 5000) (n1 := 64) j)).trans ?_
  refine blk_pay0 hpay (V c main_v6) (V c main_arg2) _ _ (j 0) (j 1) (((cfg0.win 2).blk t).view.emb j) (fun k => ?_) (fun k => ?_)
  · unfold iblk0; rw [View.read_apply]
    show V c main_v6 _ = V c main_v6 _
    refine congrArg _ (funext fun a => Fin.ext ?_)
    match a with
    | ⟨0, _⟩ => show win0_0.index t (0 : Fin 2) * 5000 + 1 * (j 0).val = win0_2.index t (0 : Fin 2) * 5000 + 1 * (j 0).val; rw [e0_0, e2_0]
    | ⟨1, _⟩ => show win0_0.index t (1 : Fin 2) * 64 + 1 * k.val = k.val; rw [e0_1]; omega
  · unfold iblk0; rw [View.read_apply]
    show V c main_arg2 _ = V c main_arg2 _
    refine congrArg _ (funext fun a => Fin.ext ?_)
    match a with
    | ⟨0, _⟩ => show win0_1.index t (0 : Fin 2) * 64 + 1 * k.val = k.val; rw [e1_0]; omega
    | ⟨1, _⟩ => show win0_1.index t (1 : Fin 2) * 64 + 1 * (j 1).val = win0_2.index t (1 : Fin 2) * 64 + 1 * (j 1).val; rw [e1_1, e2_1]

/-- An index of the array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v39).slice (win0_2.rect t)).set ↔ _
  rw [View.set_slice_whole, Rect.mem_set_unit]
  exact Iff.rfl

/-- Every row of the array is in the block of the point `row / 5000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨e0_0, e0_1, e1_0, e1_1, e2_0, e2_1⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e2_0]; show (i 0).val / 5000 * 5000 ≤ (i 0).val ∧ (i 0).val < (i 0).val / 5000 * 5000 + 5000; omega
  | ⟨1, _⟩ => show win0_2.index t (1 : Fin 2) * 64 ≤ (i 1).val ∧ (i 1).val < win0_2.index t (1 : Fin 2) * 64 + 64; rw [e2_1]; omega

/-- The output array after the launch: that function of the arrays it was entered with. -/
theorem final0 (hpay : ∀ (xb : Vec Ideal S5000x64 .f32) (w : Vec Ideal S64x64 .f32) (p : Fin 5000) (q : Fin 64),
      k0_pay1 (F := Ideal) xb w (ix2 p q) = ∑ k : Fin 64, xb (ix2 p k) * w (ix2 k q)) (c : Dev nD) :
    (dat0 V c).arrAt 2 cfg0.N = Glin (a := 100000) (V c main_v6) (V c main_arg2) :=
  (dat0 V c).arrAt_eq_of_cover 2 _ (fun t _ => flushed0_eq V hpay c t) cover0

end Cert.KernelIdeal.Hand

end
-- ==== Proof.KI.Val1.lean ====
/- Launch 1's result as ONE function of the arrays it is entered with: the per-edge message: the edge's weight times (the projected source row + the product of the two gathered rows, projected). Each grid point writes back rows
   8000·t … 8000·t + 7999 of it, and the 125 blocks cover the array. -/
import proofs.«126583_j73280732004963_1_alg».proof.Proof.KI.R1
import proofs.«126583_j73280732004963_1_alg».proof.Proof.Val.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem ValueIdx
open Idealize.ShloMosaic.Pipeline (Dat)
open Cert.KernelIdeal Cert.KernelIdeal.Gen Cert.Val

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: a row-blocked window sits at block row `t`, the matrix at block (0, 0). -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-- A block's payload at (p, q) is the whole-array function at the array index `i` whose row the block's row `p` is. -/
theorem blk_pay1 (hpay : ∀ (z xs xd : Vec Ideal S8000x64 .f32) (W : Vec Ideal S64x64 .f32) (wc : Vec Ideal S8000x1 .f32) (p : Fin 8000) (q : Fin 64),
      k1_pay1 (F := Ideal) z xs xd W wc (ix2 p q) = wc (ix2 p (0 : Fin 1)) * (z (ix2 p q) + ∑ k : Fin 64, (xs (ix2 p k) * xd (ix2 p k)) * W (ix2 k q)))
    (X0 : (Sh 1000000 64).Idx → Elt Ideal .f32) (X1 : (Sh 1000000 64).Idx → Elt Ideal .f32) (X2 : (Sh 1000000 64).Idx → Elt Ideal .f32) (X3 : (Sh 1000000 1).Idx → Elt Ideal .f32) (X4 : (Sh 64 64).Idx → Elt Ideal .f32)
    (xb0 : Vec Ideal S8000x64 .f32) (xb1 : Vec Ideal S8000x64 .f32) (xb2 : Vec Ideal S8000x64 .f32) (xb3 : Vec Ideal S8000x1 .f32) (xb4 : Vec Ideal S64x64 .f32) (p : Fin 8000) (q : Fin 64) (i : (Sh 1000000 64).Idx)
    (h0 : xb0 (ix2 p q) = X0 i)
    (h1 : ∀ k : Fin 64, xb1 (ix2 p k) = X1 (ix2 (n0 := 1000000) (i 0) k))
    (h2 : ∀ k : Fin 64, xb2 (ix2 p k) = X2 (ix2 (n0 := 1000000) (i 0) k))
    (h3 : xb3 (ix2 p (0 : Fin 1)) = X3 (ix2 (n0 := 1000000) (i 0) (0 : Fin 1)))
    (h4 : ∀ k : Fin 64, xb4 (ix2 k q) = X4 (ix2 (n1 := 64) k (i 1))) :
    k1_pay1 (F := Ideal) xb0 xb1 xb2 xb4 xb3 (ix2 p q) = Gedge X0 X1 X2 X3 X4 i := by
  rw [hpay]; unfold Gedge
  simp only [h0, h1, h2, h3, h4]

/-- What point `t` writes back is block `t` of that function of the arrays the launch is entered with. -/
theorem flushed1_eq (hpay : ∀ (z xs xd : Vec Ideal S8000x64 .f32) (W : Vec Ideal S64x64 .f32) (wc : Vec Ideal S8000x1 .f32) (p : Fin 8000) (q : Fin 64),
      k1_pay1 (F := Ideal) z xs xd W wc (ix2 p q) = wc (ix2 p (0 : Fin 1)) * (z (ix2 p q) + ∑ k : Fin 64, (xs (ix2 p k) * xd (ix2 p k)) * W (ix2 k q))) (c : Dev nD) (t : Fin cfg1.N) :
    (dat1 V c).flushed 5 t = ((cfg1.win 5).blk t).view.read (Elt Ideal) (Gedge (a := 1000000) (V c main_v46) (V c main_v53) (V c main_v60) (V c main_v38) (V c main_arg3)) := by
  show (cfg1.win 5).cut (grid1.coords t) ((dat1 V c).after 5 t) = _
  rw [after1_5]
  unfold out1_5
  rw [View.canon_unit_zero hz1]
  simp only [View.ld_unit_zero (S := S8000x64) hz1, View.ld_unit_zero (S := S8000x1) hz1, View.ld_unit_zero (S := S64x64) hz1]
  obtain ⟨e0_0, e0_1, e1_0, e1_1, e2_0, e2_1, e3_0, e3_1, e4_0, e4_1, e5_0, e5_1⟩ := idx_facts1 t
  funext j
  refine (congrArg (k1_pay1 (F := Ideal) (iblk1 V c 0 t) (iblk1 V c 1 t) (iblk1 V c 2 t) (iblk1 V c 4 t) (iblk1 V c 3 t)) (eq_ix2 (n0 := 8000) (n1 := 64) j)).trans ?_
  refine blk_pay1 hpay (V c main_v46) (V c main_v53) (V c main_v60) (V c main_v38) (V c main_arg3) _ _ _ _ _ (j 0) (j 1) (((cfg1.win 5).blk t).view.emb j) ?_ (fun k => ?_) (fun k => ?_) ?_ (fun k => ?_)
  · unfold iblk1; rw [View.read_apply]
    show V c main_v46 _ = V c main_v46 _
    refine congrArg _ (funext fun a => Fin.ext ?_)
    match a with
    | ⟨0, _⟩ => show win1_0.index t (0 : Fin 2) * 8000 + 1 * (j 0).val = win1_5.index t (0 : Fin 2) * 8000 + 1 * (j 0).val; rw [e0_0, e5_0]
    | ⟨1, _⟩ => show win1_0.index t (1 : Fin 2) * 64 + 1 * (j 1).val = win1_5.index t (1 : Fin 2) * 64 + 1 * (j 1).val; rw [e0_1, e5_1]
  · unfold iblk1; rw [View.read_apply]
    show V c main_v53 _ = V c main_v53 _
    refine congrArg _ (funext fun a => Fin.ext ?_)
    match a with
    | ⟨0, _⟩ => show win1_1.index t (0 : Fin 2) * 8000 + 1 * (j 0).val = win1_5.index t (0 : Fin 2) * 8000 + 1 * (j 0).val; rw [e1_0, e5_0]
    | ⟨1, _⟩ => show win1_1.index t (1 : Fin 2) * 64 + 1 * k.val = k.val; rw [e1_1]; omega
  · unfold iblk1; rw [View.read_apply]
    show V c main_v60 _ = V c main_v60 _
    refine congrArg _ (funext fun a => Fin.ext ?_)
    match a with
    | ⟨0, _⟩ => show win1_2.index t (0 : Fin 2) * 8000 + 1 * (j 0).val = win1_5.index t (0 : Fin 2) * 8000 + 1 * (j 0).val; rw [e2_0, e5_0]
    | ⟨1, _⟩ => show win1_2.index t (1 : Fin 2) * 64 + 1 * k.val = k.val; rw [e2_1]; omega
  · unfold iblk1; rw [View.read_apply]
    show V c main_v38 _ = V c main_v38 _
    refine congrArg _ (funext fun a => Fin.ext ?_)
    match a with
    | ⟨0, _⟩ => show win1_3.index t (0 : Fin 2) * 8000 + 1 * (j 0).val = win1_5.index t (0 : Fin 2) * 8000 + 1 * (j 0).val; rw [e3_0, e5_0]
    | ⟨1, _⟩ => show win1_3.index t (1 : Fin 2) * 1 + 1 * (0 : Fin 1).val = (0 : Fin 1).val; rw [e3_1]; omega
  · unfold iblk1; rw [View.read_apply]
    show V c main_arg3 _ = V c main_arg3 _
    refine congrArg _ (funext fun a => Fin.ext ?_)
    match a with
    | ⟨0, _⟩ => show win1_4.index t (0 : Fin 2) * 64 + 1 * k.val = k.val; rw [e4_0]; omega
    | ⟨1, _⟩ => show win1_4.index t (1 : Fin 2) * 64 + 1 * (j 1).val = win1_5.index t (1 : Fin 2) * 64 + 1 * (j 1).val; rw [e4_1, e5_1]

/-- An index of the array is in point `t`'s block iff each coordinate is in the block's range on its axis. -/
theorem mem_blk1 (t : Fin cfg1.N) (i : S1000000x64.Idx) :
    i ∈ ((cfg1.win 5).blk t).view.set ↔ ∀ a : Fin 2, win1_5.index t a * S8000x64.size a ≤ (i a).val ∧ (i a).val < win1_5.index t a * S8000x64.size a + S8000x64.size a := by
  show i ∈ ((View.whole main_v61).slice (win1_5.rect t)).set ↔ _
  rw [View.set_slice_whole, Rect.mem_set_unit]
  exact Iff.rfl

/-- Every row of the array is in the block of the point `row / 8000`. -/
theorem cover1 (i : S1000000x64.Idx) : ∃ t : Fin cfg1.N, (cfg1.win 5).flush t = true ∧ i ∈ ((cfg1.win 5).blk t).view.set := by
  have hi0 : (i 0).val < 1000000 := (i 0).isLt
  have hi1 : (i 1).val < 64 := (i 1).isLt
  have hN : cfg1.N = 125 := N_1
  let t : Fin cfg1.N := ⟨(i 0).val / 8000, by rw [hN]; omega⟩
  obtain ⟨e0_0, e0_1, e1_0, e1_1, e2_0, e2_1, e3_0, e3_1, e4_0, e4_1, e5_0, e5_1⟩ := idx_facts1 t
  refine ⟨t, flush1_5 t, ?_⟩
  rw [mem_blk1]
  intro a
  match a with
  | ⟨0, _⟩ => show win1_5.index t (0 : Fin 2) * 8000 ≤ (i 0).val ∧ (i 0).val < win1_5.index t (0 : Fin 2) * 8000 + 8000; rw [e5_0]; show (i 0).val / 8000 * 8000 ≤ (i 0).val ∧ (i 0).val < (i 0).val / 8000 * 8000 + 8000; omega
  | ⟨1, _⟩ => show win1_5.index t (1 : Fin 2) * 64 ≤ (i 1).val ∧ (i 1).val < win1_5.index t (1 : Fin 2) * 64 + 64; rw [e5_1]; omega

/-- The output array after the launch: that function of the arrays it was entered with. -/
theorem final1 (hpay : ∀ (z xs xd : Vec Ideal S8000x64 .f32) (W : Vec Ideal S64x64 .f32) (wc : Vec Ideal S8000x1 .f32) (p : Fin 8000) (q : Fin 64),
      k1_pay1 (F := Ideal) z xs xd W wc (ix2 p q) = wc (ix2 p (0 : Fin 1)) * (z (ix2 p q) + ∑ k : Fin 64, (xs (ix2 p k) * xd (ix2 p k)) * W (ix2 k q))) (c : Dev nD) :
    (dat1 V c).arrAt 5 cfg1.N = Gedge (a := 1000000) (V c main_v46) (V c main_v53) (V c main_v60) (V c main_v38) (V c main_arg3) :=
  (dat1 V c).arrAt_eq_of_cover 5 _ (fun t _ => flushed1_eq V hpay c t) cover1

end Cert.KernelIdeal.Hand

end
-- ==== Proof.KI.Val2.lean ====
/- Launch 2's result as ONE function of the arrays it is entered with: the leaky rectifier of (the projected row + the aggregated messages). Each grid point writes back rows
   5000·t … 5000·t + 4999 of it, and the 10 blocks cover the array. -/
import proofs.«126583_j73280732004963_1_alg».proof.Proof.KI.R2
import proofs.«126583_j73280732004963_1_alg».proof.Proof.Val.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem ValueIdx
open Idealize.ShloMosaic.Pipeline (Dat)
open Cert.KernelIdeal Cert.KernelIdeal.Gen Cert.Val

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: a row-blocked window sits at block row `t`, the matrix at block (0, 0). -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0
    ∧ win2_3.index t (0 : Fin 2) = t.val
    ∧ win2_3.index t (1 : Fin 2) = 0 :=
  (by decide +kernel : ∀ t : Fin grid2.N, _)

/-- A block's payload at (p, q) is the whole-array function at the array index `i` whose row the block's row `p` is. -/
theorem blk_pay2 (hpay : ∀ (x : Vec Ideal S5000x64 .f32) (W : Vec Ideal S64x64 .f32) (zs : Vec Ideal S5000x64 .f32) (p : Fin 5000) (q : Fin 64),
      k2_pay1 (F := Ideal) x W zs (ix2 p q) = leaky ((∑ k : Fin 64, x (ix2 p k) * W (ix2 k q)) + zs (ix2 p q)))
    (X0 : (Sh 50000 64).Idx → Elt Ideal .f32) (X1 : (Sh 64 64).Idx → Elt Ideal .f32) (X2 : (Sh 50000 64).Idx → Elt Ideal .f32)
    (xb0 : Vec Ideal S5000x64 .f32) (xb1 : Vec Ideal S64x64 .f32) (xb2 : Vec Ideal S5000x64 .f32) (p : Fin 5000) (q : Fin 64) (i : (Sh 50000 64).Idx)
    (h0 : ∀ k : Fin 64, xb0 (ix2 p k) = X0 (ix2 (n0 := 50000) (i 0) k))
    (h1 : ∀ k : Fin 64, xb1 (ix2 k q) = X1 (ix2 (n1 := 64) k (i 1)))
    (h2 : xb2 (ix2 p q) = X2 i) :
    k2_pay1 (F := Ideal) xb0 xb1 xb2 (ix2 p q) = Gself X0 X1 X2 i := by
  rw [hpay]; unfold Gself
  simp only [h0, h1, h2]

/-- What point `t` writes back is block `t` of that function of the arrays the launch is entered with. -/
theorem flushed2_eq (hpay : ∀ (x : Vec Ideal S5000x64 .f32) (W : Vec Ideal S64x64 .f32) (zs : Vec Ideal S5000x64 .f32) (p : Fin 5000) (q : Fin 64),
      k2_pay1 (F := Ideal) x W zs (ix2 p q) = leaky ((∑ k : Fin 64, x (ix2 p k) * W (ix2 k q)) + zs (ix2 p q))) (c : Dev nD) (t : Fin cfg2.N) :
    (dat2 V c).flushed 3 t = ((cfg2.win 3).blk t).view.read (Elt Ideal) (Gself (a := 50000) (V c main_v13) (V c main_arg2) (V c main_v64)) := by
  show (cfg2.win 3).cut (grid2.coords t) ((dat2 V c).after 3 t) = _
  rw [after2_3]
  unfold out2_3
  rw [View.canon_unit_zero hz2]
  simp only [View.ld_unit_zero (S := S5000x64) hz2, View.ld_unit_zero (S := S64x64) hz2]
  obtain ⟨e0_0, e0_1, e1_0, e1_1, e2_0, e2_1, e3_0, e3_1⟩ := idx_facts2 t
  funext j
  refine (congrArg (k2_pay1 (F := Ideal) (iblk2 V c 0 t) (iblk2 V c 1 t) (iblk2 V c 2 t)) (eq_ix2 (n0 := 5000) (n1 := 64) j)).trans ?_
  refine blk_pay2 hpay (V c main_v13) (V c main_arg2) (V c main_v64) _ _ _ (j 0) (j 1) (((cfg2.win 3).blk t).view.emb j) (fun k => ?_) (fun k => ?_) ?_
  · unfold iblk2; rw [View.read_apply]
    show V c main_v13 _ = V c main_v13 _
    refine congrArg _ (funext fun a => Fin.ext ?_)
    match a with
    | ⟨0, _⟩ => show win2_0.index t (0 : Fin 2) * 5000 + 1 * (j 0).val = win2_3.index t (0 : Fin 2) * 5000 + 1 * (j 0).val; rw [e0_0, e3_0]
    | ⟨1, _⟩ => show win2_0.index t (1 : Fin 2) * 64 + 1 * k.val = k.val; rw [e0_1]; omega
  · unfold iblk2; rw [View.read_apply]
    show V c main_arg2 _ = V c main_arg2 _
    refine congrArg _ (funext fun a => Fin.ext ?_)
    match a with
    | ⟨0, _⟩ => show win2_1.index t (0 : Fin 2) * 64 + 1 * k.val = k.val; rw [e1_0]; omega
    | ⟨1, _⟩ => show win2_1.index t (1 : Fin 2) * 64 + 1 * (j 1).val = win2_3.index t (1 : Fin 2) * 64 + 1 * (j 1).val; rw [e1_1, e3_1]
  · unfold iblk2; rw [View.read_apply]
    show V c main_v64 _ = V c main_v64 _
    refine congrArg _ (funext fun a => Fin.ext ?_)
    match a with
    | ⟨0, _⟩ => show win2_2.index t (0 : Fin 2) * 5000 + 1 * (j 0).val = win2_3.index t (0 : Fin 2) * 5000 + 1 * (j 0).val; rw [e2_0, e3_0]
    | ⟨1, _⟩ => show win2_2.index t (1 : Fin 2) * 64 + 1 * (j 1).val = win2_3.index t (1 : Fin 2) * 64 + 1 * (j 1).val; rw [e2_1, e3_1]

/-- An index of the array is in point `t`'s block iff each coordinate is in the block's range on its axis. -/
theorem mem_blk2 (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v65).slice (win2_3.rect t)).set ↔ _
  rw [View.set_slice_whole, Rect.mem_set_unit]
  exact Iff.rfl

/-- Every row of the array is in the block of the point `row / 5000`. -/
theorem cover2 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨e0_0, e0_1, e1_0, e1_1, e2_0, e2_1, e3_0, e3_1⟩ := idx_facts2 t
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; rw [e3_0]; show (i 0).val / 5000 * 5000 ≤ (i 0).val ∧ (i 0).val < (i 0).val / 5000 * 5000 + 5000; omega
  | ⟨1, _⟩ => show win2_3.index t (1 : Fin 2) * 64 ≤ (i 1).val ∧ (i 1).val < win2_3.index t (1 : Fin 2) * 64 + 64; rw [e3_1]; omega

/-- The output array after the launch: that function of the arrays it was entered with. -/
theorem final2 (hpay : ∀ (x : Vec Ideal S5000x64 .f32) (W : Vec Ideal S64x64 .f32) (zs : Vec Ideal S5000x64 .f32) (p : Fin 5000) (q : Fin 64),
      k2_pay1 (F := Ideal) x W zs (ix2 p q) = leaky ((∑ k : Fin 64, x (ix2 p k) * W (ix2 k q)) + zs (ix2 p q))) (c : Dev nD) :
    (dat2 V c).arrAt 3 cfg2.N = Gself (a := 50000) (V c main_v13) (V c main_arg2) (V c main_v64) :=
  (dat2 V c).arrAt_eq_of_cover 3 _ (fun t _ => flushed2_eq V hpay c t) cover2

end Cert.KernelIdeal.Hand

end
-- ==== Proof.KI.Val3.lean ====
/- Launch 3's result as ONE function of the arrays it is entered with: the product of the row-blocked operand with the [64,64] matrix. Each grid point writes back rows
   5000·t … 5000·t + 4999 of it, and the 10 blocks cover the array. -/
import proofs.«126583_j73280732004963_1_alg».proof.Proof.KI.R3
import proofs.«126583_j73280732004963_1_alg».proof.Proof.Val.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem ValueIdx
open Idealize.ShloMosaic.Pipeline (Dat)
open Cert.KernelIdeal Cert.KernelIdeal.Gen Cert.Val

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: a row-blocked window sits at block row `t`, the matrix at block (0, 0). -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- A block's payload at (p, q) is the whole-array function at the array index `i` whose row the block's row `p` is. -/
theorem blk_pay3 (hpay : ∀ (xb : Vec Ideal S5000x64 .f32) (w : Vec Ideal S64x64 .f32) (p : Fin 5000) (q : Fin 64),
      k3_pay1 (F := Ideal) xb w (ix2 p q) = ∑ k : Fin 64, xb (ix2 p k) * w (ix2 k q))
    (X0 : (Sh 50000 64).Idx → Elt Ideal .f32) (X1 : (Sh 64 64).Idx → Elt Ideal .f32)
    (xb0 : Vec Ideal S5000x64 .f32) (xb1 : Vec Ideal S64x64 .f32) (p : Fin 5000) (q : Fin 64) (i : (Sh 50000 64).Idx)
    (h0 : ∀ k : Fin 64, xb0 (ix2 p k) = X0 (ix2 (n0 := 50000) (i 0) k))
    (h1 : ∀ k : Fin 64, xb1 (ix2 k q) = X1 (ix2 (n1 := 64) k (i 1))) :
    k3_pay1 (F := Ideal) xb0 xb1 (ix2 p q) = Glin X0 X1 i := by
  rw [hpay]; unfold Glin
  simp only [h0, h1]

/-- What point `t` writes back is block `t` of that function of the arrays the launch is entered with. -/
theorem flushed3_eq (hpay : ∀ (xb : Vec Ideal S5000x64 .f32) (w : Vec Ideal S64x64 .f32) (p : Fin 5000) (q : Fin 64),
      k3_pay1 (F := Ideal) xb w (ix2 p q) = ∑ k : Fin 64, xb (ix2 p k) * w (ix2 k q)) (c : Dev nD) (t : Fin cfg3.N) :
    (dat3 V c).flushed 2 t = ((cfg3.win 2).blk t).view.read (Elt Ideal) (Glin (a := 50000) (V c main_v13) (V c main_arg4)) := by
  show (cfg3.win 2).cut (grid3.coords t) ((dat3 V c).after 2 t) = _
  rw [after3_2]
  unfold out3_2
  rw [View.canon_unit_zero hz3]
  simp only [View.ld_unit_zero (S := S5000x64) hz3, View.ld_unit_zero (S := S64x64) hz3]
  obtain ⟨e0_0, e0_1, e1_0, e1_1, e2_0, e2_1⟩ := idx_facts3 t
  funext j
  refine (congrArg (k3_pay1 (F := Ideal) (iblk3 V c 0 t) (iblk3 V c 1 t)) (eq_ix2 (n0 := 5000) (n1 := 64) j)).trans ?_
  refine blk_pay3 hpay (V c main_v13) (V c main_arg4) _ _ (j 0) (j 1) (((cfg3.win 2).blk t).view.emb j) (fun k => ?_) (fun k => ?_)
  · unfold iblk3; rw [View.read_apply]
    show V c main_v13 _ = V c main_v13 _
    refine congrArg _ (funext fun a => Fin.ext ?_)
    match a with
    | ⟨0, _⟩ => show win3_0.index t (0 : Fin 2) * 5000 + 1 * (j 0).val = win3_2.index t (0 : Fin 2) * 5000 + 1 * (j 0).val; rw [e0_0, e2_0]
    | ⟨1, _⟩ => show win3_0.index t (1 : Fin 2) * 64 + 1 * k.val = k.val; rw [e0_1]; omega
  · unfold iblk3; rw [View.read_apply]
    show V c main_arg4 _ = V c main_arg4 _
    refine congrArg _ (funext fun a => Fin.ext ?_)
    match a with
    | ⟨0, _⟩ => show win3_1.index t (0 : Fin 2) * 64 + 1 * k.val = k.val; rw [e1_0]; omega
    | ⟨1, _⟩ => show win3_1.index t (1 : Fin 2) * 64 + 1 * (j 1).val = win3_2.index t (1 : Fin 2) * 64 + 1 * (j 1).val; rw [e1_1, e2_1]

/-- An index of the array is in point `t`'s block iff each coordinate is in the block's range on its axis. -/
theorem mem_blk3 (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v66).slice (win3_2.rect t)).set ↔ _
  rw [View.set_slice_whole, Rect.mem_set_unit]
  exact Iff.rfl

/-- Every row of the array is in the block of the point `row / 5000`. -/
theorem cover3 (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 10 := N_3
  let t : Fin cfg3.N := ⟨(i 0).val / 5000, by rw [hN]; omega⟩
  obtain ⟨e0_0, e0_1, e1_0, e1_1, e2_0, e2_1⟩ := idx_facts3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; rw [e2_0]; show (i 0).val / 5000 * 5000 ≤ (i 0).val ∧ (i 0).val < (i 0).val / 5000 * 5000 + 5000; omega
  | ⟨1, _⟩ => show win3_2.index t (1 : Fin 2) * 64 ≤ (i 1).val ∧ (i 1).val < win3_2.index t (1 : Fin 2) * 64 + 64; rw [e2_1]; omega

/-- The output array after the launch: that function of the arrays it was entered with. -/
theorem final3 (hpay : ∀ (xb : Vec Ideal S5000x64 .f32) (w : Vec Ideal S64x64 .f32) (p : Fin 5000) (q : Fin 64),
      k3_pay1 (F := Ideal) xb w (ix2 p q) = ∑ k : Fin 64, xb (ix2 p k) * w (ix2 k q)) (c : Dev nD) :
    (dat3 V c).arrAt 2 cfg3.N = Glin (a := 50000) (V c main_v13) (V c main_arg4) :=
  (dat3 V c).arrAt_eq_of_cover 2 _ (fun t _ => flushed3_eq V hpay c t) cover3

end Cert.KernelIdeal.Hand

end
-- ==== Proof.KI.Val4.lean ====
/- Launch 4's result as ONE function of the arrays it is entered with: the per-edge message: the edge's weight times (the projected source row + the product of the two gathered rows, projected). Each grid point writes back rows
   8000·t … 8000·t + 7999 of it, and the 125 blocks cover the array. -/
import proofs.«126583_j73280732004963_1_alg».proof.Proof.KI.R4
import proofs.«126583_j73280732004963_1_alg».proof.Proof.Val.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem ValueIdx
open Idealize.ShloMosaic.Pipeline (Dat)
open Cert.KernelIdeal Cert.KernelIdeal.Gen Cert.Val

variable (V : (c : Dev nD) → (b : Ref sig .tc) → Buf (Elt Ideal) ((c : Thread nD τ).loc b))

theorem hz4 : (![0, 0] : Fin 2 → Nat) = fun _ => 0 := funext fun a => by fin_cases a <;> rfl

/-- The printed index maps over the grid: a row-blocked window sits at block row `t`, the matrix at block (0, 0). -/
theorem idx_facts4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 2) = t.val
    ∧ win4_3.index t (1 : Fin 2) = 0
    ∧ win4_4.index t (0 : Fin 2) = 0
    ∧ win4_4.index t (1 : Fin 2) = 0
    ∧ win4_5.index t (0 : Fin 2) = t.val
    ∧ win4_5.index t (1 : Fin 2) = 0 :=
  (by decide +kernel : ∀ t : Fin grid4.N, _)

/-- A block's payload at (p, q) is the whole-array function at the array index `i` whose row the block's row `p` is. -/
theorem blk_pay4 (hpay : ∀ (z xs xd : Vec Ideal S8000x64 .f32) (W : Vec Ideal S64x64 .f32) (wc : Vec Ideal S8000x1 .f32) (p : Fin 8000) (q : Fin 64),
      k4_pay1 (F := Ideal) z xs xd W wc (ix2 p q) = wc (ix2 p (0 : Fin 1)) * (z (ix2 p q) + ∑ k : Fin 64, (xs (ix2 p k) * xd (ix2 p k)) * W (ix2 k q)))
    (X0 : (Sh 1000000 64).Idx → Elt Ideal .f32) (X1 : (Sh 1000000 64).Idx → Elt Ideal .f32) (X2 : (Sh 1000000 64).Idx → Elt Ideal .f32) (X3 : (Sh 1000000 1).Idx → Elt Ideal .f32) (X4 : (Sh 64 64).Idx → Elt Ideal .f32)
    (xb0 : Vec Ideal S8000x64 .f32) (xb1 : Vec Ideal S8000x64 .f32) (xb2 : Vec Ideal S8000x64 .f32) (xb3 : Vec Ideal S8000x1 .f32) (xb4 : Vec Ideal S64x64 .f32) (p : Fin 8000) (q : Fin 64) (i : (Sh 1000000 64).Idx)
    (h0 : xb0 (ix2 p q) = X0 i)
    (h1 : ∀ k : Fin 64, xb1 (ix2 p k) = X1 (ix2 (n0 := 1000000) (i 0) k))
    (h2 : ∀ k : Fin 64, xb2 (ix2 p k) = X2 (ix2 (n0 := 1000000) (i 0) k))
    (h3 : xb3 (ix2 p (0 : Fin 1)) = X3 (ix2 (n0 := 1000000) (i 0) (0 : Fin 1)))
    (h4 : ∀ k : Fin 64, xb4 (ix2 k q) = X4 (ix2 (n1 := 64) k (i 1))) :
    k4_pay1 (F := Ideal) xb0 xb1 xb2 xb4 xb3 (ix2 p q) = Gedge X0 X1 X2 X3 X4 i := by
  rw [hpay]; unfold Gedge
  simp only [h0, h1, h2, h3, h4]

/-- What point `t` writes back is block `t` of that function of the arrays the launch is entered with. -/
theorem flushed4_eq (hpay : ∀ (z xs xd : Vec Ideal S8000x64 .f32) (W : Vec Ideal S64x64 .f32) (wc : Vec Ideal S8000x1 .f32) (p : Fin 8000) (q : Fin 64),
      k4_pay1 (F := Ideal) z xs xd W wc (ix2 p q) = wc (ix2 p (0 : Fin 1)) * (z (ix2 p q) + ∑ k : Fin 64, (xs (ix2 p k) * xd (ix2 p k)) * W (ix2 k q))) (c : Dev nD) (t : Fin cfg4.N) :
    (dat4 V c).flushed 5 t = ((cfg4.win 5).blk t).view.read (Elt Ideal) (Gedge (a := 1000000) (V c main_v73) (V c main_v80) (V c main_v87) (V c main_v38) (V c main_arg5)) := by
  show (cfg4.win 5).cut (grid4.coords t) ((dat4 V c).after 5 t) = _
  rw [after4_5]
  unfold out4_5
  rw [View.canon_unit_zero hz4]
  simp only [View.ld_unit_zero (S := S8000x64) hz4, View.ld_unit_zero (S := S8000x1) hz4, View.ld_unit_zero (S := S64x64) hz4]
  obtain ⟨e0_0, e0_1, e1_0, e1_1, e2_0, e2_1, e3_0, e3_1, e4_0, e4_1, e5_0, e5_1⟩ := idx_facts4 t
  funext j
  refine (congrArg (k4_pay1 (F := Ideal) (iblk4 V c 0 t) (iblk4 V c 1 t) (iblk4 V c 2 t) (iblk4 V c 4 t) (iblk4 V c 3 t)) (eq_ix2 (n0 := 8000) (n1 := 64) j)).trans ?_
  refine blk_pay4 hpay (V c main_v73) (V c main_v80) (V c main_v87) (V c main_v38) (V c main_arg5) _ _ _ _ _ (j 0) (j 1) (((cfg4.win 5).blk t).view.emb j) ?_ (fun k => ?_) (fun k => ?_) ?_ (fun k => ?_)
  · unfold iblk4; rw [View.read_apply]
    show V c main_v73 _ = V c main_v73 _
    refine congrArg _ (funext fun a => Fin.ext ?_)
    match a with
    | ⟨0, _⟩ => show win4_0.index t (0 : Fin 2) * 8000 + 1 * (j 0).val = win4_5.index t (0 : Fin 2) * 8000 + 1 * (j 0).val; rw [e0_0, e5_0]
    | ⟨1, _⟩ => show win4_0.index t (1 : Fin 2) * 64 + 1 * (j 1).val = win4_5.index t (1 : Fin 2) * 64 + 1 * (j 1).val; rw [e0_1, e5_1]
  · unfold iblk4; rw [View.read_apply]
    show V c main_v80 _ = V c main_v80 _
    refine congrArg _ (funext fun a => Fin.ext ?_)
    match a with
    | ⟨0, _⟩ => show win4_1.index t (0 : Fin 2) * 8000 + 1 * (j 0).val = win4_5.index t (0 : Fin 2) * 8000 + 1 * (j 0).val; rw [e1_0, e5_0]
    | ⟨1, _⟩ => show win4_1.index t (1 : Fin 2) * 64 + 1 * k.val = k.val; rw [e1_1]; omega
  · unfold iblk4; rw [View.read_apply]
    show V c main_v87 _ = V c main_v87 _
    refine congrArg _ (funext fun a => Fin.ext ?_)
    match a with
    | ⟨0, _⟩ => show win4_2.index t (0 : Fin 2) * 8000 + 1 * (j 0).val = win4_5.index t (0 : Fin 2) * 8000 + 1 * (j 0).val; rw [e2_0, e5_0]
    | ⟨1, _⟩ => show win4_2.index t (1 : Fin 2) * 64 + 1 * k.val = k.val; rw [e2_1]; omega
  · unfold iblk4; rw [View.read_apply]
    show V c main_v38 _ = V c main_v38 _
    refine congrArg _ (funext fun a => Fin.ext ?_)
    match a with
    | ⟨0, _⟩ => show win4_3.index t (0 : Fin 2) * 8000 + 1 * (j 0).val = win4_5.index t (0 : Fin 2) * 8000 + 1 * (j 0).val; rw [e3_0, e5_0]
    | ⟨1, _⟩ => show win4_3.index t (1 : Fin 2) * 1 + 1 * (0 : Fin 1).val = (0 : Fin 1).val; rw [e3_1]; omega
  · unfold iblk4; rw [View.read_apply]
    show V c main_arg5 _ = V c main_arg5 _
    refine congrArg _ (funext fun a => Fin.ext ?_)
    match a with
    | ⟨0, _⟩ => show win4_4.index t (0 : Fin 2) * 64 + 1 * k.val = k.val; rw [e4_0]; omega
    | ⟨1, _⟩ => show win4_4.index t (1 : Fin 2) * 64 + 1 * (j 1).val = win4_5.index t (1 : Fin 2) * 64 + 1 * (j 1).val; rw [e4_1, e5_1]

/-- An index of the array is in point `t`'s block iff each coordinate is in the block's range on its axis. -/
theorem mem_blk4 (t : Fin cfg4.N) (i : S1000000x64.Idx) :
    i ∈ ((cfg4.win 5).blk t).view.set ↔ ∀ a : Fin 2, win4_5.index t a * S8000x64.size a ≤ (i a).val ∧ (i a).val < win4_5.index t a * S8000x64.size a + S8000x64.size a := by
  show i ∈ ((View.whole main_v88).slice (win4_5.rect t)).set ↔ _
  rw [View.set_slice_whole, Rect.mem_set_unit]
  exact Iff.rfl

/-- Every row of the array is in the block of the point `row / 8000`. -/
theorem cover4 (i : S1000000x64.Idx) : ∃ t : Fin cfg4.N, (cfg4.win 5).flush t = true ∧ i ∈ ((cfg4.win 5).blk t).view.set := by
  have hi0 : (i 0).val < 1000000 := (i 0).isLt
  have hi1 : (i 1).val < 64 := (i 1).isLt
  have hN : cfg4.N = 125 := N_4
  let t : Fin cfg4.N := ⟨(i 0).val / 8000, by rw [hN]; omega⟩
  obtain ⟨e0_0, e0_1, e1_0, e1_1, e2_0, e2_1, e3_0, e3_1, e4_0, e4_1, e5_0, e5_1⟩ := idx_facts4 t
  refine ⟨t, flush4_5 t, ?_⟩
  rw [mem_blk4]
  intro a
  match a with
  | ⟨0, _⟩ => show win4_5.index t (0 : Fin 2) * 8000 ≤ (i 0).val ∧ (i 0).val < win4_5.index t (0 : Fin 2) * 8000 + 8000; rw [e5_0]; show (i 0).val / 8000 * 8000 ≤ (i 0).val ∧ (i 0).val < (i 0).val / 8000 * 8000 + 8000; omega
  | ⟨1, _⟩ => show win4_5.index t (1 : Fin 2) * 64 ≤ (i 1).val ∧ (i 1).val < win4_5.index t (1 : Fin 2) * 64 + 64; rw [e5_1]; omega

/-- The output array after the launch: that function of the arrays it was entered with. -/
theorem final4 (hpay : ∀ (z xs xd : Vec Ideal S8000x64 .f32) (W : Vec Ideal S64x64 .f32) (wc : Vec Ideal S8000x1 .f32) (p : Fin 8000) (q : Fin 64),
      k4_pay1 (F := Ideal) z xs xd W wc (ix2 p q) = wc (ix2 p (0 : Fin 1)) * (z (ix2 p q) + ∑ k : Fin 64, (xs (ix2 p k) * xd (ix2 p k)) * W (ix2 k q))) (c : Dev nD) :
    (dat4 V c).arrAt 5 cfg4.N = Gedge (a := 1000000) (V c main_v73) (V c main_v80) (V c main_v87) (V c main_v38) (V c main_arg5) :=
  (dat4 V c).arrAt_eq_of_cover 5 _ (fun t _ => flushed4_eq V hpay c t) cover4

end Cert.KernelIdeal.Hand

end
-- ==== Proof.KI.Val5.lean ====
/- Launch 5's result as ONE function of the arrays it is entered with: the leaky rectifier of (the projected row + the aggregated messages). Each grid point writes back rows
   5000·t … 5000·t + 4999 of it, and the 20 blocks cover the array. -/
import proofs.«126583_j73280732004963_1_alg».proof.Proof.KI.R5
import proofs.«126583_j73280732004963_1_alg».proof.Proof.Val.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem ValueIdx
open Idealize.ShloMosaic.Pipeline (Dat)
open Cert.KernelIdeal Cert.KernelIdeal.Gen Cert.Val

variable (V : (c : Dev nD) → (b : Ref sig .tc) → Buf (Elt Ideal) ((c : Thread nD τ).loc b))

theorem hz5 : (![0, 0] : Fin 2 → Nat) = fun _ => 0 := funext fun a => by fin_cases a <;> rfl

/-- The printed index maps over the grid: a row-blocked window sits at block row `t`, the matrix at block (0, 0). -/
theorem idx_facts5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0
    ∧ win5_3.index t (0 : Fin 2) = t.val
    ∧ win5_3.index t (1 : Fin 2) = 0 :=
  (by decide +kernel : ∀ t : Fin grid5.N, _)

/-- A block's payload at (p, q) is the whole-array function at the array index `i` whose row the block's row `p` is. -/
theorem blk_pay5 (hpay : ∀ (x : Vec Ideal S5000x64 .f32) (W : Vec Ideal S64x64 .f32) (zs : Vec Ideal S5000x64 .f32) (p : Fin 5000) (q : Fin 64),
      k5_pay1 (F := Ideal) x W zs (ix2 p q) = leaky ((∑ k : Fin 64, x (ix2 p k) * W (ix2 k q)) + zs (ix2 p q)))
    (X0 : (Sh 100000 64).Idx → Elt Ideal .f32) (X1 : (Sh 64 64).Idx → Elt Ideal .f32) (X2 : (Sh 100000 64).Idx → Elt Ideal .f32)
    (xb0 : Vec Ideal S5000x64 .f32) (xb1 : Vec Ideal S64x64 .f32) (xb2 : Vec Ideal S5000x64 .f32) (p : Fin 5000) (q : Fin 64) (i : (Sh 100000 64).Idx)
    (h0 : ∀ k : Fin 64, xb0 (ix2 p k) = X0 (ix2 (n0 := 100000) (i 0) k))
    (h1 : ∀ k : Fin 64, xb1 (ix2 k q) = X1 (ix2 (n1 := 64) k (i 1)))
    (h2 : xb2 (ix2 p q) = X2 i) :
    k5_pay1 (F := Ideal) xb0 xb1 xb2 (ix2 p q) = Gself X0 X1 X2 i := by
  rw [hpay]; unfold Gself
  simp only [h0, h1, h2]

/-- What point `t` writes back is block `t` of that function of the arrays the launch is entered with. -/
theorem flushed5_eq (hpay : ∀ (x : Vec Ideal S5000x64 .f32) (W : Vec Ideal S64x64 .f32) (zs : Vec Ideal S5000x64 .f32) (p : Fin 5000) (q : Fin 64),
      k5_pay1 (F := Ideal) x W zs (ix2 p q) = leaky ((∑ k : Fin 64, x (ix2 p k) * W (ix2 k q)) + zs (ix2 p q))) (c : Dev nD) (t : Fin cfg5.N) :
    (dat5 V c).flushed 3 t = ((cfg5.win 3).blk t).view.read (Elt Ideal) (Gself (a := 100000) (V c main_v6) (V c main_arg4) (V c main_v91)) := by
  show (cfg5.win 3).cut (grid5.coords t) ((dat5 V c).after 3 t) = _
  rw [after5_3]
  unfold out5_3
  rw [View.canon_unit_zero hz5]
  simp only [View.ld_unit_zero (S := S5000x64) hz5, View.ld_unit_zero (S := S64x64) hz5]
  obtain ⟨e0_0, e0_1, e1_0, e1_1, e2_0, e2_1, e3_0, e3_1⟩ := idx_facts5 t
  funext j
  refine (congrArg (k5_pay1 (F := Ideal) (iblk5 V c 0 t) (iblk5 V c 1 t) (iblk5 V c 2 t)) (eq_ix2 (n0 := 5000) (n1 := 64) j)).trans ?_
  refine blk_pay5 hpay (V c main_v6) (V c main_arg4) (V c main_v91) _ _ _ (j 0) (j 1) (((cfg5.win 3).blk t).view.emb j) (fun k => ?_) (fun k => ?_) ?_
  · unfold iblk5; rw [View.read_apply]
    show V c main_v6 _ = V c main_v6 _
    refine congrArg _ (funext fun a => Fin.ext ?_)
    match a with
    | ⟨0, _⟩ => show win5_0.index t (0 : Fin 2) * 5000 + 1 * (j 0).val = win5_3.index t (0 : Fin 2) * 5000 + 1 * (j 0).val; rw [e0_0, e3_0]
    | ⟨1, _⟩ => show win5_0.index t (1 : Fin 2) * 64 + 1 * k.val = k.val; rw [e0_1]; omega
  · unfold iblk5; rw [View.read_apply]
    show V c main_arg4 _ = V c main_arg4 _
    refine congrArg _ (funext fun a => Fin.ext ?_)
    match a with
    | ⟨0, _⟩ => show win5_1.index t (0 : Fin 2) * 64 + 1 * k.val = k.val; rw [e1_0]; omega
    | ⟨1, _⟩ => show win5_1.index t (1 : Fin 2) * 64 + 1 * (j 1).val = win5_3.index t (1 : Fin 2) * 64 + 1 * (j 1).val; rw [e1_1, e3_1]
  · unfold iblk5; rw [View.read_apply]
    show V c main_v91 _ = V c main_v91 _
    refine congrArg _ (funext fun a => Fin.ext ?_)
    match a with
    | ⟨0, _⟩ => show win5_2.index t (0 : Fin 2) * 5000 + 1 * (j 0).val = win5_3.index t (0 : Fin 2) * 5000 + 1 * (j 0).val; rw [e2_0, e3_0]
    | ⟨1, _⟩ => show win5_2.index t (1 : Fin 2) * 64 + 1 * (j 1).val = win5_3.index t (1 : Fin 2) * 64 + 1 * (j 1).val; rw [e2_1, e3_1]

/-- An index of the array is in point `t`'s block iff each coordinate is in the block's range on its axis. -/
theorem mem_blk5 (t : Fin cfg5.N) (i : S100000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v92).slice (win5_3.rect t)).set ↔ _
  rw [View.set_slice_whole, Rect.mem_set_unit]
  exact Iff.rfl

/-- Every row of the array is in the block of the point `row / 5000`. -/
theorem cover5 (i : S100000x64.Idx) : ∃ t : Fin cfg5.N, (cfg5.win 3).flush t = true ∧ i ∈ ((cfg5.win 3).blk t).view.set := by
  have hi0 : (i 0).val < 100000 := (i 0).isLt
  have hi1 : (i 1).val < 64 := (i 1).isLt
  have hN : cfg5.N = 20 := N_5
  let t : Fin cfg5.N := ⟨(i 0).val / 5000, by rw [hN]; omega⟩
  obtain ⟨e0_0, e0_1, e1_0, e1_1, e2_0, e2_1, e3_0, e3_1⟩ := idx_facts5 t
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; rw [e3_0]; show (i 0).val / 5000 * 5000 ≤ (i 0).val ∧ (i 0).val < (i 0).val / 5000 * 5000 + 5000; omega
  | ⟨1, _⟩ => show win5_3.index t (1 : Fin 2) * 64 ≤ (i 1).val ∧ (i 1).val < win5_3.index t (1 : Fin 2) * 64 + 64; rw [e3_1]; omega

/-- The output array after the launch: that function of the arrays it was entered with. -/
theorem final5 (hpay : ∀ (x : Vec Ideal S5000x64 .f32) (W : Vec Ideal S64x64 .f32) (zs : Vec Ideal S5000x64 .f32) (p : Fin 5000) (q : Fin 64),
      k5_pay1 (F := Ideal) x W zs (ix2 p q) = leaky ((∑ k : Fin 64, x (ix2 p k) * W (ix2 k q)) + zs (ix2 p q))) (c : Dev nD) :
    (dat5 V c).arrAt 3 cfg5.N = Gself (a := 100000) (V c main_v6) (V c main_arg4) (V c main_v91) :=
  (dat5 V c).arrAt_eq_of_cover 3 _ (fun t _ => flushed5_eq V hpay c t) cover5

end Cert.KernelIdeal.Hand

end
-- ==== Proof.KI.Val6.lean ====
/- Launch 6's result as ONE function of the arrays it is entered with: the product of the row-blocked operand with the [64,64] matrix. Each grid point writes back rows
   5000·t … 5000·t + 4999 of it, and the 20 blocks cover the array. -/
import proofs.«126583_j73280732004963_1_alg».proof.Proof.KI.R6
import proofs.«126583_j73280732004963_1_alg».proof.Proof.Val.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem ValueIdx
open Idealize.ShloMosaic.Pipeline (Dat)
open Cert.KernelIdeal Cert.KernelIdeal.Gen Cert.Val

variable (V : (c : Dev nD) → (b : Ref sig .tc) → Buf (Elt Ideal) ((c : Thread nD τ).loc b))

theorem hz6 : (![0, 0] : Fin 2 → Nat) = fun _ => 0 := funext fun a => by fin_cases a <;> rfl

/-- The printed index maps over the grid: a row-blocked window sits at block row `t`, the matrix at block (0, 0). -/
theorem idx_facts6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- A block's payload at (p, q) is the whole-array function at the array index `i` whose row the block's row `p` is. -/
theorem blk_pay6 (hpay : ∀ (xb : Vec Ideal S5000x64 .f32) (w : Vec Ideal S64x64 .f32) (p : Fin 5000) (q : Fin 64),
      k6_pay1 (F := Ideal) xb w (ix2 p q) = ∑ k : Fin 64, xb (ix2 p k) * w (ix2 k q))
    (X0 : (Sh 100000 64).Idx → Elt Ideal .f32) (X1 : (Sh 64 64).Idx → Elt Ideal .f32)
    (xb0 : Vec Ideal S5000x64 .f32) (xb1 : Vec Ideal S64x64 .f32) (p : Fin 5000) (q : Fin 64) (i : (Sh 100000 64).Idx)
    (h0 : ∀ k : Fin 64, xb0 (ix2 p k) = X0 (ix2 (n0 := 100000) (i 0) k))
    (h1 : ∀ k : Fin 64, xb1 (ix2 k q) = X1 (ix2 (n1 := 64) k (i 1))) :
    k6_pay1 (F := Ideal) xb0 xb1 (ix2 p q) = Glin X0 X1 i := by
  rw [hpay]; unfold Glin
  simp only [h0, h1]

/-- What point `t` writes back is block `t` of that function of the arrays the launch is entered with. -/
theorem flushed6_eq (hpay : ∀ (xb : Vec Ideal S5000x64 .f32) (w : Vec Ideal S64x64 .f32) (p : Fin 5000) (q : Fin 64),
      k6_pay1 (F := Ideal) xb w (ix2 p q) = ∑ k : Fin 64, xb (ix2 p k) * w (ix2 k q)) (c : Dev nD) (t : Fin cfg6.N) :
    (dat6 V c).flushed 2 t = ((cfg6.win 2).blk t).view.read (Elt Ideal) (Glin (a := 100000) (V c main_v92) (V c main_arg6)) := by
  show (cfg6.win 2).cut (grid6.coords t) ((dat6 V c).after 2 t) = _
  rw [after6_2]
  unfold out6_2
  rw [View.canon_unit_zero hz6]
  simp only [View.ld_unit_zero (S := S5000x64) hz6, View.ld_unit_zero (S := S64x64) hz6]
  obtain ⟨e0_0, e0_1, e1_0, e1_1, e2_0, e2_1⟩ := idx_facts6 t
  funext j
  refine (congrArg (k6_pay1 (F := Ideal) (iblk6 V c 0 t) (iblk6 V c 1 t)) (eq_ix2 (n0 := 5000) (n1 := 64) j)).trans ?_
  refine blk_pay6 hpay (V c main_v92) (V c main_arg6) _ _ (j 0) (j 1) (((cfg6.win 2).blk t).view.emb j) (fun k => ?_) (fun k => ?_)
  · unfold iblk6; rw [View.read_apply]
    show V c main_v92 _ = V c main_v92 _
    refine congrArg _ (funext fun a => Fin.ext ?_)
    match a with
    | ⟨0, _⟩ => show win6_0.index t (0 : Fin 2) * 5000 + 1 * (j 0).val = win6_2.index t (0 : Fin 2) * 5000 + 1 * (j 0).val; rw [e0_0, e2_0]
    | ⟨1, _⟩ => show win6_0.index t (1 : Fin 2) * 64 + 1 * k.val = k.val; rw [e0_1]; omega
  · unfold iblk6; rw [View.read_apply]
    show V c main_arg6 _ = V c main_arg6 _
    refine congrArg _ (funext fun a => Fin.ext ?_)
    match a with
    | ⟨0, _⟩ => show win6_1.index t (0 : Fin 2) * 64 + 1 * k.val = k.val; rw [e1_0]; omega
    | ⟨1, _⟩ => show win6_1.index t (1 : Fin 2) * 64 + 1 * (j 1).val = win6_2.index t (1 : Fin 2) * 64 + 1 * (j 1).val; rw [e1_1, e2_1]

/-- An index of the array is in point `t`'s block iff each coordinate is in the block's range on its axis. -/
theorem mem_blk6 (t : Fin cfg6.N) (i : S100000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v93).slice (win6_2.rect t)).set ↔ _
  rw [View.set_slice_whole, Rect.mem_set_unit]
  exact Iff.rfl

/-- Every row of the array is in the block of the point `row / 5000`. -/
theorem cover6 (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  have hN : cfg6.N = 20 := N_6
  let t : Fin cfg6.N := ⟨(i 0).val / 5000, by rw [hN]; omega⟩
  obtain ⟨e0_0, e0_1, e1_0, e1_1, e2_0, e2_1⟩ := idx_facts6 t
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; rw [e2_0]; show (i 0).val / 5000 * 5000 ≤ (i 0).val ∧ (i 0).val < (i 0).val / 5000 * 5000 + 5000; omega
  | ⟨1, _⟩ => show win6_2.index t (1 : Fin 2) * 64 ≤ (i 1).val ∧ (i 1).val < win6_2.index t (1 : Fin 2) * 64 + 64; rw [e2_1]; omega

/-- The output array after the launch: that function of the arrays it was entered with. -/
theorem final6 (hpay : ∀ (xb : Vec Ideal S5000x64 .f32) (w : Vec Ideal S64x64 .f32) (p : Fin 5000) (q : Fin 64),
      k6_pay1 (F := Ideal) xb w (ix2 p q) = ∑ k : Fin 64, xb (ix2 p k) * w (ix2 k q)) (c : Dev nD) :
    (dat6 V c).arrAt 2 cfg6.N = Glin (a := 100000) (V c main_v92) (V c main_arg6) :=
  (dat6 V c).arrAt_eq_of_cover 2 _ (fun t _ => flushed6_eq V hpay c t) cover6

end Cert.KernelIdeal.Hand

end
-- ==== Proof.KI.Val7.lean ====
/- Launch 7's result as ONE function of the arrays it is entered with: the per-edge message: the edge's weight times (the projected source row + the product of the two gathered rows, projected). Each grid point writes back rows
   8000·t … 8000·t + 7999 of it, and the 125 blocks cover the array. -/
import proofs.«126583_j73280732004963_1_alg».proof.Proof.KI.R7
import proofs.«126583_j73280732004963_1_alg».proof.Proof.Val.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem ValueIdx
open Idealize.ShloMosaic.Pipeline (Dat)
open Cert.KernelIdeal Cert.KernelIdeal.Gen Cert.Val

variable (V : (c : Dev nD) → (b : Ref sig .tc) → Buf (Elt Ideal) ((c : Thread nD τ).loc b))

theorem hz7 : (![0, 0] : Fin 2 → Nat) = fun _ => 0 := funext fun a => by fin_cases a <;> rfl

/-- The printed index maps over the grid: a row-blocked window sits at block row `t`, the matrix at block (0, 0). -/
theorem idx_facts7 : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = t.val
    ∧ win7_2.index t (1 : Fin 2) = 0
    ∧ win7_3.index t (0 : Fin 2) = t.val
    ∧ win7_3.index t (1 : Fin 2) = 0
    ∧ win7_4.index t (0 : Fin 2) = 0
    ∧ win7_4.index t (1 : Fin 2) = 0
    ∧ win7_5.index t (0 : Fin 2) = t.val
    ∧ win7_5.index t (1 : Fin 2) = 0 :=
  (by decide +kernel : ∀ t : Fin grid7.N, _)

/-- A block's payload at (p, q) is the whole-array function at the array index `i` whose row the block's row `p` is. -/
theorem blk_pay7 (hpay : ∀ (z xs xd : Vec Ideal S8000x64 .f32) (W : Vec Ideal S64x64 .f32) (wc : Vec Ideal S8000x1 .f32) (p : Fin 8000) (q : Fin 64),
      k7_pay1 (F := Ideal) z xs xd W wc (ix2 p q) = wc (ix2 p (0 : Fin 1)) * (z (ix2 p q) + ∑ k : Fin 64, (xs (ix2 p k) * xd (ix2 p k)) * W (ix2 k q)))
    (X0 : (Sh 1000000 64).Idx → Elt Ideal .f32) (X1 : (Sh 1000000 64).Idx → Elt Ideal .f32) (X2 : (Sh 1000000 64).Idx → Elt Ideal .f32) (X3 : (Sh 1000000 1).Idx → Elt Ideal .f32) (X4 : (Sh 64 64).Idx → Elt Ideal .f32)
    (xb0 : Vec Ideal S8000x64 .f32) (xb1 : Vec Ideal S8000x64 .f32) (xb2 : Vec Ideal S8000x64 .f32) (xb3 : Vec Ideal S8000x1 .f32) (xb4 : Vec Ideal S64x64 .f32) (p : Fin 8000) (q : Fin 64) (i : (Sh 1000000 64).Idx)
    (h0 : xb0 (ix2 p q) = X0 i)
    (h1 : ∀ k : Fin 64, xb1 (ix2 p k) = X1 (ix2 (n0 := 1000000) (i 0) k))
    (h2 : ∀ k : Fin 64, xb2 (ix2 p k) = X2 (ix2 (n0 := 1000000) (i 0) k))
    (h3 : xb3 (ix2 p (0 : Fin 1)) = X3 (ix2 (n0 := 1000000) (i 0) (0 : Fin 1)))
    (h4 : ∀ k : Fin 64, xb4 (ix2 k q) = X4 (ix2 (n1 := 64) k (i 1))) :
    k7_pay1 (F := Ideal) xb0 xb1 xb2 xb4 xb3 (ix2 p q) = Gedge X0 X1 X2 X3 X4 i := by
  rw [hpay]; unfold Gedge
  simp only [h0, h1, h2, h3, h4]

/-- What point `t` writes back is block `t` of that function of the arrays the launch is entered with. -/
theorem flushed7_eq (hpay : ∀ (z xs xd : Vec Ideal S8000x64 .f32) (W : Vec Ideal S64x64 .f32) (wc : Vec Ideal S8000x1 .f32) (p : Fin 8000) (q : Fin 64),
      k7_pay1 (F := Ideal) z xs xd W wc (ix2 p q) = wc (ix2 p (0 : Fin 1)) * (z (ix2 p q) + ∑ k : Fin 64, (xs (ix2 p k) * xd (ix2 p k)) * W (ix2 k q))) (c : Dev nD) (t : Fin cfg7.N) :
    (dat7 V c).flushed 5 t = ((cfg7.win 5).blk t).view.read (Elt Ideal) (Gedge (a := 1000000) (V c main_v100) (V c main_v107) (V c main_v114) (V c main_v38) (V c main_arg7)) := by
  show (cfg7.win 5).cut (grid7.coords t) ((dat7 V c).after 5 t) = _
  rw [after7_5]
  unfold out7_5
  rw [View.canon_unit_zero hz7]
  simp only [View.ld_unit_zero (S := S8000x64) hz7, View.ld_unit_zero (S := S8000x1) hz7, View.ld_unit_zero (S := S64x64) hz7]
  obtain ⟨e0_0, e0_1, e1_0, e1_1, e2_0, e2_1, e3_0, e3_1, e4_0, e4_1, e5_0, e5_1⟩ := idx_facts7 t
  funext j
  refine (congrArg (k7_pay1 (F := Ideal) (iblk7 V c 0 t) (iblk7 V c 1 t) (iblk7 V c 2 t) (iblk7 V c 4 t) (iblk7 V c 3 t)) (eq_ix2 (n0 := 8000) (n1 := 64) j)).trans ?_
  refine blk_pay7 hpay (V c main_v100) (V c main_v107) (V c main_v114) (V c main_v38) (V c main_arg7) _ _ _ _ _ (j 0) (j 1) (((cfg7.win 5).blk t).view.emb j) ?_ (fun k => ?_) (fun k => ?_) ?_ (fun k => ?_)
  · unfold iblk7; rw [View.read_apply]
    show V c main_v100 _ = V c main_v100 _
    refine congrArg _ (funext fun a => Fin.ext ?_)
    match a with
    | ⟨0, _⟩ => show win7_0.index t (0 : Fin 2) * 8000 + 1 * (j 0).val = win7_5.index t (0 : Fin 2) * 8000 + 1 * (j 0).val; rw [e0_0, e5_0]
    | ⟨1, _⟩ => show win7_0.index t (1 : Fin 2) * 64 + 1 * (j 1).val = win7_5.index t (1 : Fin 2) * 64 + 1 * (j 1).val; rw [e0_1, e5_1]
  · unfold iblk7; rw [View.read_apply]
    show V c main_v107 _ = V c main_v107 _
    refine congrArg _ (funext fun a => Fin.ext ?_)
    match a with
    | ⟨0, _⟩ => show win7_1.index t (0 : Fin 2) * 8000 + 1 * (j 0).val = win7_5.index t (0 : Fin 2) * 8000 + 1 * (j 0).val; rw [e1_0, e5_0]
    | ⟨1, _⟩ => show win7_1.index t (1 : Fin 2) * 64 + 1 * k.val = k.val; rw [e1_1]; omega
  · unfold iblk7; rw [View.read_apply]
    show V c main_v114 _ = V c main_v114 _
    refine congrArg _ (funext fun a => Fin.ext ?_)
    match a with
    | ⟨0, _⟩ => show win7_2.index t (0 : Fin 2) * 8000 + 1 * (j 0).val = win7_5.index t (0 : Fin 2) * 8000 + 1 * (j 0).val; rw [e2_0, e5_0]
    | ⟨1, _⟩ => show win7_2.index t (1 : Fin 2) * 64 + 1 * k.val = k.val; rw [e2_1]; omega
  · unfold iblk7; rw [View.read_apply]
    show V c main_v38 _ = V c main_v38 _
    refine congrArg _ (funext fun a => Fin.ext ?_)
    match a with
    | ⟨0, _⟩ => show win7_3.index t (0 : Fin 2) * 8000 + 1 * (j 0).val = win7_5.index t (0 : Fin 2) * 8000 + 1 * (j 0).val; rw [e3_0, e5_0]
    | ⟨1, _⟩ => show win7_3.index t (1 : Fin 2) * 1 + 1 * (0 : Fin 1).val = (0 : Fin 1).val; rw [e3_1]; omega
  · unfold iblk7; rw [View.read_apply]
    show V c main_arg7 _ = V c main_arg7 _
    refine congrArg _ (funext fun a => Fin.ext ?_)
    match a with
    | ⟨0, _⟩ => show win7_4.index t (0 : Fin 2) * 64 + 1 * k.val = k.val; rw [e4_0]; omega
    | ⟨1, _⟩ => show win7_4.index t (1 : Fin 2) * 64 + 1 * (j 1).val = win7_5.index t (1 : Fin 2) * 64 + 1 * (j 1).val; rw [e4_1, e5_1]

/-- An index of the array is in point `t`'s block iff each coordinate is in the block's range on its axis. -/
theorem mem_blk7 (t : Fin cfg7.N) (i : S1000000x64.Idx) :
    i ∈ ((cfg7.win 5).blk t).view.set ↔ ∀ a : Fin 2, win7_5.index t a * S8000x64.size a ≤ (i a).val ∧ (i a).val < win7_5.index t a * S8000x64.size a + S8000x64.size a := by
  show i ∈ ((View.whole main_v115).slice (win7_5.rect t)).set ↔ _
  rw [View.set_slice_whole, Rect.mem_set_unit]
  exact Iff.rfl

/-- Every row of the array is in the block of the point `row / 8000`. -/
theorem cover7 (i : S1000000x64.Idx) : ∃ t : Fin cfg7.N, (cfg7.win 5).flush t = true ∧ i ∈ ((cfg7.win 5).blk t).view.set := by
  have hi0 : (i 0).val < 1000000 := (i 0).isLt
  have hi1 : (i 1).val < 64 := (i 1).isLt
  have hN : cfg7.N = 125 := N_7
  let t : Fin cfg7.N := ⟨(i 0).val / 8000, by rw [hN]; omega⟩
  obtain ⟨e0_0, e0_1, e1_0, e1_1, e2_0, e2_1, e3_0, e3_1, e4_0, e4_1, e5_0, e5_1⟩ := idx_facts7 t
  refine ⟨t, flush7_5 t, ?_⟩
  rw [mem_blk7]
  intro a
  match a with
  | ⟨0, _⟩ => show win7_5.index t (0 : Fin 2) * 8000 ≤ (i 0).val ∧ (i 0).val < win7_5.index t (0 : Fin 2) * 8000 + 8000; rw [e5_0]; show (i 0).val / 8000 * 8000 ≤ (i 0).val ∧ (i 0).val < (i 0).val / 8000 * 8000 + 8000; omega
  | ⟨1, _⟩ => show win7_5.index t (1 : Fin 2) * 64 ≤ (i 1).val ∧ (i 1).val < win7_5.index t (1 : Fin 2) * 64 + 64; rw [e5_1]; omega

/-- The output array after the launch: that function of the arrays it was entered with. -/
theorem final7 (hpay : ∀ (z xs xd : Vec Ideal S8000x64 .f32) (W : Vec Ideal S64x64 .f32) (wc : Vec Ideal S8000x1 .f32) (p : Fin 8000) (q : Fin 64),
      k7_pay1 (F := Ideal) z xs xd W wc (ix2 p q) = wc (ix2 p (0 : Fin 1)) * (z (ix2 p q) + ∑ k : Fin 64, (xs (ix2 p k) * xd (ix2 p k)) * W (ix2 k q))) (c : Dev nD) :
    (dat7 V c).arrAt 5 cfg7.N = Gedge (a := 1000000) (V c main_v100) (V c main_v107) (V c main_v114) (V c main_v38) (V c main_arg7) :=
  (dat7 V c).arrAt_eq_of_cover 5 _ (fun t _ => flushed7_eq V hpay c t) cover7

end Cert.KernelIdeal.Hand

end
-- ==== Proof.KI.Val8.lean ====
/- Launch 8's result as ONE function of the arrays it is entered with: the leaky rectifier of (the projected row + the aggregated messages). Each grid point writes back rows
   5000·t … 5000·t + 4999 of it, and the 10 blocks cover the array. -/
import proofs.«126583_j73280732004963_1_alg».proof.Proof.KI.R8
import proofs.«126583_j73280732004963_1_alg».proof.Proof.Val.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem ValueIdx
open Idealize.ShloMosaic.Pipeline (Dat)
open Cert.KernelIdeal Cert.KernelIdeal.Gen Cert.Val

variable (V : (c : Dev nD) → (b : Ref sig .tc) → Buf (Elt Ideal) ((c : Thread nD τ).loc b))

theorem hz8 : (![0, 0] : Fin 2 → Nat) = fun _ => 0 := funext fun a => by fin_cases a <;> rfl

/-- The printed index maps over the grid: a row-blocked window sits at block row `t`, the matrix at block (0, 0). -/
theorem idx_facts8 : ∀ t : Fin cfg8.N, win8_0.index t (0 : Fin 2) = t.val
    ∧ win8_0.index t (1 : Fin 2) = 0
    ∧ win8_1.index t (0 : Fin 2) = 0
    ∧ win8_1.index t (1 : Fin 2) = 0
    ∧ win8_2.index t (0 : Fin 2) = t.val
    ∧ win8_2.index t (1 : Fin 2) = 0
    ∧ win8_3.index t (0 : Fin 2) = t.val
    ∧ win8_3.index t (1 : Fin 2) = 0 :=
  (by decide +kernel : ∀ t : Fin grid8.N, _)

/-- A block's payload at (p, q) is the whole-array function at the array index `i` whose row the block's row `p` is. -/
theorem blk_pay8 (hpay : ∀ (x : Vec Ideal S5000x64 .f32) (W : Vec Ideal S64x64 .f32) (zs : Vec Ideal S5000x64 .f32) (p : Fin 5000) (q : Fin 64),
      k8_pay1 (F := Ideal) x W zs (ix2 p q) = leaky ((∑ k : Fin 64, x (ix2 p k) * W (ix2 k q)) + zs (ix2 p q)))
    (X0 : (Sh 50000 64).Idx → Elt Ideal .f32) (X1 : (Sh 64 64).Idx → Elt Ideal .f32) (X2 : (Sh 50000 64).Idx → Elt Ideal .f32)
    (xb0 : Vec Ideal S5000x64 .f32) (xb1 : Vec Ideal S64x64 .f32) (xb2 : Vec Ideal S5000x64 .f32) (p : Fin 5000) (q : Fin 64) (i : (Sh 50000 64).Idx)
    (h0 : ∀ k : Fin 64, xb0 (ix2 p k) = X0 (ix2 (n0 := 50000) (i 0) k))
    (h1 : ∀ k : Fin 64, xb1 (ix2 k q) = X1 (ix2 (n1 := 64) k (i 1)))
    (h2 : xb2 (ix2 p q) = X2 i) :
    k8_pay1 (F := Ideal) xb0 xb1 xb2 (ix2 p q) = Gself X0 X1 X2 i := by
  rw [hpay]; unfold Gself
  simp only [h0, h1, h2]

/-- What point `t` writes back is block `t` of that function of the arrays the launch is entered with. -/
theorem flushed8_eq (hpay : ∀ (x : Vec Ideal S5000x64 .f32) (W : Vec Ideal S64x64 .f32) (zs : Vec Ideal S5000x64 .f32) (p : Fin 5000) (q : Fin 64),
      k8_pay1 (F := Ideal) x W zs (ix2 p q) = leaky ((∑ k : Fin 64, x (ix2 p k) * W (ix2 k q)) + zs (ix2 p q))) (c : Dev nD) (t : Fin cfg8.N) :
    (dat8 V c).flushed 3 t = ((cfg8.win 3).blk t).view.read (Elt Ideal) (Gself (a := 50000) (V c main_v65) (V c main_arg6) (V c main_v118)) := by
  show (cfg8.win 3).cut (grid8.coords t) ((dat8 V c).after 3 t) = _
  rw [after8_3]
  unfold out8_3
  rw [View.canon_unit_zero hz8]
  simp only [View.ld_unit_zero (S := S5000x64) hz8, View.ld_unit_zero (S := S64x64) hz8]
  obtain ⟨e0_0, e0_1, e1_0, e1_1, e2_0, e2_1, e3_0, e3_1⟩ := idx_facts8 t
  funext j
  refine (congrArg (k8_pay1 (F := Ideal) (iblk8 V c 0 t) (iblk8 V c 1 t) (iblk8 V c 2 t)) (eq_ix2 (n0 := 5000) (n1 := 64) j)).trans ?_
  refine blk_pay8 hpay (V c main_v65) (V c main_arg6) (V c main_v118) _ _ _ (j 0) (j 1) (((cfg8.win 3).blk t).view.emb j) (fun k => ?_) (fun k => ?_) ?_
  · unfold iblk8; rw [View.read_apply]
    show V c main_v65 _ = V c main_v65 _
    refine congrArg _ (funext fun a => Fin.ext ?_)
    match a with
    | ⟨0, _⟩ => show win8_0.index t (0 : Fin 2) * 5000 + 1 * (j 0).val = win8_3.index t (0 : Fin 2) * 5000 + 1 * (j 0).val; rw [e0_0, e3_0]
    | ⟨1, _⟩ => show win8_0.index t (1 : Fin 2) * 64 + 1 * k.val = k.val; rw [e0_1]; omega
  · unfold iblk8; rw [View.read_apply]
    show V c main_arg6 _ = V c main_arg6 _
    refine congrArg _ (funext fun a => Fin.ext ?_)
    match a with
    | ⟨0, _⟩ => show win8_1.index t (0 : Fin 2) * 64 + 1 * k.val = k.val; rw [e1_0]; omega
    | ⟨1, _⟩ => show win8_1.index t (1 : Fin 2) * 64 + 1 * (j 1).val = win8_3.index t (1 : Fin 2) * 64 + 1 * (j 1).val; rw [e1_1, e3_1]
  · unfold iblk8; rw [View.read_apply]
    show V c main_v118 _ = V c main_v118 _
    refine congrArg _ (funext fun a => Fin.ext ?_)
    match a with
    | ⟨0, _⟩ => show win8_2.index t (0 : Fin 2) * 5000 + 1 * (j 0).val = win8_3.index t (0 : Fin 2) * 5000 + 1 * (j 0).val; rw [e2_0, e3_0]
    | ⟨1, _⟩ => show win8_2.index t (1 : Fin 2) * 64 + 1 * (j 1).val = win8_3.index t (1 : Fin 2) * 64 + 1 * (j 1).val; rw [e2_1, e3_1]

/-- An index of the array is in point `t`'s block iff each coordinate is in the block's range on its axis. -/
theorem mem_blk8 (t : Fin cfg8.N) (i : S50000x64.Idx) :
    i ∈ ((cfg8.win 3).blk t).view.set ↔ ∀ a : Fin 2, win8_3.index t a * S5000x64.size a ≤ (i a).val ∧ (i a).val < win8_3.index t a * S5000x64.size a + S5000x64.size a := by
  show i ∈ ((View.whole main_v119).slice (win8_3.rect t)).set ↔ _
  rw [View.set_slice_whole, Rect.mem_set_unit]
  exact Iff.rfl

/-- Every row of the array is in the block of the point `row / 5000`. -/
theorem cover8 (i : S50000x64.Idx) : ∃ t : Fin cfg8.N, (cfg8.win 3).flush t = true ∧ i ∈ ((cfg8.win 3).blk t).view.set := by
  have hi0 : (i 0).val < 50000 := (i 0).isLt
  have hi1 : (i 1).val < 64 := (i 1).isLt
  have hN : cfg8.N = 10 := N_8
  let t : Fin cfg8.N := ⟨(i 0).val / 5000, by rw [hN]; omega⟩
  obtain ⟨e0_0, e0_1, e1_0, e1_1, e2_0, e2_1, e3_0, e3_1⟩ := idx_facts8 t
  refine ⟨t, flush8_3 t, ?_⟩
  rw [mem_blk8]
  intro a
  match a with
  | ⟨0, _⟩ => show win8_3.index t (0 : Fin 2) * 5000 ≤ (i 0).val ∧ (i 0).val < win8_3.index t (0 : Fin 2) * 5000 + 5000; rw [e3_0]; show (i 0).val / 5000 * 5000 ≤ (i 0).val ∧ (i 0).val < (i 0).val / 5000 * 5000 + 5000; omega
  | ⟨1, _⟩ => show win8_3.index t (1 : Fin 2) * 64 ≤ (i 1).val ∧ (i 1).val < win8_3.index t (1 : Fin 2) * 64 + 64; rw [e3_1]; omega

/-- The output array after the launch: that function of the arrays it was entered with. -/
theorem final8 (hpay : ∀ (x : Vec Ideal S5000x64 .f32) (W : Vec Ideal S64x64 .f32) (zs : Vec Ideal S5000x64 .f32) (p : Fin 5000) (q : Fin 64),
      k8_pay1 (F := Ideal) x W zs (ix2 p q) = leaky ((∑ k : Fin 64, x (ix2 p k) * W (ix2 k q)) + zs (ix2 p q))) (c : Dev nD) :
    (dat8 V c).arrAt 3 cfg8.N = Gself (a := 50000) (V c main_v65) (V c main_arg6) (V c main_v118) :=
  (dat8 V c).arrAt_eq_of_cover 3 _ (fun t _ => flushed8_eq V hpay c t) cover8

end Cert.KernelIdeal.Hand

end
-- ==== Proof.KI.Val9.lean ====
/- Launch 9's result as ONE function of the arrays it is entered with: the product of the row-blocked operand with the [64,64] matrix. Each grid point writes back rows
   5000·t … 5000·t + 4999 of it, and the 10 blocks cover the array. -/
import proofs.«126583_j73280732004963_1_alg».proof.Proof.KI.R9
import proofs.«126583_j73280732004963_1_alg».proof.Proof.Val.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem ValueIdx
open Idealize.ShloMosaic.Pipeline (Dat)
open Cert.KernelIdeal Cert.KernelIdeal.Gen Cert.Val

variable (V : (c : Dev nD) → (b : Ref sig .tc) → Buf (Elt Ideal) ((c : Thread nD τ).loc b))

theorem hz9 : (![0, 0] : Fin 2 → Nat) = fun _ => 0 := funext fun a => by fin_cases a <;> rfl

/-- The printed index maps over the grid: a row-blocked window sits at block row `t`, the matrix at block (0, 0). -/
theorem idx_facts9 : ∀ t : Fin cfg9.N, win9_0.index t (0 : Fin 2) = t.val
    ∧ win9_0.index t (1 : Fin 2) = 0
    ∧ win9_1.index t (0 : Fin 2) = 0
    ∧ win9_1.index t (1 : Fin 2) = 0
    ∧ win9_2.index t (0 : Fin 2) = t.val
    ∧ win9_2.index t (1 : Fin 2) = 0 :=
  (by decide +kernel : ∀ t : Fin grid9.N, _)

/-- A block's payload at (p, q) is the whole-array function at the array index `i` whose row the block's row `p` is. -/
theorem blk_pay9 (hpay : ∀ (xb : Vec Ideal S5000x64 .f32) (w : Vec Ideal S64x64 .f32) (p : Fin 5000) (q : Fin 64),
      k9_pay1 (F := Ideal) xb w (ix2 p q) = ∑ k : Fin 64, xb (ix2 p k) * w (ix2 k q))
    (X0 : (Sh 50000 64).Idx → Elt Ideal .f32) (X1 : (Sh 64 64).Idx → Elt Ideal .f32)
    (xb0 : Vec Ideal S5000x64 .f32) (xb1 : Vec Ideal S64x64 .f32) (p : Fin 5000) (q : Fin 64) (i : (Sh 50000 64).Idx)
    (h0 : ∀ k : Fin 64, xb0 (ix2 p k) = X0 (ix2 (n0 := 50000) (i 0) k))
    (h1 : ∀ k : Fin 64, xb1 (ix2 k q) = X1 (ix2 (n1 := 64) k (i 1))) :
    k9_pay1 (F := Ideal) xb0 xb1 (ix2 p q) = Glin X0 X1 i := by
  rw [hpay]; unfold Glin
  simp only [h0, h1]

/-- What point `t` writes back is block `t` of that function of the arrays the launch is entered with. -/
theorem flushed9_eq (hpay : ∀ (xb : Vec Ideal S5000x64 .f32) (w : Vec Ideal S64x64 .f32) (p : Fin 5000) (q : Fin 64),
      k9_pay1 (F := Ideal) xb w (ix2 p q) = ∑ k : Fin 64, xb (ix2 p k) * w (ix2 k q)) (c : Dev nD) (t : Fin cfg9.N) :
    (dat9 V c).flushed 2 t = ((cfg9.win 2).blk t).view.read (Elt Ideal) (Glin (a := 50000) (V c main_v65) (V c main_arg8)) := by
  show (cfg9.win 2).cut (grid9.coords t) ((dat9 V c).after 2 t) = _
  rw [after9_2]
  unfold out9_2
  rw [View.canon_unit_zero hz9]
  simp only [View.ld_unit_zero (S := S5000x64) hz9, View.ld_unit_zero (S := S64x64) hz9]
  obtain ⟨e0_0, e0_1, e1_0, e1_1, e2_0, e2_1⟩ := idx_facts9 t
  funext j
  refine (congrArg (k9_pay1 (F := Ideal) (iblk9 V c 0 t) (iblk9 V c 1 t)) (eq_ix2 (n0 := 5000) (n1 := 64) j)).trans ?_
  refine blk_pay9 hpay (V c main_v65) (V c main_arg8) _ _ (j 0) (j 1) (((cfg9.win 2).blk t).view.emb j) (fun k => ?_) (fun k => ?_)
  · unfold iblk9; rw [View.read_apply]
    show V c main_v65 _ = V c main_v65 _
    refine congrArg _ (funext fun a => Fin.ext ?_)
    match a with
    | ⟨0, _⟩ => show win9_0.index t (0 : Fin 2) * 5000 + 1 * (j 0).val = win9_2.index t (0 : Fin 2) * 5000 + 1 * (j 0).val; rw [e0_0, e2_0]
    | ⟨1, _⟩ => show win9_0.index t (1 : Fin 2) * 64 + 1 * k.val = k.val; rw [e0_1]; omega
  · unfold iblk9; rw [View.read_apply]
    show V c main_arg8 _ = V c main_arg8 _
    refine congrArg _ (funext fun a => Fin.ext ?_)
    match a with
    | ⟨0, _⟩ => show win9_1.index t (0 : Fin 2) * 64 + 1 * k.val = k.val; rw [e1_0]; omega
    | ⟨1, _⟩ => show win9_1.index t (1 : Fin 2) * 64 + 1 * (j 1).val = win9_2.index t (1 : Fin 2) * 64 + 1 * (j 1).val; rw [e1_1, e2_1]

/-- An index of the array is in point `t`'s block iff each coordinate is in the block's range on its axis. -/
theorem mem_blk9 (t : Fin cfg9.N) (i : S50000x64.Idx) :
    i ∈ ((cfg9.win 2).blk t).view.set ↔ ∀ a : Fin 2, win9_2.index t a * S5000x64.size a ≤ (i a).val ∧ (i a).val < win9_2.index t a * S5000x64.size a + S5000x64.size a := by
  show i ∈ ((View.whole main_v120).slice (win9_2.rect t)).set ↔ _
  rw [View.set_slice_whole, Rect.mem_set_unit]
  exact Iff.rfl

/-- Every row of the array is in the block of the point `row / 5000`. -/
theorem cover9 (i : S50000x64.Idx) : ∃ t : Fin cfg9.N, (cfg9.win 2).flush t = true ∧ i ∈ ((cfg9.win 2).blk t).view.set := by
  have hi0 : (i 0).val < 50000 := (i 0).isLt
  have hi1 : (i 1).val < 64 := (i 1).isLt
  have hN : cfg9.N = 10 := N_9
  let t : Fin cfg9.N := ⟨(i 0).val / 5000, by rw [hN]; omega⟩
  obtain ⟨e0_0, e0_1, e1_0, e1_1, e2_0, e2_1⟩ := idx_facts9 t
  refine ⟨t, flush9_2 t, ?_⟩
  rw [mem_blk9]
  intro a
  match a with
  | ⟨0, _⟩ => show win9_2.index t (0 : Fin 2) * 5000 ≤ (i 0).val ∧ (i 0).val < win9_2.index t (0 : Fin 2) * 5000 + 5000; rw [e2_0]; show (i 0).val / 5000 * 5000 ≤ (i 0).val ∧ (i 0).val < (i 0).val / 5000 * 5000 + 5000; omega
  | ⟨1, _⟩ => show win9_2.index t (1 : Fin 2) * 64 ≤ (i 1).val ∧ (i 1).val < win9_2.index t (1 : Fin 2) * 64 + 64; rw [e2_1]; omega

/-- The output array after the launch: that function of the arrays it was entered with. -/
theorem final9 (hpay : ∀ (xb : Vec Ideal S5000x64 .f32) (w : Vec Ideal S64x64 .f32) (p : Fin 5000) (q : Fin 64),
      k9_pay1 (F := Ideal) xb w (ix2 p q) = ∑ k : Fin 64, xb (ix2 p k) * w (ix2 k q)) (c : Dev nD) :
    (dat9 V c).arrAt 2 cfg9.N = Glin (a := 50000) (V c main_v65) (V c main_arg8) :=
  (dat9 V c).arrAt_eq_of_cover 2 _ (fun t _ => flushed9_eq V hpay c t) cover9

end Cert.KernelIdeal.Hand

end
-- ==== Proof.KI.Val10.lean ====
/- Launch 10's result as ONE function of the arrays it is entered with: the per-edge message: the edge's weight times (the projected source row + the product of the two gathered rows, projected). Each grid point writes back rows
   8000·t … 8000·t + 7999 of it, and the 125 blocks cover the array. -/
import proofs.«126583_j73280732004963_1_alg».proof.Proof.KI.R10
import proofs.«126583_j73280732004963_1_alg».proof.Proof.Val.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem ValueIdx
open Idealize.ShloMosaic.Pipeline (Dat)
open Cert.KernelIdeal Cert.KernelIdeal.Gen Cert.Val

variable (V : (c : Dev nD) → (b : Ref sig .tc) → Buf (Elt Ideal) ((c : Thread nD τ).loc b))

theorem hz10 : (![0, 0] : Fin 2 → Nat) = fun _ => 0 := funext fun a => by fin_cases a <;> rfl

/-- The printed index maps over the grid: a row-blocked window sits at block row `t`, the matrix at block (0, 0). -/
theorem idx_facts10 : ∀ t : Fin cfg10.N, win10_0.index t (0 : Fin 2) = t.val
    ∧ win10_0.index t (1 : Fin 2) = 0
    ∧ win10_1.index t (0 : Fin 2) = t.val
    ∧ win10_1.index t (1 : Fin 2) = 0
    ∧ win10_2.index t (0 : Fin 2) = t.val
    ∧ win10_2.index t (1 : Fin 2) = 0
    ∧ win10_3.index t (0 : Fin 2) = t.val
    ∧ win10_3.index t (1 : Fin 2) = 0
    ∧ win10_4.index t (0 : Fin 2) = 0
    ∧ win10_4.index t (1 : Fin 2) = 0
    ∧ win10_5.index t (0 : Fin 2) = t.val
    ∧ win10_5.index t (1 : Fin 2) = 0 :=
  (by decide +kernel : ∀ t : Fin grid10.N, _)

/-- A block's payload at (p, q) is the whole-array function at the array index `i` whose row the block's row `p` is. -/
theorem blk_pay10 (hpay : ∀ (z xs xd : Vec Ideal S8000x64 .f32) (W : Vec Ideal S64x64 .f32) (wc : Vec Ideal S8000x1 .f32) (p : Fin 8000) (q : Fin 64),
      k10_pay1 (F := Ideal) z xs xd W wc (ix2 p q) = wc (ix2 p (0 : Fin 1)) * (z (ix2 p q) + ∑ k : Fin 64, (xs (ix2 p k) * xd (ix2 p k)) * W (ix2 k q)))
    (X0 : (Sh 1000000 64).Idx → Elt Ideal .f32) (X1 : (Sh 1000000 64).Idx → Elt Ideal .f32) (X2 : (Sh 1000000 64).Idx → Elt Ideal .f32) (X3 : (Sh 1000000 1).Idx → Elt Ideal .f32) (X4 : (Sh 64 64).Idx → Elt Ideal .f32)
    (xb0 : Vec Ideal S8000x64 .f32) (xb1 : Vec Ideal S8000x64 .f32) (xb2 : Vec Ideal S8000x64 .f32) (xb3 : Vec Ideal S8000x1 .f32) (xb4 : Vec Ideal S64x64 .f32) (p : Fin 8000) (q : Fin 64) (i : (Sh 1000000 64).Idx)
    (h0 : xb0 (ix2 p q) = X0 i)
    (h1 : ∀ k : Fin 64, xb1 (ix2 p k) = X1 (ix2 (n0 := 1000000) (i 0) k))
    (h2 : ∀ k : Fin 64, xb2 (ix2 p k) = X2 (ix2 (n0 := 1000000) (i 0) k))
    (h3 : xb3 (ix2 p (0 : Fin 1)) = X3 (ix2 (n0 := 1000000) (i 0) (0 : Fin 1)))
    (h4 : ∀ k : Fin 64, xb4 (ix2 k q) = X4 (ix2 (n1 := 64) k (i 1))) :
    k10_pay1 (F := Ideal) xb0 xb1 xb2 xb4 xb3 (ix2 p q) = Gedge X0 X1 X2 X3 X4 i := by
  rw [hpay]; unfold Gedge
  simp only [h0, h1, h2, h3, h4]

/-- What point `t` writes back is block `t` of that function of the arrays the launch is entered with. -/
theorem flushed10_eq (hpay : ∀ (z xs xd : Vec Ideal S8000x64 .f32) (W : Vec Ideal S64x64 .f32) (wc : Vec Ideal S8000x1 .f32) (p : Fin 8000) (q : Fin 64),
      k10_pay1 (F := Ideal) z xs xd W wc (ix2 p q) = wc (ix2 p (0 : Fin 1)) * (z (ix2 p q) + ∑ k : Fin 64, (xs (ix2 p k) * xd (ix2 p k)) * W (ix2 k q))) (c : Dev nD) (t : Fin cfg10.N) :
    (dat10 V c).flushed 5 t = ((cfg10.win 5).blk t).view.read (Elt Ideal) (Gedge (a := 1000000) (V c main_v127) (V c main_v134) (V c main_v141) (V c main_v38) (V c main_arg9)) := by
  show (cfg10.win 5).cut (grid10.coords t) ((dat10 V c).after 5 t) = _
  rw [after10_5]
  unfold out10_5
  rw [View.canon_unit_zero hz10]
  simp only [View.ld_unit_zero (S := S8000x64) hz10, View.ld_unit_zero (S := S8000x1) hz10, View.ld_unit_zero (S := S64x64) hz10]
  obtain ⟨e0_0, e0_1, e1_0, e1_1, e2_0, e2_1, e3_0, e3_1, e4_0, e4_1, e5_0, e5_1⟩ := idx_facts10 t
  funext j
  refine (congrArg (k10_pay1 (F := Ideal) (iblk10 V c 0 t) (iblk10 V c 1 t) (iblk10 V c 2 t) (iblk10 V c 4 t) (iblk10 V c 3 t)) (eq_ix2 (n0 := 8000) (n1 := 64) j)).trans ?_
  refine blk_pay10 hpay (V c main_v127) (V c main_v134) (V c main_v141) (V c main_v38) (V c main_arg9) _ _ _ _ _ (j 0) (j 1) (((cfg10.win 5).blk t).view.emb j) ?_ (fun k => ?_) (fun k => ?_) ?_ (fun k => ?_)
  · unfold iblk10; rw [View.read_apply]
    show V c main_v127 _ = V c main_v127 _
    refine congrArg _ (funext fun a => Fin.ext ?_)
    match a with
    | ⟨0, _⟩ => show win10_0.index t (0 : Fin 2) * 8000 + 1 * (j 0).val = win10_5.index t (0 : Fin 2) * 8000 + 1 * (j 0).val; rw [e0_0, e5_0]
    | ⟨1, _⟩ => show win10_0.index t (1 : Fin 2) * 64 + 1 * (j 1).val = win10_5.index t (1 : Fin 2) * 64 + 1 * (j 1).val; rw [e0_1, e5_1]
  · unfold iblk10; rw [View.read_apply]
    show V c main_v134 _ = V c main_v134 _
    refine congrArg _ (funext fun a => Fin.ext ?_)
    match a with
    | ⟨0, _⟩ => show win10_1.index t (0 : Fin 2) * 8000 + 1 * (j 0).val = win10_5.index t (0 : Fin 2) * 8000 + 1 * (j 0).val; rw [e1_0, e5_0]
    | ⟨1, _⟩ => show win10_1.index t (1 : Fin 2) * 64 + 1 * k.val = k.val; rw [e1_1]; omega
  · unfold iblk10; rw [View.read_apply]
    show V c main_v141 _ = V c main_v141 _
    refine congrArg _ (funext fun a => Fin.ext ?_)
    match a with
    | ⟨0, _⟩ => show win10_2.index t (0 : Fin 2) * 8000 + 1 * (j 0).val = win10_5.index t (0 : Fin 2) * 8000 + 1 * (j 0).val; rw [e2_0, e5_0]
    | ⟨1, _⟩ => show win10_2.index t (1 : Fin 2) * 64 + 1 * k.val = k.val; rw [e2_1]; omega
  · unfold iblk10; rw [View.read_apply]
    show V c main_v38 _ = V c main_v38 _
    refine congrArg _ (funext fun a => Fin.ext ?_)
    match a with
    | ⟨0, _⟩ => show win10_3.index t (0 : Fin 2) * 8000 + 1 * (j 0).val = win10_5.index t (0 : Fin 2) * 8000 + 1 * (j 0).val; rw [e3_0, e5_0]
    | ⟨1, _⟩ => show win10_3.index t (1 : Fin 2) * 1 + 1 * (0 : Fin 1).val = (0 : Fin 1).val; rw [e3_1]; omega
  · unfold iblk10; rw [View.read_apply]
    show V c main_arg9 _ = V c main_arg9 _
    refine congrArg _ (funext fun a => Fin.ext ?_)
    match a with
    | ⟨0, _⟩ => show win10_4.index t (0 : Fin 2) * 64 + 1 * k.val = k.val; rw [e4_0]; omega
    | ⟨1, _⟩ => show win10_4.index t (1 : Fin 2) * 64 + 1 * (j 1).val = win10_5.index t (1 : Fin 2) * 64 + 1 * (j 1).val; rw [e4_1, e5_1]

/-- An index of the array is in point `t`'s block iff each coordinate is in the block's range on its axis. -/
theorem mem_blk10 (t : Fin cfg10.N) (i : S1000000x64.Idx) :
    i ∈ ((cfg10.win 5).blk t).view.set ↔ ∀ a : Fin 2, win10_5.index t a * S8000x64.size a ≤ (i a).val ∧ (i a).val < win10_5.index t a * S8000x64.size a + S8000x64.size a := by
  show i ∈ ((View.whole main_v142).slice (win10_5.rect t)).set ↔ _
  rw [View.set_slice_whole, Rect.mem_set_unit]
  exact Iff.rfl

/-- Every row of the array is in the block of the point `row / 8000`. -/
theorem cover10 (i : S1000000x64.Idx) : ∃ t : Fin cfg10.N, (cfg10.win 5).flush t = true ∧ i ∈ ((cfg10.win 5).blk t).view.set := by
  have hi0 : (i 0).val < 1000000 := (i 0).isLt
  have hi1 : (i 1).val < 64 := (i 1).isLt
  have hN : cfg10.N = 125 := N_10
  let t : Fin cfg10.N := ⟨(i 0).val / 8000, by rw [hN]; omega⟩
  obtain ⟨e0_0, e0_1, e1_0, e1_1, e2_0, e2_1, e3_0, e3_1, e4_0, e4_1, e5_0, e5_1⟩ := idx_facts10 t
  refine ⟨t, flush10_5 t, ?_⟩
  rw [mem_blk10]
  intro a
  match a with
  | ⟨0, _⟩ => show win10_5.index t (0 : Fin 2) * 8000 ≤ (i 0).val ∧ (i 0).val < win10_5.index t (0 : Fin 2) * 8000 + 8000; rw [e5_0]; show (i 0).val / 8000 * 8000 ≤ (i 0).val ∧ (i 0).val < (i 0).val / 8000 * 8000 + 8000; omega
  | ⟨1, _⟩ => show win10_5.index t (1 : Fin 2) * 64 ≤ (i 1).val ∧ (i 1).val < win10_5.index t (1 : Fin 2) * 64 + 64; rw [e5_1]; omega

/-- The output array after the launch: that function of the arrays it was entered with. -/
theorem final10 (hpay : ∀ (z xs xd : Vec Ideal S8000x64 .f32) (W : Vec Ideal S64x64 .f32) (wc : Vec Ideal S8000x1 .f32) (p : Fin 8000) (q : Fin 64),
      k10_pay1 (F := Ideal) z xs xd W wc (ix2 p q) = wc (ix2 p (0 : Fin 1)) * (z (ix2 p q) + ∑ k : Fin 64, (xs (ix2 p k) * xd (ix2 p k)) * W (ix2 k q))) (c : Dev nD) :
    (dat10 V c).arrAt 5 cfg10.N = Gedge (a := 1000000) (V c main_v127) (V c main_v134) (V c main_v141) (V c main_v38) (V c main_arg9) :=
  (dat10 V c).arrAt_eq_of_cover 5 _ (fun t _ => flushed10_eq V hpay c t) cover10

end Cert.KernelIdeal.Hand

end
-- ==== Proof.KI.Val11.lean ====
/- Launch 11's result as ONE function of the arrays it is entered with: the leaky rectifier of (the projected row + the aggregated messages). Each grid point writes back rows
   5000·t … 5000·t + 4999 of it, and the 20 blocks cover the array. -/
import proofs.«126583_j73280732004963_1_alg».proof.Proof.KI.R11
import proofs.«126583_j73280732004963_1_alg».proof.Proof.Val.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem ValueIdx
open Idealize.ShloMosaic.Pipeline (Dat)
open Cert.KernelIdeal Cert.KernelIdeal.Gen Cert.Val

variable (V : (c : Dev nD) → (b : Ref sig .tc) → Buf (Elt Ideal) ((c : Thread nD τ).loc b))

theorem hz11 : (![0, 0] : Fin 2 → Nat) = fun _ => 0 := funext fun a => by fin_cases a <;> rfl

/-- The printed index maps over the grid: a row-blocked window sits at block row `t`, the matrix at block (0, 0). -/
theorem idx_facts11 : ∀ t : Fin cfg11.N, win11_0.index t (0 : Fin 2) = t.val
    ∧ win11_0.index t (1 : Fin 2) = 0
    ∧ win11_1.index t (0 : Fin 2) = 0
    ∧ win11_1.index t (1 : Fin 2) = 0
    ∧ win11_2.index t (0 : Fin 2) = t.val
    ∧ win11_2.index t (1 : Fin 2) = 0
    ∧ win11_3.index t (0 : Fin 2) = t.val
    ∧ win11_3.index t (1 : Fin 2) = 0 :=
  (by decide +kernel : ∀ t : Fin grid11.N, _)

/-- A block's payload at (p, q) is the whole-array function at the array index `i` whose row the block's row `p` is. -/
theorem blk_pay11 (hpay : ∀ (x : Vec Ideal S5000x64 .f32) (W : Vec Ideal S64x64 .f32) (zs : Vec Ideal S5000x64 .f32) (p : Fin 5000) (q : Fin 64),
      k11_pay1 (F := Ideal) x W zs (ix2 p q) = leaky ((∑ k : Fin 64, x (ix2 p k) * W (ix2 k q)) + zs (ix2 p q)))
    (X0 : (Sh 100000 64).Idx → Elt Ideal .f32) (X1 : (Sh 64 64).Idx → Elt Ideal .f32) (X2 : (Sh 100000 64).Idx → Elt Ideal .f32)
    (xb0 : Vec Ideal S5000x64 .f32) (xb1 : Vec Ideal S64x64 .f32) (xb2 : Vec Ideal S5000x64 .f32) (p : Fin 5000) (q : Fin 64) (i : (Sh 100000 64).Idx)
    (h0 : ∀ k : Fin 64, xb0 (ix2 p k) = X0 (ix2 (n0 := 100000) (i 0) k))
    (h1 : ∀ k : Fin 64, xb1 (ix2 k q) = X1 (ix2 (n1 := 64) k (i 1)))
    (h2 : xb2 (ix2 p q) = X2 i) :
    k11_pay1 (F := Ideal) xb0 xb1 xb2 (ix2 p q) = Gself X0 X1 X2 i := by
  rw [hpay]; unfold Gself
  simp only [h0, h1, h2]

/-- What point `t` writes back is block `t` of that function of the arrays the launch is entered with. -/
theorem flushed11_eq (hpay : ∀ (x : Vec Ideal S5000x64 .f32) (W : Vec Ideal S64x64 .f32) (zs : Vec Ideal S5000x64 .f32) (p : Fin 5000) (q : Fin 64),
      k11_pay1 (F := Ideal) x W zs (ix2 p q) = leaky ((∑ k : Fin 64, x (ix2 p k) * W (ix2 k q)) + zs (ix2 p q))) (c : Dev nD) (t : Fin cfg11.N) :
    (dat11 V c).flushed 3 t = ((cfg11.win 3).blk t).view.read (Elt Ideal) (Gself (a := 100000) (V c main_v92) (V c main_arg8) (V c main_v145)) := by
  show (cfg11.win 3).cut (grid11.coords t) ((dat11 V c).after 3 t) = _
  rw [after11_3]
  unfold out11_3
  rw [View.canon_unit_zero hz11]
  simp only [View.ld_unit_zero (S := S5000x64) hz11, View.ld_unit_zero (S := S64x64) hz11]
  obtain ⟨e0_0, e0_1, e1_0, e1_1, e2_0, e2_1, e3_0, e3_1⟩ := idx_facts11 t
  funext j
  refine (congrArg (k11_pay1 (F := Ideal) (iblk11 V c 0 t) (iblk11 V c 1 t) (iblk11 V c 2 t)) (eq_ix2 (n0 := 5000) (n1 := 64) j)).trans ?_
  refine blk_pay11 hpay (V c main_v92) (V c main_arg8) (V c main_v145) _ _ _ (j 0) (j 1) (((cfg11.win 3).blk t).view.emb j) (fun k => ?_) (fun k => ?_) ?_
  · unfold iblk11; rw [View.read_apply]
    show V c main_v92 _ = V c main_v92 _
    refine congrArg _ (funext fun a => Fin.ext ?_)
    match a with
    | ⟨0, _⟩ => show win11_0.index t (0 : Fin 2) * 5000 + 1 * (j 0).val = win11_3.index t (0 : Fin 2) * 5000 + 1 * (j 0).val; rw [e0_0, e3_0]
    | ⟨1, _⟩ => show win11_0.index t (1 : Fin 2) * 64 + 1 * k.val = k.val; rw [e0_1]; omega
  · unfold iblk11; rw [View.read_apply]
    show V c main_arg8 _ = V c main_arg8 _
    refine congrArg _ (funext fun a => Fin.ext ?_)
    match a with
    | ⟨0, _⟩ => show win11_1.index t (0 : Fin 2) * 64 + 1 * k.val = k.val; rw [e1_0]; omega
    | ⟨1, _⟩ => show win11_1.index t (1 : Fin 2) * 64 + 1 * (j 1).val = win11_3.index t (1 : Fin 2) * 64 + 1 * (j 1).val; rw [e1_1, e3_1]
  · unfold iblk11; rw [View.read_apply]
    show V c main_v145 _ = V c main_v145 _
    refine congrArg _ (funext fun a => Fin.ext ?_)
    match a with
    | ⟨0, _⟩ => show win11_2.index t (0 : Fin 2) * 5000 + 1 * (j 0).val = win11_3.index t (0 : Fin 2) * 5000 + 1 * (j 0).val; rw [e2_0, e3_0]
    | ⟨1, _⟩ => show win11_2.index t (1 : Fin 2) * 64 + 1 * (j 1).val = win11_3.index t (1 : Fin 2) * 64 + 1 * (j 1).val; rw [e2_1, e3_1]

/-- An index of the array is in point `t`'s block iff each coordinate is in the block's range on its axis. -/
theorem mem_blk11 (t : Fin cfg11.N) (i : S100000x64.Idx) :
    i ∈ ((cfg11.win 3).blk t).view.set ↔ ∀ a : Fin 2, win11_3.index t a * S5000x64.size a ≤ (i a).val ∧ (i a).val < win11_3.index t a * S5000x64.size a + S5000x64.size a := by
  show i ∈ ((View.whole main_v146).slice (win11_3.rect t)).set ↔ _
  rw [View.set_slice_whole, Rect.mem_set_unit]
  exact Iff.rfl

/-- Every row of the array is in the block of the point `row / 5000`. -/
theorem cover11 (i : S100000x64.Idx) : ∃ t : Fin cfg11.N, (cfg11.win 3).flush t = true ∧ i ∈ ((cfg11.win 3).blk t).view.set := by
  have hi0 : (i 0).val < 100000 := (i 0).isLt
  have hi1 : (i 1).val < 64 := (i 1).isLt
  have hN : cfg11.N = 20 := N_11
  let t : Fin cfg11.N := ⟨(i 0).val / 5000, by rw [hN]; omega⟩
  obtain ⟨e0_0, e0_1, e1_0, e1_1, e2_0, e2_1, e3_0, e3_1⟩ := idx_facts11 t
  refine ⟨t, flush11_3 t, ?_⟩
  rw [mem_blk11]
  intro a
  match a with
  | ⟨0, _⟩ => show win11_3.index t (0 : Fin 2) * 5000 ≤ (i 0).val ∧ (i 0).val < win11_3.index t (0 : Fin 2) * 5000 + 5000; rw [e3_0]; show (i 0).val / 5000 * 5000 ≤ (i 0).val ∧ (i 0).val < (i 0).val / 5000 * 5000 + 5000; omega
  | ⟨1, _⟩ => show win11_3.index t (1 : Fin 2) * 64 ≤ (i 1).val ∧ (i 1).val < win11_3.index t (1 : Fin 2) * 64 + 64; rw [e3_1]; omega

/-- The output array after the launch: that function of the arrays it was entered with. -/
theorem final11 (hpay : ∀ (x : Vec Ideal S5000x64 .f32) (W : Vec Ideal S64x64 .f32) (zs : Vec Ideal S5000x64 .f32) (p : Fin 5000) (q : Fin 64),
      k11_pay1 (F := Ideal) x W zs (ix2 p q) = leaky ((∑ k : Fin 64, x (ix2 p k) * W (ix2 k q)) + zs (ix2 p q))) (c : Dev nD) :
    (dat11 V c).arrAt 3 cfg11.N = Gself (a := 100000) (V c main_v92) (V c main_arg8) (V c main_v145) :=
  (dat11 V c).arrAt_eq_of_cover 3 _ (fun t _ => flushed11_eq V hpay c t) cover11

end Cert.KernelIdeal.Hand

end
-- ==== Proof.KI.Val12.lean ====
/- Launch 12's result as ONE function of the arrays it is entered with: the row-wise sum of products over the 192 features, as a column. Each grid point writes back rows
   5000·t … 5000·t + 4999 of it, and the 100 blocks cover the array. -/
import proofs.«126583_j73280732004963_1_alg».proof.Proof.KI.R12
import proofs.«126583_j73280732004963_1_alg».proof.Proof.Val.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem ValueIdx
open Idealize.ShloMosaic.Pipeline (Dat)
open Cert.KernelIdeal Cert.KernelIdeal.Gen Cert.Val

variable (V : (c : Dev nD) → (b : Ref sig .tc) → Buf (Elt Ideal) ((c : Thread nD τ).loc b))

theorem hz12 : (![0, 0] : Fin 2 → Nat) = fun _ => 0 := funext fun a => by fin_cases a <;> rfl

/-- The printed index maps over the grid: a row-blocked window sits at block row `t`, the matrix at block (0, 0). -/
theorem idx_facts12 : ∀ t : Fin cfg12.N, win12_0.index t (0 : Fin 2) = t.val
    ∧ win12_0.index t (1 : Fin 2) = 0
    ∧ win12_1.index t (0 : Fin 2) = t.val
    ∧ win12_1.index t (1 : Fin 2) = 0
    ∧ win12_2.index t (0 : Fin 2) = t.val
    ∧ win12_2.index t (1 : Fin 2) = 0 :=
  (by decide +kernel : ∀ t : Fin grid12.N, _)

/-- A block's payload at (p, q) is the whole-array function at the array index `i` whose row the block's row `p` is. -/
theorem blk_pay12 (hpay : ∀ (hu hi : Vec Ideal S5000x192 .f32) (p : Fin 5000) (q : Fin 1),
      k12_pay1 (F := Ideal) hu hi (ix2 p q) = ∑ k : Fin 192, hu (ix2 p k) * hi (ix2 p k))
    (X0 : (Sh 500000 192).Idx → Elt Ideal .f32) (X1 : (Sh 500000 192).Idx → Elt Ideal .f32)
    (xb0 : Vec Ideal S5000x192 .f32) (xb1 : Vec Ideal S5000x192 .f32) (p : Fin 5000) (q : Fin 1) (i : (Sh 500000 1).Idx)
    (h0 : ∀ k : Fin 192, xb0 (ix2 p k) = X0 (ix2 (n0 := 500000) (i 0) k))
    (h1 : ∀ k : Fin 192, xb1 (ix2 p k) = X1 (ix2 (n0 := 500000) (i 0) k)) :
    k12_pay1 (F := Ideal) xb0 xb1 (ix2 p q) = Gdot X0 X1 i := by
  rw [hpay]; unfold Gdot
  simp only [h0, h1]

/-- What point `t` writes back is block `t` of that function of the arrays the launch is entered with. -/
theorem flushed12_eq (hpay : ∀ (hu hi : Vec Ideal S5000x192 .f32) (p : Fin 5000) (q : Fin 1),
      k12_pay1 (F := Ideal) hu hi (ix2 p q) = ∑ k : Fin 192, hu (ix2 p k) * hi (ix2 p k)) (c : Dev nD) (t : Fin cfg12.N) :
    (dat12 V c).flushed 2 t = ((cfg12.win 2).blk t).view.read (Elt Ideal) (Gdot (a := 500000) (V c main_v155) (V c main_v162)) := by
  show (cfg12.win 2).cut (grid12.coords t) ((dat12 V c).after 2 t) = _
  rw [after12_2]
  unfold out12_2
  rw [View.canon_unit_zero hz12]
  simp only [View.ld_unit_zero (S := S5000x192) hz12]
  obtain ⟨e0_0, e0_1, e1_0, e1_1, e2_0, e2_1⟩ := idx_facts12 t
  funext j
  refine (congrArg (k12_pay1 (F := Ideal) (iblk12 V c 0 t) (iblk12 V c 1 t)) (eq_ix2 (n0 := 5000) (n1 := 1) j)).trans ?_
  refine blk_pay12 hpay (V c main_v155) (V c main_v162) _ _ (j 0) (j 1) (((cfg12.win 2).blk t).view.emb j) (fun k => ?_) (fun k => ?_)
  · unfold iblk12; rw [View.read_apply]
    show V c main_v155 _ = V c main_v155 _
    refine congrArg _ (funext fun a => Fin.ext ?_)
    match a with
    | ⟨0, _⟩ => show win12_0.index t (0 : Fin 2) * 5000 + 1 * (j 0).val = win12_2.index t (0 : Fin 2) * 5000 + 1 * (j 0).val; rw [e0_0, e2_0]
    | ⟨1, _⟩ => show win12_0.index t (1 : Fin 2) * 192 + 1 * k.val = k.val; rw [e0_1]; omega
  · unfold iblk12; rw [View.read_apply]
    show V c main_v162 _ = V c main_v162 _
    refine congrArg _ (funext fun a => Fin.ext ?_)
    match a with
    | ⟨0, _⟩ => show win12_1.index t (0 : Fin 2) * 5000 + 1 * (j 0).val = win12_2.index t (0 : Fin 2) * 5000 + 1 * (j 0).val; rw [e1_0, e2_0]
    | ⟨1, _⟩ => show win12_1.index t (1 : Fin 2) * 192 + 1 * k.val = k.val; rw [e1_1]; omega

/-- An index of the array is in point `t`'s block iff each coordinate is in the block's range on its axis. -/
theorem mem_blk12 (t : Fin cfg12.N) (i : S500000x1.Idx) :
    i ∈ ((cfg12.win 2).blk t).view.set ↔ ∀ a : Fin 2, win12_2.index t a * S5000x1.size a ≤ (i a).val ∧ (i a).val < win12_2.index t a * S5000x1.size a + S5000x1.size a := by
  show i ∈ ((View.whole main_v163).slice (win12_2.rect t)).set ↔ _
  rw [View.set_slice_whole, Rect.mem_set_unit]
  exact Iff.rfl

/-- Every row of the array is in the block of the point `row / 5000`. -/
theorem cover12 (i : S500000x1.Idx) : ∃ t : Fin cfg12.N, (cfg12.win 2).flush t = true ∧ i ∈ ((cfg12.win 2).blk t).view.set := by
  have hi0 : (i 0).val < 500000 := (i 0).isLt
  have hi1 : (i 1).val < 1 := (i 1).isLt
  have hN : cfg12.N = 100 := N_12
  let t : Fin cfg12.N := ⟨(i 0).val / 5000, by rw [hN]; omega⟩
  obtain ⟨e0_0, e0_1, e1_0, e1_1, e2_0, e2_1⟩ := idx_facts12 t
  refine ⟨t, flush12_2 t, ?_⟩
  rw [mem_blk12]
  intro a
  match a with
  | ⟨0, _⟩ => show win12_2.index t (0 : Fin 2) * 5000 ≤ (i 0).val ∧ (i 0).val < win12_2.index t (0 : Fin 2) * 5000 + 5000; rw [e2_0]; show (i 0).val / 5000 * 5000 ≤ (i 0).val ∧ (i 0).val < (i 0).val / 5000 * 5000 + 5000; omega
  | ⟨1, _⟩ => show win12_2.index t (1 : Fin 2) * 1 ≤ (i 1).val ∧ (i 1).val < win12_2.index t (1 : Fin 2) * 1 + 1; rw [e2_1]; omega

/-- The output array after the launch: that function of the arrays it was entered with. -/
theorem final12 (hpay : ∀ (hu hi : Vec Ideal S5000x192 .f32) (p : Fin 5000) (q : Fin 1),
      k12_pay1 (F := Ideal) hu hi (ix2 p q) = ∑ k : Fin 192, hu (ix2 p k) * hi (ix2 p k)) (c : Dev nD) :
    (dat12 V c).arrAt 2 cfg12.N = Gdot (a := 500000) (V c main_v155) (V c main_v162) :=
  (dat12 V c).arrAt_eq_of_cover 2 _ (fun t _ => flushed12_eq V hpay c t) cover12

end Cert.KernelIdeal.Hand

end
-- ==== Proof.Val.Mat.lean ====
/-
  The product of an [m,k] array with a [k,n] matrix read at an index, at the extended reals: entry (a, b) is the sum over
  the contracted coordinate c of A[a,c] · B[c,b] — for a kernel's matrix product into a zero accumulator and for the host's
  `dot_general`, both at the plain dimension numbers (left axis 1 contracted with right axis 0, no batch axes).
-/
import Idealize.ShloMosaic.Lib.StackMember
import Idealize.ShloMosaic.PureOps.Ideal.Laws

noncomputable section

namespace Cert.Val

open Idealize.ShloMosaic ValueIdx

/-- The host's plain product at (a, b): the sum over c of A[a,c] · B[c,b]. -/
theorem hostDot_plain_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  StackMember.dotGeneral_plain_apply prec A B a b

/-- A kernel's plain matrix product into the zero accumulator at (a, b): the same sum. The product into a zero accumulator
    and the host's product are the same contraction at the extended reals. -/
theorem matmul_plain_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

end Cert.Val

end
-- ==== Proof.Val.Lin.lean ====
/-
  The linear kernels' payloads read at an index, at the extended reals: entry (p, q) of a [5000,64] block times the
  [64,64] weight matrix is the sum over k of x[p,k] · w[k,q].
-/
import proofs.«126583_j73280732004963_1_alg».proof.Proof.Gen.KernelIdeal.Skeleton
import proofs.«126583_j73280732004963_1_alg».proof.Proof.Val.Mat
import Idealize.ShloMosaic.Lib.Pipeline.Value

noncomputable section

namespace Cert.Val

open Idealize.ShloMosaic ValueIdx Cert.KernelIdeal Cert.KernelIdeal.Gen

/-- The linear kernel's payload (launch 0) at (p, q): the row of the block times the column of the weight matrix. The change
    of format to bf16 and back is the identity at the extended reals, the zero accumulator adds nothing. -/
theorem lin0_apply (xb : Vec Ideal S5000x64 .f32) (w : Vec Ideal S64x64 .f32) (p : Fin 5000) (q : Fin 64) :
    k0_pay1 (F := Ideal) xb w (ix2 p q) = ∑ k : Fin 64, xb (ix2 p k) * w (ix2 k q) := by
  unfold k0_pay1
  simp only [shapeCast_self]
  rw [show dot_S5000x64_S64x64_S5000x64_1_0_0_1_n_n = DotDims.plain 5000 64 64 from rfl]
  exact matmul_plain_apply none _ _ p q

/-- The linear kernel's payload (launch 3) at (p, q): the row of the block times the column of the weight matrix. The change
    of format to bf16 and back is the identity at the extended reals, the zero accumulator adds nothing. -/
theorem lin3_apply (xb : Vec Ideal S5000x64 .f32) (w : Vec Ideal S64x64 .f32) (p : Fin 5000) (q : Fin 64) :
    k3_pay1 (F := Ideal) xb w (ix2 p q) = ∑ k : Fin 64, xb (ix2 p k) * w (ix2 k q) := by
  unfold k3_pay1
  simp only [shapeCast_self]
  rw [show dot_S5000x64_S64x64_S5000x64_1_0_0_1_n_n = DotDims.plain 5000 64 64 from rfl]
  exact matmul_plain_apply none _ _ p q

/-- The linear kernel's payload (launch 6) at (p, q): the row of the block times the column of the weight matrix. The change
    of format to bf16 and back is the identity at the extended reals, the zero accumulator adds nothing. -/
theorem lin6_apply (xb : Vec Ideal S5000x64 .f32) (w : Vec Ideal S64x64 .f32) (p : Fin 5000) (q : Fin 64) :
    k6_pay1 (F := Ideal) xb w (ix2 p q) = ∑ k : Fin 64, xb (ix2 p k) * w (ix2 k q) := by
  unfold k6_pay1
  simp only [shapeCast_self]
  rw [show dot_S5000x64_S64x64_S5000x64_1_0_0_1_n_n = DotDims.plain 5000 64 64 from rfl]
  exact matmul_plain_apply none _ _ p q

/-- The linear kernel's payload (launch 9) at (p, q): the row of the block times the column of the weight matrix. The change
    of format to bf16 and back is the identity at the extended reals, the zero accumulator adds nothing. -/
theorem lin9_apply (xb : Vec Ideal S5000x64 .f32) (w : Vec Ideal S64x64 .f32) (p : Fin 5000) (q : Fin 64) :
    k9_pay1 (F := Ideal) xb w (ix2 p q) = ∑ k : Fin 64, xb (ix2 p k) * w (ix2 k q) := by
  unfold k9_pay1
  simp only [shapeCast_self]
  rw [show dot_S5000x64_S64x64_S5000x64_1_0_0_1_n_n = DotDims.plain 5000 64 64 from rfl]
  exact matmul_plain_apply none _ _ p q

end Cert.Val

end
-- ==== Proof.LibColumn.lean ====
/-
  Column-shaped layout operations read at an index: a column [a, 1] flattened to [a] and back, a column
  broadcast along its rows to [a, b], and a lane reduction of an [a, b] array read at a row as a sum or a
  maximum over the row. Each says which single element (or which row) of the operand an element of the result reads.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnIdx

open Idealize.ShloMosaic ValueIdx

variable {α : Type}

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` array (a `multi_reduction <add>` over axis 1 from the zero word), read at row `p`
    at the ideal instance: the sum of the row. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

/-- A lane maximum of an `[a, b]` array (a `multi_reduction <maximumf>` over axis 1 from the word of -∞), read at row
    `p` at the ideal instance: the fold of `max` over the row, from -∞. -/
theorem rowMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src _ h hφ hacc (ix1 p)).trans
    (congrArg ((Finset.univ : Finset (Fin b)).fold max (Ideal.ofBits .f32 0xFF800000#32)) (funext fun k =>
      congrArg src (funext fun ax => Fin.ext (by
        match ax with
        | ⟨0, _⟩ => rfl
        | ⟨1, _⟩ => rfl))))

/-- Seven columns `[a, 1]` joined side by side into `[a, 7]`: entry `(p, k)` is column `k`'s entry of row `p`. -/
theorem concat7_apply {a : ℕ} (x0 x1 x2 x3 x4 x5 x6 : (⟨2, ![a, 1]⟩ : Shape).Idx → α)
    (h : Shape.Concatenates (([⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] : List ((s : Shape) × (s.Idx → α))).map (·.1)) ⟨2, ![a, 7]⟩ 1)
    (p : Fin a) (k : Fin 7) :
    concatenate ⟨2, ![a, 7]⟩ 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] h (ix2 p k) = (![x0, x1, x2, x3, x4, x5, x6] k) (ix2 p (0 : Fin 1)) := by
  have hi : ∀ (n : Fin 7) (b : Fin (⟨2, ![a, 1]⟩ : Shape).rank), b.cast (rfl : (2 : ℕ) = 2) ≠ (1 : Fin 2) →
      ((ix2 p (0 : Fin 1) : (⟨2, ![a, 1]⟩ : Shape).Idx) b).val = ((ix2 p n : (⟨2, ![a, 7]⟩ : Shape).Idx) (b.cast rfl)).val := by
    intro n b hb
    match b with
    | ⟨0, _⟩ => rfl
    | ⟨1, _⟩ => exact absurd rfl hb
  match k with
  | ⟨0, _⟩ => exact concatenate_apply_piece 1 _ h _ 0 (by simp) _ x0 rfl rfl 0 rfl (ix2 p (0 : Fin 1)) (hi 0) rfl
  | ⟨1, _⟩ => exact concatenate_apply_piece 1 _ h _ 1 (by simp) _ x1 rfl rfl 1 rfl (ix2 p (0 : Fin 1)) (hi 1) rfl
  | ⟨2, _⟩ => exact concatenate_apply_piece 1 _ h _ 2 (by simp) _ x2 rfl rfl 2 rfl (ix2 p (0 : Fin 1)) (hi 2) rfl
  | ⟨3, _⟩ => exact concatenate_apply_piece 1 _ h _ 3 (by simp) _ x3 rfl rfl 3 rfl (ix2 p (0 : Fin 1)) (hi 3) rfl
  | ⟨4, _⟩ => exact concatenate_apply_piece 1 _ h _ 4 (by simp) _ x4 rfl rfl 4 rfl (ix2 p (0 : Fin 1)) (hi 4) rfl
  | ⟨5, _⟩ => exact concatenate_apply_piece 1 _ h _ 5 (by simp) _ x5 rfl rfl 5 rfl (ix2 p (0 : Fin 1)) (hi 5) rfl
  | ⟨6, _⟩ => exact concatenate_apply_piece 1 _ h _ 6 (by simp) _ x6 rfl rfl 6 rfl (ix2 p (0 : Fin 1)) (hi 6) rfl

end Idealize.ShloMosaic.ColumnIdx

end
-- ==== Proof.Val.Edge.lean ====
/-
  The edge kernels' payloads read at an index, at the extended reals: entry (p, q) is the edge weight of row p times
  (z[p,q] + the sum over k of (xs[p,k] · xd[p,k]) · W[k,q]).
-/
import proofs.«126583_j73280732004963_1_alg».proof.Proof.Gen.KernelIdeal.Skeleton
import proofs.«126583_j73280732004963_1_alg».proof.Proof.Val.Mat
import proofs.«126583_j73280732004963_1_alg».proof.Proof.LibColumn
import Idealize.ShloMosaic.Lib.Pipeline.Value

noncomputable section

namespace Cert.Val

open Idealize.ShloMosaic ValueIdx Cert.KernelIdeal Cert.KernelIdeal.Gen

/-- The edge kernel's payload (launch 1) at (p, q): the edge's weight times (the projected source entry plus the row of the
    elementwise product of the two gathered blocks times the column of the weight matrix). -/
theorem edge1_apply (z xs xd : Vec Ideal S8000x64 .f32) (W : Vec Ideal S64x64 .f32) (wc : Vec Ideal S8000x1 .f32)
    (p : Fin 8000) (q : Fin 64) :
    k1_pay1 (F := Ideal) z xs xd W wc (ix2 p q)
      = wc (ix2 p (0 : Fin 1)) * (z (ix2 p q) + ∑ k : Fin 64, (xs (ix2 p k) * xd (ix2 p k)) * W (ix2 k q)) := by
  unfold k1_pay1
  simp only [shapeCast_self]
  rw [mulf_apply, addf_apply, ColumnIdx.broadcastTo_a1_ab_apply,
    show dot_S8000x64_S64x64_S8000x64_1_0_0_1_n_n = DotDims.plain 8000 64 64 from rfl, matmul_plain_apply]
  rfl

/-- The edge kernel's payload (launch 4) at (p, q): the edge's weight times (the projected source entry plus the row of the
    elementwise product of the two gathered blocks times the column of the weight matrix). -/
theorem edge4_apply (z xs xd : Vec Ideal S8000x64 .f32) (W : Vec Ideal S64x64 .f32) (wc : Vec Ideal S8000x1 .f32)
    (p : Fin 8000) (q : Fin 64) :
    k4_pay1 (F := Ideal) z xs xd W wc (ix2 p q)
      = wc (ix2 p (0 : Fin 1)) * (z (ix2 p q) + ∑ k : Fin 64, (xs (ix2 p k) * xd (ix2 p k)) * W (ix2 k q)) := by
  unfold k4_pay1
  simp only [shapeCast_self]
  rw [mulf_apply, addf_apply, ColumnIdx.broadcastTo_a1_ab_apply,
    show dot_S8000x64_S64x64_S8000x64_1_0_0_1_n_n = DotDims.plain 8000 64 64 from rfl, matmul_plain_apply]
  rfl

/-- The edge kernel's payload (launch 7) at (p, q): the edge's weight times (the projected source entry plus the row of the
    elementwise product of the two gathered blocks times the column of the weight matrix). -/
theorem edge7_apply (z xs xd : Vec Ideal S8000x64 .f32) (W : Vec Ideal S64x64 .f32) (wc : Vec Ideal S8000x1 .f32)
    (p : Fin 8000) (q : Fin 64) :
    k7_pay1 (F := Ideal) z xs xd W wc (ix2 p q)
      = wc (ix2 p (0 : Fin 1)) * (z (ix2 p q) + ∑ k : Fin 64, (xs (ix2 p k) * xd (ix2 p k)) * W (ix2 k q)) := by
  unfold k7_pay1
  simp only [shapeCast_self]
  rw [mulf_apply, addf_apply, ColumnIdx.broadcastTo_a1_ab_apply,
    show dot_S8000x64_S64x64_S8000x64_1_0_0_1_n_n = DotDims.plain 8000 64 64 from rfl, matmul_plain_apply]
  rfl

/-- The edge kernel's payload (launch 10) at (p, q): the edge's weight times (the projected source entry plus the row of the
    elementwise product of the two gathered blocks times the column of the weight matrix). -/
theorem edge10_apply (z xs xd : Vec Ideal S8000x64 .f32) (W : Vec Ideal S64x64 .f32) (wc : Vec Ideal S8000x1 .f32)
    (p : Fin 8000) (q : Fin 64) :
    k10_pay1 (F := Ideal) z xs xd W wc (ix2 p q)
      = wc (ix2 p (0 : Fin 1)) * (z (ix2 p q) + ∑ k : Fin 64, (xs (ix2 p k) * xd (ix2 p k)) * W (ix2 k q)) := by
  unfold k10_pay1
  simp only [shapeCast_self]
  rw [mulf_apply, addf_apply, ColumnIdx.broadcastTo_a1_ab_apply,
    show dot_S8000x64_S64x64_S8000x64_1_0_0_1_n_n = DotDims.plain 8000 64 64 from rfl, matmul_plain_apply]
  rfl

end Cert.Val

end
-- ==== Proof.Val.Self.lean ====
/-
  The self-loop kernels' payloads read at an index, at the extended reals: entry (p, q) is the leaky rectifier of
  (the sum over k of x[p,k] · W[k,q]) + zs[p,q].
-/
import proofs.«126583_j73280732004963_1_alg».proof.Proof.Gen.KernelIdeal.Skeleton
import proofs.«126583_j73280732004963_1_alg».proof.Proof.Val.Mat
import proofs.«126583_j73280732004963_1_alg».proof.Proof.Val.Spec
import Idealize.ShloMosaic.Lib.Pipeline.Value

noncomputable section

namespace Cert.Val

open Idealize.ShloMosaic ValueIdx Cert.KernelIdeal Cert.KernelIdeal.Gen

/-- The kernel's select on the strict comparison with zero, at one extended real: the leaky rectifier. The comparison's bit
    is 1 exactly when 0 < s. -/
theorem leaky_select (s : EReal) :
    Scalar.select (FloatOps.cmpf (F := Ideal) (φ := .f32) .ogt s (Scalar.ofBits (F := Ideal) .f32 0x00000000#32)) s
      (FloatOps.mulf (F := Ideal) (φ := .f32) (Scalar.ofBits (F := Ideal) .f32 0x3C23D70A#32) s) = leaky s := by
  show Scalar.select (Ideal.cmp .ogt s (Ideal.ofBits .f32 0x00000000#32)) s (Ideal.ofBits .f32 0x3C23D70A#32 * s) = _
  rw [Ideal.ofBits_zero_f32]
  unfold leaky Ideal.cmp Scalar.select
  by_cases h : (0 : EReal) < s
  · simp [h]
  · simp [h]

/-- The self-loop kernel's payload (launch 2) at (p, q): the leaky rectifier of (the row of the block times the column of
    the weight matrix, plus the aggregated entry). -/
theorem self2_apply (x : Vec Ideal S5000x64 .f32) (W : Vec Ideal S64x64 .f32) (zs : Vec Ideal S5000x64 .f32)
    (p : Fin 5000) (q : Fin 64) :
    k2_pay1 (F := Ideal) x W zs (ix2 p q) = leaky ((∑ k : Fin 64, x (ix2 p k) * W (ix2 k q)) + zs (ix2 p q)) := by
  unfold k2_pay1
  simp only [shapeCast_self]
  rw [select_apply, cmpf_apply, mulf_apply, addf_apply, broadcast_apply, broadcast_apply,
    show dot_S5000x64_S64x64_S5000x64_1_0_0_1_n_n = DotDims.plain 5000 64 64 from rfl, matmul_plain_apply]
  exact leaky_select _

/-- The self-loop kernel's payload (launch 5) at (p, q): the leaky rectifier of (the row of the block times the column of
    the weight matrix, plus the aggregated entry). -/
theorem self5_apply (x : Vec Ideal S5000x64 .f32) (W : Vec Ideal S64x64 .f32) (zs : Vec Ideal S5000x64 .f32)
    (p : Fin 5000) (q : Fin 64) :
    k5_pay1 (F := Ideal) x W zs (ix2 p q) = leaky ((∑ k : Fin 64, x (ix2 p k) * W (ix2 k q)) + zs (ix2 p q)) := by
  unfold k5_pay1
  simp only [shapeCast_self]
  rw [select_apply, cmpf_apply, mulf_apply, addf_apply, broadcast_apply, broadcast_apply,
    show dot_S5000x64_S64x64_S5000x64_1_0_0_1_n_n = DotDims.plain 5000 64 64 from rfl, matmul_plain_apply]
  exact leaky_select _

/-- The self-loop kernel's payload (launch 8) at (p, q): the leaky rectifier of (the row of the block times the column of
    the weight matrix, plus the aggregated entry). -/
theorem self8_apply (x : Vec Ideal S5000x64 .f32) (W : Vec Ideal S64x64 .f32) (zs : Vec Ideal S5000x64 .f32)
    (p : Fin 5000) (q : Fin 64) :
    k8_pay1 (F := Ideal) x W zs (ix2 p q) = leaky ((∑ k : Fin 64, x (ix2 p k) * W (ix2 k q)) + zs (ix2 p q)) := by
  unfold k8_pay1
  simp only [shapeCast_self]
  rw [select_apply, cmpf_apply, mulf_apply, addf_apply, broadcast_apply, broadcast_apply,
    show dot_S5000x64_S64x64_S5000x64_1_0_0_1_n_n = DotDims.plain 5000 64 64 from rfl, matmul_plain_apply]
  exact leaky_select _

/-- The self-loop kernel's payload (launch 11) at (p, q): the leaky rectifier of (the row of the block times the column of
    the weight matrix, plus the aggregated entry). -/
theorem self11_apply (x : Vec Ideal S5000x64 .f32) (W : Vec Ideal S64x64 .f32) (zs : Vec Ideal S5000x64 .f32)
    (p : Fin 5000) (q : Fin 64) :
    k11_pay1 (F := Ideal) x W zs (ix2 p q) = leaky ((∑ k : Fin 64, x (ix2 p k) * W (ix2 k q)) + zs (ix2 p q)) := by
  unfold k11_pay1
  simp only [shapeCast_self]
  rw [select_apply, cmpf_apply, mulf_apply, addf_apply, broadcast_apply, broadcast_apply,
    show dot_S5000x64_S64x64_S5000x64_1_0_0_1_n_n = DotDims.plain 5000 64 64 from rfl, matmul_plain_apply]
  exact leaky_select _

end Cert.Val

end
-- ==== Proof.Val.Dot.lean ====
/-
  The score kernel's payload read at an index, at the extended reals: entry (p, 0) of the column is the sum over the 192
  features of hu[p,k] · hi[p,k].
-/
import proofs.«126583_j73280732004963_1_alg».proof.Proof.Gen.KernelIdeal.Skeleton
import proofs.«126583_j73280732004963_1_alg».proof.Proof.LibColumn
import Idealize.ShloMosaic.Lib.Pipeline.Value

noncomputable section

namespace Cert.Val

open Idealize.ShloMosaic ValueIdx Cert.KernelIdeal Cert.KernelIdeal.Gen

/-- The score kernel's payload at (p, 0): the lane sum of the elementwise product of the two blocks' rows p, cast from [5000]
    to the column [5000,1]. -/
theorem dot12_apply (hu hi : Vec Ideal S5000x192 .f32) (p : Fin 5000) :
    k12_pay1 (F := Ideal) hu hi (ix2 p (0 : Fin 1)) = ∑ k : Fin 192, hu (ix2 p k) * hi (ix2 p k) := by
  unfold k12_pay1
  simp only [shapeCast_self]
  rw [ColumnIdx.shapeCast_a_a1_apply]
  exact ColumnIdx.rowSum_apply _ _ _ _ p

end Cert.Val

end
-- ==== Proof.Val.Payloads.lean ====
/-
  Every kernel payload of the program read at an index, at the extended reals: the linear kernels (a block times the weight
  matrix), the edge kernels (the edge weight times the projected source entry plus the projected product of the gathered rows),
  the self-loop kernels (the leaky rectifier of the projected row plus the aggregate) and the score kernel (the row-wise sum of
  products). One sibling module per kind.
-/
import proofs.«126583_j73280732004963_1_alg».proof.Proof.Val.Lin
import proofs.«126583_j73280732004963_1_alg».proof.Proof.Val.Edge
import proofs.«126583_j73280732004963_1_alg».proof.Proof.Val.Self
import proofs.«126583_j73280732004963_1_alg».proof.Proof.Val.Dot
-- ==== Proof.KI.Finals.lean ====
/- Each kernel launch's output array, at the boundary after it, as the launch's whole-array function of the boundary contents
   before it. -/
import proofs.«126583_j73280732004963_1_alg».proof.Proof.KI.Fold
import proofs.«126583_j73280732004963_1_alg».proof.Proof.KI.Val0
import proofs.«126583_j73280732004963_1_alg».proof.Proof.KI.Val1
import proofs.«126583_j73280732004963_1_alg».proof.Proof.KI.Val2
import proofs.«126583_j73280732004963_1_alg».proof.Proof.KI.Val3
import proofs.«126583_j73280732004963_1_alg».proof.Proof.KI.Val4
import proofs.«126583_j73280732004963_1_alg».proof.Proof.KI.Val5
import proofs.«126583_j73280732004963_1_alg».proof.Proof.KI.Val6
import proofs.«126583_j73280732004963_1_alg».proof.Proof.KI.Val7
import proofs.«126583_j73280732004963_1_alg».proof.Proof.KI.Val8
import proofs.«126583_j73280732004963_1_alg».proof.Proof.KI.Val9
import proofs.«126583_j73280732004963_1_alg».proof.Proof.KI.Val10
import proofs.«126583_j73280732004963_1_alg».proof.Proof.KI.Val11
import proofs.«126583_j73280732004963_1_alg».proof.Proof.KI.Val12
import proofs.«126583_j73280732004963_1_alg».proof.Proof.Val.Payloads

set_option maxRecDepth 16384

noncomputable section

namespace Cert.KernelIdeal.Hand

open Idealize.ShloMosaic Idealize.ShloMosaic.TcCoe Idealize.SL.Sem ValueIdx
open Cert.KernelIdeal Cert.KernelIdeal.Gen Cert.Val

variable (m : (ℓ : Loc nD τ sig) → Buf (Elt Ideal) ℓ) (ρ : Dev nD → PrngReg)

theorem fin0 (c : Dev nD) : W2 m ρ c (Proc.devRef .tc main_v39) = Glin (a := 100000) (W1 m ρ c (Proc.devRef .tc main_v6)) (W1 m ρ c (Proc.devRef .tc main_arg2)) :=
  (W2_arr m ρ c 2).trans (final0 (V1 m ρ) lin0_apply c)

theorem fin1 (c : Dev nD) : W4 m ρ c (Proc.devRef .tc main_v61) = Gedge (a := 1000000) (W3 m ρ c (Proc.devRef .tc main_v46)) (W3 m ρ c (Proc.devRef .tc main_v53)) (W3 m ρ c (Proc.devRef .tc main_v60)) (W3 m ρ c (Proc.devRef .tc main_v38)) (W3 m ρ c (Proc.devRef .tc main_arg3)) :=
  (W4_arr m ρ c 5).trans (final1 (V3 m ρ) edge1_apply c)

theorem fin2 (c : Dev nD) : W6 m ρ c (Proc.devRef .tc main_v65) = Gself (a := 50000) (W5 m ρ c (Proc.devRef .tc main_v13)) (W5 m ρ c (Proc.devRef .tc main_arg2)) (W5 m ρ c (Proc.devRef .tc main_v64)) :=
  (W6_arr m ρ c 3).trans (final2 (V5 m ρ) self2_apply c)

theorem fin3 (c : Dev nD) : W7 m ρ c (Proc.devRef .tc main_v66) = Glin (a := 50000) (W6 m ρ c (Proc.devRef .tc main_v13)) (W6 m ρ c (Proc.devRef .tc main_arg4)) :=
  (W7_arr m ρ c 2).trans (final3 (V6 m ρ) lin3_apply c)

theorem fin4 (c : Dev nD) : W9 m ρ c (Proc.devRef .tc main_v88) = Gedge (a := 1000000) (W8 m ρ c (Proc.devRef .tc main_v73)) (W8 m ρ c (Proc.devRef .tc main_v80)) (W8 m ρ c (Proc.devRef .tc main_v87)) (W8 m ρ c (Proc.devRef .tc main_v38)) (W8 m ρ c (Proc.devRef .tc main_arg5)) :=
  (W9_arr m ρ c 5).trans (final4 (V8 m ρ) edge4_apply c)

theorem fin5 (c : Dev nD) : W11 m ρ c (Proc.devRef .tc main_v92) = Gself (a := 100000) (W10 m ρ c (Proc.devRef .tc main_v6)) (W10 m ρ c (Proc.devRef .tc main_arg4)) (W10 m ρ c (Proc.devRef .tc main_v91)) :=
  (W11_arr m ρ c 3).trans (final5 (V10 m ρ) self5_apply c)

theorem fin6 (c : Dev nD) : W12 m ρ c (Proc.devRef .tc main_v93) = Glin (a := 100000) (W11 m ρ c (Proc.devRef .tc main_v92)) (W11 m ρ c (Proc.devRef .tc main_arg6)) :=
  (W12_arr m ρ c 2).trans (final6 (V11 m ρ) lin6_apply c)

theorem fin7 (c : Dev nD) : W14 m ρ c (Proc.devRef .tc main_v115) = Gedge (a := 1000000) (W13 m ρ c (Proc.devRef .tc main_v100)) (W13 m ρ c (Proc.devRef .tc main_v107)) (W13 m ρ c (Proc.devRef .tc main_v114)) (W13 m ρ c (Proc.devRef .tc main_v38)) (W13 m ρ c (Proc.devRef .tc main_arg7)) :=
  (W14_arr m ρ c 5).trans (final7 (V13 m ρ) edge7_apply c)

theorem fin8 (c : Dev nD) : W16 m ρ c (Proc.devRef .tc main_v119) = Gself (a := 50000) (W15 m ρ c (Proc.devRef .tc main_v65)) (W15 m ρ c (Proc.devRef .tc main_arg6)) (W15 m ρ c (Proc.devRef .tc main_v118)) :=
  (W16_arr m ρ c 3).trans (final8 (V15 m ρ) self8_apply c)

theorem fin9 (c : Dev nD) : W17 m ρ c (Proc.devRef .tc main_v120) = Glin (a := 50000) (W16 m ρ c (Proc.devRef .tc main_v65)) (W16 m ρ c (Proc.devRef .tc main_arg8)) :=
  (W17_arr m ρ c 2).trans (final9 (V16 m ρ) lin9_apply c)

theorem fin10 (c : Dev nD) : W19 m ρ c (Proc.devRef .tc main_v142) = Gedge (a := 1000000) (W18 m ρ c (Proc.devRef .tc main_v127)) (W18 m ρ c (Proc.devRef .tc main_v134)) (W18 m ρ c (Proc.devRef .tc main_v141)) (W18 m ρ c (Proc.devRef .tc main_v38)) (W18 m ρ c (Proc.devRef .tc main_arg9)) :=
  (W19_arr m ρ c 5).trans (final10 (V18 m ρ) edge10_apply c)

theorem fin11 (c : Dev nD) : W21 m ρ c (Proc.devRef .tc main_v146) = Gself (a := 100000) (W20 m ρ c (Proc.devRef .tc main_v92)) (W20 m ρ c (Proc.devRef .tc main_arg8)) (W20 m ρ c (Proc.devRef .tc main_v145)) :=
  (W21_arr m ρ c 3).trans (final11 (V20 m ρ) self11_apply c)

theorem fin12 (c : Dev nD) : W23 m ρ c (Proc.devRef .tc main_v163) = Gdot (a := 500000) (W22 m ρ c (Proc.devRef .tc main_v155)) (W22 m ρ c (Proc.devRef .tc main_v162)) :=
  (W23_arr m ρ c 2).trans (final12 (V22 m ρ) (fun hu hi p q => by rw [Fin.fin_one_eq_zero q]; exact dot12_apply hu hi p) c)

end Cert.KernelIdeal.Hand

end
-- ==== Proof.KI.Keep.lean ====
/- A buffer keeps its contents across a run of items none of which writes it: no stretch's operation has it as its result, and it is no
   launch's output array. -/
import proofs.«126583_j73280732004963_1_alg».proof.Proof.KI.Fold

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

theorem Wkeep_1_2 (c : Dev nD) (b : Ref sig .tc) (h1 : b ≠ main_v39) :
    W2 m ρ c (Proc.devRef .tc b) = W1 m ρ c (Proc.devRef .tc b) :=
  (W2_keep m ρ c b h1).trans <|
  rfl

theorem Wkeep_1_3 (c : Dev nD) (b : Ref sig .tc) (h1 : b ≠ main_v39) (h2 : b ∉ hostOps1_W) :
    W3 m ρ c (Proc.devRef .tc b) = W1 m ρ c (Proc.devRef .tc b) :=
  (W3_keep m ρ c b h2).trans <|
  (W2_keep m ρ c b h1).trans <|
  rfl

theorem Wkeep_1_5 (c : Dev nD) (b : Ref sig .tc) (h1 : b ≠ main_v39) (h2 : b ∉ hostOps1_W) (h3 : b ≠ main_v61) (h4 : b ∉ hostOps2_W) :
    W5 m ρ c (Proc.devRef .tc b) = W1 m ρ c (Proc.devRef .tc b) :=
  (W5_keep m ρ c b h4).trans <|
  (W4_keep m ρ c b h3).trans <|
  (W3_keep m ρ c b h2).trans <|
  (W2_keep m ρ c b h1).trans <|
  rfl

theorem Wkeep_1_6 (c : Dev nD) (b : Ref sig .tc) (h1 : b ≠ main_v39) (h2 : b ∉ hostOps1_W) (h3 : b ≠ main_v61) (h4 : b ∉ hostOps2_W) (h5 : b ≠ main_v65) :
    W6 m ρ c (Proc.devRef .tc b) = W1 m ρ c (Proc.devRef .tc b) :=
  (W6_keep m ρ c b h5).trans <|
  (W5_keep m ρ c b h4).trans <|
  (W4_keep m ρ c b h3).trans <|
  (W3_keep m ρ c b h2).trans <|
  (W2_keep m ρ c b h1).trans <|
  rfl

theorem Wkeep_1_7 (c : Dev nD) (b : Ref sig .tc) (h1 : b ≠ main_v39) (h2 : b ∉ hostOps1_W) (h3 : b ≠ main_v61) (h4 : b ∉ hostOps2_W) (h5 : b ≠ main_v65) (h6 : b ≠ main_v66) :
    W7 m ρ c (Proc.devRef .tc b) = W1 m ρ c (Proc.devRef .tc b) :=
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  rfl

theorem Wkeep_1_8 (c : Dev nD) (b : Ref sig .tc) (h1 : b ≠ main_v39) (h2 : b ∉ hostOps1_W) (h3 : b ≠ main_v61) (h4 : b ∉ hostOps2_W) (h5 : b ≠ main_v65) (h6 : b ≠ main_v66) (h7 : b ∉ hostOps4_W) :
    W8 m ρ c (Proc.devRef .tc b) = W1 m ρ c (Proc.devRef .tc b) :=
  (W8_keep m ρ c b h7).trans <|
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  rfl

theorem Wkeep_1_10 (c : Dev nD) (b : Ref sig .tc) (h1 : b ≠ main_v39) (h2 : b ∉ hostOps1_W) (h3 : b ≠ main_v61) (h4 : b ∉ hostOps2_W) (h5 : b ≠ main_v65) (h6 : b ≠ main_v66) (h7 : b ∉ hostOps4_W) (h8 : b ≠ main_v88) (h9 : b ∉ hostOps5_W) :
    W10 m ρ c (Proc.devRef .tc b) = W1 m ρ c (Proc.devRef .tc b) :=
  (W10_keep m ρ c b h9).trans <|
  (W9_keep m ρ c b h8).trans <|
  (W8_keep m ρ c b h7).trans <|
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  rfl

theorem Wkeep_1_13 (c : Dev nD) (b : Ref sig .tc) (h1 : b ≠ main_v39) (h2 : b ∉ hostOps1_W) (h3 : b ≠ main_v61) (h4 : b ∉ hostOps2_W) (h5 : b ≠ main_v65) (h6 : b ≠ main_v66) (h7 : b ∉ hostOps4_W) (h8 : b ≠ main_v88) (h9 : b ∉ hostOps5_W) (h10 : b ≠ main_v92) (h11 : b ≠ main_v93) (h12 : b ∉ hostOps7_W) :
    W13 m ρ c (Proc.devRef .tc b) = W1 m ρ c (Proc.devRef .tc b) :=
  (W13_keep m ρ c b h12).trans <|
  (W12_keep m ρ c b h11).trans <|
  (W11_keep m ρ c b h10).trans <|
  (W10_keep m ρ c b h9).trans <|
  (W9_keep m ρ c b h8).trans <|
  (W8_keep m ρ c b h7).trans <|
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  rfl

theorem Wkeep_1_18 (c : Dev nD) (b : Ref sig .tc) (h1 : b ≠ main_v39) (h2 : b ∉ hostOps1_W) (h3 : b ≠ main_v61) (h4 : b ∉ hostOps2_W) (h5 : b ≠ main_v65) (h6 : b ≠ main_v66) (h7 : b ∉ hostOps4_W) (h8 : b ≠ main_v88) (h9 : b ∉ hostOps5_W) (h10 : b ≠ main_v92) (h11 : b ≠ main_v93) (h12 : b ∉ hostOps7_W) (h13 : b ≠ main_v115) (h14 : b ∉ hostOps8_W) (h15 : b ≠ main_v119) (h16 : b ≠ main_v120) (h17 : b ∉ hostOps10_W) :
    W18 m ρ c (Proc.devRef .tc b) = W1 m ρ c (Proc.devRef .tc b) :=
  (W18_keep m ρ c b h17).trans <|
  (W17_keep m ρ c b h16).trans <|
  (W16_keep m ρ c b h15).trans <|
  (W15_keep m ρ c b h14).trans <|
  (W14_keep m ρ c b h13).trans <|
  (W13_keep m ρ c b h12).trans <|
  (W12_keep m ρ c b h11).trans <|
  (W11_keep m ρ c b h10).trans <|
  (W10_keep m ρ c b h9).trans <|
  (W9_keep m ρ c b h8).trans <|
  (W8_keep m ρ c b h7).trans <|
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  rfl

theorem Wkeep_1_21 (c : Dev nD) (b : Ref sig .tc) (h1 : b ≠ main_v39) (h2 : b ∉ hostOps1_W) (h3 : b ≠ main_v61) (h4 : b ∉ hostOps2_W) (h5 : b ≠ main_v65) (h6 : b ≠ main_v66) (h7 : b ∉ hostOps4_W) (h8 : b ≠ main_v88) (h9 : b ∉ hostOps5_W) (h10 : b ≠ main_v92) (h11 : b ≠ main_v93) (h12 : b ∉ hostOps7_W) (h13 : b ≠ main_v115) (h14 : b ∉ hostOps8_W) (h15 : b ≠ main_v119) (h16 : b ≠ main_v120) (h17 : b ∉ hostOps10_W) (h18 : b ≠ main_v142) (h19 : b ∉ hostOps11_W) (h20 : b ≠ main_v146) :
    W21 m ρ c (Proc.devRef .tc b) = W1 m ρ c (Proc.devRef .tc b) :=
  (W21_keep m ρ c b h20).trans <|
  (W20_keep m ρ c b h19).trans <|
  (W19_keep m ρ c b h18).trans <|
  (W18_keep m ρ c b h17).trans <|
  (W17_keep m ρ c b h16).trans <|
  (W16_keep m ρ c b h15).trans <|
  (W15_keep m ρ c b h14).trans <|
  (W14_keep m ρ c b h13).trans <|
  (W13_keep m ρ c b h12).trans <|
  (W12_keep m ρ c b h11).trans <|
  (W11_keep m ρ c b h10).trans <|
  (W10_keep m ρ c b h9).trans <|
  (W9_keep m ρ c b h8).trans <|
  (W8_keep m ρ c b h7).trans <|
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  rfl

theorem Wkeep_6_12 (c : Dev nD) (b : Ref sig .tc) (h6 : b ≠ main_v66) (h7 : b ∉ hostOps4_W) (h8 : b ≠ main_v88) (h9 : b ∉ hostOps5_W) (h10 : b ≠ main_v92) (h11 : b ≠ main_v93) :
    W12 m ρ c (Proc.devRef .tc b) = W6 m ρ c (Proc.devRef .tc b) :=
  (W12_keep m ρ c b h11).trans <|
  (W11_keep m ρ c b h10).trans <|
  (W10_keep m ρ c b h9).trans <|
  (W9_keep m ρ c b h8).trans <|
  (W8_keep m ρ c b h7).trans <|
  (W7_keep m ρ c b h6).trans <|
  rfl

theorem Wkeep_6_15 (c : Dev nD) (b : Ref sig .tc) (h6 : b ≠ main_v66) (h7 : b ∉ hostOps4_W) (h8 : b ≠ main_v88) (h9 : b ∉ hostOps5_W) (h10 : b ≠ main_v92) (h11 : b ≠ main_v93) (h12 : b ∉ hostOps7_W) (h13 : b ≠ main_v115) (h14 : b ∉ hostOps8_W) :
    W15 m ρ c (Proc.devRef .tc b) = W6 m ρ c (Proc.devRef .tc b) :=
  (W15_keep m ρ c b h14).trans <|
  (W14_keep m ρ c b h13).trans <|
  (W13_keep m ρ c b h12).trans <|
  (W12_keep m ρ c b h11).trans <|
  (W11_keep m ρ c b h10).trans <|
  (W10_keep m ρ c b h9).trans <|
  (W9_keep m ρ c b h8).trans <|
  (W8_keep m ρ c b h7).trans <|
  (W7_keep m ρ c b h6).trans <|
  rfl

theorem Wkeep_6_16 (c : Dev nD) (b : Ref sig .tc) (h6 : b ≠ main_v66) (h7 : b ∉ hostOps4_W) (h8 : b ≠ main_v88) (h9 : b ∉ hostOps5_W) (h10 : b ≠ main_v92) (h11 : b ≠ main_v93) (h12 : b ∉ hostOps7_W) (h13 : b ≠ main_v115) (h14 : b ∉ hostOps8_W) (h15 : b ≠ main_v119) :
    W16 m ρ c (Proc.devRef .tc b) = W6 m ρ c (Proc.devRef .tc b) :=
  (W16_keep m ρ c b h15).trans <|
  (W15_keep m ρ c b h14).trans <|
  (W14_keep m ρ c b h13).trans <|
  (W13_keep m ρ c b h12).trans <|
  (W12_keep m ρ c b h11).trans <|
  (W11_keep m ρ c b h10).trans <|
  (W10_keep m ρ c b h9).trans <|
  (W9_keep m ρ c b h8).trans <|
  (W8_keep m ρ c b h7).trans <|
  (W7_keep m ρ c b h6).trans <|
  rfl

theorem Wkeep_6_17 (c : Dev nD) (b : Ref sig .tc) (h6 : b ≠ main_v66) (h7 : b ∉ hostOps4_W) (h8 : b ≠ main_v88) (h9 : b ∉ hostOps5_W) (h10 : b ≠ main_v92) (h11 : b ≠ main_v93) (h12 : b ∉ hostOps7_W) (h13 : b ≠ main_v115) (h14 : b ∉ hostOps8_W) (h15 : b ≠ main_v119) (h16 : b ≠ main_v120) :
    W17 m ρ c (Proc.devRef .tc b) = W6 m ρ c (Proc.devRef .tc b) :=
  (W17_keep m ρ c b h16).trans <|
  (W16_keep m ρ c b h15).trans <|
  (W15_keep m ρ c b h14).trans <|
  (W14_keep m ρ c b h13).trans <|
  (W13_keep m ρ c b h12).trans <|
  (W12_keep m ρ c b h11).trans <|
  (W11_keep m ρ c b h10).trans <|
  (W10_keep m ρ c b h9).trans <|
  (W9_keep m ρ c b h8).trans <|
  (W8_keep m ρ c b h7).trans <|
  (W7_keep m ρ c b h6).trans <|
  rfl

theorem Wkeep_6_21 (c : Dev nD) (b : Ref sig .tc) (h6 : b ≠ main_v66) (h7 : b ∉ hostOps4_W) (h8 : b ≠ main_v88) (h9 : b ∉ hostOps5_W) (h10 : b ≠ main_v92) (h11 : b ≠ main_v93) (h12 : b ∉ hostOps7_W) (h13 : b ≠ main_v115) (h14 : b ∉ hostOps8_W) (h15 : b ≠ main_v119) (h16 : b ≠ main_v120) (h17 : b ∉ hostOps10_W) (h18 : b ≠ main_v142) (h19 : b ∉ hostOps11_W) (h20 : b ≠ main_v146) :
    W21 m ρ c (Proc.devRef .tc b) = W6 m ρ c (Proc.devRef .tc b) :=
  (W21_keep m ρ c b h20).trans <|
  (W20_keep m ρ c b h19).trans <|
  (W19_keep m ρ c b h18).trans <|
  (W18_keep m ρ c b h17).trans <|
  (W17_keep m ρ c b h16).trans <|
  (W16_keep m ρ c b h15).trans <|
  (W15_keep m ρ c b h14).trans <|
  (W14_keep m ρ c b h13).trans <|
  (W13_keep m ρ c b h12).trans <|
  (W12_keep m ρ c b h11).trans <|
  (W11_keep m ρ c b h10).trans <|
  (W10_keep m ρ c b h9).trans <|
  (W9_keep m ρ c b h8).trans <|
  (W8_keep m ρ c b h7).trans <|
  (W7_keep m ρ c b h6).trans <|
  rfl

theorem Wkeep_11_12 (c : Dev nD) (b : Ref sig .tc) (h11 : b ≠ main_v93) :
    W12 m ρ c (Proc.devRef .tc b) = W11 m ρ c (Proc.devRef .tc b) :=
  (W12_keep m ρ c b h11).trans <|
  rfl

theorem Wkeep_11_17 (c : Dev nD) (b : Ref sig .tc) (h11 : b ≠ main_v93) (h12 : b ∉ hostOps7_W) (h13 : b ≠ main_v115) (h14 : b ∉ hostOps8_W) (h15 : b ≠ main_v119) (h16 : b ≠ main_v120) :
    W17 m ρ c (Proc.devRef .tc b) = W11 m ρ c (Proc.devRef .tc b) :=
  (W17_keep m ρ c b h16).trans <|
  (W16_keep m ρ c b h15).trans <|
  (W15_keep m ρ c b h14).trans <|
  (W14_keep m ρ c b h13).trans <|
  (W13_keep m ρ c b h12).trans <|
  (W12_keep m ρ c b h11).trans <|
  rfl

theorem Wkeep_11_20 (c : Dev nD) (b : Ref sig .tc) (h11 : b ≠ main_v93) (h12 : b ∉ hostOps7_W) (h13 : b ≠ main_v115) (h14 : b ∉ hostOps8_W) (h15 : b ≠ main_v119) (h16 : b ≠ main_v120) (h17 : b ∉ hostOps10_W) (h18 : b ≠ main_v142) (h19 : b ∉ hostOps11_W) :
    W20 m ρ c (Proc.devRef .tc b) = W11 m ρ c (Proc.devRef .tc b) :=
  (W20_keep m ρ c b h19).trans <|
  (W19_keep m ρ c b h18).trans <|
  (W18_keep m ρ c b h17).trans <|
  (W17_keep m ρ c b h16).trans <|
  (W16_keep m ρ c b h15).trans <|
  (W15_keep m ρ c b h14).trans <|
  (W14_keep m ρ c b h13).trans <|
  (W13_keep m ρ c b h12).trans <|
  (W12_keep m ρ c b h11).trans <|
  rfl

theorem Wkeep_11_21 (c : Dev nD) (b : Ref sig .tc) (h11 : b ≠ main_v93) (h12 : b ∉ hostOps7_W) (h13 : b ≠ main_v115) (h14 : b ∉ hostOps8_W) (h15 : b ≠ main_v119) (h16 : b ≠ main_v120) (h17 : b ∉ hostOps10_W) (h18 : b ≠ main_v142) (h19 : b ∉ hostOps11_W) (h20 : b ≠ main_v146) :
    W21 m ρ c (Proc.devRef .tc b) = W11 m ρ c (Proc.devRef .tc b) :=
  (W21_keep m ρ c b h20).trans <|
  (W20_keep m ρ c b h19).trans <|
  (W19_keep m ρ c b h18).trans <|
  (W18_keep m ρ c b h17).trans <|
  (W17_keep m ρ c b h16).trans <|
  (W16_keep m ρ c b h15).trans <|
  (W15_keep m ρ c b h14).trans <|
  (W14_keep m ρ c b h13).trans <|
  (W13_keep m ρ c b h12).trans <|
  (W12_keep m ρ c b h11).trans <|
  rfl

theorem Wkeep_16_21 (c : Dev nD) (b : Ref sig .tc) (h16 : b ≠ main_v120) (h17 : b ∉ hostOps10_W) (h18 : b ≠ main_v142) (h19 : b ∉ hostOps11_W) (h20 : b ≠ main_v146) :
    W21 m ρ c (Proc.devRef .tc b) = W16 m ρ c (Proc.devRef .tc b) :=
  (W21_keep m ρ c b h20).trans <|
  (W20_keep m ρ c b h19).trans <|
  (W19_keep m ρ c b h18).trans <|
  (W18_keep m ρ c b h17).trans <|
  (W17_keep m ρ c b h16).trans <|
  rfl

theorem W1_as_launched (c : Dev nD) (b : Ref sig .tc) (h0 : b ∉ hostOps0_W) :
    W1 m ρ c (Proc.devRef .tc b) = m ((c : Thread nD τ).loc b) :=
  (W1_keep m ρ c b h0).trans <|
  rfl

theorem W2_as_launched (c : Dev nD) (b : Ref sig .tc) (h0 : b ∉ hostOps0_W) (h1 : b ≠ main_v39) :
    W2 m ρ c (Proc.devRef .tc b) = m ((c : Thread nD τ).loc b) :=
  (W2_keep m ρ c b h1).trans <|
  (W1_keep m ρ c b h0).trans <|
  rfl

theorem W3_as_launched (c : Dev nD) (b : Ref sig .tc) (h0 : b ∉ hostOps0_W) (h1 : b ≠ main_v39) (h2 : b ∉ hostOps1_W) :
    W3 m ρ c (Proc.devRef .tc b) = m ((c : Thread nD τ).loc b) :=
  (W3_keep m ρ c b h2).trans <|
  (W2_keep m ρ c b h1).trans <|
  (W1_keep m ρ c b h0).trans <|
  rfl

theorem W4_as_launched (c : Dev nD) (b : Ref sig .tc) (h0 : b ∉ hostOps0_W) (h1 : b ≠ main_v39) (h2 : b ∉ hostOps1_W) (h3 : b ≠ main_v61) :
    W4 m ρ c (Proc.devRef .tc b) = m ((c : Thread nD τ).loc b) :=
  (W4_keep m ρ c b h3).trans <|
  (W3_keep m ρ c b h2).trans <|
  (W2_keep m ρ c b h1).trans <|
  (W1_keep m ρ c b h0).trans <|
  rfl

theorem W5_as_launched (c : Dev nD) (b : Ref sig .tc) (h0 : b ∉ hostOps0_W) (h1 : b ≠ main_v39) (h2 : b ∉ hostOps1_W) (h3 : b ≠ main_v61) (h4 : b ∉ hostOps2_W) :
    W5 m ρ c (Proc.devRef .tc b) = m ((c : Thread nD τ).loc b) :=
  (W5_keep m ρ c b h4).trans <|
  (W4_keep m ρ c b h3).trans <|
  (W3_keep m ρ c b h2).trans <|
  (W2_keep m ρ c b h1).trans <|
  (W1_keep m ρ c b h0).trans <|
  rfl

theorem W6_as_launched (c : Dev nD) (b : Ref sig .tc) (h0 : b ∉ hostOps0_W) (h1 : b ≠ main_v39) (h2 : b ∉ hostOps1_W) (h3 : b ≠ main_v61) (h4 : b ∉ hostOps2_W) (h5 : b ≠ main_v65) :
    W6 m ρ c (Proc.devRef .tc b) = m ((c : Thread nD τ).loc b) :=
  (W6_keep m ρ c b h5).trans <|
  (W5_keep m ρ c b h4).trans <|
  (W4_keep m ρ c b h3).trans <|
  (W3_keep m ρ c b h2).trans <|
  (W2_keep m ρ c b h1).trans <|
  (W1_keep m ρ c b h0).trans <|
  rfl

theorem W7_as_launched (c : Dev nD) (b : Ref sig .tc) (h0 : b ∉ hostOps0_W) (h1 : b ≠ main_v39) (h2 : b ∉ hostOps1_W) (h3 : b ≠ main_v61) (h4 : b ∉ hostOps2_W) (h5 : b ≠ main_v65) (h6 : b ≠ main_v66) :
    W7 m ρ c (Proc.devRef .tc b) = m ((c : Thread nD τ).loc b) :=
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  (W1_keep m ρ c b h0).trans <|
  rfl

theorem W8_as_launched (c : Dev nD) (b : Ref sig .tc) (h0 : b ∉ hostOps0_W) (h1 : b ≠ main_v39) (h2 : b ∉ hostOps1_W) (h3 : b ≠ main_v61) (h4 : b ∉ hostOps2_W) (h5 : b ≠ main_v65) (h6 : b ≠ main_v66) (h7 : b ∉ hostOps4_W) :
    W8 m ρ c (Proc.devRef .tc b) = m ((c : Thread nD τ).loc b) :=
  (W8_keep m ρ c b h7).trans <|
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  (W1_keep m ρ c b h0).trans <|
  rfl

theorem W9_as_launched (c : Dev nD) (b : Ref sig .tc) (h0 : b ∉ hostOps0_W) (h1 : b ≠ main_v39) (h2 : b ∉ hostOps1_W) (h3 : b ≠ main_v61) (h4 : b ∉ hostOps2_W) (h5 : b ≠ main_v65) (h6 : b ≠ main_v66) (h7 : b ∉ hostOps4_W) (h8 : b ≠ main_v88) :
    W9 m ρ c (Proc.devRef .tc b) = m ((c : Thread nD τ).loc b) :=
  (W9_keep m ρ c b h8).trans <|
  (W8_keep m ρ c b h7).trans <|
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  (W1_keep m ρ c b h0).trans <|
  rfl

theorem W10_as_launched (c : Dev nD) (b : Ref sig .tc) (h0 : b ∉ hostOps0_W) (h1 : b ≠ main_v39) (h2 : b ∉ hostOps1_W) (h3 : b ≠ main_v61) (h4 : b ∉ hostOps2_W) (h5 : b ≠ main_v65) (h6 : b ≠ main_v66) (h7 : b ∉ hostOps4_W) (h8 : b ≠ main_v88) (h9 : b ∉ hostOps5_W) :
    W10 m ρ c (Proc.devRef .tc b) = m ((c : Thread nD τ).loc b) :=
  (W10_keep m ρ c b h9).trans <|
  (W9_keep m ρ c b h8).trans <|
  (W8_keep m ρ c b h7).trans <|
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  (W1_keep m ρ c b h0).trans <|
  rfl

theorem W11_as_launched (c : Dev nD) (b : Ref sig .tc) (h0 : b ∉ hostOps0_W) (h1 : b ≠ main_v39) (h2 : b ∉ hostOps1_W) (h3 : b ≠ main_v61) (h4 : b ∉ hostOps2_W) (h5 : b ≠ main_v65) (h6 : b ≠ main_v66) (h7 : b ∉ hostOps4_W) (h8 : b ≠ main_v88) (h9 : b ∉ hostOps5_W) (h10 : b ≠ main_v92) :
    W11 m ρ c (Proc.devRef .tc b) = m ((c : Thread nD τ).loc b) :=
  (W11_keep m ρ c b h10).trans <|
  (W10_keep m ρ c b h9).trans <|
  (W9_keep m ρ c b h8).trans <|
  (W8_keep m ρ c b h7).trans <|
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  (W1_keep m ρ c b h0).trans <|
  rfl

theorem W12_as_launched (c : Dev nD) (b : Ref sig .tc) (h0 : b ∉ hostOps0_W) (h1 : b ≠ main_v39) (h2 : b ∉ hostOps1_W) (h3 : b ≠ main_v61) (h4 : b ∉ hostOps2_W) (h5 : b ≠ main_v65) (h6 : b ≠ main_v66) (h7 : b ∉ hostOps4_W) (h8 : b ≠ main_v88) (h9 : b ∉ hostOps5_W) (h10 : b ≠ main_v92) (h11 : b ≠ main_v93) :
    W12 m ρ c (Proc.devRef .tc b) = m ((c : Thread nD τ).loc b) :=
  (W12_keep m ρ c b h11).trans <|
  (W11_keep m ρ c b h10).trans <|
  (W10_keep m ρ c b h9).trans <|
  (W9_keep m ρ c b h8).trans <|
  (W8_keep m ρ c b h7).trans <|
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  (W1_keep m ρ c b h0).trans <|
  rfl

theorem W13_as_launched (c : Dev nD) (b : Ref sig .tc) (h0 : b ∉ hostOps0_W) (h1 : b ≠ main_v39) (h2 : b ∉ hostOps1_W) (h3 : b ≠ main_v61) (h4 : b ∉ hostOps2_W) (h5 : b ≠ main_v65) (h6 : b ≠ main_v66) (h7 : b ∉ hostOps4_W) (h8 : b ≠ main_v88) (h9 : b ∉ hostOps5_W) (h10 : b ≠ main_v92) (h11 : b ≠ main_v93) (h12 : b ∉ hostOps7_W) :
    W13 m ρ c (Proc.devRef .tc b) = m ((c : Thread nD τ).loc b) :=
  (W13_keep m ρ c b h12).trans <|
  (W12_keep m ρ c b h11).trans <|
  (W11_keep m ρ c b h10).trans <|
  (W10_keep m ρ c b h9).trans <|
  (W9_keep m ρ c b h8).trans <|
  (W8_keep m ρ c b h7).trans <|
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  (W1_keep m ρ c b h0).trans <|
  rfl

theorem W14_as_launched (c : Dev nD) (b : Ref sig .tc) (h0 : b ∉ hostOps0_W) (h1 : b ≠ main_v39) (h2 : b ∉ hostOps1_W) (h3 : b ≠ main_v61) (h4 : b ∉ hostOps2_W) (h5 : b ≠ main_v65) (h6 : b ≠ main_v66) (h7 : b ∉ hostOps4_W) (h8 : b ≠ main_v88) (h9 : b ∉ hostOps5_W) (h10 : b ≠ main_v92) (h11 : b ≠ main_v93) (h12 : b ∉ hostOps7_W) (h13 : b ≠ main_v115) :
    W14 m ρ c (Proc.devRef .tc b) = m ((c : Thread nD τ).loc b) :=
  (W14_keep m ρ c b h13).trans <|
  (W13_keep m ρ c b h12).trans <|
  (W12_keep m ρ c b h11).trans <|
  (W11_keep m ρ c b h10).trans <|
  (W10_keep m ρ c b h9).trans <|
  (W9_keep m ρ c b h8).trans <|
  (W8_keep m ρ c b h7).trans <|
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  (W1_keep m ρ c b h0).trans <|
  rfl

theorem W15_as_launched (c : Dev nD) (b : Ref sig .tc) (h0 : b ∉ hostOps0_W) (h1 : b ≠ main_v39) (h2 : b ∉ hostOps1_W) (h3 : b ≠ main_v61) (h4 : b ∉ hostOps2_W) (h5 : b ≠ main_v65) (h6 : b ≠ main_v66) (h7 : b ∉ hostOps4_W) (h8 : b ≠ main_v88) (h9 : b ∉ hostOps5_W) (h10 : b ≠ main_v92) (h11 : b ≠ main_v93) (h12 : b ∉ hostOps7_W) (h13 : b ≠ main_v115) (h14 : b ∉ hostOps8_W) :
    W15 m ρ c (Proc.devRef .tc b) = m ((c : Thread nD τ).loc b) :=
  (W15_keep m ρ c b h14).trans <|
  (W14_keep m ρ c b h13).trans <|
  (W13_keep m ρ c b h12).trans <|
  (W12_keep m ρ c b h11).trans <|
  (W11_keep m ρ c b h10).trans <|
  (W10_keep m ρ c b h9).trans <|
  (W9_keep m ρ c b h8).trans <|
  (W8_keep m ρ c b h7).trans <|
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  (W1_keep m ρ c b h0).trans <|
  rfl

theorem W16_as_launched (c : Dev nD) (b : Ref sig .tc) (h0 : b ∉ hostOps0_W) (h1 : b ≠ main_v39) (h2 : b ∉ hostOps1_W) (h3 : b ≠ main_v61) (h4 : b ∉ hostOps2_W) (h5 : b ≠ main_v65) (h6 : b ≠ main_v66) (h7 : b ∉ hostOps4_W) (h8 : b ≠ main_v88) (h9 : b ∉ hostOps5_W) (h10 : b ≠ main_v92) (h11 : b ≠ main_v93) (h12 : b ∉ hostOps7_W) (h13 : b ≠ main_v115) (h14 : b ∉ hostOps8_W) (h15 : b ≠ main_v119) :
    W16 m ρ c (Proc.devRef .tc b) = m ((c : Thread nD τ).loc b) :=
  (W16_keep m ρ c b h15).trans <|
  (W15_keep m ρ c b h14).trans <|
  (W14_keep m ρ c b h13).trans <|
  (W13_keep m ρ c b h12).trans <|
  (W12_keep m ρ c b h11).trans <|
  (W11_keep m ρ c b h10).trans <|
  (W10_keep m ρ c b h9).trans <|
  (W9_keep m ρ c b h8).trans <|
  (W8_keep m ρ c b h7).trans <|
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  (W1_keep m ρ c b h0).trans <|
  rfl

theorem W17_as_launched (c : Dev nD) (b : Ref sig .tc) (h0 : b ∉ hostOps0_W) (h1 : b ≠ main_v39) (h2 : b ∉ hostOps1_W) (h3 : b ≠ main_v61) (h4 : b ∉ hostOps2_W) (h5 : b ≠ main_v65) (h6 : b ≠ main_v66) (h7 : b ∉ hostOps4_W) (h8 : b ≠ main_v88) (h9 : b ∉ hostOps5_W) (h10 : b ≠ main_v92) (h11 : b ≠ main_v93) (h12 : b ∉ hostOps7_W) (h13 : b ≠ main_v115) (h14 : b ∉ hostOps8_W) (h15 : b ≠ main_v119) (h16 : b ≠ main_v120) :
    W17 m ρ c (Proc.devRef .tc b) = m ((c : Thread nD τ).loc b) :=
  (W17_keep m ρ c b h16).trans <|
  (W16_keep m ρ c b h15).trans <|
  (W15_keep m ρ c b h14).trans <|
  (W14_keep m ρ c b h13).trans <|
  (W13_keep m ρ c b h12).trans <|
  (W12_keep m ρ c b h11).trans <|
  (W11_keep m ρ c b h10).trans <|
  (W10_keep m ρ c b h9).trans <|
  (W9_keep m ρ c b h8).trans <|
  (W8_keep m ρ c b h7).trans <|
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  (W1_keep m ρ c b h0).trans <|
  rfl

theorem W18_as_launched (c : Dev nD) (b : Ref sig .tc) (h0 : b ∉ hostOps0_W) (h1 : b ≠ main_v39) (h2 : b ∉ hostOps1_W) (h3 : b ≠ main_v61) (h4 : b ∉ hostOps2_W) (h5 : b ≠ main_v65) (h6 : b ≠ main_v66) (h7 : b ∉ hostOps4_W) (h8 : b ≠ main_v88) (h9 : b ∉ hostOps5_W) (h10 : b ≠ main_v92) (h11 : b ≠ main_v93) (h12 : b ∉ hostOps7_W) (h13 : b ≠ main_v115) (h14 : b ∉ hostOps8_W) (h15 : b ≠ main_v119) (h16 : b ≠ main_v120) (h17 : b ∉ hostOps10_W) :
    W18 m ρ c (Proc.devRef .tc b) = m ((c : Thread nD τ).loc b) :=
  (W18_keep m ρ c b h17).trans <|
  (W17_keep m ρ c b h16).trans <|
  (W16_keep m ρ c b h15).trans <|
  (W15_keep m ρ c b h14).trans <|
  (W14_keep m ρ c b h13).trans <|
  (W13_keep m ρ c b h12).trans <|
  (W12_keep m ρ c b h11).trans <|
  (W11_keep m ρ c b h10).trans <|
  (W10_keep m ρ c b h9).trans <|
  (W9_keep m ρ c b h8).trans <|
  (W8_keep m ρ c b h7).trans <|
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  (W1_keep m ρ c b h0).trans <|
  rfl

theorem W19_as_launched (c : Dev nD) (b : Ref sig .tc) (h0 : b ∉ hostOps0_W) (h1 : b ≠ main_v39) (h2 : b ∉ hostOps1_W) (h3 : b ≠ main_v61) (h4 : b ∉ hostOps2_W) (h5 : b ≠ main_v65) (h6 : b ≠ main_v66) (h7 : b ∉ hostOps4_W) (h8 : b ≠ main_v88) (h9 : b ∉ hostOps5_W) (h10 : b ≠ main_v92) (h11 : b ≠ main_v93) (h12 : b ∉ hostOps7_W) (h13 : b ≠ main_v115) (h14 : b ∉ hostOps8_W) (h15 : b ≠ main_v119) (h16 : b ≠ main_v120) (h17 : b ∉ hostOps10_W) (h18 : b ≠ main_v142) :
    W19 m ρ c (Proc.devRef .tc b) = m ((c : Thread nD τ).loc b) :=
  (W19_keep m ρ c b h18).trans <|
  (W18_keep m ρ c b h17).trans <|
  (W17_keep m ρ c b h16).trans <|
  (W16_keep m ρ c b h15).trans <|
  (W15_keep m ρ c b h14).trans <|
  (W14_keep m ρ c b h13).trans <|
  (W13_keep m ρ c b h12).trans <|
  (W12_keep m ρ c b h11).trans <|
  (W11_keep m ρ c b h10).trans <|
  (W10_keep m ρ c b h9).trans <|
  (W9_keep m ρ c b h8).trans <|
  (W8_keep m ρ c b h7).trans <|
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  (W1_keep m ρ c b h0).trans <|
  rfl

theorem W20_as_launched (c : Dev nD) (b : Ref sig .tc) (h0 : b ∉ hostOps0_W) (h1 : b ≠ main_v39) (h2 : b ∉ hostOps1_W) (h3 : b ≠ main_v61) (h4 : b ∉ hostOps2_W) (h5 : b ≠ main_v65) (h6 : b ≠ main_v66) (h7 : b ∉ hostOps4_W) (h8 : b ≠ main_v88) (h9 : b ∉ hostOps5_W) (h10 : b ≠ main_v92) (h11 : b ≠ main_v93) (h12 : b ∉ hostOps7_W) (h13 : b ≠ main_v115) (h14 : b ∉ hostOps8_W) (h15 : b ≠ main_v119) (h16 : b ≠ main_v120) (h17 : b ∉ hostOps10_W) (h18 : b ≠ main_v142) (h19 : b ∉ hostOps11_W) :
    W20 m ρ c (Proc.devRef .tc b) = m ((c : Thread nD τ).loc b) :=
  (W20_keep m ρ c b h19).trans <|
  (W19_keep m ρ c b h18).trans <|
  (W18_keep m ρ c b h17).trans <|
  (W17_keep m ρ c b h16).trans <|
  (W16_keep m ρ c b h15).trans <|
  (W15_keep m ρ c b h14).trans <|
  (W14_keep m ρ c b h13).trans <|
  (W13_keep m ρ c b h12).trans <|
  (W12_keep m ρ c b h11).trans <|
  (W11_keep m ρ c b h10).trans <|
  (W10_keep m ρ c b h9).trans <|
  (W9_keep m ρ c b h8).trans <|
  (W8_keep m ρ c b h7).trans <|
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  (W1_keep m ρ c b h0).trans <|
  rfl

theorem W21_as_launched (c : Dev nD) (b : Ref sig .tc) (h0 : b ∉ hostOps0_W) (h1 : b ≠ main_v39) (h2 : b ∉ hostOps1_W) (h3 : b ≠ main_v61) (h4 : b ∉ hostOps2_W) (h5 : b ≠ main_v65) (h6 : b ≠ main_v66) (h7 : b ∉ hostOps4_W) (h8 : b ≠ main_v88) (h9 : b ∉ hostOps5_W) (h10 : b ≠ main_v92) (h11 : b ≠ main_v93) (h12 : b ∉ hostOps7_W) (h13 : b ≠ main_v115) (h14 : b ∉ hostOps8_W) (h15 : b ≠ main_v119) (h16 : b ≠ main_v120) (h17 : b ∉ hostOps10_W) (h18 : b ≠ main_v142) (h19 : b ∉ hostOps11_W) (h20 : b ≠ main_v146) :
    W21 m ρ c (Proc.devRef .tc b) = m ((c : Thread nD τ).loc b) :=
  (W21_keep m ρ c b h20).trans <|
  (W20_keep m ρ c b h19).trans <|
  (W19_keep m ρ c b h18).trans <|
  (W18_keep m ρ c b h17).trans <|
  (W17_keep m ρ c b h16).trans <|
  (W16_keep m ρ c b h15).trans <|
  (W15_keep m ρ c b h14).trans <|
  (W14_keep m ρ c b h13).trans <|
  (W13_keep m ρ c b h12).trans <|
  (W12_keep m ρ c b h11).trans <|
  (W11_keep m ρ c b h10).trans <|
  (W10_keep m ρ c b h9).trans <|
  (W9_keep m ρ c b h8).trans <|
  (W8_keep m ρ c b h7).trans <|
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  (W1_keep m ρ c b h0).trans <|
  rfl

theorem W22_as_launched (c : Dev nD) (b : Ref sig .tc) (h0 : b ∉ hostOps0_W) (h1 : b ≠ main_v39) (h2 : b ∉ hostOps1_W) (h3 : b ≠ main_v61) (h4 : b ∉ hostOps2_W) (h5 : b ≠ main_v65) (h6 : b ≠ main_v66) (h7 : b ∉ hostOps4_W) (h8 : b ≠ main_v88) (h9 : b ∉ hostOps5_W) (h10 : b ≠ main_v92) (h11 : b ≠ main_v93) (h12 : b ∉ hostOps7_W) (h13 : b ≠ main_v115) (h14 : b ∉ hostOps8_W) (h15 : b ≠ main_v119) (h16 : b ≠ main_v120) (h17 : b ∉ hostOps10_W) (h18 : b ≠ main_v142) (h19 : b ∉ hostOps11_W) (h20 : b ≠ main_v146) (h21 : b ∉ hostOps12_W) :
    W22 m ρ c (Proc.devRef .tc b) = m ((c : Thread nD τ).loc b) :=
  (W22_keep m ρ c b h21).trans <|
  (W21_keep m ρ c b h20).trans <|
  (W20_keep m ρ c b h19).trans <|
  (W19_keep m ρ c b h18).trans <|
  (W18_keep m ρ c b h17).trans <|
  (W17_keep m ρ c b h16).trans <|
  (W16_keep m ρ c b h15).trans <|
  (W15_keep m ρ c b h14).trans <|
  (W14_keep m ρ c b h13).trans <|
  (W13_keep m ρ c b h12).trans <|
  (W12_keep m ρ c b h11).trans <|
  (W11_keep m ρ c b h10).trans <|
  (W10_keep m ρ c b h9).trans <|
  (W9_keep m ρ c b h8).trans <|
  (W8_keep m ρ c b h7).trans <|
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  (W1_keep m ρ c b h0).trans <|
  rfl

theorem W23_as_launched (c : Dev nD) (b : Ref sig .tc) (h0 : b ∉ hostOps0_W) (h1 : b ≠ main_v39) (h2 : b ∉ hostOps1_W) (h3 : b ≠ main_v61) (h4 : b ∉ hostOps2_W) (h5 : b ≠ main_v65) (h6 : b ≠ main_v66) (h7 : b ∉ hostOps4_W) (h8 : b ≠ main_v88) (h9 : b ∉ hostOps5_W) (h10 : b ≠ main_v92) (h11 : b ≠ main_v93) (h12 : b ∉ hostOps7_W) (h13 : b ≠ main_v115) (h14 : b ∉ hostOps8_W) (h15 : b ≠ main_v119) (h16 : b ≠ main_v120) (h17 : b ∉ hostOps10_W) (h18 : b ≠ main_v142) (h19 : b ∉ hostOps11_W) (h20 : b ≠ main_v146) (h21 : b ∉ hostOps12_W) (h22 : b ≠ main_v163) :
    W23 m ρ c (Proc.devRef .tc b) = m ((c : Thread nD τ).loc b) :=
  (W23_keep m ρ c b h22).trans <|
  (W22_keep m ρ c b h21).trans <|
  (W21_keep m ρ c b h20).trans <|
  (W20_keep m ρ c b h19).trans <|
  (W19_keep m ρ c b h18).trans <|
  (W18_keep m ρ c b h17).trans <|
  (W17_keep m ρ c b h16).trans <|
  (W16_keep m ρ c b h15).trans <|
  (W15_keep m ρ c b h14).trans <|
  (W14_keep m ρ c b h13).trans <|
  (W13_keep m ρ c b h12).trans <|
  (W12_keep m ρ c b h11).trans <|
  (W11_keep m ρ c b h10).trans <|
  (W10_keep m ρ c b h9).trans <|
  (W9_keep m ρ c b h8).trans <|
  (W8_keep m ρ c b h7).trans <|
  (W7_keep m ρ c b h6).trans <|
  (W6_keep m ρ c b h5).trans <|
  (W5_keep m ρ c b h4).trans <|
  (W4_keep m ρ c b h3).trans <|
  (W3_keep m ρ c b h2).trans <|
  (W2_keep m ρ c b h1).trans <|
  (W1_keep m ρ c b h0).trans <|
  rfl

theorem W1_arg0 (c : Dev nD) : W1 m ρ c (Proc.devRef .tc main_arg0) = m ((c : Thread nD τ).loc main_arg0) := W1_as_launched m ρ c main_arg0 (by decide)
theorem W1_arg1 (c : Dev nD) : W1 m ρ c (Proc.devRef .tc main_arg1) = m ((c : Thread nD τ).loc main_arg1) := W1_as_launched m ρ c main_arg1 (by decide)
theorem W1_arg2 (c : Dev nD) : W1 m ρ c (Proc.devRef .tc main_arg2) = m ((c : Thread nD τ).loc main_arg2) := W1_as_launched m ρ c main_arg2 (by decide)
theorem W1_arg3 (c : Dev nD) : W1 m ρ c (Proc.devRef .tc main_arg3) = m ((c : Thread nD τ).loc main_arg3) := W1_as_launched m ρ c main_arg3 (by decide)
theorem W1_arg4 (c : Dev nD) : W1 m ρ c (Proc.devRef .tc main_arg4) = m ((c : Thread nD τ).loc main_arg4) := W1_as_launched m ρ c main_arg4 (by decide)
theorem W1_arg5 (c : Dev nD) : W1 m ρ c (Proc.devRef .tc main_arg5) = m ((c : Thread nD τ).loc main_arg5) := W1_as_launched m ρ c main_arg5 (by decide)
theorem W1_arg6 (c : Dev nD) : W1 m ρ c (Proc.devRef .tc main_arg6) = m ((c : Thread nD τ).loc main_arg6) := W1_as_launched m ρ c main_arg6 (by decide)
theorem W1_arg7 (c : Dev nD) : W1 m ρ c (Proc.devRef .tc main_arg7) = m ((c : Thread nD τ).loc main_arg7) := W1_as_launched m ρ c main_arg7 (by decide)
theorem W1_arg8 (c : Dev nD) : W1 m ρ c (Proc.devRef .tc main_arg8) = m ((c : Thread nD τ).loc main_arg8) := W1_as_launched m ρ c main_arg8 (by decide)
theorem W1_arg9 (c : Dev nD) : W1 m ρ c (Proc.devRef .tc main_arg9) = m ((c : Thread nD τ).loc main_arg9) := W1_as_launched m ρ c main_arg9 (by decide)
theorem W1_arg10 (c : Dev nD) : W1 m ρ c (Proc.devRef .tc main_arg10) = m ((c : Thread nD τ).loc main_arg10) := W1_as_launched m ρ c main_arg10 (by decide)
theorem W1_arg11 (c : Dev nD) : W1 m ρ c (Proc.devRef .tc main_arg11) = m ((c : Thread nD τ).loc main_arg11) := W1_as_launched m ρ c main_arg11 (by decide)
theorem W1_arg12 (c : Dev nD) : W1 m ρ c (Proc.devRef .tc main_arg12) = m ((c : Thread nD τ).loc main_arg12) := W1_as_launched m ρ c main_arg12 (by decide)
theorem W1_arg13 (c : Dev nD) : W1 m ρ c (Proc.devRef .tc main_arg13) = m ((c : Thread nD τ).loc main_arg13) := W1_as_launched m ρ c main_arg13 (by decide)
theorem W1_arg14 (c : Dev nD) : W1 m ρ c (Proc.devRef .tc main_arg14) = m ((c : Thread nD τ).loc main_arg14) := W1_as_launched m ρ c main_arg14 (by decide)
theorem W1_arg15 (c : Dev nD) : W1 m ρ c (Proc.devRef .tc main_arg15) = m ((c : Thread nD τ).loc main_arg15) := W1_as_launched m ρ c main_arg15 (by decide)
theorem W2_arg0 (c : Dev nD) : W2 m ρ c (Proc.devRef .tc main_arg0) = m ((c : Thread nD τ).loc main_arg0) := W2_as_launched m ρ c main_arg0 (by decide) (by decide)
theorem W2_arg1 (c : Dev nD) : W2 m ρ c (Proc.devRef .tc main_arg1) = m ((c : Thread nD τ).loc main_arg1) := W2_as_launched m ρ c main_arg1 (by decide) (by decide)
theorem W2_arg2 (c : Dev nD) : W2 m ρ c (Proc.devRef .tc main_arg2) = m ((c : Thread nD τ).loc main_arg2) := W2_as_launched m ρ c main_arg2 (by decide) (by decide)
theorem W2_arg3 (c : Dev nD) : W2 m ρ c (Proc.devRef .tc main_arg3) = m ((c : Thread nD τ).loc main_arg3) := W2_as_launched m ρ c main_arg3 (by decide) (by decide)
theorem W2_arg4 (c : Dev nD) : W2 m ρ c (Proc.devRef .tc main_arg4) = m ((c : Thread nD τ).loc main_arg4) := W2_as_launched m ρ c main_arg4 (by decide) (by decide)
theorem W2_arg5 (c : Dev nD) : W2 m ρ c (Proc.devRef .tc main_arg5) = m ((c : Thread nD τ).loc main_arg5) := W2_as_launched m ρ c main_arg5 (by decide) (by decide)
theorem W2_arg6 (c : Dev nD) : W2 m ρ c (Proc.devRef .tc main_arg6) = m ((c : Thread nD τ).loc main_arg6) := W2_as_launched m ρ c main_arg6 (by decide) (by decide)
theorem W2_arg7 (c : Dev nD) : W2 m ρ c (Proc.devRef .tc main_arg7) = m ((c : Thread nD τ).loc main_arg7) := W2_as_launched m ρ c main_arg7 (by decide) (by decide)
theorem W2_arg8 (c : Dev nD) : W2 m ρ c (Proc.devRef .tc main_arg8) = m ((c : Thread nD τ).loc main_arg8) := W2_as_launched m ρ c main_arg8 (by decide) (by decide)
theorem W2_arg9 (c : Dev nD) : W2 m ρ c (Proc.devRef .tc main_arg9) = m ((c : Thread nD τ).loc main_arg9) := W2_as_launched m ρ c main_arg9 (by decide) (by decide)
theorem W2_arg10 (c : Dev nD) : W2 m ρ c (Proc.devRef .tc main_arg10) = m ((c : Thread nD τ).loc main_arg10) := W2_as_launched m ρ c main_arg10 (by decide) (by decide)
theorem W2_arg11 (c : Dev nD) : W2 m ρ c (Proc.devRef .tc main_arg11) = m ((c : Thread nD τ).loc main_arg11) := W2_as_launched m ρ c main_arg11 (by decide) (by decide)
theorem W2_arg12 (c : Dev nD) : W2 m ρ c (Proc.devRef .tc main_arg12) = m ((c : Thread nD τ).loc main_arg12) := W2_as_launched m ρ c main_arg12 (by decide) (by decide)
theorem W2_arg13 (c : Dev nD) : W2 m ρ c (Proc.devRef .tc main_arg13) = m ((c : Thread nD τ).loc main_arg13) := W2_as_launched m ρ c main_arg13 (by decide) (by decide)
theorem W2_arg14 (c : Dev nD) : W2 m ρ c (Proc.devRef .tc main_arg14) = m ((c : Thread nD τ).loc main_arg14) := W2_as_launched m ρ c main_arg14 (by decide) (by decide)
theorem W2_arg15 (c : Dev nD) : W2 m ρ c (Proc.devRef .tc main_arg15) = m ((c : Thread nD τ).loc main_arg15) := W2_as_launched m ρ c main_arg15 (by decide) (by decide)
theorem W3_arg0 (c : Dev nD) : W3 m ρ c (Proc.devRef .tc main_arg0) = m ((c : Thread nD τ).loc main_arg0) := W3_as_launched m ρ c main_arg0 (by decide) (by decide) (by decide)
theorem W3_arg1 (c : Dev nD) : W3 m ρ c (Proc.devRef .tc main_arg1) = m ((c : Thread nD τ).loc main_arg1) := W3_as_launched m ρ c main_arg1 (by decide) (by decide) (by decide)
theorem W3_arg2 (c : Dev nD) : W3 m ρ c (Proc.devRef .tc main_arg2) = m ((c : Thread nD τ).loc main_arg2) := W3_as_launched m ρ c main_arg2 (by decide) (by decide) (by decide)
theorem W3_arg3 (c : Dev nD) : W3 m ρ c (Proc.devRef .tc main_arg3) = m ((c : Thread nD τ).loc main_arg3) := W3_as_launched m ρ c main_arg3 (by decide) (by decide) (by decide)
theorem W3_arg4 (c : Dev nD) : W3 m ρ c (Proc.devRef .tc main_arg4) = m ((c : Thread nD τ).loc main_arg4) := W3_as_launched m ρ c main_arg4 (by decide) (by decide) (by decide)
theorem W3_arg5 (c : Dev nD) : W3 m ρ c (Proc.devRef .tc main_arg5) = m ((c : Thread nD τ).loc main_arg5) := W3_as_launched m ρ c main_arg5 (by decide) (by decide) (by decide)
theorem W3_arg6 (c : Dev nD) : W3 m ρ c (Proc.devRef .tc main_arg6) = m ((c : Thread nD τ).loc main_arg6) := W3_as_launched m ρ c main_arg6 (by decide) (by decide) (by decide)
theorem W3_arg7 (c : Dev nD) : W3 m ρ c (Proc.devRef .tc main_arg7) = m ((c : Thread nD τ).loc main_arg7) := W3_as_launched m ρ c main_arg7 (by decide) (by decide) (by decide)
theorem W3_arg8 (c : Dev nD) : W3 m ρ c (Proc.devRef .tc main_arg8) = m ((c : Thread nD τ).loc main_arg8) := W3_as_launched m ρ c main_arg8 (by decide) (by decide) (by decide)
theorem W3_arg9 (c : Dev nD) : W3 m ρ c (Proc.devRef .tc main_arg9) = m ((c : Thread nD τ).loc main_arg9) := W3_as_launched m ρ c main_arg9 (by decide) (by decide) (by decide)
theorem W3_arg10 (c : Dev nD) : W3 m ρ c (Proc.devRef .tc main_arg10) = m ((c : Thread nD τ).loc main_arg10) := W3_as_launched m ρ c main_arg10 (by decide) (by decide) (by decide)
theorem W3_arg11 (c : Dev nD) : W3 m ρ c (Proc.devRef .tc main_arg11) = m ((c : Thread nD τ).loc main_arg11) := W3_as_launched m ρ c main_arg11 (by decide) (by decide) (by decide)
theorem W3_arg12 (c : Dev nD) : W3 m ρ c (Proc.devRef .tc main_arg12) = m ((c : Thread nD τ).loc main_arg12) := W3_as_launched m ρ c main_arg12 (by decide) (by decide) (by decide)
theorem W3_arg13 (c : Dev nD) : W3 m ρ c (Proc.devRef .tc main_arg13) = m ((c : Thread nD τ).loc main_arg13) := W3_as_launched m ρ c main_arg13 (by decide) (by decide) (by decide)
theorem W3_arg14 (c : Dev nD) : W3 m ρ c (Proc.devRef .tc main_arg14) = m ((c : Thread nD τ).loc main_arg14) := W3_as_launched m ρ c main_arg14 (by decide) (by decide) (by decide)
theorem W3_arg15 (c : Dev nD) : W3 m ρ c (Proc.devRef .tc main_arg15) = m ((c : Thread nD τ).loc main_arg15) := W3_as_launched m ρ c main_arg15 (by decide) (by decide) (by decide)
theorem W4_arg0 (c : Dev nD) : W4 m ρ c (Proc.devRef .tc main_arg0) = m ((c : Thread nD τ).loc main_arg0) := W4_as_launched m ρ c main_arg0 (by decide) (by decide) (by decide) (by decide)
theorem W4_arg1 (c : Dev nD) : W4 m ρ c (Proc.devRef .tc main_arg1) = m ((c : Thread nD τ).loc main_arg1) := W4_as_launched m ρ c main_arg1 (by decide) (by decide) (by decide) (by decide)
theorem W4_arg2 (c : Dev nD) : W4 m ρ c (Proc.devRef .tc main_arg2) = m ((c : Thread nD τ).loc main_arg2) := W4_as_launched m ρ c main_arg2 (by decide) (by decide) (by decide) (by decide)
theorem W4_arg3 (c : Dev nD) : W4 m ρ c (Proc.devRef .tc main_arg3) = m ((c : Thread nD τ).loc main_arg3) := W4_as_launched m ρ c main_arg3 (by decide) (by decide) (by decide) (by decide)
theorem W4_arg4 (c : Dev nD) : W4 m ρ c (Proc.devRef .tc main_arg4) = m ((c : Thread nD τ).loc main_arg4) := W4_as_launched m ρ c main_arg4 (by decide) (by decide) (by decide) (by decide)
theorem W4_arg5 (c : Dev nD) : W4 m ρ c (Proc.devRef .tc main_arg5) = m ((c : Thread nD τ).loc main_arg5) := W4_as_launched m ρ c main_arg5 (by decide) (by decide) (by decide) (by decide)
theorem W4_arg6 (c : Dev nD) : W4 m ρ c (Proc.devRef .tc main_arg6) = m ((c : Thread nD τ).loc main_arg6) := W4_as_launched m ρ c main_arg6 (by decide) (by decide) (by decide) (by decide)
theorem W4_arg7 (c : Dev nD) : W4 m ρ c (Proc.devRef .tc main_arg7) = m ((c : Thread nD τ).loc main_arg7) := W4_as_launched m ρ c main_arg7 (by decide) (by decide) (by decide) (by decide)
theorem W4_arg8 (c : Dev nD) : W4 m ρ c (Proc.devRef .tc main_arg8) = m ((c : Thread nD τ).loc main_arg8) := W4_as_launched m ρ c main_arg8 (by decide) (by decide) (by decide) (by decide)
theorem W4_arg9 (c : Dev nD) : W4 m ρ c (Proc.devRef .tc main_arg9) = m ((c : Thread nD τ).loc main_arg9) := W4_as_launched m ρ c main_arg9 (by decide) (by decide) (by decide) (by decide)
theorem W4_arg10 (c : Dev nD) : W4 m ρ c (Proc.devRef .tc main_arg10) = m ((c : Thread nD τ).loc main_arg10) := W4_as_launched m ρ c main_arg10 (by decide) (by decide) (by decide) (by decide)
theorem W4_arg11 (c : Dev nD) : W4 m ρ c (Proc.devRef .tc main_arg11) = m ((c : Thread nD τ).loc main_arg11) := W4_as_launched m ρ c main_arg11 (by decide) (by decide) (by decide) (by decide)
theorem W4_arg12 (c : Dev nD) : W4 m ρ c (Proc.devRef .tc main_arg12) = m ((c : Thread nD τ).loc main_arg12) := W4_as_launched m ρ c main_arg12 (by decide) (by decide) (by decide) (by decide)
theorem W4_arg13 (c : Dev nD) : W4 m ρ c (Proc.devRef .tc main_arg13) = m ((c : Thread nD τ).loc main_arg13) := W4_as_launched m ρ c main_arg13 (by decide) (by decide) (by decide) (by decide)
theorem W4_arg14 (c : Dev nD) : W4 m ρ c (Proc.devRef .tc main_arg14) = m ((c : Thread nD τ).loc main_arg14) := W4_as_launched m ρ c main_arg14 (by decide) (by decide) (by decide) (by decide)
theorem W4_arg15 (c : Dev nD) : W4 m ρ c (Proc.devRef .tc main_arg15) = m ((c : Thread nD τ).loc main_arg15) := W4_as_launched m ρ c main_arg15 (by decide) (by decide) (by decide) (by decide)
theorem W5_arg0 (c : Dev nD) : W5 m ρ c (Proc.devRef .tc main_arg0) = m ((c : Thread nD τ).loc main_arg0) := W5_as_launched m ρ c main_arg0 (by decide) (by decide) (by decide) (by decide) (by decide)
theorem W5_arg1 (c : Dev nD) : W5 m ρ c (Proc.devRef .tc main_arg1) = m ((c : Thread nD τ).loc main_arg1) := W5_as_launched m ρ c main_arg1 (by decide) (by decide) (by decide) (by decide) (by decide)
theorem W5_arg2 (c : Dev nD) : W5 m ρ c (Proc.devRef .tc main_arg2) = m ((c : Thread nD τ).loc main_arg2) := W5_as_launched m ρ c main_arg2 (by decide) (by decide) (by decide) (by decide) (by decide)
theorem W5_arg3 (c : Dev nD) : W5 m ρ c (Proc.devRef .tc main_arg3) = m ((c : Thread nD τ).loc main_arg3) := W5_as_launched m ρ c main_arg3 (by decide) (by decide) (by decide) (by decide) (by decide)
theorem W5_arg4 (c : Dev nD) : W5 m ρ c (Proc.devRef .tc main_arg4) = m ((c : Thread nD τ).loc main_arg4) := W5_as_launched m ρ c main_arg4 (by decide) (by decide) (by decide) (by decide) (by decide)
theorem W5_arg5 (c : Dev nD) : W5 m ρ c (Proc.devRef .tc main_arg5) = m ((c : Thread nD τ).loc main_arg5) := W5_as_launched m ρ c main_arg5 (by decide) (by decide) (by decide) (by decide) (by decide)
theorem W5_arg6 (c : Dev nD) : W5 m ρ c (Proc.devRef .tc main_arg6) = m ((c : Thread nD τ).loc main_arg6) := W5_as_launched m ρ c main_arg6 (by decide) (by decide) (by decide) (by decide) (by decide)
theorem W5_arg7 (c : Dev nD) : W5 m ρ c (Proc.devRef .tc main_arg7) = m ((c : Thread nD τ).loc main_arg7) := W5_as_launched m ρ c main_arg7 (by decide) (by decide) (by decide) (by decide) (by decide)
theorem W5_arg8 (c : Dev nD) : W5 m ρ c (Proc.devRef .tc main_arg8) = m ((c : Thread nD τ).loc main_arg8) := W5_as_launched m ρ c main_arg8 (by decide) (by decide) (by decide) (by decide) (by decide)
theorem W5_arg9 (c : Dev nD) : W5 m ρ c (Proc.devRef .tc main_arg9) = m ((c : Thread nD τ).loc main_arg9) := W5_as_launched m ρ c main_arg9 (by decide) (by decide) (by decide) (by decide) (by decide)
theorem W5_arg10 (c : Dev nD) : W5 m ρ c (Proc.devRef .tc main_arg10) = m ((c : Thread nD τ).loc main_arg10) := W5_as_launched m ρ c main_arg10 (by decide) (by decide) (by decide) (by decide) (by decide)
theorem W5_arg11 (c : Dev nD) : W5 m ρ c (Proc.devRef .tc main_arg11) = m ((c : Thread nD τ).loc main_arg11) := W5_as_launched m ρ c main_arg11 (by decide) (by decide) (by decide) (by decide) (by decide)
theorem W5_arg12 (c : Dev nD) : W5 m ρ c (Proc.devRef .tc main_arg12) = m ((c : Thread nD τ).loc main_arg12) := W5_as_launched m ρ c main_arg12 (by decide) (by decide) (by decide) (by decide) (by decide)
theorem W5_arg13 (c : Dev nD) : W5 m ρ c (Proc.devRef .tc main_arg13) = m ((c : Thread nD τ).loc main_arg13) := W5_as_launched m ρ c main_arg13 (by decide) (by decide) (by decide) (by decide) (by decide)
theorem W5_arg14 (c : Dev nD) : W5 m ρ c (Proc.devRef .tc main_arg14) = m ((c : Thread nD τ).loc main_arg14) := W5_as_launched m ρ c main_arg14 (by decide) (by decide) (by decide) (by decide) (by decide)
theorem W5_arg15 (c : Dev nD) : W5 m ρ c (Proc.devRef .tc main_arg15) = m ((c : Thread nD τ).loc main_arg15) := W5_as_launched m ρ c main_arg15 (by decide) (by decide) (by decide) (by decide) (by decide)
theorem W6_arg0 (c : Dev nD) : W6 m ρ c (Proc.devRef .tc main_arg0) = m ((c : Thread nD τ).loc main_arg0) := W6_as_launched m ρ c main_arg0 (by decide) (by decide) (by decide) (by decide) (by decide) (by decide)
theorem W6_arg1 (c : Dev nD) : W6 m ρ c (Proc.devRef .tc main_arg1) = m ((c : Thread nD τ).loc main_arg1) := W6_as_launched m ρ c main_arg1 (by decide) (by decide) (by decide) (by decide) (by decide) (by decide)
theorem W6_arg2 (c : Dev nD) : W6 m ρ c (Proc.devRef .tc main_arg2) = m ((c : Thread nD τ).loc main_arg2) := W6_as_launched m ρ c main_arg2 (by decide) (by decide) (by decide) (by decide) (by decide) (by decide)
theorem W6_arg3 (c : Dev nD) : W6 m ρ c (Proc.devRef .tc main_arg3) = m ((c : Thread nD τ).loc main_arg3) := W6_as_launched m ρ c main_arg3 (by decide) (by decide) (by decide) (by decide) (by decide) (by decide)
theorem W6_arg4 (c : Dev nD) : W6 m ρ c (Proc.devRef .tc main_arg4) = m ((c : Thread nD τ).loc main_arg4) := W6_as_launched m ρ c main_arg4 (by decide) (by decide) (by decide) (by decide) (by decide) (by decide)
theorem W6_arg5 (c : Dev nD) : W6 m ρ c (Proc.devRef .tc main_arg5) = m ((c : Thread nD τ).loc main_arg5) := W6_as_launched m ρ c main_arg5 (by decide) (by decide) (by decide) (by decide) (by decide) (by decide)
theorem W6_arg6 (c : Dev nD) : W6 m ρ c (Proc.devRef .tc main_arg6) = m ((c : Thread nD τ).loc main_arg6) := W6_as_launched m ρ c main_arg6 (by decide) (by decide) (by decide) (by decide) (by decide) (by decide)
theorem W6_arg7 (c : Dev nD) : W6 m ρ c (Proc.devRef .tc main_arg7) = m ((c : Thread nD τ).loc main_arg7) := W6_as_launched m ρ c main_arg7 (by decide) (by decide) (by decide) (by decide) (by decide) (by decide)
theorem W6_arg8 (c : Dev nD) : W6 m ρ c (Proc.devRef .tc main_arg8) = m ((c : Thread nD τ).loc main_arg8) := W6_as_launched m ρ c main_arg8 (by decide) (by decide) (by decide) (by decide) (by decide) (by decide)
theorem W6_arg9 (c : Dev nD) : W6 m ρ c (Proc.devRef .tc main_arg9) = m ((c : Thread nD τ).loc main_arg9) := W6_as_launched m ρ c main_arg9 (by decide) (by decide) (by decide) (by decide) (by decide) (by decide)
theorem W6_arg10 (c : Dev nD) : W6 m ρ c (Proc.devRef .tc main_arg10) = m ((c : Thread nD τ).loc main_arg10) := W6_as_launched m ρ c main_arg10 (by decide) (by decide) (by decide) (by decide) (by decide) (by decide)
theorem W6_arg11 (c : Dev nD) : W6 m ρ c (Proc.devRef .tc main_arg11) = m ((c : Thread nD τ).loc main_arg11) := W6_as_launched m ρ c main_arg11 (by decide) (by decide) (by decide) (by decide) (by decide) (by decide)
theorem W6_arg12 (c : Dev nD) : W6 m ρ c (Proc.devRef .tc main_arg12) = m ((c : Thread nD τ).loc main_arg12) := W6_as_launched m ρ c main_arg12 (by decide) (by decide) (by decide) (by decide) (by decide) (by decide)
theorem W6_arg13 (c : Dev nD) : W6 m ρ c (Proc.devRef .tc main_arg13) = m ((c : Thread nD τ).loc main_arg13) := W6_as_launched m ρ c main_arg13 (by decide) (by decide) (by decide) (by decide) (by decide) (by decide)
theorem W6_arg14 (c : Dev nD) : W6 m ρ c (Proc.devRef .tc main_arg14) = m ((c : Thread nD τ).loc main_arg14) := W6_as_launched m ρ c main_arg14 (by decide) (by decide) (by decide) (by decide) (by decide) (by decide)
theorem W6_arg15 (c : Dev nD) : W6 m ρ c (Proc.devRef .tc main_arg15) = m ((c : Thread nD τ).loc main_arg15) := W6_as_launched m ρ c main_arg15 (by decide) (by decide) (by decide) (by decide) (by decide) (by decide)
theorem W7_arg0 (c : Dev nD) : W7 m ρ c (Proc.devRef .tc main_arg0) = m ((c : Thread nD τ).loc main_arg0) := W7_as_launched m ρ c main_arg0 (by decide) (by decide) (by decide) (by decide) (by decide) (by decide) (by decide)
theorem W7_arg1 (c : Dev nD) : W7 m ρ c (Proc.devRef .tc main_arg1) = m ((c : Thread nD τ).loc main_arg1) := W7_as_launched m ρ c main_arg1 (by decide) (by decide) (by decide) (by decide) (by decide) (by decide) (by decide)
theorem W7_arg2 (c : Dev nD) : W7 m ρ c (Proc.devRef .tc main_arg2) = m ((c : Thread nD τ).loc main_arg2) := W7_as_launched m ρ c main_arg2 (by decide) (by decide) (by decide) (by decide) (by decide) (by decide) (by decide)
theorem W7_arg3 (c : Dev nD) : W7 m ρ c (Proc.devRef .tc main_arg3) = m ((c : Thread nD τ).loc main_arg3) := W7_as_launched m ρ c main_arg3 (by decide) (by decide) (by decide) (by decide) (by decide) (by decide) (by decide)
theorem W7_arg4 (c : Dev nD) : W7 m ρ c (Proc.devRef .tc main_arg4) = m ((c : Thread nD τ).loc main_arg4) := W7_as_launched m ρ c main_arg4 (by decide) (by decide) (by decide) (by decide) (by decide) (by decide) (by decide)
theorem W7_arg5 (c : Dev nD) : W7 m ρ c (Proc.devRef .tc main_arg5) = m ((c : Thread nD τ).loc main_arg5) := W7_as_launched m ρ c main_arg5 (by decide) (by decide) (by decide) (by decide) (by decide) (by decide) (by decide)
theorem W7_arg6 (c : Dev nD) : W7 m ρ c (Proc.devRef .tc main_arg6) = m ((c : Thread nD τ).loc main_arg6) := W7_as_launched m ρ c main_arg6 (by decide) (by decide) (by decide) (by decide) (by decide) (by decide) (by decide)
theorem W7_arg7 (c : Dev nD) : W7 m ρ c (Proc.devRef .tc main_arg7) = m ((c : Thread nD τ).loc main_arg7) := W7_as_launched m ρ c main_arg7 (by decide) (by decide) (by decide) (by decide) (by decide) (by decide) (by decide)
theorem W7_arg8 (c : Dev nD) : W7 m ρ c (Proc.devRef .tc main_arg8) = m ((c : Thread nD τ).loc main_arg8) := W7_as_launched m ρ c main_arg8 (by decide) (by decide) (by decide) (by decide) (by decide) (by decide) (by decide)
theorem W7_arg9 (c : Dev nD) : W7 m ρ c (Proc.devRef .tc main_arg9) = m ((c : Thread nD τ).loc main_arg9) := W7_as_launched m ρ c main_arg9 (by decide) (by decide) (by decide) (by decide) (by decide) (by decide) (by decide)
theorem W7_arg10 (c : Dev nD) : W7 m ρ c (Proc.devRef .tc main_arg10) = m ((c : Thread nD τ).loc main_arg10) := W7_as_launched m ρ c main_arg10 (by decide) (by decide) (by decide) (by decide) (by decide) (by decide) (by decide)
theorem W7_arg11 (c : Dev nD) : W7 m ρ c (Proc.devRef .tc main_arg11) = m ((c : Thread nD τ).loc main_arg11) := W7_as_launched m ρ c main_arg11 (by decide) (by decide) (by decide) (by decide) (by decide) (by decide) (by decide)
theorem W7_arg12 (c : Dev nD) : W7 m ρ c (Proc.devRef .tc main_arg12) = m ((c : Thread nD τ).loc main_arg12) := W7_as_launched m ρ c main_arg12 (by decide) (by decide) (by decide) (by decide) (by decide) (by decide) (by decide)
theorem W7_arg13 (c : Dev nD) : W7 m ρ c (Proc.devRef .tc main_arg13) = m ((c : Thread nD τ).loc main_arg13) := W7_as_launched m ρ c main_arg13 (by decide) (by decide) (by decide) (by decide) (by decide) (by decide) (by decide)
theorem W7_arg14 (c : Dev nD) : W7 m ρ c (Proc.devRef .tc main_arg14) = m ((c : Thread nD τ).loc main_arg14) := W7_as_launched m ρ c main_arg14 (by decide) (by decide) (by decide) (by decide) (by decide) (by decide) (by decide)
theorem W7_arg15 (c : Dev nD) : W7 m ρ c (Proc.devRef .tc main_arg15) = m ((c : Thread nD τ).loc main_arg15) := W7_as_launched m ρ c main_arg15 (by decide) (by decide) (by decide) (by decide) (by decide) (by decide) (by decide)
theorem W8_arg0 (c : Dev nD) : W8 m ρ c (Proc.devRef .tc main_arg0) = m ((c : Thread nD τ).loc main_arg0) := W8_as_launched m ρ c main_arg0 (by decide) (by decide) (by decide) (by decide) (by decide) (by decide) (by decide) (by decide)
theorem W8_arg1 (c : Dev nD) : W8 m ρ c (Proc.devRef .tc main_arg1) = m ((c : Thread nD τ).loc main_arg1) := W8_as_launched m ρ c main_arg1 (by decide) (by decide) (by decide) (by decide) (by decide) (by decide) (by decide) (by decide)
theorem W8_arg2 (c : Dev nD) : W8 m ρ c (Proc.devRef .tc main_arg2) = m ((c : Thread nD τ).loc main_arg2) := W8_as_launched m ρ c main_arg2 (by decide) (by decide) (by decide) (by decide) (by decide) (by decide) (by decide) (by decide)
theorem W8_arg3 (c : Dev nD) : W8 m ρ c (Proc.devRef .tc main_arg3) = m ((c : Thread nD τ).loc main_arg3) := W8_as_launched m ρ c main_arg3 (by decide) (by decide) (by decide) (by decide) (by decide) (by decide) (by decide) (by decide)
theorem W8_arg4 (c : Dev nD) : W8 m ρ c (Proc.devRef .tc main_arg4) = m ((c : Thread nD τ).loc main_arg4) := W8_as_launched m ρ c main_arg4 (by decide) (by decide) (by decide) (by decide) (by decide) (by decide) (by decide) (by decide)
theorem W8_arg5 (c : Dev nD) : W8 m ρ c (Proc.devRef .tc main_arg5) = m ((c : Thread nD τ).loc main_arg5) := W8_as_launched m ρ c main_arg5 (by decide) (by decide) (by decide) (by decide) (by decide) (by decide) (by decide) (by decide)
theorem W8_arg6 (c : Dev nD) : W8 m ρ c (Proc.devRef .tc main_arg6) = m ((c : Thread nD τ).loc main_arg6) := W8_as_launched m ρ c main_arg6 (by decide) (by decide) (by decide) (by decide) (by decide) (by decide) (by decide) (by decide)
theorem W8_arg7 (c : Dev nD) : W8 m ρ c (Proc.devRef .tc main_arg7) = m ((c : Thread nD τ).loc main_arg7) := W8_as_launched m ρ c main_arg7 (by decide) (by decide) (by decide) (by decide) (by decide) (by decide) (by decide) (by decide)
theorem W8_arg8 (c : Dev nD) : W8 m ρ c (Proc.devRef .tc main_arg8) = m ((c : Thread nD τ).loc main_arg8) := W8_as_launched m ρ c main_arg8 (by decide) (by decide) (by decide) (by decide) (by decide) (by decide) (by decide) (by decide)
theorem W8_arg9 (c : Dev nD) : W8 m ρ c (Proc.devRef .tc main_arg9) = m ((c : Thread nD τ).loc main_arg9) := W8_as_launched m ρ c main_arg9 (by decide) (by decide) (by decide) (by decide) (by decide) (by decide) (by decide) (by decide)
theorem W8_arg10 (c : Dev nD) : W8 m ρ c (Proc.devRef .tc main_arg10) = m ((c : Thread nD τ).loc main_arg10) := W8_as_launched m ρ c main_arg10 (by decide) (by decide) (by decide) (by decide) (by decide) (by decide) (by decide) (by decide)
theorem W8_arg11 (c : Dev nD) : W8 m ρ c (Proc.devRef .tc main_arg11) = m ((c : Thread nD τ).loc main_arg11) := W8_as_launched m ρ c main_arg11 (by decide) (by decide) (by decide) (by decide) (by decide) (by decide) (by decide) (by decide)
theorem W8_arg12 (c : Dev nD) : W8 m ρ c (Proc.devRef .tc main_arg12) = m ((c : Thread nD τ).loc main_arg12) := W8_as_launched m ρ c main_arg12 (by decide) (by decide) (by decide) (by decide) (by decide) (by decide) (by decide) (by decide)
theorem W8_arg13 (c : Dev nD) : W8 m ρ c (Proc.devRef .tc main_arg13) = m ((c : Thread nD τ).loc main_arg13) := W8_as_launched m ρ c main_arg13 (by decide) (by decide) (by decide) (by decide) (by decide) (by decide) (by decide) (by decide)
theorem W8_arg14 (c : Dev nD) : W8 m ρ c (Proc.devRef .tc main_arg14) = m ((c : Thread nD τ).loc main_arg14) := W8_as_launched m ρ c main_arg14 (by decide) (by decide) (by decide) (by decide) (by decide) (by decide) (by decide) (by decide)
theorem W8_arg15 (c : Dev nD) : W8 m ρ c (Proc.devRef .tc main_arg15) = m ((c : Thread nD τ).loc main_arg15) := W8_as_launched m ρ c main_arg15 (by decide) (by decide) (by decide) (by decide) (by decide) (by decide) (by decide) (by decide)
theorem W9_arg0 (c : Dev nD) : W9 m ρ c (Proc.devRef .tc main_arg0) = m ((c : Thread nD τ).loc main_arg0) := W9_as_launched m ρ c main_arg0 (by decide) (by decide) (by decide) (by decide) (by decide) (by decide) (by decide) (by decide) (by decide)
theorem W9_arg1 (c : Dev nD) : W9 m ρ c (Proc.devRef .tc main_arg1) = m ((c : Thread nD τ).loc main_arg1) := W9_as_launched m ρ c main_arg1 (by decide) (by decide) (by decide) (by decide) (by decide) (by decide) (by decide) (by decide) (by decide)
theorem W9_arg2 (c : Dev nD) : W9 m ρ c (Proc.devRef .tc main_arg2) = m ((c : Thread nD τ).loc main_arg2) := W9_as_launched m ρ c main_arg2 (by decide) (by decide) (by decide) (by decide) (by decide) (by decide) (by decide) (by decide) (by decide)
theorem W9_arg3 (c : Dev nD) : W9 m ρ c (Proc.devRef .tc main_arg3) = m ((c : Thread nD τ).loc main_arg3) := W9_as_launched m ρ c main_arg3 (by decide) (by decide) (by decide) (by decide) (by decide) (by decide) (by decide) (by decide) (by decide)
theorem W9_arg4 (c : Dev nD) : W9 m ρ c (Proc.devRef .tc main_arg4) = m ((c : Thread nD τ).loc main_arg4) := W9_as_launched m ρ c main_arg4 (by decide) (by decide) (by decide) (by decide) (by decide) (by decide) (by decide) (by decide) (by decide)
theorem W9_arg5 (c : Dev nD) : W9 m ρ c (Proc.devRef .tc main_arg5) = m ((c : Thread nD τ).loc main_arg5) := W9_as_launched m ρ c main_arg5 (by decide) (by decide) (by decide) (by decide) (by decide) (by decide) (by decide) (by decide) (by decide)
theorem W9_arg6 (c : Dev nD) : W9 m ρ c (Proc.devRef .tc main_arg6) = m ((c : Thread nD τ).loc main_arg6) := W9_as_launched m ρ c main_arg6 (by decide) (by decide) (by decide) (by decide) (by decide) (by decide) (by decide) (by decide) (by decide)
theorem W9_arg7 (c : Dev nD) : W9 m ρ c (Proc.devRef .tc main_arg7) = m ((c : Thread nD τ).loc main_arg7) := W9_as_launched m ρ c main_arg7 (by decide) (by decide) (by decide) (by decide) (by decide) (by decide) (by decide) (by decide) (by decide)
theorem W9_arg8 (c : Dev nD) : W9 m ρ c (Proc.devRef .tc main_arg8) = m ((c : Thread nD τ).loc main_arg8) := W9_as_launched m ρ c main_arg8 (by decide) (by decide) (by decide) (by decide) (by decide) (by decide) (by decide) (by decide) (by decide)
theorem W9_arg9 (c : Dev nD) : W9 m ρ c (Proc.devRef .tc main_arg9) = m ((c : Thread nD τ).loc main_arg9) := W9_as_launched m ρ c main_arg9 (by decide) (by decide) (by decide) (by decide) (by decide) (by decide) (by decide) (by decide) (by decide)
theorem W9_arg10 (c : Dev nD) : W9 m ρ c (Proc.devRef .tc main_arg10) = m ((c : Thread nD τ).loc main_arg10) := W9_as_launched m ρ c main_arg10 (by decide) (by decide) (by decide) (by decide) (by decide) (by decide) (by decide) (by decide) (by decide)
theorem W9_arg11 (c : Dev nD) : W9 m ρ c (Proc.devRef .tc main_arg11) = m ((c : Thread nD τ).loc main_arg11) := W9_as_launched m ρ c main_arg11 (by decide) (by decide) (by decide) (by decide) (by decide) (by decide) (by decide) (by decide) (by decide)
theorem W9_arg12 (c : Dev nD) : W9 m ρ c (Proc.devRef .tc main_arg12) = m ((c : Thread nD τ).loc main_arg12) := W9_as_launched m ρ c main_arg12 (by decide) (by decide) (by decide) (by decide) (by decide) (by decide) (by decide) (by decide) (by decide)
theorem W9_arg13 (c : Dev nD) : W9 m ρ c (Proc.devRef .tc main_arg13) = m ((c : Thread nD τ).loc main_arg13) := W9_as_launched m ρ c main_arg13 (by decide) (by decide) (by decide) (by decide) (by decide) (by decide) (by decide) (by decide) (by decide)
theorem W9_arg14 (c : Dev nD) : W9 m ρ c (Proc.devRef .tc main_arg14) = m ((c : Thread nD τ).loc main_arg14) := W9_as_launched m ρ c main_arg14 (by decide) (by decide) (by decide) (by decide) (by decide) (by decide) (by decide) (by decide) (by decide)
theorem W9_arg15 (c : Dev nD) : W9 m ρ c (Proc.devRef .tc main_arg15) = m ((c : Thread nD τ).loc main_arg15) := W9_as_launched m ρ c main_arg15 (by decide) (by decide) (by decide) (by decide) (by decide) (by decide) (by decide) (by decide) (by decide)
theorem W10_arg0 (c : Dev nD) : W10 m ρ c (Proc.devRef .tc main_arg0) = m ((c : Thread nD τ).loc main_arg0) := W10_as_launched m ρ c main_arg0 (by decide) (by decide) (by decide) (by decide) (by decide) (by decide) (by decide) (by decide) (by decide) (by decide)
theorem W10_arg1 (c : Dev nD) : W10 m ρ c (Proc.devRef .tc main_arg1) = m ((c : Thread nD τ).loc main_arg1) := W10_as_launched m ρ c main_arg1 (by decide) (by decide) (by decide) (by decide) (by decide) (by decide) (by decide) (by decide) (by decide) (by decide)
theorem W10_arg2 (c : Dev nD) : W10 m ρ c (Proc.devRef .tc main_arg2) = m ((c : Thread nD τ).loc main_arg2) := W10_as_launched m ρ c main_arg2 (by decide) (by decide) (by decide) (by decide) (by decide) (by decide) (by decide) (by decide) (by decide) (by decide)
theorem W10_arg3 (c : Dev nD) : W10 m ρ c (Proc.devRef .tc main_arg3) = m ((c : Thread nD τ).loc main_arg3) := W10_as_launched m ρ c main_arg3 (by decide) (by decide) (by decide) (by decide) (by decide) (by decide) (by decide) (by decide) (by decide) (by decide)
theorem W10_arg4 (c : Dev nD) : W10 m ρ c (Proc.devRef .tc main_arg4) = m ((c : Thread nD τ).loc main_arg4) := W10_as_launched m ρ c main_arg4 (by decide) (by decide) (by decide) (by decide) (by decide) (by decide) (by decide) (by decide) (by decide) (by decide)
theorem W10_arg5 (c : Dev nD) : W10 m ρ c (Proc.devRef .tc main_arg5) = m ((c : Thread nD τ).loc main_arg5) := W10_as_launched m ρ c main_arg5 (by decide) (by decide) (by decide) (by decide) (by decide) (by decide) (by decide) (by decide) (by decide) (by decide)
theorem W10_arg6 (c : Dev nD) : W10 m ρ c (Proc.devRef .tc main_arg6) = m ((c : Thread nD τ).loc main_arg6) := W10_as_launched m ρ c main_arg6 (by decide) (by decide) (by decide) (by decide) (by decide) (by decide) (by decide) (by decide) (by decide) (by decide)
theorem W10_arg7 (c : Dev nD) : W10 m ρ c (Proc.devRef .tc main_arg7) = m ((c : Thread nD τ).loc main_arg7) := W10_as_launched m ρ c main_arg7 (by decide) (by decide) (by decide) (by decide) (by decide) (by decide) (by decide) (by decide) (by decide) (by decide)
theorem W10_arg8 (c : Dev nD) : W10 m ρ c (Proc.devRef .tc main_arg8) = m ((c : Thread nD τ).loc main_arg8) := W10_as_launched m ρ c main_arg8 (by decide) (by decide) (by decide) (by decide) (by decide) (by decide) (by decide) (by decide) (by decide) (by decide)
theorem W10_arg9 (c : Dev nD) : W10 m ρ c (Proc.devRef .tc main_arg9) = m ((c : Thread nD τ).loc main_arg9) := W10_as_launched m ρ c main_arg9 (by decide) (by decide) (by decide) (by decide) (by decide) (by decide) (by decide) (by decide) (by decide) (by decide)
theorem W10_arg10 (c : Dev nD) : W10 m ρ c (Proc.devRef .tc main_arg10) = m ((c : Thread nD τ).loc main_arg10) := W10_as_launched m ρ c main_arg10 (by decide) (by decide) (by decide) (by decide) (by decide) (by decide) (by decide) (by decide) (by decide) (by decide)
theorem W10_arg11 (c : Dev nD) : W10 m ρ c (Proc.devRef .tc main_arg11) = m ((c : Thread nD τ).loc main_arg11) := W10_as_launched m ρ c main_arg11 (by decide) (by decide) (by decide) (by decide) (by decide) (by decide) (by decide) (by decide) (by decide) (by decide)
theorem W10_arg12 (c : Dev nD) : W10 m ρ c (Proc.devRef .tc main_arg12) = m ((c : Thread nD τ).loc main_arg12) := W10_as_launched m ρ c main_arg12 (by decide) (by decide) (by decide) (by decide) (by decide) (by decide) (by decide) (by decide) (by decide) (by decide)
theorem W10_arg13 (c : Dev nD) : W10 m ρ c (Proc.devRef .tc main_arg13) = m ((c : Thread nD τ).loc main_arg13) := W10_as_launched m ρ c main_arg13 (by decide) (by decide) (by decide) (by decide) (by decide) (by decide) (by decide) (by decide) (by decide) (by decide)
theorem W10_arg14 (c : Dev nD) : W10 m ρ c (Proc.devRef .tc main_arg14) = m ((c : Thread nD τ).loc main_arg14) := W10_as_launched m ρ c main_arg14 (by decide) (by decide) (by decide) (by decide) (by decide) (by decide) (by decide) (by decide) (by decide) (by decide)
theorem W10_arg15 (c : Dev nD) : W10 m ρ c (Proc.devRef .tc main_arg15) = m ((c : Thread nD τ).loc main_arg15) := W10_as_launched m ρ c main_arg15 (by decide) (by decide) (by decide) (by decide) (by decide) (by decide) (by decide) (by decide) (by decide) (by decide)
theorem W11_arg0 (c : Dev nD) : W11 m ρ c (Proc.devRef .tc main_arg0) = m ((c : Thread nD τ).loc main_arg0) := W11_as_launched m ρ c main_arg0 (by decide) (by decide) (by decide) (by decide) (by decide) (by decide) (by decide) (by decide) (by decide) (by decide) (by decide)
theorem W11_arg1 (c : Dev nD) : W11 m ρ c (Proc.devRef .tc main_arg1) = m ((c : Thread nD τ).loc main_arg1) := W11_as_launched m ρ c main_arg1 (by decide) (by decide) (by decide) (by decide) (by decide) (by decide) (by decide) (by decide) (by decide) (by decide) (by decide)
theorem W11_arg2 (c : Dev nD) : W11 m ρ c (Proc.devRef .tc main_arg2) = m ((c : Thread nD τ).loc main_arg2) := W11_as_launched m ρ c main_arg2 (by decide) (by decide) (by decide) (by decide) (by decide) (by decide) (by decide) (by decide) (by decide) (by decide) (by decide)
theorem W11_arg3 (c : Dev nD) : W11 m ρ c (Proc.devRef .tc main_arg3) = m ((c : Thread nD τ).loc main_arg3) := W11_as_launched m ρ c main_arg3 (by decide) (by decide) (by decide) (by decide) (by decide) (by decide) (by decide) (by decide) (by decide) (by decide) (by decide)
theorem W11_arg4 (c : Dev nD) : W11 m ρ c (Proc.devRef .tc main_arg4) = m ((c : Thread nD τ).loc main_arg4) := W11_as_launched m ρ c main_arg4 (by decide) (by decide) (by decide) (by decide) (by decide) (by decide) (by decide) (by decide) (by decide) (by decide) (by decide)
theorem W11_arg5 (c : Dev nD) : W11 m ρ c (Proc.devRef .tc main_arg5) = m ((c : Thread nD τ).loc main_arg5) := W11_as_launched m ρ c main_arg5 (by decide) (by decide) (by decide) (by decide) (by decide) (by decide) (by decide) (by decide) (by decide) (by decide) (by decide)
theorem W11_arg6 (c : Dev nD) : W11 m ρ c (Proc.devRef .tc main_arg6) = m ((c : Thread nD τ).loc main_arg6) := W11_as_launched m ρ c main_arg6 (by decide) (by decide) (by decide) (by decide) (by decide) (by decide) (by decide) (by decide) (by decide) (by decide) (by decide)
theorem W11_arg7 (c : Dev nD) : W11 m ρ c (Proc.devRef .tc main_arg7) = m ((c : Thread nD τ).loc main_arg7) := W11_as_launched m ρ c main_arg7 (by decide) (by decide) (by decide) (by decide) (by decide) (by decide) (by decide) (by decide) (by decide) (by decide) (by decide)
theorem W11_arg8 (c : Dev nD) : W11 m ρ c (Proc.devRef .tc main_arg8) = m ((c : Thread nD τ).loc main_arg8) := W11_as_launched m ρ c main_arg8 (by decide) (by decide) (by decide) (by decide) (by decide) (by decide) (by decide) (by decide) (by decide) (by decide) (by decide)
theorem W11_arg9 (c : Dev nD) : W11 m ρ c (Proc.devRef .tc main_arg9) = m ((c : Thread nD τ).loc main_arg9) := W11_as_launched m ρ c main_arg9 (by decide) (by decide) (by decide) (by decide) (by decide) (by decide) (by decide) (by decide) (by decide) (by decide) (by decide)
theorem W11_arg10 (c : Dev nD) : W11 m ρ c (Proc.devRef .tc main_arg10) = m ((c : Thread nD τ).loc main_arg10) := W11_as_launched m ρ c main_arg10 (by decide) (by decide) (by decide) (by decide) (by decide) (by decide) (by decide) (by decide) (by decide) (by decide) (by decide)
theorem W11_arg11 (c : Dev nD) : W11 m ρ c (Proc.devRef .tc main_arg11) = m ((c : Thread nD τ).loc main_arg11) := W11_as_launched m ρ c main_arg11 (by decide) (by decide) (by decide) (by decide) (by decide) (by decide) (by decide) (by decide) (by decide) (by decide) (by decide)
theorem W11_arg12 (c : Dev nD) : W11 m ρ c (Proc.devRef .tc main_arg12) = m ((c : Thread nD τ).loc main_arg12) := W11_as_launched m ρ c main_arg12 (by decide) (by decide) (by decide) (by decide) (by decide) (by decide) (by decide) (by decide) (by decide) (by decide) (by decide)
theorem W11_arg13 (c : Dev nD) : W11 m ρ c (Proc.devRef .tc main_arg13) = m ((c : Thread nD τ).loc main_arg13) := W11_as_launched m ρ c main_arg13 (by decide) (by decide) (by decide) (by decide) (by decide) (by decide) (by decide) (by decide) (by decide) (by decide) (by decide)
theorem W11_arg14 (c : Dev nD) : W11 m ρ c (Proc.devRef .tc main_arg14) = m ((c : Thread nD τ).loc main_arg14) := W11_as_launched m ρ c main_arg14 (by decide) (by decide) (by decide) (by decide) (by decide) (by decide) (by decide) (by decide) (by decide) (by decide) (by decide)
theorem W11_arg15 (c : Dev nD) : W11 m ρ c (Proc.devRef .tc main_arg15) = m ((c : Thread nD τ).loc main_arg15) := W11_as_launched m ρ c main_arg15 (by decide) (by decide) (by decide) (by decide) (by decide) (by decide) (by decide) (by decide) (by decide) (by decide) (by decide)
theorem W12_arg0 (c : Dev nD) : W12 m ρ c (Proc.devRef .tc main_arg0) = m ((c : Thread nD τ).loc main_arg0) := W12_as_launched m ρ c main_arg0 (by decide) (by decide) (by decide) (by decide) (by decide) (by decide) (by decide) (by decide) (by decide) (by decide) (by decide) (by decide)
theorem W12_arg1 (c : Dev nD) : W12 m ρ c (Proc.devRef .tc main_arg1) = m ((c : Thread nD τ).loc main_arg1) := W12_as_launched m ρ c main_arg1 (by decide) (by decide) (by decide) (by decide) (by decide) (by decide) (by decide) (by decide) (by decide) (by decide) (by decide) (by decide)
theorem W12_arg2 (c : Dev nD) : W12 m ρ c (Proc.devRef .tc main_arg2) = m ((c : Thread nD τ).loc main_arg2) := W12_as_launched m ρ c main_arg2 (by decide) (by decide) (by decide) (by decide) (by decide) (by decide) (by decide) (by decide) (by decide) (by decide) (by decide) (by decide)
theorem W12_arg3 (c : Dev nD) : W12 m ρ c (Proc.devRef .tc main_arg3) = m ((c : Thread nD τ).loc main_arg3) := W12_as_launched m ρ c main_arg3 (by decide) (by decide) (by decide) (by decide) (by decide) (by decide) (by decide) (by decide) (by decide) (by decide) (by decide) (by decide)
theorem W12_arg4 (c : Dev nD) : W12 m ρ c (Proc.devRef .tc main_arg4) = m ((c : Thread nD τ).loc main_arg4) := W12_as_launched m ρ c main_arg4 (by decide) (by decide) (by decide) (by decide) (by decide) (by decide) (by decide) (by decide) (by decide) (by decide) (by decide) (by decide)
theorem W12_arg5 (c : Dev nD) : W12 m ρ c (Proc.devRef .tc main_arg5) = m ((c : Thread nD τ).loc main_arg5) := W12_as_launched m ρ c main_arg5 (by decide) (by decide) (by decide) (by decide) (by decide) (by decide) (by decide) (by decide) (by decide) (by decide) (by decide) (by decide)
theorem W12_arg6 (c : Dev nD) : W12 m ρ c (Proc.devRef .tc main_arg6) = m ((c : Thread nD τ).loc main_arg6) := W12_as_launched m ρ c main_arg6 (by decide) (by decide) (by decide) (by decide) (by decide) (by decide) (by decide) (by decide) (by decide) (by decide) (by decide) (by decide)
theorem W12_arg7 (c : Dev nD) : W12 m ρ c (Proc.devRef .tc main_arg7) = m ((c : Thread nD τ).loc main_arg7) := W12_as_launched m ρ c main_arg7 (by decide) (by decide) (by decide) (by decide) (by decide) (by decide) (by decide) (by decide) (by decide) (by decide) (by decide) (by decide)
theorem W12_arg8 (c : Dev nD) : W12 m ρ c (Proc.devRef .tc main_arg8) = m ((c : Thread nD τ).loc main_arg8) := W12_as_launched m ρ c main_arg8 (by decide) (by decide) (by decide) (by decide) (by decide) (by decide) (by decide) (by decide) (by decide) (by decide) (by decide) (by decide)
theorem W12_arg9 (c : Dev nD) : W12 m ρ c (Proc.devRef .tc main_arg9) = m ((c : Thread nD τ).loc main_arg9) := W12_as_launched m ρ c main_arg9 (by decide) (by decide) (by decide) (by decide) (by decide) (by decide) (by decide) (by decide) (by decide) (by decide) (by decide) (by decide)
theorem W12_arg10 (c : Dev nD) : W12 m ρ c (Proc.devRef .tc main_arg10) = m ((c : Thread nD τ).loc main_arg10) := W12_as_launched m ρ c main_arg10 (by decide) (by decide) (by decide) (by decide) (by decide) (by decide) (by decide) (by decide) (by decide) (by decide) (by decide) (by decide)
theorem W12_arg11 (c : Dev nD) : W12 m ρ c (Proc.devRef .tc main_arg11) = m ((c : Thread nD τ).loc main_arg11) := W12_as_launched m ρ c main_arg11 (by decide) (by decide) (by decide) (by decide) (by decide) (by decide) (by decide) (by decide) (by decide) (by decide) (by decide) (by decide)
theorem W12_arg12 (c : Dev nD) : W12 m ρ c (Proc.devRef .tc main_arg12) = m ((c : Thread nD τ).loc main_arg12) := W12_as_launched m ρ c main_arg12 (by decide) (by decide) (by decide) (by decide) (by decide) (by decide) (by decide) (by decide) (by decide) (by decide) (by decide) (by decide)
theorem W12_arg13 (c : Dev nD) : W12 m ρ c (Proc.devRef .tc main_arg13) = m ((c : Thread nD τ).loc main_arg13) := W12_as_launched m ρ c main_arg13 (by decide) (by decide) (by decide) (by decide) (by decide) (by decide) (by decide) (by decide) (by decide) (by decide) (by decide) (by decide)
theorem W12_arg14 (c : Dev nD) : W12 m ρ c (Proc.devRef .tc main_arg14) = m ((c : Thread nD τ).loc main_arg14) := W12_as_launched m ρ c main_arg14 (by decide) (by decide) (by decide) (by decide) (by decide) (by decide) (by decide) (by decide) (by decide) (by decide) (by decide) (by decide)
theorem W12_arg15 (c : Dev nD) : W12 m ρ c (Proc.devRef .tc main_arg15) = m ((c : Thread nD τ).loc main_arg15) := W12_as_launched m ρ c main_arg15 (by decide) (by decide) (by decide) (by decide) (by decide) (by decide) (by decide) (by decide) (by decide) (by decide) (by decide) (by decide)
theorem W13_arg0 (c : Dev nD) : W13 m ρ c (Proc.devRef .tc main_arg0) = m ((c : Thread nD τ).loc main_arg0) := W13_as_launched m ρ c main_arg0 (by decide) (by decide) (by decide) (by decide) (by decide) (by decide) (by decide) (by decide) (by decide) (by decide) (by decide) (by decide) (by decide)
theorem W13_arg1 (c : Dev nD) : W13 m ρ c (Proc.devRef .tc main_arg1) = m ((c : Thread nD τ).loc main_arg1) := W13_as_launched m ρ c main_arg1 (by decide) (by decide) (by decide) (by decide) (by decide) (by decide) (by decide) (by decide) (by decide) (by decide) (by decide) (by decide) (by decide)
theorem W13_arg2 (c : Dev nD) : W13 m ρ c (Proc.devRef .tc main_arg2) = m ((c : Thread nD τ).loc main_arg2) := W13_as_launched m ρ c main_arg2 (by decide) (by decide) (by decide) (by decide) (by decide) (by decide) (by decide) (by decide) (by decide) (by decide) (by decide) (by decide) (by decide)
theorem W13_arg3 (c : Dev nD) : W13 m ρ c (Proc.devRef .tc main_arg3) = m ((c : Thread nD τ).loc main_arg3) := W13_as_launched m ρ c main_arg3 (by decide) (by decide) (by decide) (by decide) (by decide) (by decide) (by decide) (by decide) (by decide) (by decide) (by decide) (by decide) (by decide)
theorem W13_arg4 (c : Dev nD) : W13 m ρ c (Proc.devRef .tc main_arg4) = m ((c : Thread nD τ).loc main_arg4) := W13_as_launched m ρ c main_arg4 (by decide) (by decide) (by decide) (by decide) (by decide) (by decide) (by decide) (by decide) (by decide) (by decide) (by decide) (by decide) (by decide)
theorem W13_arg5 (c : Dev nD) : W13 m ρ c (Proc.devRef .tc main_arg5) = m ((c : Thread nD τ).loc main_arg5) := W13_as_launched m ρ c main_arg5 (by decide) (by decide) (by decide) (by decide) (by decide) (by decide) (by decide) (by decide) (by decide) (by decide) (by decide) (by decide) (by decide)
theorem W13_arg6 (c : Dev nD) : W13 m ρ c (Proc.devRef .tc main_arg6) = m ((c : Thread nD τ).loc main_arg6) := W13_as_launched m ρ c main_arg6 (by decide) (by decide) (by decide) (by decide) (by decide) (by decide) (by decide) (by decide) (by decide) (by decide) (by decide) (by decide) (by decide)
theorem W13_arg7 (c : Dev nD) : W13 m ρ c (Proc.devRef .tc main_arg7) = m ((c : Thread nD τ).loc main_arg7) := W13_as_launched m ρ c main_arg7 (by decide) (by decide) (by decide) (by decide) (by decide) (by decide) (by decide) (by decide) (by decide) (by decide) (by decide) (by decide) (by decide)
theorem W13_arg8 (c : Dev nD) : W13 m ρ c (Proc.devRef .tc main_arg8) = m ((c : Thread nD τ).loc main_arg8) := W13_as_launched m ρ c main_arg8 (by decide) (by decide) (by decide) (by decide) (by decide) (by decide) (by decide) (by decide) (by decide) (by decide) (by decide) (by decide) (by decide)
theorem W13_arg9 (c : Dev nD) : W13 m ρ c (Proc.devRef .tc main_arg9) = m ((c : Thread nD τ).loc main_arg9) := W13_as_launched m ρ c main_arg9 (by decide) (by decide) (by decide) (by decide) (by decide) (by decide) (by decide) (by decide) (by decide) (by decide) (by decide) (by decide) (by decide)
theorem W13_arg10 (c : Dev nD) : W13 m ρ c (Proc.devRef .tc main_arg10) = m ((c : Thread nD τ).loc main_arg10) := W13_as_launched m ρ c main_arg10 (by decide) (by decide) (by decide) (by decide) (by decide) (by decide) (by decide) (by decide) (by decide) (by decide) (by decide) (by decide) (by decide)
theorem W13_arg11 (c : Dev nD) : W13 m ρ c (Proc.devRef .tc main_arg11) = m ((c : Thread nD τ).loc main_arg11) := W13_as_launched m ρ c main_arg11 (by decide) (by decide) (by decide) (by decide) (by decide) (by decide) (by decide) (by decide) (by decide) (by decide) (by decide) (by decide) (by decide)
theorem W13_arg12 (c : Dev nD) : W13 m ρ c (Proc.devRef .tc main_arg12) = m ((c : Thread nD τ).loc main_arg12) := W13_as_launched m ρ c main_arg12 (by decide) (by decide) (by decide) (by decide) (by decide) (by decide) (by decide) (by decide) (by decide) (by decide) (by decide) (by decide) (by decide)
theorem W13_arg13 (c : Dev nD) : W13 m ρ c (Proc.devRef .tc main_arg13) = m ((c : Thread nD τ).loc main_arg13) := W13_as_launched m ρ c main_arg13 (by decide) (by decide) (by decide) (by decide) (by decide) (by decide) (by decide) (by decide) (by decide) (by decide) (by decide) (by decide) (by decide)
theorem W13_arg14 (c : Dev nD) : W13 m ρ c (Proc.devRef .tc main_arg14) = m ((c : Thread nD τ).loc main_arg14) := W13_as_launched m ρ c main_arg14 (by decide) (by decide) (by decide) (by decide) (by decide) (by decide) (by decide) (by decide) (by decide) (by decide) (by decide) (by decide) (by decide)
theorem W13_arg15 (c : Dev nD) : W13 m ρ c (Proc.devRef .tc main_arg15) = m ((c : Thread nD τ).loc main_arg15) := W13_as_launched m ρ c main_arg15 (by decide) (by decide) (by decide) (by decide) (by decide) (by decide) (by decide) (by decide) (by decide) (by decide) (by decide) (by decide) (by decide)
theorem W14_arg0 (c : Dev nD) : W14 m ρ c (Proc.devRef .tc main_arg0) = m ((c : Thread nD τ).loc main_arg0) := W14_as_launched m ρ c main_arg0 (by decide) (by decide) (by decide) (by decide) (by decide) (by decide) (by decide) (by decide) (by decide) (by decide) (by decide) (by decide) (by decide) (by decide)
theorem W14_arg1 (c : Dev nD) : W14 m ρ c (Proc.devRef .tc main_arg1) = m ((c : Thread nD τ).loc main_arg1) := W14_as_launched m ρ c main_arg1 (by decide) (by decide) (by decide) (by decide) (by decide) (by decide) (by decide) (by decide) (by decide) (by decide) (by decide) (by decide) (by decide) (by decide)
theorem W14_arg2 (c : Dev nD) : W14 m ρ c (Proc.devRef .tc main_arg2) = m ((c : Thread nD τ).loc main_arg2) := W14_as_launched m ρ c main_arg2 (by decide) (by decide) (by decide) (by decide) (by decide) (by decide) (by decide) (by decide) (by decide) (by decide) (by decide) (by decide) (by decide) (by decide)
theorem W14_arg3 (c : Dev nD) : W14 m ρ c (Proc.devRef .tc main_arg3) = m ((c : Thread nD τ).loc main_arg3) := W14_as_launched m ρ c main_arg3 (by decide) (by decide) (by decide) (by decide) (by decide) (by decide) (by decide) (by decide) (by decide) (by decide) (by decide) (by decide) (by decide) (by decide)
theorem W14_arg4 (c : Dev nD) : W14 m ρ c (Proc.devRef .tc main_arg4) = m ((c : Thread nD τ).loc main_arg4) := W14_as_launched m ρ c main_arg4 (by decide) (by decide) (by decide) (by decide) (by decide) (by decide) (by decide) (by decide) (by decide) (by decide) (by decide) (by decide) (by decide) (by decide)
theorem W14_arg5 (c : Dev nD) : W14 m ρ c (Proc.devRef .tc main_arg5) = m ((c : Thread nD τ).loc main_arg5) := W14_as_launched m ρ c main_arg5 (by decide) (by decide) (by decide) (by decide) (by decide) (by decide) (by decide) (by decide) (by decide) (by decide) (by decide) (by decide) (by decide) (by decide)
theorem W14_arg6 (c : Dev nD) : W14 m ρ c (Proc.devRef .tc main_arg6) = m ((c : Thread nD τ).loc main_arg6) := W14_as_launched m ρ c main_arg6 (by decide) (by decide) (by decide) (by decide) (by decide) (by decide) (by decide) (by decide) (by decide) (by decide) (by decide) (by decide) (by decide) (by decide)
theorem W14_arg7 (c : Dev nD) : W14 m ρ c (Proc.devRef .tc main_arg7) = m ((c : Thread nD τ).loc main_arg7) := W14_as_launched m ρ c main_arg7 (by decide) (by decide) (by decide) (by decide) (by decide) (by decide) (by decide) (by decide) (by decide) (by decide) (by decide) (by decide) (by decide) (by decide)
theorem W14_arg8 (c : Dev nD) : W14 m ρ c (Proc.devRef .tc main_arg8) = m ((c : Thread nD τ).loc main_arg8) := W14_as_launched m ρ c main_arg8 (by decide) (by decide) (by decide) (by decide) (by decide) (by decide) (by decide) (by decide) (by decide) (by decide) (by decide) (by decide) (by decide) (by decide)
theorem W14_arg9 (c : Dev nD) : W14 m ρ c (Proc.devRef .tc main_arg9) = m ((c : Thread nD τ).loc main_arg9) := W14_as_launched m ρ c main_arg9 (by decide) (by decide) (by decide) (by decide) (by decide) (by decide) (by decide) (by decide) (by decide) (by decide) (by decide) (by decide) (by decide) (by decide)
theorem W14_arg10 (c : Dev nD) : W14 m ρ c (Proc.devRef .tc main_arg10) = m ((c : Thread nD τ).loc main_arg10) := W14_as_launched m ρ c main_arg10 (by decide) (by decide) (by decide) (by decide) (by decide) (by decide) (by decide) (by decide) (by decide) (by decide) (by decide) (by decide) (by decide) (by decide)
theorem W14_arg11 (c : Dev nD) : W14 m ρ c (Proc.devRef .tc main_arg11) = m ((c : Thread nD τ).loc main_arg11) := W14_as_launched m ρ c main_arg11 (by decide) (by decide) (by decide) (by decide) (by decide) (by decide) (by decide) (by decide) (by decide) (by decide) (by decide) (by decide) (by decide) (by decide)
theorem W14_arg12 (c : Dev nD) : W14 m ρ c (Proc.devRef .tc main_arg12) = m ((c : Thread nD τ).loc main_arg12) := W14_as_launched m ρ c main_arg12 (by decide) (by decide) (by decide) (by decide) (by decide) (by decide) (by decide) (by decide) (by decide) (by decide) (by decide) (by decide) (by decide) (by decide)
theorem W14_arg13 (c : Dev nD) : W14 m ρ c (Proc.devRef .tc main_arg13) = m ((c : Thread nD τ).loc main_arg13) := W14_as_launched m ρ c main_arg13 (by decide) (by decide) (by decide) (by decide) (by decide) (by decide) (by decide) (by decide) (by decide) (by decide) (by decide) (by decide) (by decide) (by decide)
theorem W14_arg14 (c : Dev nD) : W14 m ρ c (Proc.devRef .tc main_arg14) = m ((c : Thread nD τ).loc main_arg14) := W14_as_launched m ρ c main_arg14 (by decide) (by decide) (by decide) (by decide) (by decide) (by decide) (by decide) (by decide) (by decide) (by decide) (by decide) (by decide) (by decide) (by decide)
theorem W14_arg15 (c : Dev nD) : W14 m ρ c (Proc.devRef .tc main_arg15) = m ((c : Thread nD τ).loc main_arg15) := W14_as_launched m ρ c main_arg15 (by decide) (by decide) (by decide) (by decide) (by decide) (by decide) (by decide) (by decide) (by decide) (by decide) (by decide) (by decide) (by decide) (by decide)
theorem W15_arg0 (c : Dev nD) : W15 m ρ c (Proc.devRef .tc main_arg0) = m ((c : Thread nD τ).loc main_arg0) := W15_as_launched m ρ c main_arg0 (by decide) (by decide) (by decide) (by decide) (by decide) (by decide) (by decide) (by decide) (by decide) (by decide) (by decide) (by decide) (by decide) (by decide) (by decide)
theorem W15_arg1 (c : Dev nD) : W15 m ρ c (Proc.devRef .tc main_arg1) = m ((c : Thread nD τ).loc main_arg1) := W15_as_launched m ρ c main_arg1 (by decide) (by decide) (by decide) (by decide) (by decide) (by decide) (by decide) (by decide) (by decide) (by decide) (by decide) (by decide) (by decide) (by decide) (by decide)
theorem W15_arg2 (c : Dev nD) : W15 m ρ c (Proc.devRef .tc main_arg2) = m ((c : Thread nD τ).loc main_arg2) := W15_as_launched m ρ c main_arg2 (by decide) (by decide) (by decide) (by decide) (by decide) (by decide) (by decide) (by decide) (by decide) (by decide) (by decide) (by decide) (by decide) (by decide) (by decide)
theorem W15_arg3 (c : Dev nD) : W15 m ρ c (Proc.devRef .tc main_arg3) = m ((c : Thread nD τ).loc main_arg3) := W15_as_launched m ρ c main_arg3 (by decide) (by decide) (by decide) (by decide) (by decide) (by decide) (by decide) (by decide) (by decide) (by decide) (by decide) (by decide) (by decide) (by decide) (by decide)
theorem W15_arg4 (c : Dev nD) : W15 m ρ c (Proc.devRef .tc main_arg4) = m ((c : Thread nD τ).loc main_arg4) := W15_as_launched m ρ c main_arg4 (by decide) (by decide) (by decide) (by decide) (by decide) (by decide) (by decide) (by decide) (by decide) (by decide) (by decide) (by decide) (by decide) (by decide) (by decide)
theorem W15_arg5 (c : Dev nD) : W15 m ρ c (Proc.devRef .tc main_arg5) = m ((c : Thread nD τ).loc main_arg5) := W15_as_launched m ρ c main_arg5 (by decide) (by decide) (by decide) (by decide) (by decide) (by decide) (by decide) (by decide) (by decide) (by decide) (by decide) (by decide) (by decide) (by decide) (by decide)
theorem W15_arg6 (c : Dev nD) : W15 m ρ c (Proc.devRef .tc main_arg6) = m ((c : Thread nD τ).loc main_arg6) := W15_as_launched m ρ c main_arg6 (by decide) (by decide) (by decide) (by decide) (by decide) (by decide) (by decide) (by decide) (by decide) (by decide) (by decide) (by decide) (by decide) (by decide) (by decide)
theorem W15_arg7 (c : Dev nD) : W15 m ρ c (Proc.devRef .tc main_arg7) = m ((c : Thread nD τ).loc main_arg7) := W15_as_launched m ρ c main_arg7 (by decide) (by decide) (by decide) (by decide) (by decide) (by decide) (by decide) (by decide) (by decide) (by decide) (by decide) (by decide) (by decide) (by decide) (by decide)
theorem W15_arg8 (c : Dev nD) : W15 m ρ c (Proc.devRef .tc main_arg8) = m ((c : Thread nD τ).loc main_arg8) := W15_as_launched m ρ c main_arg8 (by decide) (by decide) (by decide) (by decide) (by decide) (by decide) (by decide) (by decide) (by decide) (by decide) (by decide) (by decide) (by decide) (by decide) (by decide)
theorem W15_arg9 (c : Dev nD) : W15 m ρ c (Proc.devRef .tc main_arg9) = m ((c : Thread nD τ).loc main_arg9) := W15_as_launched m ρ c main_arg9 (by decide) (by decide) (by decide) (by decide) (by decide) (by decide) (by decide) (by decide) (by decide) (by decide) (by decide) (by decide) (by decide) (by decide) (by decide)
theorem W15_arg10 (c : Dev nD) : W15 m ρ c (Proc.devRef .tc main_arg10) = m ((c : Thread nD τ).loc main_arg10) := W15_as_launched m ρ c main_arg10 (by decide) (by decide) (by decide) (by decide) (by decide) (by decide) (by decide) (by decide) (by decide) (by decide) (by decide) (by decide) (by decide) (by decide) (by decide)
theorem W15_arg11 (c : Dev nD) : W15 m ρ c (Proc.devRef .tc main_arg11) = m ((c : Thread nD τ).loc main_arg11) := W15_as_launched m ρ c main_arg11 (by decide) (by decide) (by decide) (by decide) (by decide) (by decide) (by decide) (by decide) (by decide) (by decide) (by decide) (by decide) (by decide) (by decide) (by decide)
theorem W15_arg12 (c : Dev nD) : W15 m ρ c (Proc.devRef .tc main_arg12) = m ((c : Thread nD τ).loc main_arg12) := W15_as_launched m ρ c main_arg12 (by decide) (by decide) (by decide) (by decide) (by decide) (by decide) (by decide) (by decide) (by decide) (by decide) (by decide) (by decide) (by decide) (by decide) (by decide)
theorem W15_arg13 (c : Dev nD) : W15 m ρ c (Proc.devRef .tc main_arg13) = m ((c : Thread nD τ).loc main_arg13) := W15_as_launched m ρ c main_arg13 (by decide) (by decide) (by decide) (by decide) (by decide) (by decide) (by decide) (by decide) (by decide) (by decide) (by decide) (by decide) (by decide) (by decide) (by decide)
theorem W15_arg14 (c : Dev nD) : W15 m ρ c (Proc.devRef .tc main_arg14) = m ((c : Thread nD τ).loc main_arg14) := W15_as_launched m ρ c main_arg14 (by decide) (by decide) (by decide) (by decide) (by decide) (by decide) (by decide) (by decide) (by decide) (by decide) (by decide) (by decide) (by decide) (by decide) (by decide)
theorem W15_arg15 (c : Dev nD) : W15 m ρ c (Proc.devRef .tc main_arg15) = m ((c : Thread nD τ).loc main_arg15) := W15_as_launched m ρ c main_arg15 (by decide) (by decide) (by decide) (by decide) (by decide) (by decide) (by decide) (by decide) (by decide) (by decide) (by decide) (by decide) (by decide) (by decide) (by decide)
theorem W16_arg0 (c : Dev nD) : W16 m ρ c (Proc.devRef .tc main_arg0) = m ((c : Thread nD τ).loc main_arg0) := W16_as_launched m ρ c main_arg0 (by decide) (by decide) (by decide) (by decide) (by decide) (by decide) (by decide) (by decide) (by decide) (by decide) (by decide) (by decide) (by decide) (by decide) (by decide) (by decide)
theorem W16_arg1 (c : Dev nD) : W16 m ρ c (Proc.devRef .tc main_arg1) = m ((c : Thread nD τ).loc main_arg1) := W16_as_launched m ρ c main_arg1 (by decide) (by decide) (by decide) (by decide) (by decide) (by decide) (by decide) (by decide) (by decide) (by decide) (by decide) (by decide) (by decide) (by decide) (by decide) (by decide)
theorem W16_arg2 (c : Dev nD) : W16 m ρ c (Proc.devRef .tc main_arg2) = m ((c : Thread nD τ).loc main_arg2) := W16_as_launched m ρ c main_arg2 (by decide) (by decide) (by decide) (by decide) (by decide) (by decide) (by decide) (by decide) (by decide) (by decide) (by decide) (by decide) (by decide) (by decide) (by decide) (by decide)
theorem W16_arg3 (c : Dev nD) : W16 m ρ c (Proc.devRef .tc main_arg3) = m ((c : Thread nD τ).loc main_arg3) := W16_as_launched m ρ c main_arg3 (by decide) (by decide) (by decide) (by decide) (by decide) (by decide) (by decide) (by decide) (by decide) (by decide) (by decide) (by decide) (by decide) (by decide) (by decide) (by decide)
theorem W16_arg4 (c : Dev nD) : W16 m ρ c (Proc.devRef .tc main_arg4) = m ((c : Thread nD τ).loc main_arg4) := W16_as_launched m ρ c main_arg4 (by decide) (by decide) (by decide) (by decide) (by decide) (by decide) (by decide) (by decide) (by decide) (by decide) (by decide) (by decide) (by decide) (by decide) (by decide) (by decide)
theorem W16_arg5 (c : Dev nD) : W16 m ρ c (Proc.devRef .tc main_arg5) = m ((c : Thread nD τ).loc main_arg5) := W16_as_launched m ρ c main_arg5 (by decide) (by decide) (by decide) (by decide) (by decide) (by decide) (by decide) (by decide) (by decide) (by decide) (by decide) (by decide) (by decide) (by decide) (by decide) (by decide)
theorem W16_arg6 (c : Dev nD) : W16 m ρ c (Proc.devRef .tc main_arg6) = m ((c : Thread nD τ).loc main_arg6) := W16_as_launched m ρ c main_arg6 (by decide) (by decide) (by decide) (by decide) (by decide) (by decide) (by decide) (by decide) (by decide) (by decide) (by decide) (by decide) (by decide) (by decide) (by decide) (by decide)
theorem W16_arg7 (c : Dev nD) : W16 m ρ c (Proc.devRef .tc main_arg7) = m ((c : Thread nD τ).loc main_arg7) := W16_as_launched m ρ c main_arg7 (by decide) (by decide) (by decide) (by decide) (by decide) (by decide) (by decide) (by decide) (by decide) (by decide) (by decide) (by decide) (by decide) (by decide) (by decide) (by decide)
theorem W16_arg8 (c : Dev nD) : W16 m ρ c (Proc.devRef .tc main_arg8) = m ((c : Thread nD τ).loc main_arg8) := W16_as_launched m ρ c main_arg8 (by decide) (by decide) (by decide) (by decide) (by decide) (by decide) (by decide) (by decide) (by decide) (by decide) (by decide) (by decide) (by decide) (by decide) (by decide) (by decide)
theorem W16_arg9 (c : Dev nD) : W16 m ρ c (Proc.devRef .tc main_arg9) = m ((c : Thread nD τ).loc main_arg9) := W16_as_launched m ρ c main_arg9 (by decide) (by decide) (by decide) (by decide) (by decide) (by decide) (by decide) (by decide) (by decide) (by decide) (by decide) (by decide) (by decide) (by decide) (by decide) (by decide)
theorem W16_arg10 (c : Dev nD) : W16 m ρ c (Proc.devRef .tc main_arg10) = m ((c : Thread nD τ).loc main_arg10) := W16_as_launched m ρ c main_arg10 (by decide) (by decide) (by decide) (by decide) (by decide) (by decide) (by decide) (by decide) (by decide) (by decide) (by decide) (by decide) (by decide) (by decide) (by decide) (by decide)
theorem W16_arg11 (c : Dev nD) : W16 m ρ c (Proc.devRef .tc main_arg11) = m ((c : Thread nD τ).loc main_arg11) := W16_as_launched m ρ c main_arg11 (by decide) (by decide) (by decide) (by decide) (by decide) (by decide) (by decide) (by decide) (by decide) (by decide) (by decide) (by decide) (by decide) (by decide) (by decide) (by decide)
theorem W16_arg12 (c : Dev nD) : W16 m ρ c (Proc.devRef .tc main_arg12) = m ((c : Thread nD τ).loc main_arg12) := W16_as_launched m ρ c main_arg12 (by decide) (by decide) (by decide) (by decide) (by decide) (by decide) (by decide) (by decide) (by decide) (by decide) (by decide) (by decide) (by decide) (by decide) (by decide) (by decide)
theorem W16_arg13 (c : Dev nD) : W16 m ρ c (Proc.devRef .tc main_arg13) = m ((c : Thread nD τ).loc main_arg13) := W16_as_launched m ρ c main_arg13 (by decide) (by decide) (by decide) (by decide) (by decide) (by decide) (by decide) (by decide) (by decide) (by decide) (by decide) (by decide) (by decide) (by decide) (by decide) (by decide)
theorem W16_arg14 (c : Dev nD) : W16 m ρ c (Proc.devRef .tc main_arg14) = m ((c : Thread nD τ).loc main_arg14) := W16_as_launched m ρ c main_arg14 (by decide) (by decide) (by decide) (by decide) (by decide) (by decide) (by decide) (by decide) (by decide) (by decide) (by decide) (by decide) (by decide) (by decide) (by decide) (by decide)
theorem W16_arg15 (c : Dev nD) : W16 m ρ c (Proc.devRef .tc main_arg15) = m ((c : Thread nD τ).loc main_arg15) := W16_as_launched m ρ c main_arg15 (by decide) (by decide) (by decide) (by decide) (by decide) (by decide) (by decide) (by decide) (by decide) (by decide) (by decide) (by decide) (by decide) (by decide) (by decide) (by decide)
theorem W17_arg0 (c : Dev nD) : W17 m ρ c (Proc.devRef .tc main_arg0) = m ((c : Thread nD τ).loc main_arg0) := W17_as_launched m ρ c main_arg0 (by decide) (by decide) (by decide) (by decide) (by decide) (by decide) (by decide) (by decide) (by decide) (by decide) (by decide) (by decide) (by decide) (by decide) (by decide) (by decide) (by decide)
theorem W17_arg1 (c : Dev nD) : W17 m ρ c (Proc.devRef .tc main_arg1) = m ((c : Thread nD τ).loc main_arg1) := W17_as_launched m ρ c main_arg1 (by decide) (by decide) (by decide) (by decide) (by decide) (by decide) (by decide) (by decide) (by decide) (by decide) (by decide) (by decide) (by decide) (by decide) (by decide) (by decide) (by decide)
theorem W17_arg2 (c : Dev nD) : W17 m ρ c (Proc.devRef .tc main_arg2) = m ((c : Thread nD τ).loc main_arg2) := W17_as_launched m ρ c main_arg2 (by decide) (by decide) (by decide) (by decide) (by decide) (by decide) (by decide) (by decide) (by decide) (by decide) (by decide) (by decide) (by decide) (by decide) (by decide) (by decide) (by decide)
theorem W17_arg3 (c : Dev nD) : W17 m ρ c (Proc.devRef .tc main_arg3) = m ((c : Thread nD τ).loc main_arg3) := W17_as_launched m ρ c main_arg3 (by decide) (by decide) (by decide) (by decide) (by decide) (by decide) (by decide) (by decide) (by decide) (by decide) (by decide) (by decide) (by decide) (by decide) (by decide) (by decide) (by decide)
theorem W17_arg4 (c : Dev nD) : W17 m ρ c (Proc.devRef .tc main_arg4) = m ((c : Thread nD τ).loc main_arg4) := W17_as_launched m ρ c main_arg4 (by decide) (by decide) (by decide) (by decide) (by decide) (by decide) (by decide) (by decide) (by decide) (by decide) (by decide) (by decide) (by decide) (by decide) (by decide) (by decide) (by decide)
theorem W17_arg5 (c : Dev nD) : W17 m ρ c (Proc.devRef .tc main_arg5) = m ((c : Thread nD τ).loc main_arg5) := W17_as_launched m ρ c main_arg5 (by decide) (by decide) (by decide) (by decide) (by decide) (by decide) (by decide) (by decide) (by decide) (by decide) (by decide) (by decide) (by decide) (by decide) (by decide) (by decide) (by decide)
theorem W17_arg6 (c : Dev nD) : W17 m ρ c (Proc.devRef .tc main_arg6) = m ((c : Thread nD τ).loc main_arg6) := W17_as_launched m ρ c main_arg6 (by decide) (by decide) (by decide) (by decide) (by decide) (by decide) (by decide) (by decide) (by decide) (by decide) (by decide) (by decide) (by decide) (by decide) (by decide) (by decide) (by decide)
theorem W17_arg7 (c : Dev nD) : W17 m ρ c (Proc.devRef .tc main_arg7) = m ((c : Thread nD τ).loc main_arg7) := W17_as_launched m ρ c main_arg7 (by decide) (by decide) (by decide) (by decide) (by decide) (by decide) (by decide) (by decide) (by decide) (by decide) (by decide) (by decide) (by decide) (by decide) (by decide) (by decide) (by decide)
theorem W17_arg8 (c : Dev nD) : W17 m ρ c (Proc.devRef .tc main_arg8) = m ((c : Thread nD τ).loc main_arg8) := W17_as_launched m ρ c main_arg8 (by decide) (by decide) (by decide) (by decide) (by decide) (by decide) (by decide) (by decide) (by decide) (by decide) (by decide) (by decide) (by decide) (by decide) (by decide) (by decide) (by decide)
theorem W17_arg9 (c : Dev nD) : W17 m ρ c (Proc.devRef .tc main_arg9) = m ((c : Thread nD τ).loc main_arg9) := W17_as_launched m ρ c main_arg9 (by decide) (by decide) (by decide) (by decide) (by decide) (by decide) (by decide) (by decide) (by decide) (by decide) (by decide) (by decide) (by decide) (by decide) (by decide) (by decide) (by decide)
theorem W17_arg10 (c : Dev nD) : W17 m ρ c (Proc.devRef .tc main_arg10) = m ((c : Thread nD τ).loc main_arg10) := W17_as_launched m ρ c main_arg10 (by decide) (by decide) (by decide) (by decide) (by decide) (by decide) (by decide) (by decide) (by decide) (by decide) (by decide) (by decide) (by decide) (by decide) (by decide) (by decide) (by decide)
theorem W17_arg11 (c : Dev nD) : W17 m ρ c (Proc.devRef .tc main_arg11) = m ((c : Thread nD τ).loc main_arg11) := W17_as_launched m ρ c main_arg11 (by decide) (by decide) (by decide) (by decide) (by decide) (by decide) (by decide) (by decide) (by decide) (by decide) (by decide) (by decide) (by decide) (by decide) (by decide) (by decide) (by decide)
theorem W17_arg12 (c : Dev nD) : W17 m ρ c (Proc.devRef .tc main_arg12) = m ((c : Thread nD τ).loc main_arg12) := W17_as_launched m ρ c main_arg12 (by decide) (by decide) (by decide) (by decide) (by decide) (by decide) (by decide) (by decide) (by decide) (by decide) (by decide) (by decide) (by decide) (by decide) (by decide) (by decide) (by decide)
theorem W17_arg13 (c : Dev nD) : W17 m ρ c (Proc.devRef .tc main_arg13) = m ((c : Thread nD τ).loc main_arg13) := W17_as_launched m ρ c main_arg13 (by decide) (by decide) (by decide) (by decide) (by decide) (by decide) (by decide) (by decide) (by decide) (by decide) (by decide) (by decide) (by decide) (by decide) (by decide) (by decide) (by decide)
theorem W17_arg14 (c : Dev nD) : W17 m ρ c (Proc.devRef .tc main_arg14) = m ((c : Thread nD τ).loc main_arg14) := W17_as_launched m ρ c main_arg14 (by decide) (by decide) (by decide) (by decide) (by decide) (by decide) (by decide) (by decide) (by decide) (by decide) (by decide) (by decide) (by decide) (by decide) (by decide) (by decide) (by decide)
theorem W17_arg15 (c : Dev nD) : W17 m ρ c (Proc.devRef .tc main_arg15) = m ((c : Thread nD τ).loc main_arg15) := W17_as_launched m ρ c main_arg15 (by decide) (by decide) (by decide) (by decide) (by decide) (by decide) (by decide) (by decide) (by decide) (by decide) (by decide) (by decide) (by decide) (by decide) (by decide) (by decide) (by decide)
theorem W18_arg0 (c : Dev nD) : W18 m ρ c (Proc.devRef .tc main_arg0) = m ((c : Thread nD τ).loc main_arg0) := W18_as_launched m ρ c main_arg0 (by decide) (by decide) (by decide) (by decide) (by decide) (by decide) (by decide) (by decide) (by decide) (by decide) (by decide) (by decide) (by decide) (by decide) (by decide) (by decide) (by decide) (by decide)
theorem W18_arg1 (c : Dev nD) : W18 m ρ c (Proc.devRef .tc main_arg1) = m ((c : Thread nD τ).loc main_arg1) := W18_as_launched m ρ c main_arg1 (by decide) (by decide) (by decide) (by decide) (by decide) (by decide) (by decide) (by decide) (by decide) (by decide) (by decide) (by decide) (by decide) (by decide) (by decide) (by decide) (by decide) (by decide)
theorem W18_arg2 (c : Dev nD) : W18 m ρ c (Proc.devRef .tc main_arg2) = m ((c : Thread nD τ).loc main_arg2) := W18_as_launched m ρ c main_arg2 (by decide) (by decide) (by decide) (by decide) (by decide) (by decide) (by decide) (by decide) (by decide) (by decide) (by decide) (by decide) (by decide) (by decide) (by decide) (by decide) (by decide) (by decide)
theorem W18_arg3 (c : Dev nD) : W18 m ρ c (Proc.devRef .tc main_arg3) = m ((c : Thread nD τ).loc main_arg3) := W18_as_launched m ρ c main_arg3 (by decide) (by decide) (by decide) (by decide) (by decide) (by decide) (by decide) (by decide) (by decide) (by decide) (by decide) (by decide) (by decide) (by decide) (by decide) (by decide) (by decide) (by decide)
theorem W18_arg4 (c : Dev nD) : W18 m ρ c (Proc.devRef .tc main_arg4) = m ((c : Thread nD τ).loc main_arg4) := W18_as_launched m ρ c main_arg4 (by decide) (by decide) (by decide) (by decide) (by decide) (by decide) (by decide) (by decide) (by decide) (by decide) (by decide) (by decide) (by decide) (by decide) (by decide) (by decide) (by decide) (by decide)
theorem W18_arg5 (c : Dev nD) : W18 m ρ c (Proc.devRef .tc main_arg5) = m ((c : Thread nD τ).loc main_arg5) := W18_as_launched m ρ c main_arg5 (by decide) (by decide) (by decide) (by decide) (by decide) (by decide) (by decide) (by decide) (by decide) (by decide) (by decide) (by decide) (by decide) (by decide) (by decide) (by decide) (by decide) (by decide)
theorem W18_arg6 (c : Dev nD) : W18 m ρ c (Proc.devRef .tc main_arg6) = m ((c : Thread nD τ).loc main_arg6) := W18_as_launched m ρ c main_arg6 (by decide) (by decide) (by decide) (by decide) (by decide) (by decide) (by decide) (by decide) (by decide) (by decide) (by decide) (by decide) (by decide) (by decide) (by decide) (by decide) (by decide) (by decide)
theorem W18_arg7 (c : Dev nD) : W18 m ρ c (Proc.devRef .tc main_arg7) = m ((c : Thread nD τ).loc main_arg7) := W18_as_launched m ρ c main_arg7 (by decide) (by decide) (by decide) (by decide) (by decide) (by decide) (by decide) (by decide) (by decide) (by decide) (by decide) (by decide) (by decide) (by decide) (by decide) (by decide) (by decide) (by decide)
theorem W18_arg8 (c : Dev nD) : W18 m ρ c (Proc.devRef .tc main_arg8) = m ((c : Thread nD τ).loc main_arg8) := W18_as_launched m ρ c main_arg8 (by decide) (by decide) (by decide) (by decide) (by decide) (by decide) (by decide) (by decide) (by decide) (by decide) (by decide) (by decide) (by decide) (by decide) (by decide) (by decide) (by decide) (by decide)
theorem W18_arg9 (c : Dev nD) : W18 m ρ c (Proc.devRef .tc main_arg9) = m ((c : Thread nD τ).loc main_arg9) := W18_as_launched m ρ c main_arg9 (by decide) (by decide) (by decide) (by decide) (by decide) (by decide) (by decide) (by decide) (by decide) (by decide) (by decide) (by decide) (by decide) (by decide) (by decide) (by decide) (by decide) (by decide)
theorem W18_arg10 (c : Dev nD) : W18 m ρ c (Proc.devRef .tc main_arg10) = m ((c : Thread nD τ).loc main_arg10) := W18_as_launched m ρ c main_arg10 (by decide) (by decide) (by decide) (by decide) (by decide) (by decide) (by decide) (by decide) (by decide) (by decide) (by decide) (by decide) (by decide) (by decide) (by decide) (by decide) (by decide) (by decide)
theorem W18_arg11 (c : Dev nD) : W18 m ρ c (Proc.devRef .tc main_arg11) = m ((c : Thread nD τ).loc main_arg11) := W18_as_launched m ρ c main_arg11 (by decide) (by decide) (by decide) (by decide) (by decide) (by decide) (by decide) (by decide) (by decide) (by decide) (by decide) (by decide) (by decide) (by decide) (by decide) (by decide) (by decide) (by decide)
theorem W18_arg12 (c : Dev nD) : W18 m ρ c (Proc.devRef .tc main_arg12) = m ((c : Thread nD τ).loc main_arg12) := W18_as_launched m ρ c main_arg12 (by decide) (by decide) (by decide) (by decide) (by decide) (by decide) (by decide) (by decide) (by decide) (by decide) (by decide) (by decide) (by decide) (by decide) (by decide) (by decide) (by decide) (by decide)
theorem W18_arg13 (c : Dev nD) : W18 m ρ c (Proc.devRef .tc main_arg13) = m ((c : Thread nD τ).loc main_arg13) := W18_as_launched m ρ c main_arg13 (by decide) (by decide) (by decide) (by decide) (by decide) (by decide) (by decide) (by decide) (by decide) (by decide) (by decide) (by decide) (by decide) (by decide) (by decide) (by decide) (by decide) (by decide)
theorem W18_arg14 (c : Dev nD) : W18 m ρ c (Proc.devRef .tc main_arg14) = m ((c : Thread nD τ).loc main_arg14) := W18_as_launched m ρ c main_arg14 (by decide) (by decide) (by decide) (by decide) (by decide) (by decide) (by decide) (by decide) (by decide) (by decide) (by decide) (by decide) (by decide) (by decide) (by decide) (by decide) (by decide) (by decide)
theorem W18_arg15 (c : Dev nD) : W18 m ρ c (Proc.devRef .tc main_arg15) = m ((c : Thread nD τ).loc main_arg15) := W18_as_launched m ρ c main_arg15 (by decide) (by decide) (by decide) (by decide) (by decide) (by decide) (by decide) (by decide) (by decide) (by decide) (by decide) (by decide) (by decide) (by decide) (by decide) (by decide) (by decide) (by decide)
theorem W19_arg0 (c : Dev nD) : W19 m ρ c (Proc.devRef .tc main_arg0) = m ((c : Thread nD τ).loc main_arg0) := W19_as_launched m ρ c main_arg0 (by decide) (by decide) (by decide) (by decide) (by decide) (by decide) (by decide) (by decide) (by decide) (by decide) (by decide) (by decide) (by decide) (by decide) (by decide) (by decide) (by decide) (by decide) (by decide)
theorem W19_arg1 (c : Dev nD) : W19 m ρ c (Proc.devRef .tc main_arg1) = m ((c : Thread nD τ).loc main_arg1) := W19_as_launched m ρ c main_arg1 (by decide) (by decide) (by decide) (by decide) (by decide) (by decide) (by decide) (by decide) (by decide) (by decide) (by decide) (by decide) (by decide) (by decide) (by decide) (by decide) (by decide) (by decide) (by decide)
theorem W19_arg2 (c : Dev nD) : W19 m ρ c (Proc.devRef .tc main_arg2) = m ((c : Thread nD τ).loc main_arg2) := W19_as_launched m ρ c main_arg2 (by decide) (by decide) (by decide) (by decide) (by decide) (by decide) (by decide) (by decide) (by decide) (by decide) (by decide) (by decide) (by decide) (by decide) (by decide) (by decide) (by decide) (by decide) (by decide)
theorem W19_arg3 (c : Dev nD) : W19 m ρ c (Proc.devRef .tc main_arg3) = m ((c : Thread nD τ).loc main_arg3) := W19_as_launched m ρ c main_arg3 (by decide) (by decide) (by decide) (by decide) (by decide) (by decide) (by decide) (by decide) (by decide) (by decide) (by decide) (by decide) (by decide) (by decide) (by decide) (by decide) (by decide) (by decide) (by decide)
theorem W19_arg4 (c : Dev nD) : W19 m ρ c (Proc.devRef .tc main_arg4) = m ((c : Thread nD τ).loc main_arg4) := W19_as_launched m ρ c main_arg4 (by decide) (by decide) (by decide) (by decide) (by decide) (by decide) (by decide) (by decide) (by decide) (by decide) (by decide) (by decide) (by decide) (by decide) (by decide) (by decide) (by decide) (by decide) (by decide)
theorem W19_arg5 (c : Dev nD) : W19 m ρ c (Proc.devRef .tc main_arg5) = m ((c : Thread nD τ).loc main_arg5) := W19_as_launched m ρ c main_arg5 (by decide) (by decide) (by decide) (by decide) (by decide) (by decide) (by decide) (by decide) (by decide) (by decide) (by decide) (by decide) (by decide) (by decide) (by decide) (by decide) (by decide) (by decide) (by decide)
theorem W19_arg6 (c : Dev nD) : W19 m ρ c (Proc.devRef .tc main_arg6) = m ((c : Thread nD τ).loc main_arg6) := W19_as_launched m ρ c main_arg6 (by decide) (by decide) (by decide) (by decide) (by decide) (by decide) (by decide) (by decide) (by decide) (by decide) (by decide) (by decide) (by decide) (by decide) (by decide) (by decide) (by decide) (by decide) (by decide)
theorem W19_arg7 (c : Dev nD) : W19 m ρ c (Proc.devRef .tc main_arg7) = m ((c : Thread nD τ).loc main_arg7) := W19_as_launched m ρ c main_arg7 (by decide) (by decide) (by decide) (by decide) (by decide) (by decide) (by decide) (by decide) (by decide) (by decide) (by decide) (by decide) (by decide) (by decide) (by decide) (by decide) (by decide) (by decide) (by decide)
theorem W19_arg8 (c : Dev nD) : W19 m ρ c (Proc.devRef .tc main_arg8) = m ((c : Thread nD τ).loc main_arg8) := W19_as_launched m ρ c main_arg8 (by decide) (by decide) (by decide) (by decide) (by decide) (by decide) (by decide) (by decide) (by decide) (by decide) (by decide) (by decide) (by decide) (by decide) (by decide) (by decide) (by decide) (by decide) (by decide)
theorem W19_arg9 (c : Dev nD) : W19 m ρ c (Proc.devRef .tc main_arg9) = m ((c : Thread nD τ).loc main_arg9) := W19_as_launched m ρ c main_arg9 (by decide) (by decide) (by decide) (by decide) (by decide) (by decide) (by decide) (by decide) (by decide) (by decide) (by decide) (by decide) (by decide) (by decide) (by decide) (by decide) (by decide) (by decide) (by decide)
theorem W19_arg10 (c : Dev nD) : W19 m ρ c (Proc.devRef .tc main_arg10) = m ((c : Thread nD τ).loc main_arg10) := W19_as_launched m ρ c main_arg10 (by decide) (by decide) (by decide) (by decide) (by decide) (by decide) (by decide) (by decide) (by decide) (by decide) (by decide) (by decide) (by decide) (by decide) (by decide) (by decide) (by decide) (by decide) (by decide)
theorem W19_arg11 (c : Dev nD) : W19 m ρ c (Proc.devRef .tc main_arg11) = m ((c : Thread nD τ).loc main_arg11) := W19_as_launched m ρ c main_arg11 (by decide) (by decide) (by decide) (by decide) (by decide) (by decide) (by decide) (by decide) (by decide) (by decide) (by decide) (by decide) (by decide) (by decide) (by decide) (by decide) (by decide) (by decide) (by decide)
theorem W19_arg12 (c : Dev nD) : W19 m ρ c (Proc.devRef .tc main_arg12) = m ((c : Thread nD τ).loc main_arg12) := W19_as_launched m ρ c main_arg12 (by decide) (by decide) (by decide) (by decide) (by decide) (by decide) (by decide) (by decide) (by decide) (by decide) (by decide) (by decide) (by decide) (by decide) (by decide) (by decide) (by decide) (by decide) (by decide)
theorem W19_arg13 (c : Dev nD) : W19 m ρ c (Proc.devRef .tc main_arg13) = m ((c : Thread nD τ).loc main_arg13) := W19_as_launched m ρ c main_arg13 (by decide) (by decide) (by decide) (by decide) (by decide) (by decide) (by decide) (by decide) (by decide) (by decide) (by decide) (by decide) (by decide) (by decide) (by decide) (by decide) (by decide) (by decide) (by decide)
theorem W19_arg14 (c : Dev nD) : W19 m ρ c (Proc.devRef .tc main_arg14) = m ((c : Thread nD τ).loc main_arg14) := W19_as_launched m ρ c main_arg14 (by decide) (by decide) (by decide) (by decide) (by decide) (by decide) (by decide) (by decide) (by decide) (by decide) (by decide) (by decide) (by decide) (by decide) (by decide) (by decide) (by decide) (by decide) (by decide)
theorem W19_arg15 (c : Dev nD) : W19 m ρ c (Proc.devRef .tc main_arg15) = m ((c : Thread nD τ).loc main_arg15) := W19_as_launched m ρ c main_arg15 (by decide) (by decide) (by decide) (by decide) (by decide) (by decide) (by decide) (by decide) (by decide) (by decide) (by decide) (by decide) (by decide) (by decide) (by decide) (by decide) (by decide) (by decide) (by decide)
theorem W20_arg0 (c : Dev nD) : W20 m ρ c (Proc.devRef .tc main_arg0) = m ((c : Thread nD τ).loc main_arg0) := W20_as_launched m ρ c main_arg0 (by decide) (by decide) (by decide) (by decide) (by decide) (by decide) (by decide) (by decide) (by decide) (by decide) (by decide) (by decide) (by decide) (by decide) (by decide) (by decide) (by decide) (by decide) (by decide) (by decide)
theorem W20_arg1 (c : Dev nD) : W20 m ρ c (Proc.devRef .tc main_arg1) = m ((c : Thread nD τ).loc main_arg1) := W20_as_launched m ρ c main_arg1 (by decide) (by decide) (by decide) (by decide) (by decide) (by decide) (by decide) (by decide) (by decide) (by decide) (by decide) (by decide) (by decide) (by decide) (by decide) (by decide) (by decide) (by decide) (by decide) (by decide)
theorem W20_arg2 (c : Dev nD) : W20 m ρ c (Proc.devRef .tc main_arg2) = m ((c : Thread nD τ).loc main_arg2) := W20_as_launched m ρ c main_arg2 (by decide) (by decide) (by decide) (by decide) (by decide) (by decide) (by decide) (by decide) (by decide) (by decide) (by decide) (by decide) (by decide) (by decide) (by decide) (by decide) (by decide) (by decide) (by decide) (by decide)
theorem W20_arg3 (c : Dev nD) : W20 m ρ c (Proc.devRef .tc main_arg3) = m ((c : Thread nD τ).loc main_arg3) := W20_as_launched m ρ c main_arg3 (by decide) (by decide) (by decide) (by decide) (by decide) (by decide) (by decide) (by decide) (by decide) (by decide) (by decide) (by decide) (by decide) (by decide) (by decide) (by decide) (by decide) (by decide) (by decide) (by decide)
theorem W20_arg4 (c : Dev nD) : W20 m ρ c (Proc.devRef .tc main_arg4) = m ((c : Thread nD τ).loc main_arg4) := W20_as_launched m ρ c main_arg4 (by decide) (by decide) (by decide) (by decide) (by decide) (by decide) (by decide) (by decide) (by decide) (by decide) (by decide) (by decide) (by decide) (by decide) (by decide) (by decide) (by decide) (by decide) (by decide) (by decide)
theorem W20_arg5 (c : Dev nD) : W20 m ρ c (Proc.devRef .tc main_arg5) = m ((c : Thread nD τ).loc main_arg5) := W20_as_launched m ρ c main_arg5 (by decide) (by decide) (by decide) (by decide) (by decide) (by decide) (by decide) (by decide) (by decide) (by decide) (by decide) (by decide) (by decide) (by decide) (by decide) (by decide) (by decide) (by decide) (by decide) (by decide)
theorem W20_arg6 (c : Dev nD) : W20 m ρ c (Proc.devRef .tc main_arg6) = m ((c : Thread nD τ).loc main_arg6) := W20_as_launched m ρ c main_arg6 (by decide) (by decide) (by decide) (by decide) (by decide) (by decide) (by decide) (by decide) (by decide) (by decide) (by decide) (by decide) (by decide) (by decide) (by decide) (by decide) (by decide) (by decide) (by decide) (by decide)
theorem W20_arg7 (c : Dev nD) : W20 m ρ c (Proc.devRef .tc main_arg7) = m ((c : Thread nD τ).loc main_arg7) := W20_as_launched m ρ c main_arg7 (by decide) (by decide) (by decide) (by decide) (by decide) (by decide) (by decide) (by decide) (by decide) (by decide) (by decide) (by decide) (by decide) (by decide) (by decide) (by decide) (by decide) (by decide) (by decide) (by decide)
theorem W20_arg8 (c : Dev nD) : W20 m ρ c (Proc.devRef .tc main_arg8) = m ((c : Thread nD τ).loc main_arg8) := W20_as_launched m ρ c main_arg8 (by decide) (by decide) (by decide) (by decide) (by decide) (by decide) (by decide) (by decide) (by decide) (by decide) (by decide) (by decide) (by decide) (by decide) (by decide) (by decide) (by decide) (by decide) (by decide) (by decide)
theorem W20_arg9 (c : Dev nD) : W20 m ρ c (Proc.devRef .tc main_arg9) = m ((c : Thread nD τ).loc main_arg9) := W20_as_launched m ρ c main_arg9 (by decide) (by decide) (by decide) (by decide) (by decide) (by decide) (by decide) (by decide) (by decide) (by decide) (by decide) (by decide) (by decide) (by decide) (by decide) (by decide) (by decide) (by decide) (by decide) (by decide)
theorem W20_arg10 (c : Dev nD) : W20 m ρ c (Proc.devRef .tc main_arg10) = m ((c : Thread nD τ).loc main_arg10) := W20_as_launched m ρ c main_arg10 (by decide) (by decide) (by decide) (by decide) (by decide) (by decide) (by decide) (by decide) (by decide) (by decide) (by decide) (by decide) (by decide) (by decide) (by decide) (by decide) (by decide) (by decide) (by decide) (by decide)
theorem W20_arg11 (c : Dev nD) : W20 m ρ c (Proc.devRef .tc main_arg11) = m ((c : Thread nD τ).loc main_arg11) := W20_as_launched m ρ c main_arg11 (by decide) (by decide) (by decide) (by decide) (by decide) (by decide) (by decide) (by decide) (by decide) (by decide) (by decide) (by decide) (by decide) (by decide) (by decide) (by decide) (by decide) (by decide) (by decide) (by decide)
theorem W20_arg12 (c : Dev nD) : W20 m ρ c (Proc.devRef .tc main_arg12) = m ((c : Thread nD τ).loc main_arg12) := W20_as_launched m ρ c main_arg12 (by decide) (by decide) (by decide) (by decide) (by decide) (by decide) (by decide) (by decide) (by decide) (by decide) (by decide) (by decide) (by decide) (by decide) (by decide) (by decide) (by decide) (by decide) (by decide) (by decide)
theorem W20_arg13 (c : Dev nD) : W20 m ρ c (Proc.devRef .tc main_arg13) = m ((c : Thread nD τ).loc main_arg13) := W20_as_launched m ρ c main_arg13 (by decide) (by decide) (by decide) (by decide) (by decide) (by decide) (by decide) (by decide) (by decide) (by decide) (by decide) (by decide) (by decide) (by decide) (by decide) (by decide) (by decide) (by decide) (by decide) (by decide)
theorem W20_arg14 (c : Dev nD) : W20 m ρ c (Proc.devRef .tc main_arg14) = m ((c : Thread nD τ).loc main_arg14) := W20_as_launched m ρ c main_arg14 (by decide) (by decide) (by decide) (by decide) (by decide) (by decide) (by decide) (by decide) (by decide) (by decide) (by decide) (by decide) (by decide) (by decide) (by decide) (by decide) (by decide) (by decide) (by decide) (by decide)
theorem W20_arg15 (c : Dev nD) : W20 m ρ c (Proc.devRef .tc main_arg15) = m ((c : Thread nD τ).loc main_arg15) := W20_as_launched m ρ c main_arg15 (by decide) (by decide) (by decide) (by decide) (by decide) (by decide) (by decide) (by decide) (by decide) (by decide) (by decide) (by decide) (by decide) (by decide) (by decide) (by decide) (by decide) (by decide) (by decide) (by decide)
theorem W21_arg0 (c : Dev nD) : W21 m ρ c (Proc.devRef .tc main_arg0) = m ((c : Thread nD τ).loc main_arg0) := W21_as_launched m ρ c main_arg0 (by decide) (by decide) (by decide) (by decide) (by decide) (by decide) (by decide) (by decide) (by decide) (by decide) (by decide) (by decide) (by decide) (by decide) (by decide) (by decide) (by decide) (by decide) (by decide) (by decide) (by decide)
theorem W21_arg1 (c : Dev nD) : W21 m ρ c (Proc.devRef .tc main_arg1) = m ((c : Thread nD τ).loc main_arg1) := W21_as_launched m ρ c main_arg1 (by decide) (by decide) (by decide) (by decide) (by decide) (by decide) (by decide) (by decide) (by decide) (by decide) (by decide) (by decide) (by decide) (by decide) (by decide) (by decide) (by decide) (by decide) (by decide) (by decide) (by decide)
theorem W21_arg2 (c : Dev nD) : W21 m ρ c (Proc.devRef .tc main_arg2) = m ((c : Thread nD τ).loc main_arg2) := W21_as_launched m ρ c main_arg2 (by decide) (by decide) (by decide) (by decide) (by decide) (by decide) (by decide) (by decide) (by decide) (by decide) (by decide) (by decide) (by decide) (by decide) (by decide) (by decide) (by decide) (by decide) (by decide) (by decide) (by decide)
theorem W21_arg3 (c : Dev nD) : W21 m ρ c (Proc.devRef .tc main_arg3) = m ((c : Thread nD τ).loc main_arg3) := W21_as_launched m ρ c main_arg3 (by decide) (by decide) (by decide) (by decide) (by decide) (by decide) (by decide) (by decide) (by decide) (by decide) (by decide) (by decide) (by decide) (by decide) (by decide) (by decide) (by decide) (by decide) (by decide) (by decide) (by decide)
theorem W21_arg4 (c : Dev nD) : W21 m ρ c (Proc.devRef .tc main_arg4) = m ((c : Thread nD τ).loc main_arg4) := W21_as_launched m ρ c main_arg4 (by decide) (by decide) (by decide) (by decide) (by decide) (by decide) (by decide) (by decide) (by decide) (by decide) (by decide) (by decide) (by decide) (by decide) (by decide) (by decide) (by decide) (by decide) (by decide) (by decide) (by decide)
theorem W21_arg5 (c : Dev nD) : W21 m ρ c (Proc.devRef .tc main_arg5) = m ((c : Thread nD τ).loc main_arg5) := W21_as_launched m ρ c main_arg5 (by decide) (by decide) (by decide) (by decide) (by decide) (by decide) (by decide) (by decide) (by decide) (by decide) (by decide) (by decide) (by decide) (by decide) (by decide) (by decide) (by decide) (by decide) (by decide) (by decide) (by decide)
theorem W21_arg6 (c : Dev nD) : W21 m ρ c (Proc.devRef .tc main_arg6) = m ((c : Thread nD τ).loc main_arg6) := W21_as_launched m ρ c main_arg6 (by decide) (by decide) (by decide) (by decide) (by decide) (by decide) (by decide) (by decide) (by decide) (by decide) (by decide) (by decide) (by decide) (by decide) (by decide) (by decide) (by decide) (by decide) (by decide) (by decide) (by decide)
theorem W21_arg7 (c : Dev nD) : W21 m ρ c (Proc.devRef .tc main_arg7) = m ((c : Thread nD τ).loc main_arg7) := W21_as_launched m ρ c main_arg7 (by decide) (by decide) (by decide) (by decide) (by decide) (by decide) (by decide) (by decide) (by decide) (by decide) (by decide) (by decide) (by decide) (by decide) (by decide) (by decide) (by decide) (by decide) (by decide) (by decide) (by decide)
theorem W21_arg8 (c : Dev nD) : W21 m ρ c (Proc.devRef .tc main_arg8) = m ((c : Thread nD τ).loc main_arg8) := W21_as_launched m ρ c main_arg8 (by decide) (by decide) (by decide) (by decide) (by decide) (by decide) (by decide) (by decide) (by decide) (by decide) (by decide) (by decide) (by decide) (by decide) (by decide) (by decide) (by decide) (by decide) (by decide) (by decide) (by decide)
theorem W21_arg9 (c : Dev nD) : W21 m ρ c (Proc.devRef .tc main_arg9) = m ((c : Thread nD τ).loc main_arg9) := W21_as_launched m ρ c main_arg9 (by decide) (by decide) (by decide) (by decide) (by decide) (by decide) (by decide) (by decide) (by decide) (by decide) (by decide) (by decide) (by decide) (by decide) (by decide) (by decide) (by decide) (by decide) (by decide) (by decide) (by decide)
theorem W21_arg10 (c : Dev nD) : W21 m ρ c (Proc.devRef .tc main_arg10) = m ((c : Thread nD τ).loc main_arg10) := W21_as_launched m ρ c main_arg10 (by decide) (by decide) (by decide) (by decide) (by decide) (by decide) (by decide) (by decide) (by decide) (by decide) (by decide) (by decide) (by decide) (by decide) (by decide) (by decide) (by decide) (by decide) (by decide) (by decide) (by decide)
theorem W21_arg11 (c : Dev nD) : W21 m ρ c (Proc.devRef .tc main_arg11) = m ((c : Thread nD τ).loc main_arg11) := W21_as_launched m ρ c main_arg11 (by decide) (by decide) (by decide) (by decide) (by decide) (by decide) (by decide) (by decide) (by decide) (by decide) (by decide) (by decide) (by decide) (by decide) (by decide) (by decide) (by decide) (by decide) (by decide) (by decide) (by decide)
theorem W21_arg12 (c : Dev nD) : W21 m ρ c (Proc.devRef .tc main_arg12) = m ((c : Thread nD τ).loc main_arg12) := W21_as_launched m ρ c main_arg12 (by decide) (by decide) (by decide) (by decide) (by decide) (by decide) (by decide) (by decide) (by decide) (by decide) (by decide) (by decide) (by decide) (by decide) (by decide) (by decide) (by decide) (by decide) (by decide) (by decide) (by decide)
theorem W21_arg13 (c : Dev nD) : W21 m ρ c (Proc.devRef .tc main_arg13) = m ((c : Thread nD τ).loc main_arg13) := W21_as_launched m ρ c main_arg13 (by decide) (by decide) (by decide) (by decide) (by decide) (by decide) (by decide) (by decide) (by decide) (by decide) (by decide) (by decide) (by decide) (by decide) (by decide) (by decide) (by decide) (by decide) (by decide) (by decide) (by decide)
theorem W21_arg14 (c : Dev nD) : W21 m ρ c (Proc.devRef .tc main_arg14) = m ((c : Thread nD τ).loc main_arg14) := W21_as_launched m ρ c main_arg14 (by decide) (by decide) (by decide) (by decide) (by decide) (by decide) (by decide) (by decide) (by decide) (by decide) (by decide) (by decide) (by decide) (by decide) (by decide) (by decide) (by decide) (by decide) (by decide) (by decide) (by decide)
theorem W21_arg15 (c : Dev nD) : W21 m ρ c (Proc.devRef .tc main_arg15) = m ((c : Thread nD τ).loc main_arg15) := W21_as_launched m ρ c main_arg15 (by decide) (by decide) (by decide) (by decide) (by decide) (by decide) (by decide) (by decide) (by decide) (by decide) (by decide) (by decide) (by decide) (by decide) (by decide) (by decide) (by decide) (by decide) (by decide) (by decide) (by decide)
theorem W22_arg0 (c : Dev nD) : W22 m ρ c (Proc.devRef .tc main_arg0) = m ((c : Thread nD τ).loc main_arg0) := W22_as_launched m ρ c main_arg0 (by decide) (by decide) (by decide) (by decide) (by decide) (by decide) (by decide) (by decide) (by decide) (by decide) (by decide) (by decide) (by decide) (by decide) (by decide) (by decide) (by decide) (by decide) (by decide) (by decide) (by decide) (by decide)
theorem W22_arg1 (c : Dev nD) : W22 m ρ c (Proc.devRef .tc main_arg1) = m ((c : Thread nD τ).loc main_arg1) := W22_as_launched m ρ c main_arg1 (by decide) (by decide) (by decide) (by decide) (by decide) (by decide) (by decide) (by decide) (by decide) (by decide) (by decide) (by decide) (by decide) (by decide) (by decide) (by decide) (by decide) (by decide) (by decide) (by decide) (by decide) (by decide)
theorem W22_arg2 (c : Dev nD) : W22 m ρ c (Proc.devRef .tc main_arg2) = m ((c : Thread nD τ).loc main_arg2) := W22_as_launched m ρ c main_arg2 (by decide) (by decide) (by decide) (by decide) (by decide) (by decide) (by decide) (by decide) (by decide) (by decide) (by decide) (by decide) (by decide) (by decide) (by decide) (by decide) (by decide) (by decide) (by decide) (by decide) (by decide) (by decide)
theorem W22_arg3 (c : Dev nD) : W22 m ρ c (Proc.devRef .tc main_arg3) = m ((c : Thread nD τ).loc main_arg3) := W22_as_launched m ρ c main_arg3 (by decide) (by decide) (by decide) (by decide) (by decide) (by decide) (by decide) (by decide) (by decide) (by decide) (by decide) (by decide) (by decide) (by decide) (by decide) (by decide) (by decide) (by decide) (by decide) (by decide) (by decide) (by decide)
theorem W22_arg4 (c : Dev nD) : W22 m ρ c (Proc.devRef .tc main_arg4) = m ((c : Thread nD τ).loc main_arg4) := W22_as_launched m ρ c main_arg4 (by decide) (by decide) (by decide) (by decide) (by decide) (by decide) (by decide) (by decide) (by decide) (by decide) (by decide) (by decide) (by decide) (by decide) (by decide) (by decide) (by decide) (by decide) (by decide) (by decide) (by decide) (by decide)
theorem W22_arg5 (c : Dev nD) : W22 m ρ c (Proc.devRef .tc main_arg5) = m ((c : Thread nD τ).loc main_arg5) := W22_as_launched m ρ c main_arg5 (by decide) (by decide) (by decide) (by decide) (by decide) (by decide) (by decide) (by decide) (by decide) (by decide) (by decide) (by decide) (by decide) (by decide) (by decide) (by decide) (by decide) (by decide) (by decide) (by decide) (by decide) (by decide)
theorem W22_arg6 (c : Dev nD) : W22 m ρ c (Proc.devRef .tc main_arg6) = m ((c : Thread nD τ).loc main_arg6) := W22_as_launched m ρ c main_arg6 (by decide) (by decide) (by decide) (by decide) (by decide) (by decide) (by decide) (by decide) (by decide) (by decide) (by decide) (by decide) (by decide) (by decide) (by decide) (by decide) (by decide) (by decide) (by decide) (by decide) (by decide) (by decide)
theorem W22_arg7 (c : Dev nD) : W22 m ρ c (Proc.devRef .tc main_arg7) = m ((c : Thread nD τ).loc main_arg7) := W22_as_launched m ρ c main_arg7 (by decide) (by decide) (by decide) (by decide) (by decide) (by decide) (by decide) (by decide) (by decide) (by decide) (by decide) (by decide) (by decide) (by decide) (by decide) (by decide) (by decide) (by decide) (by decide) (by decide) (by decide) (by decide)
theorem W22_arg8 (c : Dev nD) : W22 m ρ c (Proc.devRef .tc main_arg8) = m ((c : Thread nD τ).loc main_arg8) := W22_as_launched m ρ c main_arg8 (by decide) (by decide) (by decide) (by decide) (by decide) (by decide) (by decide) (by decide) (by decide) (by decide) (by decide) (by decide) (by decide) (by decide) (by decide) (by decide) (by decide) (by decide) (by decide) (by decide) (by decide) (by decide)
theorem W22_arg9 (c : Dev nD) : W22 m ρ c (Proc.devRef .tc main_arg9) = m ((c : Thread nD τ).loc main_arg9) := W22_as_launched m ρ c main_arg9 (by decide) (by decide) (by decide) (by decide) (by decide) (by decide) (by decide) (by decide) (by decide) (by decide) (by decide) (by decide) (by decide) (by decide) (by decide) (by decide) (by decide) (by decide) (by decide) (by decide) (by decide) (by decide)
theorem W22_arg10 (c : Dev nD) : W22 m ρ c (Proc.devRef .tc main_arg10) = m ((c : Thread nD τ).loc main_arg10) := W22_as_launched m ρ c main_arg10 (by decide) (by decide) (by decide) (by decide) (by decide) (by decide) (by decide) (by decide) (by decide) (by decide) (by decide) (by decide) (by decide) (by decide) (by decide) (by decide) (by decide) (by decide) (by decide) (by decide) (by decide) (by decide)
theorem W22_arg11 (c : Dev nD) : W22 m ρ c (Proc.devRef .tc main_arg11) = m ((c : Thread nD τ).loc main_arg11) := W22_as_launched m ρ c main_arg11 (by decide) (by decide) (by decide) (by decide) (by decide) (by decide) (by decide) (by decide) (by decide) (by decide) (by decide) (by decide) (by decide) (by decide) (by decide) (by decide) (by decide) (by decide) (by decide) (by decide) (by decide) (by decide)
theorem W22_arg12 (c : Dev nD) : W22 m ρ c (Proc.devRef .tc main_arg12) = m ((c : Thread nD τ).loc main_arg12) := W22_as_launched m ρ c main_arg12 (by decide) (by decide) (by decide) (by decide) (by decide) (by decide) (by decide) (by decide) (by decide) (by decide) (by decide) (by decide) (by decide) (by decide) (by decide) (by decide) (by decide) (by decide) (by decide) (by decide) (by decide) (by decide)
theorem W22_arg13 (c : Dev nD) : W22 m ρ c (Proc.devRef .tc main_arg13) = m ((c : Thread nD τ).loc main_arg13) := W22_as_launched m ρ c main_arg13 (by decide) (by decide) (by decide) (by decide) (by decide) (by decide) (by decide) (by decide) (by decide) (by decide) (by decide) (by decide) (by decide) (by decide) (by decide) (by decide) (by decide) (by decide) (by decide) (by decide) (by decide) (by decide)
theorem W22_arg14 (c : Dev nD) : W22 m ρ c (Proc.devRef .tc main_arg14) = m ((c : Thread nD τ).loc main_arg14) := W22_as_launched m ρ c main_arg14 (by decide) (by decide) (by decide) (by decide) (by decide) (by decide) (by decide) (by decide) (by decide) (by decide) (by decide) (by decide) (by decide) (by decide) (by decide) (by decide) (by decide) (by decide) (by decide) (by decide) (by decide) (by decide)
theorem W22_arg15 (c : Dev nD) : W22 m ρ c (Proc.devRef .tc main_arg15) = m ((c : Thread nD τ).loc main_arg15) := W22_as_launched m ρ c main_arg15 (by decide) (by decide) (by decide) (by decide) (by decide) (by decide) (by decide) (by decide) (by decide) (by decide) (by decide) (by decide) (by decide) (by decide) (by decide) (by decide) (by decide) (by decide) (by decide) (by decide) (by decide) (by decide)
theorem W23_arg0 (c : Dev nD) : W23 m ρ c (Proc.devRef .tc main_arg0) = m ((c : Thread nD τ).loc main_arg0) := W23_as_launched m ρ c main_arg0 (by decide) (by decide) (by decide) (by decide) (by decide) (by decide) (by decide) (by decide) (by decide) (by decide) (by decide) (by decide) (by decide) (by decide) (by decide) (by decide) (by decide) (by decide) (by decide) (by decide) (by decide) (by decide) (by decide)
theorem W23_arg1 (c : Dev nD) : W23 m ρ c (Proc.devRef .tc main_arg1) = m ((c : Thread nD τ).loc main_arg1) := W23_as_launched m ρ c main_arg1 (by decide) (by decide) (by decide) (by decide) (by decide) (by decide) (by decide) (by decide) (by decide) (by decide) (by decide) (by decide) (by decide) (by decide) (by decide) (by decide) (by decide) (by decide) (by decide) (by decide) (by decide) (by decide) (by decide)
theorem W23_arg2 (c : Dev nD) : W23 m ρ c (Proc.devRef .tc main_arg2) = m ((c : Thread nD τ).loc main_arg2) := W23_as_launched m ρ c main_arg2 (by decide) (by decide) (by decide) (by decide) (by decide) (by decide) (by decide) (by decide) (by decide) (by decide) (by decide) (by decide) (by decide) (by decide) (by decide) (by decide) (by decide) (by decide) (by decide) (by decide) (by decide) (by decide) (by decide)
theorem W23_arg3 (c : Dev nD) : W23 m ρ c (Proc.devRef .tc main_arg3) = m ((c : Thread nD τ).loc main_arg3) := W23_as_launched m ρ c main_arg3 (by decide) (by decide) (by decide) (by decide) (by decide) (by decide) (by decide) (by decide) (by decide) (by decide) (by decide) (by decide) (by decide) (by decide) (by decide) (by decide) (by decide) (by decide) (by decide) (by decide) (by decide) (by decide) (by decide)
theorem W23_arg4 (c : Dev nD) : W23 m ρ c (Proc.devRef .tc main_arg4) = m ((c : Thread nD τ).loc main_arg4) := W23_as_launched m ρ c main_arg4 (by decide) (by decide) (by decide) (by decide) (by decide) (by decide) (by decide) (by decide) (by decide) (by decide) (by decide) (by decide) (by decide) (by decide) (by decide) (by decide) (by decide) (by decide) (by decide) (by decide) (by decide) (by decide) (by decide)
theorem W23_arg5 (c : Dev nD) : W23 m ρ c (Proc.devRef .tc main_arg5) = m ((c : Thread nD τ).loc main_arg5) := W23_as_launched m ρ c main_arg5 (by decide) (by decide) (by decide) (by decide) (by decide) (by decide) (by decide) (by decide) (by decide) (by decide) (by decide) (by decide) (by decide) (by decide) (by decide) (by decide) (by decide) (by decide) (by decide) (by decide) (by decide) (by decide) (by decide)
theorem W23_arg6 (c : Dev nD) : W23 m ρ c (Proc.devRef .tc main_arg6) = m ((c : Thread nD τ).loc main_arg6) := W23_as_launched m ρ c main_arg6 (by decide) (by decide) (by decide) (by decide) (by decide) (by decide) (by decide) (by decide) (by decide) (by decide) (by decide) (by decide) (by decide) (by decide) (by decide) (by decide) (by decide) (by decide) (by decide) (by decide) (by decide) (by decide) (by decide)
theorem W23_arg7 (c : Dev nD) : W23 m ρ c (Proc.devRef .tc main_arg7) = m ((c : Thread nD τ).loc main_arg7) := W23_as_launched m ρ c main_arg7 (by decide) (by decide) (by decide) (by decide) (by decide) (by decide) (by decide) (by decide) (by decide) (by decide) (by decide) (by decide) (by decide) (by decide) (by decide) (by decide) (by decide) (by decide) (by decide) (by decide) (by decide) (by decide) (by decide)
theorem W23_arg8 (c : Dev nD) : W23 m ρ c (Proc.devRef .tc main_arg8) = m ((c : Thread nD τ).loc main_arg8) := W23_as_launched m ρ c main_arg8 (by decide) (by decide) (by decide) (by decide) (by decide) (by decide) (by decide) (by decide) (by decide) (by decide) (by decide) (by decide) (by decide) (by decide) (by decide) (by decide) (by decide) (by decide) (by decide) (by decide) (by decide) (by decide) (by decide)
theorem W23_arg9 (c : Dev nD) : W23 m ρ c (Proc.devRef .tc main_arg9) = m ((c : Thread nD τ).loc main_arg9) := W23_as_launched m ρ c main_arg9 (by decide) (by decide) (by decide) (by decide) (by decide) (by decide) (by decide) (by decide) (by decide) (by decide) (by decide) (by decide) (by decide) (by decide) (by decide) (by decide) (by decide) (by decide) (by decide) (by decide) (by decide) (by decide) (by decide)
theorem W23_arg10 (c : Dev nD) : W23 m ρ c (Proc.devRef .tc main_arg10) = m ((c : Thread nD τ).loc main_arg10) := W23_as_launched m ρ c main_arg10 (by decide) (by decide) (by decide) (by decide) (by decide) (by decide) (by decide) (by decide) (by decide) (by decide) (by decide) (by decide) (by decide) (by decide) (by decide) (by decide) (by decide) (by decide) (by decide) (by decide) (by decide) (by decide) (by decide)
theorem W23_arg11 (c : Dev nD) : W23 m ρ c (Proc.devRef .tc main_arg11) = m ((c : Thread nD τ).loc main_arg11) := W23_as_launched m ρ c main_arg11 (by decide) (by decide) (by decide) (by decide) (by decide) (by decide) (by decide) (by decide) (by decide) (by decide) (by decide) (by decide) (by decide) (by decide) (by decide) (by decide) (by decide) (by decide) (by decide) (by decide) (by decide) (by decide) (by decide)
theorem W23_arg12 (c : Dev nD) : W23 m ρ c (Proc.devRef .tc main_arg12) = m ((c : Thread nD τ).loc main_arg12) := W23_as_launched m ρ c main_arg12 (by decide) (by decide) (by decide) (by decide) (by decide) (by decide) (by decide) (by decide) (by decide) (by decide) (by decide) (by decide) (by decide) (by decide) (by decide) (by decide) (by decide) (by decide) (by decide) (by decide) (by decide) (by decide) (by decide)
theorem W23_arg13 (c : Dev nD) : W23 m ρ c (Proc.devRef .tc main_arg13) = m ((c : Thread nD τ).loc main_arg13) := W23_as_launched m ρ c main_arg13 (by decide) (by decide) (by decide) (by decide) (by decide) (by decide) (by decide) (by decide) (by decide) (by decide) (by decide) (by decide) (by decide) (by decide) (by decide) (by decide) (by decide) (by decide) (by decide) (by decide) (by decide) (by decide) (by decide)
theorem W23_arg14 (c : Dev nD) : W23 m ρ c (Proc.devRef .tc main_arg14) = m ((c : Thread nD τ).loc main_arg14) := W23_as_launched m ρ c main_arg14 (by decide) (by decide) (by decide) (by decide) (by decide) (by decide) (by decide) (by decide) (by decide) (by decide) (by decide) (by decide) (by decide) (by decide) (by decide) (by decide) (by decide) (by decide) (by decide) (by decide) (by decide) (by decide) (by decide)
theorem W23_arg15 (c : Dev nD) : W23 m ρ c (Proc.devRef .tc main_arg15) = m ((c : Thread nD τ).loc main_arg15) := W23_as_launched m ρ c main_arg15 (by decide) (by decide) (by decide) (by decide) (by decide) (by decide) (by decide) (by decide) (by decide) (by decide) (by decide) (by decide) (by decide) (by decide) (by decide) (by decide) (by decide) (by decide) (by decide) (by decide) (by decide) (by decide) (by decide)

end Cert.KernelIdeal.Hand

end
-- ==== Proof.Ref.Blocks0.lean ====
/- Window `main_part0`'s operations cut into consecutive blocks, each ending at a buffer whose value is read later; per block: the buffers it writes, that it leaves every other buffer alone, and the value it leaves in its last buffer as the printed operations' term of the contents it started from. -/
import proofs.«126583_j73280732004963_1_alg».proof.Proof.Ref.Ops0

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 9 of @main's 261. -/
def c0_1 : List (HloOp τ sig (Elt F)) :=
  [ StableHlo.nullary main_c (constantI S_ 32 0#32),
    StableHlo.unary main_c main_v0 (broadcastInDim S100000 ![] bcast_S_S100000 : (⟨S_, .i32⟩ : BufTy).Contents (Elt F) → (⟨S100000, .i32⟩ : BufTy).Contents (Elt F)),
    StableHlo.binary main_arg10 main_v0 main_v1 (cmpi .slt : (⟨S100000, .i32⟩ : BufTy).Contents (Elt F) → (⟨S100000, .i32⟩ : BufTy).Contents (Elt F) → (⟨S100000, .i1⟩ : BufTy).Contents (Elt F)),
    StableHlo.nullary main_c_0 (constantI S_ 32 100000#32),
    StableHlo.unary main_c_0 main_v2 (broadcastInDim S100000 ![] bcast_S_S100000 : (⟨S_, .i32⟩ : BufTy).Contents (Elt F) → (⟨S100000, .i32⟩ : BufTy).Contents (Elt F)),
    StableHlo.binary main_arg10 main_v2 main_v3 (addi : (⟨S100000, .i32⟩ : BufTy).Contents (Elt F) → (⟨S100000, .i32⟩ : BufTy).Contents (Elt F) → (⟨S100000, .i32⟩ : BufTy).Contents (Elt F)),
    StableHlo.ternary main_v1 main_v3 main_arg10 main_v4 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v4 main_v5 (broadcastInDim S100000x1 ![0] bcast_S100000_S100000x1_0 : (⟨S100000, .i32⟩ : BufTy).Contents (Elt F) → (⟨S100000x1, .i32⟩ : BufTy).Contents (Elt F)),
    StableHlo.binary main_arg0 main_v5 main_v6 ((fun x i => Host.gather gather_S100000x64_S100000x1_S100000x64_1_0_n_n_0_1_164 x i) : (⟨S100000x64, .f32⟩ : BufTy).Contents (Elt F) → (⟨S100000x1, .i32⟩ : BufTy).Contents (Elt F) → (⟨S100000x64, .f32⟩ : BufTy).Contents (Elt F)) ]
abbrev c0_1_W : List (Ref sig .tc) := [main_c, main_v0, main_v1, main_c_0, main_v2, main_v3, main_v4, main_v5, main_v6]
theorem c0_1_writes : (c0_1 : List (HloOp τ sig (Elt F))).Forall fun op => op.writes ⊆ (c0_1_W.map (Proc.devRef (τ := τ) .tc)).toFinset := by
  simp only [c0_1, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c0_1_keep (W : Valuation τ sig (Elt F)) {r : Ref sig .tc} (h : r ∉ c0_1_W) :
    after c0_1 W (no_index (Proc.devRef .tc r)) = W (Proc.devRef .tc r) :=
  after_of_writes_sub c0_1 W c0_1_writes h
set_option maxRecDepth 8192 in
set_option maxHeartbeats 1000000 in
theorem c0_1_main_v6 (W : Valuation τ sig (Elt F)) :
    after c0_1 W (no_index (Proc.devRef .tc main_v6)) =
      (Host.gather gather_S100000x64_S100000x1_S100000x64_1_0_n_n_0_1_164 (W (Proc.devRef .tc main_arg0)) ((broadcastInDim S100000x1 ![0] bcast_S100000_S100000x1_0 : (⟨S100000, .i32⟩ : BufTy).Contents (Elt F) → (⟨S100000x1, .i32⟩ : BufTy).Contents (Elt F)) ((select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) ((cmpi .slt : (⟨S100000, .i32⟩ : BufTy).Contents (Elt F) → (⟨S100000, .i32⟩ : BufTy).Contents (Elt F) → (⟨S100000, .i1⟩ : BufTy).Contents (Elt F)) (W (Proc.devRef .tc main_arg10)) ((broadcastInDim S100000 ![] bcast_S_S100000 : (⟨S_, .i32⟩ : BufTy).Contents (Elt F) → (⟨S100000, .i32⟩ : BufTy).Contents (Elt F)) (constantI S_ 32 0#32 : (⟨S_, .i32⟩ : BufTy).Contents (Elt F)))) ((addi : (⟨S100000, .i32⟩ : BufTy).Contents (Elt F) → (⟨S100000, .i32⟩ : BufTy).Contents (Elt F) → (⟨S100000, .i32⟩ : BufTy).Contents (Elt F)) (W (Proc.devRef .tc main_arg10)) ((broadcastInDim S100000 ![] bcast_S_S100000 : (⟨S_, .i32⟩ : BufTy).Contents (Elt F) → (⟨S100000, .i32⟩ : BufTy).Contents (Elt F)) (constantI S_ 32 100000#32 : (⟨S_, .i32⟩ : BufTy).Contents (Elt F)))) (W (Proc.devRef .tc main_arg10)))) : (⟨S100000x64, .f32⟩ : BufTy).Contents (Elt F)) := by
  simp only [c0_1]
  after_results_simp
  try rfl

/-- Operations 10 … 18 of @main's 261. -/
def c0_2 : List (HloOp τ sig (Elt F)) :=
  [ StableHlo.nullary main_c_1 (constantI S_ 32 0#32),
    StableHlo.unary main_c_1 main_v7 (broadcastInDim S50000 ![] bcast_S_S50000 : (⟨S_, .i32⟩ : BufTy).Contents (Elt F) → (⟨S50000, .i32⟩ : BufTy).Contents (Elt F)),
    StableHlo.binary main_arg11 main_v7 main_v8 (cmpi .slt : (⟨S50000, .i32⟩ : BufTy).Contents (Elt F) → (⟨S50000, .i32⟩ : BufTy).Contents (Elt F) → (⟨S50000, .i1⟩ : BufTy).Contents (Elt F)),
    StableHlo.nullary main_c_2 (constantI S_ 32 50000#32),
    StableHlo.unary main_c_2 main_v9 (broadcastInDim S50000 ![] bcast_S_S50000 : (⟨S_, .i32⟩ : BufTy).Contents (Elt F) → (⟨S50000, .i32⟩ : BufTy).Contents (Elt F)),
    StableHlo.binary main_arg11 main_v9 main_v10 (addi : (⟨S50000, .i32⟩ : BufTy).Contents (Elt F) → (⟨S50000, .i32⟩ : BufTy).Contents (Elt F) → (⟨S50000, .i32⟩ : BufTy).Contents (Elt F)),
    StableHlo.ternary main_v8 main_v10 main_arg11 main_v11 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v11 main_v12 (broadcastInDim S50000x1 ![0] bcast_S50000_S50000x1_0 : (⟨S50000, .i32⟩ : BufTy).Contents (Elt F) → (⟨S50000x1, .i32⟩ : BufTy).Contents (Elt F)),
    StableHlo.binary main_arg1 main_v12 main_v13 ((fun x i => Host.gather gather_S50000x64_S50000x1_S50000x64_1_0_n_n_0_1_164 x i) : (⟨S50000x64, .f32⟩ : BufTy).Contents (Elt F) → (⟨S50000x1, .i32⟩ : BufTy).Contents (Elt F) → (⟨S50000x64, .f32⟩ : BufTy).Contents (Elt F)) ]
abbrev c0_2_W : List (Ref sig .tc) := [main_c_1, main_v7, main_v8, main_c_2, main_v9, main_v10, main_v11, main_v12, main_v13]
theorem c0_2_writes : (c0_2 : List (HloOp τ sig (Elt F))).Forall fun op => op.writes ⊆ (c0_2_W.map (Proc.devRef (τ := τ) .tc)).toFinset := by
  simp only [c0_2, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c0_2_keep (W : Valuation τ sig (Elt F)) {r : Ref sig .tc} (h : r ∉ c0_2_W) :
    after c0_2 W (no_index (Proc.devRef .tc r)) = W (Proc.devRef .tc r) :=
  after_of_writes_sub c0_2 W c0_2_writes h
set_option maxRecDepth 8192 in
set_option maxHeartbeats 1000000 in
theorem c0_2_main_v13 (W : Valuation τ sig (Elt F)) :
    after c0_2 W (no_index (Proc.devRef .tc main_v13)) =
      (Host.gather gather_S50000x64_S50000x1_S50000x64_1_0_n_n_0_1_164 (W (Proc.devRef .tc main_arg1)) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (W (Proc.devRef .tc main_arg11)) ((broadcastInDim S50000 ![] bcast_S_S50000 : (⟨S_, .i32⟩ : BufTy).Contents (Elt F) → (⟨S50000, .i32⟩ : BufTy).Contents (Elt F)) (constantI S_ 32 0#32 : (⟨S_, .i32⟩ : BufTy).Contents (Elt F)))) ((addi : (⟨S50000, .i32⟩ : BufTy).Contents (Elt F) → (⟨S50000, .i32⟩ : BufTy).Contents (Elt F) → (⟨S50000, .i32⟩ : BufTy).Contents (Elt F)) (W (Proc.devRef .tc main_arg11)) ((broadcastInDim S50000 ![] bcast_S_S50000 : (⟨S_, .i32⟩ : BufTy).Contents (Elt F) → (⟨S50000, .i32⟩ : BufTy).Contents (Elt F)) (constantI S_ 32 50000#32 : (⟨S_, .i32⟩ : BufTy).Contents (Elt F)))) (W (Proc.devRef .tc main_arg11)))) : (⟨S50000x64, .f32⟩ : BufTy).Contents (Elt F)) := by
  simp only [c0_2]
  after_results_simp
  try rfl

/-- Operations 19 … 50 of @main's 261. -/
def c0_3 : List (HloOp τ sig (Elt F)) :=
  [ StableHlo.nullary main_cst (constant S_ .f32 0x3F800000#32),
    StableHlo.unary main_cst main_v14 (broadcastInDim S1000000 ![] bcast_S_S1000000 : (⟨S_, .f32⟩ : BufTy).Contents (Elt F) → (⟨S1000000, .f32⟩ : BufTy).Contents (Elt F)),
    StableHlo.nullary main_cst_3 (constant S_ .f32 0x00000000#32),
    StableHlo.unary main_cst_3 main_v15 (broadcastInDim S100000 ![] bcast_S_S100000 : (⟨S_, .f32⟩ : BufTy).Contents (Elt F) → (⟨S100000, .f32⟩ : BufTy).Contents (Elt F)),
    StableHlo.unary main_arg12 main_v16 (broadcastInDim S1000000x1 ![0] bcast_S1000000_S1000000x1_0 : (⟨S1000000, .i32⟩ : BufTy).Contents (Elt F) → (⟨S1000000x1, .i32⟩ : BufTy).Contents (Elt F)),
    StableHlo.ternary main_v15 main_v16 main_v14 main_v17 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_4 (constant S_ .f32 0x3F800000#32),
    StableHlo.unary main_cst_4 main_v18 (broadcastInDim S1000000 ![] bcast_S_S1000000 : (⟨S_, .f32⟩ : BufTy).Contents (Elt F) → (⟨S1000000, .f32⟩ : BufTy).Contents (Elt F)),
    StableHlo.nullary main_cst_5 (constant S_ .f32 0x00000000#32),
    StableHlo.unary main_cst_5 main_v19 (broadcastInDim S50000 ![] bcast_S_S50000 : (⟨S_, .f32⟩ : BufTy).Contents (Elt F) → (⟨S50000, .f32⟩ : BufTy).Contents (Elt F)),
    StableHlo.unary main_arg13 main_v20 (broadcastInDim S1000000x1 ![0] bcast_S1000000_S1000000x1_0 : (⟨S1000000, .i32⟩ : BufTy).Contents (Elt F) → (⟨S1000000x1, .i32⟩ : BufTy).Contents (Elt F)),
    StableHlo.ternary main_v19 main_v20 main_v18 main_v21 ((fun x i u => Host.scatterAdd scatter_S50000_S1000000x1_S1000000_n_0_0_1 x i u) : (⟨S50000, .f32⟩ : BufTy).Contents (Elt F) → (⟨S1000000x1, .i32⟩ : BufTy).Contents (Elt F) → (⟨S1000000, .f32⟩ : BufTy).Contents (Elt F) → (⟨S50000, .f32⟩ : BufTy).Contents (Elt F)),
    StableHlo.nullary main_c_6 (constantI S_ 32 0#32),
    StableHlo.unary main_c_6 main_v22 (broadcastInDim S1000000 ![] bcast_S_S1000000 : (⟨S_, .i32⟩ : BufTy).Contents (Elt F) → (⟨S1000000, .i32⟩ : BufTy).Contents (Elt F)),
    StableHlo.binary main_arg12 main_v22 main_v23 (cmpi .slt : (⟨S1000000, .i32⟩ : BufTy).Contents (Elt F) → (⟨S1000000, .i32⟩ : BufTy).Contents (Elt F) → (⟨S1000000, .i1⟩ : BufTy).Contents (Elt F)),
    StableHlo.nullary main_c_7 (constantI S_ 32 100000#32),
    StableHlo.unary main_c_7 main_v24 (broadcastInDim S1000000 ![] bcast_S_S1000000 : (⟨S_, .i32⟩ : BufTy).Contents (Elt F) → (⟨S1000000, .i32⟩ : BufTy).Contents (Elt F)),
    StableHlo.binary main_arg12 main_v24 main_v25 (addi : (⟨S1000000, .i32⟩ : BufTy).Contents (Elt F) → (⟨S1000000, .i32⟩ : BufTy).Contents (Elt F) → (⟨S1000000, .i32⟩ : BufTy).Contents (Elt F)),
    StableHlo.ternary main_v23 main_v25 main_arg12 main_v26 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v26 main_v27 (broadcastInDim S1000000x1 ![0] bcast_S1000000_S1000000x1_0 : (⟨S1000000, .i32⟩ : BufTy).Contents (Elt F) → (⟨S1000000x1, .i32⟩ : BufTy).Contents (Elt F)),
    StableHlo.binary main_v17 main_v27 main_v28 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    StableHlo.nullary main_c_8 (constantI S_ 32 0#32),
    StableHlo.unary main_c_8 main_v29 (broadcastInDim S1000000 ![] bcast_S_S1000000 : (⟨S_, .i32⟩ : BufTy).Contents (Elt F) → (⟨S1000000, .i32⟩ : BufTy).Contents (Elt F)),
    StableHlo.binary main_arg13 main_v29 main_v30 (cmpi .slt : (⟨S1000000, .i32⟩ : BufTy).Contents (Elt F) → (⟨S1000000, .i32⟩ : BufTy).Contents (Elt F) → (⟨S1000000, .i1⟩ : BufTy).Contents (Elt F)),
    StableHlo.nullary main_c_9 (constantI S_ 32 50000#32),
    StableHlo.unary main_c_9 main_v31 (broadcastInDim S1000000 ![] bcast_S_S1000000 : (⟨S_, .i32⟩ : BufTy).Contents (Elt F) → (⟨S1000000, .i32⟩ : BufTy).Contents (Elt F)),
    StableHlo.binary main_arg13 main_v31 main_v32 (addi : (⟨S1000000, .i32⟩ : BufTy).Contents (Elt F) → (⟨S1000000, .i32⟩ : BufTy).Contents (Elt F) → (⟨S1000000, .i32⟩ : BufTy).Contents (Elt F)),
    StableHlo.ternary main_v30 main_v32 main_arg13 main_v33 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v33 main_v34 (broadcastInDim S1000000x1 ![0] bcast_S1000000_S1000000x1_0 : (⟨S1000000, .i32⟩ : BufTy).Contents (Elt F) → (⟨S1000000x1, .i32⟩ : BufTy).Contents (Elt F)),
    StableHlo.binary main_v21 main_v34 main_v35 ((fun x i => Host.gather gather_S50000_S1000000x1_S1000000_n_0_n_n_0_1_1 x i) : (⟨S50000, .f32⟩ : BufTy).Contents (Elt F) → (⟨S1000000x1, .i32⟩ : BufTy).Contents (Elt F) → (⟨S1000000, .f32⟩ : BufTy).Contents (Elt F)),
    StableHlo.binary main_v28 main_v35 main_v36 (mulf : (⟨S1000000, .f32⟩ : BufTy).Contents (Elt F) → (⟨S1000000, .f32⟩ : BufTy).Contents (Elt F) → (⟨S1000000, .f32⟩ : BufTy).Contents (Elt F)),
    StableHlo.unary main_v36 main_v37 (Host.rsqrt : (⟨S1000000, .f32⟩ : BufTy).Contents (Elt F) → (⟨S1000000, .f32⟩ : BufTy).Contents (Elt F)) ]
abbrev c0_3_W : List (Ref sig .tc) := [main_cst, main_v14, main_cst_3, main_v15, main_v16, main_v17, main_cst_4, main_v18, main_cst_5, main_v19, main_v20, main_v21, main_c_6, main_v22, main_v23, main_c_7, main_v24, main_v25, main_v26, main_v27, main_v28, main_c_8, main_v29, main_v30, main_c_9, main_v31, main_v32, main_v33, main_v34, main_v35, main_v36, main_v37]
theorem c0_3_writes : (c0_3 : List (HloOp τ sig (Elt F))).Forall fun op => op.writes ⊆ (c0_3_W.map (Proc.devRef (τ := τ) .tc)).toFinset := by
  simp only [c0_3, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c0_3_keep (W : Valuation τ sig (Elt F)) {r : Ref sig .tc} (h : r ∉ c0_3_W) :
    after c0_3 W (no_index (Proc.devRef .tc r)) = W (Proc.devRef .tc r) :=
  after_of_writes_sub c0_3 W c0_3_writes h
set_option maxRecDepth 8192 in
set_option maxHeartbeats 1000000 in
theorem c0_3_main_v37 (W : Valuation τ sig (Elt F)) :
    after c0_3 W (no_index (Proc.devRef .tc main_v37)) =
      ((Host.rsqrt : (⟨S1000000, .f32⟩ : BufTy).Contents (Elt F) → (⟨S1000000, .f32⟩ : BufTy).Contents (Elt F)) ((mulf : (⟨S1000000, .f32⟩ : BufTy).Contents (Elt F) → (⟨S1000000, .f32⟩ : BufTy).Contents (Elt F) → (⟨S1000000, .f32⟩ : BufTy).Contents (Elt F)) (Host.gather gather_S100000_S1000000x1_S1000000_n_0_n_n_0_1_1 (Host.scatterAdd scatter_S100000_S1000000x1_S1000000_n_0_0_1 ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) (W (Proc.devRef .tc main_arg12))) ((broadcastInDim S1000000 ![] bcast_S_S1000000 : (⟨S_, .f32⟩ : BufTy).Contents (Elt F) → (⟨S1000000, .f32⟩ : BufTy).Contents (Elt F)) (constant S_ .f32 0x3F800000#32 : (⟨S_, .f32⟩ : BufTy).Contents (Elt F))) : (⟨S100000, .f32⟩ : BufTy).Contents (Elt F)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (W (Proc.devRef .tc main_arg12)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (W (Proc.devRef .tc main_arg12)) ((broadcastInDim S1000000 ![] bcast_S_S1000000 : (⟨S_, .i32⟩ : BufTy).Contents (Elt F) → (⟨S1000000, .i32⟩ : BufTy).Contents (Elt F)) (constantI S_ 32 100000#32 : (⟨S_, .i32⟩ : BufTy).Contents (Elt F)))) (W (Proc.devRef .tc main_arg12)))) : (⟨S1000000, .f32⟩ : BufTy).Contents (Elt F)) (Host.gather gather_S50000_S1000000x1_S1000000_n_0_n_n_0_1_1 (Host.scatterAdd scatter_S50000_S1000000x1_S1000000_n_0_0_1 ((broadcastInDim S50000 ![] bcast_S_S50000 : (⟨S_, .f32⟩ : BufTy).Contents (Elt F) → (⟨S50000, .f32⟩ : BufTy).Contents (Elt F)) (constant S_ .f32 0x00000000#32 : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) (W (Proc.devRef .tc main_arg13))) ((broadcastInDim S1000000 ![] bcast_S_S1000000 : (⟨S_, .f32⟩ : BufTy).Contents (Elt F) → (⟨S1000000, .f32⟩ : BufTy).Contents (Elt F)) (constant S_ .f32 0x3F800000#32 : (⟨S_, .f32⟩ : BufTy).Contents (Elt F))) : (⟨S50000, .f32⟩ : BufTy).Contents (Elt F)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (W (Proc.devRef .tc main_arg13)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (W (Proc.devRef .tc main_arg13)) ((broadcastInDim S1000000 ![] bcast_S_S1000000 : (⟨S_, .i32⟩ : BufTy).Contents (Elt F) → (⟨S1000000, .i32⟩ : BufTy).Contents (Elt F)) (constantI S_ 32 50000#32 : (⟨S_, .i32⟩ : BufTy).Contents (Elt F)))) (W (Proc.devRef .tc main_arg13)))) : (⟨S1000000, .f32⟩ : BufTy).Contents (Elt F)))) := by
  simp only [c0_3]
  after_results_simp
  try rfl

/-- Operations 51 … 51 of @main's 261. -/
def c0_4 : List (HloOp τ sig (Elt F)) :=
  [ StableHlo.binary main_v6 main_arg2 main_v38 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]
abbrev c0_4_W : List (Ref sig .tc) := [main_v38]
theorem c0_4_writes : (c0_4 : List (HloOp τ sig (Elt F))).Forall fun op => op.writes ⊆ (c0_4_W.map (Proc.devRef (τ := τ) .tc)).toFinset := by
  simp only [c0_4, List.Forall]; exact (by simp only [StableHlo.nullary_writes, StableHlo.unary_writes, StableHlo.binary_writes, StableHlo.ternary_writes, StableHlo.nary_writes, Finset.singleton_subset_iff, List.mem_toFinset]; exact List.mem_map_of_mem (by decide))
theorem c0_4_keep (W : Valuation τ sig (Elt F)) {r : Ref sig .tc} (h : r ∉ c0_4_W) :
    after c0_4 W (no_index (Proc.devRef .tc r)) = W (Proc.devRef .tc r) :=
  after_of_writes_sub c0_4 W c0_4_writes h
set_option maxRecDepth 8192 in
set_option maxHeartbeats 1000000 in
theorem c0_4_main_v38 (W : Valuation τ sig (Elt F)) :
    after c0_4 W (no_index (Proc.devRef .tc main_v38)) =
      (Host.dotGeneral dot_S100000x64_S64x64_S100000x64_1_0_0_1_n_n none (W (Proc.devRef .tc main_v6)) (W (Proc.devRef .tc main_arg2)) : (⟨S100000x64, .f32⟩ : BufTy).Contents (Elt F)) := by
  simp only [c0_4]
  after_results_simp
  try rfl

/-- Operations 52 … 60 of @main's 261. -/
def c0_5 : List (HloOp τ sig (Elt F)) :=
  [ StableHlo.nullary main_c_10 (constantI S_ 32 0#32),
    StableHlo.unary main_c_10 main_v39 (broadcastInDim S1000000 ![] bcast_S_S1000000 : (⟨S_, .i32⟩ : BufTy).Contents (Elt F) → (⟨S1000000, .i32⟩ : BufTy).Contents (Elt F)),
    StableHlo.binary main_arg12 main_v39 main_v40 (cmpi .slt : (⟨S1000000, .i32⟩ : BufTy).Contents (Elt F) → (⟨S1000000, .i32⟩ : BufTy).Contents (Elt F) → (⟨S1000000, .i1⟩ : BufTy).Contents (Elt F)),
    StableHlo.nullary main_c_11 (constantI S_ 32 100000#32),
    StableHlo.unary main_c_11 main_v41 (broadcastInDim S1000000 ![] bcast_S_S1000000 : (⟨S_, .i32⟩ : BufTy).Contents (Elt F) → (⟨S1000000, .i32⟩ : BufTy).Contents (Elt F)),
    StableHlo.binary main_arg12 main_v41 main_v42 (addi : (⟨S1000000, .i32⟩ : BufTy).Contents (Elt F) → (⟨S1000000, .i32⟩ : BufTy).Contents (Elt F) → (⟨S1000000, .i32⟩ : BufTy).Contents (Elt F)),
    StableHlo.ternary main_v40 main_v42 main_arg12 main_v43 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v43 main_v44 (broadcastInDim S1000000x1 ![0] bcast_S1000000_S1000000x1_0 : (⟨S1000000, .i32⟩ : BufTy).Contents (Elt F) → (⟨S1000000x1, .i32⟩ : BufTy).Contents (Elt F)),
    StableHlo.binary main_v38 main_v44 main_v45 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) ]
abbrev c0_5_W : List (Ref sig .tc) := [main_c_10, main_v39, main_v40, main_c_11, main_v41, main_v42, main_v43, main_v44, main_v45]
theorem c0_5_writes : (c0_5 : List (HloOp τ sig (Elt F))).Forall fun op => op.writes ⊆ (c0_5_W.map (Proc.devRef (τ := τ) .tc)).toFinset := by
  simp only [c0_5, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c0_5_keep (W : Valuation τ sig (Elt F)) {r : Ref sig .tc} (h : r ∉ c0_5_W) :
    after c0_5 W (no_index (Proc.devRef .tc r)) = W (Proc.devRef .tc r) :=
  after_of_writes_sub c0_5 W c0_5_writes h
set_option maxRecDepth 8192 in
set_option maxHeartbeats 1000000 in
theorem c0_5_main_v45 (W : Valuation τ sig (Elt F)) :
    after c0_5 W (no_index (Proc.devRef .tc main_v45)) =
      (Host.gather gather_S100000x64_S1000000x1_S1000000x64_1_0_n_n_0_1_164 (W (Proc.devRef .tc main_v38)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (W (Proc.devRef .tc main_arg12)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (W (Proc.devRef .tc main_arg12)) ((broadcastInDim S1000000 ![] bcast_S_S1000000 : (⟨S_, .i32⟩ : BufTy).Contents (Elt F) → (⟨S1000000, .i32⟩ : BufTy).Contents (Elt F)) (constantI S_ 32 100000#32 : (⟨S_, .i32⟩ : BufTy).Contents (Elt F)))) (W (Proc.devRef .tc main_arg12)))) : (⟨S1000000x64, .f32⟩ : BufTy).Contents (Elt F)) := by
  simp only [c0_5]
  after_results_simp
  try rfl

set_option maxRecDepth 8192 in
/-- The window's list is its blocks in order. -/
theorem ops0_blocks : (ops0 : List (HloOp τ sig (Elt F))) = c0_1 ++ (c0_2 ++ (c0_3 ++ (c0_4 ++ (c0_5)))) := rfl

end Cert.ReferenceIdeal.RefRun

end
-- ==== Proof.Ref.Blocks1.lean ====
/- Window `main_part1`'s operations cut into consecutive blocks, each ending at a buffer whose value is read later; per block: the buffers it writes, that it leaves every other buffer alone, and the value it leaves in its last buffer as the printed operations' term of the contents it started from. -/
import proofs.«126583_j73280732004963_1_alg».proof.Proof.Ref.Ops1

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 61 … 69 of @main's 261. -/
def c1_1 : List (HloOp τ sig (Elt F)) :=
  [ StableHlo.nullary main_c_12 (constantI S_ 32 0#32),
    StableHlo.unary main_c_12 main_v46 (broadcastInDim S1000000 ![] bcast_S_S1000000 : (⟨S_, .i32⟩ : BufTy).Contents (Elt F) → (⟨S1000000, .i32⟩ : BufTy).Contents (Elt F)),
    StableHlo.binary main_arg12 main_v46 main_v47 (cmpi .slt : (⟨S1000000, .i32⟩ : BufTy).Contents (Elt F) → (⟨S1000000, .i32⟩ : BufTy).Contents (Elt F) → (⟨S1000000, .i1⟩ : BufTy).Contents (Elt F)),
    StableHlo.nullary main_c_13 (constantI S_ 32 100000#32),
    StableHlo.unary main_c_13 main_v48 (broadcastInDim S1000000 ![] bcast_S_S1000000 : (⟨S_, .i32⟩ : BufTy).Contents (Elt F) → (⟨S1000000, .i32⟩ : BufTy).Contents (Elt F)),
    StableHlo.binary main_arg12 main_v48 main_v49 (addi : (⟨S1000000, .i32⟩ : BufTy).Contents (Elt F) → (⟨S1000000, .i32⟩ : BufTy).Contents (Elt F) → (⟨S1000000, .i32⟩ : BufTy).Contents (Elt F)),
    StableHlo.ternary main_v47 main_v49 main_arg12 main_v50 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v50 main_v51 (broadcastInDim S1000000x1 ![0] bcast_S1000000_S1000000x1_0 : (⟨S1000000, .i32⟩ : BufTy).Contents (Elt F) → (⟨S1000000x1, .i32⟩ : BufTy).Contents (Elt F)),
    StableHlo.binary main_v6 main_v51 main_v52 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) ]
abbrev c1_1_W : List (Ref sig .tc) := [main_c_12, main_v46, main_v47, main_c_13, main_v48, main_v49, main_v50, main_v51, main_v52]
theorem c1_1_writes : (c1_1 : List (HloOp τ sig (Elt F))).Forall fun op => op.writes ⊆ (c1_1_W.map (Proc.devRef (τ := τ) .tc)).toFinset := by
  simp only [c1_1, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c1_1_keep (W : Valuation τ sig (Elt F)) {r : Ref sig .tc} (h : r ∉ c1_1_W) :
    after c1_1 W (no_index (Proc.devRef .tc r)) = W (Proc.devRef .tc r) :=
  after_of_writes_sub c1_1 W c1_1_writes h
set_option maxRecDepth 8192 in
set_option maxHeartbeats 1000000 in
theorem c1_1_main_v52 (W : Valuation τ sig (Elt F)) :
    after c1_1 W (no_index (Proc.devRef .tc main_v52)) =
      (Host.gather gather_S100000x64_S1000000x1_S1000000x64_1_0_n_n_0_1_164 (W (Proc.devRef .tc main_v6)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (W (Proc.devRef .tc main_arg12)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (W (Proc.devRef .tc main_arg12)) ((broadcastInDim S1000000 ![] bcast_S_S1000000 : (⟨S_, .i32⟩ : BufTy).Contents (Elt F) → (⟨S1000000, .i32⟩ : BufTy).Contents (Elt F)) (constantI S_ 32 100000#32 : (⟨S_, .i32⟩ : BufTy).Contents (Elt F)))) (W (Proc.devRef .tc main_arg12)))) : (⟨S1000000x64, .f32⟩ : BufTy).Contents (Elt F)) := by
  simp only [c1_1]
  after_results_simp
  try rfl

/-- Operations 70 … 78 of @main's 261. -/
def c1_2 : List (HloOp τ sig (Elt F)) :=
  [ StableHlo.nullary main_c_14 (constantI S_ 32 0#32),
    StableHlo.unary main_c_14 main_v53 (broadcastInDim S1000000 ![] bcast_S_S1000000 : (⟨S_, .i32⟩ : BufTy).Contents (Elt F) → (⟨S1000000, .i32⟩ : BufTy).Contents (Elt F)),
    StableHlo.binary main_arg13 main_v53 main_v54 (cmpi .slt : (⟨S1000000, .i32⟩ : BufTy).Contents (Elt F) → (⟨S1000000, .i32⟩ : BufTy).Contents (Elt F) → (⟨S1000000, .i1⟩ : BufTy).Contents (Elt F)),
    StableHlo.nullary main_c_15 (constantI S_ 32 50000#32),
    StableHlo.unary main_c_15 main_v55 (broadcastInDim S1000000 ![] bcast_S_S1000000 : (⟨S_, .i32⟩ : BufTy).Contents (Elt F) → (⟨S1000000, .i32⟩ : BufTy).Contents (Elt F)),
    StableHlo.binary main_arg13 main_v55 main_v56 (addi : (⟨S1000000, .i32⟩ : BufTy).Contents (Elt F) → (⟨S1000000, .i32⟩ : BufTy).Contents (Elt F) → (⟨S1000000, .i32⟩ : BufTy).Contents (Elt F)),
    StableHlo.ternary main_v54 main_v56 main_arg13 main_v57 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v57 main_v58 (broadcastInDim S1000000x1 ![0] bcast_S1000000_S1000000x1_0 : (⟨S1000000, .i32⟩ : BufTy).Contents (Elt F) → (⟨S1000000x1, .i32⟩ : BufTy).Contents (Elt F)),
    StableHlo.binary main_v13 main_v58 main_v59 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)) ]
abbrev c1_2_W : List (Ref sig .tc) := [main_c_14, main_v53, main_v54, main_c_15, main_v55, main_v56, main_v57, main_v58, main_v59]
theorem c1_2_writes : (c1_2 : List (HloOp τ sig (Elt F))).Forall fun op => op.writes ⊆ (c1_2_W.map (Proc.devRef (τ := τ) .tc)).toFinset := by
  simp only [c1_2, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c1_2_keep (W : Valuation τ sig (Elt F)) {r : Ref sig .tc} (h : r ∉ c1_2_W) :
    after c1_2 W (no_index (Proc.devRef .tc r)) = W (Proc.devRef .tc r) :=
  after_of_writes_sub c1_2 W c1_2_writes h
set_option maxRecDepth 8192 in
set_option maxHeartbeats 1000000 in
theorem c1_2_main_v59 (W : Valuation τ sig (Elt F)) :
    after c1_2 W (no_index (Proc.devRef .tc main_v59)) =
      (Host.gather gather_S50000x64_S1000000x1_S1000000x64_1_0_n_n_0_1_164 (W (Proc.devRef .tc main_v13)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (W (Proc.devRef .tc main_arg13)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (W (Proc.devRef .tc main_arg13)) ((broadcastInDim S1000000 ![] bcast_S_S1000000 : (⟨S_, .i32⟩ : BufTy).Contents (Elt F) → (⟨S1000000, .i32⟩ : BufTy).Contents (Elt F)) (constantI S_ 32 50000#32 : (⟨S_, .i32⟩ : BufTy).Contents (Elt F)))) (W (Proc.devRef .tc main_arg13)))) : (⟨S1000000x64, .f32⟩ : BufTy).Contents (Elt F)) := by
  simp only [c1_2]
  after_results_simp
  try rfl

/-- Operations 79 … 84 of @main's 261. -/
def c1_3 : List (HloOp τ sig (Elt F)) :=
  [ StableHlo.binary main_v52 main_v59 main_v60 (mulf : (⟨S1000000x64, .f32⟩ : BufTy).Contents (Elt F) → (⟨S1000000x64, .f32⟩ : BufTy).Contents (Elt F) → (⟨S1000000x64, .f32⟩ : BufTy).Contents (Elt F)),
    StableHlo.binary main_v60 main_arg3 main_v61 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_v37 main_v62 (broadcastInDim S1000000x1 ![0] bcast_S1000000_S1000000x1_0 : (⟨S1000000, .f32⟩ : BufTy).Contents (Elt F) → (⟨S1000000x1, .f32⟩ : BufTy).Contents (Elt F)),
    StableHlo.binary main_v45 main_v61 main_v63 (addf : (⟨S1000000x64, .f32⟩ : BufTy).Contents (Elt F) → (⟨S1000000x64, .f32⟩ : BufTy).Contents (Elt F) → (⟨S1000000x64, .f32⟩ : BufTy).Contents (Elt F)),
    StableHlo.unary main_v62 main_v64 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v64 main_v63 main_v65 (mulf : (⟨S1000000x64, .f32⟩ : BufTy).Contents (Elt F) → (⟨S1000000x64, .f32⟩ : BufTy).Contents (Elt F) → (⟨S1000000x64, .f32⟩ : BufTy).Contents (Elt F)) ]
abbrev c1_3_W : List (Ref sig .tc) := [main_v60, main_v61, main_v62, main_v63, main_v64, main_v65]
theorem c1_3_writes : (c1_3 : List (HloOp τ sig (Elt F))).Forall fun op => op.writes ⊆ (c1_3_W.map (Proc.devRef (τ := τ) .tc)).toFinset := by
  simp only [c1_3, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c1_3_keep (W : Valuation τ sig (Elt F)) {r : Ref sig .tc} (h : r ∉ c1_3_W) :
    after c1_3 W (no_index (Proc.devRef .tc r)) = W (Proc.devRef .tc r) :=
  after_of_writes_sub c1_3 W c1_3_writes h
set_option maxRecDepth 8192 in
set_option maxHeartbeats 1000000 in
theorem c1_3_main_v65 (W : Valuation τ sig (Elt F)) :
    after c1_3 W (no_index (Proc.devRef .tc main_v65)) =
      ((mulf : (⟨S1000000x64, .f32⟩ : BufTy).Contents (Elt F) → (⟨S1000000x64, .f32⟩ : BufTy).Contents (Elt F) → (⟨S1000000x64, .f32⟩ : BufTy).Contents (Elt F)) ((broadcastInDim S1000000x64 ![0, 1] bcast_S1000000x1_S1000000x64_0_1 : (⟨S1000000x1, .f32⟩ : BufTy).Contents (Elt F) → (⟨S1000000x64, .f32⟩ : BufTy).Contents (Elt F)) ((broadcastInDim S1000000x1 ![0] bcast_S1000000_S1000000x1_0 : (⟨S1000000, .f32⟩ : BufTy).Contents (Elt F) → (⟨S1000000x1, .f32⟩ : BufTy).Contents (Elt F)) (W (Proc.devRef .tc main_v37)))) ((addf : (⟨S1000000x64, .f32⟩ : BufTy).Contents (Elt F) → (⟨S1000000x64, .f32⟩ : BufTy).Contents (Elt F) → (⟨S1000000x64, .f32⟩ : BufTy).Contents (Elt F)) (W (Proc.devRef .tc main_v45)) (Host.dotGeneral dot_S1000000x64_S64x64_S1000000x64_1_0_0_1_n_n none ((mulf : (⟨S1000000x64, .f32⟩ : BufTy).Contents (Elt F) → (⟨S1000000x64, .f32⟩ : BufTy).Contents (Elt F) → (⟨S1000000x64, .f32⟩ : BufTy).Contents (Elt F)) (W (Proc.devRef .tc main_v52)) (W (Proc.devRef .tc main_v59))) (W (Proc.devRef .tc main_arg3)) : (⟨S1000000x64, .f32⟩ : BufTy).Contents (Elt F)))) := by
  simp only [c1_3]
  after_results_simp
  try rfl

/-- Operations 85 … 88 of @main's 261. -/
def c1_4 : List (HloOp τ sig (Elt F)) :=
  [ StableHlo.nullary main_cst_16 (constant S_ .f32 0x00000000#32),
    StableHlo.unary main_cst_16 main_v66 (broadcastInDim S50000x64 ![] bcast_S_S50000x64 : (⟨S_, .f32⟩ : BufTy).Contents (Elt F) → (⟨S50000x64, .f32⟩ : BufTy).Contents (Elt F)),
    StableHlo.unary main_arg13 main_v67 (broadcastInDim S1000000x1 ![0] bcast_S1000000_S1000000x1_0 : (⟨S1000000, .i32⟩ : BufTy).Contents (Elt F) → (⟨S1000000x1, .i32⟩ : BufTy).Contents (Elt F)),
    StableHlo.ternary main_v66 main_v67 main_v65 main_v68 ((fun x i u => Host.scatterAdd scatter_S50000x64_S1000000x1_S1000000x64_1_0_0_1 x i u) : (⟨S50000x64, .f32⟩ : BufTy).Contents (Elt F) → (⟨S1000000x1, .i32⟩ : BufTy).Contents (Elt F) → (⟨S1000000x64, .f32⟩ : BufTy).Contents (Elt F) → (⟨S50000x64, .f32⟩ : BufTy).Contents (Elt F)) ]
abbrev c1_4_W : List (Ref sig .tc) := [main_cst_16, main_v66, main_v67, main_v68]
theorem c1_4_writes : (c1_4 : List (HloOp τ sig (Elt F))).Forall fun op => op.writes ⊆ (c1_4_W.map (Proc.devRef (τ := τ) .tc)).toFinset := by
  simp only [c1_4, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c1_4_keep (W : Valuation τ sig (Elt F)) {r : Ref sig .tc} (h : r ∉ c1_4_W) :
    after c1_4 W (no_index (Proc.devRef .tc r)) = W (Proc.devRef .tc r) :=
  after_of_writes_sub c1_4 W c1_4_writes h
set_option maxRecDepth 8192 in
set_option maxHeartbeats 1000000 in
theorem c1_4_main_v68 (W : Valuation τ sig (Elt F)) :
    after c1_4 W (no_index (Proc.devRef .tc main_v68)) =
      (Host.scatterAdd scatter_S50000x64_S1000000x1_S1000000x64_1_0_0_1 ((broadcastInDim S50000x64 ![] bcast_S_S50000x64 : (⟨S_, .f32⟩ : BufTy).Contents (Elt F) → (⟨S50000x64, .f32⟩ : BufTy).Contents (Elt F)) (constant S_ .f32 0x00000000#32 : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) (W (Proc.devRef .tc main_arg13))) (W (Proc.devRef .tc main_v65)) : (⟨S50000x64, .f32⟩ : BufTy).Contents (Elt F)) := by
  simp only [c1_4]
  after_results_simp
  try rfl

/-- Operations 89 … 97 of @main's 261. -/
def c1_5 : List (HloOp τ sig (Elt F)) :=
  [ StableHlo.binary main_v13 main_arg2 main_v69 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.binary main_v69 main_v68 main_v70 (addf : (⟨S50000x64, .f32⟩ : BufTy).Contents (Elt F) → (⟨S50000x64, .f32⟩ : BufTy).Contents (Elt F) → (⟨S50000x64, .f32⟩ : BufTy).Contents (Elt F)),
    StableHlo.TRef.nullary main_call0.cst (constant S_ .f32 0x00000000#32),
    StableHlo.TRef.unary main_call0.cst main_call0.v0 (broadcastInDim S50000x64 ![] bcast_S_S50000x64),
    StableHlo.TRef.binary (.of main_v70) main_call0.v0 main_call0.v1 (cmpf .oge),
    StableHlo.TRef.nullary main_call0.cst_0 (constant S_ .f32 0x3C23D70A#32),
    StableHlo.TRef.unary main_call0.cst_0 main_call0.v2 (broadcastInDim S50000x64 ![] bcast_S_S50000x64),
    StableHlo.TRef.binary main_call0.v2 (.of main_v70) main_call0.v3 mulf,
    StableHlo.TRef.ternary main_call0.v1 (.of main_v70) main_call0.v3 main_call0.call0.v0 select ]
abbrev c1_5_W : List (Ref sig .tc) := [main_v69, main_v70, main_call0_cst, main_call0_v0, main_call0_v1, main_call0_cst_0, main_call0_v2, main_call0_v3, main_v71]
theorem c1_5_writes : (c1_5 : List (HloOp τ sig (Elt F))).Forall fun op => op.writes ⊆ (c1_5_W.map (Proc.devRef (τ := τ) .tc)).toFinset := by
  simp only [c1_5, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c1_5_keep (W : Valuation τ sig (Elt F)) {r : Ref sig .tc} (h : r ∉ c1_5_W) :
    after c1_5 W (no_index (Proc.devRef .tc r)) = W (Proc.devRef .tc r) :=
  after_of_writes_sub c1_5 W c1_5_writes h
set_option maxRecDepth 8192 in
set_option maxHeartbeats 1000000 in
theorem c1_5_main_v71 (W : Valuation τ sig (Elt F)) :
    after c1_5 W (no_index (Proc.devRef .tc main_v71)) =
      ((select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)) ((cmpf .oge : (⟨S50000x64, .f32⟩ : BufTy).Contents (Elt F) → (⟨S50000x64, .f32⟩ : BufTy).Contents (Elt F) → (⟨S50000x64, .i1⟩ : BufTy).Contents (Elt F)) ((addf : (⟨S50000x64, .f32⟩ : BufTy).Contents (Elt F) → (⟨S50000x64, .f32⟩ : BufTy).Contents (Elt F) → (⟨S50000x64, .f32⟩ : BufTy).Contents (Elt F)) (Host.dotGeneral dot_S50000x64_S64x64_S50000x64_1_0_0_1_n_n none (W (Proc.devRef .tc main_v13)) (W (Proc.devRef .tc main_arg2)) : (⟨S50000x64, .f32⟩ : BufTy).Contents (Elt F)) (W (Proc.devRef .tc main_v68))) ((broadcastInDim S50000x64 ![] bcast_S_S50000x64 : (⟨S_, .f32⟩ : BufTy).Contents (Elt F) → (⟨S50000x64, .f32⟩ : BufTy).Contents (Elt F)) (constant S_ .f32 0x00000000#32 : (⟨S_, .f32⟩ : BufTy).Contents (Elt F)))) ((addf : (⟨S50000x64, .f32⟩ : BufTy).Contents (Elt F) → (⟨S50000x64, .f32⟩ : BufTy).Contents (Elt F) → (⟨S50000x64, .f32⟩ : BufTy).Contents (Elt F)) (Host.dotGeneral dot_S50000x64_S64x64_S50000x64_1_0_0_1_n_n none (W (Proc.devRef .tc main_v13)) (W (Proc.devRef .tc main_arg2)) : (⟨S50000x64, .f32⟩ : BufTy).Contents (Elt F)) (W (Proc.devRef .tc main_v68))) ((mulf : (⟨S50000x64, .f32⟩ : BufTy).Contents (Elt F) → (⟨S50000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) (constant S_ .f32 0x3C23D70A#32 : (⟨S_, .f32⟩ : BufTy).Contents (Elt F))) ((addf : (⟨S50000x64, .f32⟩ : BufTy).Contents (Elt F) → (⟨S50000x64, .f32⟩ : BufTy).Contents (Elt F) → (⟨S50000x64, .f32⟩ : BufTy).Contents (Elt F)) (Host.dotGeneral dot_S50000x64_S64x64_S50000x64_1_0_0_1_n_n none (W (Proc.devRef .tc main_v13)) (W (Proc.devRef .tc main_arg2)) : (⟨S50000x64, .f32⟩ : BufTy).Contents (Elt F)) (W (Proc.devRef .tc main_v68))))) := by
  simp only [c1_5]
  after_results_simp
  try rfl

/-- Operations 98 … 98 of @main's 261. -/
def c1_6 : List (HloOp τ sig (Elt F)) :=
  [ StableHlo.binary main_v13 main_arg4 main_v72 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]
abbrev c1_6_W : List (Ref sig .tc) := [main_v72]
theorem c1_6_writes : (c1_6 : List (HloOp τ sig (Elt F))).Forall fun op => op.writes ⊆ (c1_6_W.map (Proc.devRef (τ := τ) .tc)).toFinset := by
  simp only [c1_6, List.Forall]; exact (by simp only [StableHlo.nullary_writes, StableHlo.unary_writes, StableHlo.binary_writes, StableHlo.ternary_writes, StableHlo.nary_writes, Finset.singleton_subset_iff, List.mem_toFinset]; exact List.mem_map_of_mem (by decide))
theorem c1_6_keep (W : Valuation τ sig (Elt F)) {r : Ref sig .tc} (h : r ∉ c1_6_W) :
    after c1_6 W (no_index (Proc.devRef .tc r)) = W (Proc.devRef .tc r) :=
  after_of_writes_sub c1_6 W c1_6_writes h
set_option maxRecDepth 8192 in
set_option maxHeartbeats 1000000 in
theorem c1_6_main_v72 (W : Valuation τ sig (Elt F)) :
    after c1_6 W (no_index (Proc.devRef .tc main_v72)) =
      (Host.dotGeneral dot_S50000x64_S64x64_S50000x64_1_0_0_1_n_n none (W (Proc.devRef .tc main_v13)) (W (Proc.devRef .tc main_arg4)) : (⟨S50000x64, .f32⟩ : BufTy).Contents (Elt F)) := by
  simp only [c1_6]
  after_results_simp
  try rfl

/-- Operations 99 … 107 of @main's 261. -/
def c1_7 : List (HloOp τ sig (Elt F)) :=
  [ StableHlo.nullary main_c_17 (constantI S_ 32 0#32),
    StableHlo.unary main_c_17 main_v73 (broadcastInDim S1000000 ![] bcast_S_S1000000 : (⟨S_, .i32⟩ : BufTy).Contents (Elt F) → (⟨S1000000, .i32⟩ : BufTy).Contents (Elt F)),
    StableHlo.binary main_arg13 main_v73 main_v74 (cmpi .slt : (⟨S1000000, .i32⟩ : BufTy).Contents (Elt F) → (⟨S1000000, .i32⟩ : BufTy).Contents (Elt F) → (⟨S1000000, .i1⟩ : BufTy).Contents (Elt F)),
    StableHlo.nullary main_c_18 (constantI S_ 32 50000#32),
    StableHlo.unary main_c_18 main_v75 (broadcastInDim S1000000 ![] bcast_S_S1000000 : (⟨S_, .i32⟩ : BufTy).Contents (Elt F) → (⟨S1000000, .i32⟩ : BufTy).Contents (Elt F)),
    StableHlo.binary main_arg13 main_v75 main_v76 (addi : (⟨S1000000, .i32⟩ : BufTy).Contents (Elt F) → (⟨S1000000, .i32⟩ : BufTy).Contents (Elt F) → (⟨S1000000, .i32⟩ : BufTy).Contents (Elt F)),
    StableHlo.ternary main_v74 main_v76 main_arg13 main_v77 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v77 main_v78 (broadcastInDim S1000000x1 ![0] bcast_S1000000_S1000000x1_0 : (⟨S1000000, .i32⟩ : BufTy).Contents (Elt F) → (⟨S1000000x1, .i32⟩ : BufTy).Contents (Elt F)),
    StableHlo.binary main_v72 main_v78 main_v79 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)) ]
abbrev c1_7_W : List (Ref sig .tc) := [main_c_17, main_v73, main_v74, main_c_18, main_v75, main_v76, main_v77, main_v78, main_v79]
theorem c1_7_writes : (c1_7 : List (HloOp τ sig (Elt F))).Forall fun op => op.writes ⊆ (c1_7_W.map (Proc.devRef (τ := τ) .tc)).toFinset := by
  simp only [c1_7, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c1_7_keep (W : Valuation τ sig (Elt F)) {r : Ref sig .tc} (h : r ∉ c1_7_W) :
    after c1_7 W (no_index (Proc.devRef .tc r)) = W (Proc.devRef .tc r) :=
  after_of_writes_sub c1_7 W c1_7_writes h
set_option maxRecDepth 8192 in
set_option maxHeartbeats 1000000 in
theorem c1_7_main_v79 (W : Valuation τ sig (Elt F)) :
    after c1_7 W (no_index (Proc.devRef .tc main_v79)) =
      (Host.gather gather_S50000x64_S1000000x1_S1000000x64_1_0_n_n_0_1_164 (W (Proc.devRef .tc main_v72)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (W (Proc.devRef .tc main_arg13)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (W (Proc.devRef .tc main_arg13)) ((broadcastInDim S1000000 ![] bcast_S_S1000000 : (⟨S_, .i32⟩ : BufTy).Contents (Elt F) → (⟨S1000000, .i32⟩ : BufTy).Contents (Elt F)) (constantI S_ 32 50000#32 : (⟨S_, .i32⟩ : BufTy).Contents (Elt F)))) (W (Proc.devRef .tc main_arg13)))) : (⟨S1000000x64, .f32⟩ : BufTy).Contents (Elt F)) := by
  simp only [c1_7]
  after_results_simp
  try rfl

/-- Operations 108 … 116 of @main's 261. -/
def c1_8 : List (HloOp τ sig (Elt F)) :=
  [ StableHlo.nullary main_c_19 (constantI S_ 32 0#32),
    StableHlo.unary main_c_19 main_v80 (broadcastInDim S1000000 ![] bcast_S_S1000000 : (⟨S_, .i32⟩ : BufTy).Contents (Elt F) → (⟨S1000000, .i32⟩ : BufTy).Contents (Elt F)),
    StableHlo.binary main_arg13 main_v80 main_v81 (cmpi .slt : (⟨S1000000, .i32⟩ : BufTy).Contents (Elt F) → (⟨S1000000, .i32⟩ : BufTy).Contents (Elt F) → (⟨S1000000, .i1⟩ : BufTy).Contents (Elt F)),
    StableHlo.nullary main_c_20 (constantI S_ 32 50000#32),
    StableHlo.unary main_c_20 main_v82 (broadcastInDim S1000000 ![] bcast_S_S1000000 : (⟨S_, .i32⟩ : BufTy).Contents (Elt F) → (⟨S1000000, .i32⟩ : BufTy).Contents (Elt F)),
    StableHlo.binary main_arg13 main_v82 main_v83 (addi : (⟨S1000000, .i32⟩ : BufTy).Contents (Elt F) → (⟨S1000000, .i32⟩ : BufTy).Contents (Elt F) → (⟨S1000000, .i32⟩ : BufTy).Contents (Elt F)),
    StableHlo.ternary main_v81 main_v83 main_arg13 main_v84 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v84 main_v85 (broadcastInDim S1000000x1 ![0] bcast_S1000000_S1000000x1_0 : (⟨S1000000, .i32⟩ : BufTy).Contents (Elt F) → (⟨S1000000x1, .i32⟩ : BufTy).Contents (Elt F)),
    StableHlo.binary main_v13 main_v85 main_v86 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)) ]
abbrev c1_8_W : List (Ref sig .tc) := [main_c_19, main_v80, main_v81, main_c_20, main_v82, main_v83, main_v84, main_v85, main_v86]
theorem c1_8_writes : (c1_8 : List (HloOp τ sig (Elt F))).Forall fun op => op.writes ⊆ (c1_8_W.map (Proc.devRef (τ := τ) .tc)).toFinset := by
  simp only [c1_8, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c1_8_keep (W : Valuation τ sig (Elt F)) {r : Ref sig .tc} (h : r ∉ c1_8_W) :
    after c1_8 W (no_index (Proc.devRef .tc r)) = W (Proc.devRef .tc r) :=
  after_of_writes_sub c1_8 W c1_8_writes h
set_option maxRecDepth 8192 in
set_option maxHeartbeats 1000000 in
theorem c1_8_main_v86 (W : Valuation τ sig (Elt F)) :
    after c1_8 W (no_index (Proc.devRef .tc main_v86)) =
      (Host.gather gather_S50000x64_S1000000x1_S1000000x64_1_0_n_n_0_1_164 (W (Proc.devRef .tc main_v13)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (W (Proc.devRef .tc main_arg13)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (W (Proc.devRef .tc main_arg13)) ((broadcastInDim S1000000 ![] bcast_S_S1000000 : (⟨S_, .i32⟩ : BufTy).Contents (Elt F) → (⟨S1000000, .i32⟩ : BufTy).Contents (Elt F)) (constantI S_ 32 50000#32 : (⟨S_, .i32⟩ : BufTy).Contents (Elt F)))) (W (Proc.devRef .tc main_arg13)))) : (⟨S1000000x64, .f32⟩ : BufTy).Contents (Elt F)) := by
  simp only [c1_8]
  after_results_simp
  try rfl

/-- Operations 117 … 125 of @main's 261. -/
def c1_9 : List (HloOp τ sig (Elt F)) :=
  [ StableHlo.nullary main_c_21 (constantI S_ 32 0#32),
    StableHlo.unary main_c_21 main_v87 (broadcastInDim S1000000 ![] bcast_S_S1000000 : (⟨S_, .i32⟩ : BufTy).Contents (Elt F) → (⟨S1000000, .i32⟩ : BufTy).Contents (Elt F)),
    StableHlo.binary main_arg12 main_v87 main_v88 (cmpi .slt : (⟨S1000000, .i32⟩ : BufTy).Contents (Elt F) → (⟨S1000000, .i32⟩ : BufTy).Contents (Elt F) → (⟨S1000000, .i1⟩ : BufTy).Contents (Elt F)),
    StableHlo.nullary main_c_22 (constantI S_ 32 100000#32),
    StableHlo.unary main_c_22 main_v89 (broadcastInDim S1000000 ![] bcast_S_S1000000 : (⟨S_, .i32⟩ : BufTy).Contents (Elt F) → (⟨S1000000, .i32⟩ : BufTy).Contents (Elt F)),
    StableHlo.binary main_arg12 main_v89 main_v90 (addi : (⟨S1000000, .i32⟩ : BufTy).Contents (Elt F) → (⟨S1000000, .i32⟩ : BufTy).Contents (Elt F) → (⟨S1000000, .i32⟩ : BufTy).Contents (Elt F)),
    StableHlo.ternary main_v88 main_v90 main_arg12 main_v91 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v91 main_v92 (broadcastInDim S1000000x1 ![0] bcast_S1000000_S1000000x1_0 : (⟨S1000000, .i32⟩ : BufTy).Contents (Elt F) → (⟨S1000000x1, .i32⟩ : BufTy).Contents (Elt F)),
    StableHlo.binary main_v6 main_v92 main_v93 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) ]
abbrev c1_9_W : List (Ref sig .tc) := [main_c_21, main_v87, main_v88, main_c_22, main_v89, main_v90, main_v91, main_v92, main_v93]
theorem c1_9_writes : (c1_9 : List (HloOp τ sig (Elt F))).Forall fun op => op.writes ⊆ (c1_9_W.map (Proc.devRef (τ := τ) .tc)).toFinset := by
  simp only [c1_9, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c1_9_keep (W : Valuation τ sig (Elt F)) {r : Ref sig .tc} (h : r ∉ c1_9_W) :
    after c1_9 W (no_index (Proc.devRef .tc r)) = W (Proc.devRef .tc r) :=
  after_of_writes_sub c1_9 W c1_9_writes h
set_option maxRecDepth 8192 in
set_option maxHeartbeats 1000000 in
theorem c1_9_main_v93 (W : Valuation τ sig (Elt F)) :
    after c1_9 W (no_index (Proc.devRef .tc main_v93)) =
      (Host.gather gather_S100000x64_S1000000x1_S1000000x64_1_0_n_n_0_1_164 (W (Proc.devRef .tc main_v6)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (W (Proc.devRef .tc main_arg12)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (W (Proc.devRef .tc main_arg12)) ((broadcastInDim S1000000 ![] bcast_S_S1000000 : (⟨S_, .i32⟩ : BufTy).Contents (Elt F) → (⟨S1000000, .i32⟩ : BufTy).Contents (Elt F)) (constantI S_ 32 100000#32 : (⟨S_, .i32⟩ : BufTy).Contents (Elt F)))) (W (Proc.devRef .tc main_arg12)))) : (⟨S1000000x64, .f32⟩ : BufTy).Contents (Elt F)) := by
  simp only [c1_9]
  after_results_simp
  try rfl

/-- Operations 126 … 126 of @main's 261. -/
def c1_10 : List (HloOp τ sig (Elt F)) :=
  [ StableHlo.binary main_v86 main_v93 main_v94 (mulf : (⟨S1000000x64, .f32⟩ : BufTy).Contents (Elt F) → (⟨S1000000x64, .f32⟩ : BufTy).Contents (Elt F) → (⟨S1000000x64, .f32⟩ : BufTy).Contents (Elt F)) ]
abbrev c1_10_W : List (Ref sig .tc) := [main_v94]
theorem c1_10_writes : (c1_10 : List (HloOp τ sig (Elt F))).Forall fun op => op.writes ⊆ (c1_10_W.map (Proc.devRef (τ := τ) .tc)).toFinset := by
  simp only [c1_10, List.Forall]; exact (by simp only [StableHlo.nullary_writes, StableHlo.unary_writes, StableHlo.binary_writes, StableHlo.ternary_writes, StableHlo.nary_writes, Finset.singleton_subset_iff, List.mem_toFinset]; exact List.mem_map_of_mem (by decide))
theorem c1_10_keep (W : Valuation τ sig (Elt F)) {r : Ref sig .tc} (h : r ∉ c1_10_W) :
    after c1_10 W (no_index (Proc.devRef .tc r)) = W (Proc.devRef .tc r) :=
  after_of_writes_sub c1_10 W c1_10_writes h
set_option maxRecDepth 8192 in
set_option maxHeartbeats 1000000 in
theorem c1_10_main_v94 (W : Valuation τ sig (Elt F)) :
    after c1_10 W (no_index (Proc.devRef .tc main_v94)) =
      ((mulf : (⟨S1000000x64, .f32⟩ : BufTy).Contents (Elt F) → (⟨S1000000x64, .f32⟩ : BufTy).Contents (Elt F) → (⟨S1000000x64, .f32⟩ : BufTy).Contents (Elt F)) (W (Proc.devRef .tc main_v86)) (W (Proc.devRef .tc main_v93))) := by
  simp only [c1_10]
  after_results_simp
  try rfl

set_option maxRecDepth 8192 in
/-- The window's list is its blocks in order. -/
theorem ops1_blocks : (ops1 : List (HloOp τ sig (Elt F))) = c1_1 ++ (c1_2 ++ (c1_3 ++ (c1_4 ++ (c1_5 ++ (c1_6 ++ (c1_7 ++ (c1_8 ++ (c1_9 ++ (c1_10))))))))) := rfl

end Cert.ReferenceIdeal.RefRun

end
-- ==== Proof.Ref.Blocks2.lean ====
/- Window `main_part2`'s operations cut into consecutive blocks, each ending at a buffer whose value is read later; per block: the buffers it writes, that it leaves every other buffer alone, and the value it leaves in its last buffer as the printed operations' term of the contents it started from. -/
import proofs.«126583_j73280732004963_1_alg».proof.Proof.Ref.Ops2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 127 … 131 of @main's 261. -/
def c2_1 : List (HloOp τ sig (Elt F)) :=
  [ StableHlo.binary main_v94 main_arg5 main_v95 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_v37 main_v96 (broadcastInDim S1000000x1 ![0] bcast_S1000000_S1000000x1_0 : (⟨S1000000, .f32⟩ : BufTy).Contents (Elt F) → (⟨S1000000x1, .f32⟩ : BufTy).Contents (Elt F)),
    StableHlo.binary main_v79 main_v95 main_v97 (addf : (⟨S1000000x64, .f32⟩ : BufTy).Contents (Elt F) → (⟨S1000000x64, .f32⟩ : BufTy).Contents (Elt F) → (⟨S1000000x64, .f32⟩ : BufTy).Contents (Elt F)),
    StableHlo.unary main_v96 main_v98 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v98 main_v97 main_v99 (mulf : (⟨S1000000x64, .f32⟩ : BufTy).Contents (Elt F) → (⟨S1000000x64, .f32⟩ : BufTy).Contents (Elt F) → (⟨S1000000x64, .f32⟩ : BufTy).Contents (Elt F)) ]
abbrev c2_1_W : List (Ref sig .tc) := [main_v95, main_v96, main_v97, main_v98, main_v99]
theorem c2_1_writes : (c2_1 : List (HloOp τ sig (Elt F))).Forall fun op => op.writes ⊆ (c2_1_W.map (Proc.devRef (τ := τ) .tc)).toFinset := by
  simp only [c2_1, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c2_1_keep (W : Valuation τ sig (Elt F)) {r : Ref sig .tc} (h : r ∉ c2_1_W) :
    after c2_1 W (no_index (Proc.devRef .tc r)) = W (Proc.devRef .tc r) :=
  after_of_writes_sub c2_1 W c2_1_writes h
set_option maxRecDepth 8192 in
set_option maxHeartbeats 1000000 in
theorem c2_1_main_v99 (W : Valuation τ sig (Elt F)) :
    after c2_1 W (no_index (Proc.devRef .tc main_v99)) =
      ((mulf : (⟨S1000000x64, .f32⟩ : BufTy).Contents (Elt F) → (⟨S1000000x64, .f32⟩ : BufTy).Contents (Elt F) → (⟨S1000000x64, .f32⟩ : BufTy).Contents (Elt F)) ((broadcastInDim S1000000x64 ![0, 1] bcast_S1000000x1_S1000000x64_0_1 : (⟨S1000000x1, .f32⟩ : BufTy).Contents (Elt F) → (⟨S1000000x64, .f32⟩ : BufTy).Contents (Elt F)) ((broadcastInDim S1000000x1 ![0] bcast_S1000000_S1000000x1_0 : (⟨S1000000, .f32⟩ : BufTy).Contents (Elt F) → (⟨S1000000x1, .f32⟩ : BufTy).Contents (Elt F)) (W (Proc.devRef .tc main_v37)))) ((addf : (⟨S1000000x64, .f32⟩ : BufTy).Contents (Elt F) → (⟨S1000000x64, .f32⟩ : BufTy).Contents (Elt F) → (⟨S1000000x64, .f32⟩ : BufTy).Contents (Elt F)) (W (Proc.devRef .tc main_v79)) (Host.dotGeneral dot_S1000000x64_S64x64_S1000000x64_1_0_0_1_n_n none (W (Proc.devRef .tc main_v94)) (W (Proc.devRef .tc main_arg5)) : (⟨S1000000x64, .f32⟩ : BufTy).Contents (Elt F)))) := by
  simp only [c2_1]
  after_results_simp
  try rfl

/-- Operations 132 … 135 of @main's 261. -/
def c2_2 : List (HloOp τ sig (Elt F)) :=
  [ StableHlo.nullary main_cst_23 (constant S_ .f32 0x00000000#32),
    StableHlo.unary main_cst_23 main_v100 (broadcastInDim S100000x64 ![] bcast_S_S100000x64 : (⟨S_, .f32⟩ : BufTy).Contents (Elt F) → (⟨S100000x64, .f32⟩ : BufTy).Contents (Elt F)),
    StableHlo.unary main_arg12 main_v101 (broadcastInDim S1000000x1 ![0] bcast_S1000000_S1000000x1_0 : (⟨S1000000, .i32⟩ : BufTy).Contents (Elt F) → (⟨S1000000x1, .i32⟩ : BufTy).Contents (Elt F)),
    StableHlo.ternary main_v100 main_v101 main_v99 main_v102 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)) ]
abbrev c2_2_W : List (Ref sig .tc) := [main_cst_23, main_v100, main_v101, main_v102]
theorem c2_2_writes : (c2_2 : List (HloOp τ sig (Elt F))).Forall fun op => op.writes ⊆ (c2_2_W.map (Proc.devRef (τ := τ) .tc)).toFinset := by
  simp only [c2_2, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c2_2_keep (W : Valuation τ sig (Elt F)) {r : Ref sig .tc} (h : r ∉ c2_2_W) :
    after c2_2 W (no_index (Proc.devRef .tc r)) = W (Proc.devRef .tc r) :=
  after_of_writes_sub c2_2 W c2_2_writes h
set_option maxRecDepth 8192 in
set_option maxHeartbeats 1000000 in
theorem c2_2_main_v102 (W : Valuation τ sig (Elt F)) :
    after c2_2 W (no_index (Proc.devRef .tc main_v102)) =
      (Host.scatterAdd scatter_S100000x64_S1000000x1_S1000000x64_1_0_0_1 ((broadcastInDim S100000x64 ![] bcast_S_S100000x64 : (⟨S_, .f32⟩ : BufTy).Contents (Elt F) → (⟨S100000x64, .f32⟩ : BufTy).Contents (Elt F)) (constant S_ .f32 0x00000000#32 : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) (W (Proc.devRef .tc main_arg12))) (W (Proc.devRef .tc main_v99)) : (⟨S100000x64, .f32⟩ : BufTy).Contents (Elt F)) := by
  simp only [c2_2]
  after_results_simp
  try rfl

/-- Operations 136 … 144 of @main's 261. -/
def c2_3 : List (HloOp τ sig (Elt F)) :=
  [ StableHlo.binary main_v6 main_arg4 main_v103 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v103 main_v102 main_v104 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v104) main_call1.v0 main_call1.v1 (cmpf .oge),
    StableHlo.TRef.nullary main_call1.cst_0 (constant S_ .f32 0x3C23D70A#32),
    StableHlo.TRef.unary main_call1.cst_0 main_call1.v2 (broadcastInDim S100000x64 ![] bcast_S_S100000x64),
    StableHlo.TRef.binary main_call1.v2 (.of main_v104) main_call1.v3 mulf,
    StableHlo.TRef.ternary main_call1.v1 (.of main_v104) main_call1.v3 main_call1.call0.v0 select ]
abbrev c2_3_W : List (Ref sig .tc) := [main_v103, main_v104, main_call1_cst, main_call1_v0, main_call1_v1, main_call1_cst_0, main_call1_v2, main_call1_v3, main_v105]
theorem c2_3_writes : (c2_3 : List (HloOp τ sig (Elt F))).Forall fun op => op.writes ⊆ (c2_3_W.map (Proc.devRef (τ := τ) .tc)).toFinset := by
  simp only [c2_3, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c2_3_keep (W : Valuation τ sig (Elt F)) {r : Ref sig .tc} (h : r ∉ c2_3_W) :
    after c2_3 W (no_index (Proc.devRef .tc r)) = W (Proc.devRef .tc r) :=
  after_of_writes_sub c2_3 W c2_3_writes h
set_option maxRecDepth 8192 in
set_option maxHeartbeats 1000000 in
theorem c2_3_main_v105 (W : Valuation τ sig (Elt F)) :
    after c2_3 W (no_index (Proc.devRef .tc main_v105)) =
      ((select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ((cmpf .oge : (⟨S100000x64, .f32⟩ : BufTy).Contents (Elt F) → (⟨S100000x64, .f32⟩ : BufTy).Contents (Elt F) → (⟨S100000x64, .i1⟩ : BufTy).Contents (Elt F)) ((addf : (⟨S100000x64, .f32⟩ : BufTy).Contents (Elt F) → (⟨S100000x64, .f32⟩ : BufTy).Contents (Elt F) → (⟨S100000x64, .f32⟩ : BufTy).Contents (Elt F)) (Host.dotGeneral dot_S100000x64_S64x64_S100000x64_1_0_0_1_n_n none (W (Proc.devRef .tc main_v6)) (W (Proc.devRef .tc main_arg4)) : (⟨S100000x64, .f32⟩ : BufTy).Contents (Elt F)) (W (Proc.devRef .tc main_v102))) ((broadcastInDim S100000x64 ![] bcast_S_S100000x64 : (⟨S_, .f32⟩ : BufTy).Contents (Elt F) → (⟨S100000x64, .f32⟩ : BufTy).Contents (Elt F)) (constant S_ .f32 0x00000000#32 : (⟨S_, .f32⟩ : BufTy).Contents (Elt F)))) ((addf : (⟨S100000x64, .f32⟩ : BufTy).Contents (Elt F) → (⟨S100000x64, .f32⟩ : BufTy).Contents (Elt F) → (⟨S100000x64, .f32⟩ : BufTy).Contents (Elt F)) (Host.dotGeneral dot_S100000x64_S64x64_S100000x64_1_0_0_1_n_n none (W (Proc.devRef .tc main_v6)) (W (Proc.devRef .tc main_arg4)) : (⟨S100000x64, .f32⟩ : BufTy).Contents (Elt F)) (W (Proc.devRef .tc main_v102))) ((mulf : (⟨S100000x64, .f32⟩ : BufTy).Contents (Elt F) → (⟨S100000x64, .f32⟩ : BufTy).Contents (Elt F) → (⟨S100000x64, .f32⟩ : BufTy).Contents (Elt F)) ((broadcastInDim S100000x64 ![] bcast_S_S100000x64 : (⟨S_, .f32⟩ : BufTy).Contents (Elt F) → (⟨S100000x64, .f32⟩ : BufTy).Contents (Elt F)) (constant S_ .f32 0x3C23D70A#32 : (⟨S_, .f32⟩ : BufTy).Contents (Elt F))) ((addf : (⟨S100000x64, .f32⟩ : BufTy).Contents (Elt F) → (⟨S100000x64, .f32⟩ : BufTy).Contents (Elt F) → (⟨S100000x64, .f32⟩ : BufTy).Contents (Elt F)) (Host.dotGeneral dot_S100000x64_S64x64_S100000x64_1_0_0_1_n_n none (W (Proc.devRef .tc main_v6)) (W (Proc.devRef .tc main_arg4)) : (⟨S100000x64, .f32⟩ : BufTy).Contents (Elt F)) (W (Proc.devRef .tc main_v102))))) := by
  simp only [c2_3]
  after_results_simp
  try rfl

/-- Operations 145 … 145 of @main's 261. -/
def c2_4 : List (HloOp τ sig (Elt F)) :=
  [ StableHlo.binary main_v105 main_arg6 main_v106 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]
abbrev c2_4_W : List (Ref sig .tc) := [main_v106]
theorem c2_4_writes : (c2_4 : List (HloOp τ sig (Elt F))).Forall fun op => op.writes ⊆ (c2_4_W.map (Proc.devRef (τ := τ) .tc)).toFinset := by
  simp only [c2_4, List.Forall]; exact (by simp only [StableHlo.nullary_writes, StableHlo.unary_writes, StableHlo.binary_writes, StableHlo.ternary_writes, StableHlo.nary_writes, Finset.singleton_subset_iff, List.mem_toFinset]; exact List.mem_map_of_mem (by decide))
theorem c2_4_keep (W : Valuation τ sig (Elt F)) {r : Ref sig .tc} (h : r ∉ c2_4_W) :
    after c2_4 W (no_index (Proc.devRef .tc r)) = W (Proc.devRef .tc r) :=
  after_of_writes_sub c2_4 W c2_4_writes h
set_option maxRecDepth 8192 in
set_option maxHeartbeats 1000000 in
theorem c2_4_main_v106 (W : Valuation τ sig (Elt F)) :
    after c2_4 W (no_index (Proc.devRef .tc main_v106)) =
      (Host.dotGeneral dot_S100000x64_S64x64_S100000x64_1_0_0_1_n_n none (W (Proc.devRef .tc main_v105)) (W (Proc.devRef .tc main_arg6)) : (⟨S100000x64, .f32⟩ : BufTy).Contents (Elt F)) := by
  simp only [c2_4]
  after_results_simp
  try rfl

/-- Operations 146 … 154 of @main's 261. -/
def c2_5 : List (HloOp τ sig (Elt F)) :=
  [ StableHlo.nullary main_c_24 (constantI S_ 32 0#32),
    StableHlo.unary main_c_24 main_v107 (broadcastInDim S1000000 ![] bcast_S_S1000000 : (⟨S_, .i32⟩ : BufTy).Contents (Elt F) → (⟨S1000000, .i32⟩ : BufTy).Contents (Elt F)),
    StableHlo.binary main_arg12 main_v107 main_v108 (cmpi .slt : (⟨S1000000, .i32⟩ : BufTy).Contents (Elt F) → (⟨S1000000, .i32⟩ : BufTy).Contents (Elt F) → (⟨S1000000, .i1⟩ : BufTy).Contents (Elt F)),
    StableHlo.nullary main_c_25 (constantI S_ 32 100000#32),
    StableHlo.unary main_c_25 main_v109 (broadcastInDim S1000000 ![] bcast_S_S1000000 : (⟨S_, .i32⟩ : BufTy).Contents (Elt F) → (⟨S1000000, .i32⟩ : BufTy).Contents (Elt F)),
    StableHlo.binary main_arg12 main_v109 main_v110 (addi : (⟨S1000000, .i32⟩ : BufTy).Contents (Elt F) → (⟨S1000000, .i32⟩ : BufTy).Contents (Elt F) → (⟨S1000000, .i32⟩ : BufTy).Contents (Elt F)),
    StableHlo.ternary main_v108 main_v110 main_arg12 main_v111 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v111 main_v112 (broadcastInDim S1000000x1 ![0] bcast_S1000000_S1000000x1_0 : (⟨S1000000, .i32⟩ : BufTy).Contents (Elt F) → (⟨S1000000x1, .i32⟩ : BufTy).Contents (Elt F)),
    StableHlo.binary main_v106 main_v112 main_v113 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) ]
abbrev c2_5_W : List (Ref sig .tc) := [main_c_24, main_v107, main_v108, main_c_25, main_v109, main_v110, main_v111, main_v112, main_v113]
theorem c2_5_writes : (c2_5 : List (HloOp τ sig (Elt F))).Forall fun op => op.writes ⊆ (c2_5_W.map (Proc.devRef (τ := τ) .tc)).toFinset := by
  simp only [c2_5, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c2_5_keep (W : Valuation τ sig (Elt F)) {r : Ref sig .tc} (h : r ∉ c2_5_W) :
    after c2_5 W (no_index (Proc.devRef .tc r)) = W (Proc.devRef .tc r) :=
  after_of_writes_sub c2_5 W c2_5_writes h
set_option maxRecDepth 8192 in
set_option maxHeartbeats 1000000 in
theorem c2_5_main_v113 (W : Valuation τ sig (Elt F)) :
    after c2_5 W (no_index (Proc.devRef .tc main_v113)) =
      (Host.gather gather_S100000x64_S1000000x1_S1000000x64_1_0_n_n_0_1_164 (W (Proc.devRef .tc main_v106)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (W (Proc.devRef .tc main_arg12)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (W (Proc.devRef .tc main_arg12)) ((broadcastInDim S1000000 ![] bcast_S_S1000000 : (⟨S_, .i32⟩ : BufTy).Contents (Elt F) → (⟨S1000000, .i32⟩ : BufTy).Contents (Elt F)) (constantI S_ 32 100000#32 : (⟨S_, .i32⟩ : BufTy).Contents (Elt F)))) (W (Proc.devRef .tc main_arg12)))) : (⟨S1000000x64, .f32⟩ : BufTy).Contents (Elt F)) := by
  simp only [c2_5]
  after_results_simp
  try rfl

/-- Operations 155 … 163 of @main's 261. -/
def c2_6 : List (HloOp τ sig (Elt F)) :=
  [ StableHlo.nullary main_c_26 (constantI S_ 32 0#32),
    StableHlo.unary main_c_26 main_v114 (broadcastInDim S1000000 ![] bcast_S_S1000000 : (⟨S_, .i32⟩ : BufTy).Contents (Elt F) → (⟨S1000000, .i32⟩ : BufTy).Contents (Elt F)),
    StableHlo.binary main_arg12 main_v114 main_v115 (cmpi .slt : (⟨S1000000, .i32⟩ : BufTy).Contents (Elt F) → (⟨S1000000, .i32⟩ : BufTy).Contents (Elt F) → (⟨S1000000, .i1⟩ : BufTy).Contents (Elt F)),
    StableHlo.nullary main_c_27 (constantI S_ 32 100000#32),
    StableHlo.unary main_c_27 main_v116 (broadcastInDim S1000000 ![] bcast_S_S1000000 : (⟨S_, .i32⟩ : BufTy).Contents (Elt F) → (⟨S1000000, .i32⟩ : BufTy).Contents (Elt F)),
    StableHlo.binary main_arg12 main_v116 main_v117 (addi : (⟨S1000000, .i32⟩ : BufTy).Contents (Elt F) → (⟨S1000000, .i32⟩ : BufTy).Contents (Elt F) → (⟨S1000000, .i32⟩ : BufTy).Contents (Elt F)),
    StableHlo.ternary main_v115 main_v117 main_arg12 main_v118 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v118 main_v119 (broadcastInDim S1000000x1 ![0] bcast_S1000000_S1000000x1_0 : (⟨S1000000, .i32⟩ : BufTy).Contents (Elt F) → (⟨S1000000x1, .i32⟩ : BufTy).Contents (Elt F)),
    StableHlo.binary main_v105 main_v119 main_v120 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) ]
abbrev c2_6_W : List (Ref sig .tc) := [main_c_26, main_v114, main_v115, main_c_27, main_v116, main_v117, main_v118, main_v119, main_v120]
theorem c2_6_writes : (c2_6 : List (HloOp τ sig (Elt F))).Forall fun op => op.writes ⊆ (c2_6_W.map (Proc.devRef (τ := τ) .tc)).toFinset := by
  simp only [c2_6, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c2_6_keep (W : Valuation τ sig (Elt F)) {r : Ref sig .tc} (h : r ∉ c2_6_W) :
    after c2_6 W (no_index (Proc.devRef .tc r)) = W (Proc.devRef .tc r) :=
  after_of_writes_sub c2_6 W c2_6_writes h
set_option maxRecDepth 8192 in
set_option maxHeartbeats 1000000 in
theorem c2_6_main_v120 (W : Valuation τ sig (Elt F)) :
    after c2_6 W (no_index (Proc.devRef .tc main_v120)) =
      (Host.gather gather_S100000x64_S1000000x1_S1000000x64_1_0_n_n_0_1_164 (W (Proc.devRef .tc main_v105)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (W (Proc.devRef .tc main_arg12)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (W (Proc.devRef .tc main_arg12)) ((broadcastInDim S1000000 ![] bcast_S_S1000000 : (⟨S_, .i32⟩ : BufTy).Contents (Elt F) → (⟨S1000000, .i32⟩ : BufTy).Contents (Elt F)) (constantI S_ 32 100000#32 : (⟨S_, .i32⟩ : BufTy).Contents (Elt F)))) (W (Proc.devRef .tc main_arg12)))) : (⟨S1000000x64, .f32⟩ : BufTy).Contents (Elt F)) := by
  simp only [c2_6]
  after_results_simp
  try rfl

/-- Operations 164 … 172 of @main's 261. -/
def c2_7 : List (HloOp τ sig (Elt F)) :=
  [ StableHlo.nullary main_c_28 (constantI S_ 32 0#32),
    StableHlo.unary main_c_28 main_v121 (broadcastInDim S1000000 ![] bcast_S_S1000000 : (⟨S_, .i32⟩ : BufTy).Contents (Elt F) → (⟨S1000000, .i32⟩ : BufTy).Contents (Elt F)),
    StableHlo.binary main_arg13 main_v121 main_v122 (cmpi .slt : (⟨S1000000, .i32⟩ : BufTy).Contents (Elt F) → (⟨S1000000, .i32⟩ : BufTy).Contents (Elt F) → (⟨S1000000, .i1⟩ : BufTy).Contents (Elt F)),
    StableHlo.nullary main_c_29 (constantI S_ 32 50000#32),
    StableHlo.unary main_c_29 main_v123 (broadcastInDim S1000000 ![] bcast_S_S1000000 : (⟨S_, .i32⟩ : BufTy).Contents (Elt F) → (⟨S1000000, .i32⟩ : BufTy).Contents (Elt F)),
    StableHlo.binary main_arg13 main_v123 main_v124 (addi : (⟨S1000000, .i32⟩ : BufTy).Contents (Elt F) → (⟨S1000000, .i32⟩ : BufTy).Contents (Elt F) → (⟨S1000000, .i32⟩ : BufTy).Contents (Elt F)),
    StableHlo.ternary main_v122 main_v124 main_arg13 main_v125 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v125 main_v126 (broadcastInDim S1000000x1 ![0] bcast_S1000000_S1000000x1_0 : (⟨S1000000, .i32⟩ : BufTy).Contents (Elt F) → (⟨S1000000x1, .i32⟩ : BufTy).Contents (Elt F)),
    StableHlo.binary main_v71 main_v126 main_v127 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)) ]
abbrev c2_7_W : List (Ref sig .tc) := [main_c_28, main_v121, main_v122, main_c_29, main_v123, main_v124, main_v125, main_v126, main_v127]
theorem c2_7_writes : (c2_7 : List (HloOp τ sig (Elt F))).Forall fun op => op.writes ⊆ (c2_7_W.map (Proc.devRef (τ := τ) .tc)).toFinset := by
  simp only [c2_7, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c2_7_keep (W : Valuation τ sig (Elt F)) {r : Ref sig .tc} (h : r ∉ c2_7_W) :
    after c2_7 W (no_index (Proc.devRef .tc r)) = W (Proc.devRef .tc r) :=
  after_of_writes_sub c2_7 W c2_7_writes h
set_option maxRecDepth 8192 in
set_option maxHeartbeats 1000000 in
theorem c2_7_main_v127 (W : Valuation τ sig (Elt F)) :
    after c2_7 W (no_index (Proc.devRef .tc main_v127)) =
      (Host.gather gather_S50000x64_S1000000x1_S1000000x64_1_0_n_n_0_1_164 (W (Proc.devRef .tc main_v71)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (W (Proc.devRef .tc main_arg13)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (W (Proc.devRef .tc main_arg13)) ((broadcastInDim S1000000 ![] bcast_S_S1000000 : (⟨S_, .i32⟩ : BufTy).Contents (Elt F) → (⟨S1000000, .i32⟩ : BufTy).Contents (Elt F)) (constantI S_ 32 50000#32 : (⟨S_, .i32⟩ : BufTy).Contents (Elt F)))) (W (Proc.devRef .tc main_arg13)))) : (⟨S1000000x64, .f32⟩ : BufTy).Contents (Elt F)) := by
  simp only [c2_7]
  after_results_simp
  try rfl

/-- Operations 173 … 178 of @main's 261. -/
def c2_8 : List (HloOp τ sig (Elt F)) :=
  [ StableHlo.binary main_v120 main_v127 main_v128 (mulf : (⟨S1000000x64, .f32⟩ : BufTy).Contents (Elt F) → (⟨S1000000x64, .f32⟩ : BufTy).Contents (Elt F) → (⟨S1000000x64, .f32⟩ : BufTy).Contents (Elt F)),
    StableHlo.binary main_v128 main_arg7 main_v129 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_v37 main_v130 (broadcastInDim S1000000x1 ![0] bcast_S1000000_S1000000x1_0 : (⟨S1000000, .f32⟩ : BufTy).Contents (Elt F) → (⟨S1000000x1, .f32⟩ : BufTy).Contents (Elt F)),
    StableHlo.binary main_v113 main_v129 main_v131 (addf : (⟨S1000000x64, .f32⟩ : BufTy).Contents (Elt F) → (⟨S1000000x64, .f32⟩ : BufTy).Contents (Elt F) → (⟨S1000000x64, .f32⟩ : BufTy).Contents (Elt F)),
    StableHlo.unary main_v130 main_v132 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v132 main_v131 main_v133 (mulf : (⟨S1000000x64, .f32⟩ : BufTy).Contents (Elt F) → (⟨S1000000x64, .f32⟩ : BufTy).Contents (Elt F) → (⟨S1000000x64, .f32⟩ : BufTy).Contents (Elt F)) ]
abbrev c2_8_W : List (Ref sig .tc) := [main_v128, main_v129, main_v130, main_v131, main_v132, main_v133]
theorem c2_8_writes : (c2_8 : List (HloOp τ sig (Elt F))).Forall fun op => op.writes ⊆ (c2_8_W.map (Proc.devRef (τ := τ) .tc)).toFinset := by
  simp only [c2_8, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c2_8_keep (W : Valuation τ sig (Elt F)) {r : Ref sig .tc} (h : r ∉ c2_8_W) :
    after c2_8 W (no_index (Proc.devRef .tc r)) = W (Proc.devRef .tc r) :=
  after_of_writes_sub c2_8 W c2_8_writes h
set_option maxRecDepth 8192 in
set_option maxHeartbeats 1000000 in
theorem c2_8_main_v133 (W : Valuation τ sig (Elt F)) :
    after c2_8 W (no_index (Proc.devRef .tc main_v133)) =
      ((mulf : (⟨S1000000x64, .f32⟩ : BufTy).Contents (Elt F) → (⟨S1000000x64, .f32⟩ : BufTy).Contents (Elt F) → (⟨S1000000x64, .f32⟩ : BufTy).Contents (Elt F)) ((broadcastInDim S1000000x64 ![0, 1] bcast_S1000000x1_S1000000x64_0_1 : (⟨S1000000x1, .f32⟩ : BufTy).Contents (Elt F) → (⟨S1000000x64, .f32⟩ : BufTy).Contents (Elt F)) ((broadcastInDim S1000000x1 ![0] bcast_S1000000_S1000000x1_0 : (⟨S1000000, .f32⟩ : BufTy).Contents (Elt F) → (⟨S1000000x1, .f32⟩ : BufTy).Contents (Elt F)) (W (Proc.devRef .tc main_v37)))) ((addf : (⟨S1000000x64, .f32⟩ : BufTy).Contents (Elt F) → (⟨S1000000x64, .f32⟩ : BufTy).Contents (Elt F) → (⟨S1000000x64, .f32⟩ : BufTy).Contents (Elt F)) (W (Proc.devRef .tc main_v113)) (Host.dotGeneral dot_S1000000x64_S64x64_S1000000x64_1_0_0_1_n_n none ((mulf : (⟨S1000000x64, .f32⟩ : BufTy).Contents (Elt F) → (⟨S1000000x64, .f32⟩ : BufTy).Contents (Elt F) → (⟨S1000000x64, .f32⟩ : BufTy).Contents (Elt F)) (W (Proc.devRef .tc main_v120)) (W (Proc.devRef .tc main_v127))) (W (Proc.devRef .tc main_arg7)) : (⟨S1000000x64, .f32⟩ : BufTy).Contents (Elt F)))) := by
  simp only [c2_8]
  after_results_simp
  try rfl

/-- Operations 179 … 182 of @main's 261. -/
def c2_9 : List (HloOp τ sig (Elt F)) :=
  [ StableHlo.nullary main_cst_30 (constant S_ .f32 0x00000000#32),
    StableHlo.unary main_cst_30 main_v134 (broadcastInDim S50000x64 ![] bcast_S_S50000x64 : (⟨S_, .f32⟩ : BufTy).Contents (Elt F) → (⟨S50000x64, .f32⟩ : BufTy).Contents (Elt F)),
    StableHlo.unary main_arg13 main_v135 (broadcastInDim S1000000x1 ![0] bcast_S1000000_S1000000x1_0 : (⟨S1000000, .i32⟩ : BufTy).Contents (Elt F) → (⟨S1000000x1, .i32⟩ : BufTy).Contents (Elt F)),
    StableHlo.ternary main_v134 main_v135 main_v133 main_v136 ((fun x i u => Host.scatterAdd scatter_S50000x64_S1000000x1_S1000000x64_1_0_0_1 x i u) : (⟨S50000x64, .f32⟩ : BufTy).Contents (Elt F) → (⟨S1000000x1, .i32⟩ : BufTy).Contents (Elt F) → (⟨S1000000x64, .f32⟩ : BufTy).Contents (Elt F) → (⟨S50000x64, .f32⟩ : BufTy).Contents (Elt F)) ]
abbrev c2_9_W : List (Ref sig .tc) := [main_cst_30, main_v134, main_v135, main_v136]
theorem c2_9_writes : (c2_9 : List (HloOp τ sig (Elt F))).Forall fun op => op.writes ⊆ (c2_9_W.map (Proc.devRef (τ := τ) .tc)).toFinset := by
  simp only [c2_9, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c2_9_keep (W : Valuation τ sig (Elt F)) {r : Ref sig .tc} (h : r ∉ c2_9_W) :
    after c2_9 W (no_index (Proc.devRef .tc r)) = W (Proc.devRef .tc r) :=
  after_of_writes_sub c2_9 W c2_9_writes h
set_option maxRecDepth 8192 in
set_option maxHeartbeats 1000000 in
theorem c2_9_main_v136 (W : Valuation τ sig (Elt F)) :
    after c2_9 W (no_index (Proc.devRef .tc main_v136)) =
      (Host.scatterAdd scatter_S50000x64_S1000000x1_S1000000x64_1_0_0_1 ((broadcastInDim S50000x64 ![] bcast_S_S50000x64 : (⟨S_, .f32⟩ : BufTy).Contents (Elt F) → (⟨S50000x64, .f32⟩ : BufTy).Contents (Elt F)) (constant S_ .f32 0x00000000#32 : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) (W (Proc.devRef .tc main_arg13))) (W (Proc.devRef .tc main_v133)) : (⟨S50000x64, .f32⟩ : BufTy).Contents (Elt F)) := by
  simp only [c2_9]
  after_results_simp
  try rfl

/-- Operations 183 … 191 of @main's 261. -/
def c2_10 : List (HloOp τ sig (Elt F)) :=
  [ StableHlo.binary main_v71 main_arg6 main_v137 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.binary main_v137 main_v136 main_v138 (addf : (⟨S50000x64, .f32⟩ : BufTy).Contents (Elt F) → (⟨S50000x64, .f32⟩ : BufTy).Contents (Elt F) → (⟨S50000x64, .f32⟩ : BufTy).Contents (Elt F)),
    StableHlo.TRef.nullary main_call2.cst (constant S_ .f32 0x00000000#32),
    StableHlo.TRef.unary main_call2.cst main_call2.v0 (broadcastInDim S50000x64 ![] bcast_S_S50000x64),
    StableHlo.TRef.binary (.of main_v138) main_call2.v0 main_call2.v1 (cmpf .oge),
    StableHlo.TRef.nullary main_call2.cst_0 (constant S_ .f32 0x3C23D70A#32),
    StableHlo.TRef.unary main_call2.cst_0 main_call2.v2 (broadcastInDim S50000x64 ![] bcast_S_S50000x64),
    StableHlo.TRef.binary main_call2.v2 (.of main_v138) main_call2.v3 mulf,
    StableHlo.TRef.ternary main_call2.v1 (.of main_v138) main_call2.v3 main_call2.call0.v0 select ]
abbrev c2_10_W : List (Ref sig .tc) := [main_v137, main_v138, main_call2_cst, main_call2_v0, main_call2_v1, main_call2_cst_0, main_call2_v2, main_call2_v3, main_v139]
theorem c2_10_writes : (c2_10 : List (HloOp τ sig (Elt F))).Forall fun op => op.writes ⊆ (c2_10_W.map (Proc.devRef (τ := τ) .tc)).toFinset := by
  simp only [c2_10, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c2_10_keep (W : Valuation τ sig (Elt F)) {r : Ref sig .tc} (h : r ∉ c2_10_W) :
    after c2_10 W (no_index (Proc.devRef .tc r)) = W (Proc.devRef .tc r) :=
  after_of_writes_sub c2_10 W c2_10_writes h
set_option maxRecDepth 8192 in
set_option maxHeartbeats 1000000 in
theorem c2_10_main_v139 (W : Valuation τ sig (Elt F)) :
    after c2_10 W (no_index (Proc.devRef .tc main_v139)) =
      ((select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)) ((cmpf .oge : (⟨S50000x64, .f32⟩ : BufTy).Contents (Elt F) → (⟨S50000x64, .f32⟩ : BufTy).Contents (Elt F) → (⟨S50000x64, .i1⟩ : BufTy).Contents (Elt F)) ((addf : (⟨S50000x64, .f32⟩ : BufTy).Contents (Elt F) → (⟨S50000x64, .f32⟩ : BufTy).Contents (Elt F) → (⟨S50000x64, .f32⟩ : BufTy).Contents (Elt F)) (Host.dotGeneral dot_S50000x64_S64x64_S50000x64_1_0_0_1_n_n none (W (Proc.devRef .tc main_v71)) (W (Proc.devRef .tc main_arg6)) : (⟨S50000x64, .f32⟩ : BufTy).Contents (Elt F)) (W (Proc.devRef .tc main_v136))) ((broadcastInDim S50000x64 ![] bcast_S_S50000x64 : (⟨S_, .f32⟩ : BufTy).Contents (Elt F) → (⟨S50000x64, .f32⟩ : BufTy).Contents (Elt F)) (constant S_ .f32 0x00000000#32 : (⟨S_, .f32⟩ : BufTy).Contents (Elt F)))) ((addf : (⟨S50000x64, .f32⟩ : BufTy).Contents (Elt F) → (⟨S50000x64, .f32⟩ : BufTy).Contents (Elt F) → (⟨S50000x64, .f32⟩ : BufTy).Contents (Elt F)) (Host.dotGeneral dot_S50000x64_S64x64_S50000x64_1_0_0_1_n_n none (W (Proc.devRef .tc main_v71)) (W (Proc.devRef .tc main_arg6)) : (⟨S50000x64, .f32⟩ : BufTy).Contents (Elt F)) (W (Proc.devRef .tc main_v136))) ((mulf : (⟨S50000x64, .f32⟩ : BufTy).Contents (Elt F) → (⟨S50000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) (constant S_ .f32 0x3C23D70A#32 : (⟨S_, .f32⟩ : BufTy).Contents (Elt F))) ((addf : (⟨S50000x64, .f32⟩ : BufTy).Contents (Elt F) → (⟨S50000x64, .f32⟩ : BufTy).Contents (Elt F) → (⟨S50000x64, .f32⟩ : BufTy).Contents (Elt F)) (Host.dotGeneral dot_S50000x64_S64x64_S50000x64_1_0_0_1_n_n none (W (Proc.devRef .tc main_v71)) (W (Proc.devRef .tc main_arg6)) : (⟨S50000x64, .f32⟩ : BufTy).Contents (Elt F)) (W (Proc.devRef .tc main_v136))))) := by
  simp only [c2_10]
  after_results_simp
  try rfl

/-- Operations 192 … 192 of @main's 261. -/
def c2_11 : List (HloOp τ sig (Elt F)) :=
  [ StableHlo.binary main_v71 main_arg8 main_v140 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]
abbrev c2_11_W : List (Ref sig .tc) := [main_v140]
theorem c2_11_writes : (c2_11 : List (HloOp τ sig (Elt F))).Forall fun op => op.writes ⊆ (c2_11_W.map (Proc.devRef (τ := τ) .tc)).toFinset := by
  simp only [c2_11, List.Forall]; exact (by simp only [StableHlo.nullary_writes, StableHlo.unary_writes, StableHlo.binary_writes, StableHlo.ternary_writes, StableHlo.nary_writes, Finset.singleton_subset_iff, List.mem_toFinset]; exact List.mem_map_of_mem (by decide))
theorem c2_11_keep (W : Valuation τ sig (Elt F)) {r : Ref sig .tc} (h : r ∉ c2_11_W) :
    after c2_11 W (no_index (Proc.devRef .tc r)) = W (Proc.devRef .tc r) :=
  after_of_writes_sub c2_11 W c2_11_writes h
set_option maxRecDepth 8192 in
set_option maxHeartbeats 1000000 in
theorem c2_11_main_v140 (W : Valuation τ sig (Elt F)) :
    after c2_11 W (no_index (Proc.devRef .tc main_v140)) =
      (Host.dotGeneral dot_S50000x64_S64x64_S50000x64_1_0_0_1_n_n none (W (Proc.devRef .tc main_v71)) (W (Proc.devRef .tc main_arg8)) : (⟨S50000x64, .f32⟩ : BufTy).Contents (Elt F)) := by
  simp only [c2_11]
  after_results_simp
  try rfl

/-- Operations 193 … 198 of @main's 261. -/
def c2_12 : List (HloOp τ sig (Elt F)) :=
  [ StableHlo.nullary main_c_31 (constantI S_ 32 0#32),
    StableHlo.unary main_c_31 main_v141 (broadcastInDim S1000000 ![] bcast_S_S1000000 : (⟨S_, .i32⟩ : BufTy).Contents (Elt F) → (⟨S1000000, .i32⟩ : BufTy).Contents (Elt F)),
    StableHlo.binary main_arg13 main_v141 main_v142 (cmpi .slt : (⟨S1000000, .i32⟩ : BufTy).Contents (Elt F) → (⟨S1000000, .i32⟩ : BufTy).Contents (Elt F) → (⟨S1000000, .i1⟩ : BufTy).Contents (Elt F)),
    StableHlo.nullary main_c_32 (constantI S_ 32 50000#32),
    StableHlo.unary main_c_32 main_v143 (broadcastInDim S1000000 ![] bcast_S_S1000000 : (⟨S_, .i32⟩ : BufTy).Contents (Elt F) → (⟨S1000000, .i32⟩ : BufTy).Contents (Elt F)),
    StableHlo.binary main_arg13 main_v143 main_v144 (addi : (⟨S1000000, .i32⟩ : BufTy).Contents (Elt F) → (⟨S1000000, .i32⟩ : BufTy).Contents (Elt F) → (⟨S1000000, .i32⟩ : BufTy).Contents (Elt F)) ]
abbrev c2_12_W : List (Ref sig .tc) := [main_c_31, main_v141, main_v142, main_c_32, main_v143, main_v144]
theorem c2_12_writes : (c2_12 : List (HloOp τ sig (Elt F))).Forall fun op => op.writes ⊆ (c2_12_W.map (Proc.devRef (τ := τ) .tc)).toFinset := by
  simp only [c2_12, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c2_12_keep (W : Valuation τ sig (Elt F)) {r : Ref sig .tc} (h : r ∉ c2_12_W) :
    after c2_12 W (no_index (Proc.devRef .tc r)) = W (Proc.devRef .tc r) :=
  after_of_writes_sub c2_12 W c2_12_writes h
set_option maxRecDepth 8192 in
set_option maxHeartbeats 1000000 in
theorem c2_12_main_v142 (W : Valuation τ sig (Elt F)) :
    after c2_12 W (no_index (Proc.devRef .tc main_v142)) =
      ((cmpi .slt : (⟨S1000000, .i32⟩ : BufTy).Contents (Elt F) → (⟨S1000000, .i32⟩ : BufTy).Contents (Elt F) → (⟨S1000000, .i1⟩ : BufTy).Contents (Elt F)) (W (Proc.devRef .tc main_arg13)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) := by
  simp only [c2_12]
  after_results_simp
  try rfl
set_option maxRecDepth 8192 in
set_option maxHeartbeats 1000000 in
theorem c2_12_main_v144 (W : Valuation τ sig (Elt F)) :
    after c2_12 W (no_index (Proc.devRef .tc main_v144)) =
      ((addi : (⟨S1000000, .i32⟩ : BufTy).Contents (Elt F) → (⟨S1000000, .i32⟩ : BufTy).Contents (Elt F) → (⟨S1000000, .i32⟩ : BufTy).Contents (Elt F)) (W (Proc.devRef .tc main_arg13)) ((broadcastInDim S1000000 ![] bcast_S_S1000000 : (⟨S_, .i32⟩ : BufTy).Contents (Elt F) → (⟨S1000000, .i32⟩ : BufTy).Contents (Elt F)) (constantI S_ 32 50000#32 : (⟨S_, .i32⟩ : BufTy).Contents (Elt F)))) := by
  simp only [c2_12]
  after_results_simp
  try rfl

set_option maxRecDepth 8192 in
/-- The window's list is its blocks in order. -/
theorem ops2_blocks : (ops2 : List (HloOp τ sig (Elt F))) = c2_1 ++ (c2_2 ++ (c2_3 ++ (c2_4 ++ (c2_5 ++ (c2_6 ++ (c2_7 ++ (c2_8 ++ (c2_9 ++ (c2_10 ++ (c2_11 ++ (c2_12))))))))))) := rfl

end Cert.ReferenceIdeal.RefRun

end
-- ==== Proof.Ref.Blocks3.lean ====
/- Window `main_part3`'s operations cut into consecutive blocks, each ending at a buffer whose value is read later; per block: the buffers it writes, that it leaves every other buffer alone, and the value it leaves in its last buffer as the printed operations' term of the contents it started from. -/
import proofs.«126583_j73280732004963_1_alg».proof.Proof.Ref.Ops3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 199 … 201 of @main's 261. -/
def c3_1 : List (HloOp τ sig (Elt F)) :=
  [ StableHlo.ternary main_v142 main_v144 main_arg13 main_v145 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v145 main_v146 (broadcastInDim S1000000x1 ![0] bcast_S1000000_S1000000x1_0 : (⟨S1000000, .i32⟩ : BufTy).Contents (Elt F) → (⟨S1000000x1, .i32⟩ : BufTy).Contents (Elt F)),
    StableHlo.binary main_v140 main_v146 main_v147 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)) ]
abbrev c3_1_W : List (Ref sig .tc) := [main_v145, main_v146, main_v147]
theorem c3_1_writes : (c3_1 : List (HloOp τ sig (Elt F))).Forall fun op => op.writes ⊆ (c3_1_W.map (Proc.devRef (τ := τ) .tc)).toFinset := by
  simp only [c3_1, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c3_1_keep (W : Valuation τ sig (Elt F)) {r : Ref sig .tc} (h : r ∉ c3_1_W) :
    after c3_1 W (no_index (Proc.devRef .tc r)) = W (Proc.devRef .tc r) :=
  after_of_writes_sub c3_1 W c3_1_writes h
set_option maxRecDepth 8192 in
set_option maxHeartbeats 1000000 in
theorem c3_1_main_v147 (W : Valuation τ sig (Elt F)) :
    after c3_1 W (no_index (Proc.devRef .tc main_v147)) =
      (Host.gather gather_S50000x64_S1000000x1_S1000000x64_1_0_n_n_0_1_164 (W (Proc.devRef .tc main_v140)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (W (Proc.devRef .tc main_v142)) (W (Proc.devRef .tc main_v144)) (W (Proc.devRef .tc main_arg13)))) : (⟨S1000000x64, .f32⟩ : BufTy).Contents (Elt F)) := by
  simp only [c3_1]
  after_results_simp
  try rfl

/-- Operations 202 … 210 of @main's 261. -/
def c3_2 : List (HloOp τ sig (Elt F)) :=
  [ StableHlo.nullary main_c_33 (constantI S_ 32 0#32),
    StableHlo.unary main_c_33 main_v148 (broadcastInDim S1000000 ![] bcast_S_S1000000 : (⟨S_, .i32⟩ : BufTy).Contents (Elt F) → (⟨S1000000, .i32⟩ : BufTy).Contents (Elt F)),
    StableHlo.binary main_arg13 main_v148 main_v149 (cmpi .slt : (⟨S1000000, .i32⟩ : BufTy).Contents (Elt F) → (⟨S1000000, .i32⟩ : BufTy).Contents (Elt F) → (⟨S1000000, .i1⟩ : BufTy).Contents (Elt F)),
    StableHlo.nullary main_c_34 (constantI S_ 32 50000#32),
    StableHlo.unary main_c_34 main_v150 (broadcastInDim S1000000 ![] bcast_S_S1000000 : (⟨S_, .i32⟩ : BufTy).Contents (Elt F) → (⟨S1000000, .i32⟩ : BufTy).Contents (Elt F)),
    StableHlo.binary main_arg13 main_v150 main_v151 (addi : (⟨S1000000, .i32⟩ : BufTy).Contents (Elt F) → (⟨S1000000, .i32⟩ : BufTy).Contents (Elt F) → (⟨S1000000, .i32⟩ : BufTy).Contents (Elt F)),
    StableHlo.ternary main_v149 main_v151 main_arg13 main_v152 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v152 main_v153 (broadcastInDim S1000000x1 ![0] bcast_S1000000_S1000000x1_0 : (⟨S1000000, .i32⟩ : BufTy).Contents (Elt F) → (⟨S1000000x1, .i32⟩ : BufTy).Contents (Elt F)),
    StableHlo.binary main_v71 main_v153 main_v154 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)) ]
abbrev c3_2_W : List (Ref sig .tc) := [main_c_33, main_v148, main_v149, main_c_34, main_v150, main_v151, main_v152, main_v153, main_v154]
theorem c3_2_writes : (c3_2 : List (HloOp τ sig (Elt F))).Forall fun op => op.writes ⊆ (c3_2_W.map (Proc.devRef (τ := τ) .tc)).toFinset := by
  simp only [c3_2, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c3_2_keep (W : Valuation τ sig (Elt F)) {r : Ref sig .tc} (h : r ∉ c3_2_W) :
    after c3_2 W (no_index (Proc.devRef .tc r)) = W (Proc.devRef .tc r) :=
  after_of_writes_sub c3_2 W c3_2_writes h
set_option maxRecDepth 8192 in
set_option maxHeartbeats 1000000 in
theorem c3_2_main_v154 (W : Valuation τ sig (Elt F)) :
    after c3_2 W (no_index (Proc.devRef .tc main_v154)) =
      (Host.gather gather_S50000x64_S1000000x1_S1000000x64_1_0_n_n_0_1_164 (W (Proc.devRef .tc main_v71)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (W (Proc.devRef .tc main_arg13)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (W (Proc.devRef .tc main_arg13)) ((broadcastInDim S1000000 ![] bcast_S_S1000000 : (⟨S_, .i32⟩ : BufTy).Contents (Elt F) → (⟨S1000000, .i32⟩ : BufTy).Contents (Elt F)) (constantI S_ 32 50000#32 : (⟨S_, .i32⟩ : BufTy).Contents (Elt F)))) (W (Proc.devRef .tc main_arg13)))) : (⟨S1000000x64, .f32⟩ : BufTy).Contents (Elt F)) := by
  simp only [c3_2]
  after_results_simp
  try rfl

/-- Operations 211 … 219 of @main's 261. -/
def c3_3 : List (HloOp τ sig (Elt F)) :=
  [ StableHlo.nullary main_c_35 (constantI S_ 32 0#32),
    StableHlo.unary main_c_35 main_v155 (broadcastInDim S1000000 ![] bcast_S_S1000000 : (⟨S_, .i32⟩ : BufTy).Contents (Elt F) → (⟨S1000000, .i32⟩ : BufTy).Contents (Elt F)),
    StableHlo.binary main_arg12 main_v155 main_v156 (cmpi .slt : (⟨S1000000, .i32⟩ : BufTy).Contents (Elt F) → (⟨S1000000, .i32⟩ : BufTy).Contents (Elt F) → (⟨S1000000, .i1⟩ : BufTy).Contents (Elt F)),
    StableHlo.nullary main_c_36 (constantI S_ 32 100000#32),
    StableHlo.unary main_c_36 main_v157 (broadcastInDim S1000000 ![] bcast_S_S1000000 : (⟨S_, .i32⟩ : BufTy).Contents (Elt F) → (⟨S1000000, .i32⟩ : BufTy).Contents (Elt F)),
    StableHlo.binary main_arg12 main_v157 main_v158 (addi : (⟨S1000000, .i32⟩ : BufTy).Contents (Elt F) → (⟨S1000000, .i32⟩ : BufTy).Contents (Elt F) → (⟨S1000000, .i32⟩ : BufTy).Contents (Elt F)),
    StableHlo.ternary main_v156 main_v158 main_arg12 main_v159 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v159 main_v160 (broadcastInDim S1000000x1 ![0] bcast_S1000000_S1000000x1_0 : (⟨S1000000, .i32⟩ : BufTy).Contents (Elt F) → (⟨S1000000x1, .i32⟩ : BufTy).Contents (Elt F)),
    StableHlo.binary main_v105 main_v160 main_v161 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) ]
abbrev c3_3_W : List (Ref sig .tc) := [main_c_35, main_v155, main_v156, main_c_36, main_v157, main_v158, main_v159, main_v160, main_v161]
theorem c3_3_writes : (c3_3 : List (HloOp τ sig (Elt F))).Forall fun op => op.writes ⊆ (c3_3_W.map (Proc.devRef (τ := τ) .tc)).toFinset := by
  simp only [c3_3, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c3_3_keep (W : Valuation τ sig (Elt F)) {r : Ref sig .tc} (h : r ∉ c3_3_W) :
    after c3_3 W (no_index (Proc.devRef .tc r)) = W (Proc.devRef .tc r) :=
  after_of_writes_sub c3_3 W c3_3_writes h
set_option maxRecDepth 8192 in
set_option maxHeartbeats 1000000 in
theorem c3_3_main_v161 (W : Valuation τ sig (Elt F)) :
    after c3_3 W (no_index (Proc.devRef .tc main_v161)) =
      (Host.gather gather_S100000x64_S1000000x1_S1000000x64_1_0_n_n_0_1_164 (W (Proc.devRef .tc main_v105)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (W (Proc.devRef .tc main_arg12)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (W (Proc.devRef .tc main_arg12)) ((broadcastInDim S1000000 ![] bcast_S_S1000000 : (⟨S_, .i32⟩ : BufTy).Contents (Elt F) → (⟨S1000000, .i32⟩ : BufTy).Contents (Elt F)) (constantI S_ 32 100000#32 : (⟨S_, .i32⟩ : BufTy).Contents (Elt F)))) (W (Proc.devRef .tc main_arg12)))) : (⟨S1000000x64, .f32⟩ : BufTy).Contents (Elt F)) := by
  simp only [c3_3]
  after_results_simp
  try rfl

/-- Operations 220 … 225 of @main's 261. -/
def c3_4 : List (HloOp τ sig (Elt F)) :=
  [ StableHlo.binary main_v154 main_v161 main_v162 (mulf : (⟨S1000000x64, .f32⟩ : BufTy).Contents (Elt F) → (⟨S1000000x64, .f32⟩ : BufTy).Contents (Elt F) → (⟨S1000000x64, .f32⟩ : BufTy).Contents (Elt F)),
    StableHlo.binary main_v162 main_arg9 main_v163 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_v37 main_v164 (broadcastInDim S1000000x1 ![0] bcast_S1000000_S1000000x1_0 : (⟨S1000000, .f32⟩ : BufTy).Contents (Elt F) → (⟨S1000000x1, .f32⟩ : BufTy).Contents (Elt F)),
    StableHlo.binary main_v147 main_v163 main_v165 (addf : (⟨S1000000x64, .f32⟩ : BufTy).Contents (Elt F) → (⟨S1000000x64, .f32⟩ : BufTy).Contents (Elt F) → (⟨S1000000x64, .f32⟩ : BufTy).Contents (Elt F)),
    StableHlo.unary main_v164 main_v166 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v166 main_v165 main_v167 (mulf : (⟨S1000000x64, .f32⟩ : BufTy).Contents (Elt F) → (⟨S1000000x64, .f32⟩ : BufTy).Contents (Elt F) → (⟨S1000000x64, .f32⟩ : BufTy).Contents (Elt F)) ]
abbrev c3_4_W : List (Ref sig .tc) := [main_v162, main_v163, main_v164, main_v165, main_v166, main_v167]
theorem c3_4_writes : (c3_4 : List (HloOp τ sig (Elt F))).Forall fun op => op.writes ⊆ (c3_4_W.map (Proc.devRef (τ := τ) .tc)).toFinset := by
  simp only [c3_4, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c3_4_keep (W : Valuation τ sig (Elt F)) {r : Ref sig .tc} (h : r ∉ c3_4_W) :
    after c3_4 W (no_index (Proc.devRef .tc r)) = W (Proc.devRef .tc r) :=
  after_of_writes_sub c3_4 W c3_4_writes h
set_option maxRecDepth 8192 in
set_option maxHeartbeats 1000000 in
theorem c3_4_main_v167 (W : Valuation τ sig (Elt F)) :
    after c3_4 W (no_index (Proc.devRef .tc main_v167)) =
      ((mulf : (⟨S1000000x64, .f32⟩ : BufTy).Contents (Elt F) → (⟨S1000000x64, .f32⟩ : BufTy).Contents (Elt F) → (⟨S1000000x64, .f32⟩ : BufTy).Contents (Elt F)) ((broadcastInDim S1000000x64 ![0, 1] bcast_S1000000x1_S1000000x64_0_1 : (⟨S1000000x1, .f32⟩ : BufTy).Contents (Elt F) → (⟨S1000000x64, .f32⟩ : BufTy).Contents (Elt F)) ((broadcastInDim S1000000x1 ![0] bcast_S1000000_S1000000x1_0 : (⟨S1000000, .f32⟩ : BufTy).Contents (Elt F) → (⟨S1000000x1, .f32⟩ : BufTy).Contents (Elt F)) (W (Proc.devRef .tc main_v37)))) ((addf : (⟨S1000000x64, .f32⟩ : BufTy).Contents (Elt F) → (⟨S1000000x64, .f32⟩ : BufTy).Contents (Elt F) → (⟨S1000000x64, .f32⟩ : BufTy).Contents (Elt F)) (W (Proc.devRef .tc main_v147)) (Host.dotGeneral dot_S1000000x64_S64x64_S1000000x64_1_0_0_1_n_n none ((mulf : (⟨S1000000x64, .f32⟩ : BufTy).Contents (Elt F) → (⟨S1000000x64, .f32⟩ : BufTy).Contents (Elt F) → (⟨S1000000x64, .f32⟩ : BufTy).Contents (Elt F)) (W (Proc.devRef .tc main_v154)) (W (Proc.devRef .tc main_v161))) (W (Proc.devRef .tc main_arg9)) : (⟨S1000000x64, .f32⟩ : BufTy).Contents (Elt F)))) := by
  simp only [c3_4]
  after_results_simp
  try rfl

/-- Operations 226 … 229 of @main's 261. -/
def c3_5 : List (HloOp τ sig (Elt F)) :=
  [ StableHlo.nullary main_cst_37 (constant S_ .f32 0x00000000#32),
    StableHlo.unary main_cst_37 main_v168 (broadcastInDim S100000x64 ![] bcast_S_S100000x64 : (⟨S_, .f32⟩ : BufTy).Contents (Elt F) → (⟨S100000x64, .f32⟩ : BufTy).Contents (Elt F)),
    StableHlo.unary main_arg12 main_v169 (broadcastInDim S1000000x1 ![0] bcast_S1000000_S1000000x1_0 : (⟨S1000000, .i32⟩ : BufTy).Contents (Elt F) → (⟨S1000000x1, .i32⟩ : BufTy).Contents (Elt F)),
    StableHlo.ternary main_v168 main_v169 main_v167 main_v170 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)) ]
abbrev c3_5_W : List (Ref sig .tc) := [main_cst_37, main_v168, main_v169, main_v170]
theorem c3_5_writes : (c3_5 : List (HloOp τ sig (Elt F))).Forall fun op => op.writes ⊆ (c3_5_W.map (Proc.devRef (τ := τ) .tc)).toFinset := by
  simp only [c3_5, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c3_5_keep (W : Valuation τ sig (Elt F)) {r : Ref sig .tc} (h : r ∉ c3_5_W) :
    after c3_5 W (no_index (Proc.devRef .tc r)) = W (Proc.devRef .tc r) :=
  after_of_writes_sub c3_5 W c3_5_writes h
set_option maxRecDepth 8192 in
set_option maxHeartbeats 1000000 in
theorem c3_5_main_v170 (W : Valuation τ sig (Elt F)) :
    after c3_5 W (no_index (Proc.devRef .tc main_v170)) =
      (Host.scatterAdd scatter_S100000x64_S1000000x1_S1000000x64_1_0_0_1 ((broadcastInDim S100000x64 ![] bcast_S_S100000x64 : (⟨S_, .f32⟩ : BufTy).Contents (Elt F) → (⟨S100000x64, .f32⟩ : BufTy).Contents (Elt F)) (constant S_ .f32 0x00000000#32 : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) (W (Proc.devRef .tc main_arg12))) (W (Proc.devRef .tc main_v167)) : (⟨S100000x64, .f32⟩ : BufTy).Contents (Elt F)) := by
  simp only [c3_5]
  after_results_simp
  try rfl

/-- Operations 230 … 238 of @main's 261. -/
def c3_6 : List (HloOp τ sig (Elt F)) :=
  [ StableHlo.binary main_v105 main_arg8 main_v171 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v171 main_v170 main_v172 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v172) main_call3.v0 main_call3.v1 (cmpf .oge),
    StableHlo.TRef.nullary main_call3.cst_0 (constant S_ .f32 0x3C23D70A#32),
    StableHlo.TRef.unary main_call3.cst_0 main_call3.v2 (broadcastInDim S100000x64 ![] bcast_S_S100000x64),
    StableHlo.TRef.binary main_call3.v2 (.of main_v172) main_call3.v3 mulf,
    StableHlo.TRef.ternary main_call3.v1 (.of main_v172) main_call3.v3 main_call3.call0.v0 select ]
abbrev c3_6_W : List (Ref sig .tc) := [main_v171, main_v172, main_call3_cst, main_call3_v0, main_call3_v1, main_call3_cst_0, main_call3_v2, main_call3_v3, main_v173]
theorem c3_6_writes : (c3_6 : List (HloOp τ sig (Elt F))).Forall fun op => op.writes ⊆ (c3_6_W.map (Proc.devRef (τ := τ) .tc)).toFinset := by
  simp only [c3_6, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c3_6_keep (W : Valuation τ sig (Elt F)) {r : Ref sig .tc} (h : r ∉ c3_6_W) :
    after c3_6 W (no_index (Proc.devRef .tc r)) = W (Proc.devRef .tc r) :=
  after_of_writes_sub c3_6 W c3_6_writes h
set_option maxRecDepth 8192 in
set_option maxHeartbeats 1000000 in
theorem c3_6_main_v173 (W : Valuation τ sig (Elt F)) :
    after c3_6 W (no_index (Proc.devRef .tc main_v173)) =
      ((select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ((cmpf .oge : (⟨S100000x64, .f32⟩ : BufTy).Contents (Elt F) → (⟨S100000x64, .f32⟩ : BufTy).Contents (Elt F) → (⟨S100000x64, .i1⟩ : BufTy).Contents (Elt F)) ((addf : (⟨S100000x64, .f32⟩ : BufTy).Contents (Elt F) → (⟨S100000x64, .f32⟩ : BufTy).Contents (Elt F) → (⟨S100000x64, .f32⟩ : BufTy).Contents (Elt F)) (Host.dotGeneral dot_S100000x64_S64x64_S100000x64_1_0_0_1_n_n none (W (Proc.devRef .tc main_v105)) (W (Proc.devRef .tc main_arg8)) : (⟨S100000x64, .f32⟩ : BufTy).Contents (Elt F)) (W (Proc.devRef .tc main_v170))) ((broadcastInDim S100000x64 ![] bcast_S_S100000x64 : (⟨S_, .f32⟩ : BufTy).Contents (Elt F) → (⟨S100000x64, .f32⟩ : BufTy).Contents (Elt F)) (constant S_ .f32 0x00000000#32 : (⟨S_, .f32⟩ : BufTy).Contents (Elt F)))) ((addf : (⟨S100000x64, .f32⟩ : BufTy).Contents (Elt F) → (⟨S100000x64, .f32⟩ : BufTy).Contents (Elt F) → (⟨S100000x64, .f32⟩ : BufTy).Contents (Elt F)) (Host.dotGeneral dot_S100000x64_S64x64_S100000x64_1_0_0_1_n_n none (W (Proc.devRef .tc main_v105)) (W (Proc.devRef .tc main_arg8)) : (⟨S100000x64, .f32⟩ : BufTy).Contents (Elt F)) (W (Proc.devRef .tc main_v170))) ((mulf : (⟨S100000x64, .f32⟩ : BufTy).Contents (Elt F) → (⟨S100000x64, .f32⟩ : BufTy).Contents (Elt F) → (⟨S100000x64, .f32⟩ : BufTy).Contents (Elt F)) ((broadcastInDim S100000x64 ![] bcast_S_S100000x64 : (⟨S_, .f32⟩ : BufTy).Contents (Elt F) → (⟨S100000x64, .f32⟩ : BufTy).Contents (Elt F)) (constant S_ .f32 0x3C23D70A#32 : (⟨S_, .f32⟩ : BufTy).Contents (Elt F))) ((addf : (⟨S100000x64, .f32⟩ : BufTy).Contents (Elt F) → (⟨S100000x64, .f32⟩ : BufTy).Contents (Elt F) → (⟨S100000x64, .f32⟩ : BufTy).Contents (Elt F)) (Host.dotGeneral dot_S100000x64_S64x64_S100000x64_1_0_0_1_n_n none (W (Proc.devRef .tc main_v105)) (W (Proc.devRef .tc main_arg8)) : (⟨S100000x64, .f32⟩ : BufTy).Contents (Elt F)) (W (Proc.devRef .tc main_v170))))) := by
  simp only [c3_6]
  after_results_simp
  try rfl

/-- Operations 239 … 239 of @main's 261. -/
def c3_7 : List (HloOp τ sig (Elt F)) :=
  [ StableHlo.nary ![main_v6, main_v105, main_v173] main_v174 (fun u => concatenate S100000x192 1 [⟨S100000x64, u 0⟩, ⟨S100000x64, u 1⟩, ⟨S100000x64, u 2⟩] concatenates_S100000x64_S100000x64_S100000x64_S100000x192_d1) ]
abbrev c3_7_W : List (Ref sig .tc) := [main_v174]
theorem c3_7_writes : (c3_7 : List (HloOp τ sig (Elt F))).Forall fun op => op.writes ⊆ (c3_7_W.map (Proc.devRef (τ := τ) .tc)).toFinset := by
  simp only [c3_7, List.Forall]; exact (by simp only [StableHlo.nullary_writes, StableHlo.unary_writes, StableHlo.binary_writes, StableHlo.ternary_writes, StableHlo.nary_writes, Finset.singleton_subset_iff, List.mem_toFinset]; exact List.mem_map_of_mem (by decide))
theorem c3_7_keep (W : Valuation τ sig (Elt F)) {r : Ref sig .tc} (h : r ∉ c3_7_W) :
    after c3_7 W (no_index (Proc.devRef .tc r)) = W (Proc.devRef .tc r) :=
  after_of_writes_sub c3_7 W c3_7_writes h
set_option maxRecDepth 8192 in
set_option maxHeartbeats 1000000 in
theorem c3_7_main_v174 (W : Valuation τ sig (Elt F)) :
    after c3_7 W (no_index (Proc.devRef .tc main_v174)) =
      (concatenate S100000x192 1 [⟨S100000x64, (W (Proc.devRef .tc main_v6))⟩, ⟨S100000x64, (W (Proc.devRef .tc main_v105))⟩, ⟨S100000x64, (W (Proc.devRef .tc main_v173))⟩] concatenates_S100000x64_S100000x64_S100000x64_S100000x192_d1 : (⟨S100000x192, .f32⟩ : BufTy).Contents (Elt F)) := by
  simp only [c3_7]
  after_results_simp
  try rfl

/-- Operations 240 … 240 of @main's 261. -/
def c3_8 : List (HloOp τ sig (Elt F)) :=
  [ StableHlo.nary ![main_v13, main_v71, main_v139] main_v175 (fun u => concatenate S50000x192 1 [⟨S50000x64, u 0⟩, ⟨S50000x64, u 1⟩, ⟨S50000x64, u 2⟩] concatenates_S50000x64_S50000x64_S50000x64_S50000x192_d1) ]
abbrev c3_8_W : List (Ref sig .tc) := [main_v175]
theorem c3_8_writes : (c3_8 : List (HloOp τ sig (Elt F))).Forall fun op => op.writes ⊆ (c3_8_W.map (Proc.devRef (τ := τ) .tc)).toFinset := by
  simp only [c3_8, List.Forall]; exact (by simp only [StableHlo.nullary_writes, StableHlo.unary_writes, StableHlo.binary_writes, StableHlo.ternary_writes, StableHlo.nary_writes, Finset.singleton_subset_iff, List.mem_toFinset]; exact List.mem_map_of_mem (by decide))
theorem c3_8_keep (W : Valuation τ sig (Elt F)) {r : Ref sig .tc} (h : r ∉ c3_8_W) :
    after c3_8 W (no_index (Proc.devRef .tc r)) = W (Proc.devRef .tc r) :=
  after_of_writes_sub c3_8 W c3_8_writes h
set_option maxRecDepth 8192 in
set_option maxHeartbeats 1000000 in
theorem c3_8_main_v175 (W : Valuation τ sig (Elt F)) :
    after c3_8 W (no_index (Proc.devRef .tc main_v175)) =
      (concatenate S50000x192 1 [⟨S50000x64, (W (Proc.devRef .tc main_v13))⟩, ⟨S50000x64, (W (Proc.devRef .tc main_v71))⟩, ⟨S50000x64, (W (Proc.devRef .tc main_v139))⟩] concatenates_S50000x64_S50000x64_S50000x64_S50000x192_d1 : (⟨S50000x192, .f32⟩ : BufTy).Contents (Elt F)) := by
  simp only [c3_8]
  after_results_simp
  try rfl

/-- Operations 241 … 249 of @main's 261. -/
def c3_9 : List (HloOp τ sig (Elt F)) :=
  [ StableHlo.nullary main_c_38 (constantI S_ 32 0#32),
    StableHlo.unary main_c_38 main_v176 (broadcastInDim S500000 ![] bcast_S_S500000 : (⟨S_, .i32⟩ : BufTy).Contents (Elt F) → (⟨S500000, .i32⟩ : BufTy).Contents (Elt F)),
    StableHlo.binary main_arg14 main_v176 main_v177 (cmpi .slt : (⟨S500000, .i32⟩ : BufTy).Contents (Elt F) → (⟨S500000, .i32⟩ : BufTy).Contents (Elt F) → (⟨S500000, .i1⟩ : BufTy).Contents (Elt F)),
    StableHlo.nullary main_c_39 (constantI S_ 32 100000#32),
    StableHlo.unary main_c_39 main_v178 (broadcastInDim S500000 ![] bcast_S_S500000 : (⟨S_, .i32⟩ : BufTy).Contents (Elt F) → (⟨S500000, .i32⟩ : BufTy).Contents (Elt F)),
    StableHlo.binary main_arg14 main_v178 main_v179 (addi : (⟨S500000, .i32⟩ : BufTy).Contents (Elt F) → (⟨S500000, .i32⟩ : BufTy).Contents (Elt F) → (⟨S500000, .i32⟩ : BufTy).Contents (Elt F)),
    StableHlo.ternary main_v177 main_v179 main_arg14 main_v180 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v180 main_v181 (broadcastInDim S500000x1 ![0] bcast_S500000_S500000x1_0 : (⟨S500000, .i32⟩ : BufTy).Contents (Elt F) → (⟨S500000x1, .i32⟩ : BufTy).Contents (Elt F)),
    StableHlo.binary main_v174 main_v181 main_v182 ((fun x i => Host.gather gather_S100000x192_S500000x1_S500000x192_1_0_n_n_0_1_1192 x i) : (⟨S100000x192, .f32⟩ : BufTy).Contents (Elt F) → (⟨S500000x1, .i32⟩ : BufTy).Contents (Elt F) → (⟨S500000x192, .f32⟩ : BufTy).Contents (Elt F)) ]
abbrev c3_9_W : List (Ref sig .tc) := [main_c_38, main_v176, main_v177, main_c_39, main_v178, main_v179, main_v180, main_v181, main_v182]
theorem c3_9_writes : (c3_9 : List (HloOp τ sig (Elt F))).Forall fun op => op.writes ⊆ (c3_9_W.map (Proc.devRef (τ := τ) .tc)).toFinset := by
  simp only [c3_9, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c3_9_keep (W : Valuation τ sig (Elt F)) {r : Ref sig .tc} (h : r ∉ c3_9_W) :
    after c3_9 W (no_index (Proc.devRef .tc r)) = W (Proc.devRef .tc r) :=
  after_of_writes_sub c3_9 W c3_9_writes h
set_option maxRecDepth 8192 in
set_option maxHeartbeats 1000000 in
theorem c3_9_main_v182 (W : Valuation τ sig (Elt F)) :
    after c3_9 W (no_index (Proc.devRef .tc main_v182)) =
      (Host.gather gather_S100000x192_S500000x1_S500000x192_1_0_n_n_0_1_1192 (W (Proc.devRef .tc main_v174)) ((broadcastInDim S500000x1 ![0] bcast_S500000_S500000x1_0 : (⟨S500000, .i32⟩ : BufTy).Contents (Elt F) → (⟨S500000x1, .i32⟩ : BufTy).Contents (Elt F)) ((select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ((cmpi .slt : (⟨S500000, .i32⟩ : BufTy).Contents (Elt F) → (⟨S500000, .i32⟩ : BufTy).Contents (Elt F) → (⟨S500000, .i1⟩ : BufTy).Contents (Elt F)) (W (Proc.devRef .tc main_arg14)) ((broadcastInDim S500000 ![] bcast_S_S500000 : (⟨S_, .i32⟩ : BufTy).Contents (Elt F) → (⟨S500000, .i32⟩ : BufTy).Contents (Elt F)) (constantI S_ 32 0#32 : (⟨S_, .i32⟩ : BufTy).Contents (Elt F)))) ((addi : (⟨S500000, .i32⟩ : BufTy).Contents (Elt F) → (⟨S500000, .i32⟩ : BufTy).Contents (Elt F) → (⟨S500000, .i32⟩ : BufTy).Contents (Elt F)) (W (Proc.devRef .tc main_arg14)) ((broadcastInDim S500000 ![] bcast_S_S500000 : (⟨S_, .i32⟩ : BufTy).Contents (Elt F) → (⟨S500000, .i32⟩ : BufTy).Contents (Elt F)) (constantI S_ 32 100000#32 : (⟨S_, .i32⟩ : BufTy).Contents (Elt F)))) (W (Proc.devRef .tc main_arg14)))) : (⟨S500000x192, .f32⟩ : BufTy).Contents (Elt F)) := by
  simp only [c3_9]
  after_results_simp
  try rfl

/-- Operations 250 … 258 of @main's 261. -/
def c3_10 : List (HloOp τ sig (Elt F)) :=
  [ StableHlo.nullary main_c_40 (constantI S_ 32 0#32),
    StableHlo.unary main_c_40 main_v183 (broadcastInDim S500000 ![] bcast_S_S500000 : (⟨S_, .i32⟩ : BufTy).Contents (Elt F) → (⟨S500000, .i32⟩ : BufTy).Contents (Elt F)),
    StableHlo.binary main_arg15 main_v183 main_v184 (cmpi .slt : (⟨S500000, .i32⟩ : BufTy).Contents (Elt F) → (⟨S500000, .i32⟩ : BufTy).Contents (Elt F) → (⟨S500000, .i1⟩ : BufTy).Contents (Elt F)),
    StableHlo.nullary main_c_41 (constantI S_ 32 50000#32),
    StableHlo.unary main_c_41 main_v185 (broadcastInDim S500000 ![] bcast_S_S500000 : (⟨S_, .i32⟩ : BufTy).Contents (Elt F) → (⟨S500000, .i32⟩ : BufTy).Contents (Elt F)),
    StableHlo.binary main_arg15 main_v185 main_v186 (addi : (⟨S500000, .i32⟩ : BufTy).Contents (Elt F) → (⟨S500000, .i32⟩ : BufTy).Contents (Elt F) → (⟨S500000, .i32⟩ : BufTy).Contents (Elt F)),
    StableHlo.ternary main_v184 main_v186 main_arg15 main_v187 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v187 main_v188 (broadcastInDim S500000x1 ![0] bcast_S500000_S500000x1_0 : (⟨S500000, .i32⟩ : BufTy).Contents (Elt F) → (⟨S500000x1, .i32⟩ : BufTy).Contents (Elt F)),
    StableHlo.binary main_v175 main_v188 main_v189 ((fun x i => Host.gather gather_S50000x192_S500000x1_S500000x192_1_0_n_n_0_1_1192 x i) : (⟨S50000x192, .f32⟩ : BufTy).Contents (Elt F) → (⟨S500000x1, .i32⟩ : BufTy).Contents (Elt F) → (⟨S500000x192, .f32⟩ : BufTy).Contents (Elt F)) ]
abbrev c3_10_W : List (Ref sig .tc) := [main_c_40, main_v183, main_v184, main_c_41, main_v185, main_v186, main_v187, main_v188, main_v189]
theorem c3_10_writes : (c3_10 : List (HloOp τ sig (Elt F))).Forall fun op => op.writes ⊆ (c3_10_W.map (Proc.devRef (τ := τ) .tc)).toFinset := by
  simp only [c3_10, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c3_10_keep (W : Valuation τ sig (Elt F)) {r : Ref sig .tc} (h : r ∉ c3_10_W) :
    after c3_10 W (no_index (Proc.devRef .tc r)) = W (Proc.devRef .tc r) :=
  after_of_writes_sub c3_10 W c3_10_writes h
set_option maxRecDepth 8192 in
set_option maxHeartbeats 1000000 in
theorem c3_10_main_v189 (W : Valuation τ sig (Elt F)) :
    after c3_10 W (no_index (Proc.devRef .tc main_v189)) =
      (Host.gather gather_S50000x192_S500000x1_S500000x192_1_0_n_n_0_1_1192 (W (Proc.devRef .tc main_v175)) ((broadcastInDim S500000x1 ![0] bcast_S500000_S500000x1_0 : (⟨S500000, .i32⟩ : BufTy).Contents (Elt F) → (⟨S500000x1, .i32⟩ : BufTy).Contents (Elt F)) ((select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ((cmpi .slt : (⟨S500000, .i32⟩ : BufTy).Contents (Elt F) → (⟨S500000, .i32⟩ : BufTy).Contents (Elt F) → (⟨S500000, .i1⟩ : BufTy).Contents (Elt F)) (W (Proc.devRef .tc main_arg15)) ((broadcastInDim S500000 ![] bcast_S_S500000 : (⟨S_, .i32⟩ : BufTy).Contents (Elt F) → (⟨S500000, .i32⟩ : BufTy).Contents (Elt F)) (constantI S_ 32 0#32 : (⟨S_, .i32⟩ : BufTy).Contents (Elt F)))) ((addi : (⟨S500000, .i32⟩ : BufTy).Contents (Elt F) → (⟨S500000, .i32⟩ : BufTy).Contents (Elt F) → (⟨S500000, .i32⟩ : BufTy).Contents (Elt F)) (W (Proc.devRef .tc main_arg15)) ((broadcastInDim S500000 ![] bcast_S_S500000 : (⟨S_, .i32⟩ : BufTy).Contents (Elt F) → (⟨S500000, .i32⟩ : BufTy).Contents (Elt F)) (constantI S_ 32 50000#32 : (⟨S_, .i32⟩ : BufTy).Contents (Elt F)))) (W (Proc.devRef .tc main_arg15)))) : (⟨S500000x192, .f32⟩ : BufTy).Contents (Elt F)) := by
  simp only [c3_10]
  after_results_simp
  try rfl

/-- Operations 259 … 261 of @main's 261. -/
def c3_11 : List (HloOp τ sig (Elt F)) :=
  [ StableHlo.binary main_v182 main_v189 main_v190 (mulf : (⟨S500000x192, .f32⟩ : BufTy).Contents (Elt F) → (⟨S500000x192, .f32⟩ : BufTy).Contents (Elt F) → (⟨S500000x192, .f32⟩ : BufTy).Contents (Elt F)),
    StableHlo.nullary main_cst_42 (constant S_ .f32 0x00000000#32),
    StableHlo.binary main_v190 main_cst_42 main_v191 ((fun x v => Host.reduceAdd x v reducesTo_S500000x192_S500000_d1 h_S_) : (⟨S500000x192, .f32⟩ : BufTy).Contents (Elt F) → (⟨S_, .f32⟩ : BufTy).Contents (Elt F) → (⟨S500000, .f32⟩ : BufTy).Contents (Elt F)) ]
abbrev c3_11_W : List (Ref sig .tc) := [main_v190, main_cst_42, main_v191]
theorem c3_11_writes : (c3_11 : List (HloOp τ sig (Elt F))).Forall fun op => op.writes ⊆ (c3_11_W.map (Proc.devRef (τ := τ) .tc)).toFinset := by
  simp only [c3_11, List.Forall]; exact ⟨by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide),
    by simp only [StableHlo.nullary_writes, StableHlo.unary_writes, StableHlo.binary_writes, StableHlo.ternary_writes, StableHlo.nary_writes, Finset.singleton_subset_iff, List.mem_toFinset]; exact List.mem_map_of_mem (by decide)⟩
theorem c3_11_keep (W : Valuation τ sig (Elt F)) {r : Ref sig .tc} (h : r ∉ c3_11_W) :
    after c3_11 W (no_index (Proc.devRef .tc r)) = W (Proc.devRef .tc r) :=
  after_of_writes_sub c3_11 W c3_11_writes h
set_option maxRecDepth 8192 in
set_option maxHeartbeats 1000000 in
theorem c3_11_main_v191 (W : Valuation τ sig (Elt F)) :
    after c3_11 W (no_index (Proc.devRef .tc main_v191)) =
      (Host.reduceAdd ((mulf : (⟨S500000x192, .f32⟩ : BufTy).Contents (Elt F) → (⟨S500000x192, .f32⟩ : BufTy).Contents (Elt F) → (⟨S500000x192, .f32⟩ : BufTy).Contents (Elt F)) (W (Proc.devRef .tc main_v182)) (W (Proc.devRef .tc main_v189))) (constant S_ .f32 0x00000000#32 : (⟨S_, .f32⟩ : BufTy).Contents (Elt F)) reducesTo_S500000x192_S500000_d1 h_S_ : (⟨S500000, .f32⟩ : BufTy).Contents (Elt F)) := by
  simp only [c3_11]
  after_results_simp
  try rfl

set_option maxRecDepth 8192 in
/-- The window's list is its blocks in order. -/
theorem ops3_blocks : (ops3 : List (HloOp τ sig (Elt F))) = c3_1 ++ (c3_2 ++ (c3_3 ++ (c3_4 ++ (c3_5 ++ (c3_6 ++ (c3_7 ++ (c3_8 ++ (c3_9 ++ (c3_10 ++ (c3_11)))))))))) := rfl

end Cert.ReferenceIdeal.RefRun

end
-- ==== Proof.Ref.Chain.lean ====
/- The fold over @main's 261 operations as the folds over its 38 consecutive blocks in turn. -/
import proofs.«126583_j73280732004963_1_alg».proof.Proof.Ref.Run
import proofs.«126583_j73280732004963_1_alg».proof.Proof.Ref.Blocks0
import proofs.«126583_j73280732004963_1_alg».proof.Proof.Ref.Blocks1
import proofs.«126583_j73280732004963_1_alg».proof.Proof.Ref.Blocks2
import proofs.«126583_j73280732004963_1_alg».proof.Proof.Ref.Blocks3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem after_chain (V : Valuation τ sig (Elt F)) :
    after ops V = after c3_11 (after c3_10 (after c3_9 (after c3_8 (after c3_7 (after c3_6 (after c3_5 (after c3_4 (after c3_3 (after c3_2 (after c3_1 (after c2_12 (after c2_11 (after c2_10 (after c2_9 (after c2_8 (after c2_7 (after c2_6 (after c2_5 (after c2_4 (after c2_3 (after c2_2 (after c2_1 (after c1_10 (after c1_9 (after c1_8 (after c1_7 (after c1_6 (after c1_5 (after c1_4 (after c1_3 (after c1_2 (after c1_1 (after c0_5 (after c0_4 (after c0_3 (after c0_2 (after c0_1 V))))))))))))))))))))))))))))))))))))) := by
  rw [after_ops, ops0_blocks, ops1_blocks, ops2_blocks, ops3_blocks]
  simp only [after_app]

end Cert.ReferenceIdeal.RefRun

end
-- ==== Proof.Ref.Vals0.lean ====
/- One-step values of the reference's run: what each of these buffers holds after @main's 261 operations, as the printed operations' term of the previous key buffers' values after the run and of the argument arrays. -/
import proofs.«126583_j73280732004963_1_alg».proof.Proof.Ref.Chain

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
theorem valV_v6 (V : Valuation τ sig (Elt F)) :
    after ops V (Proc.devRef .tc main_v6) =
      (Host.gather gather_S100000x64_S100000x1_S100000x64_1_0_n_n_0_1_164 (V (Proc.devRef .tc main_arg0)) ((broadcastInDim S100000x1 ![0] bcast_S100000_S100000x1_0 : (⟨S100000, .i32⟩ : BufTy).Contents (Elt F) → (⟨S100000x1, .i32⟩ : BufTy).Contents (Elt F)) ((select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) ((cmpi .slt : (⟨S100000, .i32⟩ : BufTy).Contents (Elt F) → (⟨S100000, .i32⟩ : BufTy).Contents (Elt F) → (⟨S100000, .i1⟩ : BufTy).Contents (Elt F)) (V (Proc.devRef .tc main_arg10)) ((broadcastInDim S100000 ![] bcast_S_S100000 : (⟨S_, .i32⟩ : BufTy).Contents (Elt F) → (⟨S100000, .i32⟩ : BufTy).Contents (Elt F)) (constantI S_ 32 0#32 : (⟨S_, .i32⟩ : BufTy).Contents (Elt F)))) ((addi : (⟨S100000, .i32⟩ : BufTy).Contents (Elt F) → (⟨S100000, .i32⟩ : BufTy).Contents (Elt F) → (⟨S100000, .i32⟩ : BufTy).Contents (Elt F)) (V (Proc.devRef .tc main_arg10)) ((broadcastInDim S100000 ![] bcast_S_S100000 : (⟨S_, .i32⟩ : BufTy).Contents (Elt F) → (⟨S100000, .i32⟩ : BufTy).Contents (Elt F)) (constantI S_ 32 100000#32 : (⟨S_, .i32⟩ : BufTy).Contents (Elt F)))) (V (Proc.devRef .tc main_arg10)))) : (⟨S100000x64, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c0_1_main_v6]
theorem val_v6 (m : (ℓ : Loc nD τ sig) → Buf (Elt F) ℓ) (d : Dev nD) :
    after ops (launchContents m d) (Proc.devRef .tc main_v6) =
      (Host.gather gather_S100000x64_S100000x1_S100000x64_1_0_n_n_0_1_164 ((launchContents m d) (Proc.devRef .tc main_arg0)) ((broadcastInDim S100000x1 ![0] bcast_S100000_S100000x1_0 : (⟨S100000, .i32⟩ : BufTy).Contents (Elt F) → (⟨S100000x1, .i32⟩ : BufTy).Contents (Elt F)) ((select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) ((cmpi .slt : (⟨S100000, .i32⟩ : BufTy).Contents (Elt F) → (⟨S100000, .i32⟩ : BufTy).Contents (Elt F) → (⟨S100000, .i1⟩ : BufTy).Contents (Elt F)) ((launchContents m d) (Proc.devRef .tc main_arg10)) ((broadcastInDim S100000 ![] bcast_S_S100000 : (⟨S_, .i32⟩ : BufTy).Contents (Elt F) → (⟨S100000, .i32⟩ : BufTy).Contents (Elt F)) (constantI S_ 32 0#32 : (⟨S_, .i32⟩ : BufTy).Contents (Elt F)))) ((addi : (⟨S100000, .i32⟩ : BufTy).Contents (Elt F) → (⟨S100000, .i32⟩ : BufTy).Contents (Elt F) → (⟨S100000, .i32⟩ : BufTy).Contents (Elt F)) ((launchContents m d) (Proc.devRef .tc main_arg10)) ((broadcastInDim S100000 ![] bcast_S_S100000 : (⟨S_, .i32⟩ : BufTy).Contents (Elt F) → (⟨S100000, .i32⟩ : BufTy).Contents (Elt F)) (constantI S_ 32 100000#32 : (⟨S_, .i32⟩ : BufTy).Contents (Elt F)))) ((launchContents m d) (Proc.devRef .tc main_arg10)))) : (⟨S100000x64, .f32⟩ : BufTy).Contents (Elt F)) :=
  valV_v6 (launchContents m d)

set_option maxRecDepth 8192 in
set_option maxHeartbeats 2000000 in
theorem valV_v13 (V : Valuation τ sig (Elt F)) :
    after ops V (Proc.devRef .tc main_v13) =
      (Host.gather gather_S50000x64_S50000x1_S50000x64_1_0_n_n_0_1_164 (V (Proc.devRef .tc main_arg1)) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (V (Proc.devRef .tc main_arg11)) ((broadcastInDim S50000 ![] bcast_S_S50000 : (⟨S_, .i32⟩ : BufTy).Contents (Elt F) → (⟨S50000, .i32⟩ : BufTy).Contents (Elt F)) (constantI S_ 32 0#32 : (⟨S_, .i32⟩ : BufTy).Contents (Elt F)))) ((addi : (⟨S50000, .i32⟩ : BufTy).Contents (Elt F) → (⟨S50000, .i32⟩ : BufTy).Contents (Elt F) → (⟨S50000, .i32⟩ : BufTy).Contents (Elt F)) (V (Proc.devRef .tc main_arg11)) ((broadcastInDim S50000 ![] bcast_S_S50000 : (⟨S_, .i32⟩ : BufTy).Contents (Elt F) → (⟨S50000, .i32⟩ : BufTy).Contents (Elt F)) (constantI S_ 32 50000#32 : (⟨S_, .i32⟩ : BufTy).Contents (Elt F)))) (V (Proc.devRef .tc main_arg11)))) : (⟨S50000x64, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c0_2_main_v13]
theorem val_v13 (m : (ℓ : Loc nD τ sig) → Buf (Elt F) ℓ) (d : Dev nD) :
    after ops (launchContents m d) (Proc.devRef .tc main_v13) =
      (Host.gather gather_S50000x64_S50000x1_S50000x64_1_0_n_n_0_1_164 ((launchContents m d) (Proc.devRef .tc main_arg1)) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) ((launchContents m d) (Proc.devRef .tc main_arg11)) ((broadcastInDim S50000 ![] bcast_S_S50000 : (⟨S_, .i32⟩ : BufTy).Contents (Elt F) → (⟨S50000, .i32⟩ : BufTy).Contents (Elt F)) (constantI S_ 32 0#32 : (⟨S_, .i32⟩ : BufTy).Contents (Elt F)))) ((addi : (⟨S50000, .i32⟩ : BufTy).Contents (Elt F) → (⟨S50000, .i32⟩ : BufTy).Contents (Elt F) → (⟨S50000, .i32⟩ : BufTy).Contents (Elt F)) ((launchContents m d) (Proc.devRef .tc main_arg11)) ((broadcastInDim S50000 ![] bcast_S_S50000 : (⟨S_, .i32⟩ : BufTy).Contents (Elt F) → (⟨S50000, .i32⟩ : BufTy).Contents (Elt F)) (constantI S_ 32 50000#32 : (⟨S_, .i32⟩ : BufTy).Contents (Elt F)))) ((launchContents m d) (Proc.devRef .tc main_arg11)))) : (⟨S50000x64, .f32⟩ : BufTy).Contents (Elt F)) :=
  valV_v13 (launchContents m d)

set_option maxRecDepth 8192 in
set_option maxHeartbeats 2000000 in
theorem valV_v37 (V : Valuation τ sig (Elt F)) :
    after ops V (Proc.devRef .tc main_v37) =
      ((Host.rsqrt : (⟨S1000000, .f32⟩ : BufTy).Contents (Elt F) → (⟨S1000000, .f32⟩ : BufTy).Contents (Elt F)) ((mulf : (⟨S1000000, .f32⟩ : BufTy).Contents (Elt F) → (⟨S1000000, .f32⟩ : BufTy).Contents (Elt F) → (⟨S1000000, .f32⟩ : BufTy).Contents (Elt F)) (Host.gather gather_S100000_S1000000x1_S1000000_n_0_n_n_0_1_1 (Host.scatterAdd scatter_S100000_S1000000x1_S1000000_n_0_0_1 ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) (V (Proc.devRef .tc main_arg12))) ((broadcastInDim S1000000 ![] bcast_S_S1000000 : (⟨S_, .f32⟩ : BufTy).Contents (Elt F) → (⟨S1000000, .f32⟩ : BufTy).Contents (Elt F)) (constant S_ .f32 0x3F800000#32 : (⟨S_, .f32⟩ : BufTy).Contents (Elt F))) : (⟨S100000, .f32⟩ : BufTy).Contents (Elt F)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (V (Proc.devRef .tc main_arg12)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (V (Proc.devRef .tc main_arg12)) ((broadcastInDim S1000000 ![] bcast_S_S1000000 : (⟨S_, .i32⟩ : BufTy).Contents (Elt F) → (⟨S1000000, .i32⟩ : BufTy).Contents (Elt F)) (constantI S_ 32 100000#32 : (⟨S_, .i32⟩ : BufTy).Contents (Elt F)))) (V (Proc.devRef .tc main_arg12)))) : (⟨S1000000, .f32⟩ : BufTy).Contents (Elt F)) (Host.gather gather_S50000_S1000000x1_S1000000_n_0_n_n_0_1_1 (Host.scatterAdd scatter_S50000_S1000000x1_S1000000_n_0_0_1 ((broadcastInDim S50000 ![] bcast_S_S50000 : (⟨S_, .f32⟩ : BufTy).Contents (Elt F) → (⟨S50000, .f32⟩ : BufTy).Contents (Elt F)) (constant S_ .f32 0x00000000#32 : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) (V (Proc.devRef .tc main_arg13))) ((broadcastInDim S1000000 ![] bcast_S_S1000000 : (⟨S_, .f32⟩ : BufTy).Contents (Elt F) → (⟨S1000000, .f32⟩ : BufTy).Contents (Elt F)) (constant S_ .f32 0x3F800000#32 : (⟨S_, .f32⟩ : BufTy).Contents (Elt F))) : (⟨S50000, .f32⟩ : BufTy).Contents (Elt F)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (V (Proc.devRef .tc main_arg13)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (V (Proc.devRef .tc main_arg13)) ((broadcastInDim S1000000 ![] bcast_S_S1000000 : (⟨S_, .i32⟩ : BufTy).Contents (Elt F) → (⟨S1000000, .i32⟩ : BufTy).Contents (Elt F)) (constantI S_ 32 50000#32 : (⟨S_, .i32⟩ : BufTy).Contents (Elt F)))) (V (Proc.devRef .tc main_arg13)))) : (⟨S1000000, .f32⟩ : BufTy).Contents (Elt F)))) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c0_3_main_v37]
theorem val_v37 (m : (ℓ : Loc nD τ sig) → Buf (Elt F) ℓ) (d : Dev nD) :
    after ops (launchContents m d) (Proc.devRef .tc main_v37) =
      ((Host.rsqrt : (⟨S1000000, .f32⟩ : BufTy).Contents (Elt F) → (⟨S1000000, .f32⟩ : BufTy).Contents (Elt F)) ((mulf : (⟨S1000000, .f32⟩ : BufTy).Contents (Elt F) → (⟨S1000000, .f32⟩ : BufTy).Contents (Elt F) → (⟨S1000000, .f32⟩ : BufTy).Contents (Elt F)) (Host.gather gather_S100000_S1000000x1_S1000000_n_0_n_n_0_1_1 (Host.scatterAdd scatter_S100000_S1000000x1_S1000000_n_0_0_1 ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) ((launchContents m d) (Proc.devRef .tc main_arg12))) ((broadcastInDim S1000000 ![] bcast_S_S1000000 : (⟨S_, .f32⟩ : BufTy).Contents (Elt F) → (⟨S1000000, .f32⟩ : BufTy).Contents (Elt F)) (constant S_ .f32 0x3F800000#32 : (⟨S_, .f32⟩ : BufTy).Contents (Elt F))) : (⟨S100000, .f32⟩ : BufTy).Contents (Elt F)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) ((launchContents m d) (Proc.devRef .tc main_arg12)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) ((launchContents m d) (Proc.devRef .tc main_arg12)) ((broadcastInDim S1000000 ![] bcast_S_S1000000 : (⟨S_, .i32⟩ : BufTy).Contents (Elt F) → (⟨S1000000, .i32⟩ : BufTy).Contents (Elt F)) (constantI S_ 32 100000#32 : (⟨S_, .i32⟩ : BufTy).Contents (Elt F)))) ((launchContents m d) (Proc.devRef .tc main_arg12)))) : (⟨S1000000, .f32⟩ : BufTy).Contents (Elt F)) (Host.gather gather_S50000_S1000000x1_S1000000_n_0_n_n_0_1_1 (Host.scatterAdd scatter_S50000_S1000000x1_S1000000_n_0_0_1 ((broadcastInDim S50000 ![] bcast_S_S50000 : (⟨S_, .f32⟩ : BufTy).Contents (Elt F) → (⟨S50000, .f32⟩ : BufTy).Contents (Elt F)) (constant S_ .f32 0x00000000#32 : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) ((launchContents m d) (Proc.devRef .tc main_arg13))) ((broadcastInDim S1000000 ![] bcast_S_S1000000 : (⟨S_, .f32⟩ : BufTy).Contents (Elt F) → (⟨S1000000, .f32⟩ : BufTy).Contents (Elt F)) (constant S_ .f32 0x3F800000#32 : (⟨S_, .f32⟩ : BufTy).Contents (Elt F))) : (⟨S50000, .f32⟩ : BufTy).Contents (Elt F)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) ((launchContents m d) (Proc.devRef .tc main_arg13)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) ((launchContents m d) (Proc.devRef .tc main_arg13)) ((broadcastInDim S1000000 ![] bcast_S_S1000000 : (⟨S_, .i32⟩ : BufTy).Contents (Elt F) → (⟨S1000000, .i32⟩ : BufTy).Contents (Elt F)) (constantI S_ 32 50000#32 : (⟨S_, .i32⟩ : BufTy).Contents (Elt F)))) ((launchContents m d) (Proc.devRef .tc main_arg13)))) : (⟨S1000000, .f32⟩ : BufTy).Contents (Elt F)))) :=
  valV_v37 (launchContents m d)

end Cert.ReferenceIdeal.RefRun

end
-- ==== Proof.Sim.Base.lean ====
/- The two idealized programs, run from memories that agree on the arguments, hold equal values buffer by buffer: the kernel
   program's buffers at the boundaries of its items against the reference's buffers after its run. This module: the agreement of the
   arguments, and the first stretch of host operations (the two gathered node tables and the per-edge weights), which is the same
   operations on both sides. -/
import proofs.«126583_j73280732004963_1_alg».proof.Proof.KI.Finals
import proofs.«126583_j73280732004963_1_alg».proof.Proof.KI.Keep
import proofs.«126583_j73280732004963_1_alg».proof.Proof.Ref.Vals0
import Idealize.ShloMosaic.Lib.StableHlo.Run

set_option maxRecDepth 16384

noncomputable section

namespace Cert.Sim

open Idealize.ShloMosaic Idealize.ShloMosaic.TcCoe Idealize.SL.Sem Idealize.ShloMosaic.StableHlo ValueIdx
open Cert.KernelIdeal.Hand Cert.Val

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The two launch memories agree on the sixteen argument arrays. -/
structure Agree : Prop where
  a0 : (StableHlo.launchContents m' c (Proc.devRef .tc Cert.ReferenceIdeal.main_arg0)) = m ((c.tc : Thread Cert.KernelIdeal.nD Cert.KernelIdeal.τ).loc Cert.KernelIdeal.main_arg0)
  a1 : (StableHlo.launchContents m' c (Proc.devRef .tc Cert.ReferenceIdeal.main_arg1)) = m ((c.tc : Thread Cert.KernelIdeal.nD Cert.KernelIdeal.τ).loc Cert.KernelIdeal.main_arg1)
  a2 : (StableHlo.launchContents m' c (Proc.devRef .tc Cert.ReferenceIdeal.main_arg2)) = m ((c.tc : Thread Cert.KernelIdeal.nD Cert.KernelIdeal.τ).loc Cert.KernelIdeal.main_arg2)
  a3 : (StableHlo.launchContents m' c (Proc.devRef .tc Cert.ReferenceIdeal.main_arg3)) = m ((c.tc : Thread Cert.KernelIdeal.nD Cert.KernelIdeal.τ).loc Cert.KernelIdeal.main_arg3)
  a4 : (StableHlo.launchContents m' c (Proc.devRef .tc Cert.ReferenceIdeal.main_arg4)) = m ((c.tc : Thread Cert.KernelIdeal.nD Cert.KernelIdeal.τ).loc Cert.KernelIdeal.main_arg4)
  a5 : (StableHlo.launchContents m' c (Proc.devRef .tc Cert.ReferenceIdeal.main_arg5)) = m ((c.tc : Thread Cert.KernelIdeal.nD Cert.KernelIdeal.τ).loc Cert.KernelIdeal.main_arg5)
  a6 : (StableHlo.launchContents m' c (Proc.devRef .tc Cert.ReferenceIdeal.main_arg6)) = m ((c.tc : Thread Cert.KernelIdeal.nD Cert.KernelIdeal.τ).loc Cert.KernelIdeal.main_arg6)
  a7 : (StableHlo.launchContents m' c (Proc.devRef .tc Cert.ReferenceIdeal.main_arg7)) = m ((c.tc : Thread Cert.KernelIdeal.nD Cert.KernelIdeal.τ).loc Cert.KernelIdeal.main_arg7)
  a8 : (StableHlo.launchContents m' c (Proc.devRef .tc Cert.ReferenceIdeal.main_arg8)) = m ((c.tc : Thread Cert.KernelIdeal.nD Cert.KernelIdeal.τ).loc Cert.KernelIdeal.main_arg8)
  a9 : (StableHlo.launchContents m' c (Proc.devRef .tc Cert.ReferenceIdeal.main_arg9)) = m ((c.tc : Thread Cert.KernelIdeal.nD Cert.KernelIdeal.τ).loc Cert.KernelIdeal.main_arg9)
  a10 : (StableHlo.launchContents m' c (Proc.devRef .tc Cert.ReferenceIdeal.main_arg10)) = m ((c.tc : Thread Cert.KernelIdeal.nD Cert.KernelIdeal.τ).loc Cert.KernelIdeal.main_arg10)
  a11 : (StableHlo.launchContents m' c (Proc.devRef .tc Cert.ReferenceIdeal.main_arg11)) = m ((c.tc : Thread Cert.KernelIdeal.nD Cert.KernelIdeal.τ).loc Cert.KernelIdeal.main_arg11)
  a12 : (StableHlo.launchContents m' c (Proc.devRef .tc Cert.ReferenceIdeal.main_arg12)) = m ((c.tc : Thread Cert.KernelIdeal.nD Cert.KernelIdeal.τ).loc Cert.KernelIdeal.main_arg12)
  a13 : (StableHlo.launchContents m' c (Proc.devRef .tc Cert.ReferenceIdeal.main_arg13)) = m ((c.tc : Thread Cert.KernelIdeal.nD Cert.KernelIdeal.τ).loc Cert.KernelIdeal.main_arg13)
  a14 : (StableHlo.launchContents m' c (Proc.devRef .tc Cert.ReferenceIdeal.main_arg14)) = m ((c.tc : Thread Cert.KernelIdeal.nD Cert.KernelIdeal.τ).loc Cert.KernelIdeal.main_arg14)
  a15 : (StableHlo.launchContents m' c (Proc.devRef .tc Cert.ReferenceIdeal.main_arg15)) = m ((c.tc : Thread Cert.KernelIdeal.nD Cert.KernelIdeal.τ).loc Cert.KernelIdeal.main_arg15)

variable {m m' c}

set_option maxHeartbeats 4000000 in
/-- The gathered user table. -/
theorem sim_v6 (hag : Agree m m' c) :
    ((W1 m ρ c (Proc.devRef .tc Cert.KernelIdeal.main_v6)) : (Sh 100000 64).Idx → Elt Ideal .f32) = (StableHlo.after Cert.ReferenceIdeal.RefRun.ops (StableHlo.launchContents m' c) (Proc.devRef .tc Cert.ReferenceIdeal.main_v6)) := by
  generalize hR : (StableHlo.after Cert.ReferenceIdeal.RefRun.ops (StableHlo.launchContents m' c) (Proc.devRef .tc Cert.ReferenceIdeal.main_v6)) = rhs
  after_results_simp
  subst hR
  rw [Cert.ReferenceIdeal.RefRun.val_v6 m' c]
  rw [hag.a0, hag.a10]
  rfl

set_option maxHeartbeats 4000000 in
/-- The gathered item table. -/
theorem sim_v13 (hag : Agree m m' c) :
    ((W1 m ρ c (Proc.devRef .tc Cert.KernelIdeal.main_v13)) : (Sh 50000 64).Idx → Elt Ideal .f32) = (StableHlo.after Cert.ReferenceIdeal.RefRun.ops (StableHlo.launchContents m' c) (Proc.devRef .tc Cert.ReferenceIdeal.main_v13)) := by
  generalize hR : (StableHlo.after Cert.ReferenceIdeal.RefRun.ops (StableHlo.launchContents m' c) (Proc.devRef .tc Cert.ReferenceIdeal.main_v13)) = rhs
  after_results_simp
  subst hR
  rw [Cert.ReferenceIdeal.RefRun.val_v13 m' c]
  rw [hag.a1, hag.a11]
  rfl

set_option maxHeartbeats 4000000 in
/-- The kernel program's weight column is the reshape of the per-edge weights rsqrt(deg_u[e_user] · deg_i[e_item]). -/
theorem sim_v38 (hag : Agree m m' c) :
    ((W1 m ρ c (Proc.devRef .tc Cert.KernelIdeal.main_v38)) : (Sh 1000000 1).Idx → Elt Ideal .f32) = fun i => shapeCast Cert.ReferenceIdeal.S1000000x1 (StableHlo.after Cert.ReferenceIdeal.RefRun.ops (StableHlo.launchContents m' c) (Proc.devRef .tc Cert.ReferenceIdeal.main_v37)) Cert.KernelIdeal.Gen.shapeCasts_S1000000_S1000000x1 i := by
  generalize hR : (StableHlo.after Cert.ReferenceIdeal.RefRun.ops (StableHlo.launchContents m' c) (Proc.devRef .tc Cert.ReferenceIdeal.main_v37)) = rhs
  after_results_simp
  subst hR
  rw [Cert.ReferenceIdeal.RefRun.val_v37 m' c]
  rw [hag.a12, hag.a13]
  rfl

end Cert.Sim

end
-- ==== Proof.Ref.Cell1.lean ====
/- One-step values of the reference's run: what each of these buffers holds after @main's 261 operations, as the printed operations' term of the previous key buffers' values after the run and of the argument arrays. -/
import proofs.«126583_j73280732004963_1_alg».proof.Proof.Ref.Chain

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
theorem valV_v38 (V : Valuation τ sig (Elt F)) :
    after ops V (Proc.devRef .tc main_v38) =
      (Host.dotGeneral dot_S100000x64_S64x64_S100000x64_1_0_0_1_n_n none (after ops V (Proc.devRef .tc main_v6)) (V (Proc.devRef .tc main_arg2)) : (⟨S100000x64, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c0_4_main_v38]
theorem val_v38 (m : (ℓ : Loc nD τ sig) → Buf (Elt F) ℓ) (d : Dev nD) :
    after ops (launchContents m d) (Proc.devRef .tc main_v38) =
      (Host.dotGeneral dot_S100000x64_S64x64_S100000x64_1_0_0_1_n_n none (after ops (launchContents m d) (Proc.devRef .tc main_v6)) ((launchContents m d) (Proc.devRef .tc main_arg2)) : (⟨S100000x64, .f32⟩ : BufTy).Contents (Elt F)) :=
  valV_v38 (launchContents m d)

set_option maxRecDepth 8192 in
set_option maxHeartbeats 2000000 in
theorem valV_v45 (V : Valuation τ sig (Elt F)) :
    after ops V (Proc.devRef .tc main_v45) =
      (Host.gather gather_S100000x64_S1000000x1_S1000000x64_1_0_n_n_0_1_164 (after ops V (Proc.devRef .tc main_v38)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (V (Proc.devRef .tc main_arg12)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (V (Proc.devRef .tc main_arg12)) ((broadcastInDim S1000000 ![] bcast_S_S1000000 : (⟨S_, .i32⟩ : BufTy).Contents (Elt F) → (⟨S1000000, .i32⟩ : BufTy).Contents (Elt F)) (constantI S_ 32 100000#32 : (⟨S_, .i32⟩ : BufTy).Contents (Elt F)))) (V (Proc.devRef .tc main_arg12)))) : (⟨S1000000x64, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c0_5_main_v45]
theorem val_v45 (m : (ℓ : Loc nD τ sig) → Buf (Elt F) ℓ) (d : Dev nD) :
    after ops (launchContents m d) (Proc.devRef .tc main_v45) =
      (Host.gather gather_S100000x64_S1000000x1_S1000000x64_1_0_n_n_0_1_164 (after ops (launchContents m d) (Proc.devRef .tc main_v38)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) ((launchContents m d) (Proc.devRef .tc main_arg12)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) ((launchContents m d) (Proc.devRef .tc main_arg12)) ((broadcastInDim S1000000 ![] bcast_S_S1000000 : (⟨S_, .i32⟩ : BufTy).Contents (Elt F) → (⟨S1000000, .i32⟩ : BufTy).Contents (Elt F)) (constantI S_ 32 100000#32 : (⟨S_, .i32⟩ : BufTy).Contents (Elt F)))) ((launchContents m d) (Proc.devRef .tc main_arg12)))) : (⟨S1000000x64, .f32⟩ : BufTy).Contents (Elt F)) :=
  valV_v45 (launchContents m d)

set_option maxRecDepth 8192 in
set_option maxHeartbeats 2000000 in
theorem valV_v52 (V : Valuation τ sig (Elt F)) :
    after ops V (Proc.devRef .tc main_v52) =
      (Host.gather gather_S100000x64_S1000000x1_S1000000x64_1_0_n_n_0_1_164 (after ops V (Proc.devRef .tc main_v6)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (V (Proc.devRef .tc main_arg12)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (V (Proc.devRef .tc main_arg12)) ((broadcastInDim S1000000 ![] bcast_S_S1000000 : (⟨S_, .i32⟩ : BufTy).Contents (Elt F) → (⟨S1000000, .i32⟩ : BufTy).Contents (Elt F)) (constantI S_ 32 100000#32 : (⟨S_, .i32⟩ : BufTy).Contents (Elt F)))) (V (Proc.devRef .tc main_arg12)))) : (⟨S1000000x64, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c1_1_main_v52]
theorem val_v52 (m : (ℓ : Loc nD τ sig) → Buf (Elt F) ℓ) (d : Dev nD) :
    after ops (launchContents m d) (Proc.devRef .tc main_v52) =
      (Host.gather gather_S100000x64_S1000000x1_S1000000x64_1_0_n_n_0_1_164 (after ops (launchContents m d) (Proc.devRef .tc main_v6)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) ((launchContents m d) (Proc.devRef .tc main_arg12)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) ((launchContents m d) (Proc.devRef .tc main_arg12)) ((broadcastInDim S1000000 ![] bcast_S_S1000000 : (⟨S_, .i32⟩ : BufTy).Contents (Elt F) → (⟨S1000000, .i32⟩ : BufTy).Contents (Elt F)) (constantI S_ 32 100000#32 : (⟨S_, .i32⟩ : BufTy).Contents (Elt F)))) ((launchContents m d) (Proc.devRef .tc main_arg12)))) : (⟨S1000000x64, .f32⟩ : BufTy).Contents (Elt F)) :=
  valV_v52 (launchContents m d)

set_option maxRecDepth 8192 in
set_option maxHeartbeats 2000000 in
theorem valV_v59 (V : Valuation τ sig (Elt F)) :
    after ops V (Proc.devRef .tc main_v59) =
      (Host.gather gather_S50000x64_S1000000x1_S1000000x64_1_0_n_n_0_1_164 (after ops V (Proc.devRef .tc main_v13)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (V (Proc.devRef .tc main_arg13)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (V (Proc.devRef .tc main_arg13)) ((broadcastInDim S1000000 ![] bcast_S_S1000000 : (⟨S_, .i32⟩ : BufTy).Contents (Elt F) → (⟨S1000000, .i32⟩ : BufTy).Contents (Elt F)) (constantI S_ 32 50000#32 : (⟨S_, .i32⟩ : BufTy).Contents (Elt F)))) (V (Proc.devRef .tc main_arg13)))) : (⟨S1000000x64, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c1_2_main_v59]
theorem val_v59 (m : (ℓ : Loc nD τ sig) → Buf (Elt F) ℓ) (d : Dev nD) :
    after ops (launchContents m d) (Proc.devRef .tc main_v59) =
      (Host.gather gather_S50000x64_S1000000x1_S1000000x64_1_0_n_n_0_1_164 (after ops (launchContents m d) (Proc.devRef .tc main_v13)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) ((launchContents m d) (Proc.devRef .tc main_arg13)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) ((launchContents m d) (Proc.devRef .tc main_arg13)) ((broadcastInDim S1000000 ![] bcast_S_S1000000 : (⟨S_, .i32⟩ : BufTy).Contents (Elt F) → (⟨S1000000, .i32⟩ : BufTy).Contents (Elt F)) (constantI S_ 32 50000#32 : (⟨S_, .i32⟩ : BufTy).Contents (Elt F)))) ((launchContents m d) (Proc.devRef .tc main_arg13)))) : (⟨S1000000x64, .f32⟩ : BufTy).Contents (Elt F)) :=
  valV_v59 (launchContents m d)

set_option maxRecDepth 8192 in
set_option maxHeartbeats 2000000 in
theorem valV_v65 (V : Valuation τ sig (Elt F)) :
    after ops V (Proc.devRef .tc main_v65) =
      ((mulf : (⟨S1000000x64, .f32⟩ : BufTy).Contents (Elt F) → (⟨S1000000x64, .f32⟩ : BufTy).Contents (Elt F) → (⟨S1000000x64, .f32⟩ : BufTy).Contents (Elt F)) ((broadcastInDim S1000000x64 ![0, 1] bcast_S1000000x1_S1000000x64_0_1 : (⟨S1000000x1, .f32⟩ : BufTy).Contents (Elt F) → (⟨S1000000x64, .f32⟩ : BufTy).Contents (Elt F)) ((broadcastInDim S1000000x1 ![0] bcast_S1000000_S1000000x1_0 : (⟨S1000000, .f32⟩ : BufTy).Contents (Elt F) → (⟨S1000000x1, .f32⟩ : BufTy).Contents (Elt F)) (after ops V (Proc.devRef .tc main_v37)))) ((addf : (⟨S1000000x64, .f32⟩ : BufTy).Contents (Elt F) → (⟨S1000000x64, .f32⟩ : BufTy).Contents (Elt F) → (⟨S1000000x64, .f32⟩ : BufTy).Contents (Elt F)) (after ops V (Proc.devRef .tc main_v45)) (Host.dotGeneral dot_S1000000x64_S64x64_S1000000x64_1_0_0_1_n_n none ((mulf : (⟨S1000000x64, .f32⟩ : BufTy).Contents (Elt F) → (⟨S1000000x64, .f32⟩ : BufTy).Contents (Elt F) → (⟨S1000000x64, .f32⟩ : BufTy).Contents (Elt F)) (after ops V (Proc.devRef .tc main_v52)) (after ops V (Proc.devRef .tc main_v59))) (V (Proc.devRef .tc main_arg3)) : (⟨S1000000x64, .f32⟩ : BufTy).Contents (Elt F)))) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c1_3_main_v65]
theorem val_v65 (m : (ℓ : Loc nD τ sig) → Buf (Elt F) ℓ) (d : Dev nD) :
    after ops (launchContents m d) (Proc.devRef .tc main_v65) =
      ((mulf : (⟨S1000000x64, .f32⟩ : BufTy).Contents (Elt F) → (⟨S1000000x64, .f32⟩ : BufTy).Contents (Elt F) → (⟨S1000000x64, .f32⟩ : BufTy).Contents (Elt F)) ((broadcastInDim S1000000x64 ![0, 1] bcast_S1000000x1_S1000000x64_0_1 : (⟨S1000000x1, .f32⟩ : BufTy).Contents (Elt F) → (⟨S1000000x64, .f32⟩ : BufTy).Contents (Elt F)) ((broadcastInDim S1000000x1 ![0] bcast_S1000000_S1000000x1_0 : (⟨S1000000, .f32⟩ : BufTy).Contents (Elt F) → (⟨S1000000x1, .f32⟩ : BufTy).Contents (Elt F)) (after ops (launchContents m d) (Proc.devRef .tc main_v37)))) ((addf : (⟨S1000000x64, .f32⟩ : BufTy).Contents (Elt F) → (⟨S1000000x64, .f32⟩ : BufTy).Contents (Elt F) → (⟨S1000000x64, .f32⟩ : BufTy).Contents (Elt F)) (after ops (launchContents m d) (Proc.devRef .tc main_v45)) (Host.dotGeneral dot_S1000000x64_S64x64_S1000000x64_1_0_0_1_n_n none ((mulf : (⟨S1000000x64, .f32⟩ : BufTy).Contents (Elt F) → (⟨S1000000x64, .f32⟩ : BufTy).Contents (Elt F) → (⟨S1000000x64, .f32⟩ : BufTy).Contents (Elt F)) (after ops (launchContents m d) (Proc.devRef .tc main_v52)) (after ops (launchContents m d) (Proc.devRef .tc main_v59))) ((launchContents m d) (Proc.devRef .tc main_arg3)) : (⟨S1000000x64, .f32⟩ : BufTy).Contents (Elt F)))) :=
  valV_v65 (launchContents m d)

set_option maxRecDepth 8192 in
set_option maxHeartbeats 2000000 in
theorem valV_v68 (V : Valuation τ sig (Elt F)) :
    after ops V (Proc.devRef .tc main_v68) =
      (Host.scatterAdd scatter_S50000x64_S1000000x1_S1000000x64_1_0_0_1 ((broadcastInDim S50000x64 ![] bcast_S_S50000x64 : (⟨S_, .f32⟩ : BufTy).Contents (Elt F) → (⟨S50000x64, .f32⟩ : BufTy).Contents (Elt F)) (constant S_ .f32 0x00000000#32 : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) (V (Proc.devRef .tc main_arg13))) (after ops V (Proc.devRef .tc main_v65)) : (⟨S50000x64, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c1_4_main_v68]
theorem val_v68 (m : (ℓ : Loc nD τ sig) → Buf (Elt F) ℓ) (d : Dev nD) :
    after ops (launchContents m d) (Proc.devRef .tc main_v68) =
      (Host.scatterAdd scatter_S50000x64_S1000000x1_S1000000x64_1_0_0_1 ((broadcastInDim S50000x64 ![] bcast_S_S50000x64 : (⟨S_, .f32⟩ : BufTy).Contents (Elt F) → (⟨S50000x64, .f32⟩ : BufTy).Contents (Elt F)) (constant S_ .f32 0x00000000#32 : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) ((launchContents m d) (Proc.devRef .tc main_arg13))) (after ops (launchContents m d) (Proc.devRef .tc main_v65)) : (⟨S50000x64, .f32⟩ : BufTy).Contents (Elt F)) :=
  valV_v68 (launchContents m d)

set_option maxRecDepth 8192 in
set_option maxHeartbeats 2000000 in
theorem valV_v71 (V : Valuation τ sig (Elt F)) :
    after ops V (Proc.devRef .tc main_v71) =
      ((select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)) ((cmpf .oge : (⟨S50000x64, .f32⟩ : BufTy).Contents (Elt F) → (⟨S50000x64, .f32⟩ : BufTy).Contents (Elt F) → (⟨S50000x64, .i1⟩ : BufTy).Contents (Elt F)) ((addf : (⟨S50000x64, .f32⟩ : BufTy).Contents (Elt F) → (⟨S50000x64, .f32⟩ : BufTy).Contents (Elt F) → (⟨S50000x64, .f32⟩ : BufTy).Contents (Elt F)) (Host.dotGeneral dot_S50000x64_S64x64_S50000x64_1_0_0_1_n_n none (after ops V (Proc.devRef .tc main_v13)) (V (Proc.devRef .tc main_arg2)) : (⟨S50000x64, .f32⟩ : BufTy).Contents (Elt F)) (after ops V (Proc.devRef .tc main_v68))) ((broadcastInDim S50000x64 ![] bcast_S_S50000x64 : (⟨S_, .f32⟩ : BufTy).Contents (Elt F) → (⟨S50000x64, .f32⟩ : BufTy).Contents (Elt F)) (constant S_ .f32 0x00000000#32 : (⟨S_, .f32⟩ : BufTy).Contents (Elt F)))) ((addf : (⟨S50000x64, .f32⟩ : BufTy).Contents (Elt F) → (⟨S50000x64, .f32⟩ : BufTy).Contents (Elt F) → (⟨S50000x64, .f32⟩ : BufTy).Contents (Elt F)) (Host.dotGeneral dot_S50000x64_S64x64_S50000x64_1_0_0_1_n_n none (after ops V (Proc.devRef .tc main_v13)) (V (Proc.devRef .tc main_arg2)) : (⟨S50000x64, .f32⟩ : BufTy).Contents (Elt F)) (after ops V (Proc.devRef .tc main_v68))) ((mulf : (⟨S50000x64, .f32⟩ : BufTy).Contents (Elt F) → (⟨S50000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) (constant S_ .f32 0x3C23D70A#32 : (⟨S_, .f32⟩ : BufTy).Contents (Elt F))) ((addf : (⟨S50000x64, .f32⟩ : BufTy).Contents (Elt F) → (⟨S50000x64, .f32⟩ : BufTy).Contents (Elt F) → (⟨S50000x64, .f32⟩ : BufTy).Contents (Elt F)) (Host.dotGeneral dot_S50000x64_S64x64_S50000x64_1_0_0_1_n_n none (after ops V (Proc.devRef .tc main_v13)) (V (Proc.devRef .tc main_arg2)) : (⟨S50000x64, .f32⟩ : BufTy).Contents (Elt F)) (after ops V (Proc.devRef .tc main_v68))))) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c1_5_main_v71]
theorem val_v71 (m : (ℓ : Loc nD τ sig) → Buf (Elt F) ℓ) (d : Dev nD) :
    after ops (launchContents m d) (Proc.devRef .tc main_v71) =
      ((select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)) ((cmpf .oge : (⟨S50000x64, .f32⟩ : BufTy).Contents (Elt F) → (⟨S50000x64, .f32⟩ : BufTy).Contents (Elt F) → (⟨S50000x64, .i1⟩ : BufTy).Contents (Elt F)) ((addf : (⟨S50000x64, .f32⟩ : BufTy).Contents (Elt F) → (⟨S50000x64, .f32⟩ : BufTy).Contents (Elt F) → (⟨S50000x64, .f32⟩ : BufTy).Contents (Elt F)) (Host.dotGeneral dot_S50000x64_S64x64_S50000x64_1_0_0_1_n_n none (after ops (launchContents m d) (Proc.devRef .tc main_v13)) ((launchContents m d) (Proc.devRef .tc main_arg2)) : (⟨S50000x64, .f32⟩ : BufTy).Contents (Elt F)) (after ops (launchContents m d) (Proc.devRef .tc main_v68))) ((broadcastInDim S50000x64 ![] bcast_S_S50000x64 : (⟨S_, .f32⟩ : BufTy).Contents (Elt F) → (⟨S50000x64, .f32⟩ : BufTy).Contents (Elt F)) (constant S_ .f32 0x00000000#32 : (⟨S_, .f32⟩ : BufTy).Contents (Elt F)))) ((addf : (⟨S50000x64, .f32⟩ : BufTy).Contents (Elt F) → (⟨S50000x64, .f32⟩ : BufTy).Contents (Elt F) → (⟨S50000x64, .f32⟩ : BufTy).Contents (Elt F)) (Host.dotGeneral dot_S50000x64_S64x64_S50000x64_1_0_0_1_n_n none (after ops (launchContents m d) (Proc.devRef .tc main_v13)) ((launchContents m d) (Proc.devRef .tc main_arg2)) : (⟨S50000x64, .f32⟩ : BufTy).Contents (Elt F)) (after ops (launchContents m d) (Proc.devRef .tc main_v68))) ((mulf : (⟨S50000x64, .f32⟩ : BufTy).Contents (Elt F) → (⟨S50000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) (constant S_ .f32 0x3C23D70A#32 : (⟨S_, .f32⟩ : BufTy).Contents (Elt F))) ((addf : (⟨S50000x64, .f32⟩ : BufTy).Contents (Elt F) → (⟨S50000x64, .f32⟩ : BufTy).Contents (Elt F) → (⟨S50000x64, .f32⟩ : BufTy).Contents (Elt F)) (Host.dotGeneral dot_S50000x64_S64x64_S50000x64_1_0_0_1_n_n none (after ops (launchContents m d) (Proc.devRef .tc main_v13)) ((launchContents m d) (Proc.devRef .tc main_arg2)) : (⟨S50000x64, .f32⟩ : BufTy).Contents (Elt F)) (after ops (launchContents m d) (Proc.devRef .tc main_v68))))) :=
  valV_v71 (launchContents m d)

end Cert.ReferenceIdeal.RefRun

end
-- ==== Proof.Val.HostOps.lean ====
/-
  The reference's host operations read at an index, at the extended reals: its three plain products ([100000,64], [50000,64]
  and [1000000,64] by [64,64]) as sums over the contracted coordinate, the tail of its leaky rectifier (a select on the weak
  comparison with zero) as a function of one element, and its final sum over the 192 features of a row.
-/
import proofs.«126583_j73280732004963_1_alg».proof.ReferenceIdeal
import proofs.«126583_j73280732004963_1_alg».proof.Proof.Val.Mat
import proofs.«126583_j73280732004963_1_alg».proof.Proof.Val.Spec
import Idealize.ShloMosaic.PureOps.Ideal.Laws
import Idealize.ShloMosaic.Lib.ValueIdx

noncomputable section

namespace Cert.Val

open Idealize.ShloMosaic ValueIdx Cert.ReferenceIdeal

/-! ## The leaky rectifier, with the weak comparison -/

/-- The leaky rectifier with the reference's weak comparison: `s` where `s ≥ 0`, else the slope literal times `s`. -/
def leaky' (s : Elt Ideal .f32) : Elt Ideal .f32 :=
  if (0 : EReal) ≤ (s : EReal) then s else (Ideal.ofBits .f32 0x3C23D70A#32 : Elt Ideal .f32) * s

/-- The strict and the weak form agree: they differ only at `s = 0`, where the strict form answers the slope times zero,
    which is zero on the extended reals. -/
theorem leaky_eq (s : EReal) : leaky s = leaky' s := by
  unfold leaky leaky'
  rcases lt_trichotomy (0 : EReal) s with h | h | h
  · rw [if_pos h, if_pos h.le]
  · subst h
    rw [if_neg (lt_irrefl _), if_pos le_rfl, mul_zero]
  · rw [if_neg (not_lt.2 h.le), if_neg (not_le.2 h)]

/-- The reference's select on the weak comparison with zero, at one extended real: the weak-form leaky rectifier. The
    comparison's bit is 1 exactly when 0 ≤ s. -/
theorem leaky'_select (s : EReal) :
    Scalar.select (FloatOps.cmpf (F := Ideal) (φ := .f32) .oge s (Ideal.ofBits .f32 0x00000000#32)) s
      (FloatOps.mulf (F := Ideal) (φ := .f32) (Ideal.ofBits .f32 0x3C23D70A#32) s) = leaky' s := by
  show Scalar.select (Ideal.cmp .oge s (Ideal.ofBits .f32 0x00000000#32)) s (Ideal.ofBits .f32 0x3C23D70A#32 * s) = _
  rw [Ideal.ofBits_zero_f32]
  unfold leaky' Ideal.cmp Scalar.select
  by_cases h : (0 : EReal) ≤ s
  · simp [h]
  · simp [h]

/-- The tail of the reference's leaky rectifier over an array of any shape, read at an index: the two scalar constants are
    broadcast to the shape, so at every index the comparison is with zero and the product is with the slope. -/
theorem leakyTail_apply {S : Shape} (h : S_.BroadcastsInDim S (![] : Fin 0 → Fin S.rank)) (s : FVec Ideal S .f32) (i : S.Idx) :
    select (cmpf .oge s (broadcastInDim S ![] h (constant (F := Ideal) S_ .f32 0x00000000#32))) s
      (mulf (broadcastInDim S ![] h (constant (F := Ideal) S_ .f32 0x3C23D70A#32)) s) i = leaky' (s i) :=
  leaky'_select (s i)

/-- The same as an equation between arrays. -/
theorem leakyTail_eq {S : Shape} (h : S_.BroadcastsInDim S (![] : Fin 0 → Fin S.rank)) (s : FVec Ideal S .f32) :
    select (cmpf .oge s (broadcastInDim S ![] h (constant (F := Ideal) S_ .f32 0x00000000#32))) s
      (mulf (broadcastInDim S ![] h (constant (F := Ideal) S_ .f32 0x3C23D70A#32)) s) = fun i => leaky' (s i) :=
  funext fun i => leakyTail_apply h s i

section Records
variable [Facts₀]
open Facts₀

/-! ## The three plain products -/

/-- The [100000,64] by [64,64] product at (p, q). -/
theorem hostDot100000_apply (x : Vec Ideal S100000x64 .f32) (w : Vec Ideal S64x64 .f32) (p : Fin 100000) (q : Fin 64) :
    Host.dotGeneral (F := Ideal) (φ₁ := .f32) (φ₂ := .f32) dot_S100000x64_S64x64_S100000x64_1_0_0_1_n_n none x w (ix2 p q)
      = ∑ k : Fin 64, x (ix2 p k) * w (ix2 k q) := by
  rw [show dot_S100000x64_S64x64_S100000x64_1_0_0_1_n_n = DotDims.plain 100000 64 64 from rfl]
  exact hostDot_plain_apply none x w p q

/-- The [50000,64] by [64,64] product at (p, q). -/
theorem hostDot50000_apply (x : Vec Ideal S50000x64 .f32) (w : Vec Ideal S64x64 .f32) (p : Fin 50000) (q : Fin 64) :
    Host.dotGeneral (F := Ideal) (φ₁ := .f32) (φ₂ := .f32) dot_S50000x64_S64x64_S50000x64_1_0_0_1_n_n none x w (ix2 p q)
      = ∑ k : Fin 64, x (ix2 p k) * w (ix2 k q) := by
  rw [show dot_S50000x64_S64x64_S50000x64_1_0_0_1_n_n = DotDims.plain 50000 64 64 from rfl]
  exact hostDot_plain_apply none x w p q

/-- The [1000000,64] by [64,64] product at (p, q). -/
theorem hostDot1000000_apply (x : Vec Ideal S1000000x64 .f32) (w : Vec Ideal S64x64 .f32) (p : Fin 1000000) (q : Fin 64) :
    Host.dotGeneral (F := Ideal) (φ₁ := .f32) (φ₂ := .f32) dot_S1000000x64_S64x64_S1000000x64_1_0_0_1_n_n none x w (ix2 p q)
      = ∑ k : Fin 64, x (ix2 p k) * w (ix2 k q) := by
  rw [show dot_S1000000x64_S64x64_S1000000x64_1_0_0_1_n_n = DotDims.plain 1000000 64 64 from rfl]
  exact hostDot_plain_apply none x w p q

/-! ## The leaky rectifier's tail at the reference's two shapes -/

/-- The tail over a [50000,64] array at an index. -/
theorem leakyTail50000_apply (s : FVec Ideal S50000x64 .f32) (i : S50000x64.Idx) :
    select (cmpf .oge s (broadcastInDim S50000x64 ![] bcast_S_S50000x64 (constant (F := Ideal) S_ .f32 0x00000000#32))) s
      (mulf (broadcastInDim S50000x64 ![] bcast_S_S50000x64 (constant (F := Ideal) S_ .f32 0x3C23D70A#32)) s) i = leaky' (s i) :=
  leaky'_select (s i)

/-- The tail over a [100000,64] array at an index. -/
theorem leakyTail100000_apply (s : FVec Ideal S100000x64 .f32) (i : S100000x64.Idx) :
    select (cmpf .oge s (broadcastInDim S100000x64 ![] bcast_S_S100000x64 (constant (F := Ideal) S_ .f32 0x00000000#32))) s
      (mulf (broadcastInDim S100000x64 ![] bcast_S_S100000x64 (constant (F := Ideal) S_ .f32 0x3C23D70A#32)) s) i = leaky' (s i) :=
  leaky'_select (s i)

/-! ## The final sum over the features of a row -/

/-- The host's sum of a [500000,192] array over axis 1, from any scalar initial value, at row `r`: the initial value plus the
    sum of the row. -/
theorem hostRowSum_apply (x : FVec Ideal S500000x192 .f32) (init : FVec Ideal S_ .f32) (r : Fin 500000) :
    Host.reduceAdd (F := Ideal) x init reducesTo_S500000x192_S500000_d1 h_S_ (ix1 r)
      = init ix0 + ∑ k : Fin 192, x (ix2 r k) := by
  simp only [Host.reduceAdd, Ideal.hostReduceAdd_def]
  rw [Ideal.hostReduceAdd_single reducesTo_S500000x192_S500000_d1 (by decide)]
  refine congrArg₂ (· + ·) (congrArg init (funext fun a => a.elim0)) (Finset.sum_congr rfl fun k _ => ?_)
  exact congrArg x (funext fun a => Fin.ext (by
    match a with
    | ⟨0, _⟩ => rfl
    | ⟨1, _⟩ => rfl))

/-- From the zero constant: the sum of the row. -/
theorem hostRowSum_zero_apply (x : FVec Ideal S500000x192 .f32) (r : Fin 500000) :
    Host.reduceAdd (F := Ideal) x (constant (F := Ideal) S_ .f32 0x00000000#32) reducesTo_S500000x192_S500000_d1 h_S_ (ix1 r)
      = ∑ k : Fin 192, x (ix2 r k) := by
  rw [hostRowSum_apply, constant_apply, Ideal.ofBits_zero_f32, zero_add]

/-- The reference's last two operations: the sum over the features of the elementwise product of two [500000,192] arrays,
    at row `r`. -/
theorem hostRowDot_apply (a b : FVec Ideal S500000x192 .f32) (r : Fin 500000) :
    Host.reduceAdd (F := Ideal) (mulf a b) (constant (F := Ideal) S_ .f32 0x00000000#32) reducesTo_S500000x192_S500000_d1 h_S_ (ix1 r)
      = ∑ k : Fin 192, a (ix2 r k) * b (ix2 r k) :=
  hostRowSum_zero_apply (mulf a b) r

end Records

end Cert.Val

end
-- ==== Proof.Val.Bridge.lean ====
/-
  The whole-array functions of the kernels' results are the reference's host terms, as arrays: the products are its
  `dot_general`s, the edge message is its broadcast weight column times (source plus projected product), the self-loop
  update is its leaky rectifier of product plus aggregate (the strict and the weak comparison agree), and the score column,
  flattened, is its sum over the features of the elementwise product.
-/
import proofs.«126583_j73280732004963_1_alg».proof.ReferenceIdeal
import proofs.«126583_j73280732004963_1_alg».proof.Proof.Val.Spec
import proofs.«126583_j73280732004963_1_alg».proof.Proof.Val.HostOps
import proofs.«126583_j73280732004963_1_alg».proof.Proof.LibColumn
import Idealize.ShloMosaic.Lib.Pipeline.Value

noncomputable section

namespace Cert.Val

open Idealize.ShloMosaic ValueIdx Cert.ReferenceIdeal

section Records
variable [Facts₀]
open Facts₀

/-! ## The products -/

/-- The whole-array product of a [100000,64] array with the weight matrix is the reference's `dot_general` of the two. -/
theorem Glin_host100000 (x : Vec Ideal S100000x64 .f32) (w : Vec Ideal S64x64 .f32) :
    Glin (a := 100000) x w
      = Host.dotGeneral (F := Ideal) (φ₁ := .f32) (φ₂ := .f32) dot_S100000x64_S64x64_S100000x64_1_0_0_1_n_n none x w := by
  funext i
  obtain ⟨p, q, rfl⟩ : ∃ (p : Fin 100000) (q : Fin 64), i = ix2 p q := ⟨i 0, i 1, eq_ix2 i⟩
  rw [hostDot100000_apply]
  rfl

/-- The whole-array product of a [50000,64] array with the weight matrix is the reference's `dot_general` of the two. -/
theorem Glin_host50000 (x : Vec Ideal S50000x64 .f32) (w : Vec Ideal S64x64 .f32) :
    Glin (a := 50000) x w
      = Host.dotGeneral (F := Ideal) (φ₁ := .f32) (φ₂ := .f32) dot_S50000x64_S64x64_S50000x64_1_0_0_1_n_n none x w := by
  funext i
  obtain ⟨p, q, rfl⟩ : ∃ (p : Fin 50000) (q : Fin 64), i = ix2 p q := ⟨i 0, i 1, eq_ix2 i⟩
  rw [hostDot50000_apply]
  rfl

/-! ## The edge message -/

/-- The reference's weight column — the weights [1000000] broadcast to [1000000,1], then along the rows to [1000000,64] —
    read at (p, q): the weight of edge p. -/
theorem weightColumn_apply (wv : Vec Ideal S1000000 .f32) (p : Fin 1000000) (q : Fin 64) :
    broadcastInDim S1000000x64 ![0, 1] bcast_S1000000x1_S1000000x64_0_1
        (broadcastInDim S1000000x1 ![0] bcast_S1000000_S1000000x1_0 wv) (ix2 p q) = wv (ix1 p) :=
  (broadcastInDim_apply _ bcast_S1000000x1_S1000000x64_0_1 _ (ix2 p q) (ix2 p (0 : Fin 1)) (fun a => by
      match a with
      | ⟨0, _⟩ => rfl
      | ⟨1, _⟩ => rfl)).trans
    (broadcastInDim_apply _ bcast_S1000000_S1000000x1_0 wv (ix2 p (0 : Fin 1)) (ix1 p) (fun a => by
      match a with
      | ⟨0, _⟩ => rfl))

/-- The whole-array edge message over the weights reshaped to a column is the reference's term: its broadcast weight
    column times (the projected source rows plus the `dot_general` of the elementwise product of the gathered rows). Both
    columns read the weight of edge p at (p, q). -/
theorem Gedge_host (z xs xd : Vec Ideal S1000000x64 .f32) (wv : Vec Ideal S1000000 .f32) (W : Vec Ideal S64x64 .f32)
    (hc : S1000000.ShapeCasts S1000000x1) :
    Gedge (a := 1000000) z xs xd (fun i => shapeCast S1000000x1 wv hc i) W
      = mulf (broadcastInDim S1000000x64 ![0, 1] bcast_S1000000x1_S1000000x64_0_1
            (broadcastInDim S1000000x1 ![0] bcast_S1000000_S1000000x1_0 wv))
          (addf z (Host.dotGeneral (F := Ideal) (φ₁ := .f32) (φ₂ := .f32) dot_S1000000x64_S64x64_S1000000x64_1_0_0_1_n_n none
            (mulf xs xd) W)) := by
  funext i
  obtain ⟨p, q, rfl⟩ : ∃ (p : Fin 1000000) (q : Fin 64), i = ix2 p q := ⟨i 0, i 1, eq_ix2 i⟩
  rw [mulf_apply, addf_apply, hostDot1000000_apply, weightColumn_apply]
  show shapeCast S1000000x1 wv hc (ix2 p (0 : Fin 1)) * _ = _
  rw [ColumnIdx.shapeCast_a_a1_apply]
  rfl

/-! ## The self-loop update -/

/-- The whole-array self-loop update over [50000,64] is the reference's leaky rectifier (the weak comparison: the two forms
    agree) of its `dot_general` plus the aggregate. -/
theorem Gself_host50000 (x : Vec Ideal S50000x64 .f32) (W : Vec Ideal S64x64 .f32) (zs : Vec Ideal S50000x64 .f32) :
    Gself (a := 50000) x W zs
      = select (cmpf .oge (addf (Host.dotGeneral (F := Ideal) (φ₁ := .f32) (φ₂ := .f32) dot_S50000x64_S64x64_S50000x64_1_0_0_1_n_n none x W) zs)
            (broadcastInDim S50000x64 ![] bcast_S_S50000x64 (constant (F := Ideal) S_ .f32 0x00000000#32)))
          (addf (Host.dotGeneral (F := Ideal) (φ₁ := .f32) (φ₂ := .f32) dot_S50000x64_S64x64_S50000x64_1_0_0_1_n_n none x W) zs)
          (mulf (broadcastInDim S50000x64 ![] bcast_S_S50000x64 (constant (F := Ideal) S_ .f32 0x3C23D70A#32))
            (addf (Host.dotGeneral (F := Ideal) (φ₁ := .f32) (φ₂ := .f32) dot_S50000x64_S64x64_S50000x64_1_0_0_1_n_n none x W) zs)) := by
  funext i
  obtain ⟨p, q, rfl⟩ : ∃ (p : Fin 50000) (q : Fin 64), i = ix2 p q := ⟨i 0, i 1, eq_ix2 i⟩
  rw [leakyTail50000_apply, addf_apply, hostDot50000_apply, ← leaky_eq]
  rfl

/-- The whole-array self-loop update over [100000,64] is the reference's leaky rectifier (the weak comparison: the two forms
    agree) of its `dot_general` plus the aggregate. -/
theorem Gself_host100000 (x : Vec Ideal S100000x64 .f32) (W : Vec Ideal S64x64 .f32) (zs : Vec Ideal S100000x64 .f32) :
    Gself (a := 100000) x W zs
      = select (cmpf .oge (addf (Host.dotGeneral (F := Ideal) (φ₁ := .f32) (φ₂ := .f32) dot_S100000x64_S64x64_S100000x64_1_0_0_1_n_n none x W) zs)
            (broadcastInDim S100000x64 ![] bcast_S_S100000x64 (constant (F := Ideal) S_ .f32 0x00000000#32)))
          (addf (Host.dotGeneral (F := Ideal) (φ₁ := .f32) (φ₂ := .f32) dot_S100000x64_S64x64_S100000x64_1_0_0_1_n_n none x W) zs)
          (mulf (broadcastInDim S100000x64 ![] bcast_S_S100000x64 (constant (F := Ideal) S_ .f32 0x3C23D70A#32))
            (addf (Host.dotGeneral (F := Ideal) (φ₁ := .f32) (φ₂ := .f32) dot_S100000x64_S64x64_S100000x64_1_0_0_1_n_n none x W) zs)) := by
  funext i
  obtain ⟨p, q, rfl⟩ : ∃ (p : Fin 100000) (q : Fin 64), i = ix2 p q := ⟨i 0, i 1, eq_ix2 i⟩
  rw [leakyTail100000_apply, addf_apply, hostDot100000_apply, ← leaky_eq]
  rfl

/-! ## The score -/

/-- The whole-array score column [500000,1], flattened to [500000], is the reference's sum over the features of the
    elementwise product of the two gathered arrays. -/
theorem Gdot_host (hu hi : Vec Ideal S500000x192 .f32) (hc : S500000x1.ShapeCasts S500000) :
    (fun i => shapeCast S500000 (Gdot (a := 500000) hu hi) hc i)
      = Host.reduceAdd (F := Ideal) (mulf hu hi) (constant (F := Ideal) S_ .f32 0x00000000#32)
          reducesTo_S500000x192_S500000_d1 h_S_ := by
  funext i
  obtain ⟨r, rfl⟩ : ∃ r : Fin 500000, i = ix1 r := ⟨i 0, eq_ix1 i⟩
  rw [hostRowDot_apply]
  show shapeCast S500000 (Gdot (a := 500000) hu hi) hc (ix1 r) = _
  rw [ColumnIdx.shapeCast_a1_a_apply]
  rfl

end Records

end Cert.Val

end
-- ==== Proof.Sim.CellA.lean ====
/- One message-passing cell, buffer by buffer: the projected source table (a kernel launch against the reference's matrix product), the three
   gathered edge tables (the same gathers on both sides), the per-edge messages (a launch against the reference's broadcast, product and sum),
   their aggregation by destination (the same scatter-add), and the self-loop update (a launch against the reference's product, sum and leaky
   rectifier, which agree also at zero). -/
import proofs.«126583_j73280732004963_1_alg».proof.Proof.Sim.Base
import proofs.«126583_j73280732004963_1_alg».proof.Proof.Ref.Cell1
import proofs.«126583_j73280732004963_1_alg».proof.Proof.Val.Bridge
import Idealize.ShloMosaic.Lib.StableHlo.Run

set_option maxRecDepth 16384

noncomputable section

namespace Cert.Sim

open Idealize.ShloMosaic Idealize.ShloMosaic.TcCoe Idealize.SL.Sem Idealize.ShloMosaic.StableHlo ValueIdx
open Cert.KernelIdeal.Hand Cert.Val

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

variable {m m' c}

theorem sim_v6_2 (hag : Agree m m' c) : ((W2 m ρ c (Proc.devRef .tc Cert.KernelIdeal.main_v6)) : (Sh 100000 64).Idx → Elt Ideal .f32) = (StableHlo.after Cert.ReferenceIdeal.RefRun.ops (StableHlo.launchContents m' c) (Proc.devRef .tc Cert.ReferenceIdeal.main_v6)) :=
  (Wkeep_1_2 m ρ c Cert.KernelIdeal.main_v6 (by decide) ).trans (sim_v6 ρ hag)

theorem sim_v13_2 (hag : Agree m m' c) : ((W2 m ρ c (Proc.devRef .tc Cert.KernelIdeal.main_v13)) : (Sh 50000 64).Idx → Elt Ideal .f32) = (StableHlo.after Cert.ReferenceIdeal.RefRun.ops (StableHlo.launchContents m' c) (Proc.devRef .tc Cert.ReferenceIdeal.main_v13)) :=
  (Wkeep_1_2 m ρ c Cert.KernelIdeal.main_v13 (by decide) ).trans (sim_v13 ρ hag)

theorem sim_v13_5 (hag : Agree m m' c) : ((W5 m ρ c (Proc.devRef .tc Cert.KernelIdeal.main_v13)) : (Sh 50000 64).Idx → Elt Ideal .f32) = (StableHlo.after Cert.ReferenceIdeal.RefRun.ops (StableHlo.launchContents m' c) (Proc.devRef .tc Cert.ReferenceIdeal.main_v13)) :=
  (Wkeep_1_5 m ρ c Cert.KernelIdeal.main_v13 (by decide) (by decide) (by decide) (by decide) ).trans (sim_v13 ρ hag)

theorem sim_v38_3 (hag : Agree m m' c) : ((W3 m ρ c (Proc.devRef .tc Cert.KernelIdeal.main_v38)) : (Sh 1000000 1).Idx → Elt Ideal .f32) = fun i => shapeCast Cert.ReferenceIdeal.S1000000x1 (StableHlo.after Cert.ReferenceIdeal.RefRun.ops (StableHlo.launchContents m' c) (Proc.devRef .tc Cert.ReferenceIdeal.main_v37)) Cert.KernelIdeal.Gen.shapeCasts_S1000000_S1000000x1 i :=
  (Wkeep_1_3 m ρ c Cert.KernelIdeal.main_v38 (by decide) (by decide) ).trans (sim_v38 ρ hag)

set_option maxHeartbeats 4000000 in
/-- The projected source table. -/
theorem sim_v39 (hag : Agree m m' c) :
    ((W2 m ρ c (Proc.devRef .tc Cert.KernelIdeal.main_v39)) : (Sh 100000 64).Idx → Elt Ideal .f32) = (StableHlo.after Cert.ReferenceIdeal.RefRun.ops (StableHlo.launchContents m' c) (Proc.devRef .tc Cert.ReferenceIdeal.main_v38)) := by
  refine (fin0 m ρ c).trans ?_
  rw [sim_v6 ρ hag, W1_arg2 m ρ c, ← hag.a2, Cert.ReferenceIdeal.RefRun.val_v38 m' c]
  exact Glin_host100000 _ _

set_option maxHeartbeats 4000000 in
/-- A gathered edge table. -/
theorem sim_v46 (hag : Agree m m' c) :
    ((W3 m ρ c (Proc.devRef .tc Cert.KernelIdeal.main_v46)) : (Sh 1000000 64).Idx → Elt Ideal .f32) = (StableHlo.after Cert.ReferenceIdeal.RefRun.ops (StableHlo.launchContents m' c) (Proc.devRef .tc Cert.ReferenceIdeal.main_v45)) := by
  generalize hR : (StableHlo.after Cert.ReferenceIdeal.RefRun.ops (StableHlo.launchContents m' c) (Proc.devRef .tc Cert.ReferenceIdeal.main_v45)) = rhs
  after_results_simp
  subst hR
  rw [sim_v39 ρ hag, W2_arg12 m ρ c, ← hag.a12]
  rw [Cert.ReferenceIdeal.RefRun.val_v45 m' c]
  rfl

set_option maxHeartbeats 4000000 in
/-- A gathered edge table. -/
theorem sim_v53 (hag : Agree m m' c) :
    ((W3 m ρ c (Proc.devRef .tc Cert.KernelIdeal.main_v53)) : (Sh 1000000 64).Idx → Elt Ideal .f32) = (StableHlo.after Cert.ReferenceIdeal.RefRun.ops (StableHlo.launchContents m' c) (Proc.devRef .tc Cert.ReferenceIdeal.main_v52)) := by
  generalize hR : (StableHlo.after Cert.ReferenceIdeal.RefRun.ops (StableHlo.launchContents m' c) (Proc.devRef .tc Cert.ReferenceIdeal.main_v52)) = rhs
  after_results_simp
  subst hR
  rw [sim_v6_2 ρ hag, W2_arg12 m ρ c, ← hag.a12]
  rw [Cert.ReferenceIdeal.RefRun.val_v52 m' c]
  rfl

set_option maxHeartbeats 4000000 in
/-- A gathered edge table. -/
theorem sim_v60 (hag : Agree m m' c) :
    ((W3 m ρ c (Proc.devRef .tc Cert.KernelIdeal.main_v60)) : (Sh 1000000 64).Idx → Elt Ideal .f32) = (StableHlo.after Cert.ReferenceIdeal.RefRun.ops (StableHlo.launchContents m' c) (Proc.devRef .tc Cert.ReferenceIdeal.main_v59)) := by
  generalize hR : (StableHlo.after Cert.ReferenceIdeal.RefRun.ops (StableHlo.launchContents m' c) (Proc.devRef .tc Cert.ReferenceIdeal.main_v59)) = rhs
  after_results_simp
  subst hR
  rw [sim_v13_2 ρ hag, W2_arg13 m ρ c, ← hag.a13]
  rw [Cert.ReferenceIdeal.RefRun.val_v59 m' c]
  rfl

set_option maxHeartbeats 4000000 in
/-- The per-edge messages. -/
theorem sim_v61 (hag : Agree m m' c) :
    ((W4 m ρ c (Proc.devRef .tc Cert.KernelIdeal.main_v61)) : (Sh 1000000 64).Idx → Elt Ideal .f32) = (StableHlo.after Cert.ReferenceIdeal.RefRun.ops (StableHlo.launchContents m' c) (Proc.devRef .tc Cert.ReferenceIdeal.main_v65)) := by
  refine (fin1 m ρ c).trans ?_
  rw [sim_v46 ρ hag, sim_v53 ρ hag, sim_v60 ρ hag, sim_v38_3 ρ hag, W3_arg3 m ρ c, ← hag.a3, Cert.ReferenceIdeal.RefRun.val_v65 m' c]
  exact Gedge_host _ _ _ _ _ _

set_option maxHeartbeats 4000000 in
/-- The messages aggregated by destination. -/
theorem sim_v64 (hag : Agree m m' c) :
    ((W5 m ρ c (Proc.devRef .tc Cert.KernelIdeal.main_v64)) : (Sh 50000 64).Idx → Elt Ideal .f32) = (StableHlo.after Cert.ReferenceIdeal.RefRun.ops (StableHlo.launchContents m' c) (Proc.devRef .tc Cert.ReferenceIdeal.main_v68)) := by
  generalize hR : (StableHlo.after Cert.ReferenceIdeal.RefRun.ops (StableHlo.launchContents m' c) (Proc.devRef .tc Cert.ReferenceIdeal.main_v68)) = rhs
  after_results_simp
  subst hR
  rw [sim_v61 ρ hag, W4_arg13 m ρ c, ← hag.a13]
  rw [Cert.ReferenceIdeal.RefRun.val_v68 m' c]
  rfl

set_option maxHeartbeats 4000000 in
/-- The self-loop update. -/
theorem sim_v65 (hag : Agree m m' c) :
    ((W6 m ρ c (Proc.devRef .tc Cert.KernelIdeal.main_v65)) : (Sh 50000 64).Idx → Elt Ideal .f32) = (StableHlo.after Cert.ReferenceIdeal.RefRun.ops (StableHlo.launchContents m' c) (Proc.devRef .tc Cert.ReferenceIdeal.main_v71)) := by
  refine (fin2 m ρ c).trans ?_
  rw [sim_v13_5 ρ hag, W5_arg2 m ρ c, ← hag.a2, sim_v64 ρ hag, Cert.ReferenceIdeal.RefRun.val_v71 m' c]
  exact Gself_host50000 _ _ _

end Cert.Sim

end
-- ==== Proof.Ref.Cell2.lean ====
/- One-step values of the reference's run: what each of these buffers holds after @main's 261 operations, as the printed operations' term of the previous key buffers' values after the run and of the argument arrays. -/
import proofs.«126583_j73280732004963_1_alg».proof.Proof.Ref.Chain

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
theorem valV_v72 (V : Valuation τ sig (Elt F)) :
    after ops V (Proc.devRef .tc main_v72) =
      (Host.dotGeneral dot_S50000x64_S64x64_S50000x64_1_0_0_1_n_n none (after ops V (Proc.devRef .tc main_v13)) (V (Proc.devRef .tc main_arg4)) : (⟨S50000x64, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c1_6_main_v72]
theorem val_v72 (m : (ℓ : Loc nD τ sig) → Buf (Elt F) ℓ) (d : Dev nD) :
    after ops (launchContents m d) (Proc.devRef .tc main_v72) =
      (Host.dotGeneral dot_S50000x64_S64x64_S50000x64_1_0_0_1_n_n none (after ops (launchContents m d) (Proc.devRef .tc main_v13)) ((launchContents m d) (Proc.devRef .tc main_arg4)) : (⟨S50000x64, .f32⟩ : BufTy).Contents (Elt F)) :=
  valV_v72 (launchContents m d)

set_option maxRecDepth 8192 in
set_option maxHeartbeats 2000000 in
theorem valV_v79 (V : Valuation τ sig (Elt F)) :
    after ops V (Proc.devRef .tc main_v79) =
      (Host.gather gather_S50000x64_S1000000x1_S1000000x64_1_0_n_n_0_1_164 (after ops V (Proc.devRef .tc main_v72)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (V (Proc.devRef .tc main_arg13)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (V (Proc.devRef .tc main_arg13)) ((broadcastInDim S1000000 ![] bcast_S_S1000000 : (⟨S_, .i32⟩ : BufTy).Contents (Elt F) → (⟨S1000000, .i32⟩ : BufTy).Contents (Elt F)) (constantI S_ 32 50000#32 : (⟨S_, .i32⟩ : BufTy).Contents (Elt F)))) (V (Proc.devRef .tc main_arg13)))) : (⟨S1000000x64, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c1_7_main_v79]
theorem val_v79 (m : (ℓ : Loc nD τ sig) → Buf (Elt F) ℓ) (d : Dev nD) :
    after ops (launchContents m d) (Proc.devRef .tc main_v79) =
      (Host.gather gather_S50000x64_S1000000x1_S1000000x64_1_0_n_n_0_1_164 (after ops (launchContents m d) (Proc.devRef .tc main_v72)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) ((launchContents m d) (Proc.devRef .tc main_arg13)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) ((launchContents m d) (Proc.devRef .tc main_arg13)) ((broadcastInDim S1000000 ![] bcast_S_S1000000 : (⟨S_, .i32⟩ : BufTy).Contents (Elt F) → (⟨S1000000, .i32⟩ : BufTy).Contents (Elt F)) (constantI S_ 32 50000#32 : (⟨S_, .i32⟩ : BufTy).Contents (Elt F)))) ((launchContents m d) (Proc.devRef .tc main_arg13)))) : (⟨S1000000x64, .f32⟩ : BufTy).Contents (Elt F)) :=
  valV_v79 (launchContents m d)

set_option maxRecDepth 8192 in
set_option maxHeartbeats 2000000 in
theorem valV_v86 (V : Valuation τ sig (Elt F)) :
    after ops V (Proc.devRef .tc main_v86) =
      (Host.gather gather_S50000x64_S1000000x1_S1000000x64_1_0_n_n_0_1_164 (after ops V (Proc.devRef .tc main_v13)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (V (Proc.devRef .tc main_arg13)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (V (Proc.devRef .tc main_arg13)) ((broadcastInDim S1000000 ![] bcast_S_S1000000 : (⟨S_, .i32⟩ : BufTy).Contents (Elt F) → (⟨S1000000, .i32⟩ : BufTy).Contents (Elt F)) (constantI S_ 32 50000#32 : (⟨S_, .i32⟩ : BufTy).Contents (Elt F)))) (V (Proc.devRef .tc main_arg13)))) : (⟨S1000000x64, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c1_8_main_v86]
theorem val_v86 (m : (ℓ : Loc nD τ sig) → Buf (Elt F) ℓ) (d : Dev nD) :
    after ops (launchContents m d) (Proc.devRef .tc main_v86) =
      (Host.gather gather_S50000x64_S1000000x1_S1000000x64_1_0_n_n_0_1_164 (after ops (launchContents m d) (Proc.devRef .tc main_v13)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) ((launchContents m d) (Proc.devRef .tc main_arg13)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) ((launchContents m d) (Proc.devRef .tc main_arg13)) ((broadcastInDim S1000000 ![] bcast_S_S1000000 : (⟨S_, .i32⟩ : BufTy).Contents (Elt F) → (⟨S1000000, .i32⟩ : BufTy).Contents (Elt F)) (constantI S_ 32 50000#32 : (⟨S_, .i32⟩ : BufTy).Contents (Elt F)))) ((launchContents m d) (Proc.devRef .tc main_arg13)))) : (⟨S1000000x64, .f32⟩ : BufTy).Contents (Elt F)) :=
  valV_v86 (launchContents m d)

set_option maxRecDepth 8192 in
set_option maxHeartbeats 2000000 in
theorem valV_v93 (V : Valuation τ sig (Elt F)) :
    after ops V (Proc.devRef .tc main_v93) =
      (Host.gather gather_S100000x64_S1000000x1_S1000000x64_1_0_n_n_0_1_164 (after ops V (Proc.devRef .tc main_v6)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (V (Proc.devRef .tc main_arg12)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (V (Proc.devRef .tc main_arg12)) ((broadcastInDim S1000000 ![] bcast_S_S1000000 : (⟨S_, .i32⟩ : BufTy).Contents (Elt F) → (⟨S1000000, .i32⟩ : BufTy).Contents (Elt F)) (constantI S_ 32 100000#32 : (⟨S_, .i32⟩ : BufTy).Contents (Elt F)))) (V (Proc.devRef .tc main_arg12)))) : (⟨S1000000x64, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c1_9_main_v93]
theorem val_v93 (m : (ℓ : Loc nD τ sig) → Buf (Elt F) ℓ) (d : Dev nD) :
    after ops (launchContents m d) (Proc.devRef .tc main_v93) =
      (Host.gather gather_S100000x64_S1000000x1_S1000000x64_1_0_n_n_0_1_164 (after ops (launchContents m d) (Proc.devRef .tc main_v6)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) ((launchContents m d) (Proc.devRef .tc main_arg12)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) ((launchContents m d) (Proc.devRef .tc main_arg12)) ((broadcastInDim S1000000 ![] bcast_S_S1000000 : (⟨S_, .i32⟩ : BufTy).Contents (Elt F) → (⟨S1000000, .i32⟩ : BufTy).Contents (Elt F)) (constantI S_ 32 100000#32 : (⟨S_, .i32⟩ : BufTy).Contents (Elt F)))) ((launchContents m d) (Proc.devRef .tc main_arg12)))) : (⟨S1000000x64, .f32⟩ : BufTy).Contents (Elt F)) :=
  valV_v93 (launchContents m d)

set_option maxRecDepth 8192 in
set_option maxHeartbeats 2000000 in
theorem valV_v99 (V : Valuation τ sig (Elt F)) :
    after ops V (Proc.devRef .tc main_v99) =
      ((mulf : (⟨S1000000x64, .f32⟩ : BufTy).Contents (Elt F) → (⟨S1000000x64, .f32⟩ : BufTy).Contents (Elt F) → (⟨S1000000x64, .f32⟩ : BufTy).Contents (Elt F)) ((broadcastInDim S1000000x64 ![0, 1] bcast_S1000000x1_S1000000x64_0_1 : (⟨S1000000x1, .f32⟩ : BufTy).Contents (Elt F) → (⟨S1000000x64, .f32⟩ : BufTy).Contents (Elt F)) ((broadcastInDim S1000000x1 ![0] bcast_S1000000_S1000000x1_0 : (⟨S1000000, .f32⟩ : BufTy).Contents (Elt F) → (⟨S1000000x1, .f32⟩ : BufTy).Contents (Elt F)) (after ops V (Proc.devRef .tc main_v37)))) ((addf : (⟨S1000000x64, .f32⟩ : BufTy).Contents (Elt F) → (⟨S1000000x64, .f32⟩ : BufTy).Contents (Elt F) → (⟨S1000000x64, .f32⟩ : BufTy).Contents (Elt F)) (after ops V (Proc.devRef .tc main_v79)) (Host.dotGeneral dot_S1000000x64_S64x64_S1000000x64_1_0_0_1_n_n none ((mulf : (⟨S1000000x64, .f32⟩ : BufTy).Contents (Elt F) → (⟨S1000000x64, .f32⟩ : BufTy).Contents (Elt F) → (⟨S1000000x64, .f32⟩ : BufTy).Contents (Elt F)) (after ops V (Proc.devRef .tc main_v86)) (after ops V (Proc.devRef .tc main_v93))) (V (Proc.devRef .tc main_arg5)) : (⟨S1000000x64, .f32⟩ : BufTy).Contents (Elt F)))) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c2_1_main_v99, c1_10_main_v94]
theorem val_v99 (m : (ℓ : Loc nD τ sig) → Buf (Elt F) ℓ) (d : Dev nD) :
    after ops (launchContents m d) (Proc.devRef .tc main_v99) =
      ((mulf : (⟨S1000000x64, .f32⟩ : BufTy).Contents (Elt F) → (⟨S1000000x64, .f32⟩ : BufTy).Contents (Elt F) → (⟨S1000000x64, .f32⟩ : BufTy).Contents (Elt F)) ((broadcastInDim S1000000x64 ![0, 1] bcast_S1000000x1_S1000000x64_0_1 : (⟨S1000000x1, .f32⟩ : BufTy).Contents (Elt F) → (⟨S1000000x64, .f32⟩ : BufTy).Contents (Elt F)) ((broadcastInDim S1000000x1 ![0] bcast_S1000000_S1000000x1_0 : (⟨S1000000, .f32⟩ : BufTy).Contents (Elt F) → (⟨S1000000x1, .f32⟩ : BufTy).Contents (Elt F)) (after ops (launchContents m d) (Proc.devRef .tc main_v37)))) ((addf : (⟨S1000000x64, .f32⟩ : BufTy).Contents (Elt F) → (⟨S1000000x64, .f32⟩ : BufTy).Contents (Elt F) → (⟨S1000000x64, .f32⟩ : BufTy).Contents (Elt F)) (after ops (launchContents m d) (Proc.devRef .tc main_v79)) (Host.dotGeneral dot_S1000000x64_S64x64_S1000000x64_1_0_0_1_n_n none ((mulf : (⟨S1000000x64, .f32⟩ : BufTy).Contents (Elt F) → (⟨S1000000x64, .f32⟩ : BufTy).Contents (Elt F) → (⟨S1000000x64, .f32⟩ : BufTy).Contents (Elt F)) (after ops (launchContents m d) (Proc.devRef .tc main_v86)) (after ops (launchContents m d) (Proc.devRef .tc main_v93))) ((launchContents m d) (Proc.devRef .tc main_arg5)) : (⟨S1000000x64, .f32⟩ : BufTy).Contents (Elt F)))) :=
  valV_v99 (launchContents m d)

set_option maxRecDepth 8192 in
set_option maxHeartbeats 2000000 in
theorem valV_v102 (V : Valuation τ sig (Elt F)) :
    after ops V (Proc.devRef .tc main_v102) =
      (Host.scatterAdd scatter_S100000x64_S1000000x1_S1000000x64_1_0_0_1 ((broadcastInDim S100000x64 ![] bcast_S_S100000x64 : (⟨S_, .f32⟩ : BufTy).Contents (Elt F) → (⟨S100000x64, .f32⟩ : BufTy).Contents (Elt F)) (constant S_ .f32 0x00000000#32 : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) (V (Proc.devRef .tc main_arg12))) (after ops V (Proc.devRef .tc main_v99)) : (⟨S100000x64, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c2_2_main_v102]
theorem val_v102 (m : (ℓ : Loc nD τ sig) → Buf (Elt F) ℓ) (d : Dev nD) :
    after ops (launchContents m d) (Proc.devRef .tc main_v102) =
      (Host.scatterAdd scatter_S100000x64_S1000000x1_S1000000x64_1_0_0_1 ((broadcastInDim S100000x64 ![] bcast_S_S100000x64 : (⟨S_, .f32⟩ : BufTy).Contents (Elt F) → (⟨S100000x64, .f32⟩ : BufTy).Contents (Elt F)) (constant S_ .f32 0x00000000#32 : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) ((launchContents m d) (Proc.devRef .tc main_arg12))) (after ops (launchContents m d) (Proc.devRef .tc main_v99)) : (⟨S100000x64, .f32⟩ : BufTy).Contents (Elt F)) :=
  valV_v102 (launchContents m d)

set_option maxRecDepth 8192 in
set_option maxHeartbeats 2000000 in
theorem valV_v105 (V : Valuation τ sig (Elt F)) :
    after ops V (Proc.devRef .tc main_v105) =
      ((select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ((cmpf .oge : (⟨S100000x64, .f32⟩ : BufTy).Contents (Elt F) → (⟨S100000x64, .f32⟩ : BufTy).Contents (Elt F) → (⟨S100000x64, .i1⟩ : BufTy).Contents (Elt F)) ((addf : (⟨S100000x64, .f32⟩ : BufTy).Contents (Elt F) → (⟨S100000x64, .f32⟩ : BufTy).Contents (Elt F) → (⟨S100000x64, .f32⟩ : BufTy).Contents (Elt F)) (Host.dotGeneral dot_S100000x64_S64x64_S100000x64_1_0_0_1_n_n none (after ops V (Proc.devRef .tc main_v6)) (V (Proc.devRef .tc main_arg4)) : (⟨S100000x64, .f32⟩ : BufTy).Contents (Elt F)) (after ops V (Proc.devRef .tc main_v102))) ((broadcastInDim S100000x64 ![] bcast_S_S100000x64 : (⟨S_, .f32⟩ : BufTy).Contents (Elt F) → (⟨S100000x64, .f32⟩ : BufTy).Contents (Elt F)) (constant S_ .f32 0x00000000#32 : (⟨S_, .f32⟩ : BufTy).Contents (Elt F)))) ((addf : (⟨S100000x64, .f32⟩ : BufTy).Contents (Elt F) → (⟨S100000x64, .f32⟩ : BufTy).Contents (Elt F) → (⟨S100000x64, .f32⟩ : BufTy).Contents (Elt F)) (Host.dotGeneral dot_S100000x64_S64x64_S100000x64_1_0_0_1_n_n none (after ops V (Proc.devRef .tc main_v6)) (V (Proc.devRef .tc main_arg4)) : (⟨S100000x64, .f32⟩ : BufTy).Contents (Elt F)) (after ops V (Proc.devRef .tc main_v102))) ((mulf : (⟨S100000x64, .f32⟩ : BufTy).Contents (Elt F) → (⟨S100000x64, .f32⟩ : BufTy).Contents (Elt F) → (⟨S100000x64, .f32⟩ : BufTy).Contents (Elt F)) ((broadcastInDim S100000x64 ![] bcast_S_S100000x64 : (⟨S_, .f32⟩ : BufTy).Contents (Elt F) → (⟨S100000x64, .f32⟩ : BufTy).Contents (Elt F)) (constant S_ .f32 0x3C23D70A#32 : (⟨S_, .f32⟩ : BufTy).Contents (Elt F))) ((addf : (⟨S100000x64, .f32⟩ : BufTy).Contents (Elt F) → (⟨S100000x64, .f32⟩ : BufTy).Contents (Elt F) → (⟨S100000x64, .f32⟩ : BufTy).Contents (Elt F)) (Host.dotGeneral dot_S100000x64_S64x64_S100000x64_1_0_0_1_n_n none (after ops V (Proc.devRef .tc main_v6)) (V (Proc.devRef .tc main_arg4)) : (⟨S100000x64, .f32⟩ : BufTy).Contents (Elt F)) (after ops V (Proc.devRef .tc main_v102))))) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c2_3_main_v105]
theorem val_v105 (m : (ℓ : Loc nD τ sig) → Buf (Elt F) ℓ) (d : Dev nD) :
    after ops (launchContents m d) (Proc.devRef .tc main_v105) =
      ((select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ((cmpf .oge : (⟨S100000x64, .f32⟩ : BufTy).Contents (Elt F) → (⟨S100000x64, .f32⟩ : BufTy).Contents (Elt F) → (⟨S100000x64, .i1⟩ : BufTy).Contents (Elt F)) ((addf : (⟨S100000x64, .f32⟩ : BufTy).Contents (Elt F) → (⟨S100000x64, .f32⟩ : BufTy).Contents (Elt F) → (⟨S100000x64, .f32⟩ : BufTy).Contents (Elt F)) (Host.dotGeneral dot_S100000x64_S64x64_S100000x64_1_0_0_1_n_n none (after ops (launchContents m d) (Proc.devRef .tc main_v6)) ((launchContents m d) (Proc.devRef .tc main_arg4)) : (⟨S100000x64, .f32⟩ : BufTy).Contents (Elt F)) (after ops (launchContents m d) (Proc.devRef .tc main_v102))) ((broadcastInDim S100000x64 ![] bcast_S_S100000x64 : (⟨S_, .f32⟩ : BufTy).Contents (Elt F) → (⟨S100000x64, .f32⟩ : BufTy).Contents (Elt F)) (constant S_ .f32 0x00000000#32 : (⟨S_, .f32⟩ : BufTy).Contents (Elt F)))) ((addf : (⟨S100000x64, .f32⟩ : BufTy).Contents (Elt F) → (⟨S100000x64, .f32⟩ : BufTy).Contents (Elt F) → (⟨S100000x64, .f32⟩ : BufTy).Contents (Elt F)) (Host.dotGeneral dot_S100000x64_S64x64_S100000x64_1_0_0_1_n_n none (after ops (launchContents m d) (Proc.devRef .tc main_v6)) ((launchContents m d) (Proc.devRef .tc main_arg4)) : (⟨S100000x64, .f32⟩ : BufTy).Contents (Elt F)) (after ops (launchContents m d) (Proc.devRef .tc main_v102))) ((mulf : (⟨S100000x64, .f32⟩ : BufTy).Contents (Elt F) → (⟨S100000x64, .f32⟩ : BufTy).Contents (Elt F) → (⟨S100000x64, .f32⟩ : BufTy).Contents (Elt F)) ((broadcastInDim S100000x64 ![] bcast_S_S100000x64 : (⟨S_, .f32⟩ : BufTy).Contents (Elt F) → (⟨S100000x64, .f32⟩ : BufTy).Contents (Elt F)) (constant S_ .f32 0x3C23D70A#32 : (⟨S_, .f32⟩ : BufTy).Contents (Elt F))) ((addf : (⟨S100000x64, .f32⟩ : BufTy).Contents (Elt F) → (⟨S100000x64, .f32⟩ : BufTy).Contents (Elt F) → (⟨S100000x64, .f32⟩ : BufTy).Contents (Elt F)) (Host.dotGeneral dot_S100000x64_S64x64_S100000x64_1_0_0_1_n_n none (after ops (launchContents m d) (Proc.devRef .tc main_v6)) ((launchContents m d) (Proc.devRef .tc main_arg4)) : (⟨S100000x64, .f32⟩ : BufTy).Contents (Elt F)) (after ops (launchContents m d) (Proc.devRef .tc main_v102))))) :=
  valV_v105 (launchContents m d)

end Cert.ReferenceIdeal.RefRun

end
-- ==== Proof.Sim.CellB.lean ====
/- One message-passing cell, buffer by buffer: the projected source table (a kernel launch against the reference's matrix product), the three
   gathered edge tables (the same gathers on both sides), the per-edge messages (a launch against the reference's broadcast, product and sum),
   their aggregation by destination (the same scatter-add), and the self-loop update (a launch against the reference's product, sum and leaky
   rectifier, which agree also at zero). -/
import proofs.«126583_j73280732004963_1_alg».proof.Proof.Sim.Base
import proofs.«126583_j73280732004963_1_alg».proof.Proof.Ref.Cell2
import proofs.«126583_j73280732004963_1_alg».proof.Proof.Val.Bridge
import Idealize.ShloMosaic.Lib.StableHlo.Run

set_option maxRecDepth 16384

noncomputable section

namespace Cert.Sim

open Idealize.ShloMosaic Idealize.ShloMosaic.TcCoe Idealize.SL.Sem Idealize.ShloMosaic.StableHlo ValueIdx
open Cert.KernelIdeal.Hand Cert.Val

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

variable {m m' c}

theorem sim_v13_6 (hag : Agree m m' c) : ((W6 m ρ c (Proc.devRef .tc Cert.KernelIdeal.main_v13)) : (Sh 50000 64).Idx → Elt Ideal .f32) = (StableHlo.after Cert.ReferenceIdeal.RefRun.ops (StableHlo.launchContents m' c) (Proc.devRef .tc Cert.ReferenceIdeal.main_v13)) :=
  (Wkeep_1_6 m ρ c Cert.KernelIdeal.main_v13 (by decide) (by decide) (by decide) (by decide) (by decide) ).trans (sim_v13 ρ hag)

theorem sim_v13_7 (hag : Agree m m' c) : ((W7 m ρ c (Proc.devRef .tc Cert.KernelIdeal.main_v13)) : (Sh 50000 64).Idx → Elt Ideal .f32) = (StableHlo.after Cert.ReferenceIdeal.RefRun.ops (StableHlo.launchContents m' c) (Proc.devRef .tc Cert.ReferenceIdeal.main_v13)) :=
  (Wkeep_1_7 m ρ c Cert.KernelIdeal.main_v13 (by decide) (by decide) (by decide) (by decide) (by decide) (by decide) ).trans (sim_v13 ρ hag)

theorem sim_v6_7 (hag : Agree m m' c) : ((W7 m ρ c (Proc.devRef .tc Cert.KernelIdeal.main_v6)) : (Sh 100000 64).Idx → Elt Ideal .f32) = (StableHlo.after Cert.ReferenceIdeal.RefRun.ops (StableHlo.launchContents m' c) (Proc.devRef .tc Cert.ReferenceIdeal.main_v6)) :=
  (Wkeep_1_7 m ρ c Cert.KernelIdeal.main_v6 (by decide) (by decide) (by decide) (by decide) (by decide) (by decide) ).trans (sim_v6 ρ hag)

theorem sim_v6_10 (hag : Agree m m' c) : ((W10 m ρ c (Proc.devRef .tc Cert.KernelIdeal.main_v6)) : (Sh 100000 64).Idx → Elt Ideal .f32) = (StableHlo.after Cert.ReferenceIdeal.RefRun.ops (StableHlo.launchContents m' c) (Proc.devRef .tc Cert.ReferenceIdeal.main_v6)) :=
  (Wkeep_1_10 m ρ c Cert.KernelIdeal.main_v6 (by decide) (by decide) (by decide) (by decide) (by decide) (by decide) (by decide) (by decide) (by decide) ).trans (sim_v6 ρ hag)

theorem sim_v38_8 (hag : Agree m m' c) : ((W8 m ρ c (Proc.devRef .tc Cert.KernelIdeal.main_v38)) : (Sh 1000000 1).Idx → Elt Ideal .f32) = fun i => shapeCast Cert.ReferenceIdeal.S1000000x1 (StableHlo.after Cert.ReferenceIdeal.RefRun.ops (StableHlo.launchContents m' c) (Proc.devRef .tc Cert.ReferenceIdeal.main_v37)) Cert.KernelIdeal.Gen.shapeCasts_S1000000_S1000000x1 i :=
  (Wkeep_1_8 m ρ c Cert.KernelIdeal.main_v38 (by decide) (by decide) (by decide) (by decide) (by decide) (by decide) (by decide) ).trans (sim_v38 ρ hag)

set_option maxHeartbeats 4000000 in
/-- The projected source table. -/
theorem sim_v66 (hag : Agree m m' c) :
    ((W7 m ρ c (Proc.devRef .tc Cert.KernelIdeal.main_v66)) : (Sh 50000 64).Idx → Elt Ideal .f32) = (StableHlo.after Cert.ReferenceIdeal.RefRun.ops (StableHlo.launchContents m' c) (Proc.devRef .tc Cert.ReferenceIdeal.main_v72)) := by
  refine (fin3 m ρ c).trans ?_
  rw [sim_v13_6 ρ hag, W6_arg4 m ρ c, ← hag.a4, Cert.ReferenceIdeal.RefRun.val_v72 m' c]
  exact Glin_host50000 _ _

set_option maxHeartbeats 4000000 in
/-- A gathered edge table. -/
theorem sim_v73 (hag : Agree m m' c) :
    ((W8 m ρ c (Proc.devRef .tc Cert.KernelIdeal.main_v73)) : (Sh 1000000 64).Idx → Elt Ideal .f32) = (StableHlo.after Cert.ReferenceIdeal.RefRun.ops (StableHlo.launchContents m' c) (Proc.devRef .tc Cert.ReferenceIdeal.main_v79)) := by
  generalize hR : (StableHlo.after Cert.ReferenceIdeal.RefRun.ops (StableHlo.launchContents m' c) (Proc.devRef .tc Cert.ReferenceIdeal.main_v79)) = rhs
  after_results_simp
  subst hR
  rw [sim_v66 ρ hag, W7_arg13 m ρ c, ← hag.a13]
  rw [Cert.ReferenceIdeal.RefRun.val_v79 m' c]
  rfl

set_option maxHeartbeats 4000000 in
/-- A gathered edge table. -/
theorem sim_v80 (hag : Agree m m' c) :
    ((W8 m ρ c (Proc.devRef .tc Cert.KernelIdeal.main_v80)) : (Sh 1000000 64).Idx → Elt Ideal .f32) = (StableHlo.after Cert.ReferenceIdeal.RefRun.ops (StableHlo.launchContents m' c) (Proc.devRef .tc Cert.ReferenceIdeal.main_v86)) := by
  generalize hR : (StableHlo.after Cert.ReferenceIdeal.RefRun.ops (StableHlo.launchContents m' c) (Proc.devRef .tc Cert.ReferenceIdeal.main_v86)) = rhs
  after_results_simp
  subst hR
  rw [sim_v13_7 ρ hag, W7_arg13 m ρ c, ← hag.a13]
  rw [Cert.ReferenceIdeal.RefRun.val_v86 m' c]
  rfl

set_option maxHeartbeats 4000000 in
/-- A gathered edge table. -/
theorem sim_v87 (hag : Agree m m' c) :
    ((W8 m ρ c (Proc.devRef .tc Cert.KernelIdeal.main_v87)) : (Sh 1000000 64).Idx → Elt Ideal .f32) = (StableHlo.after Cert.ReferenceIdeal.RefRun.ops (StableHlo.launchContents m' c) (Proc.devRef .tc Cert.ReferenceIdeal.main_v93)) := by
  generalize hR : (StableHlo.after Cert.ReferenceIdeal.RefRun.ops (StableHlo.launchContents m' c) (Proc.devRef .tc Cert.ReferenceIdeal.main_v93)) = rhs
  after_results_simp
  subst hR
  rw [sim_v6_7 ρ hag, W7_arg12 m ρ c, ← hag.a12]
  rw [Cert.ReferenceIdeal.RefRun.val_v93 m' c]
  rfl

set_option maxHeartbeats 4000000 in
/-- The per-edge messages. -/
theorem sim_v88 (hag : Agree m m' c) :
    ((W9 m ρ c (Proc.devRef .tc Cert.KernelIdeal.main_v88)) : (Sh 1000000 64).Idx → Elt Ideal .f32) = (StableHlo.after Cert.ReferenceIdeal.RefRun.ops (StableHlo.launchContents m' c) (Proc.devRef .tc Cert.ReferenceIdeal.main_v99)) := by
  refine (fin4 m ρ c).trans ?_
  rw [sim_v73 ρ hag, sim_v80 ρ hag, sim_v87 ρ hag, sim_v38_8 ρ hag, W8_arg5 m ρ c, ← hag.a5, Cert.ReferenceIdeal.RefRun.val_v99 m' c]
  exact Gedge_host _ _ _ _ _ _

set_option maxHeartbeats 4000000 in
/-- The messages aggregated by destination. -/
theorem sim_v91 (hag : Agree m m' c) :
    ((W10 m ρ c (Proc.devRef .tc Cert.KernelIdeal.main_v91)) : (Sh 100000 64).Idx → Elt Ideal .f32) = (StableHlo.after Cert.ReferenceIdeal.RefRun.ops (StableHlo.launchContents m' c) (Proc.devRef .tc Cert.ReferenceIdeal.main_v102)) := by
  generalize hR : (StableHlo.after Cert.ReferenceIdeal.RefRun.ops (StableHlo.launchContents m' c) (Proc.devRef .tc Cert.ReferenceIdeal.main_v102)) = rhs
  after_results_simp
  subst hR
  rw [sim_v88 ρ hag, W9_arg12 m ρ c, ← hag.a12]
  rw [Cert.ReferenceIdeal.RefRun.val_v102 m' c]
  rfl

set_option maxHeartbeats 4000000 in
/-- The self-loop update. -/
theorem sim_v92 (hag : Agree m m' c) :
    ((W11 m ρ c (Proc.devRef .tc Cert.KernelIdeal.main_v92)) : (Sh 100000 64).Idx → Elt Ideal .f32) = (StableHlo.after Cert.ReferenceIdeal.RefRun.ops (StableHlo.launchContents m' c) (Proc.devRef .tc Cert.ReferenceIdeal.main_v105)) := by
  refine (fin5 m ρ c).trans ?_
  rw [sim_v6_10 ρ hag, W10_arg4 m ρ c, ← hag.a4, sim_v91 ρ hag, Cert.ReferenceIdeal.RefRun.val_v105 m' c]
  exact Gself_host100000 _ _ _

end Cert.Sim

end
-- ==== Proof.Ref.Cell3.lean ====
/- One-step values of the reference's run: what each of these buffers holds after @main's 261 operations, as the printed operations' term of the previous key buffers' values after the run and of the argument arrays. -/
import proofs.«126583_j73280732004963_1_alg».proof.Proof.Ref.Chain

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
theorem valV_v106 (V : Valuation τ sig (Elt F)) :
    after ops V (Proc.devRef .tc main_v106) =
      (Host.dotGeneral dot_S100000x64_S64x64_S100000x64_1_0_0_1_n_n none (after ops V (Proc.devRef .tc main_v105)) (V (Proc.devRef .tc main_arg6)) : (⟨S100000x64, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c2_4_main_v106]
theorem val_v106 (m : (ℓ : Loc nD τ sig) → Buf (Elt F) ℓ) (d : Dev nD) :
    after ops (launchContents m d) (Proc.devRef .tc main_v106) =
      (Host.dotGeneral dot_S100000x64_S64x64_S100000x64_1_0_0_1_n_n none (after ops (launchContents m d) (Proc.devRef .tc main_v105)) ((launchContents m d) (Proc.devRef .tc main_arg6)) : (⟨S100000x64, .f32⟩ : BufTy).Contents (Elt F)) :=
  valV_v106 (launchContents m d)

set_option maxRecDepth 8192 in
set_option maxHeartbeats 2000000 in
theorem valV_v113 (V : Valuation τ sig (Elt F)) :
    after ops V (Proc.devRef .tc main_v113) =
      (Host.gather gather_S100000x64_S1000000x1_S1000000x64_1_0_n_n_0_1_164 (after ops V (Proc.devRef .tc main_v106)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (V (Proc.devRef .tc main_arg12)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (V (Proc.devRef .tc main_arg12)) ((broadcastInDim S1000000 ![] bcast_S_S1000000 : (⟨S_, .i32⟩ : BufTy).Contents (Elt F) → (⟨S1000000, .i32⟩ : BufTy).Contents (Elt F)) (constantI S_ 32 100000#32 : (⟨S_, .i32⟩ : BufTy).Contents (Elt F)))) (V (Proc.devRef .tc main_arg12)))) : (⟨S1000000x64, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c2_5_main_v113]
theorem val_v113 (m : (ℓ : Loc nD τ sig) → Buf (Elt F) ℓ) (d : Dev nD) :
    after ops (launchContents m d) (Proc.devRef .tc main_v113) =
      (Host.gather gather_S100000x64_S1000000x1_S1000000x64_1_0_n_n_0_1_164 (after ops (launchContents m d) (Proc.devRef .tc main_v106)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) ((launchContents m d) (Proc.devRef .tc main_arg12)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) ((launchContents m d) (Proc.devRef .tc main_arg12)) ((broadcastInDim S1000000 ![] bcast_S_S1000000 : (⟨S_, .i32⟩ : BufTy).Contents (Elt F) → (⟨S1000000, .i32⟩ : BufTy).Contents (Elt F)) (constantI S_ 32 100000#32 : (⟨S_, .i32⟩ : BufTy).Contents (Elt F)))) ((launchContents m d) (Proc.devRef .tc main_arg12)))) : (⟨S1000000x64, .f32⟩ : BufTy).Contents (Elt F)) :=
  valV_v113 (launchContents m d)

set_option maxRecDepth 8192 in
set_option maxHeartbeats 2000000 in
theorem valV_v120 (V : Valuation τ sig (Elt F)) :
    after ops V (Proc.devRef .tc main_v120) =
      (Host.gather gather_S100000x64_S1000000x1_S1000000x64_1_0_n_n_0_1_164 (after ops V (Proc.devRef .tc main_v105)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (V (Proc.devRef .tc main_arg12)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (V (Proc.devRef .tc main_arg12)) ((broadcastInDim S1000000 ![] bcast_S_S1000000 : (⟨S_, .i32⟩ : BufTy).Contents (Elt F) → (⟨S1000000, .i32⟩ : BufTy).Contents (Elt F)) (constantI S_ 32 100000#32 : (⟨S_, .i32⟩ : BufTy).Contents (Elt F)))) (V (Proc.devRef .tc main_arg12)))) : (⟨S1000000x64, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c2_6_main_v120]
theorem val_v120 (m : (ℓ : Loc nD τ sig) → Buf (Elt F) ℓ) (d : Dev nD) :
    after ops (launchContents m d) (Proc.devRef .tc main_v120) =
      (Host.gather gather_S100000x64_S1000000x1_S1000000x64_1_0_n_n_0_1_164 (after ops (launchContents m d) (Proc.devRef .tc main_v105)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) ((launchContents m d) (Proc.devRef .tc main_arg12)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) ((launchContents m d) (Proc.devRef .tc main_arg12)) ((broadcastInDim S1000000 ![] bcast_S_S1000000 : (⟨S_, .i32⟩ : BufTy).Contents (Elt F) → (⟨S1000000, .i32⟩ : BufTy).Contents (Elt F)) (constantI S_ 32 100000#32 : (⟨S_, .i32⟩ : BufTy).Contents (Elt F)))) ((launchContents m d) (Proc.devRef .tc main_arg12)))) : (⟨S1000000x64, .f32⟩ : BufTy).Contents (Elt F)) :=
  valV_v120 (launchContents m d)

set_option maxRecDepth 8192 in
set_option maxHeartbeats 2000000 in
theorem valV_v127 (V : Valuation τ sig (Elt F)) :
    after ops V (Proc.devRef .tc main_v127) =
      (Host.gather gather_S50000x64_S1000000x1_S1000000x64_1_0_n_n_0_1_164 (after ops V (Proc.devRef .tc main_v71)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (V (Proc.devRef .tc main_arg13)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (V (Proc.devRef .tc main_arg13)) ((broadcastInDim S1000000 ![] bcast_S_S1000000 : (⟨S_, .i32⟩ : BufTy).Contents (Elt F) → (⟨S1000000, .i32⟩ : BufTy).Contents (Elt F)) (constantI S_ 32 50000#32 : (⟨S_, .i32⟩ : BufTy).Contents (Elt F)))) (V (Proc.devRef .tc main_arg13)))) : (⟨S1000000x64, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c2_7_main_v127]
theorem val_v127 (m : (ℓ : Loc nD τ sig) → Buf (Elt F) ℓ) (d : Dev nD) :
    after ops (launchContents m d) (Proc.devRef .tc main_v127) =
      (Host.gather gather_S50000x64_S1000000x1_S1000000x64_1_0_n_n_0_1_164 (after ops (launchContents m d) (Proc.devRef .tc main_v71)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) ((launchContents m d) (Proc.devRef .tc main_arg13)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) ((launchContents m d) (Proc.devRef .tc main_arg13)) ((broadcastInDim S1000000 ![] bcast_S_S1000000 : (⟨S_, .i32⟩ : BufTy).Contents (Elt F) → (⟨S1000000, .i32⟩ : BufTy).Contents (Elt F)) (constantI S_ 32 50000#32 : (⟨S_, .i32⟩ : BufTy).Contents (Elt F)))) ((launchContents m d) (Proc.devRef .tc main_arg13)))) : (⟨S1000000x64, .f32⟩ : BufTy).Contents (Elt F)) :=
  valV_v127 (launchContents m d)

set_option maxRecDepth 8192 in
set_option maxHeartbeats 2000000 in
theorem valV_v133 (V : Valuation τ sig (Elt F)) :
    after ops V (Proc.devRef .tc main_v133) =
      ((mulf : (⟨S1000000x64, .f32⟩ : BufTy).Contents (Elt F) → (⟨S1000000x64, .f32⟩ : BufTy).Contents (Elt F) → (⟨S1000000x64, .f32⟩ : BufTy).Contents (Elt F)) ((broadcastInDim S1000000x64 ![0, 1] bcast_S1000000x1_S1000000x64_0_1 : (⟨S1000000x1, .f32⟩ : BufTy).Contents (Elt F) → (⟨S1000000x64, .f32⟩ : BufTy).Contents (Elt F)) ((broadcastInDim S1000000x1 ![0] bcast_S1000000_S1000000x1_0 : (⟨S1000000, .f32⟩ : BufTy).Contents (Elt F) → (⟨S1000000x1, .f32⟩ : BufTy).Contents (Elt F)) (after ops V (Proc.devRef .tc main_v37)))) ((addf : (⟨S1000000x64, .f32⟩ : BufTy).Contents (Elt F) → (⟨S1000000x64, .f32⟩ : BufTy).Contents (Elt F) → (⟨S1000000x64, .f32⟩ : BufTy).Contents (Elt F)) (after ops V (Proc.devRef .tc main_v113)) (Host.dotGeneral dot_S1000000x64_S64x64_S1000000x64_1_0_0_1_n_n none ((mulf : (⟨S1000000x64, .f32⟩ : BufTy).Contents (Elt F) → (⟨S1000000x64, .f32⟩ : BufTy).Contents (Elt F) → (⟨S1000000x64, .f32⟩ : BufTy).Contents (Elt F)) (after ops V (Proc.devRef .tc main_v120)) (after ops V (Proc.devRef .tc main_v127))) (V (Proc.devRef .tc main_arg7)) : (⟨S1000000x64, .f32⟩ : BufTy).Contents (Elt F)))) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c2_8_main_v133]
theorem val_v133 (m : (ℓ : Loc nD τ sig) → Buf (Elt F) ℓ) (d : Dev nD) :
    after ops (launchContents m d) (Proc.devRef .tc main_v133) =
      ((mulf : (⟨S1000000x64, .f32⟩ : BufTy).Contents (Elt F) → (⟨S1000000x64, .f32⟩ : BufTy).Contents (Elt F) → (⟨S1000000x64, .f32⟩ : BufTy).Contents (Elt F)) ((broadcastInDim S1000000x64 ![0, 1] bcast_S1000000x1_S1000000x64_0_1 : (⟨S1000000x1, .f32⟩ : BufTy).Contents (Elt F) → (⟨S1000000x64, .f32⟩ : BufTy).Contents (Elt F)) ((broadcastInDim S1000000x1 ![0] bcast_S1000000_S1000000x1_0 : (⟨S1000000, .f32⟩ : BufTy).Contents (Elt F) → (⟨S1000000x1, .f32⟩ : BufTy).Contents (Elt F)) (after ops (launchContents m d) (Proc.devRef .tc main_v37)))) ((addf : (⟨S1000000x64, .f32⟩ : BufTy).Contents (Elt F) → (⟨S1000000x64, .f32⟩ : BufTy).Contents (Elt F) → (⟨S1000000x64, .f32⟩ : BufTy).Contents (Elt F)) (after ops (launchContents m d) (Proc.devRef .tc main_v113)) (Host.dotGeneral dot_S1000000x64_S64x64_S1000000x64_1_0_0_1_n_n none ((mulf : (⟨S1000000x64, .f32⟩ : BufTy).Contents (Elt F) → (⟨S1000000x64, .f32⟩ : BufTy).Contents (Elt F) → (⟨S1000000x64, .f32⟩ : BufTy).Contents (Elt F)) (after ops (launchContents m d) (Proc.devRef .tc main_v120)) (after ops (launchContents m d) (Proc.devRef .tc main_v127))) ((launchContents m d) (Proc.devRef .tc main_arg7)) : (⟨S1000000x64, .f32⟩ : BufTy).Contents (Elt F)))) :=
  valV_v133 (launchContents m d)

set_option maxRecDepth 8192 in
set_option maxHeartbeats 2000000 in
theorem valV_v136 (V : Valuation τ sig (Elt F)) :
    after ops V (Proc.devRef .tc main_v136) =
      (Host.scatterAdd scatter_S50000x64_S1000000x1_S1000000x64_1_0_0_1 ((broadcastInDim S50000x64 ![] bcast_S_S50000x64 : (⟨S_, .f32⟩ : BufTy).Contents (Elt F) → (⟨S50000x64, .f32⟩ : BufTy).Contents (Elt F)) (constant S_ .f32 0x00000000#32 : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) (V (Proc.devRef .tc main_arg13))) (after ops V (Proc.devRef .tc main_v133)) : (⟨S50000x64, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c2_9_main_v136]
theorem val_v136 (m : (ℓ : Loc nD τ sig) → Buf (Elt F) ℓ) (d : Dev nD) :
    after ops (launchContents m d) (Proc.devRef .tc main_v136) =
      (Host.scatterAdd scatter_S50000x64_S1000000x1_S1000000x64_1_0_0_1 ((broadcastInDim S50000x64 ![] bcast_S_S50000x64 : (⟨S_, .f32⟩ : BufTy).Contents (Elt F) → (⟨S50000x64, .f32⟩ : BufTy).Contents (Elt F)) (constant S_ .f32 0x00000000#32 : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) ((launchContents m d) (Proc.devRef .tc main_arg13))) (after ops (launchContents m d) (Proc.devRef .tc main_v133)) : (⟨S50000x64, .f32⟩ : BufTy).Contents (Elt F)) :=
  valV_v136 (launchContents m d)

set_option maxRecDepth 8192 in
set_option maxHeartbeats 2000000 in
theorem valV_v139 (V : Valuation τ sig (Elt F)) :
    after ops V (Proc.devRef .tc main_v139) =
      ((select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)) ((cmpf .oge : (⟨S50000x64, .f32⟩ : BufTy).Contents (Elt F) → (⟨S50000x64, .f32⟩ : BufTy).Contents (Elt F) → (⟨S50000x64, .i1⟩ : BufTy).Contents (Elt F)) ((addf : (⟨S50000x64, .f32⟩ : BufTy).Contents (Elt F) → (⟨S50000x64, .f32⟩ : BufTy).Contents (Elt F) → (⟨S50000x64, .f32⟩ : BufTy).Contents (Elt F)) (Host.dotGeneral dot_S50000x64_S64x64_S50000x64_1_0_0_1_n_n none (after ops V (Proc.devRef .tc main_v71)) (V (Proc.devRef .tc main_arg6)) : (⟨S50000x64, .f32⟩ : BufTy).Contents (Elt F)) (after ops V (Proc.devRef .tc main_v136))) ((broadcastInDim S50000x64 ![] bcast_S_S50000x64 : (⟨S_, .f32⟩ : BufTy).Contents (Elt F) → (⟨S50000x64, .f32⟩ : BufTy).Contents (Elt F)) (constant S_ .f32 0x00000000#32 : (⟨S_, .f32⟩ : BufTy).Contents (Elt F)))) ((addf : (⟨S50000x64, .f32⟩ : BufTy).Contents (Elt F) → (⟨S50000x64, .f32⟩ : BufTy).Contents (Elt F) → (⟨S50000x64, .f32⟩ : BufTy).Contents (Elt F)) (Host.dotGeneral dot_S50000x64_S64x64_S50000x64_1_0_0_1_n_n none (after ops V (Proc.devRef .tc main_v71)) (V (Proc.devRef .tc main_arg6)) : (⟨S50000x64, .f32⟩ : BufTy).Contents (Elt F)) (after ops V (Proc.devRef .tc main_v136))) ((mulf : (⟨S50000x64, .f32⟩ : BufTy).Contents (Elt F) → (⟨S50000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) (constant S_ .f32 0x3C23D70A#32 : (⟨S_, .f32⟩ : BufTy).Contents (Elt F))) ((addf : (⟨S50000x64, .f32⟩ : BufTy).Contents (Elt F) → (⟨S50000x64, .f32⟩ : BufTy).Contents (Elt F) → (⟨S50000x64, .f32⟩ : BufTy).Contents (Elt F)) (Host.dotGeneral dot_S50000x64_S64x64_S50000x64_1_0_0_1_n_n none (after ops V (Proc.devRef .tc main_v71)) (V (Proc.devRef .tc main_arg6)) : (⟨S50000x64, .f32⟩ : BufTy).Contents (Elt F)) (after ops V (Proc.devRef .tc main_v136))))) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c2_10_main_v139]
theorem val_v139 (m : (ℓ : Loc nD τ sig) → Buf (Elt F) ℓ) (d : Dev nD) :
    after ops (launchContents m d) (Proc.devRef .tc main_v139) =
      ((select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)) ((cmpf .oge : (⟨S50000x64, .f32⟩ : BufTy).Contents (Elt F) → (⟨S50000x64, .f32⟩ : BufTy).Contents (Elt F) → (⟨S50000x64, .i1⟩ : BufTy).Contents (Elt F)) ((addf : (⟨S50000x64, .f32⟩ : BufTy).Contents (Elt F) → (⟨S50000x64, .f32⟩ : BufTy).Contents (Elt F) → (⟨S50000x64, .f32⟩ : BufTy).Contents (Elt F)) (Host.dotGeneral dot_S50000x64_S64x64_S50000x64_1_0_0_1_n_n none (after ops (launchContents m d) (Proc.devRef .tc main_v71)) ((launchContents m d) (Proc.devRef .tc main_arg6)) : (⟨S50000x64, .f32⟩ : BufTy).Contents (Elt F)) (after ops (launchContents m d) (Proc.devRef .tc main_v136))) ((broadcastInDim S50000x64 ![] bcast_S_S50000x64 : (⟨S_, .f32⟩ : BufTy).Contents (Elt F) → (⟨S50000x64, .f32⟩ : BufTy).Contents (Elt F)) (constant S_ .f32 0x00000000#32 : (⟨S_, .f32⟩ : BufTy).Contents (Elt F)))) ((addf : (⟨S50000x64, .f32⟩ : BufTy).Contents (Elt F) → (⟨S50000x64, .f32⟩ : BufTy).Contents (Elt F) → (⟨S50000x64, .f32⟩ : BufTy).Contents (Elt F)) (Host.dotGeneral dot_S50000x64_S64x64_S50000x64_1_0_0_1_n_n none (after ops (launchContents m d) (Proc.devRef .tc main_v71)) ((launchContents m d) (Proc.devRef .tc main_arg6)) : (⟨S50000x64, .f32⟩ : BufTy).Contents (Elt F)) (after ops (launchContents m d) (Proc.devRef .tc main_v136))) ((mulf : (⟨S50000x64, .f32⟩ : BufTy).Contents (Elt F) → (⟨S50000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) (constant S_ .f32 0x3C23D70A#32 : (⟨S_, .f32⟩ : BufTy).Contents (Elt F))) ((addf : (⟨S50000x64, .f32⟩ : BufTy).Contents (Elt F) → (⟨S50000x64, .f32⟩ : BufTy).Contents (Elt F) → (⟨S50000x64, .f32⟩ : BufTy).Contents (Elt F)) (Host.dotGeneral dot_S50000x64_S64x64_S50000x64_1_0_0_1_n_n none (after ops (launchContents m d) (Proc.devRef .tc main_v71)) ((launchContents m d) (Proc.devRef .tc main_arg6)) : (⟨S50000x64, .f32⟩ : BufTy).Contents (Elt F)) (after ops (launchContents m d) (Proc.devRef .tc main_v136))))) :=
  valV_v139 (launchContents m d)

end Cert.ReferenceIdeal.RefRun

end
-- ==== Proof.Sim.CellC.lean ====
/- One message-passing cell, buffer by buffer: the projected source table (a kernel launch against the reference's matrix product), the three
   gathered edge tables (the same gathers on both sides), the per-edge messages (a launch against the reference's broadcast, product and sum),
   their aggregation by destination (the same scatter-add), and the self-loop update (a launch against the reference's product, sum and leaky
   rectifier, which agree also at zero). -/
import proofs.«126583_j73280732004963_1_alg».proof.Proof.Sim.CellA
import proofs.«126583_j73280732004963_1_alg».proof.Proof.Sim.CellB
import proofs.«126583_j73280732004963_1_alg».proof.Proof.Ref.Cell3
import proofs.«126583_j73280732004963_1_alg».proof.Proof.Val.Bridge
import Idealize.ShloMosaic.Lib.StableHlo.Run

set_option maxRecDepth 16384

noncomputable section

namespace Cert.Sim

open Idealize.ShloMosaic Idealize.ShloMosaic.TcCoe Idealize.SL.Sem Idealize.ShloMosaic.StableHlo ValueIdx
open Cert.KernelIdeal.Hand Cert.Val

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

variable {m m' c}

theorem sim_v92_12 (hag : Agree m m' c) : ((W12 m ρ c (Proc.devRef .tc Cert.KernelIdeal.main_v92)) : (Sh 100000 64).Idx → Elt Ideal .f32) = (StableHlo.after Cert.ReferenceIdeal.RefRun.ops (StableHlo.launchContents m' c) (Proc.devRef .tc Cert.ReferenceIdeal.main_v105)) :=
  (Wkeep_11_12 m ρ c Cert.KernelIdeal.main_v92 (by decide) ).trans (sim_v92 ρ hag)

theorem sim_v65_12 (hag : Agree m m' c) : ((W12 m ρ c (Proc.devRef .tc Cert.KernelIdeal.main_v65)) : (Sh 50000 64).Idx → Elt Ideal .f32) = (StableHlo.after Cert.ReferenceIdeal.RefRun.ops (StableHlo.launchContents m' c) (Proc.devRef .tc Cert.ReferenceIdeal.main_v71)) :=
  (Wkeep_6_12 m ρ c Cert.KernelIdeal.main_v65 (by decide) (by decide) (by decide) (by decide) (by decide) (by decide) ).trans (sim_v65 ρ hag)

theorem sim_v65_15 (hag : Agree m m' c) : ((W15 m ρ c (Proc.devRef .tc Cert.KernelIdeal.main_v65)) : (Sh 50000 64).Idx → Elt Ideal .f32) = (StableHlo.after Cert.ReferenceIdeal.RefRun.ops (StableHlo.launchContents m' c) (Proc.devRef .tc Cert.ReferenceIdeal.main_v71)) :=
  (Wkeep_6_15 m ρ c Cert.KernelIdeal.main_v65 (by decide) (by decide) (by decide) (by decide) (by decide) (by decide) (by decide) (by decide) (by decide) ).trans (sim_v65 ρ hag)

theorem sim_v38_13 (hag : Agree m m' c) : ((W13 m ρ c (Proc.devRef .tc Cert.KernelIdeal.main_v38)) : (Sh 1000000 1).Idx → Elt Ideal .f32) = fun i => shapeCast Cert.ReferenceIdeal.S1000000x1 (StableHlo.after Cert.ReferenceIdeal.RefRun.ops (StableHlo.launchContents m' c) (Proc.devRef .tc Cert.ReferenceIdeal.main_v37)) Cert.KernelIdeal.Gen.shapeCasts_S1000000_S1000000x1 i :=
  (Wkeep_1_13 m ρ c Cert.KernelIdeal.main_v38 (by decide) (by decide) (by decide) (by decide) (by decide) (by decide) (by decide) (by decide) (by decide) (by decide) (by decide) (by decide) ).trans (sim_v38 ρ hag)

set_option maxHeartbeats 4000000 in
/-- The projected source table. -/
theorem sim_v93 (hag : Agree m m' c) :
    ((W12 m ρ c (Proc.devRef .tc Cert.KernelIdeal.main_v93)) : (Sh 100000 64).Idx → Elt Ideal .f32) = (StableHlo.after Cert.ReferenceIdeal.RefRun.ops (StableHlo.launchContents m' c) (Proc.devRef .tc Cert.ReferenceIdeal.main_v106)) := by
  refine (fin6 m ρ c).trans ?_
  rw [sim_v92 ρ hag, W11_arg6 m ρ c, ← hag.a6, Cert.ReferenceIdeal.RefRun.val_v106 m' c]
  exact Glin_host100000 _ _

set_option maxHeartbeats 4000000 in
/-- A gathered edge table. -/
theorem sim_v100 (hag : Agree m m' c) :
    ((W13 m ρ c (Proc.devRef .tc Cert.KernelIdeal.main_v100)) : (Sh 1000000 64).Idx → Elt Ideal .f32) = (StableHlo.after Cert.ReferenceIdeal.RefRun.ops (StableHlo.launchContents m' c) (Proc.devRef .tc Cert.ReferenceIdeal.main_v113)) := by
  generalize hR : (StableHlo.after Cert.ReferenceIdeal.RefRun.ops (StableHlo.launchContents m' c) (Proc.devRef .tc Cert.ReferenceIdeal.main_v113)) = rhs
  after_results_simp
  subst hR
  rw [sim_v93 ρ hag, W12_arg12 m ρ c, ← hag.a12]
  rw [Cert.ReferenceIdeal.RefRun.val_v113 m' c]
  rfl

set_option maxHeartbeats 4000000 in
/-- A gathered edge table. -/
theorem sim_v107 (hag : Agree m m' c) :
    ((W13 m ρ c (Proc.devRef .tc Cert.KernelIdeal.main_v107)) : (Sh 1000000 64).Idx → Elt Ideal .f32) = (StableHlo.after Cert.ReferenceIdeal.RefRun.ops (StableHlo.launchContents m' c) (Proc.devRef .tc Cert.ReferenceIdeal.main_v120)) := by
  generalize hR : (StableHlo.after Cert.ReferenceIdeal.RefRun.ops (StableHlo.launchContents m' c) (Proc.devRef .tc Cert.ReferenceIdeal.main_v120)) = rhs
  after_results_simp
  subst hR
  rw [sim_v92_12 ρ hag, W12_arg12 m ρ c, ← hag.a12]
  rw [Cert.ReferenceIdeal.RefRun.val_v120 m' c]
  rfl

set_option maxHeartbeats 4000000 in
/-- A gathered edge table. -/
theorem sim_v114 (hag : Agree m m' c) :
    ((W13 m ρ c (Proc.devRef .tc Cert.KernelIdeal.main_v114)) : (Sh 1000000 64).Idx → Elt Ideal .f32) = (StableHlo.after Cert.ReferenceIdeal.RefRun.ops (StableHlo.launchContents m' c) (Proc.devRef .tc Cert.ReferenceIdeal.main_v127)) := by
  generalize hR : (StableHlo.after Cert.ReferenceIdeal.RefRun.ops (StableHlo.launchContents m' c) (Proc.devRef .tc Cert.ReferenceIdeal.main_v127)) = rhs
  after_results_simp
  subst hR
  rw [sim_v65_12 ρ hag, W12_arg13 m ρ c, ← hag.a13]
  rw [Cert.ReferenceIdeal.RefRun.val_v127 m' c]
  rfl

set_option maxHeartbeats 4000000 in
/-- The per-edge messages. -/
theorem sim_v115 (hag : Agree m m' c) :
    ((W14 m ρ c (Proc.devRef .tc Cert.KernelIdeal.main_v115)) : (Sh 1000000 64).Idx → Elt Ideal .f32) = (StableHlo.after Cert.ReferenceIdeal.RefRun.ops (StableHlo.launchContents m' c) (Proc.devRef .tc Cert.ReferenceIdeal.main_v133)) := by
  refine (fin7 m ρ c).trans ?_
  rw [sim_v100 ρ hag, sim_v107 ρ hag, sim_v114 ρ hag, sim_v38_13 ρ hag, W13_arg7 m ρ c, ← hag.a7, Cert.ReferenceIdeal.RefRun.val_v133 m' c]
  exact Gedge_host _ _ _ _ _ _

set_option maxHeartbeats 4000000 in
/-- The messages aggregated by destination. -/
theorem sim_v118 (hag : Agree m m' c) :
    ((W15 m ρ c (Proc.devRef .tc Cert.KernelIdeal.main_v118)) : (Sh 50000 64).Idx → Elt Ideal .f32) = (StableHlo.after Cert.ReferenceIdeal.RefRun.ops (StableHlo.launchContents m' c) (Proc.devRef .tc Cert.ReferenceIdeal.main_v136)) := by
  generalize hR : (StableHlo.after Cert.ReferenceIdeal.RefRun.ops (StableHlo.launchContents m' c) (Proc.devRef .tc Cert.ReferenceIdeal.main_v136)) = rhs
  after_results_simp
  subst hR
  rw [sim_v115 ρ hag, W14_arg13 m ρ c, ← hag.a13]
  rw [Cert.ReferenceIdeal.RefRun.val_v136 m' c]
  rfl

set_option maxHeartbeats 4000000 in
/-- The self-loop update. -/
theorem sim_v119 (hag : Agree m m' c) :
    ((W16 m ρ c (Proc.devRef .tc Cert.KernelIdeal.main_v119)) : (Sh 50000 64).Idx → Elt Ideal .f32) = (StableHlo.after Cert.ReferenceIdeal.RefRun.ops (StableHlo.launchContents m' c) (Proc.devRef .tc Cert.ReferenceIdeal.main_v139)) := by
  refine (fin8 m ρ c).trans ?_
  rw [sim_v65_15 ρ hag, W15_arg6 m ρ c, ← hag.a6, sim_v118 ρ hag, Cert.ReferenceIdeal.RefRun.val_v139 m' c]
  exact Gself_host50000 _ _ _

end Cert.Sim

end
-- ==== Proof.Ref.Cell4.lean ====
/- One-step values of the reference's run: what each of these buffers holds after @main's 261 operations, as the printed operations' term of the previous key buffers' values after the run and of the argument arrays. -/
import proofs.«126583_j73280732004963_1_alg».proof.Proof.Ref.Chain

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
theorem valV_v140 (V : Valuation τ sig (Elt F)) :
    after ops V (Proc.devRef .tc main_v140) =
      (Host.dotGeneral dot_S50000x64_S64x64_S50000x64_1_0_0_1_n_n none (after ops V (Proc.devRef .tc main_v71)) (V (Proc.devRef .tc main_arg8)) : (⟨S50000x64, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c2_11_main_v140]
theorem val_v140 (m : (ℓ : Loc nD τ sig) → Buf (Elt F) ℓ) (d : Dev nD) :
    after ops (launchContents m d) (Proc.devRef .tc main_v140) =
      (Host.dotGeneral dot_S50000x64_S64x64_S50000x64_1_0_0_1_n_n none (after ops (launchContents m d) (Proc.devRef .tc main_v71)) ((launchContents m d) (Proc.devRef .tc main_arg8)) : (⟨S50000x64, .f32⟩ : BufTy).Contents (Elt F)) :=
  valV_v140 (launchContents m d)

set_option maxRecDepth 8192 in
set_option maxHeartbeats 2000000 in
theorem valV_v147 (V : Valuation τ sig (Elt F)) :
    after ops V (Proc.devRef .tc main_v147) =
      (Host.gather gather_S50000x64_S1000000x1_S1000000x64_1_0_n_n_0_1_164 (after ops V (Proc.devRef .tc main_v140)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (V (Proc.devRef .tc main_arg13)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (V (Proc.devRef .tc main_arg13)) ((broadcastInDim S1000000 ![] bcast_S_S1000000 : (⟨S_, .i32⟩ : BufTy).Contents (Elt F) → (⟨S1000000, .i32⟩ : BufTy).Contents (Elt F)) (constantI S_ 32 50000#32 : (⟨S_, .i32⟩ : BufTy).Contents (Elt F)))) (V (Proc.devRef .tc main_arg13)))) : (⟨S1000000x64, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c3_1_main_v147, c2_12_main_v142, c2_12_main_v144]
theorem val_v147 (m : (ℓ : Loc nD τ sig) → Buf (Elt F) ℓ) (d : Dev nD) :
    after ops (launchContents m d) (Proc.devRef .tc main_v147) =
      (Host.gather gather_S50000x64_S1000000x1_S1000000x64_1_0_n_n_0_1_164 (after ops (launchContents m d) (Proc.devRef .tc main_v140)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) ((launchContents m d) (Proc.devRef .tc main_arg13)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) ((launchContents m d) (Proc.devRef .tc main_arg13)) ((broadcastInDim S1000000 ![] bcast_S_S1000000 : (⟨S_, .i32⟩ : BufTy).Contents (Elt F) → (⟨S1000000, .i32⟩ : BufTy).Contents (Elt F)) (constantI S_ 32 50000#32 : (⟨S_, .i32⟩ : BufTy).Contents (Elt F)))) ((launchContents m d) (Proc.devRef .tc main_arg13)))) : (⟨S1000000x64, .f32⟩ : BufTy).Contents (Elt F)) :=
  valV_v147 (launchContents m d)

set_option maxRecDepth 8192 in
set_option maxHeartbeats 2000000 in
theorem valV_v154 (V : Valuation τ sig (Elt F)) :
    after ops V (Proc.devRef .tc main_v154) =
      (Host.gather gather_S50000x64_S1000000x1_S1000000x64_1_0_n_n_0_1_164 (after ops V (Proc.devRef .tc main_v71)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (V (Proc.devRef .tc main_arg13)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (V (Proc.devRef .tc main_arg13)) ((broadcastInDim S1000000 ![] bcast_S_S1000000 : (⟨S_, .i32⟩ : BufTy).Contents (Elt F) → (⟨S1000000, .i32⟩ : BufTy).Contents (Elt F)) (constantI S_ 32 50000#32 : (⟨S_, .i32⟩ : BufTy).Contents (Elt F)))) (V (Proc.devRef .tc main_arg13)))) : (⟨S1000000x64, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c3_2_main_v154]
theorem val_v154 (m : (ℓ : Loc nD τ sig) → Buf (Elt F) ℓ) (d : Dev nD) :
    after ops (launchContents m d) (Proc.devRef .tc main_v154) =
      (Host.gather gather_S50000x64_S1000000x1_S1000000x64_1_0_n_n_0_1_164 (after ops (launchContents m d) (Proc.devRef .tc main_v71)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) ((launchContents m d) (Proc.devRef .tc main_arg13)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) ((launchContents m d) (Proc.devRef .tc main_arg13)) ((broadcastInDim S1000000 ![] bcast_S_S1000000 : (⟨S_, .i32⟩ : BufTy).Contents (Elt F) → (⟨S1000000, .i32⟩ : BufTy).Contents (Elt F)) (constantI S_ 32 50000#32 : (⟨S_, .i32⟩ : BufTy).Contents (Elt F)))) ((launchContents m d) (Proc.devRef .tc main_arg13)))) : (⟨S1000000x64, .f32⟩ : BufTy).Contents (Elt F)) :=
  valV_v154 (launchContents m d)

set_option maxRecDepth 8192 in
set_option maxHeartbeats 2000000 in
theorem valV_v161 (V : Valuation τ sig (Elt F)) :
    after ops V (Proc.devRef .tc main_v161) =
      (Host.gather gather_S100000x64_S1000000x1_S1000000x64_1_0_n_n_0_1_164 (after ops V (Proc.devRef .tc main_v105)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) (V (Proc.devRef .tc main_arg12)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) (V (Proc.devRef .tc main_arg12)) ((broadcastInDim S1000000 ![] bcast_S_S1000000 : (⟨S_, .i32⟩ : BufTy).Contents (Elt F) → (⟨S1000000, .i32⟩ : BufTy).Contents (Elt F)) (constantI S_ 32 100000#32 : (⟨S_, .i32⟩ : BufTy).Contents (Elt F)))) (V (Proc.devRef .tc main_arg12)))) : (⟨S1000000x64, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c3_3_main_v161]
theorem val_v161 (m : (ℓ : Loc nD τ sig) → Buf (Elt F) ℓ) (d : Dev nD) :
    after ops (launchContents m d) (Proc.devRef .tc main_v161) =
      (Host.gather gather_S100000x64_S1000000x1_S1000000x64_1_0_n_n_0_1_164 (after ops (launchContents m d) (Proc.devRef .tc main_v105)) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) ((launchContents m d) (Proc.devRef .tc main_arg12)) ((broadcastInDim S1000000 ![] bcast_S_S1000000 : (⟨S_, .i32⟩ : BufTy).Contents (Elt F) → (⟨S1000000, .i32⟩ : BufTy).Contents (Elt F)) (constantI S_ 32 0#32 : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) ((launchContents m d) (Proc.devRef .tc main_arg12)) ((broadcastInDim S1000000 ![] bcast_S_S1000000 : (⟨S_, .i32⟩ : BufTy).Contents (Elt F) → (⟨S1000000, .i32⟩ : BufTy).Contents (Elt F)) (constantI S_ 32 100000#32 : (⟨S_, .i32⟩ : BufTy).Contents (Elt F)))) ((launchContents m d) (Proc.devRef .tc main_arg12)))) : (⟨S1000000x64, .f32⟩ : BufTy).Contents (Elt F)) :=
  valV_v161 (launchContents m d)

set_option maxRecDepth 8192 in
set_option maxHeartbeats 2000000 in
theorem valV_v167 (V : Valuation τ sig (Elt F)) :
    after ops V (Proc.devRef .tc main_v167) =
      ((mulf : (⟨S1000000x64, .f32⟩ : BufTy).Contents (Elt F) → (⟨S1000000x64, .f32⟩ : BufTy).Contents (Elt F) → (⟨S1000000x64, .f32⟩ : BufTy).Contents (Elt F)) ((broadcastInDim S1000000x64 ![0, 1] bcast_S1000000x1_S1000000x64_0_1 : (⟨S1000000x1, .f32⟩ : BufTy).Contents (Elt F) → (⟨S1000000x64, .f32⟩ : BufTy).Contents (Elt F)) ((broadcastInDim S1000000x1 ![0] bcast_S1000000_S1000000x1_0 : (⟨S1000000, .f32⟩ : BufTy).Contents (Elt F) → (⟨S1000000x1, .f32⟩ : BufTy).Contents (Elt F)) (after ops V (Proc.devRef .tc main_v37)))) ((addf : (⟨S1000000x64, .f32⟩ : BufTy).Contents (Elt F) → (⟨S1000000x64, .f32⟩ : BufTy).Contents (Elt F) → (⟨S1000000x64, .f32⟩ : BufTy).Contents (Elt F)) (after ops V (Proc.devRef .tc main_v147)) (Host.dotGeneral dot_S1000000x64_S64x64_S1000000x64_1_0_0_1_n_n none ((mulf : (⟨S1000000x64, .f32⟩ : BufTy).Contents (Elt F) → (⟨S1000000x64, .f32⟩ : BufTy).Contents (Elt F) → (⟨S1000000x64, .f32⟩ : BufTy).Contents (Elt F)) (after ops V (Proc.devRef .tc main_v154)) (after ops V (Proc.devRef .tc main_v161))) (V (Proc.devRef .tc main_arg9)) : (⟨S1000000x64, .f32⟩ : BufTy).Contents (Elt F)))) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c3_4_main_v167]
theorem val_v167 (m : (ℓ : Loc nD τ sig) → Buf (Elt F) ℓ) (d : Dev nD) :
    after ops (launchContents m d) (Proc.devRef .tc main_v167) =
      ((mulf : (⟨S1000000x64, .f32⟩ : BufTy).Contents (Elt F) → (⟨S1000000x64, .f32⟩ : BufTy).Contents (Elt F) → (⟨S1000000x64, .f32⟩ : BufTy).Contents (Elt F)) ((broadcastInDim S1000000x64 ![0, 1] bcast_S1000000x1_S1000000x64_0_1 : (⟨S1000000x1, .f32⟩ : BufTy).Contents (Elt F) → (⟨S1000000x64, .f32⟩ : BufTy).Contents (Elt F)) ((broadcastInDim S1000000x1 ![0] bcast_S1000000_S1000000x1_0 : (⟨S1000000, .f32⟩ : BufTy).Contents (Elt F) → (⟨S1000000x1, .f32⟩ : BufTy).Contents (Elt F)) (after ops (launchContents m d) (Proc.devRef .tc main_v37)))) ((addf : (⟨S1000000x64, .f32⟩ : BufTy).Contents (Elt F) → (⟨S1000000x64, .f32⟩ : BufTy).Contents (Elt F) → (⟨S1000000x64, .f32⟩ : BufTy).Contents (Elt F)) (after ops (launchContents m d) (Proc.devRef .tc main_v147)) (Host.dotGeneral dot_S1000000x64_S64x64_S1000000x64_1_0_0_1_n_n none ((mulf : (⟨S1000000x64, .f32⟩ : BufTy).Contents (Elt F) → (⟨S1000000x64, .f32⟩ : BufTy).Contents (Elt F) → (⟨S1000000x64, .f32⟩ : BufTy).Contents (Elt F)) (after ops (launchContents m d) (Proc.devRef .tc main_v154)) (after ops (launchContents m d) (Proc.devRef .tc main_v161))) ((launchContents m d) (Proc.devRef .tc main_arg9)) : (⟨S1000000x64, .f32⟩ : BufTy).Contents (Elt F)))) :=
  valV_v167 (launchContents m d)

set_option maxRecDepth 8192 in
set_option maxHeartbeats 2000000 in
theorem valV_v170 (V : Valuation τ sig (Elt F)) :
    after ops V (Proc.devRef .tc main_v170) =
      (Host.scatterAdd scatter_S100000x64_S1000000x1_S1000000x64_1_0_0_1 ((broadcastInDim S100000x64 ![] bcast_S_S100000x64 : (⟨S_, .f32⟩ : BufTy).Contents (Elt F) → (⟨S100000x64, .f32⟩ : BufTy).Contents (Elt F)) (constant S_ .f32 0x00000000#32 : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) (V (Proc.devRef .tc main_arg12))) (after ops V (Proc.devRef .tc main_v167)) : (⟨S100000x64, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c3_5_main_v170]
theorem val_v170 (m : (ℓ : Loc nD τ sig) → Buf (Elt F) ℓ) (d : Dev nD) :
    after ops (launchContents m d) (Proc.devRef .tc main_v170) =
      (Host.scatterAdd scatter_S100000x64_S1000000x1_S1000000x64_1_0_0_1 ((broadcastInDim S100000x64 ![] bcast_S_S100000x64 : (⟨S_, .f32⟩ : BufTy).Contents (Elt F) → (⟨S100000x64, .f32⟩ : BufTy).Contents (Elt F)) (constant S_ .f32 0x00000000#32 : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) ((launchContents m d) (Proc.devRef .tc main_arg12))) (after ops (launchContents m d) (Proc.devRef .tc main_v167)) : (⟨S100000x64, .f32⟩ : BufTy).Contents (Elt F)) :=
  valV_v170 (launchContents m d)

set_option maxRecDepth 8192 in
set_option maxHeartbeats 2000000 in
theorem valV_v173 (V : Valuation τ sig (Elt F)) :
    after ops V (Proc.devRef .tc main_v173) =
      ((select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ((cmpf .oge : (⟨S100000x64, .f32⟩ : BufTy).Contents (Elt F) → (⟨S100000x64, .f32⟩ : BufTy).Contents (Elt F) → (⟨S100000x64, .i1⟩ : BufTy).Contents (Elt F)) ((addf : (⟨S100000x64, .f32⟩ : BufTy).Contents (Elt F) → (⟨S100000x64, .f32⟩ : BufTy).Contents (Elt F) → (⟨S100000x64, .f32⟩ : BufTy).Contents (Elt F)) (Host.dotGeneral dot_S100000x64_S64x64_S100000x64_1_0_0_1_n_n none (after ops V (Proc.devRef .tc main_v105)) (V (Proc.devRef .tc main_arg8)) : (⟨S100000x64, .f32⟩ : BufTy).Contents (Elt F)) (after ops V (Proc.devRef .tc main_v170))) ((broadcastInDim S100000x64 ![] bcast_S_S100000x64 : (⟨S_, .f32⟩ : BufTy).Contents (Elt F) → (⟨S100000x64, .f32⟩ : BufTy).Contents (Elt F)) (constant S_ .f32 0x00000000#32 : (⟨S_, .f32⟩ : BufTy).Contents (Elt F)))) ((addf : (⟨S100000x64, .f32⟩ : BufTy).Contents (Elt F) → (⟨S100000x64, .f32⟩ : BufTy).Contents (Elt F) → (⟨S100000x64, .f32⟩ : BufTy).Contents (Elt F)) (Host.dotGeneral dot_S100000x64_S64x64_S100000x64_1_0_0_1_n_n none (after ops V (Proc.devRef .tc main_v105)) (V (Proc.devRef .tc main_arg8)) : (⟨S100000x64, .f32⟩ : BufTy).Contents (Elt F)) (after ops V (Proc.devRef .tc main_v170))) ((mulf : (⟨S100000x64, .f32⟩ : BufTy).Contents (Elt F) → (⟨S100000x64, .f32⟩ : BufTy).Contents (Elt F) → (⟨S100000x64, .f32⟩ : BufTy).Contents (Elt F)) ((broadcastInDim S100000x64 ![] bcast_S_S100000x64 : (⟨S_, .f32⟩ : BufTy).Contents (Elt F) → (⟨S100000x64, .f32⟩ : BufTy).Contents (Elt F)) (constant S_ .f32 0x3C23D70A#32 : (⟨S_, .f32⟩ : BufTy).Contents (Elt F))) ((addf : (⟨S100000x64, .f32⟩ : BufTy).Contents (Elt F) → (⟨S100000x64, .f32⟩ : BufTy).Contents (Elt F) → (⟨S100000x64, .f32⟩ : BufTy).Contents (Elt F)) (Host.dotGeneral dot_S100000x64_S64x64_S100000x64_1_0_0_1_n_n none (after ops V (Proc.devRef .tc main_v105)) (V (Proc.devRef .tc main_arg8)) : (⟨S100000x64, .f32⟩ : BufTy).Contents (Elt F)) (after ops V (Proc.devRef .tc main_v170))))) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c3_6_main_v173]
theorem val_v173 (m : (ℓ : Loc nD τ sig) → Buf (Elt F) ℓ) (d : Dev nD) :
    after ops (launchContents m d) (Proc.devRef .tc main_v173) =
      ((select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ((cmpf .oge : (⟨S100000x64, .f32⟩ : BufTy).Contents (Elt F) → (⟨S100000x64, .f32⟩ : BufTy).Contents (Elt F) → (⟨S100000x64, .i1⟩ : BufTy).Contents (Elt F)) ((addf : (⟨S100000x64, .f32⟩ : BufTy).Contents (Elt F) → (⟨S100000x64, .f32⟩ : BufTy).Contents (Elt F) → (⟨S100000x64, .f32⟩ : BufTy).Contents (Elt F)) (Host.dotGeneral dot_S100000x64_S64x64_S100000x64_1_0_0_1_n_n none (after ops (launchContents m d) (Proc.devRef .tc main_v105)) ((launchContents m d) (Proc.devRef .tc main_arg8)) : (⟨S100000x64, .f32⟩ : BufTy).Contents (Elt F)) (after ops (launchContents m d) (Proc.devRef .tc main_v170))) ((broadcastInDim S100000x64 ![] bcast_S_S100000x64 : (⟨S_, .f32⟩ : BufTy).Contents (Elt F) → (⟨S100000x64, .f32⟩ : BufTy).Contents (Elt F)) (constant S_ .f32 0x00000000#32 : (⟨S_, .f32⟩ : BufTy).Contents (Elt F)))) ((addf : (⟨S100000x64, .f32⟩ : BufTy).Contents (Elt F) → (⟨S100000x64, .f32⟩ : BufTy).Contents (Elt F) → (⟨S100000x64, .f32⟩ : BufTy).Contents (Elt F)) (Host.dotGeneral dot_S100000x64_S64x64_S100000x64_1_0_0_1_n_n none (after ops (launchContents m d) (Proc.devRef .tc main_v105)) ((launchContents m d) (Proc.devRef .tc main_arg8)) : (⟨S100000x64, .f32⟩ : BufTy).Contents (Elt F)) (after ops (launchContents m d) (Proc.devRef .tc main_v170))) ((mulf : (⟨S100000x64, .f32⟩ : BufTy).Contents (Elt F) → (⟨S100000x64, .f32⟩ : BufTy).Contents (Elt F) → (⟨S100000x64, .f32⟩ : BufTy).Contents (Elt F)) ((broadcastInDim S100000x64 ![] bcast_S_S100000x64 : (⟨S_, .f32⟩ : BufTy).Contents (Elt F) → (⟨S100000x64, .f32⟩ : BufTy).Contents (Elt F)) (constant S_ .f32 0x3C23D70A#32 : (⟨S_, .f32⟩ : BufTy).Contents (Elt F))) ((addf : (⟨S100000x64, .f32⟩ : BufTy).Contents (Elt F) → (⟨S100000x64, .f32⟩ : BufTy).Contents (Elt F) → (⟨S100000x64, .f32⟩ : BufTy).Contents (Elt F)) (Host.dotGeneral dot_S100000x64_S64x64_S100000x64_1_0_0_1_n_n none (after ops (launchContents m d) (Proc.devRef .tc main_v105)) ((launchContents m d) (Proc.devRef .tc main_arg8)) : (⟨S100000x64, .f32⟩ : BufTy).Contents (Elt F)) (after ops (launchContents m d) (Proc.devRef .tc main_v170))))) :=
  valV_v173 (launchContents m d)

end Cert.ReferenceIdeal.RefRun

end
-- ==== Proof.Sim.CellD.lean ====
/- One message-passing cell, buffer by buffer: the projected source table (a kernel launch against the reference's matrix product), the three
   gathered edge tables (the same gathers on both sides), the per-edge messages (a launch against the reference's broadcast, product and sum),
   their aggregation by destination (the same scatter-add), and the self-loop update (a launch against the reference's product, sum and leaky
   rectifier, which agree also at zero). -/
import proofs.«126583_j73280732004963_1_alg».proof.Proof.Sim.CellA
import proofs.«126583_j73280732004963_1_alg».proof.Proof.Sim.CellB
import proofs.«126583_j73280732004963_1_alg».proof.Proof.Ref.Cell4
import proofs.«126583_j73280732004963_1_alg».proof.Proof.Val.Bridge
import Idealize.ShloMosaic.Lib.StableHlo.Run

set_option maxRecDepth 16384

noncomputable section

namespace Cert.Sim

open Idealize.ShloMosaic Idealize.ShloMosaic.TcCoe Idealize.SL.Sem Idealize.ShloMosaic.StableHlo ValueIdx
open Cert.KernelIdeal.Hand Cert.Val

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

variable {m m' c}

theorem sim_v65_16 (hag : Agree m m' c) : ((W16 m ρ c (Proc.devRef .tc Cert.KernelIdeal.main_v65)) : (Sh 50000 64).Idx → Elt Ideal .f32) = (StableHlo.after Cert.ReferenceIdeal.RefRun.ops (StableHlo.launchContents m' c) (Proc.devRef .tc Cert.ReferenceIdeal.main_v71)) :=
  (Wkeep_6_16 m ρ c Cert.KernelIdeal.main_v65 (by decide) (by decide) (by decide) (by decide) (by decide) (by decide) (by decide) (by decide) (by decide) (by decide) ).trans (sim_v65 ρ hag)

theorem sim_v65_17 (hag : Agree m m' c) : ((W17 m ρ c (Proc.devRef .tc Cert.KernelIdeal.main_v65)) : (Sh 50000 64).Idx → Elt Ideal .f32) = (StableHlo.after Cert.ReferenceIdeal.RefRun.ops (StableHlo.launchContents m' c) (Proc.devRef .tc Cert.ReferenceIdeal.main_v71)) :=
  (Wkeep_6_17 m ρ c Cert.KernelIdeal.main_v65 (by decide) (by decide) (by decide) (by decide) (by decide) (by decide) (by decide) (by decide) (by decide) (by decide) (by decide) ).trans (sim_v65 ρ hag)

theorem sim_v92_17 (hag : Agree m m' c) : ((W17 m ρ c (Proc.devRef .tc Cert.KernelIdeal.main_v92)) : (Sh 100000 64).Idx → Elt Ideal .f32) = (StableHlo.after Cert.ReferenceIdeal.RefRun.ops (StableHlo.launchContents m' c) (Proc.devRef .tc Cert.ReferenceIdeal.main_v105)) :=
  (Wkeep_11_17 m ρ c Cert.KernelIdeal.main_v92 (by decide) (by decide) (by decide) (by decide) (by decide) (by decide) ).trans (sim_v92 ρ hag)

theorem sim_v92_20 (hag : Agree m m' c) : ((W20 m ρ c (Proc.devRef .tc Cert.KernelIdeal.main_v92)) : (Sh 100000 64).Idx → Elt Ideal .f32) = (StableHlo.after Cert.ReferenceIdeal.RefRun.ops (StableHlo.launchContents m' c) (Proc.devRef .tc Cert.ReferenceIdeal.main_v105)) :=
  (Wkeep_11_20 m ρ c Cert.KernelIdeal.main_v92 (by decide) (by decide) (by decide) (by decide) (by decide) (by decide) (by decide) (by decide) (by decide) ).trans (sim_v92 ρ hag)

theorem sim_v38_18 (hag : Agree m m' c) : ((W18 m ρ c (Proc.devRef .tc Cert.KernelIdeal.main_v38)) : (Sh 1000000 1).Idx → Elt Ideal .f32) = fun i => shapeCast Cert.ReferenceIdeal.S1000000x1 (StableHlo.after Cert.ReferenceIdeal.RefRun.ops (StableHlo.launchContents m' c) (Proc.devRef .tc Cert.ReferenceIdeal.main_v37)) Cert.KernelIdeal.Gen.shapeCasts_S1000000_S1000000x1 i :=
  (Wkeep_1_18 m ρ c Cert.KernelIdeal.main_v38 (by decide) (by decide) (by decide) (by decide) (by decide) (by decide) (by decide) (by decide) (by decide) (by decide) (by decide) (by decide) (by decide) (by decide) (by decide) (by decide) (by decide) ).trans (sim_v38 ρ hag)

set_option maxHeartbeats 4000000 in
/-- The projected source table. -/
theorem sim_v120 (hag : Agree m m' c) :
    ((W17 m ρ c (Proc.devRef .tc Cert.KernelIdeal.main_v120)) : (Sh 50000 64).Idx → Elt Ideal .f32) = (StableHlo.after Cert.ReferenceIdeal.RefRun.ops (StableHlo.launchContents m' c) (Proc.devRef .tc Cert.ReferenceIdeal.main_v140)) := by
  refine (fin9 m ρ c).trans ?_
  rw [sim_v65_16 ρ hag, W16_arg8 m ρ c, ← hag.a8, Cert.ReferenceIdeal.RefRun.val_v140 m' c]
  exact Glin_host50000 _ _

set_option maxHeartbeats 4000000 in
/-- A gathered edge table. -/
theorem sim_v127 (hag : Agree m m' c) :
    ((W18 m ρ c (Proc.devRef .tc Cert.KernelIdeal.main_v127)) : (Sh 1000000 64).Idx → Elt Ideal .f32) = (StableHlo.after Cert.ReferenceIdeal.RefRun.ops (StableHlo.launchContents m' c) (Proc.devRef .tc Cert.ReferenceIdeal.main_v147)) := by
  generalize hR : (StableHlo.after Cert.ReferenceIdeal.RefRun.ops (StableHlo.launchContents m' c) (Proc.devRef .tc Cert.ReferenceIdeal.main_v147)) = rhs
  after_results_simp
  subst hR
  rw [sim_v120 ρ hag, W17_arg13 m ρ c, ← hag.a13]
  rw [Cert.ReferenceIdeal.RefRun.val_v147 m' c]
  rfl

set_option maxHeartbeats 4000000 in
/-- A gathered edge table. -/
theorem sim_v134 (hag : Agree m m' c) :
    ((W18 m ρ c (Proc.devRef .tc Cert.KernelIdeal.main_v134)) : (Sh 1000000 64).Idx → Elt Ideal .f32) = (StableHlo.after Cert.ReferenceIdeal.RefRun.ops (StableHlo.launchContents m' c) (Proc.devRef .tc Cert.ReferenceIdeal.main_v154)) := by
  generalize hR : (StableHlo.after Cert.ReferenceIdeal.RefRun.ops (StableHlo.launchContents m' c) (Proc.devRef .tc Cert.ReferenceIdeal.main_v154)) = rhs
  after_results_simp
  subst hR
  rw [sim_v65_17 ρ hag, W17_arg13 m ρ c, ← hag.a13]
  rw [Cert.ReferenceIdeal.RefRun.val_v154 m' c]
  rfl

set_option maxHeartbeats 4000000 in
/-- A gathered edge table. -/
theorem sim_v141 (hag : Agree m m' c) :
    ((W18 m ρ c (Proc.devRef .tc Cert.KernelIdeal.main_v141)) : (Sh 1000000 64).Idx → Elt Ideal .f32) = (StableHlo.after Cert.ReferenceIdeal.RefRun.ops (StableHlo.launchContents m' c) (Proc.devRef .tc Cert.ReferenceIdeal.main_v161)) := by
  generalize hR : (StableHlo.after Cert.ReferenceIdeal.RefRun.ops (StableHlo.launchContents m' c) (Proc.devRef .tc Cert.ReferenceIdeal.main_v161)) = rhs
  after_results_simp
  subst hR
  rw [sim_v92_17 ρ hag, W17_arg12 m ρ c, ← hag.a12]
  rw [Cert.ReferenceIdeal.RefRun.val_v161 m' c]
  rfl

set_option maxHeartbeats 4000000 in
/-- The per-edge messages. -/
theorem sim_v142 (hag : Agree m m' c) :
    ((W19 m ρ c (Proc.devRef .tc Cert.KernelIdeal.main_v142)) : (Sh 1000000 64).Idx → Elt Ideal .f32) = (StableHlo.after Cert.ReferenceIdeal.RefRun.ops (StableHlo.launchContents m' c) (Proc.devRef .tc Cert.ReferenceIdeal.main_v167)) := by
  refine (fin10 m ρ c).trans ?_
  rw [sim_v127 ρ hag, sim_v134 ρ hag, sim_v141 ρ hag, sim_v38_18 ρ hag, W18_arg9 m ρ c, ← hag.a9, Cert.ReferenceIdeal.RefRun.val_v167 m' c]
  exact Gedge_host _ _ _ _ _ _

set_option maxHeartbeats 4000000 in
/-- The messages aggregated by destination. -/
theorem sim_v145 (hag : Agree m m' c) :
    ((W20 m ρ c (Proc.devRef .tc Cert.KernelIdeal.main_v145)) : (Sh 100000 64).Idx → Elt Ideal .f32) = (StableHlo.after Cert.ReferenceIdeal.RefRun.ops (StableHlo.launchContents m' c) (Proc.devRef .tc Cert.ReferenceIdeal.main_v170)) := by
  generalize hR : (StableHlo.after Cert.ReferenceIdeal.RefRun.ops (StableHlo.launchContents m' c) (Proc.devRef .tc Cert.ReferenceIdeal.main_v170)) = rhs
  after_results_simp
  subst hR
  rw [sim_v142 ρ hag, W19_arg12 m ρ c, ← hag.a12]
  rw [Cert.ReferenceIdeal.RefRun.val_v170 m' c]
  rfl

set_option maxHeartbeats 4000000 in
/-- The self-loop update. -/
theorem sim_v146 (hag : Agree m m' c) :
    ((W21 m ρ c (Proc.devRef .tc Cert.KernelIdeal.main_v146)) : (Sh 100000 64).Idx → Elt Ideal .f32) = (StableHlo.after Cert.ReferenceIdeal.RefRun.ops (StableHlo.launchContents m' c) (Proc.devRef .tc Cert.ReferenceIdeal.main_v173)) := by
  refine (fin11 m ρ c).trans ?_
  rw [sim_v92_20 ρ hag, W20_arg8 m ρ c, ← hag.a8, sim_v145 ρ hag, Cert.ReferenceIdeal.RefRun.val_v173 m' c]
  exact Gself_host100000 _ _ _

end Cert.Sim

end
-- ==== Proof.Ref.Tail.lean ====
/- One-step values of the reference's run: what each of these buffers holds after @main's 261 operations, as the printed operations' term of the previous key buffers' values after the run and of the argument arrays. -/
import proofs.«126583_j73280732004963_1_alg».proof.Proof.Ref.Chain

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
theorem valV_v174 (V : Valuation τ sig (Elt F)) :
    after ops V (Proc.devRef .tc main_v174) =
      (concatenate S100000x192 1 [⟨S100000x64, (after ops V (Proc.devRef .tc main_v6))⟩, ⟨S100000x64, (after ops V (Proc.devRef .tc main_v105))⟩, ⟨S100000x64, (after ops V (Proc.devRef .tc main_v173))⟩] concatenates_S100000x64_S100000x64_S100000x64_S100000x192_d1 : (⟨S100000x192, .f32⟩ : BufTy).Contents (Elt F)) := by
  have h0 : after ops V (Proc.devRef .tc main_v174) =
      (concatenate S100000x192 1 [⟨S100000x64, ((after c3_6 (after c3_5 (after c3_4 (after c3_3 (after c3_2 (after c3_1 (after c2_12 (after c2_11 (after c2_10 (after c2_9 (after c2_8 (after c2_7 (after c2_6 (after c2_5 (after c2_4 (after c2_3 (after c2_2 (after c2_1 (after c1_10 (after c1_9 (after c1_8 (after c1_7 (after c1_6 (after c1_5 (after c1_4 (after c1_3 (after c1_2 (after c1_1 (after c0_5 (after c0_4 (after c0_3 (after c0_2 (after c0_1 V))))))))))))))))))))))))))))))))) (Proc.devRef .tc main_v6))⟩, ⟨S100000x64, ((after c3_6 (after c3_5 (after c3_4 (after c3_3 (after c3_2 (after c3_1 (after c2_12 (after c2_11 (after c2_10 (after c2_9 (after c2_8 (after c2_7 (after c2_6 (after c2_5 (after c2_4 (after c2_3 (after c2_2 (after c2_1 (after c1_10 (after c1_9 (after c1_8 (after c1_7 (after c1_6 (after c1_5 (after c1_4 (after c1_3 (after c1_2 (after c1_1 (after c0_5 (after c0_4 (after c0_3 (after c0_2 (after c0_1 V))))))))))))))))))))))))))))))))) (Proc.devRef .tc main_v105))⟩, ⟨S100000x64, ((after c3_6 (after c3_5 (after c3_4 (after c3_3 (after c3_2 (after c3_1 (after c2_12 (after c2_11 (after c2_10 (after c2_9 (after c2_8 (after c2_7 (after c2_6 (after c2_5 (after c2_4 (after c2_3 (after c2_2 (after c2_1 (after c1_10 (after c1_9 (after c1_8 (after c1_7 (after c1_6 (after c1_5 (after c1_4 (after c1_3 (after c1_2 (after c1_1 (after c0_5 (after c0_4 (after c0_3 (after c0_2 (after c0_1 V))))))))))))))))))))))))))))))))) (Proc.devRef .tc main_v173))⟩] concatenates_S100000x64_S100000x64_S100000x64_S100000x192_d1 : (⟨S100000x192, .f32⟩ : BufTy).Contents (Elt F)) := by
    simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c3_7_main_v174]
  have h1 : after ops V (Proc.devRef .tc main_v6) = (after c3_6 (after c3_5 (after c3_4 (after c3_3 (after c3_2 (after c3_1 (after c2_12 (after c2_11 (after c2_10 (after c2_9 (after c2_8 (after c2_7 (after c2_6 (after c2_5 (after c2_4 (after c2_3 (after c2_2 (after c2_1 (after c1_10 (after c1_9 (after c1_8 (after c1_7 (after c1_6 (after c1_5 (after c1_4 (after c1_3 (after c1_2 (after c1_1 (after c0_5 (after c0_4 (after c0_3 (after c0_2 (after c0_1 V))))))))))))))))))))))))))))))))) (Proc.devRef .tc main_v6) := by
    simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep]
  have h2 : after ops V (Proc.devRef .tc main_v105) = (after c3_6 (after c3_5 (after c3_4 (after c3_3 (after c3_2 (after c3_1 (after c2_12 (after c2_11 (after c2_10 (after c2_9 (after c2_8 (after c2_7 (after c2_6 (after c2_5 (after c2_4 (after c2_3 (after c2_2 (after c2_1 (after c1_10 (after c1_9 (after c1_8 (after c1_7 (after c1_6 (after c1_5 (after c1_4 (after c1_3 (after c1_2 (after c1_1 (after c0_5 (after c0_4 (after c0_3 (after c0_2 (after c0_1 V))))))))))))))))))))))))))))))))) (Proc.devRef .tc main_v105) := by
    simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep]
  have h3 : after ops V (Proc.devRef .tc main_v173) = (after c3_6 (after c3_5 (after c3_4 (after c3_3 (after c3_2 (after c3_1 (after c2_12 (after c2_11 (after c2_10 (after c2_9 (after c2_8 (after c2_7 (after c2_6 (after c2_5 (after c2_4 (after c2_3 (after c2_2 (after c2_1 (after c1_10 (after c1_9 (after c1_8 (after c1_7 (after c1_6 (after c1_5 (after c1_4 (after c1_3 (after c1_2 (after c1_1 (after c0_5 (after c0_4 (after c0_3 (after c0_2 (after c0_1 V))))))))))))))))))))))))))))))))) (Proc.devRef .tc main_v173) := by
    simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep]
  rw [h1, h2, h3]
  exact h0
theorem val_v174 (m : (ℓ : Loc nD τ sig) → Buf (Elt F) ℓ) (d : Dev nD) :
    after ops (launchContents m d) (Proc.devRef .tc main_v174) =
      (concatenate S100000x192 1 [⟨S100000x64, (after ops (launchContents m d) (Proc.devRef .tc main_v6))⟩, ⟨S100000x64, (after ops (launchContents m d) (Proc.devRef .tc main_v105))⟩, ⟨S100000x64, (after ops (launchContents m d) (Proc.devRef .tc main_v173))⟩] concatenates_S100000x64_S100000x64_S100000x64_S100000x192_d1 : (⟨S100000x192, .f32⟩ : BufTy).Contents (Elt F)) :=
  valV_v174 (launchContents m d)

set_option maxRecDepth 8192 in
set_option maxHeartbeats 2000000 in
theorem valV_v175 (V : Valuation τ sig (Elt F)) :
    after ops V (Proc.devRef .tc main_v175) =
      (concatenate S50000x192 1 [⟨S50000x64, (after ops V (Proc.devRef .tc main_v13))⟩, ⟨S50000x64, (after ops V (Proc.devRef .tc main_v71))⟩, ⟨S50000x64, (after ops V (Proc.devRef .tc main_v139))⟩] concatenates_S50000x64_S50000x64_S50000x64_S50000x192_d1 : (⟨S50000x192, .f32⟩ : BufTy).Contents (Elt F)) := by
  have h0 : after ops V (Proc.devRef .tc main_v175) =
      (concatenate S50000x192 1 [⟨S50000x64, ((after c3_7 (after c3_6 (after c3_5 (after c3_4 (after c3_3 (after c3_2 (after c3_1 (after c2_12 (after c2_11 (after c2_10 (after c2_9 (after c2_8 (after c2_7 (after c2_6 (after c2_5 (after c2_4 (after c2_3 (after c2_2 (after c2_1 (after c1_10 (after c1_9 (after c1_8 (after c1_7 (after c1_6 (after c1_5 (after c1_4 (after c1_3 (after c1_2 (after c1_1 (after c0_5 (after c0_4 (after c0_3 (after c0_2 (after c0_1 V)))))))))))))))))))))))))))))))))) (Proc.devRef .tc main_v13))⟩, ⟨S50000x64, ((after c3_7 (after c3_6 (after c3_5 (after c3_4 (after c3_3 (after c3_2 (after c3_1 (after c2_12 (after c2_11 (after c2_10 (after c2_9 (after c2_8 (after c2_7 (after c2_6 (after c2_5 (after c2_4 (after c2_3 (after c2_2 (after c2_1 (after c1_10 (after c1_9 (after c1_8 (after c1_7 (after c1_6 (after c1_5 (after c1_4 (after c1_3 (after c1_2 (after c1_1 (after c0_5 (after c0_4 (after c0_3 (after c0_2 (after c0_1 V)))))))))))))))))))))))))))))))))) (Proc.devRef .tc main_v71))⟩, ⟨S50000x64, ((after c3_7 (after c3_6 (after c3_5 (after c3_4 (after c3_3 (after c3_2 (after c3_1 (after c2_12 (after c2_11 (after c2_10 (after c2_9 (after c2_8 (after c2_7 (after c2_6 (after c2_5 (after c2_4 (after c2_3 (after c2_2 (after c2_1 (after c1_10 (after c1_9 (after c1_8 (after c1_7 (after c1_6 (after c1_5 (after c1_4 (after c1_3 (after c1_2 (after c1_1 (after c0_5 (after c0_4 (after c0_3 (after c0_2 (after c0_1 V)))))))))))))))))))))))))))))))))) (Proc.devRef .tc main_v139))⟩] concatenates_S50000x64_S50000x64_S50000x64_S50000x192_d1 : (⟨S50000x192, .f32⟩ : BufTy).Contents (Elt F)) := by
    simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c3_8_main_v175]
  have h1 : after ops V (Proc.devRef .tc main_v13) = (after c3_7 (after c3_6 (after c3_5 (after c3_4 (after c3_3 (after c3_2 (after c3_1 (after c2_12 (after c2_11 (after c2_10 (after c2_9 (after c2_8 (after c2_7 (after c2_6 (after c2_5 (after c2_4 (after c2_3 (after c2_2 (after c2_1 (after c1_10 (after c1_9 (after c1_8 (after c1_7 (after c1_6 (after c1_5 (after c1_4 (after c1_3 (after c1_2 (after c1_1 (after c0_5 (after c0_4 (after c0_3 (after c0_2 (after c0_1 V)))))))))))))))))))))))))))))))))) (Proc.devRef .tc main_v13) := by
    simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep]
  have h2 : after ops V (Proc.devRef .tc main_v71) = (after c3_7 (after c3_6 (after c3_5 (after c3_4 (after c3_3 (after c3_2 (after c3_1 (after c2_12 (after c2_11 (after c2_10 (after c2_9 (after c2_8 (after c2_7 (after c2_6 (after c2_5 (after c2_4 (after c2_3 (after c2_2 (after c2_1 (after c1_10 (after c1_9 (after c1_8 (after c1_7 (after c1_6 (after c1_5 (after c1_4 (after c1_3 (after c1_2 (after c1_1 (after c0_5 (after c0_4 (after c0_3 (after c0_2 (after c0_1 V)))))))))))))))))))))))))))))))))) (Proc.devRef .tc main_v71) := by
    simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep]
  have h3 : after ops V (Proc.devRef .tc main_v139) = (after c3_7 (after c3_6 (after c3_5 (after c3_4 (after c3_3 (after c3_2 (after c3_1 (after c2_12 (after c2_11 (after c2_10 (after c2_9 (after c2_8 (after c2_7 (after c2_6 (after c2_5 (after c2_4 (after c2_3 (after c2_2 (after c2_1 (after c1_10 (after c1_9 (after c1_8 (after c1_7 (after c1_6 (after c1_5 (after c1_4 (after c1_3 (after c1_2 (after c1_1 (after c0_5 (after c0_4 (after c0_3 (after c0_2 (after c0_1 V)))))))))))))))))))))))))))))))))) (Proc.devRef .tc main_v139) := by
    simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep]
  rw [h1, h2, h3]
  exact h0
theorem val_v175 (m : (ℓ : Loc nD τ sig) → Buf (Elt F) ℓ) (d : Dev nD) :
    after ops (launchContents m d) (Proc.devRef .tc main_v175) =
      (concatenate S50000x192 1 [⟨S50000x64, (after ops (launchContents m d) (Proc.devRef .tc main_v13))⟩, ⟨S50000x64, (after ops (launchContents m d) (Proc.devRef .tc main_v71))⟩, ⟨S50000x64, (after ops (launchContents m d) (Proc.devRef .tc main_v139))⟩] concatenates_S50000x64_S50000x64_S50000x64_S50000x192_d1 : (⟨S50000x192, .f32⟩ : BufTy).Contents (Elt F)) :=
  valV_v175 (launchContents m d)

set_option maxRecDepth 8192 in
set_option maxHeartbeats 2000000 in
theorem valV_v182 (V : Valuation τ sig (Elt F)) :
    after ops V (Proc.devRef .tc main_v182) =
      (Host.gather gather_S100000x192_S500000x1_S500000x192_1_0_n_n_0_1_1192 (after ops V (Proc.devRef .tc main_v174)) ((broadcastInDim S500000x1 ![0] bcast_S500000_S500000x1_0 : (⟨S500000, .i32⟩ : BufTy).Contents (Elt F) → (⟨S500000x1, .i32⟩ : BufTy).Contents (Elt F)) ((select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ((cmpi .slt : (⟨S500000, .i32⟩ : BufTy).Contents (Elt F) → (⟨S500000, .i32⟩ : BufTy).Contents (Elt F) → (⟨S500000, .i1⟩ : BufTy).Contents (Elt F)) (V (Proc.devRef .tc main_arg14)) ((broadcastInDim S500000 ![] bcast_S_S500000 : (⟨S_, .i32⟩ : BufTy).Contents (Elt F) → (⟨S500000, .i32⟩ : BufTy).Contents (Elt F)) (constantI S_ 32 0#32 : (⟨S_, .i32⟩ : BufTy).Contents (Elt F)))) ((addi : (⟨S500000, .i32⟩ : BufTy).Contents (Elt F) → (⟨S500000, .i32⟩ : BufTy).Contents (Elt F) → (⟨S500000, .i32⟩ : BufTy).Contents (Elt F)) (V (Proc.devRef .tc main_arg14)) ((broadcastInDim S500000 ![] bcast_S_S500000 : (⟨S_, .i32⟩ : BufTy).Contents (Elt F) → (⟨S500000, .i32⟩ : BufTy).Contents (Elt F)) (constantI S_ 32 100000#32 : (⟨S_, .i32⟩ : BufTy).Contents (Elt F)))) (V (Proc.devRef .tc main_arg14)))) : (⟨S500000x192, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c3_9_main_v182]
theorem val_v182 (m : (ℓ : Loc nD τ sig) → Buf (Elt F) ℓ) (d : Dev nD) :
    after ops (launchContents m d) (Proc.devRef .tc main_v182) =
      (Host.gather gather_S100000x192_S500000x1_S500000x192_1_0_n_n_0_1_1192 (after ops (launchContents m d) (Proc.devRef .tc main_v174)) ((broadcastInDim S500000x1 ![0] bcast_S500000_S500000x1_0 : (⟨S500000, .i32⟩ : BufTy).Contents (Elt F) → (⟨S500000x1, .i32⟩ : BufTy).Contents (Elt F)) ((select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ((cmpi .slt : (⟨S500000, .i32⟩ : BufTy).Contents (Elt F) → (⟨S500000, .i32⟩ : BufTy).Contents (Elt F) → (⟨S500000, .i1⟩ : BufTy).Contents (Elt F)) ((launchContents m d) (Proc.devRef .tc main_arg14)) ((broadcastInDim S500000 ![] bcast_S_S500000 : (⟨S_, .i32⟩ : BufTy).Contents (Elt F) → (⟨S500000, .i32⟩ : BufTy).Contents (Elt F)) (constantI S_ 32 0#32 : (⟨S_, .i32⟩ : BufTy).Contents (Elt F)))) ((addi : (⟨S500000, .i32⟩ : BufTy).Contents (Elt F) → (⟨S500000, .i32⟩ : BufTy).Contents (Elt F) → (⟨S500000, .i32⟩ : BufTy).Contents (Elt F)) ((launchContents m d) (Proc.devRef .tc main_arg14)) ((broadcastInDim S500000 ![] bcast_S_S500000 : (⟨S_, .i32⟩ : BufTy).Contents (Elt F) → (⟨S500000, .i32⟩ : BufTy).Contents (Elt F)) (constantI S_ 32 100000#32 : (⟨S_, .i32⟩ : BufTy).Contents (Elt F)))) ((launchContents m d) (Proc.devRef .tc main_arg14)))) : (⟨S500000x192, .f32⟩ : BufTy).Contents (Elt F)) :=
  valV_v182 (launchContents m d)

set_option maxRecDepth 8192 in
set_option maxHeartbeats 2000000 in
theorem valV_v189 (V : Valuation τ sig (Elt F)) :
    after ops V (Proc.devRef .tc main_v189) =
      (Host.gather gather_S50000x192_S500000x1_S500000x192_1_0_n_n_0_1_1192 (after ops V (Proc.devRef .tc main_v175)) ((broadcastInDim S500000x1 ![0] bcast_S500000_S500000x1_0 : (⟨S500000, .i32⟩ : BufTy).Contents (Elt F) → (⟨S500000x1, .i32⟩ : BufTy).Contents (Elt F)) ((select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ((cmpi .slt : (⟨S500000, .i32⟩ : BufTy).Contents (Elt F) → (⟨S500000, .i32⟩ : BufTy).Contents (Elt F) → (⟨S500000, .i1⟩ : BufTy).Contents (Elt F)) (V (Proc.devRef .tc main_arg15)) ((broadcastInDim S500000 ![] bcast_S_S500000 : (⟨S_, .i32⟩ : BufTy).Contents (Elt F) → (⟨S500000, .i32⟩ : BufTy).Contents (Elt F)) (constantI S_ 32 0#32 : (⟨S_, .i32⟩ : BufTy).Contents (Elt F)))) ((addi : (⟨S500000, .i32⟩ : BufTy).Contents (Elt F) → (⟨S500000, .i32⟩ : BufTy).Contents (Elt F) → (⟨S500000, .i32⟩ : BufTy).Contents (Elt F)) (V (Proc.devRef .tc main_arg15)) ((broadcastInDim S500000 ![] bcast_S_S500000 : (⟨S_, .i32⟩ : BufTy).Contents (Elt F) → (⟨S500000, .i32⟩ : BufTy).Contents (Elt F)) (constantI S_ 32 50000#32 : (⟨S_, .i32⟩ : BufTy).Contents (Elt F)))) (V (Proc.devRef .tc main_arg15)))) : (⟨S500000x192, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c3_10_main_v189]
theorem val_v189 (m : (ℓ : Loc nD τ sig) → Buf (Elt F) ℓ) (d : Dev nD) :
    after ops (launchContents m d) (Proc.devRef .tc main_v189) =
      (Host.gather gather_S50000x192_S500000x1_S500000x192_1_0_n_n_0_1_1192 (after ops (launchContents m d) (Proc.devRef .tc main_v175)) ((broadcastInDim S500000x1 ![0] bcast_S500000_S500000x1_0 : (⟨S500000, .i32⟩ : BufTy).Contents (Elt F) → (⟨S500000x1, .i32⟩ : BufTy).Contents (Elt F)) ((select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ((cmpi .slt : (⟨S500000, .i32⟩ : BufTy).Contents (Elt F) → (⟨S500000, .i32⟩ : BufTy).Contents (Elt F) → (⟨S500000, .i1⟩ : BufTy).Contents (Elt F)) ((launchContents m d) (Proc.devRef .tc main_arg15)) ((broadcastInDim S500000 ![] bcast_S_S500000 : (⟨S_, .i32⟩ : BufTy).Contents (Elt F) → (⟨S500000, .i32⟩ : BufTy).Contents (Elt F)) (constantI S_ 32 0#32 : (⟨S_, .i32⟩ : BufTy).Contents (Elt F)))) ((addi : (⟨S500000, .i32⟩ : BufTy).Contents (Elt F) → (⟨S500000, .i32⟩ : BufTy).Contents (Elt F) → (⟨S500000, .i32⟩ : BufTy).Contents (Elt F)) ((launchContents m d) (Proc.devRef .tc main_arg15)) ((broadcastInDim S500000 ![] bcast_S_S500000 : (⟨S_, .i32⟩ : BufTy).Contents (Elt F) → (⟨S500000, .i32⟩ : BufTy).Contents (Elt F)) (constantI S_ 32 50000#32 : (⟨S_, .i32⟩ : BufTy).Contents (Elt F)))) ((launchContents m d) (Proc.devRef .tc main_arg15)))) : (⟨S500000x192, .f32⟩ : BufTy).Contents (Elt F)) :=
  valV_v189 (launchContents m d)

set_option maxRecDepth 8192 in
set_option maxHeartbeats 2000000 in
theorem valV_v191 (V : Valuation τ sig (Elt F)) :
    after ops V (Proc.devRef .tc main_v191) =
      (Host.reduceAdd ((mulf : (⟨S500000x192, .f32⟩ : BufTy).Contents (Elt F) → (⟨S500000x192, .f32⟩ : BufTy).Contents (Elt F) → (⟨S500000x192, .f32⟩ : BufTy).Contents (Elt F)) (after ops V (Proc.devRef .tc main_v182)) (after ops V (Proc.devRef .tc main_v189))) (constant S_ .f32 0x00000000#32 : (⟨S_, .f32⟩ : BufTy).Contents (Elt F)) reducesTo_S500000x192_S500000_d1 h_S_ : (⟨S500000, .f32⟩ : BufTy).Contents (Elt F)) := by
  simp (disch := decide) only [after_chain, c0_1_keep, c0_2_keep, c0_3_keep, c0_4_keep, c0_5_keep, c1_1_keep, c1_2_keep, c1_3_keep, c1_4_keep, c1_5_keep, c1_6_keep, c1_7_keep, c1_8_keep, c1_9_keep, c1_10_keep, c2_1_keep, c2_2_keep, c2_3_keep, c2_4_keep, c2_5_keep, c2_6_keep, c2_7_keep, c2_8_keep, c2_9_keep, c2_10_keep, c2_11_keep, c2_12_keep, c3_1_keep, c3_2_keep, c3_3_keep, c3_4_keep, c3_5_keep, c3_6_keep, c3_7_keep, c3_8_keep, c3_9_keep, c3_10_keep, c3_11_keep, c3_11_main_v191]
theorem val_v191 (m : (ℓ : Loc nD τ sig) → Buf (Elt F) ℓ) (d : Dev nD) :
    after ops (launchContents m d) (Proc.devRef .tc main_v191) =
      (Host.reduceAdd ((mulf : (⟨S500000x192, .f32⟩ : BufTy).Contents (Elt F) → (⟨S500000x192, .f32⟩ : BufTy).Contents (Elt F) → (⟨S500000x192, .f32⟩ : BufTy).Contents (Elt F)) (after ops (launchContents m d) (Proc.devRef .tc main_v182)) (after ops (launchContents m d) (Proc.devRef .tc main_v189))) (constant S_ .f32 0x00000000#32 : (⟨S_, .f32⟩ : BufTy).Contents (Elt F)) reducesTo_S500000x192_S500000_d1 h_S_ : (⟨S500000, .f32⟩ : BufTy).Contents (Elt F)) :=
  valV_v191 (launchContents m d)

end Cert.ReferenceIdeal.RefRun

end
-- ==== Proof.Sim.Tail.lean ====
/- The tail: the three embeddings of each node kind joined feature-wise, the rows of the scored pairs gathered (the same operations on both
   sides), and the pairwise score — a kernel launch's row sums as a column, reshaped, against the reference's sum over the feature axis. -/
import proofs.«126583_j73280732004963_1_alg».proof.Proof.Sim.CellC
import proofs.«126583_j73280732004963_1_alg».proof.Proof.Sim.CellD
import proofs.«126583_j73280732004963_1_alg».proof.Proof.Ref.Tail
import proofs.«126583_j73280732004963_1_alg».proof.Proof.Val.Bridge
import Idealize.ShloMosaic.Lib.StableHlo.Run

set_option maxRecDepth 16384

noncomputable section

namespace Cert.Sim

open Idealize.ShloMosaic Idealize.ShloMosaic.TcCoe Idealize.SL.Sem Idealize.ShloMosaic.StableHlo ValueIdx
open Cert.KernelIdeal.Hand Cert.Val

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

variable {m m' c}

theorem sim_v6_21 (hag : Agree m m' c) : ((W21 m ρ c (Proc.devRef .tc Cert.KernelIdeal.main_v6)) : (Sh 100000 64).Idx → Elt Ideal .f32) = (StableHlo.after Cert.ReferenceIdeal.RefRun.ops (StableHlo.launchContents m' c) (Proc.devRef .tc Cert.ReferenceIdeal.main_v6)) :=
  (Wkeep_1_21 m ρ c Cert.KernelIdeal.main_v6 (by decide) (by decide) (by decide) (by decide) (by decide) (by decide) (by decide) (by decide) (by decide) (by decide) (by decide) (by decide) (by decide) (by decide) (by decide) (by decide) (by decide) (by decide) (by decide) (by decide) ).trans (sim_v6 ρ hag)
theorem sim_v13_21 (hag : Agree m m' c) : ((W21 m ρ c (Proc.devRef .tc Cert.KernelIdeal.main_v13)) : (Sh 50000 64).Idx → Elt Ideal .f32) = (StableHlo.after Cert.ReferenceIdeal.RefRun.ops (StableHlo.launchContents m' c) (Proc.devRef .tc Cert.ReferenceIdeal.main_v13)) :=
  (Wkeep_1_21 m ρ c Cert.KernelIdeal.main_v13 (by decide) (by decide) (by decide) (by decide) (by decide) (by decide) (by decide) (by decide) (by decide) (by decide) (by decide) (by decide) (by decide) (by decide) (by decide) (by decide) (by decide) (by decide) (by decide) (by decide) ).trans (sim_v13 ρ hag)
theorem sim_v65_21 (hag : Agree m m' c) : ((W21 m ρ c (Proc.devRef .tc Cert.KernelIdeal.main_v65)) : (Sh 50000 64).Idx → Elt Ideal .f32) = (StableHlo.after Cert.ReferenceIdeal.RefRun.ops (StableHlo.launchContents m' c) (Proc.devRef .tc Cert.ReferenceIdeal.main_v71)) :=
  (Wkeep_6_21 m ρ c Cert.KernelIdeal.main_v65 (by decide) (by decide) (by decide) (by decide) (by decide) (by decide) (by decide) (by decide) (by decide) (by decide) (by decide) (by decide) (by decide) (by decide) (by decide) ).trans (sim_v65 ρ hag)
theorem sim_v92_21 (hag : Agree m m' c) : ((W21 m ρ c (Proc.devRef .tc Cert.KernelIdeal.main_v92)) : (Sh 100000 64).Idx → Elt Ideal .f32) = (StableHlo.after Cert.ReferenceIdeal.RefRun.ops (StableHlo.launchContents m' c) (Proc.devRef .tc Cert.ReferenceIdeal.main_v105)) :=
  (Wkeep_11_21 m ρ c Cert.KernelIdeal.main_v92 (by decide) (by decide) (by decide) (by decide) (by decide) (by decide) (by decide) (by decide) (by decide) (by decide) ).trans (sim_v92 ρ hag)
theorem sim_v119_21 (hag : Agree m m' c) : ((W21 m ρ c (Proc.devRef .tc Cert.KernelIdeal.main_v119)) : (Sh 50000 64).Idx → Elt Ideal .f32) = (StableHlo.after Cert.ReferenceIdeal.RefRun.ops (StableHlo.launchContents m' c) (Proc.devRef .tc Cert.ReferenceIdeal.main_v139)) :=
  (Wkeep_16_21 m ρ c Cert.KernelIdeal.main_v119 (by decide) (by decide) (by decide) (by decide) (by decide) ).trans (sim_v119 ρ hag)

set_option maxHeartbeats 4000000 in
/-- The kernel program's scored pairs' user rows, from the buffers before the stretch. -/
theorem ksim_v155 : (W22 m ρ c (Proc.devRef .tc Cert.KernelIdeal.main_v155)) = Host.gather Cert.KernelIdeal.gather_S100000x192_S500000x1_S500000x192_1_0_n_n_0_1_1192 (concatenate Cert.KernelIdeal.S100000x192 1 [⟨Cert.KernelIdeal.S100000x64, (W21 m ρ c (Proc.devRef .tc Cert.KernelIdeal.main_v6))⟩, ⟨Cert.KernelIdeal.S100000x64, (W21 m ρ c (Proc.devRef .tc Cert.KernelIdeal.main_v92))⟩, ⟨Cert.KernelIdeal.S100000x64, (W21 m ρ c (Proc.devRef .tc Cert.KernelIdeal.main_v146))⟩] Cert.KernelIdeal.Gen.concatenates_S100000x64_S100000x64_S100000x64_S100000x192_d1) (broadcastInDim Cert.KernelIdeal.S500000x1 ![0] Cert.KernelIdeal.Gen.bcast_S500000_S500000x1_0 (select (cmpi .slt (W21 m ρ c (Proc.devRef .tc Cert.KernelIdeal.main_arg14)) (broadcastInDim Cert.KernelIdeal.S500000 ![] Cert.KernelIdeal.Gen.bcast_S_S500000 (constantI Cert.KernelIdeal.S_ 32 0#32))) (addi (W21 m ρ c (Proc.devRef .tc Cert.KernelIdeal.main_arg14)) (broadcastInDim Cert.KernelIdeal.S500000 ![] Cert.KernelIdeal.Gen.bcast_S_S500000 (constantI Cert.KernelIdeal.S_ 32 100000#32))) (W21 m ρ c (Proc.devRef .tc Cert.KernelIdeal.main_arg14)))) := by
  generalize hR : Host.gather Cert.KernelIdeal.gather_S100000x192_S500000x1_S500000x192_1_0_n_n_0_1_1192 (concatenate Cert.KernelIdeal.S100000x192 1 [⟨Cert.KernelIdeal.S100000x64, (W21 m ρ c (Proc.devRef .tc Cert.KernelIdeal.main_v6))⟩, ⟨Cert.KernelIdeal.S100000x64, (W21 m ρ c (Proc.devRef .tc Cert.KernelIdeal.main_v92))⟩, ⟨Cert.KernelIdeal.S100000x64, (W21 m ρ c (Proc.devRef .tc Cert.KernelIdeal.main_v146))⟩] Cert.KernelIdeal.Gen.concatenates_S100000x64_S100000x64_S100000x64_S100000x192_d1) (broadcastInDim Cert.KernelIdeal.S500000x1 ![0] Cert.KernelIdeal.Gen.bcast_S500000_S500000x1_0 (select (cmpi .slt (W21 m ρ c (Proc.devRef .tc Cert.KernelIdeal.main_arg14)) (broadcastInDim Cert.KernelIdeal.S500000 ![] Cert.KernelIdeal.Gen.bcast_S_S500000 (constantI Cert.KernelIdeal.S_ 32 0#32))) (addi (W21 m ρ c (Proc.devRef .tc Cert.KernelIdeal.main_arg14)) (broadcastInDim Cert.KernelIdeal.S500000 ![] Cert.KernelIdeal.Gen.bcast_S_S500000 (constantI Cert.KernelIdeal.S_ 32 100000#32))) (W21 m ρ c (Proc.devRef .tc Cert.KernelIdeal.main_arg14)))) = rhs
  after_results_simp
  subst hR
  rfl

set_option maxHeartbeats 4000000 in
/-- Scored pairs' user rows. -/
theorem sim_v155 (hag : Agree m m' c) :
    ((W22 m ρ c (Proc.devRef .tc Cert.KernelIdeal.main_v155)) : (Sh 500000 192).Idx → Elt Ideal .f32) = (StableHlo.after Cert.ReferenceIdeal.RefRun.ops (StableHlo.launchContents m' c) (Proc.devRef .tc Cert.ReferenceIdeal.main_v182)) := by
  rw [ksim_v155, sim_v6_21 ρ hag, sim_v92_21 ρ hag, sim_v146 ρ hag, W21_arg14 m ρ c, ← hag.a14]
  rw [Cert.ReferenceIdeal.RefRun.val_v182 m' c, Cert.ReferenceIdeal.RefRun.val_v174 m' c]
  rfl

set_option maxHeartbeats 4000000 in
/-- The kernel program's scored pairs' item rows, from the buffers before the stretch. -/
theorem ksim_v162 : (W22 m ρ c (Proc.devRef .tc Cert.KernelIdeal.main_v162)) = Host.gather Cert.KernelIdeal.gather_S50000x192_S500000x1_S500000x192_1_0_n_n_0_1_1192 (concatenate Cert.KernelIdeal.S50000x192 1 [⟨Cert.KernelIdeal.S50000x64, (W21 m ρ c (Proc.devRef .tc Cert.KernelIdeal.main_v13))⟩, ⟨Cert.KernelIdeal.S50000x64, (W21 m ρ c (Proc.devRef .tc Cert.KernelIdeal.main_v65))⟩, ⟨Cert.KernelIdeal.S50000x64, (W21 m ρ c (Proc.devRef .tc Cert.KernelIdeal.main_v119))⟩] Cert.KernelIdeal.Gen.concatenates_S50000x64_S50000x64_S50000x64_S50000x192_d1) (broadcastInDim Cert.KernelIdeal.S500000x1 ![0] Cert.KernelIdeal.Gen.bcast_S500000_S500000x1_0 (select (cmpi .slt (W21 m ρ c (Proc.devRef .tc Cert.KernelIdeal.main_arg15)) (broadcastInDim Cert.KernelIdeal.S500000 ![] Cert.KernelIdeal.Gen.bcast_S_S500000 (constantI Cert.KernelIdeal.S_ 32 0#32))) (addi (W21 m ρ c (Proc.devRef .tc Cert.KernelIdeal.main_arg15)) (broadcastInDim Cert.KernelIdeal.S500000 ![] Cert.KernelIdeal.Gen.bcast_S_S500000 (constantI Cert.KernelIdeal.S_ 32 50000#32))) (W21 m ρ c (Proc.devRef .tc Cert.KernelIdeal.main_arg15)))) := by
  generalize hR : Host.gather Cert.KernelIdeal.gather_S50000x192_S500000x1_S500000x192_1_0_n_n_0_1_1192 (concatenate Cert.KernelIdeal.S50000x192 1 [⟨Cert.KernelIdeal.S50000x64, (W21 m ρ c (Proc.devRef .tc Cert.KernelIdeal.main_v13))⟩, ⟨Cert.KernelIdeal.S50000x64, (W21 m ρ c (Proc.devRef .tc Cert.KernelIdeal.main_v65))⟩, ⟨Cert.KernelIdeal.S50000x64, (W21 m ρ c (Proc.devRef .tc Cert.KernelIdeal.main_v119))⟩] Cert.KernelIdeal.Gen.concatenates_S50000x64_S50000x64_S50000x64_S50000x192_d1) (broadcastInDim Cert.KernelIdeal.S500000x1 ![0] Cert.KernelIdeal.Gen.bcast_S500000_S500000x1_0 (select (cmpi .slt (W21 m ρ c (Proc.devRef .tc Cert.KernelIdeal.main_arg15)) (broadcastInDim Cert.KernelIdeal.S500000 ![] Cert.KernelIdeal.Gen.bcast_S_S500000 (constantI Cert.KernelIdeal.S_ 32 0#32))) (addi (W21 m ρ c (Proc.devRef .tc Cert.KernelIdeal.main_arg15)) (broadcastInDim Cert.KernelIdeal.S500000 ![] Cert.KernelIdeal.Gen.bcast_S_S500000 (constantI Cert.KernelIdeal.S_ 32 50000#32))) (W21 m ρ c (Proc.devRef .tc Cert.KernelIdeal.main_arg15)))) = rhs
  after_results_simp
  subst hR
  rfl

set_option maxHeartbeats 4000000 in
/-- Scored pairs' item rows. -/
theorem sim_v162 (hag : Agree m m' c) :
    ((W22 m ρ c (Proc.devRef .tc Cert.KernelIdeal.main_v162)) : (Sh 500000 192).Idx → Elt Ideal .f32) = (StableHlo.after Cert.ReferenceIdeal.RefRun.ops (StableHlo.launchContents m' c) (Proc.devRef .tc Cert.ReferenceIdeal.main_v189)) := by
  rw [ksim_v162, sim_v13_21 ρ hag, sim_v65_21 ρ hag, sim_v119_21 ρ hag, W21_arg15 m ρ c, ← hag.a15]
  rw [Cert.ReferenceIdeal.RefRun.val_v189 m' c, Cert.ReferenceIdeal.RefRun.val_v175 m' c]
  rfl

set_option maxHeartbeats 4000000 in
/-- The result: the pairwise scores. -/
theorem sim_v164 (hag : Agree m m' c) :
    ((W24 m ρ c (Proc.devRef .tc Cert.KernelIdeal.main_v164)) : (⟨1, ![500000]⟩ : Shape).Idx → Elt Ideal .f32) = (StableHlo.after Cert.ReferenceIdeal.RefRun.ops (StableHlo.launchContents m' c) (Proc.devRef .tc Cert.ReferenceIdeal.main_v191)) := by
  generalize hR : (StableHlo.after Cert.ReferenceIdeal.RefRun.ops (StableHlo.launchContents m' c) (Proc.devRef .tc Cert.ReferenceIdeal.main_v191)) = rhs
  after_results_simp
  subst hR
  rw [fin12 m ρ c, sim_v155 ρ hag, sim_v162 ρ hag, Cert.ReferenceIdeal.RefRun.val_v191 m' c]
  exact Gdot_host _ _ _

end Cert.Sim

end
-- ==== Proof.lean ====
/- A two-layer message-passing network on a bipartite user/item graph, scored on a batch of pairs: thirteen kernel launches (four row-blocked
   matrix products, four per-edge message combines, four self-loop updates with a leaky rectifier, one row-wise dot product) among gathers and
   scatter-adds, against the same network written with whole-array operations.

   The frames: each program's @main is run item by item — a stretch of host operations applies its operations' functions to the buffers, a
   launch leaves in its output array what its grid points write back and every other buffer as it found it — and no item writes an argument.

   The equivalence over the extended reals: every launch's output array is ONE function of the arrays it is entered with (each launch is
   row-local: a block of rows of the result depends on the same rows of the row-blocked operands and on a whole [64,64] matrix), and that
   function is the reference's term: a block-wise product is the whole product; the edge combine is weight · (source + (gathered · gathered) · W),
   the weight column being the reshaped weight vector; the self-loop update's `s > 0 ? s : c·s` is the reference's `s ≥ 0 ? s : c·s` because
   c · 0 = 0; the row-wise sum of products as a reshaped column is the sum over the feature axis. Between launches both programs apply the same
   gathers, scatter-adds and joins to equal arrays, so the buffers agree one after the other down to the result. No step needs the inputs to be
   finite: only sums are regrouped by rows, never distributed over. -/
import proofs.«126583_j73280732004963_1_alg».proof.Defs
import proofs.«126583_j73280732004963_1_alg».proof.Proof.Gen.Kernel
import proofs.«126583_j73280732004963_1_alg».proof.Proof.Gen.KernelIdeal
import proofs.«126583_j73280732004963_1_alg».proof.Proof.Gen.ReferenceIdeal
import proofs.«126583_j73280732004963_1_alg».proof.Proof.Gen.Pre_finite_inputs
import proofs.«126583_j73280732004963_1_alg».proof.Proof.K.Run
import proofs.«126583_j73280732004963_1_alg».proof.Proof.KI.Run
import proofs.«126583_j73280732004963_1_alg».proof.Proof.Ref.Run
import proofs.«126583_j73280732004963_1_alg».proof.Proof.Sim.Tail
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ => Cert.ReferenceIdeal.RefRun.frame (F := Ideal) m ρ

/-- The ideal pass rewrote nothing: the idealization is the program's own text read over the extended reals. -/
theorem preserves : Cert.preserves_Kernel_KernelIdeal := trivial

/-- Both idealized programs, from memories agreeing on the arguments, end with the kernel program's last boundary's result buffer. -/
theorem algebraic : Cert.algebraic_KernelIdeal_ReferenceIdeal := by
  intro m ρ m' ρ' _ hagree
  refine ⟨fun c => Cert.KernelIdeal.Hand.W24 m ρ c (Proc.devRef .tc Cert.KernelIdeal.main_v164), ?_, ?_⟩
  · exact (θ_run Cert.KernelIdeal.defs _ _).mono (fun r h c => ⟨h c _ (Cert.KernelIdeal.Hand.mem_uc Cert.KernelIdeal.main_v164 (by decide)),
      (h c _ (Cert.KernelIdeal.Hand.mem_uc Cert.KernelIdeal.main_arg0 (by decide))).trans (Cert.KernelIdeal.Hand.W24_main_arg0 m ρ c),
      (h c _ (Cert.KernelIdeal.Hand.mem_uc Cert.KernelIdeal.main_arg1 (by decide))).trans (Cert.KernelIdeal.Hand.W24_main_arg1 m ρ c),
      (h c _ (Cert.KernelIdeal.Hand.mem_uc Cert.KernelIdeal.main_arg2 (by decide))).trans (Cert.KernelIdeal.Hand.W24_main_arg2 m ρ c),
      (h c _ (Cert.KernelIdeal.Hand.mem_uc Cert.KernelIdeal.main_arg3 (by decide))).trans (Cert.KernelIdeal.Hand.W24_main_arg3 m ρ c),
      (h c _ (Cert.KernelIdeal.Hand.mem_uc Cert.KernelIdeal.main_arg4 (by decide))).trans (Cert.KernelIdeal.Hand.W24_main_arg4 m ρ c),
      (h c _ (Cert.KernelIdeal.Hand.mem_uc Cert.KernelIdeal.main_arg5 (by decide))).trans (Cert.KernelIdeal.Hand.W24_main_arg5 m ρ c),
      (h c _ (Cert.KernelIdeal.Hand.mem_uc Cert.KernelIdeal.main_arg6 (by decide))).trans (Cert.KernelIdeal.Hand.W24_main_arg6 m ρ c),
      (h c _ (Cert.KernelIdeal.Hand.mem_uc Cert.KernelIdeal.main_arg7 (by decide))).trans (Cert.KernelIdeal.Hand.W24_main_arg7 m ρ c),
      (h c _ (Cert.KernelIdeal.Hand.mem_uc Cert.KernelIdeal.main_arg8 (by decide))).trans (Cert.KernelIdeal.Hand.W24_main_arg8 m ρ c),
      (h c _ (Cert.KernelIdeal.Hand.mem_uc Cert.KernelIdeal.main_arg9 (by decide))).trans (Cert.KernelIdeal.Hand.W24_main_arg9 m ρ c),
      (h c _ (Cert.KernelIdeal.Hand.mem_uc Cert.KernelIdeal.main_arg10 (by decide))).trans (Cert.KernelIdeal.Hand.W24_main_arg10 m ρ c),
      (h c _ (Cert.KernelIdeal.Hand.mem_uc Cert.KernelIdeal.main_arg11 (by decide))).trans (Cert.KernelIdeal.Hand.W24_main_arg11 m ρ c),
      (h c _ (Cert.KernelIdeal.Hand.mem_uc Cert.KernelIdeal.main_arg12 (by decide))).trans (Cert.KernelIdeal.Hand.W24_main_arg12 m ρ c),
      (h c _ (Cert.KernelIdeal.Hand.mem_uc Cert.KernelIdeal.main_arg13 (by decide))).trans (Cert.KernelIdeal.Hand.W24_main_arg13 m ρ c),
      (h c _ (Cert.KernelIdeal.Hand.mem_uc Cert.KernelIdeal.main_arg14 (by decide))).trans (Cert.KernelIdeal.Hand.W24_main_arg14 m ρ c),
      (h c _ (Cert.KernelIdeal.Hand.mem_uc Cert.KernelIdeal.main_arg15 (by decide))).trans (Cert.KernelIdeal.Hand.W24_main_arg15 m ρ c)⟩)
      (Cert.KernelIdeal.Hand.run_all (F := Ideal) m ρ)
  · refine (θ_run Cert.ReferenceIdeal.defs _ _).mono (fun r h c => ?_) (Cert.ReferenceIdeal.RefRun.run_all (F := Ideal) m' ρ')
    have hag : Cert.Sim.Agree m m' c := ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2⟩
    exact ⟨(h c Cert.ReferenceIdeal.main_v191).trans (Cert.Sim.sim_v164 ρ hag).symm,
      (h c Cert.ReferenceIdeal.main_arg0).trans (Cert.ReferenceIdeal.RefRun.ops_arg0 _),
      (h c Cert.ReferenceIdeal.main_arg1).trans (Cert.ReferenceIdeal.RefRun.ops_arg1 _),
      (h c Cert.ReferenceIdeal.main_arg2).trans (Cert.ReferenceIdeal.RefRun.ops_arg2 _),
      (h c Cert.ReferenceIdeal.main_arg3).trans (Cert.ReferenceIdeal.RefRun.ops_arg3 _),
      (h c Cert.ReferenceIdeal.main_arg4).trans (Cert.ReferenceIdeal.RefRun.ops_arg4 _),
      (h c Cert.ReferenceIdeal.main_arg5).trans (Cert.ReferenceIdeal.RefRun.ops_arg5 _),
      (h c Cert.ReferenceIdeal.main_arg6).trans (Cert.ReferenceIdeal.RefRun.ops_arg6 _),
      (h c Cert.ReferenceIdeal.main_arg7).trans (Cert.ReferenceIdeal.RefRun.ops_arg7 _),
      (h c Cert.ReferenceIdeal.main_arg8).trans (Cert.ReferenceIdeal.RefRun.ops_arg8 _),
      (h c Cert.ReferenceIdeal.main_arg9).trans (Cert.ReferenceIdeal.RefRun.ops_arg9 _),
      (h c Cert.ReferenceIdeal.main_arg10).trans (Cert.ReferenceIdeal.RefRun.ops_arg10 _),
      (h c Cert.ReferenceIdeal.main_arg11).trans (Cert.ReferenceIdeal.RefRun.ops_arg11 _),
      (h c Cert.ReferenceIdeal.main_arg12).trans (Cert.ReferenceIdeal.RefRun.ops_arg12 _),
      (h c Cert.ReferenceIdeal.main_arg13).trans (Cert.ReferenceIdeal.RefRun.ops_arg13 _),
      (h c Cert.ReferenceIdeal.main_arg14).trans (Cert.ReferenceIdeal.RefRun.ops_arg14 _),
      (h c Cert.ReferenceIdeal.main_arg15).trans (Cert.ReferenceIdeal.RefRun.ops_arg15 _)⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
